-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x785 : Shape := ⟨3, ![8, 2048, 785]⟩
abbrev S784 : Shape := ⟨1, ![784]⟩
abbrev S_ : Shape := ⟨0, ![]⟩

class Facts : Prop where
  bcast_S_S8x2048x785 : S_.BroadcastsInDim S8x2048x785 (![] : Fin 0 → Fin S8x2048x785.rank)
  reducesTo_S8x2048x785_S_d0_1_2 : S8x2048x785.ReducesTo [0, 1, 2] S_
  h_S_ : 0 < S_.numel
  bcast_S_S784 : S_.BroadcastsInDim S784 (![] : Fin 0 → Fin S784.rank)
  reducesTo_S784_S_d0 : S784.ReducesTo [0] S_

variable [Facts]

def fn_part1 {F : FTy → Type} [FloatOps F] (main_v13 : IVec S_ 1) (main_v16 : IVec S784 1) : IVec S_ 1 :=
  let main_c_5 : IVec S_ 1 := constantI S_ 1 1#1
  let main_v17 : IVec S_ 1 := (fun x v => Host.reduce IntOp.andi x v reducesTo_S784_S_d0 h_S_) main_v16 main_c_5
  let main_v18 : IVec S_ 1 := andi main_v13 main_v17
  main_v18

def fn {F : FTy → Type} [FloatOps F] (main_arg0 : FVec F S8x2048x785 .f32) (main_arg1 : FVec F S8x2048x785 .f32) (main_arg2 : FVec F S784 .f32) (main_arg3 : FVec F S784 .f32) : IVec S_ 1 :=
  let main_v0 : FVec F S8x2048x785 .f32 := Host.absf main_arg0
  let main_cst : FVec F S_ .f32 := constant S_ .f32 0x7F800000#32
  let main_v1 : FVec F S8x2048x785 .f32 := broadcastInDim S8x2048x785 ![] bcast_S_S8x2048x785 main_cst
  let main_v2 : IVec S8x2048x785 1 := cmpf .olt main_v0 main_v1
  let main_c : IVec S_ 1 := constantI S_ 1 1#1
  let main_v3 : IVec S_ 1 := (fun x v => Host.reduce IntOp.andi x v reducesTo_S8x2048x785_S_d0_1_2 h_S_) main_v2 main_c
  let main_v4 : FVec F S8x2048x785 .f32 := Host.absf main_arg1
  let main_cst_0 : FVec F S_ .f32 := constant S_ .f32 0x7F800000#32
  let main_v5 : FVec F S8x2048x785 .f32 := broadcastInDim S8x2048x785 ![] bcast_S_S8x2048x785 main_cst_0
  let main_v6 : IVec S8x2048x785 1 := cmpf .olt main_v4 main_v5
  let main_c_1 : IVec S_ 1 := constantI S_ 1 1#1
  let main_v7 : IVec S_ 1 := (fun x v => Host.reduce IntOp.andi x v reducesTo_S8x2048x785_S_d0_1_2 h_S_) main_v6 main_c_1
  let main_v8 : IVec S_ 1 := andi main_v3 main_v7
  let main_v9 : FVec F S784 .f32 := Host.absf main_arg2
  let main_cst_2 : FVec F S_ .f32 := constant S_ .f32 0x7F800000#32
  let main_v10 : FVec F S784 .f32 := broadcastInDim S784 ![] bcast_S_S784 main_cst_2
  let main_v11 : IVec S784 1 := cmpf .olt main_v9 main_v10
  let main_c_3 : IVec S_ 1 := constantI S_ 1 1#1
  let main_v12 : IVec S_ 1 := (fun x v => Host.reduce IntOp.andi x v reducesTo_S784_S_d0 h_S_) main_v11 main_c_3
  let main_v13 : IVec S_ 1 := andi main_v8 main_v12
  let main_v14 : FVec F S784 .f32 := Host.absf main_arg3
  let main_cst_4 : FVec F S_ .f32 := constant S_ .f32 0x7F800000#32
  let main_v15 : FVec F S784 .f32 := broadcastInDim S784 ![] bcast_S_S784 main_cst_4
  let main_v16 : IVec S784 1 := cmpf .olt main_v14 main_v15
  fn_part1 (F := F) main_v13 main_v16
-- ==== Kernel.lean ====
abbrev S8x2048x785 : Shape := ⟨3, ![8, 2048, 785]⟩
abbrev S784 : Shape := ⟨1, ![784]⟩
abbrev S_ : Shape := ⟨0, ![]⟩
abbrev S16384 : Shape := ⟨1, ![16384]⟩
abbrev S16x785 : Shape := ⟨2, ![16, 785]⟩
abbrev S512 : Shape := ⟨1, ![512]⟩
abbrev S64 : Shape := ⟨1, ![64]⟩
abbrev S16 : Shape := ⟨1, ![16]⟩
abbrev S1x16x785 : Shape := ⟨3, ![1, 16, 785]⟩
abbrev S1x16 : Shape := ⟨2, ![1, 16]⟩
abbrev S8x2048 : Shape := ⟨2, ![8, 2048]⟩

abbrev nBuf : Table → Nat
  | .hbm => 18
  | .local .scVector .vmem => 9
  | _ => 0

abbrev bufTy : (tb : Table) → Fin (nBuf tb) → BufTy
  | .hbm, ⟨0, _⟩ => ⟨S8x2048x785, .f32⟩
  | .hbm, ⟨1, _⟩ => ⟨S8x2048x785, .f32⟩
  | .hbm, ⟨2, _⟩ => ⟨S784, .f32⟩
  | .hbm, ⟨3, _⟩ => ⟨S784, .f32⟩
  | .hbm, ⟨4, _⟩ => ⟨S784, .f32⟩
  | .hbm, ⟨5, _⟩ => ⟨S_, .f32⟩
  | .hbm, ⟨6, _⟩ => ⟨S784, .f32⟩
  | .hbm, ⟨7, _⟩ => ⟨S784, .f32⟩
  | .hbm, ⟨8, _⟩ => ⟨S784, .f32⟩
  | .hbm, ⟨9, _⟩ => ⟨S_, .f32⟩
  | .hbm, ⟨10, _⟩ => ⟨S784, .f32⟩
  | .hbm, ⟨11, _⟩ => ⟨S784, .f32⟩
  | .hbm, ⟨12, _⟩ => ⟨S8x2048x785, .f32⟩
  | .hbm, ⟨13, _⟩ => ⟨S8x2048x785, .f32⟩
  | .hbm, ⟨14, _⟩ => ⟨S16384, .f32⟩
  | .hbm, ⟨15, _⟩ => ⟨S16384, .f32⟩
  | .hbm, ⟨16, _⟩ => ⟨S8x2048, .f32⟩
  | .hbm, ⟨17, _⟩ => ⟨S8x2048, .f32⟩
  | .local .scVector .vmem, ⟨0, _⟩ => ⟨S784, .f32⟩
  | .local .scVector .vmem, ⟨1, _⟩ => ⟨S784, .f32⟩
  | .local .scVector .vmem, ⟨2, _⟩ => ⟨S16x785, .f32⟩
  | .local .scVector .vmem, ⟨3, _⟩ => ⟨S16x785, .f32⟩
  | .local .scVector .vmem, ⟨4, _⟩ => ⟨S16x785, .f32⟩
  | .local .scVector .vmem, ⟨5, _⟩ => ⟨S16x785, .f32⟩
  | .local .scVector .vmem, ⟨6, _⟩ => ⟨S512, .f32⟩
  | .local .scVector .vmem, ⟨7, _⟩ => ⟨S512, .f32⟩
  | .local .scVector .vmem, ⟨8, _⟩ => ⟨S64, .f32⟩
  | _, _ => ⟨S8x2048x785, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v2_scv : Ref sig .scVector := ⟨.hbm, 7, rfl⟩
abbrev main_v5_scv : Ref sig .scVector := ⟨.hbm, 11, rfl⟩
abbrev main_arg0_scv : Ref sig .scVector := ⟨.hbm, 0, rfl⟩
abbrev main_arg1_scv : Ref sig .scVector := ⟨.hbm, 1, rfl⟩
abbrev main_v6_0_scv : Ref sig .scVector := ⟨.hbm, 12, rfl⟩
abbrev main_v6_1_scv : Ref sig .scVector := ⟨.hbm, 13, rfl⟩
abbrev main_v6_2_scv : Ref sig .scVector := ⟨.hbm, 14, rfl⟩
abbrev main_v6_3_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_13 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v64 : BitVec 32 := Scalar.addi v29 c0_i32_13
  let c0_i32_14 : BitVec 32 := 0#32
  ![v18.toNat, v64.toNat, 0]
@[reducible] def k0_t1_loop : Scf.Loop 32 :=
  let c0_i32_23 : BitVec 32 := 0#32
  let c16_i32_24 : BitVec 32 := 16#32
  let v82 : BitVec 32 := Scalar.addi c0_i32_23 c16_i32_24
  let c1_i32_25 : BitVec 32 := 1#32
  ⟨c0_i32_23, v82, c1_i32_25⟩
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32_37 : BitVec 32 := 2#32
  let c0_i32_23 : BitVec 32 := 0#32
  let c1_i32_25 : BitVec 32 := 1#32
  let arg27 : BitVec 32 := Scf.iv c0_i32_23 c1_i32_25 k0_t1
  let v104 : BitVec 32 := Scalar.muli c2_i32_37 arg27
  let c16_i32_40 : BitVec 32 := 16#32
  let v107 : BitVec 32 := Scalar.muli v104 c16_i32_40
  let v108 : BitVec 32 := Scalar.addi v29 v107
  let c0_i32_41 : BitVec 32 := 0#32
  ![v18.toNat, v108.toNat, 0]
@[reducible] def k0_t2_loop : Scf.Loop 32 :=
  let c0_i32_45 : BitVec 32 := 0#32
  let c16_i32_46 : BitVec 32 := 16#32
  let v117 : BitVec 32 := Scalar.addi c0_i32_45 c16_i32_46
  let c1_i32_47 : BitVec 32 := 1#32
  ⟨c0_i32_45, v117, c1_i32_47⟩
def k0_off3 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v166 : Index := Scalar.indexCast arg29
  let c0 : Index := 0#32
  ![v166.toNat, 0]
def k0_off4 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v182 : Index := Scalar.indexCast arg29
  let c16 : Index := 16#32
  ![v182.toNat, 16]
def k0_off5 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v198 : Index := Scalar.indexCast arg29
  let c32 : Index := 32#32
  ![v198.toNat, 32]
def k0_off6 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v214 : Index := Scalar.indexCast arg29
  let c48 : Index := 48#32
  ![v214.toNat, 48]
def k0_off7 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v230 : Index := Scalar.indexCast arg29
  let c64 : Index := 64#32
  ![v230.toNat, 64]
def k0_off8 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v246 : Index := Scalar.indexCast arg29
  let c80 : Index := 80#32
  ![v246.toNat, 80]
def k0_off9 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v262 : Index := Scalar.indexCast arg29
  let c96 : Index := 96#32
  ![v262.toNat, 96]
def k0_off10 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v278 : Index := Scalar.indexCast arg29
  let c112 : Index := 112#32
  ![v278.toNat, 112]
def k0_off11 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v294 : Index := Scalar.indexCast arg29
  let c128 : Index := 128#32
  ![v294.toNat, 128]
def k0_off12 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v310 : Index := Scalar.indexCast arg29
  let c144 : Index := 144#32
  ![v310.toNat, 144]
def k0_off13 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v326 : Index := Scalar.indexCast arg29
  let c160 : Index := 160#32
  ![v326.toNat, 160]
def k0_off14 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v342 : Index := Scalar.indexCast arg29
  let c176 : Index := 176#32
  ![v342.toNat, 176]
def k0_off15 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v358 : Index := Scalar.indexCast arg29
  let c192 : Index := 192#32
  ![v358.toNat, 192]
def k0_off16 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v374 : Index := Scalar.indexCast arg29
  let c208 : Index := 208#32
  ![v374.toNat, 208]
def k0_off17 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v390 : Index := Scalar.indexCast arg29
  let c224 : Index := 224#32
  ![v390.toNat, 224]
def k0_off18 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v406 : Index := Scalar.indexCast arg29
  let c240 : Index := 240#32
  ![v406.toNat, 240]
def k0_off19 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v422 : Index := Scalar.indexCast arg29
  let c256 : Index := 256#32
  ![v422.toNat, 256]
def k0_off20 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v438 : Index := Scalar.indexCast arg29
  let c272 : Index := 272#32
  ![v438.toNat, 272]
def k0_off21 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v454 : Index := Scalar.indexCast arg29
  let c288 : Index := 288#32
  ![v454.toNat, 288]
def k0_off22 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v470 : Index := Scalar.indexCast arg29
  let c304 : Index := 304#32
  ![v470.toNat, 304]
def k0_off23 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v486 : Index := Scalar.indexCast arg29
  let c320 : Index := 320#32
  ![v486.toNat, 320]
def k0_off24 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v502 : Index := Scalar.indexCast arg29
  let c336 : Index := 336#32
  ![v502.toNat, 336]
def k0_off25 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v518 : Index := Scalar.indexCast arg29
  let c352 : Index := 352#32
  ![v518.toNat, 352]
def k0_off26 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v534 : Index := Scalar.indexCast arg29
  let c368 : Index := 368#32
  ![v534.toNat, 368]
def k0_off27 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v550 : Index := Scalar.indexCast arg29
  let c384 : Index := 384#32
  ![v550.toNat, 384]
def k0_off28 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v566 : Index := Scalar.indexCast arg29
  let c400 : Index := 400#32
  ![v566.toNat, 400]
def k0_off29 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v582 : Index := Scalar.indexCast arg29
  let c416 : Index := 416#32
  ![v582.toNat, 416]
def k0_off30 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v598 : Index := Scalar.indexCast arg29
  let c432 : Index := 432#32
  ![v598.toNat, 432]
def k0_off31 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v614 : Index := Scalar.indexCast arg29
  let c448 : Index := 448#32
  ![v614.toNat, 448]
def k0_off32 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v630 : Index := Scalar.indexCast arg29
  let c464 : Index := 464#32
  ![v630.toNat, 464]
def k0_off33 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v646 : Index := Scalar.indexCast arg29
  let c480 : Index := 480#32
  ![v646.toNat, 480]
def k0_off34 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v662 : Index := Scalar.indexCast arg29
  let c496 : Index := 496#32
  ![v662.toNat, 496]
def k0_off35 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v678 : Index := Scalar.indexCast arg29
  let c512 : Index := 512#32
  ![v678.toNat, 512]
def k0_off36 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v694 : Index := Scalar.indexCast arg29
  let c528 : Index := 528#32
  ![v694.toNat, 528]
def k0_off37 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v710 : Index := Scalar.indexCast arg29
  let c544 : Index := 544#32
  ![v710.toNat, 544]
def k0_off38 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v726 : Index := Scalar.indexCast arg29
  let c560 : Index := 560#32
  ![v726.toNat, 560]
def k0_off39 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v742 : Index := Scalar.indexCast arg29
  let c576 : Index := 576#32
  ![v742.toNat, 576]
def k0_off40 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v758 : Index := Scalar.indexCast arg29
  let c592 : Index := 592#32
  ![v758.toNat, 592]
def k0_off41 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v774 : Index := Scalar.indexCast arg29
  let c608 : Index := 608#32
  ![v774.toNat, 608]
def k0_off42 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v790 : Index := Scalar.indexCast arg29
  let c624 : Index := 624#32
  ![v790.toNat, 624]
def k0_off43 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v806 : Index := Scalar.indexCast arg29
  let c640 : Index := 640#32
  ![v806.toNat, 640]
def k0_off44 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v822 : Index := Scalar.indexCast arg29
  let c656 : Index := 656#32
  ![v822.toNat, 656]
def k0_off45 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v838 : Index := Scalar.indexCast arg29
  let c672 : Index := 672#32
  ![v838.toNat, 672]
def k0_off46 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v854 : Index := Scalar.indexCast arg29
  let c688 : Index := 688#32
  ![v854.toNat, 688]
def k0_off47 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v870 : Index := Scalar.indexCast arg29
  let c704 : Index := 704#32
  ![v870.toNat, 704]
def k0_off48 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v886 : Index := Scalar.indexCast arg29
  let c720 : Index := 720#32
  ![v886.toNat, 720]
def k0_off49 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v902 : Index := Scalar.indexCast arg29
  let c736 : Index := 736#32
  ![v902.toNat, 736]
def k0_off50 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v918 : Index := Scalar.indexCast arg29
  let c752 : Index := 752#32
  ![v918.toNat, 752]
def k0_off51 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v934 : Index := Scalar.indexCast arg29
  let c768 : Index := 768#32
  ![v934.toNat, 768]
def k0_off52 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v952 : Index := Scalar.indexCast arg29
  let c769 : Index := 769#32
  ![v952.toNat, 769]
def k0_off53 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1045 : Index := Scalar.indexCast arg29
  let c0_241 : Index := 0#32
  ![v1045.toNat, 0]
def k0_off54 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1055 : Index := Scalar.indexCast arg29
  let c16_245 : Index := 16#32
  ![v1055.toNat, 16]
def k0_off55 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1065 : Index := Scalar.indexCast arg29
  let c32_249 : Index := 32#32
  ![v1065.toNat, 32]
def k0_off56 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1075 : Index := Scalar.indexCast arg29
  let c48_253 : Index := 48#32
  ![v1075.toNat, 48]
def k0_off57 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1085 : Index := Scalar.indexCast arg29
  let c64_257 : Index := 64#32
  ![v1085.toNat, 64]
def k0_off58 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1095 : Index := Scalar.indexCast arg29
  let c80_261 : Index := 80#32
  ![v1095.toNat, 80]
def k0_off59 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1105 : Index := Scalar.indexCast arg29
  let c96_265 : Index := 96#32
  ![v1105.toNat, 96]
def k0_off60 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1115 : Index := Scalar.indexCast arg29
  let c112_269 : Index := 112#32
  ![v1115.toNat, 112]
def k0_off61 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1125 : Index := Scalar.indexCast arg29
  let c128_273 : Index := 128#32
  ![v1125.toNat, 128]
def k0_off62 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1135 : Index := Scalar.indexCast arg29
  let c144_277 : Index := 144#32
  ![v1135.toNat, 144]
def k0_off63 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1145 : Index := Scalar.indexCast arg29
  let c160_281 : Index := 160#32
  ![v1145.toNat, 160]
def k0_off64 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1155 : Index := Scalar.indexCast arg29
  let c176_285 : Index := 176#32
  ![v1155.toNat, 176]
def k0_off65 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1165 : Index := Scalar.indexCast arg29
  let c192_289 : Index := 192#32
  ![v1165.toNat, 192]
def k0_off66 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1175 : Index := Scalar.indexCast arg29
  let c208_293 : Index := 208#32
  ![v1175.toNat, 208]
def k0_off67 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1185 : Index := Scalar.indexCast arg29
  let c224_297 : Index := 224#32
  ![v1185.toNat, 224]
def k0_off68 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1195 : Index := Scalar.indexCast arg29
  let c240_301 : Index := 240#32
  ![v1195.toNat, 240]
def k0_off69 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1205 : Index := Scalar.indexCast arg29
  let c256_305 : Index := 256#32
  ![v1205.toNat, 256]
def k0_off70 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1215 : Index := Scalar.indexCast arg29
  let c272_309 : Index := 272#32
  ![v1215.toNat, 272]
def k0_off71 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1225 : Index := Scalar.indexCast arg29
  let c288_313 : Index := 288#32
  ![v1225.toNat, 288]
def k0_off72 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1235 : Index := Scalar.indexCast arg29
  let c304_317 : Index := 304#32
  ![v1235.toNat, 304]
def k0_off73 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1245 : Index := Scalar.indexCast arg29
  let c320_321 : Index := 320#32
  ![v1245.toNat, 320]
def k0_off74 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1255 : Index := Scalar.indexCast arg29
  let c336_325 : Index := 336#32
  ![v1255.toNat, 336]
def k0_off75 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1265 : Index := Scalar.indexCast arg29
  let c352_329 : Index := 352#32
  ![v1265.toNat, 352]
def k0_off76 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1275 : Index := Scalar.indexCast arg29
  let c368_333 : Index := 368#32
  ![v1275.toNat, 368]
def k0_off77 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1285 : Index := Scalar.indexCast arg29
  let c384_337 : Index := 384#32
  ![v1285.toNat, 384]
def k0_off78 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1295 : Index := Scalar.indexCast arg29
  let c400_341 : Index := 400#32
  ![v1295.toNat, 400]
def k0_off79 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1305 : Index := Scalar.indexCast arg29
  let c416_345 : Index := 416#32
  ![v1305.toNat, 416]
def k0_off80 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1315 : Index := Scalar.indexCast arg29
  let c432_349 : Index := 432#32
  ![v1315.toNat, 432]
def k0_off81 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1325 : Index := Scalar.indexCast arg29
  let c448_353 : Index := 448#32
  ![v1325.toNat, 448]
def k0_off82 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1335 : Index := Scalar.indexCast arg29
  let c464_357 : Index := 464#32
  ![v1335.toNat, 464]
def k0_off83 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1345 : Index := Scalar.indexCast arg29
  let c480_361 : Index := 480#32
  ![v1345.toNat, 480]
def k0_off84 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1355 : Index := Scalar.indexCast arg29
  let c496_365 : Index := 496#32
  ![v1355.toNat, 496]
def k0_off85 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1365 : Index := Scalar.indexCast arg29
  let c512_369 : Index := 512#32
  ![v1365.toNat, 512]
def k0_off86 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1375 : Index := Scalar.indexCast arg29
  let c528_373 : Index := 528#32
  ![v1375.toNat, 528]
def k0_off87 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1385 : Index := Scalar.indexCast arg29
  let c544_377 : Index := 544#32
  ![v1385.toNat, 544]
def k0_off88 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1395 : Index := Scalar.indexCast arg29
  let c560_381 : Index := 560#32
  ![v1395.toNat, 560]
def k0_off89 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1405 : Index := Scalar.indexCast arg29
  let c576_385 : Index := 576#32
  ![v1405.toNat, 576]
def k0_off90 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1415 : Index := Scalar.indexCast arg29
  let c592_389 : Index := 592#32
  ![v1415.toNat, 592]
def k0_off91 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1425 : Index := Scalar.indexCast arg29
  let c608_393 : Index := 608#32
  ![v1425.toNat, 608]
def k0_off92 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1435 : Index := Scalar.indexCast arg29
  let c624_397 : Index := 624#32
  ![v1435.toNat, 624]
def k0_off93 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1445 : Index := Scalar.indexCast arg29
  let c640_401 : Index := 640#32
  ![v1445.toNat, 640]
def k0_off94 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1455 : Index := Scalar.indexCast arg29
  let c656_405 : Index := 656#32
  ![v1455.toNat, 656]
def k0_off95 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1465 : Index := Scalar.indexCast arg29
  let c672_409 : Index := 672#32
  ![v1465.toNat, 672]
def k0_off96 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1475 : Index := Scalar.indexCast arg29
  let c688_413 : Index := 688#32
  ![v1475.toNat, 688]
def k0_off97 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1485 : Index := Scalar.indexCast arg29
  let c704_417 : Index := 704#32
  ![v1485.toNat, 704]
def k0_off98 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1495 : Index := Scalar.indexCast arg29
  let c720_421 : Index := 720#32
  ![v1495.toNat, 720]
def k0_off99 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1505 : Index := Scalar.indexCast arg29
  let c736_425 : Index := 736#32
  ![v1505.toNat, 736]
def k0_off100 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1515 : Index := Scalar.indexCast arg29
  let c752_429 : Index := 752#32
  ![v1515.toNat, 752]
def k0_off101 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1525 : Index := Scalar.indexCast arg29
  let c768_433 : Index := 768#32
  ![v1525.toNat, 768]
def k0_off102 (k0_t2 : Fin k0_t2_loop.trips) : Fin 2 → Nat :=
  let c0_i32_45 : BitVec 32 := 0#32
  let c1_i32_47 : BitVec 32 := 1#32
  let arg29 : BitVec 32 := Scf.iv c0_i32_45 c1_i32_47 k0_t2
  let v1535 : Index := Scalar.indexCast arg29
  let c769_437 : Index := 769#32
  ![v1535.toNat, 769]
def k0_off103 (k0_t1 : Fin k0_t1_loop.trips) : Fin 1 → Nat :=
  let c2_i32_37 : BitVec 32 := 2#32
  let c0_i32_23 : BitVec 32 := 0#32
  let c1_i32_25 : BitVec 32 := 1#32
  let arg27 : BitVec 32 := Scf.iv c0_i32_23 c1_i32_25 k0_t1
  let v104 : BitVec 32 := Scalar.muli c2_i32_37 arg27
  let c16_i32_49 : BitVec 32 := 16#32
  let v119 : BitVec 32 := Scalar.muli v104 c16_i32_49
  let v120 : Index := Scalar.indexCast v119
  ![v120.toNat]
def k0_off104 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32_37 : BitVec 32 := 2#32
  let c0_i32_23 : BitVec 32 := 0#32
  let c1_i32_25 : BitVec 32 := 1#32
  let arg27 : BitVec 32 := Scf.iv c0_i32_23 c1_i32_25 k0_t1
  let v104 : BitVec 32 := Scalar.muli c2_i32_37 arg27
  let c16_i32_51 : BitVec 32 := 16#32
  let v125 : BitVec 32 := Scalar.muli v104 c16_i32_51
  let v126 : BitVec 32 := Scalar.addi v29 v125
  let c0_i32_52 : BitVec 32 := 0#32
  ![v18.toNat, v126.toNat, 0]
def k0_off105 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32_38 : BitVec 32 := 2#32
  let c0_i32_23 : BitVec 32 := 0#32
  let c1_i32_25 : BitVec 32 := 1#32
  let arg27 : BitVec 32 := Scf.iv c0_i32_23 c1_i32_25 k0_t1
  let v105 : BitVec 32 := Scalar.muli c2_i32_38 arg27
  let c1_i32_39 : BitVec 32 := 1#32
  let v106 : BitVec 32 := Scalar.addi v105 c1_i32_39
  let c16_i32_56 : BitVec 32 := 16#32
  let v135 : BitVec 32 := Scalar.muli v106 c16_i32_56
  let v136 : BitVec 32 := Scalar.addi v29 v135
  let c0_i32_57 : BitVec 32 := 0#32
  ![v18.toNat, v136.toNat, 0]
@[reducible] def k0_t3_loop : Scf.Loop 32 :=
  let c0_i32_61 : BitVec 32 := 0#32
  let c16_i32_62 : BitVec 32 := 16#32
  let v145 : BitVec 32 := Scalar.addi c0_i32_61 c16_i32_62
  let c1_i32_63 : BitVec 32 := 1#32
  ⟨c0_i32_61, v145, c1_i32_63⟩
def k0_off106 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v166 : Index := Scalar.indexCast arg29
  let c0 : Index := 0#32
  ![v166.toNat, 0]
def k0_off107 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v182 : Index := Scalar.indexCast arg29
  let c16 : Index := 16#32
  ![v182.toNat, 16]
def k0_off108 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v198 : Index := Scalar.indexCast arg29
  let c32 : Index := 32#32
  ![v198.toNat, 32]
def k0_off109 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v214 : Index := Scalar.indexCast arg29
  let c48 : Index := 48#32
  ![v214.toNat, 48]
def k0_off110 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v230 : Index := Scalar.indexCast arg29
  let c64 : Index := 64#32
  ![v230.toNat, 64]
def k0_off111 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v246 : Index := Scalar.indexCast arg29
  let c80 : Index := 80#32
  ![v246.toNat, 80]
def k0_off112 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v262 : Index := Scalar.indexCast arg29
  let c96 : Index := 96#32
  ![v262.toNat, 96]
def k0_off113 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v278 : Index := Scalar.indexCast arg29
  let c112 : Index := 112#32
  ![v278.toNat, 112]
def k0_off114 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v294 : Index := Scalar.indexCast arg29
  let c128 : Index := 128#32
  ![v294.toNat, 128]
def k0_off115 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v310 : Index := Scalar.indexCast arg29
  let c144 : Index := 144#32
  ![v310.toNat, 144]
def k0_off116 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v326 : Index := Scalar.indexCast arg29
  let c160 : Index := 160#32
  ![v326.toNat, 160]
def k0_off117 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v342 : Index := Scalar.indexCast arg29
  let c176 : Index := 176#32
  ![v342.toNat, 176]
def k0_off118 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v358 : Index := Scalar.indexCast arg29
  let c192 : Index := 192#32
  ![v358.toNat, 192]
def k0_off119 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v374 : Index := Scalar.indexCast arg29
  let c208 : Index := 208#32
  ![v374.toNat, 208]
def k0_off120 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v390 : Index := Scalar.indexCast arg29
  let c224 : Index := 224#32
  ![v390.toNat, 224]
def k0_off121 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v406 : Index := Scalar.indexCast arg29
  let c240 : Index := 240#32
  ![v406.toNat, 240]
def k0_off122 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v422 : Index := Scalar.indexCast arg29
  let c256 : Index := 256#32
  ![v422.toNat, 256]
def k0_off123 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v438 : Index := Scalar.indexCast arg29
  let c272 : Index := 272#32
  ![v438.toNat, 272]
def k0_off124 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v454 : Index := Scalar.indexCast arg29
  let c288 : Index := 288#32
  ![v454.toNat, 288]
def k0_off125 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v470 : Index := Scalar.indexCast arg29
  let c304 : Index := 304#32
  ![v470.toNat, 304]
def k0_off126 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v486 : Index := Scalar.indexCast arg29
  let c320 : Index := 320#32
  ![v486.toNat, 320]
def k0_off127 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v502 : Index := Scalar.indexCast arg29
  let c336 : Index := 336#32
  ![v502.toNat, 336]
def k0_off128 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v518 : Index := Scalar.indexCast arg29
  let c352 : Index := 352#32
  ![v518.toNat, 352]
def k0_off129 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v534 : Index := Scalar.indexCast arg29
  let c368 : Index := 368#32
  ![v534.toNat, 368]
def k0_off130 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v550 : Index := Scalar.indexCast arg29
  let c384 : Index := 384#32
  ![v550.toNat, 384]
def k0_off131 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v566 : Index := Scalar.indexCast arg29
  let c400 : Index := 400#32
  ![v566.toNat, 400]
def k0_off132 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v582 : Index := Scalar.indexCast arg29
  let c416 : Index := 416#32
  ![v582.toNat, 416]
def k0_off133 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v598 : Index := Scalar.indexCast arg29
  let c432 : Index := 432#32
  ![v598.toNat, 432]
def k0_off134 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v614 : Index := Scalar.indexCast arg29
  let c448 : Index := 448#32
  ![v614.toNat, 448]
def k0_off135 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v630 : Index := Scalar.indexCast arg29
  let c464 : Index := 464#32
  ![v630.toNat, 464]
def k0_off136 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v646 : Index := Scalar.indexCast arg29
  let c480 : Index := 480#32
  ![v646.toNat, 480]
def k0_off137 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v662 : Index := Scalar.indexCast arg29
  let c496 : Index := 496#32
  ![v662.toNat, 496]
def k0_off138 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v678 : Index := Scalar.indexCast arg29
  let c512 : Index := 512#32
  ![v678.toNat, 512]
def k0_off139 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v694 : Index := Scalar.indexCast arg29
  let c528 : Index := 528#32
  ![v694.toNat, 528]
def k0_off140 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v710 : Index := Scalar.indexCast arg29
  let c544 : Index := 544#32
  ![v710.toNat, 544]
def k0_off141 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v726 : Index := Scalar.indexCast arg29
  let c560 : Index := 560#32
  ![v726.toNat, 560]
def k0_off142 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v742 : Index := Scalar.indexCast arg29
  let c576 : Index := 576#32
  ![v742.toNat, 576]
def k0_off143 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v758 : Index := Scalar.indexCast arg29
  let c592 : Index := 592#32
  ![v758.toNat, 592]
def k0_off144 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v774 : Index := Scalar.indexCast arg29
  let c608 : Index := 608#32
  ![v774.toNat, 608]
def k0_off145 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v790 : Index := Scalar.indexCast arg29
  let c624 : Index := 624#32
  ![v790.toNat, 624]
def k0_off146 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v806 : Index := Scalar.indexCast arg29
  let c640 : Index := 640#32
  ![v806.toNat, 640]
def k0_off147 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v822 : Index := Scalar.indexCast arg29
  let c656 : Index := 656#32
  ![v822.toNat, 656]
def k0_off148 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v838 : Index := Scalar.indexCast arg29
  let c672 : Index := 672#32
  ![v838.toNat, 672]
def k0_off149 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v854 : Index := Scalar.indexCast arg29
  let c688 : Index := 688#32
  ![v854.toNat, 688]
def k0_off150 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v870 : Index := Scalar.indexCast arg29
  let c704 : Index := 704#32
  ![v870.toNat, 704]
def k0_off151 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v886 : Index := Scalar.indexCast arg29
  let c720 : Index := 720#32
  ![v886.toNat, 720]
def k0_off152 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v902 : Index := Scalar.indexCast arg29
  let c736 : Index := 736#32
  ![v902.toNat, 736]
def k0_off153 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v918 : Index := Scalar.indexCast arg29
  let c752 : Index := 752#32
  ![v918.toNat, 752]
def k0_off154 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v934 : Index := Scalar.indexCast arg29
  let c768 : Index := 768#32
  ![v934.toNat, 768]
def k0_off155 (k0_t3 : Fin k0_t3_loop.trips) : Fin 2 → Nat :=
  let c0_i32_61 : BitVec 32 := 0#32
  let c1_i32_63 : BitVec 32 := 1#32
  let arg29 : BitVec 32 := Scf.iv c0_i32_61 c1_i32_63 k0_t3
  let v952 : Index := Scalar.indexCast arg29
  let c769 : Index := 769#32
  ![v952.toNat, 769]

def k0_chk1 (v33 : IVec S16 32) : Prop :=
  (∀ a x, ((![v33] : Fin 1 → IVec S16 32) a x).toNat < S64.size a) ∧
  (∀ a x, ((![v33] : Fin 1 → IVec S16 32) a x).toNat < S64.size a)
instance k0_chk1.dec : ∀ (v33 : IVec S16 32), Decidable (k0_chk1 v33) := fun v33 => decidable_of_iff' _ (Iff.of_eq (k0_chk1.eq_1 v33))
theorem k0_idx1_inb : ∀ (v33 : IVec S16 32) (k0_hw1 : k0_chk1 v33), ∀ a x, ((![v33] : Fin 1 → IVec S16 32) a x).toNat < S64.size a := fun v33 k0_hw1 => k0_hw1.1
theorem k0_idx17_inb : ∀ (v33 : IVec S16 32) (k0_hw1 : k0_chk1 v33), ∀ a x, ((![v33] : Fin 1 → IVec S16 32) a x).toNat < S64.size a := fun v33 k0_hw1 => k0_hw1.2

def k0_chk2 (v35 : IVec S16 32) : Prop :=
  (∀ a x, ((![v35] : Fin 1 → IVec S16 32) a x).toNat < S64.size a) ∧
  (∀ a x, ((![v35] : Fin 1 → IVec S16 32) a x).toNat < S64.size a)
instance k0_chk2.dec : ∀ (v35 : IVec S16 32), Decidable (k0_chk2 v35) := fun v35 => decidable_of_iff' _ (Iff.of_eq (k0_chk2.eq_1 v35))
theorem k0_idx2_inb : ∀ (v35 : IVec S16 32) (k0_hw2 : k0_chk2 v35), ∀ a x, ((![v35] : Fin 1 → IVec S16 32) a x).toNat < S64.size a := fun v35 k0_hw2 => k0_hw2.1
theorem k0_idx18_inb : ∀ (v35 : IVec S16 32) (k0_hw2 : k0_chk2 v35), ∀ a x, ((![v35] : Fin 1 → IVec S16 32) a x).toNat < S64.size a := fun v35 k0_hw2 => k0_hw2.2

def k0_chk3 (v37 : IVec S16 32) : Prop :=
  (∀ a x, ((![v37] : Fin 1 → IVec S16 32) a x).toNat < S64.size a) ∧
  (∀ a x, ((![v37] : Fin 1 → IVec S16 32) a x).toNat < S64.size a)
instance k0_chk3.dec : ∀ (v37 : IVec S16 32), Decidable (k0_chk3 v37) := fun v37 => decidable_of_iff' _ (Iff.of_eq (k0_chk3.eq_1 v37))
theorem k0_idx3_inb : ∀ (v37 : IVec S16 32) (k0_hw3 : k0_chk3 v37), ∀ a x, ((![v37] : Fin 1 → IVec S16 32) a x).toNat < S64.size a := fun v37 k0_hw3 => k0_hw3.1
theorem k0_idx19_inb : ∀ (v37 : IVec S16 32) (k0_hw3 : k0_chk3 v37), ∀ a x, ((![v37] : Fin 1 → IVec S16 32) a x).toNat < S64.size a := fun v37 k0_hw3 => k0_hw3.2

def k0_chk4 (v39 : IVec S16 32) : Prop :=
  (∀ a x, ((![v39] : Fin 1 → IVec S16 32) a x).toNat < S64.size a) ∧
  (∀ a x, ((![v39] : Fin 1 → IVec S16 32) a x).toNat < S64.size a)
instance k0_chk4.dec : ∀ (v39 : IVec S16 32), Decidable (k0_chk4 v39) := fun v39 => decidable_of_iff' _ (Iff.of_eq (k0_chk4.eq_1 v39))
theorem k0_idx4_inb : ∀ (v39 : IVec S16 32) (k0_hw4 : k0_chk4 v39), ∀ a x, ((![v39] : Fin 1 → IVec S16 32) a x).toNat < S64.size a := fun v39 k0_hw4 => k0_hw4.1
theorem k0_idx20_inb : ∀ (v39 : IVec S16 32) (k0_hw4 : k0_chk4 v39), ∀ a x, ((![v39] : Fin 1 → IVec S16 32) a x).toNat < S64.size a := fun v39 k0_hw4 => k0_hw4.2

def k0_chk5 (v41 : IVec S16 32) : Prop :=
  (∀ a x, ((![v41] : Fin 1 → IVec S16 32) a x).toNat < S64.size a) ∧
  (∀ a x, ((![v41] : Fin 1 → IVec S16 32) a x).toNat < S64.size a)
instance k0_chk5.dec : ∀ (v41 : IVec S16 32), Decidable (k0_chk5 v41) := fun v41 => decidable_of_iff' _ (Iff.of_eq (k0_chk5.eq_1 v41))
theorem k0_idx5_inb : ∀ (v41 : IVec S16 32) (k0_hw5 : k0_chk5 v41), ∀ a x, ((![v41] : Fin 1 → IVec S16 32) a x).toNat < S64.size a := fun v41 k0_hw5 => k0_hw5.1
theorem k0_idx21_inb : ∀ (v41 : IVec S16 32) (k0_hw5 : k0_chk5 v41), ∀ a x, ((![v41] : Fin 1 → IVec S16 32) a x).toNat < S64.size a := fun v41 k0_hw5 => k0_hw5.2

def k0_chk6 (v43 : IVec S16 32) : Prop :=
  (∀ a x, ((![v43] : Fin 1 → IVec S16 32) a x).toNat < S64.size a) ∧
  (∀ a x, ((![v43] : Fin 1 → IVec S16 32) a x).toNat < S64.size a)
instance k0_chk6.dec : ∀ (v43 : IVec S16 32), Decidable (k0_chk6 v43) := fun v43 => decidable_of_iff' _ (Iff.of_eq (k0_chk6.eq_1 v43))
theorem k0_idx6_inb : ∀ (v43 : IVec S16 32) (k0_hw6 : k0_chk6 v43), ∀ a x, ((![v43] : Fin 1 → IVec S16 32) a x).toNat < S64.size a := fun v43 k0_hw6 => k0_hw6.1
theorem k0_idx22_inb : ∀ (v43 : IVec S16 32) (k0_hw6 : k0_chk6 v43), ∀ a x, ((![v43] : Fin 1 → IVec S16 32) a x).toNat < S64.size a := fun v43 k0_hw6 => k0_hw6.2

def k0_chk7 (v45 : IVec S16 32) : Prop :=
  (∀ a x, ((![v45] : Fin 1 → IVec S16 32) a x).toNat < S64.size a) ∧
  (∀ a x, ((![v45] : Fin 1 → IVec S16 32) a x).toNat < S64.size a)
instance k0_chk7.dec : ∀ (v45 : IVec S16 32), Decidable (k0_chk7 v45) := fun v45 => decidable_of_iff' _ (Iff.of_eq (k0_chk7.eq_1 v45))
theorem k0_idx7_inb : ∀ (v45 : IVec S16 32) (k0_hw7 : k0_chk7 v45), ∀ a x, ((![v45] : Fin 1 → IVec S16 32) a x).toNat < S64.size a := fun v45 k0_hw7 => k0_hw7.1
theorem k0_idx23_inb : ∀ (v45 : IVec S16 32) (k0_hw7 : k0_chk7 v45), ∀ a x, ((![v45] : Fin 1 → IVec S16 32) a x).toNat < S64.size a := fun v45 k0_hw7 => k0_hw7.2

def k0_chk8 (v47 : IVec S16 32) : Prop :=
  (∀ a x, ((![v47] : Fin 1 → IVec S16 32) a x).toNat < S64.size a) ∧
  (∀ a x, ((![v47] : Fin 1 → IVec S16 32) a x).toNat < S64.size a)
instance k0_chk8.dec : ∀ (v47 : IVec S16 32), Decidable (k0_chk8 v47) := fun v47 => decidable_of_iff' _ (Iff.of_eq (k0_chk8.eq_1 v47))
theorem k0_idx8_inb : ∀ (v47 : IVec S16 32) (k0_hw8 : k0_chk8 v47), ∀ a x, ((![v47] : Fin 1 → IVec S16 32) a x).toNat < S64.size a := fun v47 k0_hw8 => k0_hw8.1
theorem k0_idx24_inb : ∀ (v47 : IVec S16 32) (k0_hw8 : k0_chk8 v47), ∀ a x, ((![v47] : Fin 1 → IVec S16 32) a x).toNat < S64.size a := fun v47 k0_hw8 => k0_hw8.2

def k0_chk9 (v49 : IVec S16 32) : Prop :=
  (∀ a x, ((![v49] : Fin 1 → IVec S16 32) a x).toNat < S64.size a) ∧
  (∀ a x, ((![v49] : Fin 1 → IVec S16 32) a x).toNat < S64.size a)
instance k0_chk9.dec : ∀ (v49 : IVec S16 32), Decidable (k0_chk9 v49) := fun v49 => decidable_of_iff' _ (Iff.of_eq (k0_chk9.eq_1 v49))
theorem k0_idx9_inb : ∀ (v49 : IVec S16 32) (k0_hw9 : k0_chk9 v49), ∀ a x, ((![v49] : Fin 1 → IVec S16 32) a x).toNat < S64.size a := fun v49 k0_hw9 => k0_hw9.1
theorem k0_idx25_inb : ∀ (v49 : IVec S16 32) (k0_hw9 : k0_chk9 v49), ∀ a x, ((![v49] : Fin 1 → IVec S16 32) a x).toNat < S64.size a := fun v49 k0_hw9 => k0_hw9.2

def k0_chk10 (v51 : IVec S16 32) : Prop :=
  (∀ a x, ((![v51] : Fin 1 → IVec S16 32) a x).toNat < S64.size a) ∧
  (∀ a x, ((![v51] : Fin 1 → IVec S16 32) a x).toNat < S64.size a)
instance k0_chk10.dec : ∀ (v51 : IVec S16 32), Decidable (k0_chk10 v51) := fun v51 => decidable_of_iff' _ (Iff.of_eq (k0_chk10.eq_1 v51))
theorem k0_idx10_inb : ∀ (v51 : IVec S16 32) (k0_hw10 : k0_chk10 v51), ∀ a x, ((![v51] : Fin 1 → IVec S16 32) a x).toNat < S64.size a := fun v51 k0_hw10 => k0_hw10.1
theorem k0_idx26_inb : ∀ (v51 : IVec S16 32) (k0_hw10 : k0_chk10 v51), ∀ a x, ((![v51] : Fin 1 → IVec S16 32) a x).toNat < S64.size a := fun v51 k0_hw10 => k0_hw10.2

def k0_chk11 (v53 : IVec S16 32) : Prop :=
  (∀ a x, ((![v53] : Fin 1 → IVec S16 32) a x).toNat < S64.size a) ∧
  (∀ a x, ((![v53] : Fin 1 → IVec S16 32) a x).toNat < S64.size a)
instance k0_chk11.dec : ∀ (v53 : IVec S16 32), Decidable (k0_chk11 v53) := fun v53 => decidable_of_iff' _ (Iff.of_eq (k0_chk11.eq_1 v53))
theorem k0_idx11_inb : ∀ (v53 : IVec S16 32) (k0_hw11 : k0_chk11 v53), ∀ a x, ((![v53] : Fin 1 → IVec S16 32) a x).toNat < S64.size a := fun v53 k0_hw11 => k0_hw11.1
theorem k0_idx27_inb : ∀ (v53 : IVec S16 32) (k0_hw11 : k0_chk11 v53), ∀ a x, ((![v53] : Fin 1 → IVec S16 32) a x).toNat < S64.size a := fun v53 k0_hw11 => k0_hw11.2

def k0_chk12 (v55 : IVec S16 32) : Prop :=
  (∀ a x, ((![v55] : Fin 1 → IVec S16 32) a x).toNat < S64.size a) ∧
  (∀ a x, ((![v55] : Fin 1 → IVec S16 32) a x).toNat < S64.size a)
instance k0_chk12.dec : ∀ (v55 : IVec S16 32), Decidable (k0_chk12 v55) := fun v55 => decidable_of_iff' _ (Iff.of_eq (k0_chk12.eq_1 v55))
theorem k0_idx12_inb : ∀ (v55 : IVec S16 32) (k0_hw12 : k0_chk12 v55), ∀ a x, ((![v55] : Fin 1 → IVec S16 32) a x).toNat < S64.size a := fun v55 k0_hw12 => k0_hw12.1
theorem k0_idx28_inb : ∀ (v55 : IVec S16 32) (k0_hw12 : k0_chk12 v55), ∀ a x, ((![v55] : Fin 1 → IVec S16 32) a x).toNat < S64.size a := fun v55 k0_hw12 => k0_hw12.2

def k0_chk13 (v57 : IVec S16 32) : Prop :=
  (∀ a x, ((![v57] : Fin 1 → IVec S16 32) a x).toNat < S64.size a) ∧
  (∀ a x, ((![v57] : Fin 1 → IVec S16 32) a x).toNat < S64.size a)
instance k0_chk13.dec : ∀ (v57 : IVec S16 32), Decidable (k0_chk13 v57) := fun v57 => decidable_of_iff' _ (Iff.of_eq (k0_chk13.eq_1 v57))
theorem k0_idx13_inb : ∀ (v57 : IVec S16 32) (k0_hw13 : k0_chk13 v57), ∀ a x, ((![v57] : Fin 1 → IVec S16 32) a x).toNat < S64.size a := fun v57 k0_hw13 => k0_hw13.1
theorem k0_idx29_inb : ∀ (v57 : IVec S16 32) (k0_hw13 : k0_chk13 v57), ∀ a x, ((![v57] : Fin 1 → IVec S16 32) a x).toNat < S64.size a := fun v57 k0_hw13 => k0_hw13.2

def k0_chk14 (v59 : IVec S16 32) : Prop :=
  (∀ a x, ((![v59] : Fin 1 → IVec S16 32) a x).toNat < S64.size a) ∧
  (∀ a x, ((![v59] : Fin 1 → IVec S16 32) a x).toNat < S64.size a)
instance k0_chk14.dec : ∀ (v59 : IVec S16 32), Decidable (k0_chk14 v59) := fun v59 => decidable_of_iff' _ (Iff.of_eq (k0_chk14.eq_1 v59))
theorem k0_idx14_inb : ∀ (v59 : IVec S16 32) (k0_hw14 : k0_chk14 v59), ∀ a x, ((![v59] : Fin 1 → IVec S16 32) a x).toNat < S64.size a := fun v59 k0_hw14 => k0_hw14.1
theorem k0_idx30_inb : ∀ (v59 : IVec S16 32) (k0_hw14 : k0_chk14 v59), ∀ a x, ((![v59] : Fin 1 → IVec S16 32) a x).toNat < S64.size a := fun v59 k0_hw14 => k0_hw14.2

def k0_chk15 (v61 : IVec S16 32) : Prop :=
  (∀ a x, ((![v61] : Fin 1 → IVec S16 32) a x).toNat < S64.size a) ∧
  (∀ a x, ((![v61] : Fin 1 → IVec S16 32) a x).toNat < S64.size a)
instance k0_chk15.dec : ∀ (v61 : IVec S16 32), Decidable (k0_chk15 v61) := fun v61 => decidable_of_iff' _ (Iff.of_eq (k0_chk15.eq_1 v61))
theorem k0_idx15_inb : ∀ (v61 : IVec S16 32) (k0_hw15 : k0_chk15 v61), ∀ a x, ((![v61] : Fin 1 → IVec S16 32) a x).toNat < S64.size a := fun v61 k0_hw15 => k0_hw15.1
theorem k0_idx31_inb : ∀ (v61 : IVec S16 32) (k0_hw15 : k0_chk15 v61), ∀ a x, ((![v61] : Fin 1 → IVec S16 32) a x).toNat < S64.size a := fun v61 k0_hw15 => k0_hw15.2

def k0_chk16 (v63 : IVec S16 32) : Prop :=
  (∀ a x, ((![v63] : Fin 1 → IVec S16 32) a x).toNat < S64.size a) ∧
  (∀ a x, ((![v63] : Fin 1 → IVec S16 32) a x).toNat < S64.size a)
instance k0_chk16.dec : ∀ (v63 : IVec S16 32), Decidable (k0_chk16 v63) := fun v63 => decidable_of_iff' _ (Iff.of_eq (k0_chk16.eq_1 v63))
theorem k0_idx16_inb : ∀ (v63 : IVec S16 32) (k0_hw16 : k0_chk16 v63), ∀ a x, ((![v63] : Fin 1 → IVec S16 32) a x).toNat < S64.size a := fun v63 k0_hw16 => k0_hw16.1
theorem k0_idx32_inb : ∀ (v63 : IVec S16 32) (k0_hw16 : k0_chk16 v63), ∀ a x, ((![v63] : Fin 1 → IVec S16 32) a x).toNat < S64.size a := fun v63 k0_hw16 => k0_hw16.2
def k0_off156 (k0_t1 : Fin k0_t1_loop.trips) : Fin 1 → Nat :=
  let c2_i32_38 : BitVec 32 := 2#32
  let c0_i32_23 : BitVec 32 := 0#32
  let c1_i32_25 : BitVec 32 := 1#32
  let arg27 : BitVec 32 := Scf.iv c0_i32_23 c1_i32_25 k0_t1
  let v105 : BitVec 32 := Scalar.muli c2_i32_38 arg27
  let c1_i32_39 : BitVec 32 := 1#32
  let v106 : BitVec 32 := Scalar.addi v105 c1_i32_39
  let c16_i32_65 : BitVec 32 := 16#32
  let v147 : BitVec 32 := Scalar.muli v106 c16_i32_65
  let v148 : Index := Scalar.indexCast v147
  ![v148.toNat]
def k0_cond1 (k0_t1 : Fin k0_t1_loop.trips) : BitVec 1 :=
  let c0_i32_23 : BitVec 32 := 0#32
  let c1_i32_25 : BitVec 32 := 1#32
  let arg27 : BitVec 32 := Scf.iv c0_i32_23 c1_i32_25 k0_t1
  let c15_i32 : BitVec 32 := 15#32
  let v163 : BitVec 1 := Scalar.cmpi .slt arg27 c15_i32
  let v164 : BitVec 32 := Scalar.extui v163
  let c0_i32_72 : BitVec 32 := 0#32
  let v165 : BitVec 1 := Scalar.cmpi .ne v164 c0_i32_72
  v165

def k0_off157 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32_37 : BitVec 32 := 2#32
  let c0_i32_23 : BitVec 32 := 0#32
  let c1_i32_25 : BitVec 32 := 1#32
  let arg27 : BitVec 32 := Scf.iv c0_i32_23 c1_i32_25 k0_t1
  let v104 : BitVec 32 := Scalar.muli c2_i32_37 arg27
  let c16_i32_74 : BitVec 32 := 16#32
  let v166 : BitVec 32 := Scalar.muli v104 c16_i32_74
  let v167 : BitVec 32 := Scalar.addi v29 v166
  let c0_i32_75 : BitVec 32 := 0#32
  ![v18.toNat, v167.toNat, 0]
def k0_off158 (i : grid0.Coords) (k0_t1 : Fin k0_t1_loop.trips) (c2_i32_79 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32_37 : BitVec 32 := 2#32
  let c0_i32_23 : BitVec 32 := 0#32
  let c1_i32_25 : BitVec 32 := 1#32
  let arg27 : BitVec 32 := Scf.iv c0_i32_23 c1_i32_25 k0_t1
  let v104 : BitVec 32 := Scalar.muli c2_i32_37 arg27
  let v176 : BitVec 32 := Scalar.addi v104 c2_i32_79
  let c16_i32_80 : BitVec 32 := 16#32
  let v177 : BitVec 32 := Scalar.muli v176 c16_i32_80
  let v178 : BitVec 32 := Scalar.addi v29 v177
  let c0_i32_81 : BitVec 32 := 0#32
  ![v18.toNat, v178.toNat, 0]
def k0_off159 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c2_i32_38 : BitVec 32 := 2#32
  let c0_i32_23 : BitVec 32 := 0#32
  let c1_i32_25 : BitVec 32 := 1#32
  let arg27 : BitVec 32 := Scf.iv c0_i32_23 c1_i32_25 k0_t1
  let v105 : BitVec 32 := Scalar.muli c2_i32_38 arg27
  let c1_i32_39 : BitVec 32 := 1#32
  let v106 : BitVec 32 := Scalar.addi v105 c1_i32_39
  let c2_i32_90 : BitVec 32 := 2#32
  let v197 : BitVec 32 := Scalar.addi v106 c2_i32_90
  let c16_i32_91 : BitVec 32 := 16#32
  let v198 : BitVec 32 := Scalar.muli v197 c16_i32_91
  let v199 : BitVec 32 := Scalar.addi v29 v198
  let c0_i32_92 : BitVec 32 := 0#32
  ![v18.toNat, v199.toNat, 0]
def k0_off160 (i : grid0.Coords) (c480_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v84 : BitVec 32 := Scalar.addi v29 c480_i32
  let c0_i32_27 : BitVec 32 := 0#32
  ![v18.toNat, v84.toNat, 0]
def k0_off161 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_35 : BitVec 32 := 512#32
  let v102 : BitVec 32 := Scalar.muli v1 c512_i32_35
  ![v102.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S784 : S_.BroadcastsInDim S784 (![] : Fin 0 → Fin S784.rank)
  iota_S16_d0_w32_scVector : S16.Iotas .scVector 32 [0]
  squeezes_S1x16x785_S16x785 : S1x16x785.Squeezes S16x785
  h_S1x16 : 0 < S1x16.numel
  shapeCasts_S1x16_S16 : S1x16.ShapeCasts S16
  inb_S784_S16_0 : ∀ a, (![0] : Fin 1 → Nat) a + S16.size a ≤ S784.size a
  h_S16 : 0 < S16.numel
  inb_S784_S16_16 : ∀ a, (![16] : Fin 1 → Nat) a + S16.size a ≤ S784.size a
  inb_S784_S16_32 : ∀ a, (![32] : Fin 1 → Nat) a + S16.size a ≤ S784.size a
  inb_S784_S16_48 : ∀ a, (![48] : Fin 1 → Nat) a + S16.size a ≤ S784.size a
  inb_S784_S16_64 : ∀ a, (![64] : Fin 1 → Nat) a + S16.size a ≤ S784.size a
  inb_S784_S16_80 : ∀ a, (![80] : Fin 1 → Nat) a + S16.size a ≤ S784.size a
  inb_S784_S16_96 : ∀ a, (![96] : Fin 1 → Nat) a + S16.size a ≤ S784.size a
  inb_S784_S16_112 : ∀ a, (![112] : Fin 1 → Nat) a + S16.size a ≤ S784.size a
  inb_S784_S16_128 : ∀ a, (![128] : Fin 1 → Nat) a + S16.size a ≤ S784.size a
  inb_S784_S16_144 : ∀ a, (![144] : Fin 1 → Nat) a + S16.size a ≤ S784.size a
  inb_S784_S16_160 : ∀ a, (![160] : Fin 1 → Nat) a + S16.size a ≤ S784.size a
  inb_S784_S16_176 : ∀ a, (![176] : Fin 1 → Nat) a + S16.size a ≤ S784.size a
  inb_S784_S16_192 : ∀ a, (![192] : Fin 1 → Nat) a + S16.size a ≤ S784.size a
  inb_S784_S16_208 : ∀ a, (![208] : Fin 1 → Nat) a + S16.size a ≤ S784.size a
  inb_S784_S16_224 : ∀ a, (![224] : Fin 1 → Nat) a + S16.size a ≤ S784.size a
  inb_S784_S16_240 : ∀ a, (![240] : Fin 1 → Nat) a + S16.size a ≤ S784.size a
  inb_S784_S16_256 : ∀ a, (![256] : Fin 1 → Nat) a + S16.size a ≤ S784.size a
  inb_S784_S16_272 : ∀ a, (![272] : Fin 1 → Nat) a + S16.size a ≤ S784.size a
  inb_S784_S16_288 : ∀ a, (![288] : Fin 1 → Nat) a + S16.size a ≤ S784.size a
  inb_S784_S16_304 : ∀ a, (![304] : Fin 1 → Nat) a + S16.size a ≤ S784.size a
  inb_S784_S16_320 : ∀ a, (![320] : Fin 1 → Nat) a + S16.size a ≤ S784.size a
  inb_S784_S16_336 : ∀ a, (![336] : Fin 1 → Nat) a + S16.size a ≤ S784.size a
  inb_S784_S16_352 : ∀ a, (![352] : Fin 1 → Nat) a + S16.size a ≤ S784.size a
  inb_S784_S16_368 : ∀ a, (![368] : Fin 1 → Nat) a + S16.size a ≤ S784.size a
  inb_S784_S16_384 : ∀ a, (![384] : Fin 1 → Nat) a + S16.size a ≤ S784.size a
  inb_S784_S16_400 : ∀ a, (![400] : Fin 1 → Nat) a + S16.size a ≤ S784.size a
  inb_S784_S16_416 : ∀ a, (![416] : Fin 1 → Nat) a + S16.size a ≤ S784.size a
  inb_S784_S16_432 : ∀ a, (![432] : Fin 1 → Nat) a + S16.size a ≤ S784.size a
  inb_S784_S16_448 : ∀ a, (![448] : Fin 1 → Nat) a + S16.size a ≤ S784.size a
  inb_S784_S16_464 : ∀ a, (![464] : Fin 1 → Nat) a + S16.size a ≤ S784.size a
  inb_S784_S16_480 : ∀ a, (![480] : Fin 1 → Nat) a + S16.size a ≤ S784.size a
  inb_S784_S16_496 : ∀ a, (![496] : Fin 1 → Nat) a + S16.size a ≤ S784.size a
  inb_S784_S16_512 : ∀ a, (![512] : Fin 1 → Nat) a + S16.size a ≤ S784.size a
  inb_S784_S16_528 : ∀ a, (![528] : Fin 1 → Nat) a + S16.size a ≤ S784.size a
  inb_S784_S16_544 : ∀ a, (![544] : Fin 1 → Nat) a + S16.size a ≤ S784.size a
  inb_S784_S16_560 : ∀ a, (![560] : Fin 1 → Nat) a + S16.size a ≤ S784.size a
  inb_S784_S16_576 : ∀ a, (![576] : Fin 1 → Nat) a + S16.size a ≤ S784.size a
  inb_S784_S16_592 : ∀ a, (![592] : Fin 1 → Nat) a + S16.size a ≤ S784.size a
  inb_S784_S16_608 : ∀ a, (![608] : Fin 1 → Nat) a + S16.size a ≤ S784.size a
  inb_S784_S16_624 : ∀ a, (![624] : Fin 1 → Nat) a + S16.size a ≤ S784.size a
  inb_S784_S16_640 : ∀ a, (![640] : Fin 1 → Nat) a + S16.size a ≤ S784.size a
  inb_S784_S16_656 : ∀ a, (![656] : Fin 1 → Nat) a + S16.size a ≤ S784.size a
  inb_S784_S16_672 : ∀ a, (![672] : Fin 1 → Nat) a + S16.size a ≤ S784.size a
  inb_S784_S16_688 : ∀ a, (![688] : Fin 1 → Nat) a + S16.size a ≤ S784.size a
  inb_S784_S16_704 : ∀ a, (![704] : Fin 1 → Nat) a + S16.size a ≤ S784.size a
  inb_S784_S16_720 : ∀ a, (![720] : Fin 1 → Nat) a + S16.size a ≤ S784.size a
  inb_S784_S16_736 : ∀ a, (![736] : Fin 1 → Nat) a + S16.size a ≤ S784.size a
  inb_S784_S16_752 : ∀ a, (![752] : Fin 1 → Nat) a + S16.size a ≤ S784.size a
  inb_S784_S16_768 : ∀ a, (![768] : Fin 1 → Nat) a + S16.size a ≤ S784.size a
  inb_S64_S16_0 : ∀ a, (![0] : Fin 1 → Nat) a + S16.size a ≤ S64.size a
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  h_S64 : 0 < S64.numel
  shapeCasts_S16_S1x16 : S16.ShapeCasts S1x16
  shapeCasts_S16384_S8x2048 : S16384.ShapeCasts S8x2048
  hcc0_scratch9 : 0 + S_.numel ≤ 12
  hcc0_scratch10 : 1 + S_.numel ≤ 12
  hcc0_scratch11 : 2 + S_.numel ≤ 12
  hcc0_scratch12 : 3 + S_.numel ≤ 12
  hcc0_scratch13 : 4 + S_.numel ≤ 12
  hcc0_scratch14 : 5 + S_.numel ≤ 12
  hcc0_scratch15 : 6 + S_.numel ≤ 12
  hcc0_scratch16 : 7 + S_.numel ≤ 12
  hcc0_scoped0 : 8 + S_.numel ≤ 12
  hcc0_scoped1 : 9 + S_.numel ≤ 12
  hcc0_scoped2 : 10 + S_.numel ≤ 12
  hcc0_scoped3 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (16 * r.val))) a + S1x16x785.size a ≤ S8x2048x785.size a
  k0_t1_ok : k0_t1_loop.OK
  k0_off2_inb : ∀ (i : grid0.Coords) (k0_t1 : Fin k0_t1_loop.trips), ∀ a, (k0_off2 i k0_t1) a + S1x16x785.size a ≤ S8x2048x785.size a
  k0_t2_ok : k0_t2_loop.OK
  k0_off3_inb : ∀ k0_t2 : Fin k0_t2_loop.trips, ∀ a, (k0_off3 k0_t2) a + S1x16.size a ≤ S16x785.size a
  k0_off4_inb : ∀ k0_t2 : Fin k0_t2_loop.trips, ∀ a, (k0_off4 k0_t2) a + S1x16.size a ≤ S16x785.size a
  k0_off5_inb : ∀ k0_t2 : Fin k0_t2_loop.trips, ∀ a, (k0_off5 k0_t2) a + S1x16.size a ≤ S16x785.size a
  k0_off6_inb : ∀ k0_t2 : Fin k0_t2_loop.trips, ∀ a, (k0_off6 k0_t2) a + S1x16.size a ≤ S16x785.size a
  k0_off7_inb : ∀ k0_t2 : Fin k0_t2_loop.trips, ∀ a, (k0_off7 k0_t2) a + S1x16.size a ≤ S16x785.size a
  k0_off8_inb : ∀ k0_t2 : Fin k0_t2_loop.trips, ∀ a, (k0_off8 k0_t2) a + S1x16.size a ≤ S16x785.size a
  k0_off9_inb : ∀ k0_t2 : Fin k0_t2_loop.trips, ∀ a, (k0_off9 k0_t2) a + S1x16.size a ≤ S16x785.size a
  k0_off10_inb : ∀ k0_t2 : Fin k0_t2_loop.trips, ∀ a, (k0_off10 k0_t2) a + S1x16.size a ≤ S16x785.size a
  k0_off11_inb : ∀ k0_t2 : Fin k0_t2_loop.trips, ∀ a, (k0_off11 k0_t2) a + S1x16.size a ≤ S16x785.size a
  k0_off12_inb : ∀ k0_t2 : Fin k0_t2_loop.trips, ∀ a, (k0_off12 k0_t2) a + S1x16.size a ≤ S16x785.size a
  k0_off13_inb : ∀ k0_t2 : Fin k0_t2_loop.trips, ∀ a, (k0_off13 k0_t2) a + S1x16.size a ≤ S16x785.size a
  k0_off14_inb : ∀ k0_t2 : Fin k0_t2_loop.trips, ∀ a, (k0_off14 k0_t2) a + S1x16.size a ≤ S16x785.size a
  k0_off15_inb : ∀ k0_t2 : Fin k0_t2_loop.trips, ∀ a, (k0_off15 k0_t2) a + S1x16.size a ≤ S16x785.size a
  k0_off16_inb : ∀ k0_t2 : Fin k0_t2_loop.trips, ∀ a, (k0_off16 k0_t2) a + S1x16.size a ≤ S16x785.size a
  k0_off17_inb : ∀ k0_t2 : Fin k0_t2_loop.trips, ∀ a, (k0_off17 k0_t2) a + S1x16.size a ≤ S16x785.size a
  k0_off18_inb : ∀ k0_t2 : Fin k0_t2_loop.trips, ∀ a, (k0_off18 k0_t2) a + S1x16.size a ≤ S16x785.size a
  k0_off19_inb : ∀ k0_t2 : Fin k0_t2_loop.trips, ∀ a, (k0_off19 k0_t2) a + S1x16.size a ≤ S16x785.size a
  k0_off20_inb : ∀ k0_t2 : Fin k0_t2_loop.trips, ∀ a, (k0_off20 k0_t2) a + S1x16.size a ≤ S16x785.size a
  k0_off21_inb : ∀ k0_t2 : Fin k0_t2_loop.trips, ∀ a, (k0_off21 k0_t2) a + S1x16.size a ≤ S16x785.size a
  k0_off22_inb : ∀ k0_t2 : Fin k0_t2_loop.trips, ∀ a, (k0_off22 k0_t2) a + S1x16.size a ≤ S16x785.size a
  k0_off23_inb : ∀ k0_t2 : Fin k0_t2_loop.trips, ∀ a, (k0_off23 k0_t2) a + S1x16.size a ≤ S16x785.size a
  k0_off24_inb : ∀ k0_t2 : Fin k0_t2_loop.trips, ∀ a, (k0_off24 k0_t2) a + S1x16.size a ≤ S16x785.size a
  k0_off25_inb : ∀ k0_t2 : Fin k0_t2_loop.trips, ∀ a, (k0_off25 k0_t2) a + S1x16.size a ≤ S16x785.size a
  k0_off26_inb : ∀ k0_t2 : Fin k0_t2_loop.trips, ∀ a, (k0_off26 k0_t2) a + S1x16.size a ≤ S16x785.size a
  k0_off27_inb : ∀ k0_t2 : Fin k0_t2_loop.trips, ∀ a, (k0_off27 k0_t2) a + S1x16.size a ≤ S16x785.size a
  k0_off28_inb : ∀ k0_t2 : Fin k0_t2_loop.trips, ∀ a, (k0_off28 k0_t2) a + S1x16.size a ≤ S16x785.size a
  k0_off29_inb : ∀ k0_t2 : Fin k0_t2_loop.trips, ∀ a, (k0_off29 k0_t2) a + S1x16.size a ≤ S16x785.size a
  k0_off30_inb : ∀ k0_t2 : Fin k0_t2_loop.trips, ∀ a, (k0_off30 k0_t2) a + S1x16.size a ≤ S16x785.size a
  k0_off31_inb : ∀ k0_t2 : Fin k0_t2_loop.trips, ∀ a, (k0_off31 k0_t2) a + S1x16.size a ≤ S16x785.size a
  k0_off32_inb : ∀ k0_t2 : Fin k0_t2_loop.trips, ∀ a, (k0_off32 k0_t2) a + S1x16.size a ≤ S16x785.size a
  k0_off33_inb : ∀ k0_t2 : Fin k0_t2_loop.trips, ∀ a, (k0_off33 k0_t2) a + S1x16.size a ≤ S16x785.size a
  k0_off34_inb : ∀ k0_t2 : Fin k0_t2_loop.trips, ∀ a, (k0_off34 k0_t2) a + S1x16.size a ≤ S16x785.size a
  k0_off35_inb : ∀ k0_t2 : Fin k0_t2_loop.trips, ∀ a, (k0_off35 k0_t2) a + S1x16.size a ≤ S16x785.size a
  k0_off36_inb : ∀ k0_t2 : Fin k0_t2_loop.trips, ∀ a, (k0_off36 k0_t2) a + S1x16.size a ≤ S16x785.size a
  k0_off37_inb : ∀ k0_t2 : Fin k0_t2_loop.trips, ∀ a, (k0_off37 k0_t2) a + S1x16.size a ≤ S16x785.size a
  k0_off38_inb : ∀ k0_t2 : Fin k0_t2_loop.trips, ∀ a, (k0_off38 k0_t2) a + S1x16.size a ≤ S16x785.size a
  k0_off39_inb : ∀ k0_t2 : Fin k0_t2_loop.trips, ∀ a, (k0_off39 k0_t2) a + S1x16.size a ≤ S16x785.size a
  k0_off40_inb : ∀ k0_t2 : Fin k0_t2_loop.trips, ∀ a, (k0_off40 k0_t2) a + S1x16.size a ≤ S16x785.size a
  k0_off41_inb : ∀ k0_t2 : Fin k0_t2_loop.trips, ∀ a, (k0_off41 k0_t2) a + S1x16.size a ≤ S16x785.size a
  k0_off42_inb : ∀ k0_t2 : Fin k0_t2_loop.trips, ∀ a, (k0_off42 k0_t2) a + S1x16.size a ≤ S16x785.size a
  k0_off43_inb : ∀ k0_t2 : Fin k0_t2_loop.trips, ∀ a, (k0_off43 k0_t2) a + S1x16.size a ≤ S16x785.size a
  k0_off44_inb : ∀ k0_t2 : Fin k0_t2_loop.trips, ∀ a, (k0_off44 k0_t2) a + S1x16.size a ≤ S16x785.size a
  k0_off45_inb : ∀ k0_t2 : Fin k0_t2_loop.trips, ∀ a, (k0_off45 k0_t2) a + S1x16.size a ≤ S16x785.size a
  k0_off46_inb : ∀ k0_t2 : Fin k0_t2_loop.trips, ∀ a, (k0_off46 k0_t2) a + S1x16.size a ≤ S16x785.size a
  k0_off47_inb : ∀ k0_t2 : Fin k0_t2_loop.trips, ∀ a, (k0_off47 k0_t2) a + S1x16.size a ≤ S16x785.size a
  k0_off48_inb : ∀ k0_t2 : Fin k0_t2_loop.trips, ∀ a, (k0_off48 k0_t2) a + S1x16.size a ≤ S16x785.size a
  k0_off49_inb : ∀ k0_t2 : Fin k0_t2_loop.trips, ∀ a, (k0_off49 k0_t2) a + S1x16.size a ≤ S16x785.size a
  k0_off50_inb : ∀ k0_t2 : Fin k0_t2_loop.trips, ∀ a, (k0_off50 k0_t2) a + S1x16.size a ≤ S16x785.size a
  k0_off51_inb : ∀ k0_t2 : Fin k0_t2_loop.trips, ∀ a, (k0_off51 k0_t2) a + S1x16.size a ≤ S16x785.size a
  k0_off52_inb : ∀ k0_t2 : Fin k0_t2_loop.trips, ∀ a, (k0_off52 k0_t2) a + S1x16.size a ≤ S16x785.size a
  k0_off53_inb : ∀ k0_t2 : Fin k0_t2_loop.trips, ∀ a, (k0_off53 k0_t2) a + S1x16.size a ≤ S16x785.size a
  k0_off54_inb : ∀ k0_t2 : Fin k0_t2_loop.trips, ∀ a, (k0_off54 k0_t2) a + S1x16.size a ≤ S16x785.size a
  k0_off55_inb : ∀ k0_t2 : Fin k0_t2_loop.trips, ∀ a, (k0_off55 k0_t2) a + S1x16.size a ≤ S16x785.size a
  k0_off56_inb : ∀ k0_t2 : Fin k0_t2_loop.trips, ∀ a, (k0_off56 k0_t2) a + S1x16.size a ≤ S16x785.size a
  k0_off57_inb : ∀ k0_t2 : Fin k0_t2_loop.trips, ∀ a, (k0_off57 k0_t2) a + S1x16.size a ≤ S16x785.size a
  k0_off58_inb : ∀ k0_t2 : Fin k0_t2_loop.trips, ∀ a, (k0_off58 k0_t2) a + S1x16.size a ≤ S16x785.size a
  k0_off59_inb : ∀ k0_t2 : Fin k0_t2_loop.trips, ∀ a, (k0_off59 k0_t2) a + S1x16.size a ≤ S16x785.size a
  k0_off60_inb : ∀ k0_t2 : Fin k0_t2_loop.trips, ∀ a, (k0_off60 k0_t2) a + S1x16.size a ≤ S16x785.size a
  k0_off61_inb : ∀ k0_t2 : Fin k0_t2_loop.trips, ∀ a, (k0_off61 k0_t2) a + S1x16.size a ≤ S16x785.size a
  k0_off62_inb : ∀ k0_t2 : Fin k0_t2_loop.trips, ∀ a, (k0_off62 k0_t2) a + S1x16.size a ≤ S16x785.size a
  k0_off63_inb : ∀ k0_t2 : Fin k0_t2_loop.trips, ∀ a, (k0_off63 k0_t2) a + S1x16.size a ≤ S16x785.size a
  k0_off64_inb : ∀ k0_t2 : Fin k0_t2_loop.trips, ∀ a, (k0_off64 k0_t2) a + S1x16.size a ≤ S16x785.size a
  k0_off65_inb : ∀ k0_t2 : Fin k0_t2_loop.trips, ∀ a, (k0_off65 k0_t2) a + S1x16.size a ≤ S16x785.size a
  k0_off66_inb : ∀ k0_t2 : Fin k0_t2_loop.trips, ∀ a, (k0_off66 k0_t2) a + S1x16.size a ≤ S16x785.size a
  k0_off67_inb : ∀ k0_t2 : Fin k0_t2_loop.trips, ∀ a, (k0_off67 k0_t2) a + S1x16.size a ≤ S16x785.size a
  k0_off68_inb : ∀ k0_t2 : Fin k0_t2_loop.trips, ∀ a, (k0_off68 k0_t2) a + S1x16.size a ≤ S16x785.size a
  k0_off69_inb : ∀ k0_t2 : Fin k0_t2_loop.trips, ∀ a, (k0_off69 k0_t2) a + S1x16.size a ≤ S16x785.size a
  k0_off70_inb : ∀ k0_t2 : Fin k0_t2_loop.trips, ∀ a, (k0_off70 k0_t2) a + S1x16.size a ≤ S16x785.size a
  k0_off71_inb : ∀ k0_t2 : Fin k0_t2_loop.trips, ∀ a, (k0_off71 k0_t2) a + S1x16.size a ≤ S16x785.size a
  k0_off72_inb : ∀ k0_t2 : Fin k0_t2_loop.trips, ∀ a, (k0_off72 k0_t2) a + S1x16.size a ≤ S16x785.size a
  k0_off73_inb : ∀ k0_t2 : Fin k0_t2_loop.trips, ∀ a, (k0_off73 k0_t2) a + S1x16.size a ≤ S16x785.size a
  k0_off74_inb : ∀ k0_t2 : Fin k0_t2_loop.trips, ∀ a, (k0_off74 k0_t2) a + S1x16.size a ≤ S16x785.size a
  k0_off75_inb : ∀ k0_t2 : Fin k0_t2_loop.trips, ∀ a, (k0_off75 k0_t2) a + S1x16.size a ≤ S16x785.size a
  k0_off76_inb : ∀ k0_t2 : Fin k0_t2_loop.trips, ∀ a, (k0_off76 k0_t2) a + S1x16.size a ≤ S16x785.size a
  k0_off77_inb : ∀ k0_t2 : Fin k0_t2_loop.trips, ∀ a, (k0_off77 k0_t2) a + S1x16.size a ≤ S16x785.size a
  k0_off78_inb : ∀ k0_t2 : Fin k0_t2_loop.trips, ∀ a, (k0_off78 k0_t2) a + S1x16.size a ≤ S16x785.size a
  k0_off79_inb : ∀ k0_t2 : Fin k0_t2_loop.trips, ∀ a, (k0_off79 k0_t2) a + S1x16.size a ≤ S16x785.size a
  k0_off80_inb : ∀ k0_t2 : Fin k0_t2_loop.trips, ∀ a, (k0_off80 k0_t2) a + S1x16.size a ≤ S16x785.size a
  k0_off81_inb : ∀ k0_t2 : Fin k0_t2_loop.trips, ∀ a, (k0_off81 k0_t2) a + S1x16.size a ≤ S16x785.size a
  k0_off82_inb : ∀ k0_t2 : Fin k0_t2_loop.trips, ∀ a, (k0_off82 k0_t2) a + S1x16.size a ≤ S16x785.size a
  k0_off83_inb : ∀ k0_t2 : Fin k0_t2_loop.trips, ∀ a, (k0_off83 k0_t2) a + S1x16.size a ≤ S16x785.size a
  k0_off84_inb : ∀ k0_t2 : Fin k0_t2_loop.trips, ∀ a, (k0_off84 k0_t2) a + S1x16.size a ≤ S16x785.size a
  k0_off85_inb : ∀ k0_t2 : Fin k0_t2_loop.trips, ∀ a, (k0_off85 k0_t2) a + S1x16.size a ≤ S16x785.size a
  k0_off86_inb : ∀ k0_t2 : Fin k0_t2_loop.trips, ∀ a, (k0_off86 k0_t2) a + S1x16.size a ≤ S16x785.size a
  k0_off87_inb : ∀ k0_t2 : Fin k0_t2_loop.trips, ∀ a, (k0_off87 k0_t2) a + S1x16.size a ≤ S16x785.size a
  k0_off88_inb : ∀ k0_t2 : Fin k0_t2_loop.trips, ∀ a, (k0_off88 k0_t2) a + S1x16.size a ≤ S16x785.size a
  k0_off89_inb : ∀ k0_t2 : Fin k0_t2_loop.trips, ∀ a, (k0_off89 k0_t2) a + S1x16.size a ≤ S16x785.size a
  k0_off90_inb : ∀ k0_t2 : Fin k0_t2_loop.trips, ∀ a, (k0_off90 k0_t2) a + S1x16.size a ≤ S16x785.size a
  k0_off91_inb : ∀ k0_t2 : Fin k0_t2_loop.trips, ∀ a, (k0_off91 k0_t2) a + S1x16.size a ≤ S16x785.size a
  k0_off92_inb : ∀ k0_t2 : Fin k0_t2_loop.trips, ∀ a, (k0_off92 k0_t2) a + S1x16.size a ≤ S16x785.size a
  k0_off93_inb : ∀ k0_t2 : Fin k0_t2_loop.trips, ∀ a, (k0_off93 k0_t2) a + S1x16.size a ≤ S16x785.size a
  k0_off94_inb : ∀ k0_t2 : Fin k0_t2_loop.trips, ∀ a, (k0_off94 k0_t2) a + S1x16.size a ≤ S16x785.size a
  k0_off95_inb : ∀ k0_t2 : Fin k0_t2_loop.trips, ∀ a, (k0_off95 k0_t2) a + S1x16.size a ≤ S16x785.size a
  k0_off96_inb : ∀ k0_t2 : Fin k0_t2_loop.trips, ∀ a, (k0_off96 k0_t2) a + S1x16.size a ≤ S16x785.size a
  k0_off97_inb : ∀ k0_t2 : Fin k0_t2_loop.trips, ∀ a, (k0_off97 k0_t2) a + S1x16.size a ≤ S16x785.size a
  k0_off98_inb : ∀ k0_t2 : Fin k0_t2_loop.trips, ∀ a, (k0_off98 k0_t2) a + S1x16.size a ≤ S16x785.size a
  k0_off99_inb : ∀ k0_t2 : Fin k0_t2_loop.trips, ∀ a, (k0_off99 k0_t2) a + S1x16.size a ≤ S16x785.size a
  k0_off100_inb : ∀ k0_t2 : Fin k0_t2_loop.trips, ∀ a, (k0_off100 k0_t2) a + S1x16.size a ≤ S16x785.size a
  k0_off101_inb : ∀ k0_t2 : Fin k0_t2_loop.trips, ∀ a, (k0_off101 k0_t2) a + S1x16.size a ≤ S16x785.size a
  k0_off102_inb : ∀ k0_t2 : Fin k0_t2_loop.trips, ∀ a, (k0_off102 k0_t2) a + S1x16.size a ≤ S16x785.size a
  k0_off103_inb : ∀ k0_t1 : Fin k0_t1_loop.trips, ∀ a, (k0_off103 k0_t1) a + S16.size a ≤ S512.size a
  k0_off104_inb : ∀ (i : grid0.Coords) (k0_t1 : Fin k0_t1_loop.trips), ∀ a, (k0_off104 i k0_t1) a + S1x16x785.size a ≤ S8x2048x785.size a
  k0_off105_inb : ∀ (i : grid0.Coords) (k0_t1 : Fin k0_t1_loop.trips), ∀ a, (k0_off105 i k0_t1) a + S1x16x785.size a ≤ S8x2048x785.size a
  k0_t3_ok : k0_t3_loop.OK
  k0_off106_inb : ∀ k0_t3 : Fin k0_t3_loop.trips, ∀ a, (k0_off106 k0_t3) a + S1x16.size a ≤ S16x785.size a
  k0_off107_inb : ∀ k0_t3 : Fin k0_t3_loop.trips, ∀ a, (k0_off107 k0_t3) a + S1x16.size a ≤ S16x785.size a
  k0_off108_inb : ∀ k0_t3 : Fin k0_t3_loop.trips, ∀ a, (k0_off108 k0_t3) a + S1x16.size a ≤ S16x785.size a
  k0_off109_inb : ∀ k0_t3 : Fin k0_t3_loop.trips, ∀ a, (k0_off109 k0_t3) a + S1x16.size a ≤ S16x785.size a
  k0_off110_inb : ∀ k0_t3 : Fin k0_t3_loop.trips, ∀ a, (k0_off110 k0_t3) a + S1x16.size a ≤ S16x785.size a
  k0_off111_inb : ∀ k0_t3 : Fin k0_t3_loop.trips, ∀ a, (k0_off111 k0_t3) a + S1x16.size a ≤ S16x785.size a
  k0_off112_inb : ∀ k0_t3 : Fin k0_t3_loop.trips, ∀ a, (k0_off112 k0_t3) a + S1x16.size a ≤ S16x785.size a
  k0_off113_inb : ∀ k0_t3 : Fin k0_t3_loop.trips, ∀ a, (k0_off113 k0_t3) a + S1x16.size a ≤ S16x785.size a
  k0_off114_inb : ∀ k0_t3 : Fin k0_t3_loop.trips, ∀ a, (k0_off114 k0_t3) a + S1x16.size a ≤ S16x785.size a
  k0_off115_inb : ∀ k0_t3 : Fin k0_t3_loop.trips, ∀ a, (k0_off115 k0_t3) a + S1x16.size a ≤ S16x785.size a
  k0_off116_inb : ∀ k0_t3 : Fin k0_t3_loop.trips, ∀ a, (k0_off116 k0_t3) a + S1x16.size a ≤ S16x785.size a
  k0_off117_inb : ∀ k0_t3 : Fin k0_t3_loop.trips, ∀ a, (k0_off117 k0_t3) a + S1x16.size a ≤ S16x785.size a
  k0_off118_inb : ∀ k0_t3 : Fin k0_t3_loop.trips, ∀ a, (k0_off118 k0_t3) a + S1x16.size a ≤ S16x785.size a
  k0_off119_inb : ∀ k0_t3 : Fin k0_t3_loop.trips, ∀ a, (k0_off119 k0_t3) a + S1x16.size a ≤ S16x785.size a
  k0_off120_inb : ∀ k0_t3 : Fin k0_t3_loop.trips, ∀ a, (k0_off120 k0_t3) a + S1x16.size a ≤ S16x785.size a
  k0_off121_inb : ∀ k0_t3 : Fin k0_t3_loop.trips, ∀ a, (k0_off121 k0_t3) a + S1x16.size a ≤ S16x785.size a
  k0_off122_inb : ∀ k0_t3 : Fin k0_t3_loop.trips, ∀ a, (k0_off122 k0_t3) a + S1x16.size a ≤ S16x785.size a
  k0_off123_inb : ∀ k0_t3 : Fin k0_t3_loop.trips, ∀ a, (k0_off123 k0_t3) a + S1x16.size a ≤ S16x785.size a
  k0_off124_inb : ∀ k0_t3 : Fin k0_t3_loop.trips, ∀ a, (k0_off124 k0_t3) a + S1x16.size a ≤ S16x785.size a
  k0_off125_inb : ∀ k0_t3 : Fin k0_t3_loop.trips, ∀ a, (k0_off125 k0_t3) a + S1x16.size a ≤ S16x785.size a
  k0_off126_inb : ∀ k0_t3 : Fin k0_t3_loop.trips, ∀ a, (k0_off126 k0_t3) a + S1x16.size a ≤ S16x785.size a
  k0_off127_inb : ∀ k0_t3 : Fin k0_t3_loop.trips, ∀ a, (k0_off127 k0_t3) a + S1x16.size a ≤ S16x785.size a
  k0_off128_inb : ∀ k0_t3 : Fin k0_t3_loop.trips, ∀ a, (k0_off128 k0_t3) a + S1x16.size a ≤ S16x785.size a
  k0_off129_inb : ∀ k0_t3 : Fin k0_t3_loop.trips, ∀ a, (k0_off129 k0_t3) a + S1x16.size a ≤ S16x785.size a
  k0_off130_inb : ∀ k0_t3 : Fin k0_t3_loop.trips, ∀ a, (k0_off130 k0_t3) a + S1x16.size a ≤ S16x785.size a
  k0_off131_inb : ∀ k0_t3 : Fin k0_t3_loop.trips, ∀ a, (k0_off131 k0_t3) a + S1x16.size a ≤ S16x785.size a
  k0_off132_inb : ∀ k0_t3 : Fin k0_t3_loop.trips, ∀ a, (k0_off132 k0_t3) a + S1x16.size a ≤ S16x785.size a
  k0_off133_inb : ∀ k0_t3 : Fin k0_t3_loop.trips, ∀ a, (k0_off133 k0_t3) a + S1x16.size a ≤ S16x785.size a
  k0_off134_inb : ∀ k0_t3 : Fin k0_t3_loop.trips, ∀ a, (k0_off134 k0_t3) a + S1x16.size a ≤ S16x785.size a
  k0_off135_inb : ∀ k0_t3 : Fin k0_t3_loop.trips, ∀ a, (k0_off135 k0_t3) a + S1x16.size a ≤ S16x785.size a
  k0_off136_inb : ∀ k0_t3 : Fin k0_t3_loop.trips, ∀ a, (k0_off136 k0_t3) a + S1x16.size a ≤ S16x785.size a
  k0_off137_inb : ∀ k0_t3 : Fin k0_t3_loop.trips, ∀ a, (k0_off137 k0_t3) a + S1x16.size a ≤ S16x785.size a
  k0_off138_inb : ∀ k0_t3 : Fin k0_t3_loop.trips, ∀ a, (k0_off138 k0_t3) a + S1x16.size a ≤ S16x785.size a
  k0_off139_inb : ∀ k0_t3 : Fin k0_t3_loop.trips, ∀ a, (k0_off139 k0_t3) a + S1x16.size a ≤ S16x785.size a
  k0_off140_inb : ∀ k0_t3 : Fin k0_t3_loop.trips, ∀ a, (k0_off140 k0_t3) a + S1x16.size a ≤ S16x785.size a
  k0_off141_inb : ∀ k0_t3 : Fin k0_t3_loop.trips, ∀ a, (k0_off141 k0_t3) a + S1x16.size a ≤ S16x785.size a
  k0_off142_inb : ∀ k0_t3 : Fin k0_t3_loop.trips, ∀ a, (k0_off142 k0_t3) a + S1x16.size a ≤ S16x785.size a
  k0_off143_inb : ∀ k0_t3 : Fin k0_t3_loop.trips, ∀ a, (k0_off143 k0_t3) a + S1x16.size a ≤ S16x785.size a
  k0_off144_inb : ∀ k0_t3 : Fin k0_t3_loop.trips, ∀ a, (k0_off144 k0_t3) a + S1x16.size a ≤ S16x785.size a
  k0_off145_inb : ∀ k0_t3 : Fin k0_t3_loop.trips, ∀ a, (k0_off145 k0_t3) a + S1x16.size a ≤ S16x785.size a
  k0_off146_inb : ∀ k0_t3 : Fin k0_t3_loop.trips, ∀ a, (k0_off146 k0_t3) a + S1x16.size a ≤ S16x785.size a
  k0_off147_inb : ∀ k0_t3 : Fin k0_t3_loop.trips, ∀ a, (k0_off147 k0_t3) a + S1x16.size a ≤ S16x785.size a
  k0_off148_inb : ∀ k0_t3 : Fin k0_t3_loop.trips, ∀ a, (k0_off148 k0_t3) a + S1x16.size a ≤ S16x785.size a
  k0_off149_inb : ∀ k0_t3 : Fin k0_t3_loop.trips, ∀ a, (k0_off149 k0_t3) a + S1x16.size a ≤ S16x785.size a
  k0_off150_inb : ∀ k0_t3 : Fin k0_t3_loop.trips, ∀ a, (k0_off150 k0_t3) a + S1x16.size a ≤ S16x785.size a
  k0_off151_inb : ∀ k0_t3 : Fin k0_t3_loop.trips, ∀ a, (k0_off151 k0_t3) a + S1x16.size a ≤ S16x785.size a
  k0_off152_inb : ∀ k0_t3 : Fin k0_t3_loop.trips, ∀ a, (k0_off152 k0_t3) a + S1x16.size a ≤ S16x785.size a
  k0_off153_inb : ∀ k0_t3 : Fin k0_t3_loop.trips, ∀ a, (k0_off153 k0_t3) a + S1x16.size a ≤ S16x785.size a
  k0_off154_inb : ∀ k0_t3 : Fin k0_t3_loop.trips, ∀ a, (k0_off154 k0_t3) a + S1x16.size a ≤ S16x785.size a
  k0_off155_inb : ∀ k0_t3 : Fin k0_t3_loop.trips, ∀ a, (k0_off155 k0_t3) a + S1x16.size a ≤ S16x785.size a
  k0_off156_inb : ∀ k0_t1 : Fin k0_t1_loop.trips, ∀ a, (k0_off156 k0_t1) a + S16.size a ≤ S512.size a
  k0_off157_inb : ∀ (i : grid0.Coords) (k0_t1 : Fin k0_t1_loop.trips), ∀ (k0_h1 : k0_cond1 k0_t1 = 1#1), ∀ a, (k0_off157 i k0_t1) a + S1x16x785.size a ≤ S8x2048x785.size a
  k0_off158_inb : ∀ (i : grid0.Coords) (k0_t1 : Fin k0_t1_loop.trips), ∀ (k0_h1 : k0_cond1 k0_t1 = 1#1), ∀ (r : Fin 2), ∀ a, (k0_off158 i k0_t1 (BitVec.ofNat 32 (1 + r.val))) a + S1x16x785.size a ≤ S8x2048x785.size a
  k0_off159_inb : ∀ (i : grid0.Coords) (k0_t1 : Fin k0_t1_loop.trips), ∀ (k0_h1 : k0_cond1 k0_t1 = 1#1), ∀ a, (k0_off159 i k0_t1) a + S1x16x785.size a ≤ S8x2048x785.size a
  k0_off160_inb : ∀ i : grid0.Coords, ∀ (r : Fin 2), ∀ a, (k0_off160 i (BitVec.ofNat 32 (480 + 16 * r.val))) a + S1x16x785.size a ≤ S8x2048x785.size a
  k0_off161_inb : ∀ i : grid0.Coords, ∀ a, (k0_off161 i) a + S512.size a ≤ S16384.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2
abbrev cc0_scoped3 : DmaSems sig S_ := SemArray.consecutive 11 S_ hcc0_scoped3

class Facts : Prop extends Facts₀ where

variable [Facts]
-- ==== ReferenceIdeal.lean ====
abbrev S8x2048x785 : Shape := ⟨3, ![8, 2048, 785]⟩
abbrev S784 : Shape := ⟨1, ![784]⟩
abbrev S8x2048x784 : Shape := ⟨3, ![8, 2048, 784]⟩
abbrev S8x2048x1 : Shape := ⟨3, ![8, 2048, 1]⟩
abbrev S8x2048 : Shape := ⟨2, ![8, 2048]⟩
abbrev S_ : Shape := ⟨0, ![]⟩
abbrev S1 : Shape := ⟨1, ![1]⟩

abbrev nBuf : Space → Nat
  | .hbm => 162
  | .vmem => 0
  | .smem => 0
  | _ => 0

abbrev hbmTy0_0 (i : Nat) : BufTy := match i % 128 with
  | 0 => ⟨S8x2048x785, .f32⟩
  | 1 => ⟨S8x2048x785, .f32⟩
  | 2 => ⟨S784, .f32⟩
  | 3 => ⟨S784, .f32⟩
  | 4 => ⟨S8x2048x784, .f32⟩
  | 5 => ⟨S8x2048x1, .f32⟩
  | 6 => ⟨S8x2048, .f32⟩
  | 7 => ⟨S8x2048x784, .f32⟩
  | 8 => ⟨S8x2048x1, .f32⟩
  | 9 => ⟨S8x2048, .f32⟩
  | 10 => ⟨S_, .f32⟩
  | 11 => ⟨S_, .f32⟩
  | 12 => ⟨S8x2048x784, .f32⟩
  | 13 => ⟨S8x2048x784, .f32⟩
  | 14 => ⟨S_, .f32⟩
  | 15 => ⟨S_, .f32⟩
  | 16 => ⟨S8x2048x784, .f32⟩
  | 17 => ⟨S8x2048x784, .f32⟩
  | 18 => ⟨S_, .f32⟩
  | 19 => ⟨S_, .f32⟩
  | 20 => ⟨S8x2048x784, .f32⟩
  | 21 => ⟨S8x2048x784, .f32⟩
  | 22 => ⟨S_, .f32⟩
  | 23 => ⟨S_, .f32⟩
  | 24 => ⟨S8x2048x784, .f32⟩
  | 25 => ⟨S8x2048x784, .f32⟩
  | 26 => ⟨S8x2048, .f32⟩
  | 27 => ⟨S8x2048, .f32⟩
  | 28 => ⟨S8x2048, .f32⟩
  | 29 => ⟨S8x2048, .f32⟩
  | 30 => ⟨S8x2048, .f32⟩
  | 31 => ⟨S8x2048, .f32⟩
  | 32 => ⟨S8x2048, .f32⟩
  | 33 => ⟨S8x2048, .f32⟩
  | 34 => ⟨S8x2048, .f32⟩
  | 35 => ⟨S8x2048, .f32⟩
  | 36 => ⟨S8x2048, .f32⟩
  | 37 => ⟨S8x2048, .f32⟩
  | 38 => ⟨S8x2048, .f32⟩
  | 39 => ⟨S8x2048, .f32⟩
  | 40 => ⟨S8x2048, .f32⟩
  | 41 => ⟨S8x2048, .f32⟩
  | 42 => ⟨S_, .f32⟩
  | 43 => ⟨S8x2048, .f32⟩
  | 44 => ⟨S8x2048, .i1⟩
  | 45 => ⟨S_, .f32⟩
  | 46 => ⟨S8x2048, .f32⟩
  | 47 => ⟨S8x2048, .i1⟩
  | 48 => ⟨S_, .f32⟩
  | 49 => ⟨S8x2048, .f32⟩
  | 50 => ⟨S8x2048, .i1⟩
  | 51 => ⟨S_, .f32⟩
  | 52 => ⟨S8x2048, .f32⟩
  | 53 => ⟨S8x2048, .i1⟩
  | 54 => ⟨S8x2048, .i1⟩
  | 55 => ⟨S8x2048, .f32⟩
  | 56 => ⟨S8x2048, .f32⟩
  | 57 => ⟨S8x2048, .i1⟩
  | 58 => ⟨S_, .f32⟩
  | 59 => ⟨S8x2048, .f32⟩
  | 60 => ⟨S8x2048, .i1⟩
  | 61 => ⟨S8x2048, .i1⟩
  | 62 => ⟨S8x2048, .i1⟩
  | 63 => ⟨S8x2048, .f32⟩
  | 64 => ⟨S8x2048, .f32⟩
  | 65 => ⟨S8x2048, .i1⟩
  | 66 => ⟨S8x2048, .i1⟩
  | 67 => ⟨S8x2048, .f32⟩
  | 68 => ⟨S_, .f32⟩
  | 69 => ⟨S_, .f32⟩
  | 70 => ⟨S8x2048, .f32⟩
  | 71 => ⟨S8x2048, .f32⟩
  | 72 => ⟨S8x2048, .f32⟩
  | 73 => ⟨S_, .f32⟩
  | 74 => ⟨S8x2048, .f32⟩
  | 75 => ⟨S8x2048, .i1⟩
  | 76 => ⟨S_, .f32⟩
  | 77 => ⟨S_, .f32⟩
  | 78 => ⟨S8x2048, .f32⟩
  | 79 => ⟨S8x2048, .f32⟩
  | 80 => ⟨S8x2048, .i1⟩
  | 81 => ⟨S8x2048x1, .i1⟩
  | 82 => ⟨S_, .f32⟩
  | 83 => ⟨S_, .f32⟩
  | 84 => ⟨S8x2048x785, .i1⟩
  | 85 => ⟨S8x2048x785, .f32⟩
  | 86 => ⟨S8x2048x785, .f32⟩
  | 87 => ⟨S8x2048x1, .i1⟩
  | 88 => ⟨S8x2048x1, .f32⟩
  | 89 => ⟨S8x2048x785, .f32⟩
  | 90 => ⟨S8x2048x785, .f32⟩
  | 91 => ⟨S8x2048x785, .i1⟩
  | 92 => ⟨S8x2048x785, .f32⟩
  | 93 => ⟨S_, .f32⟩
  | 94 => ⟨S8x2048, .f32⟩
  | 95 => ⟨S8x2048, .i1⟩
  | 96 => ⟨S8x2048, .i1⟩
  | 97 => ⟨S8x2048, .f32⟩
  | 98 => ⟨S_, .f32⟩
  | 99 => ⟨S_, .f32⟩
  | 100 => ⟨S8x2048, .f32⟩
  | 101 => ⟨S8x2048, .f32⟩
  | 102 => ⟨S8x2048, .f32⟩
  | 103 => ⟨S8x2048x1, .i1⟩
  | 104 => ⟨S_, .f32⟩
  | 105 => ⟨S_, .f32⟩
  | 106 => ⟨S8x2048x785, .i1⟩
  | 107 => ⟨S8x2048x785, .f32⟩
  | 108 => ⟨S8x2048x785, .f32⟩
  | 109 => ⟨S8x2048x1, .i1⟩
  | 110 => ⟨S8x2048x1, .f32⟩
  | 111 => ⟨S8x2048x785, .f32⟩
  | 112 => ⟨S8x2048x785, .f32⟩
  | 113 => ⟨S8x2048x785, .i1⟩
  | 114 => ⟨S8x2048x785, .f32⟩
  | 115 => ⟨S8x2048, .f32⟩
  | 116 => ⟨S_, .f32⟩
  | 117 => ⟨S_, .f32⟩
  | 118 => ⟨S8x2048, .f32⟩
  | 119 => ⟨S8x2048, .f32⟩
  | 120 => ⟨S8x2048, .f32⟩
  | 121 => ⟨S_, .i32⟩
  | 122 => ⟨S1, .i32⟩
  | 123 => ⟨S8x2048x785, .f32⟩
  | 124 => ⟨S8x2048x784, .f32⟩
  | 125 => ⟨S8x2048x1, .f32⟩
  | 126 => ⟨S8x2048, .f32⟩
  | 127 => ⟨S8x2048x784, .f32⟩
  | _ => ⟨S8x2048x785, .f32⟩

abbrev hbmTy0_1 (i : Nat) : BufTy := match i % 128 with
  | 0 => ⟨S8x2048x1, .f32⟩
  | 1 => ⟨S8x2048, .f32⟩
  | 2 => ⟨S_, .f32⟩
  | 3 => ⟨S_, .f32⟩
  | 4 => ⟨S8x2048x784, .f32⟩
  | 5 => ⟨S8x2048x784, .f32⟩
  | 6 => ⟨S_, .f32⟩
  | 7 => ⟨S_, .f32⟩
  | 8 => ⟨S8x2048x784, .f32⟩
  | 9 => ⟨S8x2048x784, .f32⟩
  | 10 => ⟨S_, .f32⟩
  | 11 => ⟨S_, .f32⟩
  | 12 => ⟨S8x2048x784, .f32⟩
  | 13 => ⟨S8x2048x784, .f32⟩
  | 14 => ⟨S_, .f32⟩
  | 15 => ⟨S_, .f32⟩
  | 16 => ⟨S8x2048x784, .f32⟩
  | 17 => ⟨S8x2048x784, .f32⟩
  | 18 => ⟨S8x2048, .f32⟩
  | 19 => ⟨S8x2048, .f32⟩
  | 20 => ⟨S8x2048, .f32⟩
  | 21 => ⟨S8x2048, .f32⟩
  | 22 => ⟨S8x2048, .f32⟩
  | 23 => ⟨S8x2048, .f32⟩
  | 24 => ⟨S8x2048, .f32⟩
  | 25 => ⟨S8x2048, .f32⟩
  | 26 => ⟨S8x2048, .f32⟩
  | 27 => ⟨S8x2048, .f32⟩
  | 28 => ⟨S8x2048, .f32⟩
  | 29 => ⟨S8x2048, .f32⟩
  | 30 => ⟨S8x2048, .f32⟩
  | 31 => ⟨S8x2048, .f32⟩
  | 32 => ⟨S8x2048, .f32⟩
  | 33 => ⟨S8x2048, .f32⟩
  | _ => ⟨S8x2048x785, .f32⟩

abbrev hbmTy (i : Nat) : BufTy := match i / 128 with
  | 0 => hbmTy0_0 i
  | 1 => hbmTy0_1 i
  | _ => ⟨S8x2048x785, .f32⟩

abbrev bufTy : (tb : Table) → Fin (tcTables nBuf tb) → BufTy
  | .hbm, ⟨i, _⟩ => hbmTy i
  | _, _ => ⟨S8x2048x785, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_cst_1 : Ref sig .tc := ⟨.hbm, 18, rfl⟩
abbrev main_call2_v0 : Ref sig .tc := ⟨.hbm, 19, rfl⟩
abbrev main_call2_v1 : Ref sig .tc := ⟨.hbm, 20, rfl⟩
abbrev main_v8 : Ref sig .tc := ⟨.hbm, 21, rfl⟩
abbrev main_cst_2 : Ref sig .tc := ⟨.hbm, 22, rfl⟩
abbrev main_call3_v0 : Ref sig .tc := ⟨.hbm, 23, rfl⟩
abbrev main_call3_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_call4_v0 : Ref sig .tc := ⟨.hbm, 69, rfl⟩
abbrev main_call4_v1 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_call5_v0 : Ref sig .tc := ⟨.hbm, 77, rfl⟩
abbrev main_call5_v1 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call7_v0 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_call8_v0 : Ref sig .tc := ⟨.hbm, 99, rfl⟩
abbrev main_call8_v1 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_14 : Ref sig .tc := ⟨.hbm, 104, rfl⟩
abbrev main_call9_v0 : Ref sig .tc := ⟨.hbm, 105, rfl⟩
abbrev main_call9_v1 : Ref sig .tc := ⟨.hbm, 106, rfl⟩
abbrev main_call9_v2 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_call10_v0 : Ref sig .tc := ⟨.hbm, 113, rfl⟩
abbrev main_v72 : Ref sig .tc := ⟨.hbm, 114, rfl⟩
abbrev main_v73 : Ref sig .tc := ⟨.hbm, 115, rfl⟩
abbrev main_cst_15 : Ref sig .tc := ⟨.hbm, 116, rfl⟩
abbrev main_call11_v0 : Ref sig .tc := ⟨.hbm, 117, rfl⟩
abbrev main_call11_v1 : Ref sig .tc := ⟨.hbm, 118, rfl⟩
abbrev main_v74 : Ref sig .tc := ⟨.hbm, 119, rfl⟩
abbrev main_v75 : Ref sig .tc := ⟨.hbm, 120, rfl⟩
abbrev main_c : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_16 : Ref sig .tc := ⟨.hbm, 130, rfl⟩
abbrev main_call12_v0 : Ref sig .tc := ⟨.hbm, 131, rfl⟩
abbrev main_call12_v1 : Ref sig .tc := ⟨.hbm, 132, rfl⟩
abbrev main_v84 : Ref sig .tc := ⟨.hbm, 133, rfl⟩
abbrev main_cst_17 : Ref sig .tc := ⟨.hbm, 134, rfl⟩
abbrev main_call13_v0 : Ref sig .tc := ⟨.hbm, 135, rfl⟩
abbrev main_call13_v1 : Ref sig .tc := ⟨.hbm, 136, rfl⟩
abbrev main_v85 : Ref sig .tc := ⟨.hbm, 137, rfl⟩
abbrev main_cst_18 : Ref sig .tc := ⟨.hbm, 138, rfl⟩
abbrev main_call14_v0 : Ref sig .tc := ⟨.hbm, 139, rfl⟩
abbrev main_call14_v1 : Ref sig .tc := ⟨.hbm, 140, rfl⟩
abbrev main_v86 : Ref sig .tc := ⟨.hbm, 141, rfl⟩
abbrev main_cst_19 : Ref sig .tc := ⟨.hbm, 142, rfl⟩
abbrev main_call15_v0 : Ref sig .tc := ⟨.hbm, 143, rfl⟩
abbrev main_call15_v1 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩

abbrev nD : Nat := 1
abbrev τ : Topo := Topo.v7x

variable {F : FTy → Type} [FloatOps F]

class Facts₀ : Prop where
  slices_S8x2048x785_S8x2048x784_0_0_0 : S8x2048x785.Slices ![0, 0, 0] S8x2048x784
  slices_S8x2048x785_S8x2048x1_0_0_784 : S8x2048x785.Slices ![0, 0, 784] S8x2048x1
  shapeCasts_S8x2048x1_S8x2048 : S8x2048x1.ShapeCasts S8x2048
  bcast_S_S8x2048x784 : S_.BroadcastsInDim S8x2048x784 (![] : Fin 0 → Fin S8x2048x784.rank)
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x785_0_1_2 : S8x2048x1.BroadcastsInDim S8x2048x785 (![0, 1, 2] : Fin 3 → Fin S8x2048x785.rank)
  bcast_S_S8x2048x785 : S_.BroadcastsInDim S8x2048x785 (![] : Fin 0 → Fin S8x2048x785.rank)
  bcast_S_S1 : S_.BroadcastsInDim S1 (![] : Fin 0 → Fin S1.rank)
  dot_S8x2048x784_S784_S8x2048_2_0_01_n_n_n_wf : DotDims.WF S8x2048x784 S784 S8x2048 [2] [0] [0, 1] [] [] []
  scatter_S8x2048x785_S1_S8x2048_01_2_2_0_wf : ScatterDims.WF S8x2048x785 S1 S8x2048 [0, 1] [2] [2] 0

variable [Facts₀]

def dot_S8x2048x784_S784_S8x2048_2_0_01_n_n_n : DotDims S8x2048x784 S784 S8x2048 where
  lhsContracting := [2]
  rhsContracting := [0]
  lhsNonContracting := [0, 1]
  rhsNonContracting := []
  lhsBatch := []
  rhsBatch := []
  wf := dot_S8x2048x784_S784_S8x2048_2_0_01_n_n_n_wf
def scatter_S8x2048x785_S1_S8x2048_01_2_2_0 : ScatterDims S8x2048x785 S1 S8x2048 where
  updateWindowDims := [0, 1]
  insertedWindowDims := [2]
  scatterDimsToOperandDims := [2]
  indexVectorDim := 0
  wf := scatter_S8x2048x785_S1_S8x2048_01_2_2_0_wf

class Facts : Prop extends Facts₀ where

variable [Facts]
-- ==== Proof.KBase.lean ====
/-
  Names for the tile's view of the call: the eight whole arrays in HBM (the two coefficient tables of centre and
  radius, the two coefficient arrays read, the two written, the two vectors of concretized bounds), the tile's nine
  scratch buffers, and the thread of the tile at a grid coordinate. The 64-word reduction scratch is read by the
  lane-permuting loads through its whole-rectangle access; the two spellings of "the tile holds it" are the same
  assertion.
-/
import proofs.«214425_g62758062129325_cont_9to1_m_981_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«214425_g62758062129325_cont_9to1_m_981_19_alg».proof.Proof.Gen.Kernel
import proofs.«214425_g62758062129325_cont_9to1_m_981_19_alg».proof.Proof.Gen.Kernel.Skeleton

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cpH : Memref sig .scVector .hbm S784 .f32 := Memref.whole main_v2_scv
abbrev rpH : Memref sig .scVector .hbm S784 .f32 := Memref.whole main_v5_scv
abbrev lH : Memref sig .scVector .hbm S8x2048x785 .f32 := Memref.whole main_arg0_scv
abbrev uH : Memref sig .scVector .hbm S8x2048x785 .f32 := Memref.whole main_arg1_scv
abbrev loH : Memref sig .scVector .hbm S8x2048x785 .f32 := Memref.whole main_v6_0_scv
abbrev uoH : Memref sig .scVector .hbm S8x2048x785 .f32 := Memref.whole main_v6_1_scv
abbrev plbH : Memref sig .scVector .hbm S16384 .f32 := Memref.whole main_v6_2_scv
abbrev pubH : Memref sig .scVector .hbm S16384 .f32 := Memref.whole main_v6_3_scv
abbrev cpV : Memref sig .scVector .vmem S784 .f32 := Memref.whole cc0_scratch0
abbrev rpV : Memref sig .scVector .vmem S784 .f32 := Memref.whole cc0_scratch1
abbrev laV : Memref sig .scVector .vmem S16x785 .f32 := Memref.whole cc0_scratch2
abbrev uaV : Memref sig .scVector .vmem S16x785 .f32 := Memref.whole cc0_scratch3
abbrev lbV : Memref sig .scVector .vmem S16x785 .f32 := Memref.whole cc0_scratch4
abbrev ubV : Memref sig .scVector .vmem S16x785 .f32 := Memref.whole cc0_scratch5
abbrev plbV : Memref sig .scVector .vmem S512 .f32 := Memref.whole cc0_scratch6
abbrev pubV : Memref sig .scVector .vmem S512 .f32 := Memref.whole cc0_scratch7
abbrev redV : Memref sig .scVector .vmem S64 .f32 := Memref.whole cc0_scratch8

/-- The body as the launch calls it on the tile at grid coordinates `L`. -/
abbrev bodyAt (L : grid0.Coords) :=
  cc0__sc_body (F := F) L cpH (Memref.isWhole_whole _) rpH (Memref.isWhole_whole _) lH (Memref.isWhole_whole _) uH (Memref.isWhole_whole _)
    loH (Memref.isWhole_whole _) uoH (Memref.isWhole_whole _) plbH (Memref.isWhole_whole _) pubH (Memref.isWhole_whole _)
    cpV (Memref.isWhole_whole _) rpV (Memref.isWhole_whole _) laV (Memref.isWhole_whole _) uaV (Memref.isWhole_whole _)
    lbV (Memref.isWhole_whole _) ubV (Memref.isWhole_whole _) plbV (Memref.isWhole_whole _) pubV (Memref.isWhole_whole _)
    redV (Memref.isWhole_whole _) cc0_scratch9 cc0_scratch10 cc0_scratch11 cc0_scratch12 cc0_scratch13 cc0_scratch14 cc0_scratch15 cc0_scratch16
    cc0_scoped0 cc0_scoped1 cc0_scoped2 cc0_scoped3

variable (d : Dev nD) (L : grid0.Coords)

omit [FloatOps F] in
theorem pts_red_view (f : Buf (Elt F) ((thr d L).loc cc0_scratch8)) :
    ((redV : Memref sig .scVector .vmem S64 .f32).view.loc (thr d L) ↦{fullShare} f : sProp 𝕄) = (thr d L).loc cc0_scratch8 ↦{fullShare} f := rfl
omit [FloatOps F] in
theorem pts_red_access (f : Buf (Elt F) ((thr d L).loc cc0_scratch8)) :
    (((redV : Memref sig .scVector .vmem S64 .f32).access (.whole S64)).loc (thr d L) ↦{fullShare} f : sProp 𝕄) = (thr d L).loc cc0_scratch8 ↦{fullShare} f := rfl

end Cert.Proof.K

end
-- ==== Proof.KRows.lean ====
/-
  One trip of the row loop of a chunk: row `k` of the two 16×785 coefficient buffers is read slice by slice against
  the centre and radius tables, the four lane sums are completed by four rounds of lane-permuting loads through the
  64-word scratch, and the row of each buffer is overwritten by its scaled copy. Here only what the trip touches is
  recorded: it reads the two tables, rewrites the two buffers and the scratch, and returns.
-/
import proofs.«214425_g62758062129325_cont_9to1_m_981_19_alg».proof.Proof.KBase

noncomputable section

namespace Cert.Proof.K

open Cert.Kernel Cert.Kernel.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

variable (d : Dev nD) (L : grid0.Coords)

/-- What a row trip needs and leaves: the two tables as they are, the two coefficient buffers and the reduction scratch at
    some contents. -/
def rowInvA (c : Buf (Elt F) (cpV.view.loc (thr d L))) (r : Buf (Elt F) (rpV.view.loc (thr d L))) : sProp 𝕄 :=
  iprop((cpV.view.loc (thr d L) ↦{fullShare} c) ∗ (rpV.view.loc (thr d L) ↦{fullShare} r)
    ∗ (∃ a', laV.view.loc (thr d L) ↦{fullShare} a') ∗ (∃ b', uaV.view.loc (thr d L) ↦{fullShare} b')
    ∗ (∃ e', redV.view.loc (thr d L) ↦{fullShare} e'))

set_option maxHeartbeats 4000000 in
theorem rowA_trip (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec F S16 .f32 × FVec F S16 .f32)
    (c : Buf (Elt F) (cpV.view.loc (thr d L))) (r : Buf (Elt F) (rpV.view.loc (thr d L))) :
    rowInvA d L c r
      ⊢ (wp frame (wpE (defs₀ (F := F)) 𝒱₀ (thr d L) none) Set.univ
          (k0_t2_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc) fun _ => rowInvA d L c r : sProp 𝕄) := by
  unfold k0_t2_body rowInvA
  iintro ⟨HC, HR, ⟨%a, HA⟩, ⟨%b, HB⟩, ⟨%e, HE⟩⟩
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  sl_step
  isplitl [HC]; · iexact HC
  isplitl [HR]; · iexact HR
  isplitl [HA]; · iexists _; iexact HA
  isplitl [HB]; · iexists _; iexact HB
  iexists _; iexact HE

/-- What a row trip needs and leaves: the two tables as they are, the two coefficient buffers and the reduction scratch at
    some contents. -/
def rowInvB (c : Buf (Elt F) (cpV.view.loc (thr d L))) (r : Buf (Elt F) (rpV.view.loc (thr d L))) : sProp 𝕄 :=
  iprop((cpV.view.loc (thr d L) ↦{fullShare} c) ∗ (rpV.view.loc (thr d L) ↦{fullShare} r)
    ∗ (∃ a', lbV.view.loc (thr d L) ↦{fullShare} a') ∗ (∃ b', ubV.view.loc (thr d L) ↦{fullShare} b')
    ∗ (∃ e', redV.view.loc (thr d L) ↦{fullShare} e'))

set_option maxHeartbeats 4000000 in
theorem rowB_trip (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec F S16 .f32 × FVec F S16 .f32)
    (c : Buf (Elt F) (cpV.view.loc (thr d L))) (r : Buf (Elt F) (rpV.view.loc (thr d L))) :
    rowInvB d L c r
      ⊢ (wp frame (wpE (defs₀ (F := F)) 𝒱₀ (thr d L) none) Set.univ
          (k0_t3_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc) fun _ => rowInvB d L c r : sProp 𝕄) := by
  unfold k0_t3_body rowInvB
  iintro ⟨HC, HR, ⟨%a, HA⟩, ⟨%b, HB⟩, ⟨%e, HE⟩⟩
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  sl_step
  isplitl [HC]; · iexact HC
  isplitl [HR]; · iexact HR
  isplitl [HA]; · iexists _; iexact HA
  isplitl [HB]; · iexists _; iexact HB
  iexists _; iexact HE

end Cert.Proof.K

end
-- ==== Proof.KTrip.lean ====
/-
  One trip of the tile's main loop. A tile works through its 512 rows in 32 chunks of 16 rows, two chunks per trip,
  through two pairs of coefficient buffers: while one pair is being worked on the other pair's copies are under way.
  Before a trip both pairs' copies from the input arrays are outstanding; the trip waits for the first pair, runs the
  row loop over it, records the chunk's concretized bounds and starts the pair's copy to its slices of the output
  arrays, does the same for the second pair, and then — unless it is the last trip — waits for each copy-out and starts
  the next chunk's copy-in in its place. After the last trip the two copies-out are still outstanding. Each copy has a
  semaphore of its own, and no buffer is touched between the start of a copy that reads or writes it and the wait for
  that copy. Stated here with every buffer at some contents: that the trip runs and what it holds before and after.
-/
import proofs.«214425_g62758062129325_cont_9to1_m_981_19_alg».proof.Proof.KRows

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

/-- The slice of an output coefficient array that receives a chunk, as each copy-out names it. -/
abbrev outA (k : Fin k0_t1_loop.trips) : Memref sig .scVector .hbm S16x785 .f32 :=
  (loH.slice (Rect.unit (s := S8x2048x785) (k0_off104 L k) S1x16x785.size (k0_off104_inb L k)) (fun _ => rfl)).squeeze S16x785 squeezes_S1x16x785_S16x785
abbrev outA' (k : Fin k0_t1_loop.trips) : Memref sig .scVector .hbm S16x785 .f32 :=
  (uoH.slice (Rect.unit (s := S8x2048x785) (k0_off104 L k) S1x16x785.size (k0_off104_inb L k)) (fun _ => rfl)).squeeze S16x785 squeezes_S1x16x785_S16x785
abbrev outB (k : Fin k0_t1_loop.trips) : Memref sig .scVector .hbm S16x785 .f32 :=
  (loH.slice (Rect.unit (s := S8x2048x785) (k0_off105 L k) S1x16x785.size (k0_off105_inb L k)) (fun _ => rfl)).squeeze S16x785 squeezes_S1x16x785_S16x785
abbrev outB' (k : Fin k0_t1_loop.trips) : Memref sig .scVector .hbm S16x785 .f32 :=
  (uoH.slice (Rect.unit (s := S8x2048x785) (k0_off105 L k) S1x16x785.size (k0_off105_inb L k)) (fun _ => rfl)).squeeze S16x785 squeezes_S1x16x785_S16x785

/-- A wait recorded at the kernels' own index keeps the record within "the waits before, or waits at that index". -/
theorem waits_insert {W' W : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

/-- Whether a trip is followed by another: the trip's own test, as an inequality of trip numbers. -/
theorem cond_lt : ∀ k : Fin k0_t1_loop.trips, k0_cond1 k = 1#1 → k.val + 1 < k0_t1_loop.trips := by decide +kernel
theorem cond_last : ∀ k : Fin k0_t1_loop.trips, ¬ k0_cond1 k = 1#1 → k.val + 1 = k0_t1_loop.trips := by decide +kernel

variable (O : CellTallies nD τ sig (HIx 1)) (W : Waits sig (HIx 1)) (q9 q10 q11 q12 : PosShare TreeShare)
  (f0 : Buf (Elt F) (lH.view.loc (thr d L))) (f1 : Buf (Elt F) (uH.view.loc (thr d L)))

/-- A chunk on its way in: the copy into a coefficient buffer is outstanding on its semaphore; it has borrowed the rows
    it reads from the array, the rest of which the tile keeps. -/
def inFl (sm : DmaSems sig S_) (dst : Memref sig .scVector .vmem S16x785 .f32) (src : Memref sig .scVector .hbm S8x2048x785 .f32)
    (q : PosShare TreeShare) (f : Buf (Elt F) (src.view.loc (thr d L))) : sProp 𝕄 :=
  iprop(∃ (S : Finset (Idx (src.view.loc (thr d L)))) (dv : Buf (Elt F) (dst.view.loc (thr d L))),
    Transfers.Flight (countersEmb (U := UU)) (thr d L) (SemLoc.dma sm.sem) (default : HIx 1) 401920
        iprop((dst.view.loc (thr d L) ↦{fullShare} dv) ∗ (src.view.loc (thr d L) ↦[S]{q} f))
      ∗ (src.view.loc (thr d L) ↦[Finset.univ \ S]{q} f))

/-- The four slices of the two output arrays that one trip's two chunks are written to, at some contents. -/
def outsAt (k : Fin k0_t1_loop.trips) : sProp 𝕄 :=
  iprop((∃ g, (outA L k).view.loc (thr d L) ↦[(outA L k).view.set]{fullShare} g)
    ∗ (∃ g, (outA' L k).view.loc (thr d L) ↦[(outA' L k).view.set]{fullShare} g)
    ∗ (∃ g, (outB L k).view.loc (thr d L) ↦[(outB L k).view.set]{fullShare} g)
    ∗ (∃ g, (outB' L k).view.loc (thr d L) ↦[(outB' L k).view.set]{fullShare} g))

/-- A chunk on its way out: the copy from a coefficient buffer into its slice of an output array is outstanding. -/
def outFl (sm : DmaSems sig S_) (src : Memref sig .scVector .vmem S16x785 .f32) (dst : Memref sig .scVector .hbm S16x785 .f32) : sProp 𝕄 :=
  iprop(∃ (g : Buf (Elt F) (dst.view.loc (thr d L))) (sv : Buf (Elt F) (src.view.loc (thr d L))),
    Transfers.Flight (countersEmb (U := UU)) (thr d L) (SemLoc.dma sm.sem) (default : HIx 1) 401920
        iprop((dst.view.loc (thr d L) ↦[dst.view.set]{fullShare} g) ∗ (src.view.loc (thr d L) ↦[src.view.set]{fullShare} sv))
      ∗ (src.view.loc (thr d L) ↦[Finset.univ \ src.view.set]{fullShare} sv))

/-- What every trip finds and leaves apart from the copies: the tile may wait, its debts, and the five small scratches. -/
def common : sProp 𝕄 :=
  iprop(Transfers.MayWaits (thr d L) (none : HIx 1) O
    ∗ (∃ W', ⌜∀ p ∈ W', p ∈ W ∨ p.2 = none⌝ ∗ owes (thr d L) O W')
    ∗ (∃ c, cpV.view.loc (thr d L) ↦{fullShare} c) ∗ (∃ r, rpV.view.loc (thr d L) ↦{fullShare} r)
    ∗ (∃ p, plbV.view.loc (thr d L) ↦{fullShare} p) ∗ (∃ p, pubV.view.loc (thr d L) ↦{fullShare} p)
    ∗ (∃ e, redV.view.loc (thr d L) ↦{fullShare} e))

/-- Before a trip: both chunks of the trip are on their way in, nothing is on its way out. -/
def invIn : sProp 𝕄 :=
  iprop(inFl d L cc0_scratch9 laV lH q9 f0 ∗ inFl d L cc0_scratch10 uaV uH q10 f1
    ∗ inFl d L cc0_scratch11 lbV lH q11 f0 ∗ inFl d L cc0_scratch12 ubV uH q12 f1
    ∗ semVal (thr d L, SemLoc.dma cc0_scratch13.sem) 0 ∗ semVal (thr d L, SemLoc.dma cc0_scratch14.sem) 0
    ∗ semVal (thr d L, SemLoc.dma cc0_scratch15.sem) 0 ∗ semVal (thr d L, SemLoc.dma cc0_scratch16.sem) 0
    ∗ bigSep Finset.univ (outsAt (F := F) d L))

/-- After the last trip: nothing is on its way in, the last trip's two chunks are on their way out. -/
def invOut : sProp 𝕄 :=
  iprop(∃ kl : Fin k0_t1_loop.trips,
    (lH.view.loc (thr d L) ↦{q9} f0) ∗ (uH.view.loc (thr d L) ↦{q10} f1)
    ∗ (lH.view.loc (thr d L) ↦{q11} f0) ∗ (uH.view.loc (thr d L) ↦{q12} f1)
    ∗ semVal (thr d L, SemLoc.dma cc0_scratch9.sem) 0 ∗ semVal (thr d L, SemLoc.dma cc0_scratch10.sem) 0
    ∗ semVal (thr d L, SemLoc.dma cc0_scratch11.sem) 0 ∗ semVal (thr d L, SemLoc.dma cc0_scratch12.sem) 0
    ∗ outFl d L cc0_scratch13 laV (outA L kl) ∗ outFl d L cc0_scratch14 uaV (outA' L kl)
    ∗ outFl d L cc0_scratch15 lbV (outB L kl) ∗ outFl d L cc0_scratch16 ubV (outB' L kl)
    ∗ bigSep (Finset.univ.erase kl) (outsAt (F := F) d L))

/-- The loop's invariant. -/
def loopInv (k : Nat) (_ : BitVec 32) : sProp 𝕄 :=
  iprop(common d L O W ∗ if k < k0_t1_loop.trips then invIn d L q9 q10 q11 q12 f0 f1 else invOut d L q9 q10 q11 q12 f0 f1)

set_option maxHeartbeats 4000000 in
theorem trip (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t1_loop.trips) (acc : BitVec 32) :
    loopInv d L O W q9 q10 q11 q12 f0 f1 k.val acc
      ⊢ (wp frame (wpE (defs₀ (F := F)) 𝒱₀ (thr d L) none) Set.univ
          (k0_t1_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc) (loopInv d L O W q9 q10 q11 q12 f0 f1 (k.val + 1)) : sProp 𝕄) := by
  unfold loopInv
  rw [if_pos k.isLt]
  by_cases hk : k0_cond1 k = 1#1
  · rw [if_pos (cond_lt k hk)]
    unfold common invIn inFl
    rw [SparseCore.bigSep_erase' (Finset.mem_univ k)]
    unfold outsAt

    unfold k0_t1_body
    iintro ⟨⟨Hmw, ⟨%W', %hW', HO⟩, ⟨%c, HC⟩, ⟨%r, HR⟩, ⟨%p6, HP⟩, ⟨%p7, HQ⟩, ⟨%e, HE⟩⟩,
      ⟨%SA, %a, F9, L9⟩, ⟨%SA', %b, F10, U10⟩, ⟨%SB, %a2, F11, L11⟩, ⟨%SB', %b2, F12, U12⟩, M13, M14, M15, M16,
      ⟨⟨%gA, GA⟩, ⟨%gA', GA'⟩, ⟨%gB, GB⟩, ⟨%gB', GB'⟩⟩, Houts⟩
    set_option sl_exec.parts true in
    sl_exec
    sl_for (fun (_ : Nat) (_ : FVec F S16 .f32 × FVec F S16 .f32) => rowInvA (F := F) d L c r) $$ [HC HR F9_dst F10_dst HE]
    case region => intro k' acc'; exact rowA_trip d L _ _ _ _ _ _ _ _ _ _ _ _ _ _ _ _ _ _ _ _ _ _ _ _ _ _ _ _ _ _ _ _ _ _ _ _ _ _ k' acc' c r
    · unfold rowInvA
      isplitl [HC]; · iexact HC
      isplitl [HR]; · iexact HR
      isplitl [F9_dst]; · iexists _; iexact F9_dst
      isplitl [F10_dst]; · iexists _; iexact F10_dst
      iexists _; iexact HE
    iintro %accA HI
    unfold rowInvA
    icases HI with ⟨HC, HR, ⟨%a', HA⟩, ⟨%b', HB⟩, ⟨%e', HE⟩⟩
    set_option sl_exec.parts true in
    sl_exec
    sl_for (fun (_ : Nat) (_ : FVec F S16 .f32 × FVec F S16 .f32) => rowInvB (F := F) d L c r) $$ [HC HR F11_dst F12_dst HE]
    case region => intro k' acc'; exact rowB_trip d L _ _ _ _ _ _ _ _ _ _ _ _ _ _ _ _ _ _ _ _ _ _ _ _ _ _ _ _ _ _ _ _ _ _ _ k' acc' c r
    · unfold rowInvB
      isplitl [HC]; · iexact HC
      isplitl [HR]; · iexact HR
      isplitl [F11_dst]; · iexists _; iexact F11_dst
      isplitl [F12_dst]; · iexists _; iexact F12_dst
      iexists _; iexact HE
    iintro %accB HI
    unfold rowInvB
    icases HI with ⟨HC, HR, ⟨%a2', HA2⟩, ⟨%b2', HB2⟩, ⟨%e'', HE⟩⟩
    set_option sl_exec.parts true in
    sl_exec
    sl_step
    isplitl [Hmw HO HC HR HP HQ HE]
    · isplitl [Hmw]; · iexact Hmw
      isplitl [HO]
      · iexists _
        isplitr
        swap
        · iexact HO
        · ipureintro
          repeat (apply waits_insert)
          exact hW'
      isplitl [HC]; · iexists _; iexact HC
      isplitl [HR]; · iexists _; iexact HR
      isplitl [HP]; · iexists _; iexact HP
      isplitl [HQ]; · iexists _; iexact HQ
      iexists _; iexact HE
    isplitl [F9 L9]
    · iexists _; iexists _; isplitl [F9]; · iexact F9
      iexact L9
    isplitl [F10 U10]
    · iexists _; iexists _; isplitl [F10]; · iexact F10
      iexact U10
    isplitl [F11 L11]
    · iexists _; iexists _; isplitl [F11]; · iexact F11
      iexact L11
    isplitl [F12 U12]
    · iexists _; iexists _; isplitl [F12]; · iexact F12
      iexact U12
    isplitl [M13]; · iexact M13
    isplitl [M14]; · iexact M14
    isplitl [M15]; · iexact M15
    isplitl [M16]; · iexact M16
    isplitl [GA GA' GB GB']
    · isplitl [GA]; · iexists _; iexact GA
      isplitl [GA']; · iexists _; iexact GA'
      isplitl [GB]; · iexists _; iexact GB
      iexists _; iexact GB'
    iexact Houts
  · rw [if_neg (by have := cond_last k hk; omega)]
    unfold common invIn inFl
    rw [SparseCore.bigSep_erase' (Finset.mem_univ k)]
    unfold outsAt

    unfold k0_t1_body
    iintro ⟨⟨Hmw, ⟨%W', %hW', HO⟩, ⟨%c, HC⟩, ⟨%r, HR⟩, ⟨%p6, HP⟩, ⟨%p7, HQ⟩, ⟨%e, HE⟩⟩,
      ⟨%SA, %a, F9, L9⟩, ⟨%SA', %b, F10, U10⟩, ⟨%SB, %a2, F11, L11⟩, ⟨%SB', %b2, F12, U12⟩, M13, M14, M15, M16,
      ⟨⟨%gA, GA⟩, ⟨%gA', GA'⟩, ⟨%gB, GB⟩, ⟨%gB', GB'⟩⟩, Houts⟩
    set_option sl_exec.parts true in
    sl_exec
    sl_for (fun (_ : Nat) (_ : FVec F S16 .f32 × FVec F S16 .f32) => rowInvA (F := F) d L c r) $$ [HC HR F9_dst F10_dst HE]
    case region => intro k' acc'; exact rowA_trip d L _ _ _ _ _ _ _ _ _ _ _ _ _ _ _ _ _ _ _ _ _ _ _ _ _ _ _ _ _ _ _ _ _ _ _ _ _ _ k' acc' c r
    · unfold rowInvA
      isplitl [HC]; · iexact HC
      isplitl [HR]; · iexact HR
      isplitl [F9_dst]; · iexists _; iexact F9_dst
      isplitl [F10_dst]; · iexists _; iexact F10_dst
      iexists _; iexact HE
    iintro %accA HI
    unfold rowInvA
    icases HI with ⟨HC, HR, ⟨%a', HA⟩, ⟨%b', HB⟩, ⟨%e', HE⟩⟩
    set_option sl_exec.parts true in
    sl_exec
    sl_for (fun (_ : Nat) (_ : FVec F S16 .f32 × FVec F S16 .f32) => rowInvB (F := F) d L c r) $$ [HC HR F11_dst F12_dst HE]
    case region => intro k' acc'; exact rowB_trip d L _ _ _ _ _ _ _ _ _ _ _ _ _ _ _ _ _ _ _ _ _ _ _ _ _ _ _ _ _ _ _ _ _ _ _ k' acc' c r
    · unfold rowInvB
      isplitl [HC]; · iexact HC
      isplitl [HR]; · iexact HR
      isplitl [F11_dst]; · iexists _; iexact F11_dst
      isplitl [F12_dst]; · iexists _; iexact F12_dst
      iexists _; iexact HE
    iintro %accB HI
    unfold rowInvB
    icases HI with ⟨HC, HR, ⟨%a2', HA2⟩, ⟨%b2', HB2⟩, ⟨%e'', HE⟩⟩
    set_option sl_exec.parts true in
    sl_exec
    sl_step
    isplitl [Hmw HO HC HR HP HQ HE]
    · isplitl [Hmw]; · iexact Hmw
      isplitl [HO]
      · iexists _
        isplitr
        swap
        · iexact HO
        · ipureintro
          repeat (apply waits_insert)
          exact hW'
      isplitl [HC]; · iexists _; iexact HC
      isplitl [HR]; · iexists _; iexact HR
      isplitl [HP]; · iexists _; iexact HP
      isplitl [HQ]; · iexists _; iexact HQ
      iexists _; iexact HE
    unfold invOut outFl
    iexists k
    isplitl [L9]; · iexact L9
    isplitl [U10]; · iexact U10
    isplitl [L11]; · iexact L11
    isplitl [U12]; · iexact U12
    isplitl [F9]; · iexact F9
    isplitl [F10]; · iexact F10
    isplitl [F11]; · iexact F11
    isplitl [F12]; · iexact F12
    isplitl [M13 HA]
    · iexists _; iexists _; isplitl [M13]; · iexact M13
      iexact HA
    isplitl [M14 HB]
    · iexists _; iexists _; isplitl [M14]; · iexact M14
      iexact HB
    isplitl [M15 HA2]
    · iexists _; iexists _; isplitl [M15]; · iexact M15
      iexact HA2
    isplitl [M16 HB2]
    · iexists _; iexists _; isplitl [M16]; · iexact M16
      iexact HB2
    iexact Houts

end Cert.Proof.K

end
-- ==== Proof.KBody.lean ====
/-
  The kernel on one tile, whole. The tile copies the two tables of centres and radii into its scratch, starts the copies
  of its first two chunks, runs the sixteen trips of its main loop, waits for the last two copies-out, and writes its
  512 concretized lower and upper bounds to its part of the two bound vectors. Twelve semaphores, one per copy that can
  be outstanding; every copy is waited for before its source or destination is touched again. Stated with every
  buffer at some contents: the kernel runs to its end on what the tile is handed and hands the same back.
-/
import proofs.«214425_g62758062129325_cont_9to1_m_981_19_alg».proof.Proof.KTrip

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

variable (O : CellTallies nD τ sig (HIx 1)) (W : Waits sig (HIx 1)) (qc qr q9 q10 q11 q12 : PosShare TreeShare)
  (fc : Buf (Elt F) (cpH.view.loc (thr d L))) (fr : Buf (Elt F) (rpH.view.loc (thr d L)))
  (f0 : Buf (Elt F) (lH.view.loc (thr d L))) (f1 : Buf (Elt F) (uH.view.loc (thr d L)))

/-- The 512 words of a vector of concretized bounds that belong to the tile. -/
abbrev plbSl : Memref sig .scVector .hbm S512 .f32 := plbH.slice (Rect.unit (s := S16384) (k0_off161 L) S512.size (k0_off161_inb L)) (fun _ => rfl)
abbrev pubSl : Memref sig .scVector .hbm S512 .f32 := pubH.slice (Rect.unit (s := S16384) (k0_off161 L) S512.size (k0_off161_inb L)) (fun _ => rfl)

/-- What a tile is handed and hands back: read shares of the two tables and (one per buffer pair) of the two input arrays,
    its slices of the two output arrays and of the two bound vectors at some contents. -/
def goRes : sProp 𝕄 :=
  iprop((cpH.view.loc (thr d L) ↦{qc} fc) ∗ (rpH.view.loc (thr d L) ↦{qr} fr)
    ∗ (lH.view.loc (thr d L) ↦{q9} f0) ∗ (uH.view.loc (thr d L) ↦{q10} f1)
    ∗ (lH.view.loc (thr d L) ↦{q11} f0) ∗ (uH.view.loc (thr d L) ↦{q12} f1)
    ∗ bigSep Finset.univ (outsAt (F := F) d L)
    ∗ (∃ g, (plbSl L).view.loc (thr d L) ↦[(plbSl L).view.set]{fullShare} g)
    ∗ (∃ g, (pubSl L).view.loc (thr d L) ↦[(pubSl L).view.set]{fullShare} g))

/-- The tile's nine scratch buffers at some contents, and its twelve copy semaphores at zero. -/
def scratchRes : sProp 𝕄 := iprop((∃ s, cpV.view.loc (thr d L) ↦{fullShare} s) ∗ (∃ s, rpV.view.loc (thr d L) ↦{fullShare} s) ∗ (∃ s, laV.view.loc (thr d L) ↦{fullShare} s) ∗ (∃ s, uaV.view.loc (thr d L) ↦{fullShare} s) ∗ (∃ s, lbV.view.loc (thr d L) ↦{fullShare} s) ∗ (∃ s, ubV.view.loc (thr d L) ↦{fullShare} s) ∗ (∃ s, plbV.view.loc (thr d L) ↦{fullShare} s) ∗ (∃ s, pubV.view.loc (thr d L) ↦{fullShare} s) ∗ (∃ s, redV.view.loc (thr d L) ↦{fullShare} s))
def semsRes : sProp 𝕄 := iprop(semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0)

set_option maxHeartbeats 4000000 in
theorem body_core (X : sProp 𝕄) :
    iprop(Transfers.MayWaits (thr d L) (none : HIx 1) O ∗ owes (thr d L) O W ∗ goRes d L qc qr q9 q10 q11 q12 fc fr f0 f1
        ∗ scratchRes (F := F) d L ∗ semsRes (F := F) d L ∗ X)
      ⊢ (wp frame (wpE (defs₀ (F := F)) 𝒱₀ (thr d L) none) Set.univ (bodyAt (F := F) L) fun _ =>
          iprop(goRes d L qc qr q9 q10 q11 q12 fc fr f0 f1 ∗ scratchRes (F := F) d L ∗ semsRes (F := F) d L ∗ X
            ∗ ∃ W', ⌜∀ p ∈ W', p ∈ W ∨ p.2 = none⌝ ∗ owes (thr d L) O W') : sProp 𝕄) := by
  unfold bodyAt goRes scratchRes semsRes
  rw [cc0__sc_body_eq_skeleton]; unfold cc0__sc_body_skel
  iintro ⟨Hmw, HO, ⟨H2, H5, L9, U10, L11, U12, Houts, ⟨%g2, G2⟩, ⟨%g3, G3⟩⟩,
    ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩,
    ⟨M9, M10, M11, M12, M13, M14, M15, M16, R0, R1, R2, R3⟩, HX⟩
  set_option sl_exec.parts true in
  sl_exec
  sl_for (loopInv d L O W q9 q10 q11 q12 f0 f1) $$ [Hmw HO S0 S1 S6 S7 S8 M9 L9 M10 U10 M11 L11 M12 U12 M13 M14 M15 M16 Houts]
  case region => intro k acc; exact trip d L O W q9 q10 q11 q12 f0 f1 _ _ _ _ _ _ _ _ _ _ _ _ _ _ _ _ _ _ _ _ _ _ _ _ _ _ _ _ _ _ _ _ _ _ _ k acc
  · unfold loopInv
    rw [if_pos (by decide)]
    unfold common invIn inFl
    isplitl [Hmw HO S0 S1 S6 S7 S8]
    · isplitl [Hmw]; · iexact Hmw
      isplitl [HO]
      · iexists _
        isplitr
        swap
        · iexact HO
        · ipureintro
          repeat (apply waits_insert)
          exact fun p hp => .inl hp
      isplitl [S0]; · iexists _; iexact S0
      isplitl [S1]; · iexists _; iexact S1
      isplitl [S6]; · iexists _; iexact S6
      isplitl [S7]; · iexists _; iexact S7
      iexists _; iexact S8
    isplitl [M9 L9]
    · iexists _; iexists _; isplitl [M9]; · iexact M9
      iexact L9
    isplitl [M10 U10]
    · iexists _; iexists _; isplitl [M10]; · iexact M10
      iexact U10
    isplitl [M11 L11]
    · iexists _; iexists _; isplitl [M11]; · iexact M11
      iexact L11
    isplitl [M12 U12]
    · iexists _; iexists _; isplitl [M12]; · iexact M12
      iexact U12
    isplitl [M13]; · iexact M13
    isplitl [M14]; · iexact M14
    isplitl [M15]; · iexact M15
    isplitl [M16]; · iexact M16
    iexact Houts
  iintro %accE HI
  unfold loopInv
  rw [if_neg (lt_irrefl _)]
  unfold common invOut outFl
  icases HI with ⟨⟨Hmw, ⟨%W', %hW', HO⟩, ⟨%c, HC⟩, ⟨%r, HR⟩, ⟨%p6, HP⟩, ⟨%p7, HQ⟩, ⟨%e, HE⟩⟩, %kl, L9, U10, L11, U12, M9, M10, M11, M12,
    ⟨%gA, %sa, F13, RA⟩, ⟨%gA', %sa', F14, RA'⟩, ⟨%gB, %sb, F15, RB⟩, ⟨%gB', %sb', F16, RB'⟩, Houts⟩
  rw [SparseCore.bigSep_erase' (Finset.mem_univ kl)]
  unfold outsAt
  set_option sl_exec.parts true in
  sl_exec
  sl_step
  isplitl [H2 H5 L9 U10 L11 U12 F13_dst F14_dst F15_dst F16_dst Houts G2 G3]
  · isplitl [H2]; · iexact H2
    isplitl [H5]; · iexact H5
    isplitl [L9]; · iexact L9
    isplitl [U10]; · iexact U10
    isplitl [L11]; · iexact L11
    isplitl [U12]; · iexact U12
    isplitl [F13_dst F14_dst F15_dst F16_dst Houts]
    · isplitl [F13_dst F14_dst F15_dst F16_dst]
      · isplitl [F13_dst]; · iexists _; iexact F13_dst
        isplitl [F14_dst]; · iexists _; iexact F14_dst
        isplitl [F15_dst]; · iexists _; iexact F15_dst
        iexists _; iexact F16_dst
      iexact Houts
    isplitl [G2]; · iexists _; iexact G2
    iexists _; iexact G3
  isplitl [HC HR RA RA' RB RB' HP HQ HE]
  · isplitl [HC]; · iexists _; iexact HC
    isplitl [HR]; · iexists _; iexact HR
    isplitl [RA]; · iexists _; iexact RA
    isplitl [RA']; · iexists _; iexact RA'
    isplitl [RB]; · iexists _; iexact RB
    isplitl [RB']; · iexists _; iexact RB'
    isplitl [HP]; · iexists _; iexact HP
    isplitl [HQ]; · iexists _; iexact HQ
    iexists _; iexact HE
  isplitl [M9 M10 M11 M12 F13 F14 F15 F16 R0 R1 R2 R3]
  · isplitl [M9]; · iexact M9
    isplitl [M10]; · iexact M10
    isplitl [M11]; · iexact M11
    isplitl [M12]; · iexact M12
    isplitl [F13]; · iexact F13
    isplitl [F14]; · iexact F14
    isplitl [F15]; · iexact F15
    isplitl [F16]; · iexact F16
    isplitl [R0]; · iexact R0
    isplitl [R1]; · iexact R1
    isplitl [R2]; · iexact R2
    iexact R3
  isplitl [HX]; · iexact HX
  iexists _
  isplitr
  swap
  · iexact HO
  · ipureintro
    repeat (apply waits_insert)
    exact hW'

omit [FloatOps F] in
/-- The twelve copy semaphores are among the tile's own: at zero they are those twelve at zero, and the rest. -/
theorem ownSems0_V :
    (ownSems0 (thr d L) : sProp 𝕄)
      = iprop(semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
          ∗ bigSep (((((((((((((ownCells (thr d L)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem)).erase (thr d L, SemLoc.dma cc0_scratch16.sem)).erase (thr d L, SemLoc.dma cc0_scoped0.sem)).erase (thr d L, SemLoc.dma cc0_scoped1.sem)).erase (thr d L, SemLoc.dma cc0_scoped2.sem)).erase (thr d L, SemLoc.dma cc0_scoped3.sem)) fun g => semVal g 0) := by
  unfold SparseCore.Cfg.ownSems0
  rw [SparseCore.bigSep_erase' ((mem_ownCells (g := (thr d L, SemLoc.dma cc0_scratch9.sem))).mpr ⟨rfl, by show (SemLoc.dma cc0_scratch9.sem : SemLoc sig).isScoped .scVector = true; decide⟩),
    SparseCore.bigSep_erase' (Finset.mem_erase.mpr ⟨(fun e => absurd (SemLoc.dma.inj (Prod.mk.inj e).2) (show (cc0_scratch10.sem : DmaSem sig) ≠ cc0_scratch9.sem by decide)), (mem_ownCells (g := (thr d L, SemLoc.dma cc0_scratch10.sem))).mpr ⟨rfl, by show (SemLoc.dma cc0_scratch10.sem : SemLoc sig).isScoped .scVector = true; decide⟩⟩),
    SparseCore.bigSep_erase' (Finset.mem_erase.mpr ⟨(fun e => absurd (SemLoc.dma.inj (Prod.mk.inj e).2) (show (cc0_scratch11.sem : DmaSem sig) ≠ cc0_scratch10.sem by decide)), Finset.mem_erase.mpr ⟨(fun e => absurd (SemLoc.dma.inj (Prod.mk.inj e).2) (show (cc0_scratch11.sem : DmaSem sig) ≠ cc0_scratch9.sem by decide)), (mem_ownCells (g := (thr d L, SemLoc.dma cc0_scratch11.sem))).mpr ⟨rfl, by show (SemLoc.dma cc0_scratch11.sem : SemLoc sig).isScoped .scVector = true; decide⟩⟩⟩),
    SparseCore.bigSep_erase' (Finset.mem_erase.mpr ⟨(fun e => absurd (SemLoc.dma.inj (Prod.mk.inj e).2) (show (cc0_scratch12.sem : DmaSem sig) ≠ cc0_scratch11.sem by decide)), Finset.mem_erase.mpr ⟨(fun e => absurd (SemLoc.dma.inj (Prod.mk.inj e).2) (show (cc0_scratch12.sem : DmaSem sig) ≠ cc0_scratch10.sem by decide)), Finset.mem_erase.mpr ⟨(fun e => absurd (SemLoc.dma.inj (Prod.mk.inj e).2) (show (cc0_scratch12.sem : DmaSem sig) ≠ cc0_scratch9.sem by decide)), (mem_ownCells (g := (thr d L, SemLoc.dma cc0_scratch12.sem))).mpr ⟨rfl, by show (SemLoc.dma cc0_scratch12.sem : SemLoc sig).isScoped .scVector = true; decide⟩⟩⟩⟩),
    SparseCore.bigSep_erase' (Finset.mem_erase.mpr ⟨(fun e => absurd (SemLoc.dma.inj (Prod.mk.inj e).2) (show (cc0_scratch13.sem : DmaSem sig) ≠ cc0_scratch12.sem by decide)), Finset.mem_erase.mpr ⟨(fun e => absurd (SemLoc.dma.inj (Prod.mk.inj e).2) (show (cc0_scratch13.sem : DmaSem sig) ≠ cc0_scratch11.sem by decide)), Finset.mem_erase.mpr ⟨(fun e => absurd (SemLoc.dma.inj (Prod.mk.inj e).2) (show (cc0_scratch13.sem : DmaSem sig) ≠ cc0_scratch10.sem by decide)), Finset.mem_erase.mpr ⟨(fun e => absurd (SemLoc.dma.inj (Prod.mk.inj e).2) (show (cc0_scratch13.sem : DmaSem sig) ≠ cc0_scratch9.sem by decide)), (mem_ownCells (g := (thr d L, SemLoc.dma cc0_scratch13.sem))).mpr ⟨rfl, by show (SemLoc.dma cc0_scratch13.sem : SemLoc sig).isScoped .scVector = true; decide⟩⟩⟩⟩⟩),
    SparseCore.bigSep_erase' (Finset.mem_erase.mpr ⟨(fun e => absurd (SemLoc.dma.inj (Prod.mk.inj e).2) (show (cc0_scratch14.sem : DmaSem sig) ≠ cc0_scratch13.sem by decide)), Finset.mem_erase.mpr ⟨(fun e => absurd (SemLoc.dma.inj (Prod.mk.inj e).2) (show (cc0_scratch14.sem : DmaSem sig) ≠ cc0_scratch12.sem by decide)), Finset.mem_erase.mpr ⟨(fun e => absurd (SemLoc.dma.inj (Prod.mk.inj e).2) (show (cc0_scratch14.sem : DmaSem sig) ≠ cc0_scratch11.sem by decide)), Finset.mem_erase.mpr ⟨(fun e => absurd (SemLoc.dma.inj (Prod.mk.inj e).2) (show (cc0_scratch14.sem : DmaSem sig) ≠ cc0_scratch10.sem by decide)), Finset.mem_erase.mpr ⟨(fun e => absurd (SemLoc.dma.inj (Prod.mk.inj e).2) (show (cc0_scratch14.sem : DmaSem sig) ≠ cc0_scratch9.sem by decide)), (mem_ownCells (g := (thr d L, SemLoc.dma cc0_scratch14.sem))).mpr ⟨rfl, by show (SemLoc.dma cc0_scratch14.sem : SemLoc sig).isScoped .scVector = true; decide⟩⟩⟩⟩⟩⟩),
    SparseCore.bigSep_erase' (Finset.mem_erase.mpr ⟨(fun e => absurd (SemLoc.dma.inj (Prod.mk.inj e).2) (show (cc0_scratch15.sem : DmaSem sig) ≠ cc0_scratch14.sem by decide)), Finset.mem_erase.mpr ⟨(fun e => absurd (SemLoc.dma.inj (Prod.mk.inj e).2) (show (cc0_scratch15.sem : DmaSem sig) ≠ cc0_scratch13.sem by decide)), Finset.mem_erase.mpr ⟨(fun e => absurd (SemLoc.dma.inj (Prod.mk.inj e).2) (show (cc0_scratch15.sem : DmaSem sig) ≠ cc0_scratch12.sem by decide)), Finset.mem_erase.mpr ⟨(fun e => absurd (SemLoc.dma.inj (Prod.mk.inj e).2) (show (cc0_scratch15.sem : DmaSem sig) ≠ cc0_scratch11.sem by decide)), Finset.mem_erase.mpr ⟨(fun e => absurd (SemLoc.dma.inj (Prod.mk.inj e).2) (show (cc0_scratch15.sem : DmaSem sig) ≠ cc0_scratch10.sem by decide)), Finset.mem_erase.mpr ⟨(fun e => absurd (SemLoc.dma.inj (Prod.mk.inj e).2) (show (cc0_scratch15.sem : DmaSem sig) ≠ cc0_scratch9.sem by decide)), (mem_ownCells (g := (thr d L, SemLoc.dma cc0_scratch15.sem))).mpr ⟨rfl, by show (SemLoc.dma cc0_scratch15.sem : SemLoc sig).isScoped .scVector = true; decide⟩⟩⟩⟩⟩⟩⟩),
    SparseCore.bigSep_erase' (Finset.mem_erase.mpr ⟨(fun e => absurd (SemLoc.dma.inj (Prod.mk.inj e).2) (show (cc0_scratch16.sem : DmaSem sig) ≠ cc0_scratch15.sem by decide)), Finset.mem_erase.mpr ⟨(fun e => absurd (SemLoc.dma.inj (Prod.mk.inj e).2) (show (cc0_scratch16.sem : DmaSem sig) ≠ cc0_scratch14.sem by decide)), Finset.mem_erase.mpr ⟨(fun e => absurd (SemLoc.dma.inj (Prod.mk.inj e).2) (show (cc0_scratch16.sem : DmaSem sig) ≠ cc0_scratch13.sem by decide)), Finset.mem_erase.mpr ⟨(fun e => absurd (SemLoc.dma.inj (Prod.mk.inj e).2) (show (cc0_scratch16.sem : DmaSem sig) ≠ cc0_scratch12.sem by decide)), Finset.mem_erase.mpr ⟨(fun e => absurd (SemLoc.dma.inj (Prod.mk.inj e).2) (show (cc0_scratch16.sem : DmaSem sig) ≠ cc0_scratch11.sem by decide)), Finset.mem_erase.mpr ⟨(fun e => absurd (SemLoc.dma.inj (Prod.mk.inj e).2) (show (cc0_scratch16.sem : DmaSem sig) ≠ cc0_scratch10.sem by decide)), Finset.mem_erase.mpr ⟨(fun e => absurd (SemLoc.dma.inj (Prod.mk.inj e).2) (show (cc0_scratch16.sem : DmaSem sig) ≠ cc0_scratch9.sem by decide)), (mem_ownCells (g := (thr d L, SemLoc.dma cc0_scratch16.sem))).mpr ⟨rfl, by show (SemLoc.dma cc0_scratch16.sem : SemLoc sig).isScoped .scVector = true; decide⟩⟩⟩⟩⟩⟩⟩⟩),
    SparseCore.bigSep_erase' (Finset.mem_erase.mpr ⟨(fun e => absurd (SemLoc.dma.inj (Prod.mk.inj e).2) (show (cc0_scoped0.sem : DmaSem sig) ≠ cc0_scratch16.sem by decide)), Finset.mem_erase.mpr ⟨(fun e => absurd (SemLoc.dma.inj (Prod.mk.inj e).2) (show (cc0_scoped0.sem : DmaSem sig) ≠ cc0_scratch15.sem by decide)), Finset.mem_erase.mpr ⟨(fun e => absurd (SemLoc.dma.inj (Prod.mk.inj e).2) (show (cc0_scoped0.sem : DmaSem sig) ≠ cc0_scratch14.sem by decide)), Finset.mem_erase.mpr ⟨(fun e => absurd (SemLoc.dma.inj (Prod.mk.inj e).2) (show (cc0_scoped0.sem : DmaSem sig) ≠ cc0_scratch13.sem by decide)), Finset.mem_erase.mpr ⟨(fun e => absurd (SemLoc.dma.inj (Prod.mk.inj e).2) (show (cc0_scoped0.sem : DmaSem sig) ≠ cc0_scratch12.sem by decide)), Finset.mem_erase.mpr ⟨(fun e => absurd (SemLoc.dma.inj (Prod.mk.inj e).2) (show (cc0_scoped0.sem : DmaSem sig) ≠ cc0_scratch11.sem by decide)), Finset.mem_erase.mpr ⟨(fun e => absurd (SemLoc.dma.inj (Prod.mk.inj e).2) (show (cc0_scoped0.sem : DmaSem sig) ≠ cc0_scratch10.sem by decide)), Finset.mem_erase.mpr ⟨(fun e => absurd (SemLoc.dma.inj (Prod.mk.inj e).2) (show (cc0_scoped0.sem : DmaSem sig) ≠ cc0_scratch9.sem by decide)), (mem_ownCells (g := (thr d L, SemLoc.dma cc0_scoped0.sem))).mpr ⟨rfl, by show (SemLoc.dma cc0_scoped0.sem : SemLoc sig).isScoped .scVector = true; decide⟩⟩⟩⟩⟩⟩⟩⟩⟩),
    SparseCore.bigSep_erase' (Finset.mem_erase.mpr ⟨(fun e => absurd (SemLoc.dma.inj (Prod.mk.inj e).2) (show (cc0_scoped1.sem : DmaSem sig) ≠ cc0_scoped0.sem by decide)), Finset.mem_erase.mpr ⟨(fun e => absurd (SemLoc.dma.inj (Prod.mk.inj e).2) (show (cc0_scoped1.sem : DmaSem sig) ≠ cc0_scratch16.sem by decide)), Finset.mem_erase.mpr ⟨(fun e => absurd (SemLoc.dma.inj (Prod.mk.inj e).2) (show (cc0_scoped1.sem : DmaSem sig) ≠ cc0_scratch15.sem by decide)), Finset.mem_erase.mpr ⟨(fun e => absurd (SemLoc.dma.inj (Prod.mk.inj e).2) (show (cc0_scoped1.sem : DmaSem sig) ≠ cc0_scratch14.sem by decide)), Finset.mem_erase.mpr ⟨(fun e => absurd (SemLoc.dma.inj (Prod.mk.inj e).2) (show (cc0_scoped1.sem : DmaSem sig) ≠ cc0_scratch13.sem by decide)), Finset.mem_erase.mpr ⟨(fun e => absurd (SemLoc.dma.inj (Prod.mk.inj e).2) (show (cc0_scoped1.sem : DmaSem sig) ≠ cc0_scratch12.sem by decide)), Finset.mem_erase.mpr ⟨(fun e => absurd (SemLoc.dma.inj (Prod.mk.inj e).2) (show (cc0_scoped1.sem : DmaSem sig) ≠ cc0_scratch11.sem by decide)), Finset.mem_erase.mpr ⟨(fun e => absurd (SemLoc.dma.inj (Prod.mk.inj e).2) (show (cc0_scoped1.sem : DmaSem sig) ≠ cc0_scratch10.sem by decide)), Finset.mem_erase.mpr ⟨(fun e => absurd (SemLoc.dma.inj (Prod.mk.inj e).2) (show (cc0_scoped1.sem : DmaSem sig) ≠ cc0_scratch9.sem by decide)), (mem_ownCells (g := (thr d L, SemLoc.dma cc0_scoped1.sem))).mpr ⟨rfl, by show (SemLoc.dma cc0_scoped1.sem : SemLoc sig).isScoped .scVector = true; decide⟩⟩⟩⟩⟩⟩⟩⟩⟩⟩),
    SparseCore.bigSep_erase' (Finset.mem_erase.mpr ⟨(fun e => absurd (SemLoc.dma.inj (Prod.mk.inj e).2) (show (cc0_scoped2.sem : DmaSem sig) ≠ cc0_scoped1.sem by decide)), Finset.mem_erase.mpr ⟨(fun e => absurd (SemLoc.dma.inj (Prod.mk.inj e).2) (show (cc0_scoped2.sem : DmaSem sig) ≠ cc0_scoped0.sem by decide)), Finset.mem_erase.mpr ⟨(fun e => absurd (SemLoc.dma.inj (Prod.mk.inj e).2) (show (cc0_scoped2.sem : DmaSem sig) ≠ cc0_scratch16.sem by decide)), Finset.mem_erase.mpr ⟨(fun e => absurd (SemLoc.dma.inj (Prod.mk.inj e).2) (show (cc0_scoped2.sem : DmaSem sig) ≠ cc0_scratch15.sem by decide)), Finset.mem_erase.mpr ⟨(fun e => absurd (SemLoc.dma.inj (Prod.mk.inj e).2) (show (cc0_scoped2.sem : DmaSem sig) ≠ cc0_scratch14.sem by decide)), Finset.mem_erase.mpr ⟨(fun e => absurd (SemLoc.dma.inj (Prod.mk.inj e).2) (show (cc0_scoped2.sem : DmaSem sig) ≠ cc0_scratch13.sem by decide)), Finset.mem_erase.mpr ⟨(fun e => absurd (SemLoc.dma.inj (Prod.mk.inj e).2) (show (cc0_scoped2.sem : DmaSem sig) ≠ cc0_scratch12.sem by decide)), Finset.mem_erase.mpr ⟨(fun e => absurd (SemLoc.dma.inj (Prod.mk.inj e).2) (show (cc0_scoped2.sem : DmaSem sig) ≠ cc0_scratch11.sem by decide)), Finset.mem_erase.mpr ⟨(fun e => absurd (SemLoc.dma.inj (Prod.mk.inj e).2) (show (cc0_scoped2.sem : DmaSem sig) ≠ cc0_scratch10.sem by decide)), Finset.mem_erase.mpr ⟨(fun e => absurd (SemLoc.dma.inj (Prod.mk.inj e).2) (show (cc0_scoped2.sem : DmaSem sig) ≠ cc0_scratch9.sem by decide)), (mem_ownCells (g := (thr d L, SemLoc.dma cc0_scoped2.sem))).mpr ⟨rfl, by show (SemLoc.dma cc0_scoped2.sem : SemLoc sig).isScoped .scVector = true; decide⟩⟩⟩⟩⟩⟩⟩⟩⟩⟩⟩),
    SparseCore.bigSep_erase' (Finset.mem_erase.mpr ⟨(fun e => absurd (SemLoc.dma.inj (Prod.mk.inj e).2) (show (cc0_scoped3.sem : DmaSem sig) ≠ cc0_scoped2.sem by decide)), Finset.mem_erase.mpr ⟨(fun e => absurd (SemLoc.dma.inj (Prod.mk.inj e).2) (show (cc0_scoped3.sem : DmaSem sig) ≠ cc0_scoped1.sem by decide)), Finset.mem_erase.mpr ⟨(fun e => absurd (SemLoc.dma.inj (Prod.mk.inj e).2) (show (cc0_scoped3.sem : DmaSem sig) ≠ cc0_scoped0.sem by decide)), Finset.mem_erase.mpr ⟨(fun e => absurd (SemLoc.dma.inj (Prod.mk.inj e).2) (show (cc0_scoped3.sem : DmaSem sig) ≠ cc0_scratch16.sem by decide)), Finset.mem_erase.mpr ⟨(fun e => absurd (SemLoc.dma.inj (Prod.mk.inj e).2) (show (cc0_scoped3.sem : DmaSem sig) ≠ cc0_scratch15.sem by decide)), Finset.mem_erase.mpr ⟨(fun e => absurd (SemLoc.dma.inj (Prod.mk.inj e).2) (show (cc0_scoped3.sem : DmaSem sig) ≠ cc0_scratch14.sem by decide)), Finset.mem_erase.mpr ⟨(fun e => absurd (SemLoc.dma.inj (Prod.mk.inj e).2) (show (cc0_scoped3.sem : DmaSem sig) ≠ cc0_scratch13.sem by decide)), Finset.mem_erase.mpr ⟨(fun e => absurd (SemLoc.dma.inj (Prod.mk.inj e).2) (show (cc0_scoped3.sem : DmaSem sig) ≠ cc0_scratch12.sem by decide)), Finset.mem_erase.mpr ⟨(fun e => absurd (SemLoc.dma.inj (Prod.mk.inj e).2) (show (cc0_scoped3.sem : DmaSem sig) ≠ cc0_scratch11.sem by decide)), Finset.mem_erase.mpr ⟨(fun e => absurd (SemLoc.dma.inj (Prod.mk.inj e).2) (show (cc0_scoped3.sem : DmaSem sig) ≠ cc0_scratch10.sem by decide)), Finset.mem_erase.mpr ⟨(fun e => absurd (SemLoc.dma.inj (Prod.mk.inj e).2) (show (cc0_scoped3.sem : DmaSem sig) ≠ cc0_scratch9.sem by decide)), (mem_ownCells (g := (thr d L, SemLoc.dma cc0_scoped3.sem))).mpr ⟨rfl, by show (SemLoc.dma cc0_scoped3.sem : SemLoc sig).isScoped .scVector = true; decide⟩⟩⟩⟩⟩⟩⟩⟩⟩⟩⟩⟩)]

omit [FloatOps F] in
/-- The nine scratch buffers are among the tile's own: they are those nine, each at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ (∃ f, (thr d L).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := ((Proc.scVector (cV L) (jV L)).devRef cc0_scratch1)) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨(fun e => absurd (Proc.devRef_injective _ e) (show (cc0_scratch6 : Ref sig .scVector) ≠ cc0_scratch5 by decide)), Finset.mem_erase.mpr ⟨(fun e => absurd (Proc.devRef_injective _ e) (show (cc0_scratch6 : Ref sig .scVector) ≠ cc0_scratch4 by decide)), Finset.mem_erase.mpr ⟨(fun e => absurd (Proc.devRef_injective _ e) (show (cc0_scratch6 : Ref sig .scVector) ≠ cc0_scratch3 by decide)), Finset.mem_erase.mpr ⟨(fun e => absurd (Proc.devRef_injective _ e) (show (cc0_scratch6 : Ref sig .scVector) ≠ cc0_scratch2 by decide)), Finset.mem_erase.mpr ⟨(fun e => absurd (Proc.devRef_injective _ e) (show (cc0_scratch6 : Ref sig .scVector) ≠ cc0_scratch1 by decide)), Finset.mem_erase.mpr ⟨(fun e => absurd (Proc.devRef_injective _ e) (show (cc0_scratch6 : Ref sig .scVector) ≠ cc0_scratch0 by decide)), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨(fun e => absurd (Proc.devRef_injective _ e) (show (cc0_scratch7 : Ref sig .scVector) ≠ cc0_scratch6 by decide)), Finset.mem_erase.mpr ⟨(fun e => absurd (Proc.devRef_injective _ e) (show (cc0_scratch7 : Ref sig .scVector) ≠ cc0_scratch5 by decide)), Finset.mem_erase.mpr ⟨(fun e => absurd (Proc.devRef_injective _ e) (show (cc0_scratch7 : Ref sig .scVector) ≠ cc0_scratch4 by decide)), Finset.mem_erase.mpr ⟨(fun e => absurd (Proc.devRef_injective _ e) (show (cc0_scratch7 : Ref sig .scVector) ≠ cc0_scratch3 by decide)), Finset.mem_erase.mpr ⟨(fun e => absurd (Proc.devRef_injective _ e) (show (cc0_scratch7 : Ref sig .scVector) ≠ cc0_scratch2 by decide)), Finset.mem_erase.mpr ⟨(fun e => absurd (Proc.devRef_injective _ e) (show (cc0_scratch7 : Ref sig .scVector) ≠ cc0_scratch1 by decide)), Finset.mem_erase.mpr ⟨(fun e => absurd (Proc.devRef_injective _ e) (show (cc0_scratch7 : Ref sig .scVector) ≠ cc0_scratch0 by decide)), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨(fun e => absurd (Proc.devRef_injective _ e) (show (cc0_scratch8 : Ref sig .scVector) ≠ cc0_scratch7 by decide)), Finset.mem_erase.mpr ⟨(fun e => absurd (Proc.devRef_injective _ e) (show (cc0_scratch8 : Ref sig .scVector) ≠ cc0_scratch6 by decide)), Finset.mem_erase.mpr ⟨(fun e => absurd (Proc.devRef_injective _ e) (show (cc0_scratch8 : Ref sig .scVector) ≠ cc0_scratch5 by decide)), Finset.mem_erase.mpr ⟨(fun e => absurd (Proc.devRef_injective _ e) (show (cc0_scratch8 : Ref sig .scVector) ≠ cc0_scratch4 by decide)), Finset.mem_erase.mpr ⟨(fun e => absurd (Proc.devRef_injective _ e) (show (cc0_scratch8 : Ref sig .scVector) ≠ cc0_scratch3 by decide)), Finset.mem_erase.mpr ⟨(fun e => absurd (Proc.devRef_injective _ e) (show (cc0_scratch8 : Ref sig .scVector) ≠ cc0_scratch2 by decide)), Finset.mem_erase.mpr ⟨(fun e => absurd (Proc.devRef_injective _ e) (show (cc0_scratch8 : Ref sig .scVector) ≠ cc0_scratch1 by decide)), Finset.mem_erase.mpr ⟨(fun e => absurd (Proc.devRef_injective _ e) (show (cc0_scratch8 : Ref sig .scVector) ≠ cc0_scratch0 by decide)), SparseCore.Cfg.mem_ownRefs_of_owner (p := Proc.scVector (cV L) (jV L)) (b := ((Proc.scVector (cV L) (jV L)).devRef cc0_scratch8)) rfl⟩⟩⟩⟩⟩⟩⟩⟩)]

/-- What is left of the tile's own storage beside the nine buffers and twelve semaphores the kernel uses. -/
def restOwn : sProp 𝕄 :=
  iprop((bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f))
    ∗ bigSep (((((((((((((ownCells (thr d L)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem)).erase (thr d L, SemLoc.dma cc0_scratch16.sem)).erase (thr d L, SemLoc.dma cc0_scoped0.sem)).erase (thr d L, SemLoc.dma cc0_scoped1.sem)).erase (thr d L, SemLoc.dma cc0_scoped2.sem)).erase (thr d L, SemLoc.dma cc0_scoped3.sem)) fun g => semVal g 0)

/-- The kernel on the tile at `L`, as the launch states a tile's task: from what the tile is handed, its own storage and
    its debts, to the same. -/
theorem tile_body (hF : (K (F := F)).Facts) (hO : ∀ g, O g none = 0) :
    iprop(levAts (K (F := F)).L (K (F := F)).lev ∗ emp ∗ goRes d L qc qr q9 q10 q11 q12 fc fr f0 f1
        ∗ scopedBufs (thr d L) ∗ scopedSems0 (thr d L) ∗ owes (thr d L) O W)
      ⊢ (wp frame (wpE (defs₀ (F := F)) 𝒱₀ (thr d L) none) Set.univ (bodyAt (F := F) L)
          fun _ => iprop(goRes d L qc qr q9 q10 q11 q12 fc fr f0 f1 ∗ scopedBufs (thr d L) ∗ scopedSems0 (thr d L)
            ∗ ∃ W', ⌜∀ p ∈ W', p ∈ W ∨ p.2 = none⌝ ∗ owes (thr d L) O W') : sProp 𝕄) := by
  rw [(K (F := F)).scopedBufs_V hF d (cV L) (jV L), SparseCore.Cfg.scopedSems0_V (Val := Elt F) d (cV L) (jV L), ownSems0_V, ownBufs_V]
  refine BIBase.Entails.trans ?pre ((body_core d L O W qc qr q9 q10 q11 q12 fc fr f0 f1 (restOwn (F := F) d L)).trans (wp_mono frame _ _ fun _ => ?post))
  case pre =>
    unfold scratchRes semsRes restOwn
    iintro ⟨#Hlv, -, Hgo, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, Hbufs⟩, ⟨C0, C1, C2, C3, C4, C5, C6, C7, C8, C9, C10, C11, Hsems⟩, HO⟩
    ihave Hmw := ((K (F := F)).mayWaits_none (thr := thr d L) hO) $$ Hlv
    isplitl [Hmw]; · iexact Hmw
    isplitl [HO]; · iexact HO
    isplitl [Hgo]; · iexact Hgo
    isplitl [B0 B1 B2 B3 B4 B5 B6 B7 B8]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      iexists _; iexact B8
    isplitl [C0 C1 C2 C3 C4 C5 C6 C7 C8 C9 C10 C11]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      iexact C11
    isplitl [Hbufs]; · iexact Hbufs
    iexact Hsems
  case post =>
    unfold scratchRes semsRes restOwn
    iintro ⟨Hgo, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩⟩, ⟨C0, C1, C2, C3, C4, C5, C6, C7, C8, C9, C10, C11⟩, ⟨Hbufs, Hsems⟩, HO⟩
    isplitl [Hgo]; · iexact Hgo
    isplitl [B0 B1 B2 B3 B4 B5 B6 B7 B8 Hbufs]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      iexact Hbufs
    isplitl [C0 C1 C2 C3 C4 C5 C6 C7 C8 C9 C10 C11 Hsems]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      iexact Hsems
    iexact HO

end Cert.Proof.K

end
-- ==== Proof.KObl.lean ====
/-
  The call as the launch sees it. The two SparseCores run the kernel on their sixteen tiles each; a tile's share of the
  call is: a read share of each of the two tables and two of each of the two input arrays (one per buffer pair), its
  thirty-two 16-row slices of each output array, and its 512 words of each bound vector. Every tile's share goes out
  with the call and comes back with it; the kernel owes nothing for a protocol of its own.
-/
import proofs.«214425_g62758062129325_cont_9to1_m_981_19_alg».proof.Proof.KBody

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- The grid coordinates of the tile with sequencer `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = grid0.bound 0 := rfl
theorem nSub_zero : (K (F := F)).nSub 0 = grid0.bound 1 := rfl

/-- The read shares a tile gets of an array every tile reads: the array's share is halved between the two SparseCores,
    a SparseCore's half is dealt to its sixteen tiles twice over (once per buffer pair). -/
abbrev coreShare (c : Fin (grid0.bound 0)) : PosShare TreeShare := Transfers.shareTok fullShare (grid0.bound 0) c
abbrev shareA (c : Fin (grid0.bound 0)) (i : Fin (grid0.bound 1)) : PosShare TreeShare := Transfers.shareTok (coreShare c) (grid0.bound 1) i
abbrev shareB (c : Fin (grid0.bound 0)) (i : Fin (grid0.bound 1)) : PosShare TreeShare :=
  Transfers.shareTok (Transfers.shareDrop (coreShare c) (grid0.bound 1)) (grid0.bound 1) i

/-- What the tile `(c, i)` is handed and hands back: its read shares of the two tables at some contents and of the two input
    arrays at the launch memory's, its slices of the four results at some contents. -/
def tileRes (c : Fin (grid0.bound 0)) (i : Fin (grid0.bound 1)) : sProp 𝕄 :=
  iprop(∃ fc fr, goRes d (coordsV c i) (shareA c i) (shareA c i) (shareA c i) (shareA c i) (shareB c i) (shareB c i) fc fr
    (m (lH.view.loc (thr d (coordsV c i)))) (m (uH.view.loc (thr d (coordsV c i)))))

set_option synthInstance.maxHeartbeats 1000000 in
instance outsAt_storable (k : Fin k0_t1_loop.trips) : BI.Storable (upEmb : UEmb _ 𝕄) (outsAt (F := F) d L k) := by
  unfold outsAt; infer_instance

set_option synthInstance.maxHeartbeats 1000000 in
instance goRes_storable (qc qr q9 q10 q11 q12 : PosShare TreeShare) (fc fr f0 f1) :
    BI.Storable (upEmb : UEmb _ 𝕄) (goRes (F := F) d L qc qr q9 q10 q11 q12 fc fr f0 f1) := by
  unfold goRes; infer_instance

set_option synthInstance.maxHeartbeats 1000000 in
instance tileRes_storable (c : Fin (grid0.bound 0)) (i : Fin (grid0.bound 1)) : BI.Storable (upEmb : UEmb _ 𝕄) (tileRes d m c i) := by
  unfold tileRes; infer_instance

/-- The one call: every tile's share goes out with the call and comes back with it. -/
def P : (K (F := F)).Pay (nD := nD) (Val := Elt F) (Name := ℕ) (U := UU) where
  st := fun q d c => match q with | 0 => bigSep Finset.univ fun i : Fin (grid0.bound 1) => tileRes d m (Fin.cast nCore_zero c) i
  dn := fun q d c => match q with | 0 => bigSep Finset.univ fun i : Fin (grid0.bound 1) => tileRes d m (Fin.cast nCore_zero c) i
  go := fun q d c i => match q with | 0 => tileRes d m (Fin.cast nCore_zero c) (Fin.cast nSub_zero i)
  td := fun q d c i => match q with | 0 => tileRes d m (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun i : Fin (grid0.bound 1) => tileRes d m (Fin.cast nCore_zero c) i))
  dn q d c := match q with | 0 => (inferInstance : BI.Storable (upEmb : UEmb _ 𝕄) (bigSep Finset.univ fun i : Fin (grid0.bound 1) => tileRes d m (Fin.cast nCore_zero c) i))
  go q d c i := match q with | 0 => (inferInstance : BI.Storable (upEmb : UEmb _ 𝕄) (tileRes d m (Fin.cast nCore_zero c) (Fin.cast nSub_zero i)))
  td q d c i := match q with | 0 => (inferInstance : BI.Storable (upEmb : UEmb _ 𝕄) (tileRes d m (Fin.cast nCore_zero c) (Fin.cast nSub_zero i)))

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_task (c : Fin (grid0.bound 0)) (i : Fin (grid0.bound 1)) (O : CellTallies nD τ sig (HIx 1)) (W : Waits sig (HIx 1))
    (hO : ∀ g, O g none = 0) :
    iprop(levAts (K (F := F)).L (K (F := F)).lev ∗ emp ∗ tileRes d m c i
        ∗ scopedBufs (thr d (coordsV c i)) ∗ scopedSems0 (thr d (coordsV c i)) ∗ owes (thr d (coordsV c i)) O W)
      ⊢ (wp frame (wpE (defs₀ (F := F)) 𝒱₀ (thr d (coordsV c i)) none) Set.univ (bodyAt (F := F) (coordsV c i))
          fun _ => iprop(tileRes d m c i ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') : sProp 𝕄) := by
  unfold tileRes
  iintro ⟨Hlv, He, ⟨%fc, %fr, Hgo⟩, Hsb, Hss, HO⟩
  iapply (wp_mono frame _ _ fun _ => ?_)
  rotate_left
  · iapply (tile_body d (coordsV c i) O W _ _ _ _ _ _ fc fr _ _ facts hO)
    isplitl [Hlv]; · iexact Hlv
    isplitl [He]; · iexact He
    isplitl [Hgo]; · iexact Hgo
    isplitl [Hsb]; · iexact Hsb
    isplitl [Hss]; · iexact Hss
    iexact HO
  · iintro ⟨Hgo, Hsb, Hss, HO⟩
    iapply (obl_post (q := (0 : Fin 1)))
    isplitl [Hgo]; · iexists fc; iexists fr; iexact Hgo
    isplitl [Hsb]; · iexact Hsb
    isplitl [Hss]; · iexact Hss
    iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task d m ⟨_, hc.1⟩ ⟨_, hc.2⟩ O W hO

end Cert.Proof.K

end
-- ==== Proof.KGeom.lean ====
/-
  How the arrays of the call divide among the tiles. Tile number w = 2·subcore + SparseCore works on rows
  [512·w, 512·w + 512) of the 16384 rows of a coefficient array (batch w / 4, rows 512·(w mod 4) onwards), in chunks of
  16 rows: the chunk with number 32·w + 2·trip + position. Distinct (tile, trip, position) give distinct chunk numbers,
  so the slices are pairwise disjoint. A tile's 512 words of a bound vector are those with index / 512 = w: pairwise
  disjoint, and together all 16384. An array that every tile only reads is shared out by halving its share.
-/
import proofs.«214425_g62758062129325_cont_9to1_m_981_19_alg».proof.Proof.KObl

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

/-- The tile's number: tiles are numbered along the subcores first, two SparseCores to a subcore number. -/
def wid (L : grid0.Coords) : Nat := 2 * (L 1).val + (L 0).val

omit [FloatOps F] in
theorem off104_eq : ∀ (i : grid0.Coords) (k : Fin k0_t1_loop.trips),
    k0_off104 i k = ![(2 * (i 1).val + (i 0).val) / 4, ((2 * (i 1).val + (i 0).val) % 4) * 512 + 32 * k.val, 0] := by decide +kernel
omit [FloatOps F] in
theorem off105_eq : ∀ (i : grid0.Coords) (k : Fin k0_t1_loop.trips),
    k0_off105 i k = ![(2 * (i 1).val + (i 0).val) / 4, ((2 * (i 1).val + (i 0).val) % 4) * 512 + 32 * k.val + 16, 0] := by decide +kernel

/-- The number of the 16-row chunk an element of a coefficient array lies in, counting chunks through the batches. -/
def chunkId (x : S8x2048x785.Idx) : Nat := ((x 0).val * 2048 + (x 1).val) / 16

abbrev rectA (k : Fin k0_t1_loop.trips) : Rect S8x2048x785 := Rect.unit (s := S8x2048x785) (k0_off104 L k) S1x16x785.size (k0_off104_inb L k)
abbrev rectB (k : Fin k0_t1_loop.trips) : Rect S8x2048x785 := Rect.unit (s := S8x2048x785) (k0_off105 L k) S1x16x785.size (k0_off105_inb L k)

omit [FloatOps F] in
theorem outA_set (k : Fin k0_t1_loop.trips) : (outA L k).view.set = (rectA L k).set := by
  show (((loH : Memref sig .scVector .hbm S8x2048x785 .f32).view.slice (rectA L k)).reshape S16x785 squeezes_S1x16x785_S16x785.numel_eq).set = _
  rw [View.set_reshape]; exact View.set_slice_whole _ _
omit [FloatOps F] in
theorem outA'_set (k : Fin k0_t1_loop.trips) : (outA' L k).view.set = (rectA L k).set := by
  show (((uoH : Memref sig .scVector .hbm S8x2048x785 .f32).view.slice (rectA L k)).reshape S16x785 squeezes_S1x16x785_S16x785.numel_eq).set = _
  rw [View.set_reshape]; exact View.set_slice_whole _ _
omit [FloatOps F] in
theorem outB_set (k : Fin k0_t1_loop.trips) : (outB L k).view.set = (rectB L k).set := by
  show (((loH : Memref sig .scVector .hbm S8x2048x785 .f32).view.slice (rectB L k)).reshape S16x785 squeezes_S1x16x785_S16x785.numel_eq).set = _
  rw [View.set_reshape]; exact View.set_slice_whole _ _
omit [FloatOps F] in
theorem outB'_set (k : Fin k0_t1_loop.trips) : (outB' L k).view.set = (rectB L k).set := by
  show (((uoH : Memref sig .scVector .hbm S8x2048x785 .f32).view.slice (rectB L k)).reshape S16x785 squeezes_S1x16x785_S16x785.numel_eq).set = _
  rw [View.set_reshape]; exact View.set_slice_whole _ _

omit [FloatOps F] in
/-- An element of a tile's chunk lies in the chunk numbered by tile and chunk. -/
theorem chunk_A (k : Fin k0_t1_loop.trips) {x : S8x2048x785.Idx} (hx : x ∈ (rectA L k).set) : chunkId x = 32 * wid L + 2 * k.val := by
  have h := Rect.mem_set_unit.mp hx
  have h0 := h 0; have h1 := h 1
  rw [off104_eq] at h0 h1
  have hw : wid L < 32 := by unfold wid; have := (L 1).isLt; have := (L 0).isLt; simp [grid0, Pipeline.Grid.bound] at *; omega
  have hk : k.val < 16 := lt_of_lt_of_le k.isLt k0_t1_abs.2.1
  simp only [Matrix.cons_val_zero, Matrix.cons_val_one, Matrix.head_cons, S1x16x785] at h0 h1
  unfold chunkId wid at *
  omega
omit [FloatOps F] in
theorem chunk_B (k : Fin k0_t1_loop.trips) {x : S8x2048x785.Idx} (hx : x ∈ (rectB L k).set) : chunkId x = 32 * wid L + 2 * k.val + 1 := by
  have h := Rect.mem_set_unit.mp hx
  have h0 := h 0; have h1 := h 1
  rw [off105_eq] at h0 h1
  have hw : wid L < 32 := by unfold wid; have := (L 1).isLt; have := (L 0).isLt; simp [grid0, Pipeline.Grid.bound] at *; omega
  have hk : k.val < 16 := lt_of_lt_of_le k.isLt k0_t1_abs.2.1
  simp only [Matrix.cons_val_zero, Matrix.cons_val_one, Matrix.head_cons, S1x16x785] at h0 h1
  unfold chunkId wid at *
  omega

/-! ## The slices of an output coefficient array: pairwise disjoint -/

abbrev T4 : Type := Fin (grid0.bound 0) × Fin (grid0.bound 1) × Fin k0_t1_loop.trips × Fin 2

/-- The slice of a coefficient array numbered by SparseCore, subcore, trip and position of the chunk in the trip. -/
def slSet (t : T4) : Finset S8x2048x785.Idx :=
  if t.2.2.2 = 0 then (rectA (coordsV t.1 t.2.1) t.2.2.1).set else (rectB (coordsV t.1 t.2.1) t.2.2.1).set

omit [FloatOps F] in
theorem wid_coordsV (c : Fin (grid0.bound 0)) (i : Fin (grid0.bound 1)) : wid (coordsV c i) = 2 * i.val + c.val := rfl

omit [FloatOps F] in
theorem slSet_chunk {t : T4} {x : S8x2048x785.Idx} (hx : x ∈ slSet t) :
    chunkId x = 32 * (2 * t.2.1.val + t.1.val) + 2 * t.2.2.1.val + t.2.2.2.val := by
  unfold slSet at hx
  split at hx
  · rename_i h; rw [chunk_A _ _ hx, wid_coordsV, h]; rfl
  · rename_i h
    have h1 : t.2.2.2.val = 1 := by have := t.2.2.2.isLt; have : t.2.2.2.val ≠ 0 := fun e => h (Fin.ext e); omega
    rw [chunk_B _ _ hx, wid_coordsV, h1]

omit [FloatOps F] in
theorem slSet_disjoint : ∀ t ∈ (Finset.univ : Finset T4), ∀ t' ∈ (Finset.univ : Finset T4), t ≠ t' → Disjoint (slSet t) (slSet t') := by
  intro t _ t' _ hne
  refine Finset.disjoint_left.mpr fun x h1 h2 => hne ?_
  have e := (slSet_chunk h1).symm.trans (slSet_chunk h2)
  obtain ⟨c, i, k, b⟩ := t
  obtain ⟨c', i', k', b'⟩ := t'
  have hc : c.val < 2 := c.isLt
  have hc' : c'.val < 2 := c'.isLt
  have hi : i.val < 16 := i.isLt
  have hi' : i'.val < 16 := i'.isLt
  have hk : k.val < 16 := lt_of_lt_of_le k.isLt k0_t1_abs.2.1
  have hk' : k'.val < 16 := lt_of_lt_of_le k'.isLt k0_t1_abs.2.1
  have hb := b.isLt; have hb' := b'.isLt
  dsimp only at e
  have e1 : c.val = c'.val := by omega
  have e2 : i.val = i'.val := by omega
  have e3 : k.val = k'.val := by omega
  have e4 : b.val = b'.val := by omega
  rw [Fin.ext e1, Fin.ext e2, Fin.ext e3, Fin.ext e4]

variable {ℓ : Loc nD τ sig}

omit [FloatOps F] in
/-- Two nested families over the tiles, side by side, are one nested family of pairs. -/
theorem nest2 {α β : Type} [Fintype α] [Fintype β] (Φ Ψ : α → β → sProp 𝕄) :
    (iprop((bigSep Finset.univ fun a => bigSep Finset.univ (Φ a)) ∗ (bigSep Finset.univ fun a => bigSep Finset.univ (Ψ a))) : sProp 𝕄)
      = bigSep Finset.univ fun a => bigSep Finset.univ fun b => iprop(Φ a b ∗ Ψ a b) := by
  rw [← bigSep_sep']
  exact bigSep_congr fun a _ => (bigSep_sep' _ _ _).symm

omit [FloatOps F] in
/-- A coefficient array held whole yields every tile's slices of it (and something left over, let go). -/
theorem coef_split (ℓ : Loc nD τ sig) (hI : Idx ℓ = S8x2048x785.Idx) (f : Buf (Elt F) ℓ) (K' : T4 → Finset (Idx ℓ))
    (hK : ∀ t ∈ (Finset.univ : Finset T4), ∀ t' ∈ (Finset.univ : Finset T4), t ≠ t' → Disjoint (K' t) (K' t')) :
    (ℓ ↦{fullShare} f : sProp 𝕄)
      ⊢ bigSep Finset.univ fun c => bigSep Finset.univ fun i => bigSep Finset.univ fun k =>
          iprop((ℓ ↦[K' (c, i, k, 0)]{fullShare} f) ∗ (ℓ ↦[K' (c, i, k, 1)]{fullShare} f)) := by
  refine (pointsTo_split_subset (Finset.subset_univ (Finset.univ.biUnion K'))).1.trans (sep_elim_left.trans ?_)
  rw [pointsTo_biUnion Finset.univ K' hK]
  simp only [bigSep_univ_prod, bigSep_univ_two]
  exact .rfl

/-! ## A tile's 512 words of a bound vector: pairwise disjoint, and together the whole vector -/

abbrev T2 : Type := Fin (grid0.bound 0) × Fin (grid0.bound 1)

abbrev rectV (L : grid0.Coords) : Rect S16384 := Rect.unit (s := S16384) (k0_off161 L) S512.size (k0_off161_inb L)
def vSet (t : T2) : Finset S16384.Idx := (rectV (coordsV t.1 t.2)).set

omit [FloatOps F] in
theorem plbSl_set : (plbSl L).view.set = (rectV L).set := View.set_slice_whole _ _
omit [FloatOps F] in
theorem pubSl_set : (pubSl L).view.set = (rectV L).set := View.set_slice_whole _ _

omit [FloatOps F] in
theorem mem_vSet {t : T2} {x : S16384.Idx} : x ∈ vSet t ↔ (x 0).val / 512 = 2 * t.2.val + t.1.val := by
  unfold vSet
  rw [Rect.mem_set_unit]
  constructor
  · intro h
    have h0 := h 0
    rw [k0_off161_eq] at h0
    have : (coordsV t.1 t.2 1).val = t.2.val := rfl
    have : (coordsV t.1 t.2 0).val = t.1.val := rfl
    simp only [Matrix.cons_val_zero, S512] at h0
    omega
  · intro h a
    have ha : a = 0 := Subsingleton.elim _ _
    subst ha
    rw [k0_off161_eq]
    have : (coordsV t.1 t.2 1).val = t.2.val := rfl
    have : (coordsV t.1 t.2 0).val = t.1.val := rfl
    simp only [Matrix.cons_val_zero, S512]
    omega

omit [FloatOps F] in
theorem vSet_disjoint : ∀ t ∈ (Finset.univ : Finset T2), ∀ t' ∈ (Finset.univ : Finset T2), t ≠ t' → Disjoint (vSet t) (vSet t') := by
  intro t _ t' _ hne
  refine Finset.disjoint_left.mpr fun x h1 h2 => hne ?_
  have e := (mem_vSet.mp h1).symm.trans (mem_vSet.mp h2)
  obtain ⟨c, i⟩ := t
  obtain ⟨c', i'⟩ := t'
  have hc : c.val < 2 := c.isLt
  have hc' : c'.val < 2 := c'.isLt
  dsimp only at e
  have e1 : c.val = c'.val := by omega
  have e2 : i.val = i'.val := by omega
  rw [Fin.ext e1, Fin.ext e2]

omit [FloatOps F] in
theorem vSet_cover : (Finset.univ : Finset T2).biUnion vSet = Finset.univ := by
  refine Finset.eq_univ_iff_forall.mpr fun x => Finset.mem_biUnion.mpr ?_
  have hx : (x 0).val < 16384 := (x 0).isLt
  refine ⟨(⟨(x 0).val / 512 % 2, show _ < 2 by omega⟩, ⟨(x 0).val / 512 / 2, show _ < 16 by omega⟩), Finset.mem_univ _, ?_⟩
  rw [mem_vSet]
  dsimp only
  omega

omit [FloatOps F] in
/-- A bound vector held whole is every tile's 512 words of it. -/
theorem vec_split (ℓ : Loc nD τ sig) (f : Buf (Elt F) ℓ) (K' : T2 → Finset (Idx ℓ))
    (hK : ∀ t ∈ (Finset.univ : Finset T2), ∀ t' ∈ (Finset.univ : Finset T2), t ≠ t' → Disjoint (K' t) (K' t'))
    (hc : (Finset.univ : Finset T2).biUnion K' = Finset.univ) :
    (ℓ ↦{fullShare} f : sProp 𝕄) = bigSep Finset.univ fun c => bigSep Finset.univ fun i => ℓ ↦[K' (c, i)]{fullShare} f := by
  rw [← bigSep_univ_prod (fun t : T2 => (ℓ ↦[K' t]{fullShare} f : sProp 𝕄)), ← pointsTo_biUnion Finset.univ K' hK, hc]

/-- Every tile's 512 words, each at some contents, are the whole vector at some contents. -/
theorem vec_join (ℓ : Loc nD τ sig) (f₀ : Buf (Elt F) ℓ) (K' : T2 → Finset (Idx ℓ))
    (hK : ∀ t ∈ (Finset.univ : Finset T2), ∀ t' ∈ (Finset.univ : Finset T2), t ≠ t' → Disjoint (K' t) (K' t'))
    (hc : (Finset.univ : Finset T2).biUnion K' = Finset.univ) :
    (bigSep Finset.univ fun c => bigSep Finset.univ fun i => iprop(∃ g, ℓ ↦[K' (c, i)]{fullShare} g) : sProp 𝕄) ⊢ iprop(∃ g, ℓ ↦{fullShare} g) := by
  rw [← bigSep_univ_prod (fun t : T2 => (iprop(∃ g, ℓ ↦[K' t]{fullShare} g) : sProp 𝕄))]
  haveI : Nonempty (Buf (Elt F) ℓ) := ⟨f₀⟩
  refine (bigSep_exists_pi Finset.univ (fun (t : T2) (g : Buf (Elt F) ℓ) => (ℓ ↦[K' t]{fullShare} g : sProp 𝕄))).trans ?_
  iintro ⟨%fs, H⟩
  ihave H' := (pointsTo_biUnion_join Finset.univ K' fs f₀ hK) $$ H
  icases H' with ⟨%g, -, Hg⟩
  rw [hc]
  iexists g; iexact Hg

/-! ## The read shares -/

omit [FloatOps F] in
/-- An array every tile reads, held whole, yields every tile's two read shares of it; something is left over. -/
theorem read_split (ℓ : Loc nD τ sig) (f : Buf (Elt F) ℓ) :
    (ℓ ↦{fullShare} f : sProp 𝕄)
      ⊢ iprop((ℓ ↦{Transfers.shareDrop fullShare (grid0.bound 0)} f)
          ∗ bigSep Finset.univ fun c => bigSep Finset.univ fun i => iprop((ℓ ↦{shareA c i} f) ∗ (ℓ ↦{shareB c i} f))) := by
  refine (Transfers.pointsTo_toks_split fullShare (grid0.bound 0)).trans (sep_mono_right (bigSep_mono fun c _ => ?_))
  rw [bigSep_sep']
  refine (Transfers.pointsTo_toks_split (coreShare c) (grid0.bound 1)).trans ?_
  iintro ⟨Hd, Ha⟩
  ihave Hb := (Transfers.pointsTo_toks_split (Transfers.shareDrop (coreShare c) (grid0.bound 1)) (grid0.bound 1)) $$ Hd
  icases Hb with ⟨-, Hb⟩
  isplitl [Ha]; · iexact Ha
  iexact Hb

end Cert.Proof.K

end
-- ==== Proof.KMain.lean ====
/-
  The program's run. On the TensorCore @main computes the two tables (centre and radius of the input box, each half a
  sum or difference of the box's two corners), hands every tile its share of the call, gets the shares back, and
  reshapes the two bound vectors. The arrays go out by shares and slices that are pairwise disjoint; the two bound
  vectors are put together again from the tiles' parts, which cover them. The four arguments are only read, and a share
  of each stays with the TensorCore throughout: at the end they hold what they held at the launch. Together with each
  tile's task this gives, by the launch theorem: every weakly fair execution of the device's thirty-five threads
  terminates, nothing faults, the arguments end unchanged.
-/
import proofs.«214425_g62758062129325_cont_9to1_m_981_19_alg».proof.Proof.KGeom
import proofs.«214425_g62758062129325_cont_9to1_m_981_19_alg».proof.Proof.Gen.Pre_finite_inputs

noncomputable section

namespace Cert.Proof.K

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

variable (m : (ℓ : Loc nD τ sig) → Buf (Elt F) ℓ) (ρ : Dev nD → PrngReg)

abbrev rf (x : Ref sig .tc) : DevRef τ sig := Proc.devRef .tc x
abbrev tloc (d : Dev nD) (x : Ref sig .tc) : Loc nD τ sig := (SparseCore.T d).loc x

abbrev op1 : HloOp τ sig (Elt F) := StableHlo.binary main_arg2 main_arg3 main_v0 (addf : (⟨S784, .f32⟩ : BufTy).Contents (Elt F) → (⟨S784, .f32⟩ : BufTy).Contents (Elt F) → (⟨S784, .f32⟩ : BufTy).Contents (Elt F))
abbrev op2 : HloOp τ sig (Elt F) := StableHlo.nullary main_cst (constant S_ .f32 0x3F000000#32)
abbrev op3 : HloOp τ sig (Elt F) := StableHlo.unary main_cst main_v1 (broadcastInDim S784 ![] bcast_S_S784 : (⟨S_, .f32⟩ : BufTy).Contents (Elt F) → (⟨S784, .f32⟩ : BufTy).Contents (Elt F))
abbrev op4 : HloOp τ sig (Elt F) := StableHlo.binary main_v0 main_v1 main_v2 (mulf : (⟨S784, .f32⟩ : BufTy).Contents (Elt F) → (⟨S784, .f32⟩ : BufTy).Contents (Elt F) → (⟨S784, .f32⟩ : BufTy).Contents (Elt F))
abbrev op5 : HloOp τ sig (Elt F) := StableHlo.binary main_arg3 main_arg2 main_v3 (subf : (⟨S784, .f32⟩ : BufTy).Contents (Elt F) → (⟨S784, .f32⟩ : BufTy).Contents (Elt F) → (⟨S784, .f32⟩ : BufTy).Contents (Elt F))
abbrev op6 : HloOp τ sig (Elt F) := StableHlo.nullary main_cst_0 (constant S_ .f32 0x3F000000#32)
abbrev op7 : HloOp τ sig (Elt F) := StableHlo.unary main_cst_0 main_v4 (broadcastInDim S784 ![] bcast_S_S784 : (⟨S_, .f32⟩ : BufTy).Contents (Elt F) → (⟨S784, .f32⟩ : BufTy).Contents (Elt F))
abbrev op8 : HloOp τ sig (Elt F) := StableHlo.binary main_v3 main_v4 main_v5 (mulf : (⟨S784, .f32⟩ : BufTy).Contents (Elt F) → (⟨S784, .f32⟩ : BufTy).Contents (Elt F) → (⟨S784, .f32⟩ : BufTy).Contents (Elt F))
abbrev op9 : HloOp τ sig (Elt F) := StableHlo.reshape main_v6_2 main_v7 rfl shapeCasts_S16384_S8x2048
abbrev op10 : HloOp τ sig (Elt F) := StableHlo.reshape main_v6_3 main_v8 rfl shapeCasts_S16384_S8x2048

omit [FloatOps F] in
theorem unscopedBufs_eq (d : Dev nD) (W : (b : Ref sig .tc) → Buf (Elt F) ((d.tc : Thread nD τ).loc b)) :
    (unscopedBufs d W : sProp 𝕄) = iprop((tloc d main_arg0 ↦{fullShare} W main_arg0) ∗ (tloc d main_arg1 ↦{fullShare} W main_arg1) ∗ (tloc d main_arg2 ↦{fullShare} W main_arg2) ∗ (tloc d main_arg3 ↦{fullShare} W main_arg3) ∗ (tloc d main_v0 ↦{fullShare} W main_v0) ∗ (tloc d main_cst ↦{fullShare} W main_cst) ∗ (tloc d main_v1 ↦{fullShare} W main_v1) ∗ (tloc d main_v2 ↦{fullShare} W main_v2) ∗ (tloc d main_v3 ↦{fullShare} W main_v3) ∗ (tloc d main_cst_0 ↦{fullShare} W main_cst_0) ∗ (tloc d main_v4 ↦{fullShare} W main_v4) ∗ (tloc d main_v5 ↦{fullShare} W main_v5) ∗ (tloc d main_v6_0 ↦{fullShare} W main_v6_0) ∗ (tloc d main_v6_1 ↦{fullShare} W main_v6_1) ∗ (tloc d main_v6_2 ↦{fullShare} W main_v6_2) ∗ (tloc d main_v6_3 ↦{fullShare} W main_v6_3) ∗ (tloc d main_v7 ↦{fullShare} W main_v7) ∗ (tloc d main_v8 ↦{fullShare} W main_v8)) := by
  unfold unscopedBufs
  rw [show (Finset.univ.filter fun b : Ref sig .tc => ¬ b.isScoped) = {main_arg0, main_arg1, main_arg2, main_arg3, main_v0, main_cst, main_v1, main_v2, main_v3, main_cst_0, main_v4, main_v5, main_v6_0, main_v6_1, main_v6_2, main_v6_3, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers the host operations before the call read and write, and those the two after it do. -/
abbrev Spre : Finset (DevRef τ sig) := {rf main_arg2, rf main_arg3, rf main_v0, rf main_cst, rf main_v1, rf main_v2, rf main_v3, rf main_cst_0, rf main_v4, rf main_v5}
abbrev Spost : Finset (DevRef τ sig) := {rf main_v6_2, rf main_v6_3, rf main_v7, rf main_v8}

omit [FloatOps F] in
theorem held_Spre (d : Dev nD) (V : Valuation τ sig (Elt F)) :
    (held (T d) Spre V : sProp 𝕄) = iprop((tloc d main_arg2 ↦{fullShare} V (rf main_arg2)) ∗ (tloc d main_arg3 ↦{fullShare} V (rf main_arg3)) ∗ (tloc d main_v0 ↦{fullShare} V (rf main_v0)) ∗ (tloc d main_cst ↦{fullShare} V (rf main_cst)) ∗ (tloc d main_v1 ↦{fullShare} V (rf main_v1)) ∗ (tloc d main_v2 ↦{fullShare} V (rf main_v2)) ∗ (tloc d main_v3 ↦{fullShare} V (rf main_v3)) ∗ (tloc d main_cst_0 ↦{fullShare} V (rf main_cst_0)) ∗ (tloc d main_v4 ↦{fullShare} V (rf main_v4)) ∗ (tloc d main_v5 ↦{fullShare} V (rf main_v5))) := by
  unfold held Spre
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem held_Spost (d : Dev nD) (V : Valuation τ sig (Elt F)) :
    (held (T d) Spost V : sProp 𝕄) = iprop((tloc d main_v6_2 ↦{fullShare} V (rf main_v6_2)) ∗ (tloc d main_v6_3 ↦{fullShare} V (rf main_v6_3)) ∗ (tloc d main_v7 ↦{fullShare} V (rf main_v7)) ∗ (tloc d main_v8 ↦{fullShare} V (rf main_v8))) := by
  unfold held Spost
  rw [SparseCore.bigSep_insert' (by decide), SparseCore.bigSep_insert' (by decide), SparseCore.bigSep_insert' (by decide), bigSep_singleton]

/-- The launch valuation. -/
def V0 (d : Dev nD) : Valuation τ sig (Elt F) := fun b => m (d, b)
theorem hsub1 : (op1 (F := F)).bufs ⊆ Spre := show ({rf main_arg2, rf main_arg3, rf main_v0} : Finset (DevRef τ sig)) ⊆ Spre by decide
theorem hsub2 : (op2 (F := F)).bufs ⊆ Spre := show ({rf main_cst} : Finset (DevRef τ sig)) ⊆ Spre by decide
theorem hsub3 : (op3 (F := F)).bufs ⊆ Spre := show ({rf main_cst, rf main_v1} : Finset (DevRef τ sig)) ⊆ Spre by decide
theorem hsub4 : (op4 (F := F)).bufs ⊆ Spre := show ({rf main_v0, rf main_v1, rf main_v2} : Finset (DevRef τ sig)) ⊆ Spre by decide
theorem hsub5 : (op5 (F := F)).bufs ⊆ Spre := show ({rf main_arg3, rf main_arg2, rf main_v3} : Finset (DevRef τ sig)) ⊆ Spre by decide
theorem hsub6 : (op6 (F := F)).bufs ⊆ Spre := show ({rf main_cst_0} : Finset (DevRef τ sig)) ⊆ Spre by decide
theorem hsub7 : (op7 (F := F)).bufs ⊆ Spre := show ({rf main_cst_0, rf main_v4} : Finset (DevRef τ sig)) ⊆ Spre by decide
theorem hsub8 : (op8 (F := F)).bufs ⊆ Spre := show ({rf main_v3, rf main_v4, rf main_v5} : Finset (DevRef τ sig)) ⊆ Spre by decide
theorem hsub9 : (op9 (F := F)).bufs ⊆ Spost := show ({rf main_v6_2, rf main_v7} : Finset (DevRef τ sig)) ⊆ Spost by decide
theorem hsub10 : (op10 (F := F)).bufs ⊆ Spost := show ({rf main_v6_3, rf main_v8} : Finset (DevRef τ sig)) ⊆ Spost by decide

omit [FloatOps F] in
theorem slSet_zero (c : Fin (grid0.bound 0)) (i : Fin (grid0.bound 1)) (k : Fin k0_t1_loop.trips) :
    slSet (c, i, k, 0) = (rectA (coordsV c i) k).set := if_pos rfl
omit [FloatOps F] in
theorem slSet_one (c : Fin (grid0.bound 0)) (i : Fin (grid0.bound 1)) (k : Fin k0_t1_loop.trips) :
    slSet (c, i, k, 1) = (rectB (coordsV c i) k).set := if_neg (show ¬ ((1 : Fin 2) = 0) by decide)

/-- The part of each array of the call that goes to the tile `(c, i)`. -/
def tileParts (d : Dev nD) (fc : Buf (Elt F) (tloc d main_v2)) (fr : Buf (Elt F) (tloc d main_v5))
    (g0 : Buf (Elt F) (tloc d main_v6_0)) (g1 : Buf (Elt F) (tloc d main_v6_1)) (g2 : Buf (Elt F) (tloc d main_v6_2)) (g3 : Buf (Elt F) (tloc d main_v6_3))
    (c : Fin (grid0.bound 0)) (i : Fin (grid0.bound 1)) : sProp 𝕄 :=
  iprop(((tloc d main_v2 ↦{shareA c i} fc) ∗ (tloc d main_v2 ↦{shareB c i} fc))
    ∗ ((tloc d main_v5 ↦{shareA c i} fr) ∗ (tloc d main_v5 ↦{shareB c i} fr))
    ∗ ((tloc d main_arg0 ↦{shareA c i} m (tloc d main_arg0)) ∗ (tloc d main_arg0 ↦{shareB c i} m (tloc d main_arg0)))
    ∗ ((tloc d main_arg1 ↦{shareA c i} m (tloc d main_arg1)) ∗ (tloc d main_arg1 ↦{shareB c i} m (tloc d main_arg1)))
    ∗ (bigSep Finset.univ fun k : Fin k0_t1_loop.trips =>
        iprop((tloc d main_v6_0 ↦[slSet (c, i, k, 0)]{fullShare} g0) ∗ (tloc d main_v6_0 ↦[slSet (c, i, k, 1)]{fullShare} g0)))
    ∗ (bigSep Finset.univ fun k : Fin k0_t1_loop.trips =>
        iprop((tloc d main_v6_1 ↦[slSet (c, i, k, 0)]{fullShare} g1) ∗ (tloc d main_v6_1 ↦[slSet (c, i, k, 1)]{fullShare} g1)))
    ∗ (tloc d main_v6_2 ↦[vSet (c, i)]{fullShare} g2)
    ∗ (tloc d main_v6_3 ↦[vSet (c, i)]{fullShare} g3))

theorem tile_intro (d : Dev nD) (fc fr g0 g1 g2 g3) (c : Fin (grid0.bound 0)) (i : Fin (grid0.bound 1)) :
    tileParts m d fc fr g0 g1 g2 g3 c i ⊢ tileRes d m c i := by
  have houts : (iprop((bigSep Finset.univ fun k : Fin k0_t1_loop.trips =>
        iprop((tloc d main_v6_0 ↦[slSet (c, i, k, 0)]{fullShare} g0) ∗ (tloc d main_v6_0 ↦[slSet (c, i, k, 1)]{fullShare} g0)))
      ∗ (bigSep Finset.univ fun k : Fin k0_t1_loop.trips =>
        iprop((tloc d main_v6_1 ↦[slSet (c, i, k, 0)]{fullShare} g1) ∗ (tloc d main_v6_1 ↦[slSet (c, i, k, 1)]{fullShare} g1)))) : sProp 𝕄)
      ⊢ bigSep Finset.univ (outsAt (F := F) d (coordsV c i)) := by
    rw [← bigSep_sep']
    have hk : ∀ k : Fin k0_t1_loop.trips,
        (iprop(((tloc d main_v6_0 ↦[slSet (c, i, k, 0)]{fullShare} g0) ∗ (tloc d main_v6_0 ↦[slSet (c, i, k, 1)]{fullShare} g0))
          ∗ ((tloc d main_v6_1 ↦[slSet (c, i, k, 0)]{fullShare} g1) ∗ (tloc d main_v6_1 ↦[slSet (c, i, k, 1)]{fullShare} g1))) : sProp 𝕄)
          ⊢ outsAt (F := F) d (coordsV c i) k := by
      intro k
      unfold outsAt
      rw [outA_set, outA'_set, outB_set, outB'_set, slSet_zero, slSet_one]
      iintro ⟨⟨HA, HB⟩, ⟨HA', HB'⟩⟩
      isplitl [HA]; · iexists _; iexact HA
      isplitl [HA']; · iexists _; iexact HA'
      isplitl [HB]; · iexists _; iexact HB
      iexists _; iexact HB'
    exact bigSep_mono fun k _ => hk k
  unfold tileParts tileRes goRes
  iintro ⟨⟨C1, -⟩, ⟨R1, -⟩, ⟨LA, LB⟩, ⟨UA, UB⟩, Houts0, Houts1, G2, G3⟩
  iexists fc; iexists fr
  isplitl [C1]; · iexact C1
  isplitl [R1]; · iexact R1
  isplitl [LA]; · iexact LA
  isplitl [UA]; · iexact UA
  isplitl [LB]; · iexact LB
  isplitl [UB]; · iexact UB
  isplitl [Houts0 Houts1]
  · iapply houts
    isplitl [Houts0]; · iexact Houts0
    iexact Houts1
  isplitl [G2]
  · rw [plbSl_set]; iexists _; iexact G2
  rw [pubSl_set]; iexists _; iexact G3

/-- The arrays of the call, held whole, are every tile's share of them, and the remainders of the two input arrays. -/
theorem st_intro (d : Dev nD) (fc fr g0 g1 g2 g3) :
    iprop((tloc d main_v2 ↦{fullShare} fc) ∗ (tloc d main_v5 ↦{fullShare} fr)
        ∗ (tloc d main_arg0 ↦{fullShare} m (tloc d main_arg0)) ∗ (tloc d main_arg1 ↦{fullShare} m (tloc d main_arg1))
        ∗ (tloc d main_v6_0 ↦{fullShare} g0) ∗ (tloc d main_v6_1 ↦{fullShare} g1)
        ∗ (tloc d main_v6_2 ↦{fullShare} g2) ∗ (tloc d main_v6_3 ↦{fullShare} g3))
      ⊢ (iprop((tloc d main_arg0 ↦{Transfers.shareDrop fullShare (grid0.bound 0)} m (tloc d main_arg0))
          ∗ (tloc d main_arg1 ↦{Transfers.shareDrop fullShare (grid0.bound 0)} m (tloc d main_arg1))
          ∗ bigSep Finset.univ fun c => bigSep Finset.univ fun i => tileRes d m c i) : sProp 𝕄) := by
  iintro ⟨C, R, L, U0, G0, G1, G2, G3⟩
  ihave C' := (read_split (F := F) (tloc d main_v2) fc) $$ C
  ihave R' := (read_split (F := F) (tloc d main_v5) fr) $$ R
  ihave L' := (read_split (F := F) (tloc d main_arg0) _) $$ L
  ihave U' := (read_split (F := F) (tloc d main_arg1) _) $$ U0
  ihave G0' := (coef_split (F := F) (tloc d main_v6_0) rfl g0 slSet slSet_disjoint) $$ G0
  ihave G1' := (coef_split (F := F) (tloc d main_v6_1) rfl g1 slSet slSet_disjoint) $$ G1
  ihave G2' := (Entails.of_eq (vec_split (F := F) (tloc d main_v6_2) g2 vSet vSet_disjoint vSet_cover)) $$ G2
  ihave G3' := (Entails.of_eq (vec_split (F := F) (tloc d main_v6_3) g3 vSet vSet_disjoint vSet_cover)) $$ G3
  icases C' with ⟨-, C'⟩
  icases R' with ⟨-, R'⟩
  icases L' with ⟨Ld, L'⟩
  icases U' with ⟨Ud, U'⟩
  isplitl [Ld]; · iexact Ld
  isplitl [Ud]; · iexact Ud
  ihave H78 := (Entails.of_eq (nest2 (F := F) _ _)) $$ [G2' G3']
  · isplitl [G2']; · iexact G2'
    iexact G3'
  ihave H68 := (Entails.of_eq (nest2 (F := F) _ _)) $$ [G1' H78]
  · isplitl [G1']; · iexact G1'
    iexact H78
  ihave H58 := (Entails.of_eq (nest2 (F := F) _ _)) $$ [G0' H68]
  · isplitl [G0']; · iexact G0'
    iexact H68
  ihave H48 := (Entails.of_eq (nest2 (F := F) _ _)) $$ [U' H58]
  · isplitl [U']; · iexact U'
    iexact H58
  ihave H38 := (Entails.of_eq (nest2 (F := F) _ _)) $$ [L' H48]
  · isplitl [L']; · iexact L'
    iexact H48
  ihave H28 := (Entails.of_eq (nest2 (F := F) _ _)) $$ [R' H38]
  · isplitl [R']; · iexact R'
    iexact H38
  ihave H18 := (Entails.of_eq (nest2 (F := F) _ _)) $$ [C' H28]
  · isplitl [C']; · iexact C'
    iexact H28
  have hm : (bigSep Finset.univ fun c => bigSep Finset.univ fun i => tileParts m d fc fr g0 g1 g2 g3 c i : sProp 𝕄)
      ⊢ bigSep Finset.univ fun c => bigSep Finset.univ fun i => tileRes d m c i :=
    bigSep_mono (fun c _ => bigSep_mono (fun i _ => tile_intro m d fc fr g0 g1 g2 g3 c i))
  iapply hm
  iexact H18

theorem keeps_arg2 (d : Dev nD) : ((op8 (F := F)).result ((op7 (F := F)).result ((op6 (F := F)).result ((op5 (F := F)).result ((op4 (F := F)).result ((op3 (F := F)).result ((op2 (F := F)).result ((op1 (F := F)).result (V0 m d))))))))) (rf main_arg2) = m (tloc d main_arg2) := by
  rw [(op8 (F := F)).result_of_not_mem _ (b := rf main_arg2) (show rf main_arg2 ∉ ({rf main_v5} : Finset (DevRef τ sig)) by decide),
    (op7 (F := F)).result_of_not_mem _ (b := rf main_arg2) (show rf main_arg2 ∉ ({rf main_v4} : Finset (DevRef τ sig)) by decide),
    (op6 (F := F)).result_of_not_mem _ (b := rf main_arg2) (show rf main_arg2 ∉ ({rf main_cst_0} : Finset (DevRef τ sig)) by decide),
    (op5 (F := F)).result_of_not_mem _ (b := rf main_arg2) (show rf main_arg2 ∉ ({rf main_v3} : Finset (DevRef τ sig)) by decide),
    (op4 (F := F)).result_of_not_mem _ (b := rf main_arg2) (show rf main_arg2 ∉ ({rf main_v2} : Finset (DevRef τ sig)) by decide),
    (op3 (F := F)).result_of_not_mem _ (b := rf main_arg2) (show rf main_arg2 ∉ ({rf main_v1} : Finset (DevRef τ sig)) by decide),
    (op2 (F := F)).result_of_not_mem _ (b := rf main_arg2) (show rf main_arg2 ∉ ({rf main_cst} : Finset (DevRef τ sig)) by decide),
    (op1 (F := F)).result_of_not_mem _ (b := rf main_arg2) (show rf main_arg2 ∉ ({rf main_v0} : Finset (DevRef τ sig)) by decide)]
  rfl
theorem keeps_arg3 (d : Dev nD) : ((op8 (F := F)).result ((op7 (F := F)).result ((op6 (F := F)).result ((op5 (F := F)).result ((op4 (F := F)).result ((op3 (F := F)).result ((op2 (F := F)).result ((op1 (F := F)).result (V0 m d))))))))) (rf main_arg3) = m (tloc d main_arg3) := by
  rw [(op8 (F := F)).result_of_not_mem _ (b := rf main_arg3) (show rf main_arg3 ∉ ({rf main_v5} : Finset (DevRef τ sig)) by decide),
    (op7 (F := F)).result_of_not_mem _ (b := rf main_arg3) (show rf main_arg3 ∉ ({rf main_v4} : Finset (DevRef τ sig)) by decide),
    (op6 (F := F)).result_of_not_mem _ (b := rf main_arg3) (show rf main_arg3 ∉ ({rf main_cst_0} : Finset (DevRef τ sig)) by decide),
    (op5 (F := F)).result_of_not_mem _ (b := rf main_arg3) (show rf main_arg3 ∉ ({rf main_v3} : Finset (DevRef τ sig)) by decide),
    (op4 (F := F)).result_of_not_mem _ (b := rf main_arg3) (show rf main_arg3 ∉ ({rf main_v2} : Finset (DevRef τ sig)) by decide),
    (op3 (F := F)).result_of_not_mem _ (b := rf main_arg3) (show rf main_arg3 ∉ ({rf main_v1} : Finset (DevRef τ sig)) by decide),
    (op2 (F := F)).result_of_not_mem _ (b := rf main_arg3) (show rf main_arg3 ∉ ({rf main_cst} : Finset (DevRef τ sig)) by decide),
    (op1 (F := F)).result_of_not_mem _ (b := rf main_arg3) (show rf main_arg3 ∉ ({rf main_v0} : Finset (DevRef τ sig)) by decide)]
  rfl

theorem tile_vecs (d : Dev nD) (c : Fin (grid0.bound 0)) (i : Fin (grid0.bound 1)) :
    tileRes d m c i ⊢ (iprop((∃ g, tloc d main_v6_2 ↦[vSet (c, i)]{fullShare} g) ∗ (∃ g, tloc d main_v6_3 ↦[vSet (c, i)]{fullShare} g)) : sProp 𝕄) := by
  unfold tileRes goRes vSet
  rw [plbSl_set, pubSl_set]
  iintro ⟨%fc, %fr, -, -, -, -, -, -, -, ⟨%g2, G2⟩, ⟨%g3, G3⟩⟩
  isplitl [G2]; · iexists g2; iexact G2
  iexists g3; iexact G3

/-- What comes back from the call contains the two bound vectors whole, each at some contents. -/
theorem dn_vecs (d : Dev nD) :
    (bigSep Finset.univ fun c => bigSep Finset.univ fun i => tileRes d m c i : sProp 𝕄)
      ⊢ iprop((∃ g, tloc d main_v6_2 ↦{fullShare} g) ∗ (∃ g, tloc d main_v6_3 ↦{fullShare} g)) := by
  have h1 : (bigSep Finset.univ fun c => bigSep Finset.univ fun i => tileRes d m c i : sProp 𝕄)
      ⊢ bigSep Finset.univ fun c => bigSep Finset.univ fun i =>
          iprop((∃ g, tloc d main_v6_2 ↦[vSet (c, i)]{fullShare} g) ∗ (∃ g, tloc d main_v6_3 ↦[vSet (c, i)]{fullShare} g)) :=
    bigSep_mono fun c _ => bigSep_mono fun i _ => tile_vecs m d c i
  refine h1.trans ?_
  rw [← nest2]
  iintro ⟨H2, H3⟩
  isplitl [H2]
  · iapply (vec_join (F := F) (tloc d main_v6_2) (m _) vSet vSet_disjoint vSet_cover); iexact H2
  iapply (vec_join (F := F) (tloc d main_v6_3) (m _) vSet vSet_disjoint vSet_cover); iexact H3

theorem st0_eq (d : Dev nD) :
    (bigSep Finset.univ fun c : Fin ((K (F := F)).nCore 0) => (P m).st 0 d c) = bigSep Finset.univ fun c => bigSep Finset.univ fun i => tileRes d m c i := rfl
theorem dn0_eq (d : Dev nD) :
    (bigSep Finset.univ fun c : Fin ((K (F := F)).nCore 0) => (P m).dn 0 d c) = bigSep Finset.univ fun c => bigSep Finset.univ fun i => tileRes d m c i := rfl

/-- The valuation after the call: the two bound vectors at what came back. -/
def Vp (d : Dev nD) (g2 : Buf (Elt F) (tloc d main_v6_2)) (g3 : Buf (Elt F) (tloc d main_v6_3)) : Valuation τ sig (Elt F) :=
  Function.update (Function.update (V0 m d) (rf main_v6_2) g2) (rf main_v6_3) g3
theorem Vp_2 (d : Dev nD) (g2 g3) : Vp m d g2 g3 (rf main_v6_2) = g2 :=
  (Function.update_of_ne (show rf main_v6_2 ≠ rf main_v6_3 by decide) _ _).trans (Function.update_self _ _ _)
theorem Vp_3 (d : Dev nD) (g2 g3) : Vp m d g2 g3 (rf main_v6_3) = g3 := Function.update_self _ _ _
theorem Vp_7 (d : Dev nD) (g2 g3) : Vp m d g2 g3 (rf main_v7) = V0 m d (rf main_v7) :=
  (Function.update_of_ne (show rf main_v7 ≠ rf main_v6_3 by decide) _ _).trans (Function.update_of_ne (show rf main_v7 ≠ rf main_v6_2 by decide) _ _)
theorem Vp_8 (d : Dev nD) (g2 g3) : Vp m d g2 g3 (rf main_v8) = V0 m d (rf main_v8) :=
  (Function.update_of_ne (show rf main_v8 ≠ rf main_v6_3 by decide) _ _).trans (Function.update_of_ne (show rf main_v8 ≠ rf main_v6_2 by decide) _ _)

/-- What @main leaves the claim: the four arguments at their launch contents (of the two the tiles read, the share that
    stayed behind). -/
abbrev FIN (d : Dev nD) : sProp 𝕄 :=
  iprop((tloc d main_arg0 ↦{Transfers.shareDrop fullShare (grid0.bound 0)} m (tloc d main_arg0))
    ∗ (tloc d main_arg1 ↦{Transfers.shareDrop fullShare (grid0.bound 0)} m (tloc d main_arg1))
    ∗ (tloc d main_arg2 ↦{fullShare} m (tloc d main_arg2)) ∗ (tloc d main_arg3 ↦{fullShare} m (tloc d main_arg3)))

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ (wp frame (wpE ((K (F := F)).defs (D (F := F))) 𝒱 (SparseCore.T d) none) Set.univ (main d)
          fun _ => iprop((K (F := F)).tcSt EH d 1 ∗ FIN m d) : sProp 𝕄) := by
  unfold SparseCore.Cfg.tcRes
  rw [unscopedBufs_eq]
  simp only [main, wp_bind, wp_pure]
  iintro ⟨#Hctx, Hst, ⟨Hb, ⟨H_arg0, H_arg1, H_arg2, H_arg3, H_v0, H_cst, H_v1, H_v2, H_v3, H_cst_0, H_v4, H_v5, H_v6_0, H_v6_1, H_v6_2, H_v6_3, H_v7, H_v8⟩, -, -⟩, -⟩
  ihave Hpre := (Entails.of_eq (held_Spre (F := F) d (V0 m d)).symm) $$ [H_arg2 H_arg3 H_v0 H_cst H_v1 H_v2 H_v3 H_cst_0 H_v4 H_v5]
  · isplitl [H_arg2]; · iexact H_arg2
    isplitl [H_arg3]; · iexact H_arg3
    isplitl [H_v0]; · iexact H_v0
    isplitl [H_cst]; · iexact H_cst
    isplitl [H_v1]; · iexact H_v1
    isplitl [H_v2]; · iexact H_v2
    isplitl [H_v3]; · iexact H_v3
    isplitl [H_cst_0]; · iexact H_cst_0
    isplitl [H_v4]; · iexact H_v4
    iexact H_v5
  iapply (wp_hlo_within 𝒱 (SparseCore.T d) none Set.univ (op := op1) (S := Spre) (hsub1 (F := F)) (V := (V0 m d))) $$ [Hb Hpre]
  · isplitl [Hb]; · iexact Hb
    iexact Hpre
  iintro ⟨Hb, Hpre⟩
  rw [wp_ret]; imodintro
  iapply (wp_hlo_within 𝒱 (SparseCore.T d) none Set.univ (op := op2) (S := Spre) (hsub2 (F := F)) (V := ((op1 (F := F)).result (V0 m d)))) $$ [Hb Hpre]
  · isplitl [Hb]; · iexact Hb
    iexact Hpre
  iintro ⟨Hb, Hpre⟩
  rw [wp_ret]; imodintro
  iapply (wp_hlo_within 𝒱 (SparseCore.T d) none Set.univ (op := op3) (S := Spre) (hsub3 (F := F)) (V := ((op2 (F := F)).result ((op1 (F := F)).result (V0 m d))))) $$ [Hb Hpre]
  · isplitl [Hb]; · iexact Hb
    iexact Hpre
  iintro ⟨Hb, Hpre⟩
  rw [wp_ret]; imodintro
  iapply (wp_hlo_within 𝒱 (SparseCore.T d) none Set.univ (op := op4) (S := Spre) (hsub4 (F := F)) (V := ((op3 (F := F)).result ((op2 (F := F)).result ((op1 (F := F)).result (V0 m d)))))) $$ [Hb Hpre]
  · isplitl [Hb]; · iexact Hb
    iexact Hpre
  iintro ⟨Hb, Hpre⟩
  rw [wp_ret]; imodintro
  iapply (wp_hlo_within 𝒱 (SparseCore.T d) none Set.univ (op := op5) (S := Spre) (hsub5 (F := F)) (V := ((op4 (F := F)).result ((op3 (F := F)).result ((op2 (F := F)).result ((op1 (F := F)).result (V0 m d))))))) $$ [Hb Hpre]
  · isplitl [Hb]; · iexact Hb
    iexact Hpre
  iintro ⟨Hb, Hpre⟩
  rw [wp_ret]; imodintro
  iapply (wp_hlo_within 𝒱 (SparseCore.T d) none Set.univ (op := op6) (S := Spre) (hsub6 (F := F)) (V := ((op5 (F := F)).result ((op4 (F := F)).result ((op3 (F := F)).result ((op2 (F := F)).result ((op1 (F := F)).result (V0 m d)))))))) $$ [Hb Hpre]
  · isplitl [Hb]; · iexact Hb
    iexact Hpre
  iintro ⟨Hb, Hpre⟩
  rw [wp_ret]; imodintro
  iapply (wp_hlo_within 𝒱 (SparseCore.T d) none Set.univ (op := op7) (S := Spre) (hsub7 (F := F)) (V := ((op6 (F := F)).result ((op5 (F := F)).result ((op4 (F := F)).result ((op3 (F := F)).result ((op2 (F := F)).result ((op1 (F := F)).result (V0 m d))))))))) $$ [Hb Hpre]
  · isplitl [Hb]; · iexact Hb
    iexact Hpre
  iintro ⟨Hb, Hpre⟩
  rw [wp_ret]; imodintro
  iapply (wp_hlo_within 𝒱 (SparseCore.T d) none Set.univ (op := op8) (S := Spre) (hsub8 (F := F)) (V := ((op7 (F := F)).result ((op6 (F := F)).result ((op5 (F := F)).result ((op4 (F := F)).result ((op3 (F := F)).result ((op2 (F := F)).result ((op1 (F := F)).result (V0 m d)))))))))) $$ [Hb Hpre]
  · isplitl [Hb]; · iexact Hb
    iexact Hpre
  iintro ⟨Hb, Hpre⟩
  rw [wp_ret]; imodintro
  ihave Hp := (Entails.of_eq (held_Spre (F := F) d _)) $$ Hpre
  icases Hp with ⟨A2, A3, X0, XC, X1, X2, X3, XC0, X4, X5⟩
  ihave A2 := (Entails.of_eq (congrArg (fun f => (tloc d main_arg2 ↦{fullShare} f : sProp 𝕄)) (keeps_arg2 m d))) $$ A2
  ihave A3 := (Entails.of_eq (congrArg (fun f => (tloc d main_arg3 ↦{fullShare} f : sProp 𝕄)) (keeps_arg3 m d))) $$ A3
  ihave Hsh := (st_intro m d _ _ _ _ _ _) $$ [X2 X5 H_arg0 H_arg1 H_v6_0 H_v6_1 H_v6_2 H_v6_3]
  · isplitl [X2]; · iexact X2
    isplitl [X5]; · iexact X5
    isplitl [H_arg0]; · iexact H_arg0
    isplitl [H_arg1]; · iexact H_arg1
    isplitl [H_v6_0]; · iexact H_v6_0
    isplitl [H_v6_1]; · iexact H_v6_1
    isplitl [H_v6_2]; · iexact H_v6_2
    iexact H_v6_3
  icases Hsh with ⟨L0, U0, Htiles⟩
  iapply ((K (F := F)).wp_run (D (F := F)) 𝒱 (EH := EH) (P := P m) κ d 0) $$ [Hst Htiles Hb H_v7 H_v8 L0 U0 A2 A3]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hv := (dn_vecs m d) $$ Hdn'
  icases Hv with ⟨⟨%g2, G2⟩, ⟨%g3, G3⟩⟩
  ihave Hpost := (Entails.of_eq (held_Spost (F := F) d (Vp m d g2 g3)).symm) $$ [G2 G3 H_v7 H_v8]
  · rw [Vp_2, Vp_3, Vp_7, Vp_8]
    isplitl [G2]; · iexact G2
    isplitl [G3]; · iexact G3
    isplitl [H_v7]; · iexact H_v7
    iexact H_v8
  iapply (wp_hlo_within 𝒱 (SparseCore.T d) none Set.univ (op := op9) (S := Spost) (hsub9 (F := F)) (V := Vp m d g2 g3)) $$ [Hb Hpost]
  · isplitl [Hb]; · iexact Hb
    iexact Hpost
  iintro ⟨Hb, Hpost⟩
  rw [wp_ret]; imodintro
  iapply (wp_hlo_within 𝒱 (SparseCore.T d) none Set.univ (op := op10) (S := Spost) (hsub10 (F := F)) (V := (op9 (F := F)).result (Vp m d g2 g3))) $$ [Hb Hpost]
  · isplitl [Hb]; · iexact Hb
    iexact Hpost
  iintro ⟨Hb, Hpost⟩
  rw [wp_ret]; imodintro; imodintro
  isplitl [Hst]; · iexact Hst
  isplitl [L0]; · iexact L0
  isplitl [U0]; · iexact U0
  isplitl [A2]; · iexact A2
  iexact A3

theorem vecSplit : (K (F := F)).VecSplit' (P m) 0 := by
  intro d c
  show (bigSep Finset.univ fun i : Fin (grid0.bound 1) => tileRes d m (Fin.cast nCore_zero c) i : sProp 𝕄) ⊢ |={Set.univ}=> iprop(
      (bigSep Finset.univ fun i : Fin ((K (F := F)).nSub 0) => tileRes d m (Fin.cast nCore_zero c) (Fin.cast nSub_zero i))
      ∗ ((bigSep Finset.univ fun i : Fin ((K (F := F)).nSub 0) => tileRes d m (Fin.cast nCore_zero c) (Fin.cast nSub_zero i))
          -∗ (bigSep Finset.univ fun i : Fin (grid0.bound 1) => tileRes d m (Fin.cast nCore_zero c) i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The claim read off the final memory -/

def fq (d : Dev nD) (s' : Phys nD τ sig (Elt F)) : Prop :=
  s'.mem.mem (tloc d main_arg0) = m (tloc d main_arg0) ∧ s'.mem.mem (tloc d main_arg1) = m (tloc d main_arg1)
    ∧ s'.mem.mem (tloc d main_arg2) = m (tloc d main_arg2) ∧ s'.mem.mem (tloc d main_arg3) = m (tloc d main_arg3)

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := tloc d main_arg0) (I := Finset.univ) (f := m (tloc d main_arg0)))) $$ [HSI H0]
  · isplitl [HSI] <;> iassumption
  icases H with ⟨%h0, HSI, -⟩
  ihave H := (persistent_entails_right (SI_pointsTo_agree (st := s') (ℓ := tloc d main_arg1) (I := Finset.univ) (f := m (tloc d main_arg1)))) $$ [HSI H1]
  · isplitl [HSI] <;> iassumption
  icases H with ⟨%h1, HSI, -⟩
  ihave H := (persistent_entails_right (SI_pointsTo_agree (st := s') (ℓ := tloc d main_arg2) (I := Finset.univ) (f := m (tloc d main_arg2)))) $$ [HSI H2]
  · isplitl [HSI] <;> iassumption
  icases H with ⟨%h2, HSI, -⟩
  ihave H := (SI_pointsTo_agree (st := s') (ℓ := tloc d main_arg3) (I := Finset.univ) (f := m (tloc d main_arg3))) $$ [HSI H3]
  · isplitl [HSI] <;> iassumption
  icases H with %h3
  ipureintro
  exact ⟨funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (tloc c main_arg0) = m (tloc c main_arg0) ∧ r.2.mem (tloc c main_arg1) = m (tloc c main_arg1)
    ∧ r.2.mem (tloc c main_arg2) = m (tloc c main_arg2) ∧ r.2.mem (tloc c main_arg3) = m (tloc c main_arg3)

/-- Every weakly fair execution of the device's threads — @main on the TensorCore, the two sequencers, the thirty-two
    tiles — terminates without a fault, and the four arguments end as they began. -/
theorem run_main [∀ e, Nonempty (Elt F e)] :
    θ_run (defs (F := F)) (threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- `Cert.frame_Kernel` (Defs.lean). -/
theorem frame : Cert.frame_Kernel := fun m ρ _ =>
  (θ_run Cert.Kernel.defs _ _).mono (fun _ h c => h c) (run_main (F := Bits) m ρ)

end Cert.Proof.K

end
-- ==== Proof.KIBase.lean ====
/-
  Names for the tile's view of the call: the eight whole arrays in HBM (the two coefficient tables of centre and
  radius, the two coefficient arrays read, the two written, the two vectors of concretized bounds), the tile's nine
  scratch buffers, and the thread of the tile at a grid coordinate. The 64-word reduction scratch is read by the
  lane-permuting loads through its whole-rectangle access; the two spellings of "the tile holds it" are the same
  assertion.
-/
import proofs.«214425_g62758062129325_cont_9to1_m_981_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«214425_g62758062129325_cont_9to1_m_981_19_alg».proof.Proof.Gen.KernelIdeal
import proofs.«214425_g62758062129325_cont_9to1_m_981_19_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cpH : Memref sig .scVector .hbm S784 .f32 := Memref.whole main_v2_scv
abbrev rpH : Memref sig .scVector .hbm S784 .f32 := Memref.whole main_v5_scv
abbrev lH : Memref sig .scVector .hbm S8x2048x785 .f32 := Memref.whole main_arg0_scv
abbrev uH : Memref sig .scVector .hbm S8x2048x785 .f32 := Memref.whole main_arg1_scv
abbrev loH : Memref sig .scVector .hbm S8x2048x785 .f32 := Memref.whole main_v6_0_scv
abbrev uoH : Memref sig .scVector .hbm S8x2048x785 .f32 := Memref.whole main_v6_1_scv
abbrev plbH : Memref sig .scVector .hbm S16384 .f32 := Memref.whole main_v6_2_scv
abbrev pubH : Memref sig .scVector .hbm S16384 .f32 := Memref.whole main_v6_3_scv
abbrev cpV : Memref sig .scVector .vmem S784 .f32 := Memref.whole cc0_scratch0
abbrev rpV : Memref sig .scVector .vmem S784 .f32 := Memref.whole cc0_scratch1
abbrev laV : Memref sig .scVector .vmem S16x785 .f32 := Memref.whole cc0_scratch2
abbrev uaV : Memref sig .scVector .vmem S16x785 .f32 := Memref.whole cc0_scratch3
abbrev lbV : Memref sig .scVector .vmem S16x785 .f32 := Memref.whole cc0_scratch4
abbrev ubV : Memref sig .scVector .vmem S16x785 .f32 := Memref.whole cc0_scratch5
abbrev plbV : Memref sig .scVector .vmem S512 .f32 := Memref.whole cc0_scratch6
abbrev pubV : Memref sig .scVector .vmem S512 .f32 := Memref.whole cc0_scratch7
abbrev redV : Memref sig .scVector .vmem S64 .f32 := Memref.whole cc0_scratch8

/-- The body as the launch calls it on the tile at grid coordinates `L`. -/
abbrev bodyAt (L : grid0.Coords) :=
  cc0__sc_body (F := F) L cpH (Memref.isWhole_whole _) rpH (Memref.isWhole_whole _) lH (Memref.isWhole_whole _) uH (Memref.isWhole_whole _)
    loH (Memref.isWhole_whole _) uoH (Memref.isWhole_whole _) plbH (Memref.isWhole_whole _) pubH (Memref.isWhole_whole _)
    cpV (Memref.isWhole_whole _) rpV (Memref.isWhole_whole _) laV (Memref.isWhole_whole _) uaV (Memref.isWhole_whole _)
    lbV (Memref.isWhole_whole _) ubV (Memref.isWhole_whole _) plbV (Memref.isWhole_whole _) pubV (Memref.isWhole_whole _)
    redV (Memref.isWhole_whole _) cc0_scratch9 cc0_scratch10 cc0_scratch11 cc0_scratch12 cc0_scratch13 cc0_scratch14 cc0_scratch15 cc0_scratch16
    cc0_scoped0 cc0_scoped1 cc0_scoped2 cc0_scoped3

variable (d : Dev nD) (L : grid0.Coords)

omit [FloatOps F] in
theorem pts_red_view (f : Buf (Elt F) ((thr d L).loc cc0_scratch8)) :
    ((redV : Memref sig .scVector .vmem S64 .f32).view.loc (thr d L) ↦{fullShare} f : sProp 𝕄) = (thr d L).loc cc0_scratch8 ↦{fullShare} f := rfl
omit [FloatOps F] in
theorem pts_red_access (f : Buf (Elt F) ((thr d L).loc cc0_scratch8)) :
    (((redV : Memref sig .scVector .vmem S64 .f32).access (.whole S64)).loc (thr d L) ↦{fullShare} f : sProp 𝕄) = (thr d L).loc cc0_scratch8 ↦{fullShare} f := rfl

end Cert.Proof.KI

end
-- ==== Proof.KIRows.lean ====
/-
  One trip of the row loop of a chunk: row `k` of the two 16×785 coefficient buffers is read slice by slice against
  the centre and radius tables, the four lane sums are completed by four rounds of lane-permuting loads through the
  64-word scratch, and the row of each buffer is overwritten by its scaled copy. Here only what the trip touches is
  recorded: it reads the two tables, rewrites the two buffers and the scratch, and returns.
-/
import proofs.«214425_g62758062129325_cont_9to1_m_981_19_alg».proof.Proof.KIBase

noncomputable section

namespace Cert.Proof.KI

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

variable (d : Dev nD) (L : grid0.Coords)

/-- What a row trip needs and leaves: the two tables as they are, the two coefficient buffers and the reduction scratch at
    some contents. -/
def rowInvA (c : Buf (Elt F) (cpV.view.loc (thr d L))) (r : Buf (Elt F) (rpV.view.loc (thr d L))) : sProp 𝕄 :=
  iprop((cpV.view.loc (thr d L) ↦{fullShare} c) ∗ (rpV.view.loc (thr d L) ↦{fullShare} r)
    ∗ (∃ a', laV.view.loc (thr d L) ↦{fullShare} a') ∗ (∃ b', uaV.view.loc (thr d L) ↦{fullShare} b')
    ∗ (∃ e', redV.view.loc (thr d L) ↦{fullShare} e'))

set_option maxHeartbeats 4000000 in
theorem rowA_trip (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec F S16 .f32 × FVec F S16 .f32)
    (c : Buf (Elt F) (cpV.view.loc (thr d L))) (r : Buf (Elt F) (rpV.view.loc (thr d L))) :
    rowInvA d L c r
      ⊢ (wp frame (wpE (defs₀ (F := F)) 𝒱₀ (thr d L) none) Set.univ
          (k0_t2_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc) fun _ => rowInvA d L c r : sProp 𝕄) := by
  unfold k0_t2_body rowInvA
  iintro ⟨HC, HR, ⟨%a, HA⟩, ⟨%b, HB⟩, ⟨%e, HE⟩⟩
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  sl_step
  isplitl [HC]; · iexact HC
  isplitl [HR]; · iexact HR
  isplitl [HA]; · iexists _; iexact HA
  isplitl [HB]; · iexists _; iexact HB
  iexists _; iexact HE

/-- What a row trip needs and leaves: the two tables as they are, the two coefficient buffers and the reduction scratch at
    some contents. -/
def rowInvB (c : Buf (Elt F) (cpV.view.loc (thr d L))) (r : Buf (Elt F) (rpV.view.loc (thr d L))) : sProp 𝕄 :=
  iprop((cpV.view.loc (thr d L) ↦{fullShare} c) ∗ (rpV.view.loc (thr d L) ↦{fullShare} r)
    ∗ (∃ a', lbV.view.loc (thr d L) ↦{fullShare} a') ∗ (∃ b', ubV.view.loc (thr d L) ↦{fullShare} b')
    ∗ (∃ e', redV.view.loc (thr d L) ↦{fullShare} e'))

set_option maxHeartbeats 4000000 in
theorem rowB_trip (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec F S16 .f32 × FVec F S16 .f32)
    (c : Buf (Elt F) (cpV.view.loc (thr d L))) (r : Buf (Elt F) (rpV.view.loc (thr d L))) :
    rowInvB d L c r
      ⊢ (wp frame (wpE (defs₀ (F := F)) 𝒱₀ (thr d L) none) Set.univ
          (k0_t3_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc) fun _ => rowInvB d L c r : sProp 𝕄) := by
  unfold k0_t3_body rowInvB
  iintro ⟨HC, HR, ⟨%a, HA⟩, ⟨%b, HB⟩, ⟨%e, HE⟩⟩
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  ihave HE := (Entails.of_eq ((pts_red_view (F := F) d L _).trans (pts_red_access (F := F) d L _).symm)) $$ HE
  iapply (SparseCore.wp_vectorLoadIdx 𝒱₀ (thr d L) none Set.univ (base := redV) (S := Finset.univ) (q := fullShare) (Finset.subset_univ _)) $$ HE; iintro HE
  ihave HE := (Entails.of_eq ((pts_red_access (F := F) d L _).trans (pts_red_view (F := F) d L _).symm)) $$ HE
  set_option sl_exec.parts true in
  sl_exec
  sl_step
  isplitl [HC]; · iexact HC
  isplitl [HR]; · iexact HR
  isplitl [HA]; · iexists _; iexact HA
  isplitl [HB]; · iexists _; iexact HB
  iexists _; iexact HE

end Cert.Proof.KI

end
-- ==== Proof.KITrip.lean ====
/-
  One trip of the tile's main loop. A tile works through its 512 rows in 32 chunks of 16 rows, two chunks per trip,
  through two pairs of coefficient buffers: while one pair is being worked on the other pair's copies are under way.
  Before a trip both pairs' copies from the input arrays are outstanding; the trip waits for the first pair, runs the
  row loop over it, records the chunk's concretized bounds and starts the pair's copy to its slices of the output
  arrays, does the same for the second pair, and then — unless it is the last trip — waits for each copy-out and starts
  the next chunk's copy-in in its place. After the last trip the two copies-out are still outstanding. Each copy has a
  semaphore of its own, and no buffer is touched between the start of a copy that reads or writes it and the wait for
  that copy. Stated here with every buffer at some contents: that the trip runs and what it holds before and after.
-/
import proofs.«214425_g62758062129325_cont_9to1_m_981_19_alg».proof.Proof.KIRows

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

/-- The slice of an output coefficient array that receives a chunk, as each copy-out names it. -/
abbrev outA (k : Fin k0_t1_loop.trips) : Memref sig .scVector .hbm S16x785 .f32 :=
  (loH.slice (Rect.unit (s := S8x2048x785) (k0_off104 L k) S1x16x785.size (k0_off104_inb L k)) (fun _ => rfl)).squeeze S16x785 squeezes_S1x16x785_S16x785
abbrev outA' (k : Fin k0_t1_loop.trips) : Memref sig .scVector .hbm S16x785 .f32 :=
  (uoH.slice (Rect.unit (s := S8x2048x785) (k0_off104 L k) S1x16x785.size (k0_off104_inb L k)) (fun _ => rfl)).squeeze S16x785 squeezes_S1x16x785_S16x785
abbrev outB (k : Fin k0_t1_loop.trips) : Memref sig .scVector .hbm S16x785 .f32 :=
  (loH.slice (Rect.unit (s := S8x2048x785) (k0_off105 L k) S1x16x785.size (k0_off105_inb L k)) (fun _ => rfl)).squeeze S16x785 squeezes_S1x16x785_S16x785
abbrev outB' (k : Fin k0_t1_loop.trips) : Memref sig .scVector .hbm S16x785 .f32 :=
  (uoH.slice (Rect.unit (s := S8x2048x785) (k0_off105 L k) S1x16x785.size (k0_off105_inb L k)) (fun _ => rfl)).squeeze S16x785 squeezes_S1x16x785_S16x785

/-- A wait recorded at the kernels' own index keeps the record within "the waits before, or waits at that index". -/
theorem waits_insert {W' W : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

/-- Whether a trip is followed by another: the trip's own test, as an inequality of trip numbers. -/
theorem cond_lt : ∀ k : Fin k0_t1_loop.trips, k0_cond1 k = 1#1 → k.val + 1 < k0_t1_loop.trips := by decide +kernel
theorem cond_last : ∀ k : Fin k0_t1_loop.trips, ¬ k0_cond1 k = 1#1 → k.val + 1 = k0_t1_loop.trips := by decide +kernel

variable (O : CellTallies nD τ sig (HIx 1)) (W : Waits sig (HIx 1)) (q9 q10 q11 q12 : PosShare TreeShare)
  (f0 : Buf (Elt F) (lH.view.loc (thr d L))) (f1 : Buf (Elt F) (uH.view.loc (thr d L)))

/-- A chunk on its way in: the copy into a coefficient buffer is outstanding on its semaphore; it has borrowed the rows
    it reads from the array, the rest of which the tile keeps. -/
def inFl (sm : DmaSems sig S_) (dst : Memref sig .scVector .vmem S16x785 .f32) (src : Memref sig .scVector .hbm S8x2048x785 .f32)
    (q : PosShare TreeShare) (f : Buf (Elt F) (src.view.loc (thr d L))) : sProp 𝕄 :=
  iprop(∃ (S : Finset (Idx (src.view.loc (thr d L)))) (dv : Buf (Elt F) (dst.view.loc (thr d L))),
    Transfers.Flight (countersEmb (U := UU)) (thr d L) (SemLoc.dma sm.sem) (default : HIx 1) 401920
        iprop((dst.view.loc (thr d L) ↦{fullShare} dv) ∗ (src.view.loc (thr d L) ↦[S]{q} f))
      ∗ (src.view.loc (thr d L) ↦[Finset.univ \ S]{q} f))

/-- The four slices of the two output arrays that one trip's two chunks are written to, at some contents. -/
def outsAt (k : Fin k0_t1_loop.trips) : sProp 𝕄 :=
  iprop((∃ g, (outA L k).view.loc (thr d L) ↦[(outA L k).view.set]{fullShare} g)
    ∗ (∃ g, (outA' L k).view.loc (thr d L) ↦[(outA' L k).view.set]{fullShare} g)
    ∗ (∃ g, (outB L k).view.loc (thr d L) ↦[(outB L k).view.set]{fullShare} g)
    ∗ (∃ g, (outB' L k).view.loc (thr d L) ↦[(outB' L k).view.set]{fullShare} g))

/-- A chunk on its way out: the copy from a coefficient buffer into its slice of an output array is outstanding. -/
def outFl (sm : DmaSems sig S_) (src : Memref sig .scVector .vmem S16x785 .f32) (dst : Memref sig .scVector .hbm S16x785 .f32) : sProp 𝕄 :=
  iprop(∃ (g : Buf (Elt F) (dst.view.loc (thr d L))) (sv : Buf (Elt F) (src.view.loc (thr d L))),
    Transfers.Flight (countersEmb (U := UU)) (thr d L) (SemLoc.dma sm.sem) (default : HIx 1) 401920
        iprop((dst.view.loc (thr d L) ↦[dst.view.set]{fullShare} g) ∗ (src.view.loc (thr d L) ↦[src.view.set]{fullShare} sv))
      ∗ (src.view.loc (thr d L) ↦[Finset.univ \ src.view.set]{fullShare} sv))

/-- What every trip finds and leaves apart from the copies: the tile may wait, its debts, and the five small scratches. -/
def common : sProp 𝕄 :=
  iprop(Transfers.MayWaits (thr d L) (none : HIx 1) O
    ∗ (∃ W', ⌜∀ p ∈ W', p ∈ W ∨ p.2 = none⌝ ∗ owes (thr d L) O W')
    ∗ (∃ c, cpV.view.loc (thr d L) ↦{fullShare} c) ∗ (∃ r, rpV.view.loc (thr d L) ↦{fullShare} r)
    ∗ (∃ p, plbV.view.loc (thr d L) ↦{fullShare} p) ∗ (∃ p, pubV.view.loc (thr d L) ↦{fullShare} p)
    ∗ (∃ e, redV.view.loc (thr d L) ↦{fullShare} e))

/-- Before a trip: both chunks of the trip are on their way in, nothing is on its way out. -/
def invIn : sProp 𝕄 :=
  iprop(inFl d L cc0_scratch9 laV lH q9 f0 ∗ inFl d L cc0_scratch10 uaV uH q10 f1
    ∗ inFl d L cc0_scratch11 lbV lH q11 f0 ∗ inFl d L cc0_scratch12 ubV uH q12 f1
    ∗ semVal (thr d L, SemLoc.dma cc0_scratch13.sem) 0 ∗ semVal (thr d L, SemLoc.dma cc0_scratch14.sem) 0
    ∗ semVal (thr d L, SemLoc.dma cc0_scratch15.sem) 0 ∗ semVal (thr d L, SemLoc.dma cc0_scratch16.sem) 0
    ∗ bigSep Finset.univ (outsAt (F := F) d L))

/-- After the last trip: nothing is on its way in, the last trip's two chunks are on their way out. -/
def invOut : sProp 𝕄 :=
  iprop(∃ kl : Fin k0_t1_loop.trips,
    (lH.view.loc (thr d L) ↦{q9} f0) ∗ (uH.view.loc (thr d L) ↦{q10} f1)
    ∗ (lH.view.loc (thr d L) ↦{q11} f0) ∗ (uH.view.loc (thr d L) ↦{q12} f1)
    ∗ semVal (thr d L, SemLoc.dma cc0_scratch9.sem) 0 ∗ semVal (thr d L, SemLoc.dma cc0_scratch10.sem) 0
    ∗ semVal (thr d L, SemLoc.dma cc0_scratch11.sem) 0 ∗ semVal (thr d L, SemLoc.dma cc0_scratch12.sem) 0
    ∗ outFl d L cc0_scratch13 laV (outA L kl) ∗ outFl d L cc0_scratch14 uaV (outA' L kl)
    ∗ outFl d L cc0_scratch15 lbV (outB L kl) ∗ outFl d L cc0_scratch16 ubV (outB' L kl)
    ∗ bigSep (Finset.univ.erase kl) (outsAt (F := F) d L))

/-- The loop's invariant. -/
def loopInv (k : Nat) (_ : BitVec 32) : sProp 𝕄 :=
  iprop(common d L O W ∗ if k < k0_t1_loop.trips then invIn d L q9 q10 q11 q12 f0 f1 else invOut d L q9 q10 q11 q12 f0 f1)

set_option maxHeartbeats 4000000 in
theorem trip (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t1_loop.trips) (acc : BitVec 32) :
    loopInv d L O W q9 q10 q11 q12 f0 f1 k.val acc
      ⊢ (wp frame (wpE (defs₀ (F := F)) 𝒱₀ (thr d L) none) Set.univ
          (k0_t1_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc) (loopInv d L O W q9 q10 q11 q12 f0 f1 (k.val + 1)) : sProp 𝕄) := by
  unfold loopInv
  rw [if_pos k.isLt]
  by_cases hk : k0_cond1 k = 1#1
  · rw [if_pos (cond_lt k hk)]
    unfold common invIn inFl
    rw [SparseCore.bigSep_erase' (Finset.mem_univ k)]
    unfold outsAt

    unfold k0_t1_body
    iintro ⟨⟨Hmw, ⟨%W', %hW', HO⟩, ⟨%c, HC⟩, ⟨%r, HR⟩, ⟨%p6, HP⟩, ⟨%p7, HQ⟩, ⟨%e, HE⟩⟩,
      ⟨%SA, %a, F9, L9⟩, ⟨%SA', %b, F10, U10⟩, ⟨%SB, %a2, F11, L11⟩, ⟨%SB', %b2, F12, U12⟩, M13, M14, M15, M16,
      ⟨⟨%gA, GA⟩, ⟨%gA', GA'⟩, ⟨%gB, GB⟩, ⟨%gB', GB'⟩⟩, Houts⟩
    set_option sl_exec.parts true in
    sl_exec
    sl_for (fun (_ : Nat) (_ : FVec F S16 .f32 × FVec F S16 .f32) => rowInvA (F := F) d L c r) $$ [HC HR F9_dst F10_dst HE]
    case region => intro k' acc'; exact rowA_trip d L _ _ _ _ _ _ _ _ _ _ _ _ _ _ _ _ _ _ _ _ _ _ _ _ _ _ _ _ _ _ _ _ _ _ _ _ _ _ k' acc' c r
    · unfold rowInvA
      isplitl [HC]; · iexact HC
      isplitl [HR]; · iexact HR
      isplitl [F9_dst]; · iexists _; iexact F9_dst
      isplitl [F10_dst]; · iexists _; iexact F10_dst
      iexists _; iexact HE
    iintro %accA HI
    unfold rowInvA
    icases HI with ⟨HC, HR, ⟨%a', HA⟩, ⟨%b', HB⟩, ⟨%e', HE⟩⟩
    set_option sl_exec.parts true in
    sl_exec
    sl_for (fun (_ : Nat) (_ : FVec F S16 .f32 × FVec F S16 .f32) => rowInvB (F := F) d L c r) $$ [HC HR F11_dst F12_dst HE]
    case region => intro k' acc'; exact rowB_trip d L _ _ _ _ _ _ _ _ _ _ _ _ _ _ _ _ _ _ _ _ _ _ _ _ _ _ _ _ _ _ _ _ _ _ _ k' acc' c r
    · unfold rowInvB
      isplitl [HC]; · iexact HC
      isplitl [HR]; · iexact HR
      isplitl [F11_dst]; · iexists _; iexact F11_dst
      isplitl [F12_dst]; · iexists _; iexact F12_dst
      iexists _; iexact HE
    iintro %accB HI
    unfold rowInvB
    icases HI with ⟨HC, HR, ⟨%a2', HA2⟩, ⟨%b2', HB2⟩, ⟨%e'', HE⟩⟩
    set_option sl_exec.parts true in
    sl_exec
    sl_step
    isplitl [Hmw HO HC HR HP HQ HE]
    · isplitl [Hmw]; · iexact Hmw
      isplitl [HO]
      · iexists _
        isplitr
        swap
        · iexact HO
        · ipureintro
          repeat (apply waits_insert)
          exact hW'
      isplitl [HC]; · iexists _; iexact HC
      isplitl [HR]; · iexists _; iexact HR
      isplitl [HP]; · iexists _; iexact HP
      isplitl [HQ]; · iexists _; iexact HQ
      iexists _; iexact HE
    isplitl [F9 L9]
    · iexists _; iexists _; isplitl [F9]; · iexact F9
      iexact L9
    isplitl [F10 U10]
    · iexists _; iexists _; isplitl [F10]; · iexact F10
      iexact U10
    isplitl [F11 L11]
    · iexists _; iexists _; isplitl [F11]; · iexact F11
      iexact L11
    isplitl [F12 U12]
    · iexists _; iexists _; isplitl [F12]; · iexact F12
      iexact U12
    isplitl [M13]; · iexact M13
    isplitl [M14]; · iexact M14
    isplitl [M15]; · iexact M15
    isplitl [M16]; · iexact M16
    isplitl [GA GA' GB GB']
    · isplitl [GA]; · iexists _; iexact GA
      isplitl [GA']; · iexists _; iexact GA'
      isplitl [GB]; · iexists _; iexact GB
      iexists _; iexact GB'
    iexact Houts
  · rw [if_neg (by have := cond_last k hk; omega)]
    unfold common invIn inFl
    rw [SparseCore.bigSep_erase' (Finset.mem_univ k)]
    unfold outsAt

    unfold k0_t1_body
    iintro ⟨⟨Hmw, ⟨%W', %hW', HO⟩, ⟨%c, HC⟩, ⟨%r, HR⟩, ⟨%p6, HP⟩, ⟨%p7, HQ⟩, ⟨%e, HE⟩⟩,
      ⟨%SA, %a, F9, L9⟩, ⟨%SA', %b, F10, U10⟩, ⟨%SB, %a2, F11, L11⟩, ⟨%SB', %b2, F12, U12⟩, M13, M14, M15, M16,
      ⟨⟨%gA, GA⟩, ⟨%gA', GA'⟩, ⟨%gB, GB⟩, ⟨%gB', GB'⟩⟩, Houts⟩
    set_option sl_exec.parts true in
    sl_exec
    sl_for (fun (_ : Nat) (_ : FVec F S16 .f32 × FVec F S16 .f32) => rowInvA (F := F) d L c r) $$ [HC HR F9_dst F10_dst HE]
    case region => intro k' acc'; exact rowA_trip d L _ _ _ _ _ _ _ _ _ _ _ _ _ _ _ _ _ _ _ _ _ _ _ _ _ _ _ _ _ _ _ _ _ _ _ _ _ _ k' acc' c r
    · unfold rowInvA
      isplitl [HC]; · iexact HC
      isplitl [HR]; · iexact HR
      isplitl [F9_dst]; · iexists _; iexact F9_dst
      isplitl [F10_dst]; · iexists _; iexact F10_dst
      iexists _; iexact HE
    iintro %accA HI
    unfold rowInvA
    icases HI with ⟨HC, HR, ⟨%a', HA⟩, ⟨%b', HB⟩, ⟨%e', HE⟩⟩
    set_option sl_exec.parts true in
    sl_exec
    sl_for (fun (_ : Nat) (_ : FVec F S16 .f32 × FVec F S16 .f32) => rowInvB (F := F) d L c r) $$ [HC HR F11_dst F12_dst HE]
    case region => intro k' acc'; exact rowB_trip d L _ _ _ _ _ _ _ _ _ _ _ _ _ _ _ _ _ _ _ _ _ _ _ _ _ _ _ _ _ _ _ _ _ _ _ k' acc' c r
    · unfold rowInvB
      isplitl [HC]; · iexact HC
      isplitl [HR]; · iexact HR
      isplitl [F11_dst]; · iexists _; iexact F11_dst
      isplitl [F12_dst]; · iexists _; iexact F12_dst
      iexists _; iexact HE
    iintro %accB HI
    unfold rowInvB
    icases HI with ⟨HC, HR, ⟨%a2', HA2⟩, ⟨%b2', HB2⟩, ⟨%e'', HE⟩⟩
    set_option sl_exec.parts true in
    sl_exec
    sl_step
    isplitl [Hmw HO HC HR HP HQ HE]
    · isplitl [Hmw]; · iexact Hmw
      isplitl [HO]
      · iexists _
        isplitr
        swap
        · iexact HO
        · ipureintro
          repeat (apply waits_insert)
          exact hW'
      isplitl [HC]; · iexists _; iexact HC
      isplitl [HR]; · iexists _; iexact HR
      isplitl [HP]; · iexists _; iexact HP
      isplitl [HQ]; · iexists _; iexact HQ
      iexists _; iexact HE
    unfold invOut outFl
    iexists k
    isplitl [L9]; · iexact L9
    isplitl [U10]; · iexact U10
    isplitl [L11]; · iexact L11
    isplitl [U12]; · iexact U12
    isplitl [F9]; · iexact F9
    isplitl [F10]; · iexact F10
    isplitl [F11]; · iexact F11
    isplitl [F12]; · iexact F12
    isplitl [M13 HA]
    · iexists _; iexists _; isplitl [M13]; · iexact M13
      iexact HA
    isplitl [M14 HB]
    · iexists _; iexists _; isplitl [M14]; · iexact M14
      iexact HB
    isplitl [M15 HA2]
    · iexists _; iexists _; isplitl [M15]; · iexact M15
      iexact HA2
    isplitl [M16 HB2]
    · iexists _; iexists _; isplitl [M16]; · iexact M16
      iexact HB2
    iexact Houts

end Cert.Proof.KI

end
-- ==== Proof.KIBody.lean ====
/-
  The kernel on one tile, whole. The tile copies the two tables of centres and radii into its scratch, starts the copies
  of its first two chunks, runs the sixteen trips of its main loop, waits for the last two copies-out, and writes its
  512 concretized lower and upper bounds to its part of the two bound vectors. Twelve semaphores, one per copy that can
  be outstanding; every copy is waited for before its source or destination is touched again. Stated with every
  buffer at some contents: the kernel runs to its end on what the tile is handed and hands the same back.
-/
import proofs.«214425_g62758062129325_cont_9to1_m_981_19_alg».proof.Proof.KITrip

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

variable (O : CellTallies nD τ sig (HIx 1)) (W : Waits sig (HIx 1)) (qc qr q9 q10 q11 q12 : PosShare TreeShare)
  (fc : Buf (Elt F) (cpH.view.loc (thr d L))) (fr : Buf (Elt F) (rpH.view.loc (thr d L)))
  (f0 : Buf (Elt F) (lH.view.loc (thr d L))) (f1 : Buf (Elt F) (uH.view.loc (thr d L)))

/-- The 512 words of a vector of concretized bounds that belong to the tile. -/
abbrev plbSl : Memref sig .scVector .hbm S512 .f32 := plbH.slice (Rect.unit (s := S16384) (k0_off161 L) S512.size (k0_off161_inb L)) (fun _ => rfl)
abbrev pubSl : Memref sig .scVector .hbm S512 .f32 := pubH.slice (Rect.unit (s := S16384) (k0_off161 L) S512.size (k0_off161_inb L)) (fun _ => rfl)

/-- What a tile is handed and hands back: read shares of the two tables and (one per buffer pair) of the two input arrays,
    its slices of the two output arrays and of the two bound vectors at some contents. -/
def goRes : sProp 𝕄 :=
  iprop((cpH.view.loc (thr d L) ↦{qc} fc) ∗ (rpH.view.loc (thr d L) ↦{qr} fr)
    ∗ (lH.view.loc (thr d L) ↦{q9} f0) ∗ (uH.view.loc (thr d L) ↦{q10} f1)
    ∗ (lH.view.loc (thr d L) ↦{q11} f0) ∗ (uH.view.loc (thr d L) ↦{q12} f1)
    ∗ bigSep Finset.univ (outsAt (F := F) d L)
    ∗ (∃ g, (plbSl L).view.loc (thr d L) ↦[(plbSl L).view.set]{fullShare} g)
    ∗ (∃ g, (pubSl L).view.loc (thr d L) ↦[(pubSl L).view.set]{fullShare} g))

/-- The tile's nine scratch buffers at some contents, and its twelve copy semaphores at zero. -/
def scratchRes : sProp 𝕄 := iprop((∃ s, cpV.view.loc (thr d L) ↦{fullShare} s) ∗ (∃ s, rpV.view.loc (thr d L) ↦{fullShare} s) ∗ (∃ s, laV.view.loc (thr d L) ↦{fullShare} s) ∗ (∃ s, uaV.view.loc (thr d L) ↦{fullShare} s) ∗ (∃ s, lbV.view.loc (thr d L) ↦{fullShare} s) ∗ (∃ s, ubV.view.loc (thr d L) ↦{fullShare} s) ∗ (∃ s, plbV.view.loc (thr d L) ↦{fullShare} s) ∗ (∃ s, pubV.view.loc (thr d L) ↦{fullShare} s) ∗ (∃ s, redV.view.loc (thr d L) ↦{fullShare} s))
def semsRes : sProp 𝕄 := iprop(semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0)

set_option maxHeartbeats 4000000 in
theorem body_core (X : sProp 𝕄) :
    iprop(Transfers.MayWaits (thr d L) (none : HIx 1) O ∗ owes (thr d L) O W ∗ goRes d L qc qr q9 q10 q11 q12 fc fr f0 f1
        ∗ scratchRes (F := F) d L ∗ semsRes (F := F) d L ∗ X)
      ⊢ (wp frame (wpE (defs₀ (F := F)) 𝒱₀ (thr d L) none) Set.univ (bodyAt (F := F) L) fun _ =>
          iprop(goRes d L qc qr q9 q10 q11 q12 fc fr f0 f1 ∗ scratchRes (F := F) d L ∗ semsRes (F := F) d L ∗ X
            ∗ ∃ W', ⌜∀ p ∈ W', p ∈ W ∨ p.2 = none⌝ ∗ owes (thr d L) O W') : sProp 𝕄) := by
  unfold bodyAt goRes scratchRes semsRes
  rw [cc0__sc_body_eq_skeleton]; unfold cc0__sc_body_skel
  iintro ⟨Hmw, HO, ⟨H2, H5, L9, U10, L11, U12, Houts, ⟨%g2, G2⟩, ⟨%g3, G3⟩⟩,
    ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩,
    ⟨M9, M10, M11, M12, M13, M14, M15, M16, R0, R1, R2, R3⟩, HX⟩
  set_option sl_exec.parts true in
  sl_exec
  sl_for (loopInv d L O W q9 q10 q11 q12 f0 f1) $$ [Hmw HO S0 S1 S6 S7 S8 M9 L9 M10 U10 M11 L11 M12 U12 M13 M14 M15 M16 Houts]
  case region => intro k acc; exact trip d L O W q9 q10 q11 q12 f0 f1 _ _ _ _ _ _ _ _ _ _ _ _ _ _ _ _ _ _ _ _ _ _ _ _ _ _ _ _ _ _ _ _ _ _ _ k acc
  · unfold loopInv
    rw [if_pos (by decide)]
    unfold common invIn inFl
    isplitl [Hmw HO S0 S1 S6 S7 S8]
    · isplitl [Hmw]; · iexact Hmw
      isplitl [HO]
      · iexists _
        isplitr
        swap
        · iexact HO
        · ipureintro
          repeat (apply waits_insert)
          exact fun p hp => .inl hp
      isplitl [S0]; · iexists _; iexact S0
      isplitl [S1]; · iexists _; iexact S1
      isplitl [S6]; · iexists _; iexact S6
      isplitl [S7]; · iexists _; iexact S7
      iexists _; iexact S8
    isplitl [M9 L9]
    · iexists _; iexists _; isplitl [M9]; · iexact M9
      iexact L9
    isplitl [M10 U10]
    · iexists _; iexists _; isplitl [M10]; · iexact M10
      iexact U10
    isplitl [M11 L11]
    · iexists _; iexists _; isplitl [M11]; · iexact M11
      iexact L11
    isplitl [M12 U12]
    · iexists _; iexists _; isplitl [M12]; · iexact M12
      iexact U12
    isplitl [M13]; · iexact M13
    isplitl [M14]; · iexact M14
    isplitl [M15]; · iexact M15
    isplitl [M16]; · iexact M16
    iexact Houts
  iintro %accE HI
  unfold loopInv
  rw [if_neg (lt_irrefl _)]
  unfold common invOut outFl
  icases HI with ⟨⟨Hmw, ⟨%W', %hW', HO⟩, ⟨%c, HC⟩, ⟨%r, HR⟩, ⟨%p6, HP⟩, ⟨%p7, HQ⟩, ⟨%e, HE⟩⟩, %kl, L9, U10, L11, U12, M9, M10, M11, M12,
    ⟨%gA, %sa, F13, RA⟩, ⟨%gA', %sa', F14, RA'⟩, ⟨%gB, %sb, F15, RB⟩, ⟨%gB', %sb', F16, RB'⟩, Houts⟩
  rw [SparseCore.bigSep_erase' (Finset.mem_univ kl)]
  unfold outsAt
  set_option sl_exec.parts true in
  sl_exec
  sl_step
  isplitl [H2 H5 L9 U10 L11 U12 F13_dst F14_dst F15_dst F16_dst Houts G2 G3]
  · isplitl [H2]; · iexact H2
    isplitl [H5]; · iexact H5
    isplitl [L9]; · iexact L9
    isplitl [U10]; · iexact U10
    isplitl [L11]; · iexact L11
    isplitl [U12]; · iexact U12
    isplitl [F13_dst F14_dst F15_dst F16_dst Houts]
    · isplitl [F13_dst F14_dst F15_dst F16_dst]
      · isplitl [F13_dst]; · iexists _; iexact F13_dst
        isplitl [F14_dst]; · iexists _; iexact F14_dst
        isplitl [F15_dst]; · iexists _; iexact F15_dst
        iexists _; iexact F16_dst
      iexact Houts
    isplitl [G2]; · iexists _; iexact G2
    iexists _; iexact G3
  isplitl [HC HR RA RA' RB RB' HP HQ HE]
  · isplitl [HC]; · iexists _; iexact HC
    isplitl [HR]; · iexists _; iexact HR
    isplitl [RA]; · iexists _; iexact RA
    isplitl [RA']; · iexists _; iexact RA'
    isplitl [RB]; · iexists _; iexact RB
    isplitl [RB']; · iexists _; iexact RB'
    isplitl [HP]; · iexists _; iexact HP
    isplitl [HQ]; · iexists _; iexact HQ
    iexists _; iexact HE
  isplitl [M9 M10 M11 M12 F13 F14 F15 F16 R0 R1 R2 R3]
  · isplitl [M9]; · iexact M9
    isplitl [M10]; · iexact M10
    isplitl [M11]; · iexact M11
    isplitl [M12]; · iexact M12
    isplitl [F13]; · iexact F13
    isplitl [F14]; · iexact F14
    isplitl [F15]; · iexact F15
    isplitl [F16]; · iexact F16
    isplitl [R0]; · iexact R0
    isplitl [R1]; · iexact R1
    isplitl [R2]; · iexact R2
    iexact R3
  isplitl [HX]; · iexact HX
  iexists _
  isplitr
  swap
  · iexact HO
  · ipureintro
    repeat (apply waits_insert)
    exact hW'

omit [FloatOps F] in
/-- The twelve copy semaphores are among the tile's own: at zero they are those twelve at zero, and the rest. -/
theorem ownSems0_V :
    (ownSems0 (thr d L) : sProp 𝕄)
      = iprop(semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0
          ∗ bigSep (((((((((((((ownCells (thr d L)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem)).erase (thr d L, SemLoc.dma cc0_scratch16.sem)).erase (thr d L, SemLoc.dma cc0_scoped0.sem)).erase (thr d L, SemLoc.dma cc0_scoped1.sem)).erase (thr d L, SemLoc.dma cc0_scoped2.sem)).erase (thr d L, SemLoc.dma cc0_scoped3.sem)) fun g => semVal g 0) := by
  unfold SparseCore.Cfg.ownSems0
  rw [SparseCore.bigSep_erase' ((mem_ownCells (g := (thr d L, SemLoc.dma cc0_scratch9.sem))).mpr ⟨rfl, by show (SemLoc.dma cc0_scratch9.sem : SemLoc sig).isScoped .scVector = true; decide⟩),
    SparseCore.bigSep_erase' (Finset.mem_erase.mpr ⟨(fun e => absurd (SemLoc.dma.inj (Prod.mk.inj e).2) (show (cc0_scratch10.sem : DmaSem sig) ≠ cc0_scratch9.sem by decide)), (mem_ownCells (g := (thr d L, SemLoc.dma cc0_scratch10.sem))).mpr ⟨rfl, by show (SemLoc.dma cc0_scratch10.sem : SemLoc sig).isScoped .scVector = true; decide⟩⟩),
    SparseCore.bigSep_erase' (Finset.mem_erase.mpr ⟨(fun e => absurd (SemLoc.dma.inj (Prod.mk.inj e).2) (show (cc0_scratch11.sem : DmaSem sig) ≠ cc0_scratch10.sem by decide)), Finset.mem_erase.mpr ⟨(fun e => absurd (SemLoc.dma.inj (Prod.mk.inj e).2) (show (cc0_scratch11.sem : DmaSem sig) ≠ cc0_scratch9.sem by decide)), (mem_ownCells (g := (thr d L, SemLoc.dma cc0_scratch11.sem))).mpr ⟨rfl, by show (SemLoc.dma cc0_scratch11.sem : SemLoc sig).isScoped .scVector = true; decide⟩⟩⟩),
    SparseCore.bigSep_erase' (Finset.mem_erase.mpr ⟨(fun e => absurd (SemLoc.dma.inj (Prod.mk.inj e).2) (show (cc0_scratch12.sem : DmaSem sig) ≠ cc0_scratch11.sem by decide)), Finset.mem_erase.mpr ⟨(fun e => absurd (SemLoc.dma.inj (Prod.mk.inj e).2) (show (cc0_scratch12.sem : DmaSem sig) ≠ cc0_scratch10.sem by decide)), Finset.mem_erase.mpr ⟨(fun e => absurd (SemLoc.dma.inj (Prod.mk.inj e).2) (show (cc0_scratch12.sem : DmaSem sig) ≠ cc0_scratch9.sem by decide)), (mem_ownCells (g := (thr d L, SemLoc.dma cc0_scratch12.sem))).mpr ⟨rfl, by show (SemLoc.dma cc0_scratch12.sem : SemLoc sig).isScoped .scVector = true; decide⟩⟩⟩⟩),
    SparseCore.bigSep_erase' (Finset.mem_erase.mpr ⟨(fun e => absurd (SemLoc.dma.inj (Prod.mk.inj e).2) (show (cc0_scratch13.sem : DmaSem sig) ≠ cc0_scratch12.sem by decide)), Finset.mem_erase.mpr ⟨(fun e => absurd (SemLoc.dma.inj (Prod.mk.inj e).2) (show (cc0_scratch13.sem : DmaSem sig) ≠ cc0_scratch11.sem by decide)), Finset.mem_erase.mpr ⟨(fun e => absurd (SemLoc.dma.inj (Prod.mk.inj e).2) (show (cc0_scratch13.sem : DmaSem sig) ≠ cc0_scratch10.sem by decide)), Finset.mem_erase.mpr ⟨(fun e => absurd (SemLoc.dma.inj (Prod.mk.inj e).2) (show (cc0_scratch13.sem : DmaSem sig) ≠ cc0_scratch9.sem by decide)), (mem_ownCells (g := (thr d L, SemLoc.dma cc0_scratch13.sem))).mpr ⟨rfl, by show (SemLoc.dma cc0_scratch13.sem : SemLoc sig).isScoped .scVector = true; decide⟩⟩⟩⟩⟩),
    SparseCore.bigSep_erase' (Finset.mem_erase.mpr ⟨(fun e => absurd (SemLoc.dma.inj (Prod.mk.inj e).2) (show (cc0_scratch14.sem : DmaSem sig) ≠ cc0_scratch13.sem by decide)), Finset.mem_erase.mpr ⟨(fun e => absurd (SemLoc.dma.inj (Prod.mk.inj e).2) (show (cc0_scratch14.sem : DmaSem sig) ≠ cc0_scratch12.sem by decide)), Finset.mem_erase.mpr ⟨(fun e => absurd (SemLoc.dma.inj (Prod.mk.inj e).2) (show (cc0_scratch14.sem : DmaSem sig) ≠ cc0_scratch11.sem by decide)), Finset.mem_erase.mpr ⟨(fun e => absurd (SemLoc.dma.inj (Prod.mk.inj e).2) (show (cc0_scratch14.sem : DmaSem sig) ≠ cc0_scratch10.sem by decide)), Finset.mem_erase.mpr ⟨(fun e => absurd (SemLoc.dma.inj (Prod.mk.inj e).2) (show (cc0_scratch14.sem : DmaSem sig) ≠ cc0_scratch9.sem by decide)), (mem_ownCells (g := (thr d L, SemLoc.dma cc0_scratch14.sem))).mpr ⟨rfl, by show (SemLoc.dma cc0_scratch14.sem : SemLoc sig).isScoped .scVector = true; decide⟩⟩⟩⟩⟩⟩),
    SparseCore.bigSep_erase' (Finset.mem_erase.mpr ⟨(fun e => absurd (SemLoc.dma.inj (Prod.mk.inj e).2) (show (cc0_scratch15.sem : DmaSem sig) ≠ cc0_scratch14.sem by decide)), Finset.mem_erase.mpr ⟨(fun e => absurd (SemLoc.dma.inj (Prod.mk.inj e).2) (show (cc0_scratch15.sem : DmaSem sig) ≠ cc0_scratch13.sem by decide)), Finset.mem_erase.mpr ⟨(fun e => absurd (SemLoc.dma.inj (Prod.mk.inj e).2) (show (cc0_scratch15.sem : DmaSem sig) ≠ cc0_scratch12.sem by decide)), Finset.mem_erase.mpr ⟨(fun e => absurd (SemLoc.dma.inj (Prod.mk.inj e).2) (show (cc0_scratch15.sem : DmaSem sig) ≠ cc0_scratch11.sem by decide)), Finset.mem_erase.mpr ⟨(fun e => absurd (SemLoc.dma.inj (Prod.mk.inj e).2) (show (cc0_scratch15.sem : DmaSem sig) ≠ cc0_scratch10.sem by decide)), Finset.mem_erase.mpr ⟨(fun e => absurd (SemLoc.dma.inj (Prod.mk.inj e).2) (show (cc0_scratch15.sem : DmaSem sig) ≠ cc0_scratch9.sem by decide)), (mem_ownCells (g := (thr d L, SemLoc.dma cc0_scratch15.sem))).mpr ⟨rfl, by show (SemLoc.dma cc0_scratch15.sem : SemLoc sig).isScoped .scVector = true; decide⟩⟩⟩⟩⟩⟩⟩),
    SparseCore.bigSep_erase' (Finset.mem_erase.mpr ⟨(fun e => absurd (SemLoc.dma.inj (Prod.mk.inj e).2) (show (cc0_scratch16.sem : DmaSem sig) ≠ cc0_scratch15.sem by decide)), Finset.mem_erase.mpr ⟨(fun e => absurd (SemLoc.dma.inj (Prod.mk.inj e).2) (show (cc0_scratch16.sem : DmaSem sig) ≠ cc0_scratch14.sem by decide)), Finset.mem_erase.mpr ⟨(fun e => absurd (SemLoc.dma.inj (Prod.mk.inj e).2) (show (cc0_scratch16.sem : DmaSem sig) ≠ cc0_scratch13.sem by decide)), Finset.mem_erase.mpr ⟨(fun e => absurd (SemLoc.dma.inj (Prod.mk.inj e).2) (show (cc0_scratch16.sem : DmaSem sig) ≠ cc0_scratch12.sem by decide)), Finset.mem_erase.mpr ⟨(fun e => absurd (SemLoc.dma.inj (Prod.mk.inj e).2) (show (cc0_scratch16.sem : DmaSem sig) ≠ cc0_scratch11.sem by decide)), Finset.mem_erase.mpr ⟨(fun e => absurd (SemLoc.dma.inj (Prod.mk.inj e).2) (show (cc0_scratch16.sem : DmaSem sig) ≠ cc0_scratch10.sem by decide)), Finset.mem_erase.mpr ⟨(fun e => absurd (SemLoc.dma.inj (Prod.mk.inj e).2) (show (cc0_scratch16.sem : DmaSem sig) ≠ cc0_scratch9.sem by decide)), (mem_ownCells (g := (thr d L, SemLoc.dma cc0_scratch16.sem))).mpr ⟨rfl, by show (SemLoc.dma cc0_scratch16.sem : SemLoc sig).isScoped .scVector = true; decide⟩⟩⟩⟩⟩⟩⟩⟩),
    SparseCore.bigSep_erase' (Finset.mem_erase.mpr ⟨(fun e => absurd (SemLoc.dma.inj (Prod.mk.inj e).2) (show (cc0_scoped0.sem : DmaSem sig) ≠ cc0_scratch16.sem by decide)), Finset.mem_erase.mpr ⟨(fun e => absurd (SemLoc.dma.inj (Prod.mk.inj e).2) (show (cc0_scoped0.sem : DmaSem sig) ≠ cc0_scratch15.sem by decide)), Finset.mem_erase.mpr ⟨(fun e => absurd (SemLoc.dma.inj (Prod.mk.inj e).2) (show (cc0_scoped0.sem : DmaSem sig) ≠ cc0_scratch14.sem by decide)), Finset.mem_erase.mpr ⟨(fun e => absurd (SemLoc.dma.inj (Prod.mk.inj e).2) (show (cc0_scoped0.sem : DmaSem sig) ≠ cc0_scratch13.sem by decide)), Finset.mem_erase.mpr ⟨(fun e => absurd (SemLoc.dma.inj (Prod.mk.inj e).2) (show (cc0_scoped0.sem : DmaSem sig) ≠ cc0_scratch12.sem by decide)), Finset.mem_erase.mpr ⟨(fun e => absurd (SemLoc.dma.inj (Prod.mk.inj e).2) (show (cc0_scoped0.sem : DmaSem sig) ≠ cc0_scratch11.sem by decide)), Finset.mem_erase.mpr ⟨(fun e => absurd (SemLoc.dma.inj (Prod.mk.inj e).2) (show (cc0_scoped0.sem : DmaSem sig) ≠ cc0_scratch10.sem by decide)), Finset.mem_erase.mpr ⟨(fun e => absurd (SemLoc.dma.inj (Prod.mk.inj e).2) (show (cc0_scoped0.sem : DmaSem sig) ≠ cc0_scratch9.sem by decide)), (mem_ownCells (g := (thr d L, SemLoc.dma cc0_scoped0.sem))).mpr ⟨rfl, by show (SemLoc.dma cc0_scoped0.sem : SemLoc sig).isScoped .scVector = true; decide⟩⟩⟩⟩⟩⟩⟩⟩⟩),
    SparseCore.bigSep_erase' (Finset.mem_erase.mpr ⟨(fun e => absurd (SemLoc.dma.inj (Prod.mk.inj e).2) (show (cc0_scoped1.sem : DmaSem sig) ≠ cc0_scoped0.sem by decide)), Finset.mem_erase.mpr ⟨(fun e => absurd (SemLoc.dma.inj (Prod.mk.inj e).2) (show (cc0_scoped1.sem : DmaSem sig) ≠ cc0_scratch16.sem by decide)), Finset.mem_erase.mpr ⟨(fun e => absurd (SemLoc.dma.inj (Prod.mk.inj e).2) (show (cc0_scoped1.sem : DmaSem sig) ≠ cc0_scratch15.sem by decide)), Finset.mem_erase.mpr ⟨(fun e => absurd (SemLoc.dma.inj (Prod.mk.inj e).2) (show (cc0_scoped1.sem : DmaSem sig) ≠ cc0_scratch14.sem by decide)), Finset.mem_erase.mpr ⟨(fun e => absurd (SemLoc.dma.inj (Prod.mk.inj e).2) (show (cc0_scoped1.sem : DmaSem sig) ≠ cc0_scratch13.sem by decide)), Finset.mem_erase.mpr ⟨(fun e => absurd (SemLoc.dma.inj (Prod.mk.inj e).2) (show (cc0_scoped1.sem : DmaSem sig) ≠ cc0_scratch12.sem by decide)), Finset.mem_erase.mpr ⟨(fun e => absurd (SemLoc.dma.inj (Prod.mk.inj e).2) (show (cc0_scoped1.sem : DmaSem sig) ≠ cc0_scratch11.sem by decide)), Finset.mem_erase.mpr ⟨(fun e => absurd (SemLoc.dma.inj (Prod.mk.inj e).2) (show (cc0_scoped1.sem : DmaSem sig) ≠ cc0_scratch10.sem by decide)), Finset.mem_erase.mpr ⟨(fun e => absurd (SemLoc.dma.inj (Prod.mk.inj e).2) (show (cc0_scoped1.sem : DmaSem sig) ≠ cc0_scratch9.sem by decide)), (mem_ownCells (g := (thr d L, SemLoc.dma cc0_scoped1.sem))).mpr ⟨rfl, by show (SemLoc.dma cc0_scoped1.sem : SemLoc sig).isScoped .scVector = true; decide⟩⟩⟩⟩⟩⟩⟩⟩⟩⟩),
    SparseCore.bigSep_erase' (Finset.mem_erase.mpr ⟨(fun e => absurd (SemLoc.dma.inj (Prod.mk.inj e).2) (show (cc0_scoped2.sem : DmaSem sig) ≠ cc0_scoped1.sem by decide)), Finset.mem_erase.mpr ⟨(fun e => absurd (SemLoc.dma.inj (Prod.mk.inj e).2) (show (cc0_scoped2.sem : DmaSem sig) ≠ cc0_scoped0.sem by decide)), Finset.mem_erase.mpr ⟨(fun e => absurd (SemLoc.dma.inj (Prod.mk.inj e).2) (show (cc0_scoped2.sem : DmaSem sig) ≠ cc0_scratch16.sem by decide)), Finset.mem_erase.mpr ⟨(fun e => absurd (SemLoc.dma.inj (Prod.mk.inj e).2) (show (cc0_scoped2.sem : DmaSem sig) ≠ cc0_scratch15.sem by decide)), Finset.mem_erase.mpr ⟨(fun e => absurd (SemLoc.dma.inj (Prod.mk.inj e).2) (show (cc0_scoped2.sem : DmaSem sig) ≠ cc0_scratch14.sem by decide)), Finset.mem_erase.mpr ⟨(fun e => absurd (SemLoc.dma.inj (Prod.mk.inj e).2) (show (cc0_scoped2.sem : DmaSem sig) ≠ cc0_scratch13.sem by decide)), Finset.mem_erase.mpr ⟨(fun e => absurd (SemLoc.dma.inj (Prod.mk.inj e).2) (show (cc0_scoped2.sem : DmaSem sig) ≠ cc0_scratch12.sem by decide)), Finset.mem_erase.mpr ⟨(fun e => absurd (SemLoc.dma.inj (Prod.mk.inj e).2) (show (cc0_scoped2.sem : DmaSem sig) ≠ cc0_scratch11.sem by decide)), Finset.mem_erase.mpr ⟨(fun e => absurd (SemLoc.dma.inj (Prod.mk.inj e).2) (show (cc0_scoped2.sem : DmaSem sig) ≠ cc0_scratch10.sem by decide)), Finset.mem_erase.mpr ⟨(fun e => absurd (SemLoc.dma.inj (Prod.mk.inj e).2) (show (cc0_scoped2.sem : DmaSem sig) ≠ cc0_scratch9.sem by decide)), (mem_ownCells (g := (thr d L, SemLoc.dma cc0_scoped2.sem))).mpr ⟨rfl, by show (SemLoc.dma cc0_scoped2.sem : SemLoc sig).isScoped .scVector = true; decide⟩⟩⟩⟩⟩⟩⟩⟩⟩⟩⟩),
    SparseCore.bigSep_erase' (Finset.mem_erase.mpr ⟨(fun e => absurd (SemLoc.dma.inj (Prod.mk.inj e).2) (show (cc0_scoped3.sem : DmaSem sig) ≠ cc0_scoped2.sem by decide)), Finset.mem_erase.mpr ⟨(fun e => absurd (SemLoc.dma.inj (Prod.mk.inj e).2) (show (cc0_scoped3.sem : DmaSem sig) ≠ cc0_scoped1.sem by decide)), Finset.mem_erase.mpr ⟨(fun e => absurd (SemLoc.dma.inj (Prod.mk.inj e).2) (show (cc0_scoped3.sem : DmaSem sig) ≠ cc0_scoped0.sem by decide)), Finset.mem_erase.mpr ⟨(fun e => absurd (SemLoc.dma.inj (Prod.mk.inj e).2) (show (cc0_scoped3.sem : DmaSem sig) ≠ cc0_scratch16.sem by decide)), Finset.mem_erase.mpr ⟨(fun e => absurd (SemLoc.dma.inj (Prod.mk.inj e).2) (show (cc0_scoped3.sem : DmaSem sig) ≠ cc0_scratch15.sem by decide)), Finset.mem_erase.mpr ⟨(fun e => absurd (SemLoc.dma.inj (Prod.mk.inj e).2) (show (cc0_scoped3.sem : DmaSem sig) ≠ cc0_scratch14.sem by decide)), Finset.mem_erase.mpr ⟨(fun e => absurd (SemLoc.dma.inj (Prod.mk.inj e).2) (show (cc0_scoped3.sem : DmaSem sig) ≠ cc0_scratch13.sem by decide)), Finset.mem_erase.mpr ⟨(fun e => absurd (SemLoc.dma.inj (Prod.mk.inj e).2) (show (cc0_scoped3.sem : DmaSem sig) ≠ cc0_scratch12.sem by decide)), Finset.mem_erase.mpr ⟨(fun e => absurd (SemLoc.dma.inj (Prod.mk.inj e).2) (show (cc0_scoped3.sem : DmaSem sig) ≠ cc0_scratch11.sem by decide)), Finset.mem_erase.mpr ⟨(fun e => absurd (SemLoc.dma.inj (Prod.mk.inj e).2) (show (cc0_scoped3.sem : DmaSem sig) ≠ cc0_scratch10.sem by decide)), Finset.mem_erase.mpr ⟨(fun e => absurd (SemLoc.dma.inj (Prod.mk.inj e).2) (show (cc0_scoped3.sem : DmaSem sig) ≠ cc0_scratch9.sem by decide)), (mem_ownCells (g := (thr d L, SemLoc.dma cc0_scoped3.sem))).mpr ⟨rfl, by show (SemLoc.dma cc0_scoped3.sem : SemLoc sig).isScoped .scVector = true; decide⟩⟩⟩⟩⟩⟩⟩⟩⟩⟩⟩⟩)]

omit [FloatOps F] in
/-- The nine scratch buffers are among the tile's own: they are those nine, each at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ (∃ f, (thr d L).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := ((Proc.scVector (cV L) (jV L)).devRef cc0_scratch1)) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨(fun e => absurd (Proc.devRef_injective _ e) (show (cc0_scratch6 : Ref sig .scVector) ≠ cc0_scratch5 by decide)), Finset.mem_erase.mpr ⟨(fun e => absurd (Proc.devRef_injective _ e) (show (cc0_scratch6 : Ref sig .scVector) ≠ cc0_scratch4 by decide)), Finset.mem_erase.mpr ⟨(fun e => absurd (Proc.devRef_injective _ e) (show (cc0_scratch6 : Ref sig .scVector) ≠ cc0_scratch3 by decide)), Finset.mem_erase.mpr ⟨(fun e => absurd (Proc.devRef_injective _ e) (show (cc0_scratch6 : Ref sig .scVector) ≠ cc0_scratch2 by decide)), Finset.mem_erase.mpr ⟨(fun e => absurd (Proc.devRef_injective _ e) (show (cc0_scratch6 : Ref sig .scVector) ≠ cc0_scratch1 by decide)), Finset.mem_erase.mpr ⟨(fun e => absurd (Proc.devRef_injective _ e) (show (cc0_scratch6 : Ref sig .scVector) ≠ cc0_scratch0 by decide)), SparseCore.Cfg.mem_ownRefs_of_owner (p := Proc.scVector (cV L) (jV L)) (b := ((Proc.scVector (cV L) (jV L)).devRef cc0_scratch6)) rfl⟩⟩⟩⟩⟩⟩),
    SparseCore.bigSep_erase' (Finset.mem_erase.mpr ⟨(fun e => absurd (Proc.devRef_injective _ e) (show (cc0_scratch7 : Ref sig .scVector) ≠ cc0_scratch6 by decide)), Finset.mem_erase.mpr ⟨(fun e => absurd (Proc.devRef_injective _ e) (show (cc0_scratch7 : Ref sig .scVector) ≠ cc0_scratch5 by decide)), Finset.mem_erase.mpr ⟨(fun e => absurd (Proc.devRef_injective _ e) (show (cc0_scratch7 : Ref sig .scVector) ≠ cc0_scratch4 by decide)), Finset.mem_erase.mpr ⟨(fun e => absurd (Proc.devRef_injective _ e) (show (cc0_scratch7 : Ref sig .scVector) ≠ cc0_scratch3 by decide)), Finset.mem_erase.mpr ⟨(fun e => absurd (Proc.devRef_injective _ e) (show (cc0_scratch7 : Ref sig .scVector) ≠ cc0_scratch2 by decide)), Finset.mem_erase.mpr ⟨(fun e => absurd (Proc.devRef_injective _ e) (show (cc0_scratch7 : Ref sig .scVector) ≠ cc0_scratch1 by decide)), Finset.mem_erase.mpr ⟨(fun e => absurd (Proc.devRef_injective _ e) (show (cc0_scratch7 : Ref sig .scVector) ≠ cc0_scratch0 by decide)), SparseCore.Cfg.mem_ownRefs_of_owner (p := Proc.scVector (cV L) (jV L)) (b := ((Proc.scVector (cV L) (jV L)).devRef cc0_scratch7)) rfl⟩⟩⟩⟩⟩⟩⟩),
    SparseCore.bigSep_erase' (Finset.mem_erase.mpr ⟨(fun e => absurd (Proc.devRef_injective _ e) (show (cc0_scratch8 : Ref sig .scVector) ≠ cc0_scratch7 by decide)), Finset.mem_erase.mpr ⟨(fun e => absurd (Proc.devRef_injective _ e) (show (cc0_scratch8 : Ref sig .scVector) ≠ cc0_scratch6 by decide)), Finset.mem_erase.mpr ⟨(fun e => absurd (Proc.devRef_injective _ e) (show (cc0_scratch8 : Ref sig .scVector) ≠ cc0_scratch5 by decide)), Finset.mem_erase.mpr ⟨(fun e => absurd (Proc.devRef_injective _ e) (show (cc0_scratch8 : Ref sig .scVector) ≠ cc0_scratch4 by decide)), Finset.mem_erase.mpr ⟨(fun e => absurd (Proc.devRef_injective _ e) (show (cc0_scratch8 : Ref sig .scVector) ≠ cc0_scratch3 by decide)), Finset.mem_erase.mpr ⟨(fun e => absurd (Proc.devRef_injective _ e) (show (cc0_scratch8 : Ref sig .scVector) ≠ cc0_scratch2 by decide)), Finset.mem_erase.mpr ⟨(fun e => absurd (Proc.devRef_injective _ e) (show (cc0_scratch8 : Ref sig .scVector) ≠ cc0_scratch1 by decide)), Finset.mem_erase.mpr ⟨(fun e => absurd (Proc.devRef_injective _ e) (show (cc0_scratch8 : Ref sig .scVector) ≠ cc0_scratch0 by decide)), SparseCore.Cfg.mem_ownRefs_of_owner (p := Proc.scVector (cV L) (jV L)) (b := ((Proc.scVector (cV L) (jV L)).devRef cc0_scratch8)) rfl⟩⟩⟩⟩⟩⟩⟩⟩)]

/-- What is left of the tile's own storage beside the nine buffers and twelve semaphores the kernel uses. -/
def restOwn : sProp 𝕄 :=
  iprop((bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f))
    ∗ bigSep (((((((((((((ownCells (thr d L)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scratch15.sem)).erase (thr d L, SemLoc.dma cc0_scratch16.sem)).erase (thr d L, SemLoc.dma cc0_scoped0.sem)).erase (thr d L, SemLoc.dma cc0_scoped1.sem)).erase (thr d L, SemLoc.dma cc0_scoped2.sem)).erase (thr d L, SemLoc.dma cc0_scoped3.sem)) fun g => semVal g 0)

/-- The kernel on the tile at `L`, as the launch states a tile's task: from what the tile is handed, its own storage and
    its debts, to the same. -/
theorem tile_body (hF : (K (F := F)).Facts) (hO : ∀ g, O g none = 0) :
    iprop(levAts (K (F := F)).L (K (F := F)).lev ∗ emp ∗ goRes d L qc qr q9 q10 q11 q12 fc fr f0 f1
        ∗ scopedBufs (thr d L) ∗ scopedSems0 (thr d L) ∗ owes (thr d L) O W)
      ⊢ (wp frame (wpE (defs₀ (F := F)) 𝒱₀ (thr d L) none) Set.univ (bodyAt (F := F) L)
          fun _ => iprop(goRes d L qc qr q9 q10 q11 q12 fc fr f0 f1 ∗ scopedBufs (thr d L) ∗ scopedSems0 (thr d L)
            ∗ ∃ W', ⌜∀ p ∈ W', p ∈ W ∨ p.2 = none⌝ ∗ owes (thr d L) O W') : sProp 𝕄) := by
  rw [(K (F := F)).scopedBufs_V hF d (cV L) (jV L), SparseCore.Cfg.scopedSems0_V (Val := Elt F) d (cV L) (jV L), ownSems0_V, ownBufs_V]
  refine BIBase.Entails.trans ?pre ((body_core d L O W qc qr q9 q10 q11 q12 fc fr f0 f1 (restOwn (F := F) d L)).trans (wp_mono frame _ _ fun _ => ?post))
  case pre =>
    unfold scratchRes semsRes restOwn
    iintro ⟨#Hlv, -, Hgo, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, Hbufs⟩, ⟨C0, C1, C2, C3, C4, C5, C6, C7, C8, C9, C10, C11, Hsems⟩, HO⟩
    ihave Hmw := ((K (F := F)).mayWaits_none (thr := thr d L) hO) $$ Hlv
    isplitl [Hmw]; · iexact Hmw
    isplitl [HO]; · iexact HO
    isplitl [Hgo]; · iexact Hgo
    isplitl [B0 B1 B2 B3 B4 B5 B6 B7 B8]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      iexists _; iexact B8
    isplitl [C0 C1 C2 C3 C4 C5 C6 C7 C8 C9 C10 C11]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      iexact C11
    isplitl [Hbufs]; · iexact Hbufs
    iexact Hsems
  case post =>
    unfold scratchRes semsRes restOwn
    iintro ⟨Hgo, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩⟩, ⟨C0, C1, C2, C3, C4, C5, C6, C7, C8, C9, C10, C11⟩, ⟨Hbufs, Hsems⟩, HO⟩
    isplitl [Hgo]; · iexact Hgo
    isplitl [B0 B1 B2 B3 B4 B5 B6 B7 B8 Hbufs]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      iexact Hbufs
    isplitl [C0 C1 C2 C3 C4 C5 C6 C7 C8 C9 C10 C11 Hsems]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      iexact Hsems
    iexact HO

end Cert.Proof.KI

end
-- ==== Proof.KIObl.lean ====
/-
  The call as the launch sees it. The two SparseCores run the kernel on their sixteen tiles each; a tile's share of the
  call is: a read share of each of the two tables and two of each of the two input arrays (one per buffer pair), its
  thirty-two 16-row slices of each output array, and its 512 words of each bound vector. Every tile's share goes out
  with the call and comes back with it; the kernel owes nothing for a protocol of its own.
-/
import proofs.«214425_g62758062129325_cont_9to1_m_981_19_alg».proof.Proof.KIBody

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- The grid coordinates of the tile with sequencer `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = grid0.bound 0 := rfl
theorem nSub_zero : (K (F := F)).nSub 0 = grid0.bound 1 := rfl

/-- The read shares a tile gets of an array every tile reads: the array's share is halved between the two SparseCores,
    a SparseCore's half is dealt to its sixteen tiles twice over (once per buffer pair). -/
abbrev coreShare (c : Fin (grid0.bound 0)) : PosShare TreeShare := Transfers.shareTok fullShare (grid0.bound 0) c
abbrev shareA (c : Fin (grid0.bound 0)) (i : Fin (grid0.bound 1)) : PosShare TreeShare := Transfers.shareTok (coreShare c) (grid0.bound 1) i
abbrev shareB (c : Fin (grid0.bound 0)) (i : Fin (grid0.bound 1)) : PosShare TreeShare :=
  Transfers.shareTok (Transfers.shareDrop (coreShare c) (grid0.bound 1)) (grid0.bound 1) i

/-- What the tile `(c, i)` is handed and hands back: its read shares of the two tables at some contents and of the two input
    arrays at the launch memory's, its slices of the four results at some contents. -/
def tileRes (c : Fin (grid0.bound 0)) (i : Fin (grid0.bound 1)) : sProp 𝕄 :=
  iprop(∃ fc fr, goRes d (coordsV c i) (shareA c i) (shareA c i) (shareA c i) (shareA c i) (shareB c i) (shareB c i) fc fr
    (m (lH.view.loc (thr d (coordsV c i)))) (m (uH.view.loc (thr d (coordsV c i)))))

set_option synthInstance.maxHeartbeats 1000000 in
instance outsAt_storable (k : Fin k0_t1_loop.trips) : BI.Storable (upEmb : UEmb _ 𝕄) (outsAt (F := F) d L k) := by
  unfold outsAt; infer_instance

set_option synthInstance.maxHeartbeats 1000000 in
instance goRes_storable (qc qr q9 q10 q11 q12 : PosShare TreeShare) (fc fr f0 f1) :
    BI.Storable (upEmb : UEmb _ 𝕄) (goRes (F := F) d L qc qr q9 q10 q11 q12 fc fr f0 f1) := by
  unfold goRes; infer_instance

set_option synthInstance.maxHeartbeats 1000000 in
instance tileRes_storable (c : Fin (grid0.bound 0)) (i : Fin (grid0.bound 1)) : BI.Storable (upEmb : UEmb _ 𝕄) (tileRes d m c i) := by
  unfold tileRes; infer_instance

/-- The one call: every tile's share goes out with the call and comes back with it. -/
def P : (K (F := F)).Pay (nD := nD) (Val := Elt F) (Name := ℕ) (U := UU) where
  st := fun q d c => match q with | 0 => bigSep Finset.univ fun i : Fin (grid0.bound 1) => tileRes d m (Fin.cast nCore_zero c) i
  dn := fun q d c => match q with | 0 => bigSep Finset.univ fun i : Fin (grid0.bound 1) => tileRes d m (Fin.cast nCore_zero c) i
  go := fun q d c i => match q with | 0 => tileRes d m (Fin.cast nCore_zero c) (Fin.cast nSub_zero i)
  td := fun q d c i => match q with | 0 => tileRes d m (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun i : Fin (grid0.bound 1) => tileRes d m (Fin.cast nCore_zero c) i))
  dn q d c := match q with | 0 => (inferInstance : BI.Storable (upEmb : UEmb _ 𝕄) (bigSep Finset.univ fun i : Fin (grid0.bound 1) => tileRes d m (Fin.cast nCore_zero c) i))
  go q d c i := match q with | 0 => (inferInstance : BI.Storable (upEmb : UEmb _ 𝕄) (tileRes d m (Fin.cast nCore_zero c) (Fin.cast nSub_zero i)))
  td q d c i := match q with | 0 => (inferInstance : BI.Storable (upEmb : UEmb _ 𝕄) (tileRes d m (Fin.cast nCore_zero c) (Fin.cast nSub_zero i)))

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_task (c : Fin (grid0.bound 0)) (i : Fin (grid0.bound 1)) (O : CellTallies nD τ sig (HIx 1)) (W : Waits sig (HIx 1))
    (hO : ∀ g, O g none = 0) :
    iprop(levAts (K (F := F)).L (K (F := F)).lev ∗ emp ∗ tileRes d m c i
        ∗ scopedBufs (thr d (coordsV c i)) ∗ scopedSems0 (thr d (coordsV c i)) ∗ owes (thr d (coordsV c i)) O W)
      ⊢ (wp frame (wpE (defs₀ (F := F)) 𝒱₀ (thr d (coordsV c i)) none) Set.univ (bodyAt (F := F) (coordsV c i))
          fun _ => iprop(tileRes d m c i ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') : sProp 𝕄) := by
  unfold tileRes
  iintro ⟨Hlv, He, ⟨%fc, %fr, Hgo⟩, Hsb, Hss, HO⟩
  iapply (wp_mono frame _ _ fun _ => ?_)
  rotate_left
  · iapply (tile_body d (coordsV c i) O W _ _ _ _ _ _ fc fr _ _ facts hO)
    isplitl [Hlv]; · iexact Hlv
    isplitl [He]; · iexact He
    isplitl [Hgo]; · iexact Hgo
    isplitl [Hsb]; · iexact Hsb
    isplitl [Hss]; · iexact Hss
    iexact HO
  · iintro ⟨Hgo, Hsb, Hss, HO⟩
    iapply (obl_post (q := (0 : Fin 1)))
    isplitl [Hgo]; · iexists fc; iexists fr; iexact Hgo
    isplitl [Hsb]; · iexact Hsb
    isplitl [Hss]; · iexact Hss
    iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_task d m ⟨_, hc.1⟩ ⟨_, hc.2⟩ O W hO

end Cert.Proof.KI

end
-- ==== Proof.KIGeom.lean ====
/-
  How the arrays of the call divide among the tiles. Tile number w = 2·subcore + SparseCore works on rows
  [512·w, 512·w + 512) of the 16384 rows of a coefficient array (batch w / 4, rows 512·(w mod 4) onwards), in chunks of
  16 rows: the chunk with number 32·w + 2·trip + position. Distinct (tile, trip, position) give distinct chunk numbers,
  so the slices are pairwise disjoint. A tile's 512 words of a bound vector are those with index / 512 = w: pairwise
  disjoint, and together all 16384. An array that every tile only reads is shared out by halving its share.
-/
import proofs.«214425_g62758062129325_cont_9to1_m_981_19_alg».proof.Proof.KIObl

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

/-- The tile's number: tiles are numbered along the subcores first, two SparseCores to a subcore number. -/
def wid (L : grid0.Coords) : Nat := 2 * (L 1).val + (L 0).val

omit [FloatOps F] in
theorem off104_eq : ∀ (i : grid0.Coords) (k : Fin k0_t1_loop.trips),
    k0_off104 i k = ![(2 * (i 1).val + (i 0).val) / 4, ((2 * (i 1).val + (i 0).val) % 4) * 512 + 32 * k.val, 0] := by decide +kernel
omit [FloatOps F] in
theorem off105_eq : ∀ (i : grid0.Coords) (k : Fin k0_t1_loop.trips),
    k0_off105 i k = ![(2 * (i 1).val + (i 0).val) / 4, ((2 * (i 1).val + (i 0).val) % 4) * 512 + 32 * k.val + 16, 0] := by decide +kernel

/-- The number of the 16-row chunk an element of a coefficient array lies in, counting chunks through the batches. -/
def chunkId (x : S8x2048x785.Idx) : Nat := ((x 0).val * 2048 + (x 1).val) / 16

abbrev rectA (k : Fin k0_t1_loop.trips) : Rect S8x2048x785 := Rect.unit (s := S8x2048x785) (k0_off104 L k) S1x16x785.size (k0_off104_inb L k)
abbrev rectB (k : Fin k0_t1_loop.trips) : Rect S8x2048x785 := Rect.unit (s := S8x2048x785) (k0_off105 L k) S1x16x785.size (k0_off105_inb L k)

omit [FloatOps F] in
theorem outA_set (k : Fin k0_t1_loop.trips) : (outA L k).view.set = (rectA L k).set := by
  show (((loH : Memref sig .scVector .hbm S8x2048x785 .f32).view.slice (rectA L k)).reshape S16x785 squeezes_S1x16x785_S16x785.numel_eq).set = _
  rw [View.set_reshape]; exact View.set_slice_whole _ _
omit [FloatOps F] in
theorem outA'_set (k : Fin k0_t1_loop.trips) : (outA' L k).view.set = (rectA L k).set := by
  show (((uoH : Memref sig .scVector .hbm S8x2048x785 .f32).view.slice (rectA L k)).reshape S16x785 squeezes_S1x16x785_S16x785.numel_eq).set = _
  rw [View.set_reshape]; exact View.set_slice_whole _ _
omit [FloatOps F] in
theorem outB_set (k : Fin k0_t1_loop.trips) : (outB L k).view.set = (rectB L k).set := by
  show (((loH : Memref sig .scVector .hbm S8x2048x785 .f32).view.slice (rectB L k)).reshape S16x785 squeezes_S1x16x785_S16x785.numel_eq).set = _
  rw [View.set_reshape]; exact View.set_slice_whole _ _
omit [FloatOps F] in
theorem outB'_set (k : Fin k0_t1_loop.trips) : (outB' L k).view.set = (rectB L k).set := by
  show (((uoH : Memref sig .scVector .hbm S8x2048x785 .f32).view.slice (rectB L k)).reshape S16x785 squeezes_S1x16x785_S16x785.numel_eq).set = _
  rw [View.set_reshape]; exact View.set_slice_whole _ _

omit [FloatOps F] in
/-- An element of a tile's chunk lies in the chunk numbered by tile and chunk. -/
theorem chunk_A (k : Fin k0_t1_loop.trips) {x : S8x2048x785.Idx} (hx : x ∈ (rectA L k).set) : chunkId x = 32 * wid L + 2 * k.val := by
  have h := Rect.mem_set_unit.mp hx
  have h0 := h 0; have h1 := h 1
  rw [off104_eq] at h0 h1
  have hw : wid L < 32 := by unfold wid; have := (L 1).isLt; have := (L 0).isLt; simp [grid0, Pipeline.Grid.bound] at *; omega
  have hk : k.val < 16 := lt_of_lt_of_le k.isLt k0_t1_abs.2.1
  simp only [Matrix.cons_val_zero, Matrix.cons_val_one, Matrix.head_cons, S1x16x785] at h0 h1
  unfold chunkId wid at *
  omega
omit [FloatOps F] in
theorem chunk_B (k : Fin k0_t1_loop.trips) {x : S8x2048x785.Idx} (hx : x ∈ (rectB L k).set) : chunkId x = 32 * wid L + 2 * k.val + 1 := by
  have h := Rect.mem_set_unit.mp hx
  have h0 := h 0; have h1 := h 1
  rw [off105_eq] at h0 h1
  have hw : wid L < 32 := by unfold wid; have := (L 1).isLt; have := (L 0).isLt; simp [grid0, Pipeline.Grid.bound] at *; omega
  have hk : k.val < 16 := lt_of_lt_of_le k.isLt k0_t1_abs.2.1
  simp only [Matrix.cons_val_zero, Matrix.cons_val_one, Matrix.head_cons, S1x16x785] at h0 h1
  unfold chunkId wid at *
  omega

/-! ## The slices of an output coefficient array: pairwise disjoint -/

abbrev T4 : Type := Fin (grid0.bound 0) × Fin (grid0.bound 1) × Fin k0_t1_loop.trips × Fin 2

/-- The slice of a coefficient array numbered by SparseCore, subcore, trip and position of the chunk in the trip. -/
def slSet (t : T4) : Finset S8x2048x785.Idx :=
  if t.2.2.2 = 0 then (rectA (coordsV t.1 t.2.1) t.2.2.1).set else (rectB (coordsV t.1 t.2.1) t.2.2.1).set

omit [FloatOps F] in
theorem wid_coordsV (c : Fin (grid0.bound 0)) (i : Fin (grid0.bound 1)) : wid (coordsV c i) = 2 * i.val + c.val := rfl

omit [FloatOps F] in
theorem slSet_chunk {t : T4} {x : S8x2048x785.Idx} (hx : x ∈ slSet t) :
    chunkId x = 32 * (2 * t.2.1.val + t.1.val) + 2 * t.2.2.1.val + t.2.2.2.val := by
  unfold slSet at hx
  split at hx
  · rename_i h; rw [chunk_A _ _ hx, wid_coordsV, h]; rfl
  · rename_i h
    have h1 : t.2.2.2.val = 1 := by have := t.2.2.2.isLt; have : t.2.2.2.val ≠ 0 := fun e => h (Fin.ext e); omega
    rw [chunk_B _ _ hx, wid_coordsV, h1]

omit [FloatOps F] in
theorem slSet_disjoint : ∀ t ∈ (Finset.univ : Finset T4), ∀ t' ∈ (Finset.univ : Finset T4), t ≠ t' → Disjoint (slSet t) (slSet t') := by
  intro t _ t' _ hne
  refine Finset.disjoint_left.mpr fun x h1 h2 => hne ?_
  have e := (slSet_chunk h1).symm.trans (slSet_chunk h2)
  obtain ⟨c, i, k, b⟩ := t
  obtain ⟨c', i', k', b'⟩ := t'
  have hc : c.val < 2 := c.isLt
  have hc' : c'.val < 2 := c'.isLt
  have hi : i.val < 16 := i.isLt
  have hi' : i'.val < 16 := i'.isLt
  have hk : k.val < 16 := lt_of_lt_of_le k.isLt k0_t1_abs.2.1
  have hk' : k'.val < 16 := lt_of_lt_of_le k'.isLt k0_t1_abs.2.1
  have hb := b.isLt; have hb' := b'.isLt
  dsimp only at e
  have e1 : c.val = c'.val := by omega
  have e2 : i.val = i'.val := by omega
  have e3 : k.val = k'.val := by omega
  have e4 : b.val = b'.val := by omega
  rw [Fin.ext e1, Fin.ext e2, Fin.ext e3, Fin.ext e4]

variable {ℓ : Loc nD τ sig}

omit [FloatOps F] in
/-- Two nested families over the tiles, side by side, are one nested family of pairs. -/
theorem nest2 {α β : Type} [Fintype α] [Fintype β] (Φ Ψ : α → β → sProp 𝕄) :
    (iprop((bigSep Finset.univ fun a => bigSep Finset.univ (Φ a)) ∗ (bigSep Finset.univ fun a => bigSep Finset.univ (Ψ a))) : sProp 𝕄)
      = bigSep Finset.univ fun a => bigSep Finset.univ fun b => iprop(Φ a b ∗ Ψ a b) := by
  rw [← bigSep_sep']
  exact bigSep_congr fun a _ => (bigSep_sep' _ _ _).symm

omit [FloatOps F] in
/-- A coefficient array held whole yields every tile's slices of it (and something left over, let go). -/
theorem coef_split (ℓ : Loc nD τ sig) (hI : Idx ℓ = S8x2048x785.Idx) (f : Buf (Elt F) ℓ) (K' : T4 → Finset (Idx ℓ))
    (hK : ∀ t ∈ (Finset.univ : Finset T4), ∀ t' ∈ (Finset.univ : Finset T4), t ≠ t' → Disjoint (K' t) (K' t')) :
    (ℓ ↦{fullShare} f : sProp 𝕄)
      ⊢ bigSep Finset.univ fun c => bigSep Finset.univ fun i => bigSep Finset.univ fun k =>
          iprop((ℓ ↦[K' (c, i, k, 0)]{fullShare} f) ∗ (ℓ ↦[K' (c, i, k, 1)]{fullShare} f)) := by
  refine (pointsTo_split_subset (Finset.subset_univ (Finset.univ.biUnion K'))).1.trans (sep_elim_left.trans ?_)
  rw [pointsTo_biUnion Finset.univ K' hK]
  simp only [bigSep_univ_prod, bigSep_univ_two]
  exact .rfl

/-! ## A tile's 512 words of a bound vector: pairwise disjoint, and together the whole vector -/

abbrev T2 : Type := Fin (grid0.bound 0) × Fin (grid0.bound 1)

abbrev rectV (L : grid0.Coords) : Rect S16384 := Rect.unit (s := S16384) (k0_off161 L) S512.size (k0_off161_inb L)
def vSet (t : T2) : Finset S16384.Idx := (rectV (coordsV t.1 t.2)).set

omit [FloatOps F] in
theorem plbSl_set : (plbSl L).view.set = (rectV L).set := View.set_slice_whole _ _
omit [FloatOps F] in
theorem pubSl_set : (pubSl L).view.set = (rectV L).set := View.set_slice_whole _ _

omit [FloatOps F] in
theorem mem_vSet {t : T2} {x : S16384.Idx} : x ∈ vSet t ↔ (x 0).val / 512 = 2 * t.2.val + t.1.val := by
  unfold vSet
  rw [Rect.mem_set_unit]
  constructor
  · intro h
    have h0 := h 0
    rw [k0_off161_eq] at h0
    have : (coordsV t.1 t.2 1).val = t.2.val := rfl
    have : (coordsV t.1 t.2 0).val = t.1.val := rfl
    simp only [Matrix.cons_val_zero, S512] at h0
    omega
  · intro h a
    have ha : a = 0 := Subsingleton.elim _ _
    subst ha
    rw [k0_off161_eq]
    have : (coordsV t.1 t.2 1).val = t.2.val := rfl
    have : (coordsV t.1 t.2 0).val = t.1.val := rfl
    simp only [Matrix.cons_val_zero, S512]
    omega

omit [FloatOps F] in
theorem vSet_disjoint : ∀ t ∈ (Finset.univ : Finset T2), ∀ t' ∈ (Finset.univ : Finset T2), t ≠ t' → Disjoint (vSet t) (vSet t') := by
  intro t _ t' _ hne
  refine Finset.disjoint_left.mpr fun x h1 h2 => hne ?_
  have e := (mem_vSet.mp h1).symm.trans (mem_vSet.mp h2)
  obtain ⟨c, i⟩ := t
  obtain ⟨c', i'⟩ := t'
  have hc : c.val < 2 := c.isLt
  have hc' : c'.val < 2 := c'.isLt
  dsimp only at e
  have e1 : c.val = c'.val := by omega
  have e2 : i.val = i'.val := by omega
  rw [Fin.ext e1, Fin.ext e2]

omit [FloatOps F] in
theorem vSet_cover : (Finset.univ : Finset T2).biUnion vSet = Finset.univ := by
  refine Finset.eq_univ_iff_forall.mpr fun x => Finset.mem_biUnion.mpr ?_
  have hx : (x 0).val < 16384 := (x 0).isLt
  refine ⟨(⟨(x 0).val / 512 % 2, show _ < 2 by omega⟩, ⟨(x 0).val / 512 / 2, show _ < 16 by omega⟩), Finset.mem_univ _, ?_⟩
  rw [mem_vSet]
  dsimp only
  omega

omit [FloatOps F] in
/-- A bound vector held whole is every tile's 512 words of it. -/
theorem vec_split (ℓ : Loc nD τ sig) (f : Buf (Elt F) ℓ) (K' : T2 → Finset (Idx ℓ))
    (hK : ∀ t ∈ (Finset.univ : Finset T2), ∀ t' ∈ (Finset.univ : Finset T2), t ≠ t' → Disjoint (K' t) (K' t'))
    (hc : (Finset.univ : Finset T2).biUnion K' = Finset.univ) :
    (ℓ ↦{fullShare} f : sProp 𝕄) = bigSep Finset.univ fun c => bigSep Finset.univ fun i => ℓ ↦[K' (c, i)]{fullShare} f := by
  rw [← bigSep_univ_prod (fun t : T2 => (ℓ ↦[K' t]{fullShare} f : sProp 𝕄)), ← pointsTo_biUnion Finset.univ K' hK, hc]

/-- Every tile's 512 words, each at some contents, are the whole vector at some contents. -/
theorem vec_join (ℓ : Loc nD τ sig) (f₀ : Buf (Elt F) ℓ) (K' : T2 → Finset (Idx ℓ))
    (hK : ∀ t ∈ (Finset.univ : Finset T2), ∀ t' ∈ (Finset.univ : Finset T2), t ≠ t' → Disjoint (K' t) (K' t'))
    (hc : (Finset.univ : Finset T2).biUnion K' = Finset.univ) :
    (bigSep Finset.univ fun c => bigSep Finset.univ fun i => iprop(∃ g, ℓ ↦[K' (c, i)]{fullShare} g) : sProp 𝕄) ⊢ iprop(∃ g, ℓ ↦{fullShare} g) := by
  rw [← bigSep_univ_prod (fun t : T2 => (iprop(∃ g, ℓ ↦[K' t]{fullShare} g) : sProp 𝕄))]
  haveI : Nonempty (Buf (Elt F) ℓ) := ⟨f₀⟩
  refine (bigSep_exists_pi Finset.univ (fun (t : T2) (g : Buf (Elt F) ℓ) => (ℓ ↦[K' t]{fullShare} g : sProp 𝕄))).trans ?_
  iintro ⟨%fs, H⟩
  ihave H' := (pointsTo_biUnion_join Finset.univ K' fs f₀ hK) $$ H
  icases H' with ⟨%g, -, Hg⟩
  rw [hc]
  iexists g; iexact Hg

/-! ## The read shares -/

omit [FloatOps F] in
/-- An array every tile reads, held whole, yields every tile's two read shares of it; something is left over. -/
theorem read_split (ℓ : Loc nD τ sig) (f : Buf (Elt F) ℓ) :
    (ℓ ↦{fullShare} f : sProp 𝕄)
      ⊢ iprop((ℓ ↦{Transfers.shareDrop fullShare (grid0.bound 0)} f)
          ∗ bigSep Finset.univ fun c => bigSep Finset.univ fun i => iprop((ℓ ↦{shareA c i} f) ∗ (ℓ ↦{shareB c i} f))) := by
  refine (Transfers.pointsTo_toks_split fullShare (grid0.bound 0)).trans (sep_mono_right (bigSep_mono fun c _ => ?_))
  rw [bigSep_sep']
  refine (Transfers.pointsTo_toks_split (coreShare c) (grid0.bound 1)).trans ?_
  iintro ⟨Hd, Ha⟩
  ihave Hb := (Transfers.pointsTo_toks_split (Transfers.shareDrop (coreShare c) (grid0.bound 1)) (grid0.bound 1)) $$ Hd
  icases Hb with ⟨-, Hb⟩
  isplitl [Ha]; · iexact Ha
  iexact Hb

end Cert.Proof.KI

end
-- ==== Proof.KIMain.lean ====
/-
  The program's run. On the TensorCore @main computes the two tables (centre and radius of the input box, each half a
  sum or difference of the box's two corners), hands every tile its share of the call, gets the shares back, and
  reshapes the two bound vectors. The arrays go out by shares and slices that are pairwise disjoint; the two bound
  vectors are put together again from the tiles' parts, which cover them. The four arguments are only read, and a share
  of each stays with the TensorCore throughout: at the end they hold what they held at the launch. Together with each
  tile's task this gives, by the launch theorem: every weakly fair execution of the device's thirty-five threads
  terminates, nothing faults, the arguments end unchanged.
-/
import proofs.«214425_g62758062129325_cont_9to1_m_981_19_alg».proof.Proof.KIGeom
import proofs.«214425_g62758062129325_cont_9to1_m_981_19_alg».proof.Proof.Gen.Pre_finite_inputs

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

variable (m : (ℓ : Loc nD τ sig) → Buf (Elt F) ℓ) (ρ : Dev nD → PrngReg)

abbrev rf (x : Ref sig .tc) : DevRef τ sig := Proc.devRef .tc x
abbrev tloc (d : Dev nD) (x : Ref sig .tc) : Loc nD τ sig := (SparseCore.T d).loc x

abbrev op1 : HloOp τ sig (Elt F) := StableHlo.binary main_arg2 main_arg3 main_v0 (addf : (⟨S784, .f32⟩ : BufTy).Contents (Elt F) → (⟨S784, .f32⟩ : BufTy).Contents (Elt F) → (⟨S784, .f32⟩ : BufTy).Contents (Elt F))
abbrev op2 : HloOp τ sig (Elt F) := StableHlo.nullary main_cst (constant S_ .f32 0x3F000000#32)
abbrev op3 : HloOp τ sig (Elt F) := StableHlo.unary main_cst main_v1 (broadcastInDim S784 ![] bcast_S_S784 : (⟨S_, .f32⟩ : BufTy).Contents (Elt F) → (⟨S784, .f32⟩ : BufTy).Contents (Elt F))
abbrev op4 : HloOp τ sig (Elt F) := StableHlo.binary main_v0 main_v1 main_v2 (mulf : (⟨S784, .f32⟩ : BufTy).Contents (Elt F) → (⟨S784, .f32⟩ : BufTy).Contents (Elt F) → (⟨S784, .f32⟩ : BufTy).Contents (Elt F))
abbrev op5 : HloOp τ sig (Elt F) := StableHlo.binary main_arg3 main_arg2 main_v3 (subf : (⟨S784, .f32⟩ : BufTy).Contents (Elt F) → (⟨S784, .f32⟩ : BufTy).Contents (Elt F) → (⟨S784, .f32⟩ : BufTy).Contents (Elt F))
abbrev op6 : HloOp τ sig (Elt F) := StableHlo.nullary main_cst_0 (constant S_ .f32 0x3F000000#32)
abbrev op7 : HloOp τ sig (Elt F) := StableHlo.unary main_cst_0 main_v4 (broadcastInDim S784 ![] bcast_S_S784 : (⟨S_, .f32⟩ : BufTy).Contents (Elt F) → (⟨S784, .f32⟩ : BufTy).Contents (Elt F))
abbrev op8 : HloOp τ sig (Elt F) := StableHlo.binary main_v3 main_v4 main_v5 (mulf : (⟨S784, .f32⟩ : BufTy).Contents (Elt F) → (⟨S784, .f32⟩ : BufTy).Contents (Elt F) → (⟨S784, .f32⟩ : BufTy).Contents (Elt F))
abbrev op9 : HloOp τ sig (Elt F) := StableHlo.reshape main_v6_2 main_v7 rfl shapeCasts_S16384_S8x2048
abbrev op10 : HloOp τ sig (Elt F) := StableHlo.reshape main_v6_3 main_v8 rfl shapeCasts_S16384_S8x2048

omit [FloatOps F] in
theorem unscopedBufs_eq (d : Dev nD) (W : (b : Ref sig .tc) → Buf (Elt F) ((d.tc : Thread nD τ).loc b)) :
    (unscopedBufs d W : sProp 𝕄) = iprop((tloc d main_arg0 ↦{fullShare} W main_arg0) ∗ (tloc d main_arg1 ↦{fullShare} W main_arg1) ∗ (tloc d main_arg2 ↦{fullShare} W main_arg2) ∗ (tloc d main_arg3 ↦{fullShare} W main_arg3) ∗ (tloc d main_v0 ↦{fullShare} W main_v0) ∗ (tloc d main_cst ↦{fullShare} W main_cst) ∗ (tloc d main_v1 ↦{fullShare} W main_v1) ∗ (tloc d main_v2 ↦{fullShare} W main_v2) ∗ (tloc d main_v3 ↦{fullShare} W main_v3) ∗ (tloc d main_cst_0 ↦{fullShare} W main_cst_0) ∗ (tloc d main_v4 ↦{fullShare} W main_v4) ∗ (tloc d main_v5 ↦{fullShare} W main_v5) ∗ (tloc d main_v6_0 ↦{fullShare} W main_v6_0) ∗ (tloc d main_v6_1 ↦{fullShare} W main_v6_1) ∗ (tloc d main_v6_2 ↦{fullShare} W main_v6_2) ∗ (tloc d main_v6_3 ↦{fullShare} W main_v6_3) ∗ (tloc d main_v7 ↦{fullShare} W main_v7) ∗ (tloc d main_v8 ↦{fullShare} W main_v8)) := by
  unfold unscopedBufs
  rw [show (Finset.univ.filter fun b : Ref sig .tc => ¬ b.isScoped) = {main_arg0, main_arg1, main_arg2, main_arg3, main_v0, main_cst, main_v1, main_v2, main_v3, main_cst_0, main_v4, main_v5, main_v6_0, main_v6_1, main_v6_2, main_v6_3, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers the host operations before the call read and write, and those the two after it do. -/
abbrev Spre : Finset (DevRef τ sig) := {rf main_arg2, rf main_arg3, rf main_v0, rf main_cst, rf main_v1, rf main_v2, rf main_v3, rf main_cst_0, rf main_v4, rf main_v5}
abbrev Spost : Finset (DevRef τ sig) := {rf main_v6_2, rf main_v6_3, rf main_v7, rf main_v8}

omit [FloatOps F] in
theorem held_Spre (d : Dev nD) (V : Valuation τ sig (Elt F)) :
    (held (T d) Spre V : sProp 𝕄) = iprop((tloc d main_arg2 ↦{fullShare} V (rf main_arg2)) ∗ (tloc d main_arg3 ↦{fullShare} V (rf main_arg3)) ∗ (tloc d main_v0 ↦{fullShare} V (rf main_v0)) ∗ (tloc d main_cst ↦{fullShare} V (rf main_cst)) ∗ (tloc d main_v1 ↦{fullShare} V (rf main_v1)) ∗ (tloc d main_v2 ↦{fullShare} V (rf main_v2)) ∗ (tloc d main_v3 ↦{fullShare} V (rf main_v3)) ∗ (tloc d main_cst_0 ↦{fullShare} V (rf main_cst_0)) ∗ (tloc d main_v4 ↦{fullShare} V (rf main_v4)) ∗ (tloc d main_v5 ↦{fullShare} V (rf main_v5))) := by
  unfold held Spre
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem held_Spost (d : Dev nD) (V : Valuation τ sig (Elt F)) :
    (held (T d) Spost V : sProp 𝕄) = iprop((tloc d main_v6_2 ↦{fullShare} V (rf main_v6_2)) ∗ (tloc d main_v6_3 ↦{fullShare} V (rf main_v6_3)) ∗ (tloc d main_v7 ↦{fullShare} V (rf main_v7)) ∗ (tloc d main_v8 ↦{fullShare} V (rf main_v8))) := by
  unfold held Spost
  rw [SparseCore.bigSep_insert' (by decide), SparseCore.bigSep_insert' (by decide), SparseCore.bigSep_insert' (by decide), bigSep_singleton]

/-- The launch valuation. -/
def V0 (d : Dev nD) : Valuation τ sig (Elt F) := fun b => m (d, b)
theorem hsub1 : (op1 (F := F)).bufs ⊆ Spre := show ({rf main_arg2, rf main_arg3, rf main_v0} : Finset (DevRef τ sig)) ⊆ Spre by decide
theorem hsub2 : (op2 (F := F)).bufs ⊆ Spre := show ({rf main_cst} : Finset (DevRef τ sig)) ⊆ Spre by decide
theorem hsub3 : (op3 (F := F)).bufs ⊆ Spre := show ({rf main_cst, rf main_v1} : Finset (DevRef τ sig)) ⊆ Spre by decide
theorem hsub4 : (op4 (F := F)).bufs ⊆ Spre := show ({rf main_v0, rf main_v1, rf main_v2} : Finset (DevRef τ sig)) ⊆ Spre by decide
theorem hsub5 : (op5 (F := F)).bufs ⊆ Spre := show ({rf main_arg3, rf main_arg2, rf main_v3} : Finset (DevRef τ sig)) ⊆ Spre by decide
theorem hsub6 : (op6 (F := F)).bufs ⊆ Spre := show ({rf main_cst_0} : Finset (DevRef τ sig)) ⊆ Spre by decide
theorem hsub7 : (op7 (F := F)).bufs ⊆ Spre := show ({rf main_cst_0, rf main_v4} : Finset (DevRef τ sig)) ⊆ Spre by decide
theorem hsub8 : (op8 (F := F)).bufs ⊆ Spre := show ({rf main_v3, rf main_v4, rf main_v5} : Finset (DevRef τ sig)) ⊆ Spre by decide
theorem hsub9 : (op9 (F := F)).bufs ⊆ Spost := show ({rf main_v6_2, rf main_v7} : Finset (DevRef τ sig)) ⊆ Spost by decide
theorem hsub10 : (op10 (F := F)).bufs ⊆ Spost := show ({rf main_v6_3, rf main_v8} : Finset (DevRef τ sig)) ⊆ Spost by decide

omit [FloatOps F] in
theorem slSet_zero (c : Fin (grid0.bound 0)) (i : Fin (grid0.bound 1)) (k : Fin k0_t1_loop.trips) :
    slSet (c, i, k, 0) = (rectA (coordsV c i) k).set := if_pos rfl
omit [FloatOps F] in
theorem slSet_one (c : Fin (grid0.bound 0)) (i : Fin (grid0.bound 1)) (k : Fin k0_t1_loop.trips) :
    slSet (c, i, k, 1) = (rectB (coordsV c i) k).set := if_neg (show ¬ ((1 : Fin 2) = 0) by decide)

/-- The part of each array of the call that goes to the tile `(c, i)`. -/
def tileParts (d : Dev nD) (fc : Buf (Elt F) (tloc d main_v2)) (fr : Buf (Elt F) (tloc d main_v5))
    (g0 : Buf (Elt F) (tloc d main_v6_0)) (g1 : Buf (Elt F) (tloc d main_v6_1)) (g2 : Buf (Elt F) (tloc d main_v6_2)) (g3 : Buf (Elt F) (tloc d main_v6_3))
    (c : Fin (grid0.bound 0)) (i : Fin (grid0.bound 1)) : sProp 𝕄 :=
  iprop(((tloc d main_v2 ↦{shareA c i} fc) ∗ (tloc d main_v2 ↦{shareB c i} fc))
    ∗ ((tloc d main_v5 ↦{shareA c i} fr) ∗ (tloc d main_v5 ↦{shareB c i} fr))
    ∗ ((tloc d main_arg0 ↦{shareA c i} m (tloc d main_arg0)) ∗ (tloc d main_arg0 ↦{shareB c i} m (tloc d main_arg0)))
    ∗ ((tloc d main_arg1 ↦{shareA c i} m (tloc d main_arg1)) ∗ (tloc d main_arg1 ↦{shareB c i} m (tloc d main_arg1)))
    ∗ (bigSep Finset.univ fun k : Fin k0_t1_loop.trips =>
        iprop((tloc d main_v6_0 ↦[slSet (c, i, k, 0)]{fullShare} g0) ∗ (tloc d main_v6_0 ↦[slSet (c, i, k, 1)]{fullShare} g0)))
    ∗ (bigSep Finset.univ fun k : Fin k0_t1_loop.trips =>
        iprop((tloc d main_v6_1 ↦[slSet (c, i, k, 0)]{fullShare} g1) ∗ (tloc d main_v6_1 ↦[slSet (c, i, k, 1)]{fullShare} g1)))
    ∗ (tloc d main_v6_2 ↦[vSet (c, i)]{fullShare} g2)
    ∗ (tloc d main_v6_3 ↦[vSet (c, i)]{fullShare} g3))

theorem tile_intro (d : Dev nD) (fc fr g0 g1 g2 g3) (c : Fin (grid0.bound 0)) (i : Fin (grid0.bound 1)) :
    tileParts m d fc fr g0 g1 g2 g3 c i ⊢ tileRes d m c i := by
  have houts : (iprop((bigSep Finset.univ fun k : Fin k0_t1_loop.trips =>
        iprop((tloc d main_v6_0 ↦[slSet (c, i, k, 0)]{fullShare} g0) ∗ (tloc d main_v6_0 ↦[slSet (c, i, k, 1)]{fullShare} g0)))
      ∗ (bigSep Finset.univ fun k : Fin k0_t1_loop.trips =>
        iprop((tloc d main_v6_1 ↦[slSet (c, i, k, 0)]{fullShare} g1) ∗ (tloc d main_v6_1 ↦[slSet (c, i, k, 1)]{fullShare} g1)))) : sProp 𝕄)
      ⊢ bigSep Finset.univ (outsAt (F := F) d (coordsV c i)) := by
    rw [← bigSep_sep']
    have hk : ∀ k : Fin k0_t1_loop.trips,
        (iprop(((tloc d main_v6_0 ↦[slSet (c, i, k, 0)]{fullShare} g0) ∗ (tloc d main_v6_0 ↦[slSet (c, i, k, 1)]{fullShare} g0))
          ∗ ((tloc d main_v6_1 ↦[slSet (c, i, k, 0)]{fullShare} g1) ∗ (tloc d main_v6_1 ↦[slSet (c, i, k, 1)]{fullShare} g1))) : sProp 𝕄)
          ⊢ outsAt (F := F) d (coordsV c i) k := by
      intro k
      unfold outsAt
      rw [outA_set, outA'_set, outB_set, outB'_set, slSet_zero, slSet_one]
      iintro ⟨⟨HA, HB⟩, ⟨HA', HB'⟩⟩
      isplitl [HA]; · iexists _; iexact HA
      isplitl [HA']; · iexists _; iexact HA'
      isplitl [HB]; · iexists _; iexact HB
      iexists _; iexact HB'
    exact bigSep_mono fun k _ => hk k
  unfold tileParts tileRes goRes
  iintro ⟨⟨C1, -⟩, ⟨R1, -⟩, ⟨LA, LB⟩, ⟨UA, UB⟩, Houts0, Houts1, G2, G3⟩
  iexists fc; iexists fr
  isplitl [C1]; · iexact C1
  isplitl [R1]; · iexact R1
  isplitl [LA]; · iexact LA
  isplitl [UA]; · iexact UA
  isplitl [LB]; · iexact LB
  isplitl [UB]; · iexact UB
  isplitl [Houts0 Houts1]
  · iapply houts
    isplitl [Houts0]; · iexact Houts0
    iexact Houts1
  isplitl [G2]
  · rw [plbSl_set]; iexists _; iexact G2
  rw [pubSl_set]; iexists _; iexact G3

/-- The arrays of the call, held whole, are every tile's share of them, and the remainders of the two input arrays. -/
theorem st_intro (d : Dev nD) (fc fr g0 g1 g2 g3) :
    iprop((tloc d main_v2 ↦{fullShare} fc) ∗ (tloc d main_v5 ↦{fullShare} fr)
        ∗ (tloc d main_arg0 ↦{fullShare} m (tloc d main_arg0)) ∗ (tloc d main_arg1 ↦{fullShare} m (tloc d main_arg1))
        ∗ (tloc d main_v6_0 ↦{fullShare} g0) ∗ (tloc d main_v6_1 ↦{fullShare} g1)
        ∗ (tloc d main_v6_2 ↦{fullShare} g2) ∗ (tloc d main_v6_3 ↦{fullShare} g3))
      ⊢ (iprop((tloc d main_arg0 ↦{Transfers.shareDrop fullShare (grid0.bound 0)} m (tloc d main_arg0))
          ∗ (tloc d main_arg1 ↦{Transfers.shareDrop fullShare (grid0.bound 0)} m (tloc d main_arg1))
          ∗ bigSep Finset.univ fun c => bigSep Finset.univ fun i => tileRes d m c i) : sProp 𝕄) := by
  iintro ⟨C, R, L, U0, G0, G1, G2, G3⟩
  ihave C' := (read_split (F := F) (tloc d main_v2) fc) $$ C
  ihave R' := (read_split (F := F) (tloc d main_v5) fr) $$ R
  ihave L' := (read_split (F := F) (tloc d main_arg0) _) $$ L
  ihave U' := (read_split (F := F) (tloc d main_arg1) _) $$ U0
  ihave G0' := (coef_split (F := F) (tloc d main_v6_0) rfl g0 slSet slSet_disjoint) $$ G0
  ihave G1' := (coef_split (F := F) (tloc d main_v6_1) rfl g1 slSet slSet_disjoint) $$ G1
  ihave G2' := (Entails.of_eq (vec_split (F := F) (tloc d main_v6_2) g2 vSet vSet_disjoint vSet_cover)) $$ G2
  ihave G3' := (Entails.of_eq (vec_split (F := F) (tloc d main_v6_3) g3 vSet vSet_disjoint vSet_cover)) $$ G3
  icases C' with ⟨-, C'⟩
  icases R' with ⟨-, R'⟩
  icases L' with ⟨Ld, L'⟩
  icases U' with ⟨Ud, U'⟩
  isplitl [Ld]; · iexact Ld
  isplitl [Ud]; · iexact Ud
  ihave H78 := (Entails.of_eq (nest2 (F := F) _ _)) $$ [G2' G3']
  · isplitl [G2']; · iexact G2'
    iexact G3'
  ihave H68 := (Entails.of_eq (nest2 (F := F) _ _)) $$ [G1' H78]
  · isplitl [G1']; · iexact G1'
    iexact H78
  ihave H58 := (Entails.of_eq (nest2 (F := F) _ _)) $$ [G0' H68]
  · isplitl [G0']; · iexact G0'
    iexact H68
  ihave H48 := (Entails.of_eq (nest2 (F := F) _ _)) $$ [U' H58]
  · isplitl [U']; · iexact U'
    iexact H58
  ihave H38 := (Entails.of_eq (nest2 (F := F) _ _)) $$ [L' H48]
  · isplitl [L']; · iexact L'
    iexact H48
  ihave H28 := (Entails.of_eq (nest2 (F := F) _ _)) $$ [R' H38]
  · isplitl [R']; · iexact R'
    iexact H38
  ihave H18 := (Entails.of_eq (nest2 (F := F) _ _)) $$ [C' H28]
  · isplitl [C']; · iexact C'
    iexact H28
  have hm : (bigSep Finset.univ fun c => bigSep Finset.univ fun i => tileParts m d fc fr g0 g1 g2 g3 c i : sProp 𝕄)
      ⊢ bigSep Finset.univ fun c => bigSep Finset.univ fun i => tileRes d m c i :=
    bigSep_mono (fun c _ => bigSep_mono (fun i _ => tile_intro m d fc fr g0 g1 g2 g3 c i))
  iapply hm
  iexact H18

theorem keeps_arg2 (d : Dev nD) : ((op8 (F := F)).result ((op7 (F := F)).result ((op6 (F := F)).result ((op5 (F := F)).result ((op4 (F := F)).result ((op3 (F := F)).result ((op2 (F := F)).result ((op1 (F := F)).result (V0 m d))))))))) (rf main_arg2) = m (tloc d main_arg2) := by
  rw [(op8 (F := F)).result_of_not_mem _ (b := rf main_arg2) (show rf main_arg2 ∉ ({rf main_v5} : Finset (DevRef τ sig)) by decide),
    (op7 (F := F)).result_of_not_mem _ (b := rf main_arg2) (show rf main_arg2 ∉ ({rf main_v4} : Finset (DevRef τ sig)) by decide),
    (op6 (F := F)).result_of_not_mem _ (b := rf main_arg2) (show rf main_arg2 ∉ ({rf main_cst_0} : Finset (DevRef τ sig)) by decide),
    (op5 (F := F)).result_of_not_mem _ (b := rf main_arg2) (show rf main_arg2 ∉ ({rf main_v3} : Finset (DevRef τ sig)) by decide),
    (op4 (F := F)).result_of_not_mem _ (b := rf main_arg2) (show rf main_arg2 ∉ ({rf main_v2} : Finset (DevRef τ sig)) by decide),
    (op3 (F := F)).result_of_not_mem _ (b := rf main_arg2) (show rf main_arg2 ∉ ({rf main_v1} : Finset (DevRef τ sig)) by decide),
    (op2 (F := F)).result_of_not_mem _ (b := rf main_arg2) (show rf main_arg2 ∉ ({rf main_cst} : Finset (DevRef τ sig)) by decide),
    (op1 (F := F)).result_of_not_mem _ (b := rf main_arg2) (show rf main_arg2 ∉ ({rf main_v0} : Finset (DevRef τ sig)) by decide)]
  rfl
theorem keeps_arg3 (d : Dev nD) : ((op8 (F := F)).result ((op7 (F := F)).result ((op6 (F := F)).result ((op5 (F := F)).result ((op4 (F := F)).result ((op3 (F := F)).result ((op2 (F := F)).result ((op1 (F := F)).result (V0 m d))))))))) (rf main_arg3) = m (tloc d main_arg3) := by
  rw [(op8 (F := F)).result_of_not_mem _ (b := rf main_arg3) (show rf main_arg3 ∉ ({rf main_v5} : Finset (DevRef τ sig)) by decide),
    (op7 (F := F)).result_of_not_mem _ (b := rf main_arg3) (show rf main_arg3 ∉ ({rf main_v4} : Finset (DevRef τ sig)) by decide),
    (op6 (F := F)).result_of_not_mem _ (b := rf main_arg3) (show rf main_arg3 ∉ ({rf main_cst_0} : Finset (DevRef τ sig)) by decide),
    (op5 (F := F)).result_of_not_mem _ (b := rf main_arg3) (show rf main_arg3 ∉ ({rf main_v3} : Finset (DevRef τ sig)) by decide),
    (op4 (F := F)).result_of_not_mem _ (b := rf main_arg3) (show rf main_arg3 ∉ ({rf main_v2} : Finset (DevRef τ sig)) by decide),
    (op3 (F := F)).result_of_not_mem _ (b := rf main_arg3) (show rf main_arg3 ∉ ({rf main_v1} : Finset (DevRef τ sig)) by decide),
    (op2 (F := F)).result_of_not_mem _ (b := rf main_arg3) (show rf main_arg3 ∉ ({rf main_cst} : Finset (DevRef τ sig)) by decide),
    (op1 (F := F)).result_of_not_mem _ (b := rf main_arg3) (show rf main_arg3 ∉ ({rf main_v0} : Finset (DevRef τ sig)) by decide)]
  rfl

theorem tile_vecs (d : Dev nD) (c : Fin (grid0.bound 0)) (i : Fin (grid0.bound 1)) :
    tileRes d m c i ⊢ (iprop((∃ g, tloc d main_v6_2 ↦[vSet (c, i)]{fullShare} g) ∗ (∃ g, tloc d main_v6_3 ↦[vSet (c, i)]{fullShare} g)) : sProp 𝕄) := by
  unfold tileRes goRes vSet
  rw [plbSl_set, pubSl_set]
  iintro ⟨%fc, %fr, -, -, -, -, -, -, -, ⟨%g2, G2⟩, ⟨%g3, G3⟩⟩
  isplitl [G2]; · iexists g2; iexact G2
  iexists g3; iexact G3

/-- What comes back from the call contains the two bound vectors whole, each at some contents. -/
theorem dn_vecs (d : Dev nD) :
    (bigSep Finset.univ fun c => bigSep Finset.univ fun i => tileRes d m c i : sProp 𝕄)
      ⊢ iprop((∃ g, tloc d main_v6_2 ↦{fullShare} g) ∗ (∃ g, tloc d main_v6_3 ↦{fullShare} g)) := by
  have h1 : (bigSep Finset.univ fun c => bigSep Finset.univ fun i => tileRes d m c i : sProp 𝕄)
      ⊢ bigSep Finset.univ fun c => bigSep Finset.univ fun i =>
          iprop((∃ g, tloc d main_v6_2 ↦[vSet (c, i)]{fullShare} g) ∗ (∃ g, tloc d main_v6_3 ↦[vSet (c, i)]{fullShare} g)) :=
    bigSep_mono fun c _ => bigSep_mono fun i _ => tile_vecs m d c i
  refine h1.trans ?_
  rw [← nest2]
  iintro ⟨H2, H3⟩
  isplitl [H2]
  · iapply (vec_join (F := F) (tloc d main_v6_2) (m _) vSet vSet_disjoint vSet_cover); iexact H2
  iapply (vec_join (F := F) (tloc d main_v6_3) (m _) vSet vSet_disjoint vSet_cover); iexact H3

theorem st0_eq (d : Dev nD) :
    (bigSep Finset.univ fun c : Fin ((K (F := F)).nCore 0) => (P m).st 0 d c) = bigSep Finset.univ fun c => bigSep Finset.univ fun i => tileRes d m c i := rfl
theorem dn0_eq (d : Dev nD) :
    (bigSep Finset.univ fun c : Fin ((K (F := F)).nCore 0) => (P m).dn 0 d c) = bigSep Finset.univ fun c => bigSep Finset.univ fun i => tileRes d m c i := rfl

/-- The valuation after the call: the two bound vectors at what came back. -/
def Vp (d : Dev nD) (g2 : Buf (Elt F) (tloc d main_v6_2)) (g3 : Buf (Elt F) (tloc d main_v6_3)) : Valuation τ sig (Elt F) :=
  Function.update (Function.update (V0 m d) (rf main_v6_2) g2) (rf main_v6_3) g3
theorem Vp_2 (d : Dev nD) (g2 g3) : Vp m d g2 g3 (rf main_v6_2) = g2 :=
  (Function.update_of_ne (show rf main_v6_2 ≠ rf main_v6_3 by decide) _ _).trans (Function.update_self _ _ _)
theorem Vp_3 (d : Dev nD) (g2 g3) : Vp m d g2 g3 (rf main_v6_3) = g3 := Function.update_self _ _ _
theorem Vp_7 (d : Dev nD) (g2 g3) : Vp m d g2 g3 (rf main_v7) = V0 m d (rf main_v7) :=
  (Function.update_of_ne (show rf main_v7 ≠ rf main_v6_3 by decide) _ _).trans (Function.update_of_ne (show rf main_v7 ≠ rf main_v6_2 by decide) _ _)
theorem Vp_8 (d : Dev nD) (g2 g3) : Vp m d g2 g3 (rf main_v8) = V0 m d (rf main_v8) :=
  (Function.update_of_ne (show rf main_v8 ≠ rf main_v6_3 by decide) _ _).trans (Function.update_of_ne (show rf main_v8 ≠ rf main_v6_2 by decide) _ _)

/-- What @main leaves the claim: the four arguments at their launch contents (of the two the tiles read, the share that
    stayed behind). -/
abbrev FIN (d : Dev nD) : sProp 𝕄 :=
  iprop((tloc d main_arg0 ↦{Transfers.shareDrop fullShare (grid0.bound 0)} m (tloc d main_arg0))
    ∗ (tloc d main_arg1 ↦{Transfers.shareDrop fullShare (grid0.bound 0)} m (tloc d main_arg1))
    ∗ (tloc d main_arg2 ↦{fullShare} m (tloc d main_arg2)) ∗ (tloc d main_arg3 ↦{fullShare} m (tloc d main_arg3)))

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ (wp frame (wpE ((K (F := F)).defs (D (F := F))) 𝒱 (SparseCore.T d) none) Set.univ (main d)
          fun _ => iprop((K (F := F)).tcSt EH d 1 ∗ FIN m d) : sProp 𝕄) := by
  unfold SparseCore.Cfg.tcRes
  rw [unscopedBufs_eq]
  simp only [main, wp_bind, wp_pure]
  iintro ⟨#Hctx, Hst, ⟨Hb, ⟨H_arg0, H_arg1, H_arg2, H_arg3, H_v0, H_cst, H_v1, H_v2, H_v3, H_cst_0, H_v4, H_v5, H_v6_0, H_v6_1, H_v6_2, H_v6_3, H_v7, H_v8⟩, -, -⟩, -⟩
  ihave Hpre := (Entails.of_eq (held_Spre (F := F) d (V0 m d)).symm) $$ [H_arg2 H_arg3 H_v0 H_cst H_v1 H_v2 H_v3 H_cst_0 H_v4 H_v5]
  · isplitl [H_arg2]; · iexact H_arg2
    isplitl [H_arg3]; · iexact H_arg3
    isplitl [H_v0]; · iexact H_v0
    isplitl [H_cst]; · iexact H_cst
    isplitl [H_v1]; · iexact H_v1
    isplitl [H_v2]; · iexact H_v2
    isplitl [H_v3]; · iexact H_v3
    isplitl [H_cst_0]; · iexact H_cst_0
    isplitl [H_v4]; · iexact H_v4
    iexact H_v5
  iapply (wp_hlo_within 𝒱 (SparseCore.T d) none Set.univ (op := op1) (S := Spre) (hsub1 (F := F)) (V := (V0 m d))) $$ [Hb Hpre]
  · isplitl [Hb]; · iexact Hb
    iexact Hpre
  iintro ⟨Hb, Hpre⟩
  rw [wp_ret]; imodintro
  iapply (wp_hlo_within 𝒱 (SparseCore.T d) none Set.univ (op := op2) (S := Spre) (hsub2 (F := F)) (V := ((op1 (F := F)).result (V0 m d)))) $$ [Hb Hpre]
  · isplitl [Hb]; · iexact Hb
    iexact Hpre
  iintro ⟨Hb, Hpre⟩
  rw [wp_ret]; imodintro
  iapply (wp_hlo_within 𝒱 (SparseCore.T d) none Set.univ (op := op3) (S := Spre) (hsub3 (F := F)) (V := ((op2 (F := F)).result ((op1 (F := F)).result (V0 m d))))) $$ [Hb Hpre]
  · isplitl [Hb]; · iexact Hb
    iexact Hpre
  iintro ⟨Hb, Hpre⟩
  rw [wp_ret]; imodintro
  iapply (wp_hlo_within 𝒱 (SparseCore.T d) none Set.univ (op := op4) (S := Spre) (hsub4 (F := F)) (V := ((op3 (F := F)).result ((op2 (F := F)).result ((op1 (F := F)).result (V0 m d)))))) $$ [Hb Hpre]
  · isplitl [Hb]; · iexact Hb
    iexact Hpre
  iintro ⟨Hb, Hpre⟩
  rw [wp_ret]; imodintro
  iapply (wp_hlo_within 𝒱 (SparseCore.T d) none Set.univ (op := op5) (S := Spre) (hsub5 (F := F)) (V := ((op4 (F := F)).result ((op3 (F := F)).result ((op2 (F := F)).result ((op1 (F := F)).result (V0 m d))))))) $$ [Hb Hpre]
  · isplitl [Hb]; · iexact Hb
    iexact Hpre
  iintro ⟨Hb, Hpre⟩
  rw [wp_ret]; imodintro
  iapply (wp_hlo_within 𝒱 (SparseCore.T d) none Set.univ (op := op6) (S := Spre) (hsub6 (F := F)) (V := ((op5 (F := F)).result ((op4 (F := F)).result ((op3 (F := F)).result ((op2 (F := F)).result ((op1 (F := F)).result (V0 m d)))))))) $$ [Hb Hpre]
  · isplitl [Hb]; · iexact Hb
    iexact Hpre
  iintro ⟨Hb, Hpre⟩
  rw [wp_ret]; imodintro
  iapply (wp_hlo_within 𝒱 (SparseCore.T d) none Set.univ (op := op7) (S := Spre) (hsub7 (F := F)) (V := ((op6 (F := F)).result ((op5 (F := F)).result ((op4 (F := F)).result ((op3 (F := F)).result ((op2 (F := F)).result ((op1 (F := F)).result (V0 m d))))))))) $$ [Hb Hpre]
  · isplitl [Hb]; · iexact Hb
    iexact Hpre
  iintro ⟨Hb, Hpre⟩
  rw [wp_ret]; imodintro
  iapply (wp_hlo_within 𝒱 (SparseCore.T d) none Set.univ (op := op8) (S := Spre) (hsub8 (F := F)) (V := ((op7 (F := F)).result ((op6 (F := F)).result ((op5 (F := F)).result ((op4 (F := F)).result ((op3 (F := F)).result ((op2 (F := F)).result ((op1 (F := F)).result (V0 m d)))))))))) $$ [Hb Hpre]
  · isplitl [Hb]; · iexact Hb
    iexact Hpre
  iintro ⟨Hb, Hpre⟩
  rw [wp_ret]; imodintro
  ihave Hp := (Entails.of_eq (held_Spre (F := F) d _)) $$ Hpre
  icases Hp with ⟨A2, A3, X0, XC, X1, X2, X3, XC0, X4, X5⟩
  ihave A2 := (Entails.of_eq (congrArg (fun f => (tloc d main_arg2 ↦{fullShare} f : sProp 𝕄)) (keeps_arg2 m d))) $$ A2
  ihave A3 := (Entails.of_eq (congrArg (fun f => (tloc d main_arg3 ↦{fullShare} f : sProp 𝕄)) (keeps_arg3 m d))) $$ A3
  ihave Hsh := (st_intro m d _ _ _ _ _ _) $$ [X2 X5 H_arg0 H_arg1 H_v6_0 H_v6_1 H_v6_2 H_v6_3]
  · isplitl [X2]; · iexact X2
    isplitl [X5]; · iexact X5
    isplitl [H_arg0]; · iexact H_arg0
    isplitl [H_arg1]; · iexact H_arg1
    isplitl [H_v6_0]; · iexact H_v6_0
    isplitl [H_v6_1]; · iexact H_v6_1
    isplitl [H_v6_2]; · iexact H_v6_2
    iexact H_v6_3
  icases Hsh with ⟨L0, U0, Htiles⟩
  iapply ((K (F := F)).wp_run (D (F := F)) 𝒱 (EH := EH) (P := P m) κ d 0) $$ [Hst Htiles Hb H_v7 H_v8 L0 U0 A2 A3]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hv := (dn_vecs m d) $$ Hdn'
  icases Hv with ⟨⟨%g2, G2⟩, ⟨%g3, G3⟩⟩
  ihave Hpost := (Entails.of_eq (held_Spost (F := F) d (Vp m d g2 g3)).symm) $$ [G2 G3 H_v7 H_v8]
  · rw [Vp_2, Vp_3, Vp_7, Vp_8]
    isplitl [G2]; · iexact G2
    isplitl [G3]; · iexact G3
    isplitl [H_v7]; · iexact H_v7
    iexact H_v8
  iapply (wp_hlo_within 𝒱 (SparseCore.T d) none Set.univ (op := op9) (S := Spost) (hsub9 (F := F)) (V := Vp m d g2 g3)) $$ [Hb Hpost]
  · isplitl [Hb]; · iexact Hb
    iexact Hpost
  iintro ⟨Hb, Hpost⟩
  rw [wp_ret]; imodintro
  iapply (wp_hlo_within 𝒱 (SparseCore.T d) none Set.univ (op := op10) (S := Spost) (hsub10 (F := F)) (V := (op9 (F := F)).result (Vp m d g2 g3))) $$ [Hb Hpost]
  · isplitl [Hb]; · iexact Hb
    iexact Hpost
  iintro ⟨Hb, Hpost⟩
  rw [wp_ret]; imodintro; imodintro
  isplitl [Hst]; · iexact Hst
  isplitl [L0]; · iexact L0
  isplitl [U0]; · iexact U0
  isplitl [A2]; · iexact A2
  iexact A3

theorem vecSplit : (K (F := F)).VecSplit' (P m) 0 := by
  intro d c
  show (bigSep Finset.univ fun i : Fin (grid0.bound 1) => tileRes d m (Fin.cast nCore_zero c) i : sProp 𝕄) ⊢ |={Set.univ}=> iprop(
      (bigSep Finset.univ fun i : Fin ((K (F := F)).nSub 0) => tileRes d m (Fin.cast nCore_zero c) (Fin.cast nSub_zero i))
      ∗ ((bigSep Finset.univ fun i : Fin ((K (F := F)).nSub 0) => tileRes d m (Fin.cast nCore_zero c) (Fin.cast nSub_zero i))
          -∗ (bigSep Finset.univ fun i : Fin (grid0.bound 1) => tileRes d m (Fin.cast nCore_zero c) i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The claim read off the final memory -/

def fq (d : Dev nD) (s' : Phys nD τ sig (Elt F)) : Prop :=
  s'.mem.mem (tloc d main_arg0) = m (tloc d main_arg0) ∧ s'.mem.mem (tloc d main_arg1) = m (tloc d main_arg1)
    ∧ s'.mem.mem (tloc d main_arg2) = m (tloc d main_arg2) ∧ s'.mem.mem (tloc d main_arg3) = m (tloc d main_arg3)

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := tloc d main_arg0) (I := Finset.univ) (f := m (tloc d main_arg0)))) $$ [HSI H0]
  · isplitl [HSI] <;> iassumption
  icases H with ⟨%h0, HSI, -⟩
  ihave H := (persistent_entails_right (SI_pointsTo_agree (st := s') (ℓ := tloc d main_arg1) (I := Finset.univ) (f := m (tloc d main_arg1)))) $$ [HSI H1]
  · isplitl [HSI] <;> iassumption
  icases H with ⟨%h1, HSI, -⟩
  ihave H := (persistent_entails_right (SI_pointsTo_agree (st := s') (ℓ := tloc d main_arg2) (I := Finset.univ) (f := m (tloc d main_arg2)))) $$ [HSI H2]
  · isplitl [HSI] <;> iassumption
  icases H with ⟨%h2, HSI, -⟩
  ihave H := (SI_pointsTo_agree (st := s') (ℓ := tloc d main_arg3) (I := Finset.univ) (f := m (tloc d main_arg3))) $$ [HSI H3]
  · isplitl [HSI] <;> iassumption
  icases H with %h3
  ipureintro
  exact ⟨funext fun i => h0 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (tloc c main_arg0) = m (tloc c main_arg0) ∧ r.2.mem (tloc c main_arg1) = m (tloc c main_arg1)
    ∧ r.2.mem (tloc c main_arg2) = m (tloc c main_arg2) ∧ r.2.mem (tloc c main_arg3) = m (tloc c main_arg3)

/-- Every weakly fair execution of the device's threads — @main on the TensorCore, the two sequencers, the thirty-two
    tiles — terminates without a fault, and the four arguments end as they began. -/
theorem run_main [∀ e, Nonempty (Elt F e)] :
    θ_run (defs (F := F)) (threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- `Cert.frame_KernelIdeal` (Defs.lean). -/
theorem frame : Cert.frame_KernelIdeal := fun m ρ _ =>
  (θ_run Cert.KernelIdeal.defs _ _).mono (fun _ h c => h c) (run_main (F := Ideal) m ρ)

end Cert.Proof.KI

end
-- ==== Proof.RefFrame.lean ====
/-
  The reference's frame: the host program of the reference runs to its end without a fault and leaves
  its four argument arrays as they were.
-/
import proofs.«214425_g62758062129325_cont_9to1_m_981_19_alg».proof.Defs
import proofs.«214425_g62758062129325_cont_9to1_m_981_19_alg».proof.Proof.Gen.ReferenceIdeal
import proofs.«214425_g62758062129325_cont_9to1_m_981_19_alg».proof.Proof.RefRunP
import proofs.«214425_g62758062129325_cont_9to1_m_981_19_alg».proof.Proof.Gen.Pre_finite_inputs

noncomputable section

open Idealize.ShloMosaic Idealize.SL.Sem

namespace Cert.Proof.RefFrame

/-- Every weakly fair execution of the reference's host program, from any memory with zero counters,
    terminates, and each of the four argument arrays holds afterwards what it held before. -/
theorem frame_ri : Cert.frame_ReferenceIdeal :=
  fun m ρ _ => Cert.ReferenceIdeal.ValueP.run_args (F := Ideal) m ρ

end Cert.Proof.RefFrame

end
-- ==== Proof.KIVRow.lean ====
/-
  One trip of a row loop, with what it leaves named: the two coefficient buffers, the reduction scratch being rewritten
  on the way, and the carried pair of bound vectors, each as a function of what the trip found. The functions are the
  trip's own operations composed; what they compute is read off them elsewhere.
-/
import proofs.«214425_g62758062129325_cont_9to1_m_981_19_alg».proof.Proof.KIRows

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (d : Dev nD) (L : grid0.Coords)

open Lean Elab Tactic Meta in
/-- Unfold every auxiliary definition of a run and every named payload in the goal. -/
elab "unfold_sl" : tactic => do
  let g ← getMainGoal
  let t ← instantiateMVars (← g.getType)
  let t' ← Lean.Meta.deltaExpand t (fun n => (n.components.any (· == `sl)) || ((n.toString.splitOn "k0_pay").length > 1))
  let g' ← g.replaceTargetDefEq t'
  replaceMainGoal [g']

set_option maxHeartbeats 4000000 in
/-- One trip of the first row loop with what it leaves: the two coefficient buffers and the carried pair as functions of what
    the trip found. -/
noncomputable def rowA_pack : Σ' (LF : (v29 : BitVec 32) → (v30 : FVec F S16 .f32) → (v31 : IVec S16 32) → (v33 : IVec S16 32) → (k0_hw1 : k0_chk1 v33) → (v35 : IVec S16 32) → (k0_hw2 : k0_chk2 v35) → (v37 : IVec S16 32) → (k0_hw3 : k0_chk3 v37) → (v39 : IVec S16 32) → (k0_hw4 : k0_chk4 v39) → (v41 : IVec S16 32) → (k0_hw5 : k0_chk5 v41) → (v43 : IVec S16 32) → (k0_hw6 : k0_chk6 v43) → (v45 : IVec S16 32) → (k0_hw7 : k0_chk7 v45) → (v47 : IVec S16 32) → (k0_hw8 : k0_chk8 v47) → (v49 : IVec S16 32) → (k0_hw9 : k0_chk9 v49) → (v51 : IVec S16 32) → (k0_hw10 : k0_chk10 v51) → (v53 : IVec S16 32) → (k0_hw11 : k0_chk11 v53) → (v55 : IVec S16 32) → (k0_hw12 : k0_chk12 v55) → (v57 : IVec S16 32) → (k0_hw13 : k0_chk13 v57) → (v59 : IVec S16 32) → (k0_hw14 : k0_chk14 v59) → (v61 : IVec S16 32) → (k0_hw15 : k0_chk15 v61) → (v63 : IVec S16 32) → (k0_hw16 : k0_chk16 v63) → (c0_i32_23 : BitVec 32) → (c1_i32_25 : BitVec 32) → (k0_t1 : Fin k0_t1_loop.trips) → (k : Fin k0_t2_loop.trips) → (acc : FVec F S16 .f32 × FVec F S16 .f32) → (c : Buf (Elt F) (cpV.view.loc (thr d L))) → (r : Buf (Elt F) (rpV.view.loc (thr d L))) → (a : Buf (Elt F) (laV.view.loc (thr d L))) → (b : Buf (Elt F) (uaV.view.loc (thr d L))) → (e : Buf (Elt F) (redV.view.loc (thr d L))) → Buf (Elt F) (laV.view.loc (thr d L)))
    (UF : (v29 : BitVec 32) → (v30 : FVec F S16 .f32) → (v31 : IVec S16 32) → (v33 : IVec S16 32) → (k0_hw1 : k0_chk1 v33) → (v35 : IVec S16 32) → (k0_hw2 : k0_chk2 v35) → (v37 : IVec S16 32) → (k0_hw3 : k0_chk3 v37) → (v39 : IVec S16 32) → (k0_hw4 : k0_chk4 v39) → (v41 : IVec S16 32) → (k0_hw5 : k0_chk5 v41) → (v43 : IVec S16 32) → (k0_hw6 : k0_chk6 v43) → (v45 : IVec S16 32) → (k0_hw7 : k0_chk7 v45) → (v47 : IVec S16 32) → (k0_hw8 : k0_chk8 v47) → (v49 : IVec S16 32) → (k0_hw9 : k0_chk9 v49) → (v51 : IVec S16 32) → (k0_hw10 : k0_chk10 v51) → (v53 : IVec S16 32) → (k0_hw11 : k0_chk11 v53) → (v55 : IVec S16 32) → (k0_hw12 : k0_chk12 v55) → (v57 : IVec S16 32) → (k0_hw13 : k0_chk13 v57) → (v59 : IVec S16 32) → (k0_hw14 : k0_chk14 v59) → (v61 : IVec S16 32) → (k0_hw15 : k0_chk15 v61) → (v63 : IVec S16 32) → (k0_hw16 : k0_chk16 v63) → (c0_i32_23 : BitVec 32) → (c1_i32_25 : BitVec 32) → (k0_t1 : Fin k0_t1_loop.trips) → (k : Fin k0_t2_loop.trips) → (acc : FVec F S16 .f32 × FVec F S16 .f32) → (c : Buf (Elt F) (cpV.view.loc (thr d L))) → (r : Buf (Elt F) (rpV.view.loc (thr d L))) → (a : Buf (Elt F) (laV.view.loc (thr d L))) → (b : Buf (Elt F) (uaV.view.loc (thr d L))) → (e : Buf (Elt F) (redV.view.loc (thr d L))) → Buf (Elt F) (uaV.view.loc (thr d L)))
    (AF : (v29 : BitVec 32) → (v30 : FVec F S16 .f32) → (v31 : IVec S16 32) → (v33 : IVec S16 32) → (k0_hw1 : k0_chk1 v33) → (v35 : IVec S16 32) → (k0_hw2 : k0_chk2 v35) → (v37 : IVec S16 32) → (k0_hw3 : k0_chk3 v37) → (v39 : IVec S16 32) → (k0_hw4 : k0_chk4 v39) → (v41 : IVec S16 32) → (k0_hw5 : k0_chk5 v41) → (v43 : IVec S16 32) → (k0_hw6 : k0_chk6 v43) → (v45 : IVec S16 32) → (k0_hw7 : k0_chk7 v45) → (v47 : IVec S16 32) → (k0_hw8 : k0_chk8 v47) → (v49 : IVec S16 32) → (k0_hw9 : k0_chk9 v49) → (v51 : IVec S16 32) → (k0_hw10 : k0_chk10 v51) → (v53 : IVec S16 32) → (k0_hw11 : k0_chk11 v53) → (v55 : IVec S16 32) → (k0_hw12 : k0_chk12 v55) → (v57 : IVec S16 32) → (k0_hw13 : k0_chk13 v57) → (v59 : IVec S16 32) → (k0_hw14 : k0_chk14 v59) → (v61 : IVec S16 32) → (k0_hw15 : k0_chk15 v61) → (v63 : IVec S16 32) → (k0_hw16 : k0_chk16 v63) → (c0_i32_23 : BitVec 32) → (c1_i32_25 : BitVec 32) → (k0_t1 : Fin k0_t1_loop.trips) → (k : Fin k0_t2_loop.trips) → (acc : FVec F S16 .f32 × FVec F S16 .f32) → (c : Buf (Elt F) (cpV.view.loc (thr d L))) → (r : Buf (Elt F) (rpV.view.loc (thr d L))) → (a : Buf (Elt F) (laV.view.loc (thr d L))) → (b : Buf (Elt F) (uaV.view.loc (thr d L))) → (e : Buf (Elt F) (redV.view.loc (thr d L))) → FVec F S16 .f32 × FVec F S16 .f32),
    ∀ (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec F S16 .f32 × FVec F S16 .f32) (c : Buf (Elt F) (cpV.view.loc (thr d L))) (r : Buf (Elt F) (rpV.view.loc (thr d L))) (a : Buf (Elt F) (laV.view.loc (thr d L))) (b : Buf (Elt F) (uaV.view.loc (thr d L))) (e : Buf (Elt F) (redV.view.loc (thr d L))),
      iprop((cpV.view.loc (thr d L) ↦{fullShare} c) ∗ (rpV.view.loc (thr d L) ↦{fullShare} r)
          ∗ (laV.view.loc (thr d L) ↦{fullShare} a) ∗ (uaV.view.loc (thr d L) ↦{fullShare} b)
          ∗ (redV.view.loc (thr d L) ↦{fullShare} e))
        ⊢ (wp frame (wpE (defs₀ (F := F)) 𝒱₀ (thr d L) none) Set.univ
            (k0_t2_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc) fun acc' =>
              iprop(⌜acc' = AF v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e⌝ ∗ (cpV.view.loc (thr d L) ↦{fullShare} c) ∗ (rpV.view.loc (thr d L) ↦{fullShare} r)
                ∗ (laV.view.loc (thr d L) ↦{fullShare} LF v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e) ∗ (uaV.view.loc (thr d L) ↦{fullShare} UF v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e)
                ∗ (∃ e', redV.view.loc (thr d L) ↦{fullShare} e')) : sProp 𝕄) := by
  refine ⟨?LF, ?UF, ?AF, ?main⟩
  case main =>
    intro v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e
    unfold k0_t2_body
    iintro ⟨HC, HR, HA, HB, HE⟩
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    sl_step
    isplitr; · ipureintro; rfl
    isplitl [HC]; · iexact HC
    isplitl [HR]; · iexact HR
    isplitl [HA]; · iexact HA
    isplitl [HB]; · iexact HB
    iexists _; iexact HE

set_option maxHeartbeats 4000000 in
/-- One trip of the second row loop with what it leaves: the two coefficient buffers and the carried pair as functions of what
    the trip found. -/
noncomputable def rowB_pack : Σ' (LF : (v29 : BitVec 32) → (v30 : FVec F S16 .f32) → (v31 : IVec S16 32) → (v33 : IVec S16 32) → (k0_hw1 : k0_chk1 v33) → (v35 : IVec S16 32) → (k0_hw2 : k0_chk2 v35) → (v37 : IVec S16 32) → (k0_hw3 : k0_chk3 v37) → (v39 : IVec S16 32) → (k0_hw4 : k0_chk4 v39) → (v41 : IVec S16 32) → (k0_hw5 : k0_chk5 v41) → (v43 : IVec S16 32) → (k0_hw6 : k0_chk6 v43) → (v45 : IVec S16 32) → (k0_hw7 : k0_chk7 v45) → (v47 : IVec S16 32) → (k0_hw8 : k0_chk8 v47) → (v49 : IVec S16 32) → (k0_hw9 : k0_chk9 v49) → (v51 : IVec S16 32) → (k0_hw10 : k0_chk10 v51) → (v53 : IVec S16 32) → (k0_hw11 : k0_chk11 v53) → (v55 : IVec S16 32) → (k0_hw12 : k0_chk12 v55) → (v57 : IVec S16 32) → (k0_hw13 : k0_chk13 v57) → (v59 : IVec S16 32) → (k0_hw14 : k0_chk14 v59) → (v61 : IVec S16 32) → (k0_hw15 : k0_chk15 v61) → (v63 : IVec S16 32) → (k0_hw16 : k0_chk16 v63) → (k : Fin k0_t3_loop.trips) → (acc : FVec F S16 .f32 × FVec F S16 .f32) → (c : Buf (Elt F) (cpV.view.loc (thr d L))) → (r : Buf (Elt F) (rpV.view.loc (thr d L))) → (a : Buf (Elt F) (lbV.view.loc (thr d L))) → (b : Buf (Elt F) (ubV.view.loc (thr d L))) → (e : Buf (Elt F) (redV.view.loc (thr d L))) → Buf (Elt F) (lbV.view.loc (thr d L)))
    (UF : (v29 : BitVec 32) → (v30 : FVec F S16 .f32) → (v31 : IVec S16 32) → (v33 : IVec S16 32) → (k0_hw1 : k0_chk1 v33) → (v35 : IVec S16 32) → (k0_hw2 : k0_chk2 v35) → (v37 : IVec S16 32) → (k0_hw3 : k0_chk3 v37) → (v39 : IVec S16 32) → (k0_hw4 : k0_chk4 v39) → (v41 : IVec S16 32) → (k0_hw5 : k0_chk5 v41) → (v43 : IVec S16 32) → (k0_hw6 : k0_chk6 v43) → (v45 : IVec S16 32) → (k0_hw7 : k0_chk7 v45) → (v47 : IVec S16 32) → (k0_hw8 : k0_chk8 v47) → (v49 : IVec S16 32) → (k0_hw9 : k0_chk9 v49) → (v51 : IVec S16 32) → (k0_hw10 : k0_chk10 v51) → (v53 : IVec S16 32) → (k0_hw11 : k0_chk11 v53) → (v55 : IVec S16 32) → (k0_hw12 : k0_chk12 v55) → (v57 : IVec S16 32) → (k0_hw13 : k0_chk13 v57) → (v59 : IVec S16 32) → (k0_hw14 : k0_chk14 v59) → (v61 : IVec S16 32) → (k0_hw15 : k0_chk15 v61) → (v63 : IVec S16 32) → (k0_hw16 : k0_chk16 v63) → (k : Fin k0_t3_loop.trips) → (acc : FVec F S16 .f32 × FVec F S16 .f32) → (c : Buf (Elt F) (cpV.view.loc (thr d L))) → (r : Buf (Elt F) (rpV.view.loc (thr d L))) → (a : Buf (Elt F) (lbV.view.loc (thr d L))) → (b : Buf (Elt F) (ubV.view.loc (thr d L))) → (e : Buf (Elt F) (redV.view.loc (thr d L))) → Buf (Elt F) (ubV.view.loc (thr d L)))
    (AF : (v29 : BitVec 32) → (v30 : FVec F S16 .f32) → (v31 : IVec S16 32) → (v33 : IVec S16 32) → (k0_hw1 : k0_chk1 v33) → (v35 : IVec S16 32) → (k0_hw2 : k0_chk2 v35) → (v37 : IVec S16 32) → (k0_hw3 : k0_chk3 v37) → (v39 : IVec S16 32) → (k0_hw4 : k0_chk4 v39) → (v41 : IVec S16 32) → (k0_hw5 : k0_chk5 v41) → (v43 : IVec S16 32) → (k0_hw6 : k0_chk6 v43) → (v45 : IVec S16 32) → (k0_hw7 : k0_chk7 v45) → (v47 : IVec S16 32) → (k0_hw8 : k0_chk8 v47) → (v49 : IVec S16 32) → (k0_hw9 : k0_chk9 v49) → (v51 : IVec S16 32) → (k0_hw10 : k0_chk10 v51) → (v53 : IVec S16 32) → (k0_hw11 : k0_chk11 v53) → (v55 : IVec S16 32) → (k0_hw12 : k0_chk12 v55) → (v57 : IVec S16 32) → (k0_hw13 : k0_chk13 v57) → (v59 : IVec S16 32) → (k0_hw14 : k0_chk14 v59) → (v61 : IVec S16 32) → (k0_hw15 : k0_chk15 v61) → (v63 : IVec S16 32) → (k0_hw16 : k0_chk16 v63) → (k : Fin k0_t3_loop.trips) → (acc : FVec F S16 .f32 × FVec F S16 .f32) → (c : Buf (Elt F) (cpV.view.loc (thr d L))) → (r : Buf (Elt F) (rpV.view.loc (thr d L))) → (a : Buf (Elt F) (lbV.view.loc (thr d L))) → (b : Buf (Elt F) (ubV.view.loc (thr d L))) → (e : Buf (Elt F) (redV.view.loc (thr d L))) → FVec F S16 .f32 × FVec F S16 .f32),
    ∀ (v29 : BitVec 32) (v30 : FVec F S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec F S16 .f32 × FVec F S16 .f32) (c : Buf (Elt F) (cpV.view.loc (thr d L))) (r : Buf (Elt F) (rpV.view.loc (thr d L))) (a : Buf (Elt F) (lbV.view.loc (thr d L))) (b : Buf (Elt F) (ubV.view.loc (thr d L))) (e : Buf (Elt F) (redV.view.loc (thr d L))),
      iprop((cpV.view.loc (thr d L) ↦{fullShare} c) ∗ (rpV.view.loc (thr d L) ↦{fullShare} r)
          ∗ (lbV.view.loc (thr d L) ↦{fullShare} a) ∗ (ubV.view.loc (thr d L) ↦{fullShare} b)
          ∗ (redV.view.loc (thr d L) ↦{fullShare} e))
        ⊢ (wp frame (wpE (defs₀ (F := F)) 𝒱₀ (thr d L) none) Set.univ
            (k0_t3_body (F := F) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) lbV (Memref.isWhole_whole _) ubV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc) fun acc' =>
              iprop(⌜acc' = AF v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e⌝ ∗ (cpV.view.loc (thr d L) ↦{fullShare} c) ∗ (rpV.view.loc (thr d L) ↦{fullShare} r)
                ∗ (lbV.view.loc (thr d L) ↦{fullShare} LF v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e) ∗ (ubV.view.loc (thr d L) ↦{fullShare} UF v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e)
                ∗ (∃ e', redV.view.loc (thr d L) ↦{fullShare} e')) : sProp 𝕄) := by
  refine ⟨?LF, ?UF, ?AF, ?main⟩
  case main =>
    intro v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e
    unfold k0_t3_body
    iintro ⟨HC, HR, HA, HB, HE⟩
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    ihave HE := (Entails.of_eq ((pts_red_view (F := F) d L _).trans (pts_red_access (F := F) d L _).symm)) $$ HE
    iapply (SparseCore.wp_vectorLoadIdx 𝒱₀ (thr d L) none Set.univ (base := redV) (S := Finset.univ) (q := fullShare) (Finset.subset_univ _)) $$ HE; iintro HE
    ihave HE := (Entails.of_eq ((pts_red_access (F := F) d L _).trans (pts_red_view (F := F) d L _).symm)) $$ HE
    set_option sl_exec.parts true in
    sl_exec
    sl_step
    isplitr; · ipureintro; rfl
    isplitl [HC]; · iexact HC
    isplitl [HR]; · iexact HR
    isplitl [HA]; · iexact HA
    isplitl [HB]; · iexact HB
    iexists _; iexact HE

end Cert.Proof.KI

end
-- ==== Proof.RefSpec.lean ====
/-
  What the reference computes, one entry at a time, on the extended reals.

  The arguments are two arrays `l`, `u` of 8 × 2048 affine forms over 784 inputs — row `(b, r)` holds the 784
  coefficients in columns 0 … 783 and the bias in column 784 — and the two corners `inl ≤ inu` of a box of inputs.
  An affine form is bounded over the box termwise: a coefficient's positive part `max 0 c` meets one corner and its
  negative part `min 0 c` the other. `lo e` is that bound with the positive parts at the LOWER corner (the least value
  of the form over the box), `hi e` with the positive parts at the UPPER corner (its greatest value):
      concLb = lo l,   maxLb = hi l,   concUb = hi u,   minUb = lo u.
  From the signs of these four numbers each row is classified (inactive, unstable, mostly inactive, mostly active,
  zero crossing), the two forms of the row are rescaled by the slopes `aL`, `aU` or replaced by zero accordingly, the
  upper form's bias is lowered by `biasAdj`, and the new forms are bounded over the box again: `postLb = lo lNew`,
  `postUb = hi uNew`. Every sum, product and comparison is the extended reals' own, in the order the reference
  writes them; the float words `0.0` and `1.0` are kept as the words they are.

  The second half turns one-bit conditions into propositions: a comparison's bit is `1` exactly when the order
  relation holds, a conjunction's or disjunction's bit when both or one of its operands' is, and a select on a bit
  is the choice `sel` on the proposition.
-/
import Idealize.ShloMosaic.PureOps.Ideal
import Idealize.ShloMosaic.Lib.ValueIdx

noncomputable section

open scoped BigOperators
open Idealize.ShloMosaic Idealize.ShloMosaic.ValueIdx

namespace Cert.Proof.RefSpec

/-- 8 × 2048 affine forms over 784 inputs: 784 coefficients and, in column 784, the bias. -/
abbrev Forms : Type := (⟨3, ![8, 2048, 785]⟩ : Shape).Idx → EReal
/-- A corner of the box of inputs. -/
abbrev Corner : Type := (⟨1, ![784]⟩ : Shape).Idx → EReal
/-- One number per row. -/
abbrev Rows : Type := (⟨2, ![8, 2048]⟩ : Shape).Idx → EReal

/-- The float word of `0.0`. -/
abbrev zeroW : EReal := Ideal.ofBits .f32 0x00000000#32
/-- The float word of `1.0`. -/
abbrev oneW : EReal := Ideal.ofBits .f32 0x3F800000#32

/-- Coefficient `k`'s column in a row of 785. -/
abbrev coef (k : Fin 784) : Fin 785 := ⟨k.val, Nat.lt_succ_of_lt k.isLt⟩
/-- The bias's column, the last of 785. -/
abbrev bias : Fin 785 := ⟨784, by decide⟩

/-- The least value of form `(b, r)` of `e` over the box: positive parts of the coefficients at the lower corner,
    negative parts at the upper corner, plus the bias. -/
def lo (e : Forms) (inl inu : Corner) (b : Fin 8) (r : Fin 2048) : EReal :=
  (∑ k : Fin 784, max zeroW (e (ix3 b r (coef k))) * inl (ix1 k))
    + (∑ k : Fin 784, min zeroW (e (ix3 b r (coef k))) * inu (ix1 k))
    + e (ix3 b r bias)

/-- The greatest value of form `(b, r)` of `e` over the box: positive parts at the upper corner, negative parts
    at the lower corner, plus the bias. -/
def hi (e : Forms) (inl inu : Corner) (b : Fin 8) (r : Fin 2048) : EReal :=
  (∑ k : Fin 784, max zeroW (e (ix3 b r (coef k))) * inu (ix1 k))
    + (∑ k : Fin 784, min zeroW (e (ix3 b r (coef k))) * inl (ix1 k))
    + e (ix3 b r bias)

/-- `|x|` on the extended reals. -/
def absE (x : EReal) : EReal := max x (-x)

/-- `x` where `P` holds and `y` where it does not. -/
def sel {α : Type} (P : Prop) (x y : α) : α := @ite α P (Classical.propDecidable P) x y

theorem sel_pos {α : Type} {P : Prop} (h : P) (x y : α) : sel P x y = x := by unfold sel; exact if_pos h
theorem sel_neg {α : Type} {P : Prop} (h : ¬P) (x y : α) : sel P x y = y := by unfold sel; exact if_neg h
/-- `sel` is the `if`, whatever decides `P`. -/
theorem sel_eq_ite {α : Type} (P : Prop) [Decidable P] (x y : α) : sel P x y = if P then x else y := by
  by_cases h : P
  · rw [sel_pos h, if_pos h]
  · rw [sel_neg h, if_neg h]
/-- Equivalent conditions select alike. -/
theorem sel_congr {α : Type} {P Q : Prop} (h : P ↔ Q) (x y : α) : sel P x y = sel Q x y := by
  rw [propext h]

section Row

/-- The least value of the lower form. -/
def concLb (l u : Forms) (inl inu : Corner) (b : Fin 8) (r : Fin 2048) : EReal := lo l inl inu b r
/-- The greatest value of the lower form. -/
def maxLb (l u : Forms) (inl inu : Corner) (b : Fin 8) (r : Fin 2048) : EReal := hi l inl inu b r
/-- The greatest value of the upper form. -/
def concUb (l u : Forms) (inl inu : Corner) (b : Fin 8) (r : Fin 2048) : EReal := hi u inl inu b r
/-- The least value of the upper form. -/
def minUb (l u : Forms) (inl inu : Corner) (b : Fin 8) (r : Fin 2048) : EReal := lo u inl inu b r

/-- The upper form is nowhere positive. -/
def inactive (l u : Forms) (inl inu : Corner) (b : Fin 8) (r : Fin 2048) : Prop := concUb l u inl inu b r ≤ zeroW
/-- The lower form goes below zero and the upper form above it. -/
def unstable (l u : Forms) (inl inu : Corner) (b : Fin 8) (r : Fin 2048) : Prop := concLb l u inl inu b r < zeroW ∧ zeroW < concUb l u inl inu b r
/-- Unstable, and either the lower bound is the larger in size or the lower form is nowhere positive. -/
def mostlyInactive (l u : Forms) (inl inu : Corner) (b : Fin 8) (r : Fin 2048) : Prop :=
  unstable l u inl inu b r
    ∧ (absE (concUb l u inl inu b r) < absE (concLb l u inl inu b r) ∨ maxLb l u inl inu b r ≤ zeroW)
/-- Unstable, and the lower bound is not the larger in size. -/
def mostlyActive (l u : Forms) (inl inu : Corner) (b : Fin 8) (r : Fin 2048) : Prop :=
  unstable l u inl inu b r ∧ absE (concLb l u inl inu b r) ≤ absE (concUb l u inl inu b r)
/-- Unstable, and the upper form reaches zero or below. -/
def zeroCrossing (l u : Forms) (inl inu : Corner) (b : Fin 8) (r : Fin 2048) : Prop := unstable l u inl inu b r ∧ minUb l u inl inu b r ≤ zeroW

/-- The lower form's slope: `maxLb / (maxLb - concLb)` on an unstable row (`maxLb / 1` otherwise), and zero where
    the lower form is nowhere positive. -/
def aL (l u : Forms) (inl inu : Corner) (b : Fin 8) (r : Fin 2048) : EReal :=
  sel (maxLb l u inl inu b r < zeroW) zeroW
    (Ideal.div (maxLb l u inl inu b r)
      (sel (unstable l u inl inu b r) (maxLb l u inl inu b r - concLb l u inl inu b r) oneW))

/-- The upper form's slope: `concUb / (concUb - minUb)` on a zero-crossing row, `concUb / 1` otherwise. -/
def aU (l u : Forms) (inl inu : Corner) (b : Fin 8) (r : Fin 2048) : EReal :=
  Ideal.div (concUb l u inl inu b r)
    (sel (zeroCrossing l u inl inu b r) (concUb l u inl inu b r - minUb l u inl inu b r) oneW)

/-- What the upper form's bias is lowered by: `aU · minUb` on a zero-crossing row, zero otherwise. -/
def biasAdj (l u : Forms) (inl inu : Corner) (b : Fin 8) (r : Fin 2048) : EReal :=
  sel (zeroCrossing l u inl inu b r) (aU l u inl inu b r * minUb l u inl inu b r) zeroW

/-- The new lower form's column `c`: scaled by `aL` on a mostly active row; else zero on an inactive or mostly
    inactive row; else unchanged. -/
def lNew (l u : Forms) (inl inu : Corner) (b : Fin 8) (r : Fin 2048) (c : Fin 785) : EReal :=
  sel (mostlyActive l u inl inu b r) (aL l u inl inu b r * l (ix3 b r c))
    (sel (inactive l u inl inu b r ∨ mostlyInactive l u inl inu b r) zeroW (l (ix3 b r c)))

/-- The upper form's column `c` after scaling: by `aU` on a zero-crossing row; else zero on an inactive row; else
    unchanged. -/
def uScaled (l u : Forms) (inl inu : Corner) (b : Fin 8) (r : Fin 2048) (c : Fin 785) : EReal :=
  sel (zeroCrossing l u inl inu b r) (aU l u inl inu b r * u (ix3 b r c))
    (sel (inactive l u inl inu b r) zeroW (u (ix3 b r c)))

/-- The new upper form's column `c`: the scaled form, its bias (column 784) with `-biasAdj` added. -/
def uNew (l u : Forms) (inl inu : Corner) (b : Fin 8) (r : Fin 2048) (c : Fin 785) : EReal :=
  sel (c = bias) (uScaled l u inl inu b r c + -(biasAdj l u inl inu b r)) (uScaled l u inl inu b r c)

end Row

/-- The new lower forms as an array. -/
def lNewArr (l u : Forms) (inl inu : Corner) : Forms := fun i => lNew l u inl inu (i 0) (i 1) (i 2)
/-- The new upper forms as an array. -/
def uNewArr (l u : Forms) (inl inu : Corner) : Forms := fun i => uNew l u inl inu (i 0) (i 1) (i 2)
/-- The least value of the new lower form of row `(b, r)`. -/
def postLb (l u : Forms) (inl inu : Corner) (b : Fin 8) (r : Fin 2048) : EReal := lo (lNewArr l u inl inu) inl inu b r
/-- The greatest value of the new upper form of row `(b, r)`. -/
def postUb (l u : Forms) (inl inu : Corner) (b : Fin 8) (r : Fin 2048) : EReal := hi (uNewArr l u inl inu) inl inu b r
/-- `postLb` as an array over the rows. -/
def postLbArr (l u : Forms) (inl inu : Corner) : Rows := fun i => postLb l u inl inu (i 0) (i 1)
/-- `postUb` as an array over the rows. -/
def postUbArr (l u : Forms) (inl inu : Corner) : Rows := fun i => postUb l u inl inu (i 0) (i 1)

/-! ## One-bit conditions as propositions -/

/-- A Boolean's bit is `1` exactly when it is true. -/
theorem ofBool_one (c : Bool) : BitVec.ofBool c = 1#1 ↔ c = true := by cases c <;> decide

/-- The bit of `x < y`. -/
theorem cmp_olt (x y : EReal) : Ideal.cmp .olt x y = 1#1 ↔ x < y := by
  simp only [Ideal.cmp, ofBool_one, decide_eq_true_eq]
/-- The bit of `x ≤ y`. -/
theorem cmp_ole (x y : EReal) : Ideal.cmp .ole x y = 1#1 ↔ x ≤ y := by
  simp only [Ideal.cmp, ofBool_one, decide_eq_true_eq]
/-- The bit of `x > y`. -/
theorem cmp_ogt (x y : EReal) : Ideal.cmp .ogt x y = 1#1 ↔ y < x := by
  simp only [Ideal.cmp, ofBool_one, decide_eq_true_eq]
/-- The bit of `x ≥ y`. -/
theorem cmp_oge (x y : EReal) : Ideal.cmp .oge x y = 1#1 ↔ y ≤ x := by
  simp only [Ideal.cmp, ofBool_one, decide_eq_true_eq]

/-- A conjunction's bit is `1` exactly when both operands' are. -/
theorem andi_one (p q : BitVec 1) : IntOp.andi p q = 1#1 ↔ p = 1#1 ∧ q = 1#1 := by
  rcases BitVec.eq_zero_or_eq_one p with rfl | rfl <;> rcases BitVec.eq_zero_or_eq_one q with rfl | rfl <;> decide
/-- A disjunction's bit is `1` exactly when one operand's is. -/
theorem ori_one (p q : BitVec 1) : IntOp.ori p q = 1#1 ↔ p = 1#1 ∨ q = 1#1 := by
  rcases BitVec.eq_zero_or_eq_one p with rfl | rfl <;> rcases BitVec.eq_zero_or_eq_one q with rfl | rfl <;> decide

/-- The same four for the comparison as a program at the ideal instance writes it. -/
theorem cmpf_olt {φ : FTy} (x y : Ideal φ) : FloatOps.cmpf .olt x y = 1#1 ↔ x < y := cmp_olt x y
theorem cmpf_ole {φ : FTy} (x y : Ideal φ) : FloatOps.cmpf .ole x y = 1#1 ↔ x ≤ y := cmp_ole x y
theorem cmpf_ogt {φ : FTy} (x y : Ideal φ) : FloatOps.cmpf .ogt x y = 1#1 ↔ y < x := cmp_ogt x y
theorem cmpf_oge {φ : FTy} (x y : Ideal φ) : FloatOps.cmpf .oge x y = 1#1 ↔ y ≤ x := cmp_oge x y

/-- A select on a bit that says `P` is the choice on `P`. -/
theorem select_sel {α : Type} {c : BitVec 1} {P : Prop} (h : c = 1#1 ↔ P) (x y : α) :
    Scalar.select c x y = sel P x y := by
  unfold Scalar.select
  by_cases hp : P
  · rw [sel_pos hp]; exact if_pos (h.2 hp)
  · rw [sel_neg hp]; exact if_neg (fun hc => hp (h.1 hc))

end Cert.Proof.RefSpec

end
-- ==== Proof.KSpec.lean ====
/-
  The kernel's row computation, as mathematics on the extended reals. A row is a lower form l and an upper form u (784
  coefficients and a bias each); the box of inputs is given by its centre cp and radius rp. The value range of a form x
  over the box is S x ∓ T x with S x = Σ x_k · cp_k + bias and T x = Σ |x_k| · rp_k. From the four range ends the row's
  case is decided and the two forms are rescaled (the upper one also shifted); the concretized bounds of the rescaled
  forms are the rescaled bounds.
-/
import proofs.«214425_g62758062129325_cont_9to1_m_981_19_alg».proof.Proof.RefSpec

noncomputable section

open scoped BigOperators

namespace Cert.Proof.KSpec

open Idealize.ShloMosaic Cert.Proof.RefSpec

/-- A form: 784 coefficients and a bias. -/
abbrev Form : Type := Fin 785 → EReal
/-- One number per input coordinate. -/
abbrev Coord : Type := Fin 784 → EReal

/-- The form's value at the centre of the box. -/
def S (cp : Coord) (x : Form) : EReal := (∑ k : Fin 784, x (coef k) * cp k) + x bias
/-- The form's largest deviation from it over the box. -/
def T (rp : Coord) (x : Form) : EReal := ∑ k : Fin 784, absE (x (coef k)) * rp k

variable (cp rp : Coord) (l u : Form)

def concLb : EReal := S cp l - T rp l
def maxLb : EReal := S cp l + T rp l
def concUb : EReal := S cp u + T rp u
def minUb : EReal := S cp u - T rp u

def inactive : Prop := concUb cp rp u ≤ zeroW
def unstable : Prop := concLb cp rp l < zeroW ∧ zeroW < concUb cp rp u
def mostlyInactive : Prop := unstable cp rp l u ∧ (absE (concUb cp rp u) < absE (concLb cp rp l) ∨ maxLb cp rp l ≤ zeroW)
def mostlyActive : Prop := unstable cp rp l u ∧ absE (concLb cp rp l) ≤ absE (concUb cp rp u)
def zeroCrossing : Prop := unstable cp rp l u ∧ minUb cp rp u ≤ zeroW

/-- The lower form's slope. -/
def aL : EReal :=
  sel (maxLb cp rp l < zeroW) zeroW (Ideal.div (maxLb cp rp l) (sel (unstable cp rp l u) (maxLb cp rp l - concLb cp rp l) oneW))
/-- The factor the lower form is rescaled by. -/
def sL : EReal := sel (mostlyActive cp rp l u) (aL cp rp l u) (sel (inactive cp rp u ∨ mostlyInactive cp rp l u) zeroW oneW)
/-- The upper form's slope. -/
def aU : EReal := Ideal.div (concUb cp rp u) (sel (zeroCrossing cp rp l u) (concUb cp rp u - minUb cp rp u) oneW)
/-- The factor the upper form is rescaled by. -/
def sU : EReal := sel (zeroCrossing cp rp l u) (aU cp rp l u) (sel (inactive cp rp u) zeroW oneW)
/-- What the upper form's bias is lowered by. -/
def biasAdj : EReal := sel (zeroCrossing cp rp l u) (aU cp rp l u * minUb cp rp u) zeroW

/-- The rescaled lower form. -/
def newL : Form := fun c => sL cp rp l u * l c
/-- The rescaled and shifted upper form. -/
def newU : Form := fun c => sel (c = bias) (sU cp rp l u * u c - biasAdj cp rp l u) (sU cp rp l u * u c)
/-- The rescaled lower form's least value, as the kernel has it. -/
def plb : EReal := sL cp rp l u * concLb cp rp l
/-- The rescaled upper form's greatest value, as the kernel has it. -/
def pub : EReal := sU cp rp l u * concUb cp rp u - biasAdj cp rp l u

end Cert.Proof.KSpec

end
-- ==== Proof.KIVSpec.lean ====
/-
  What one trip of a row loop computes, stated: row `k` of the two coefficient buffers is replaced by the rescaled forms
  of the row, the other rows stay, and lane `k` of the two carried vectors receives the row's concretized bounds. The
  statements are over the functions a trip's run was recorded as, for the constant vectors the kernel builds (a zero
  vector, the lane numbers, and the sixteen butterfly index vectors).
-/
import proofs.«214425_g62758062129325_cont_9to1_m_981_19_alg».proof.Proof.KIVRow
import proofs.«214425_g62758062129325_cont_9to1_m_981_19_alg».proof.Proof.KSpec
import Idealize.ShloMosaic.Lib.ValueIdx

noncomputable section

namespace Cert.Proof.KI

open Cert.KernelIdeal Cert.KernelIdeal.Gen
open Idealize.ShloMosaic Idealize.ShloMosaic.ValueIdx
open Cert.Proof.RefSpec (sel)

/-- The constant vectors of the kernel: zero, the lane numbers, and for each butterfly round (lane distance 8, 4, 2, 1) the
    four index vectors into the 64-word scratch. -/
structure ConstsOK (v30 : FVec Ideal S16 .f32) (v31 : IVec S16 32) (v33 : IVec S16 32) (v35 : IVec S16 32) (v37 : IVec S16 32) (v39 : IVec S16 32) (v41 : IVec S16 32) (v43 : IVec S16 32) (v45 : IVec S16 32) (v47 : IVec S16 32) (v49 : IVec S16 32) (v51 : IVec S16 32) (v53 : IVec S16 32) (v55 : IVec S16 32) (v57 : IVec S16 32) (v59 : IVec S16 32) (v61 : IVec S16 32) (v63 : IVec S16 32) : Prop where
  v30_eq : ∀ i, v30 i = 0
  v31_eq : ∀ j : Fin 16, v31 (ix1 j) = BitVec.ofNat 32 j.val
  v33_eq : ∀ j : Fin 16, (v33 (ix1 j)).toNat = (j.val ^^^ 8) + 0
  v35_eq : ∀ j : Fin 16, (v35 (ix1 j)).toNat = (j.val ^^^ 8) + 16
  v37_eq : ∀ j : Fin 16, (v37 (ix1 j)).toNat = (j.val ^^^ 8) + 32
  v39_eq : ∀ j : Fin 16, (v39 (ix1 j)).toNat = (j.val ^^^ 8) + 48
  v41_eq : ∀ j : Fin 16, (v41 (ix1 j)).toNat = (j.val ^^^ 4) + 0
  v43_eq : ∀ j : Fin 16, (v43 (ix1 j)).toNat = (j.val ^^^ 4) + 16
  v45_eq : ∀ j : Fin 16, (v45 (ix1 j)).toNat = (j.val ^^^ 4) + 32
  v47_eq : ∀ j : Fin 16, (v47 (ix1 j)).toNat = (j.val ^^^ 4) + 48
  v49_eq : ∀ j : Fin 16, (v49 (ix1 j)).toNat = (j.val ^^^ 2) + 0
  v51_eq : ∀ j : Fin 16, (v51 (ix1 j)).toNat = (j.val ^^^ 2) + 16
  v53_eq : ∀ j : Fin 16, (v53 (ix1 j)).toNat = (j.val ^^^ 2) + 32
  v55_eq : ∀ j : Fin 16, (v55 (ix1 j)).toNat = (j.val ^^^ 2) + 48
  v57_eq : ∀ j : Fin 16, (v57 (ix1 j)).toNat = (j.val ^^^ 1) + 0
  v59_eq : ∀ j : Fin 16, (v59 (ix1 j)).toNat = (j.val ^^^ 1) + 16
  v61_eq : ∀ j : Fin 16, (v61 (ix1 j)).toNat = (j.val ^^^ 1) + 32
  v63_eq : ∀ j : Fin 16, (v63 (ix1 j)).toNat = (j.val ^^^ 1) + 48

variable (d : Dev nD) (L : grid0.Coords)

/-- A table buffer as a function of the coordinate. -/
abbrev cpOf (c : Buf (Elt Ideal) (cpV.view.loc (thr d L))) : KSpec.Coord := fun j => c (ix1 j)
/-- Row `k` of a 16-row coefficient buffer as a form. -/
abbrev rowOf (x : (⟨2, ![16, 785]⟩ : Shape).Idx → EReal) (k : Fin 16) : KSpec.Form := fun j => x (ix2 k j)
/-- A trip number of a row loop as a row number. -/
abbrev kIdx (l : Scf.Loop 32) (k : Fin l.trips) (h : l.trips ≤ 16 := by first | exact k0_t2_abs.2.1 | exact k0_t3_abs.2.1) : Fin 16 :=
  ⟨k.val, lt_of_lt_of_le k.isLt h⟩

/-- The lower buffer after a trip: row `k` rescaled, the other rows as they were. -/
def RowLA : Prop := ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L))), ConstsOK v30 v31 v33 v35 v37 v39 v41 v43 v45 v47 v49 v51 v53 v55 v57 v59 v61 v63 →
  (rowA_pack (F := Ideal) d L).1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e
    = fun idx => sel (idx 0 = (kIdx k0_t2_loop k)) (KSpec.newL (cpOf d L c) (cpOf d L r) (rowOf a (kIdx k0_t2_loop k)) (rowOf b (kIdx k0_t2_loop k)) (idx 1)) (a idx)
/-- The upper buffer after a trip. -/
def RowUA : Prop := ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L))), ConstsOK v30 v31 v33 v35 v37 v39 v41 v43 v45 v47 v49 v51 v53 v55 v57 v59 v61 v63 →
  (rowA_pack (F := Ideal) d L).2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e
    = fun idx => sel (idx 0 = (kIdx k0_t2_loop k)) (KSpec.newU (cpOf d L c) (cpOf d L r) (rowOf a (kIdx k0_t2_loop k)) (rowOf b (kIdx k0_t2_loop k)) (idx 1)) (b idx)
/-- The carried pair after a trip: lane `k` of each holds the row's concretized bound. -/
def RowAccA : Prop := ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L))), ConstsOK v30 v31 v33 v35 v37 v39 v41 v43 v45 v47 v49 v51 v53 v55 v57 v59 v61 v63 →
  (rowA_pack (F := Ideal) d L).2.2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e
    = (fun lane => sel (lane 0 = (kIdx k0_t2_loop k)) (KSpec.plb (cpOf d L c) (cpOf d L r) (rowOf a (kIdx k0_t2_loop k)) (rowOf b (kIdx k0_t2_loop k))) (acc.1 lane),
       fun lane => sel (lane 0 = (kIdx k0_t2_loop k)) (KSpec.pub (cpOf d L c) (cpOf d L r) (rowOf a (kIdx k0_t2_loop k)) (rowOf b (kIdx k0_t2_loop k))) (acc.2 lane))

/-- The lower buffer after a trip: row `k` rescaled, the other rows as they were. -/
def RowLB : Prop := ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L))), ConstsOK v30 v31 v33 v35 v37 v39 v41 v43 v45 v47 v49 v51 v53 v55 v57 v59 v61 v63 →
  (rowB_pack (F := Ideal) d L).1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e
    = fun idx => sel (idx 0 = (kIdx k0_t3_loop k)) (KSpec.newL (cpOf d L c) (cpOf d L r) (rowOf a (kIdx k0_t3_loop k)) (rowOf b (kIdx k0_t3_loop k)) (idx 1)) (a idx)
/-- The upper buffer after a trip. -/
def RowUB : Prop := ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L))), ConstsOK v30 v31 v33 v35 v37 v39 v41 v43 v45 v47 v49 v51 v53 v55 v57 v59 v61 v63 →
  (rowB_pack (F := Ideal) d L).2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e
    = fun idx => sel (idx 0 = (kIdx k0_t3_loop k)) (KSpec.newU (cpOf d L c) (cpOf d L r) (rowOf a (kIdx k0_t3_loop k)) (rowOf b (kIdx k0_t3_loop k)) (idx 1)) (b idx)
/-- The carried pair after a trip: lane `k` of each holds the row's concretized bound. -/
def RowAccB : Prop := ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L))), ConstsOK v30 v31 v33 v35 v37 v39 v41 v43 v45 v47 v49 v51 v53 v55 v57 v59 v61 v63 →
  (rowB_pack (F := Ideal) d L).2.2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e
    = (fun lane => sel (lane 0 = (kIdx k0_t3_loop k)) (KSpec.plb (cpOf d L c) (cpOf d L r) (rowOf a (kIdx k0_t3_loop k)) (rowOf b (kIdx k0_t3_loop k))) (acc.1 lane),
       fun lane => sel (lane 0 = (kIdx k0_t3_loop k)) (KSpec.pub (cpOf d L c) (cpOf d L r) (rowOf a (kIdx k0_t3_loop k)) (rowOf b (kIdx k0_t3_loop k))) (acc.2 lane))

end Cert.Proof.KI

end
-- ==== Proof.KIVLoop.lean ====
/-
  The row loops, with what they compute. Before trip `k` the first `k` rows of the chunk are done: each holds its rescaled
  forms, and lanes below `k` of the two carried vectors hold the rows' concretized bounds; a trip does row `k`, from that
  row's ORIGINAL contents (rows from `k` on are untouched so far). After sixteen trips the whole chunk is done.
-/
import proofs.«214425_g62758062129325_cont_9to1_m_981_19_alg».proof.Proof.KIVSpec

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.RefSpec (sel sel_pos sel_neg)

local notation "𝕄" => MT nD τ sig (HIx 1) (Elt Ideal) ℕ UU ℕ

variable (d : Dev nD) (L : grid0.Coords)

/-- Doing row `kk` after the rows below it: the rows below `kk + 1` are done. -/
theorem sel_row_succ {α : Type} (i kk : Fin 16) (k : Nat) (h : kk.val = k) (Xk X Y : α) (hX : i = kk → Xk = X) :
    sel (i = kk) Xk (sel (i.val < k) X Y) = sel (i.val < k + 1) X Y := by
  by_cases hi : i = kk
  · rw [sel_pos hi, sel_pos (show i.val < k + 1 by rw [hi, h]; omega)]; exact hX hi
  · have hne : i.val ≠ k := fun e => hi (Fin.ext (e.trans h.symm))
    rw [sel_neg hi]
    by_cases hk : i.val < k
    · rw [sel_pos hk, sel_pos (show i.val < k + 1 by omega)]
    · rw [sel_neg hk, sel_neg (show ¬ i.val < k + 1 by omega)]

section LoopA

variable (c : Buf (Elt Ideal) (cpV.view.loc (thr d L))) (r : Buf (Elt Ideal) (rpV.view.loc (thr d L)))
  (a0 : Buf (Elt Ideal) (laV.view.loc (thr d L))) (b0 : Buf (Elt Ideal) (uaV.view.loc (thr d L))) (z : FVec Ideal S16 .f32)

/-- The lower buffer when the first `k` rows are done. -/
def doneLA (k : Nat) : Buf (Elt Ideal) (laV.view.loc (thr d L)) :=
  fun idx => sel ((idx 0).val < k) (KSpec.newL (cpOf d L c) (cpOf d L r) (rowOf a0 (idx 0)) (rowOf b0 (idx 0)) (idx 1)) (a0 idx)
/-- The upper buffer when the first `k` rows are done. -/
def doneUA (k : Nat) : Buf (Elt Ideal) (uaV.view.loc (thr d L)) :=
  fun idx => sel ((idx 0).val < k) (KSpec.newU (cpOf d L c) (cpOf d L r) (rowOf a0 (idx 0)) (rowOf b0 (idx 0)) (idx 1)) (b0 idx)
/-- The carried pair when the first `k` rows are done. -/
def doneAccA (k : Nat) : FVec Ideal S16 .f32 × FVec Ideal S16 .f32 :=
  (fun lane => sel ((lane 0).val < k) (KSpec.plb (cpOf d L c) (cpOf d L r) (rowOf a0 (lane 0)) (rowOf b0 (lane 0))) (z lane),
   fun lane => sel ((lane 0).val < k) (KSpec.pub (cpOf d L c) (cpOf d L r) (rowOf a0 (lane 0)) (rowOf b0 (lane 0))) (z lane))

theorem rowOf_doneLA (k : Nat) (kk : Fin 16) (h : kk.val = k) : rowOf (doneLA d L c r a0 b0 k) kk = rowOf a0 kk := by
  funext j; unfold doneLA; exact sel_neg (by show ¬ (kk.val < k); omega) _ _
theorem rowOf_doneUA (k : Nat) (kk : Fin 16) (h : kk.val = k) : rowOf (doneUA d L c r a0 b0 k) kk = rowOf b0 kk := by
  funext j; unfold doneUA; exact sel_neg (by show ¬ (kk.val < k); omega) _ _

theorem doneLA_succ (k : Nat) (kk : Fin 16) (h : kk.val = k) :
    (fun idx => sel (idx 0 = kk) (KSpec.newL (cpOf d L c) (cpOf d L r) (rowOf (doneLA d L c r a0 b0 k) kk) (rowOf (doneUA d L c r a0 b0 k) kk) (idx 1))
        (doneLA d L c r a0 b0 k idx)) = doneLA d L c r a0 b0 (k + 1) := by
  funext idx
  rw [rowOf_doneLA d L c r a0 b0 k kk h, rowOf_doneUA d L c r a0 b0 k kk h]
  unfold doneLA
  exact sel_row_succ (idx 0) kk k h _ _ _ (fun e => by rw [e])
theorem doneUA_succ (k : Nat) (kk : Fin 16) (h : kk.val = k) :
    (fun idx => sel (idx 0 = kk) (KSpec.newU (cpOf d L c) (cpOf d L r) (rowOf (doneLA d L c r a0 b0 k) kk) (rowOf (doneUA d L c r a0 b0 k) kk) (idx 1))
        (doneUA d L c r a0 b0 k idx)) = doneUA d L c r a0 b0 (k + 1) := by
  funext idx
  rw [rowOf_doneLA d L c r a0 b0 k kk h, rowOf_doneUA d L c r a0 b0 k kk h]
  unfold doneUA
  exact sel_row_succ (idx 0) kk k h _ _ _ (fun e => by rw [e])
theorem doneAccA_succ (k : Nat) (kk : Fin 16) (h : kk.val = k) :
    ((fun lane => sel (lane 0 = kk) (KSpec.plb (cpOf d L c) (cpOf d L r) (rowOf (doneLA d L c r a0 b0 k) kk) (rowOf (doneUA d L c r a0 b0 k) kk)) ((doneAccA d L c r a0 b0 z k).1 lane),
      fun lane => sel (lane 0 = kk) (KSpec.pub (cpOf d L c) (cpOf d L r) (rowOf (doneLA d L c r a0 b0 k) kk) (rowOf (doneUA d L c r a0 b0 k) kk)) ((doneAccA d L c r a0 b0 z k).2 lane))
      : FVec Ideal S16 .f32 × FVec Ideal S16 .f32) = doneAccA d L c r a0 b0 z (k + 1) := by
  rw [rowOf_doneLA d L c r a0 b0 k kk h, rowOf_doneUA d L c r a0 b0 k kk h]
  unfold doneAccA
  refine Prod.ext (funext fun lane => ?_) (funext fun lane => ?_) <;> dsimp only
  all_goals exact sel_row_succ (lane 0) kk k h _ _ _ (fun e => by rw [e])

/-- Before trip `k` of the row loop: the first `k` rows done, the carried pair accordingly. -/
def rowInvAV (k : Nat) (acc : FVec Ideal S16 .f32 × FVec Ideal S16 .f32) : sProp 𝕄 :=
  iprop((cpV.view.loc (thr d L) ↦{fullShare} c) ∗ (rpV.view.loc (thr d L) ↦{fullShare} r)
    ∗ (laV.view.loc (thr d L) ↦{fullShare} doneLA d L c r a0 b0 k) ∗ (uaV.view.loc (thr d L) ↦{fullShare} doneUA d L c r a0 b0 k)
    ∗ (∃ e, redV.view.loc (thr d L) ↦{fullShare} e) ∗ ⌜acc = doneAccA d L c r a0 b0 z k⌝)

theorem rowA_regionV (hL : RowLA d L) (hU : RowUA d L) (hA : RowAccA d L)
    (v29 : BitVec 32)  (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (hC : ConstsOK z v31 v33 v35 v37 v39 v41 v43 v45 v47 v49 v51 v53 v55 v57 v59 v61 v63)
    (k : Fin k0_t2_loop.trips) (acc : FVec Ideal S16 .f32 × FVec Ideal S16 .f32) :
    rowInvAV d L c r a0 b0 z k.val acc
      ⊢ (wp frame (wpE (defs₀ (F := Ideal)) 𝒱₀ (thr d L) none) Set.univ
          (k0_t2_body (F := Ideal) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 z v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc) (rowInvAV d L c r a0 b0 z (k.val + 1)) : sProp 𝕄) := by
  unfold rowInvAV
  iintro ⟨HC, HR, HA, HB, ⟨%e, HE⟩, %hacc⟩
  subst hacc
  iapply (wp_mono frame _ _ (fun acc' => ?_))
  rotate_left
  · iapply ((rowA_pack (F := Ideal) d L).2.2.2 v29 z v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k (doneAccA d L c r a0 b0 z k.val) c r (doneLA d L c r a0 b0 k.val) (doneUA d L c r a0 b0 k.val) e)
    isplitl [HC]; · iexact HC
    isplitl [HR]; · iexact HR
    isplitl [HA]; · iexact HA
    isplitl [HB]; · iexact HB
    iexact HE
  · rw [hL _ _ _ _ _ _ _ _ _ _ _ _ _ _ _ _ _ _ _ _ _ _ _ _ _ _ _ _ _ _ _ _ _ _ _ _ _ _ _ _ _ _ _ _ _ hC,
      hU _ _ _ _ _ _ _ _ _ _ _ _ _ _ _ _ _ _ _ _ _ _ _ _ _ _ _ _ _ _ _ _ _ _ _ _ _ _ _ _ _ _ _ _ _ hC,
      hA _ _ _ _ _ _ _ _ _ _ _ _ _ _ _ _ _ _ _ _ _ _ _ _ _ _ _ _ _ _ _ _ _ _ _ _ _ _ _ _ _ _ _ _ _ hC,
      doneLA_succ d L c r a0 b0 k.val (kIdx k0_t2_loop k) rfl, doneUA_succ d L c r a0 b0 k.val (kIdx k0_t2_loop k) rfl]
    iintro ⟨%hacc', HC, HR, HA, HB, HE⟩
    isplitl [HC]; · iexact HC
    isplitl [HR]; · iexact HR
    isplitl [HA]; · iexact HA
    isplitl [HB]; · iexact HB
    isplitl [HE]; · iexact HE
    ipureintro; exact hacc'.trans (doneAccA_succ d L c r a0 b0 z k.val (kIdx k0_t2_loop k) rfl)

end LoopA

section LoopB

variable (c : Buf (Elt Ideal) (cpV.view.loc (thr d L))) (r : Buf (Elt Ideal) (rpV.view.loc (thr d L)))
  (a0 : Buf (Elt Ideal) (lbV.view.loc (thr d L))) (b0 : Buf (Elt Ideal) (ubV.view.loc (thr d L))) (z : FVec Ideal S16 .f32)

/-- The lower buffer when the first `k` rows are done. -/
def doneLB (k : Nat) : Buf (Elt Ideal) (lbV.view.loc (thr d L)) :=
  fun idx => sel ((idx 0).val < k) (KSpec.newL (cpOf d L c) (cpOf d L r) (rowOf a0 (idx 0)) (rowOf b0 (idx 0)) (idx 1)) (a0 idx)
/-- The upper buffer when the first `k` rows are done. -/
def doneUB (k : Nat) : Buf (Elt Ideal) (ubV.view.loc (thr d L)) :=
  fun idx => sel ((idx 0).val < k) (KSpec.newU (cpOf d L c) (cpOf d L r) (rowOf a0 (idx 0)) (rowOf b0 (idx 0)) (idx 1)) (b0 idx)
/-- The carried pair when the first `k` rows are done. -/
def doneAccB (k : Nat) : FVec Ideal S16 .f32 × FVec Ideal S16 .f32 :=
  (fun lane => sel ((lane 0).val < k) (KSpec.plb (cpOf d L c) (cpOf d L r) (rowOf a0 (lane 0)) (rowOf b0 (lane 0))) (z lane),
   fun lane => sel ((lane 0).val < k) (KSpec.pub (cpOf d L c) (cpOf d L r) (rowOf a0 (lane 0)) (rowOf b0 (lane 0))) (z lane))

theorem rowOf_doneLB (k : Nat) (kk : Fin 16) (h : kk.val = k) : rowOf (doneLB d L c r a0 b0 k) kk = rowOf a0 kk := by
  funext j; unfold doneLB; exact sel_neg (by show ¬ (kk.val < k); omega) _ _
theorem rowOf_doneUB (k : Nat) (kk : Fin 16) (h : kk.val = k) : rowOf (doneUB d L c r a0 b0 k) kk = rowOf b0 kk := by
  funext j; unfold doneUB; exact sel_neg (by show ¬ (kk.val < k); omega) _ _

theorem doneLB_succ (k : Nat) (kk : Fin 16) (h : kk.val = k) :
    (fun idx => sel (idx 0 = kk) (KSpec.newL (cpOf d L c) (cpOf d L r) (rowOf (doneLB d L c r a0 b0 k) kk) (rowOf (doneUB d L c r a0 b0 k) kk) (idx 1))
        (doneLB d L c r a0 b0 k idx)) = doneLB d L c r a0 b0 (k + 1) := by
  funext idx
  rw [rowOf_doneLB d L c r a0 b0 k kk h, rowOf_doneUB d L c r a0 b0 k kk h]
  unfold doneLB
  exact sel_row_succ (idx 0) kk k h _ _ _ (fun e => by rw [e])
theorem doneUB_succ (k : Nat) (kk : Fin 16) (h : kk.val = k) :
    (fun idx => sel (idx 0 = kk) (KSpec.newU (cpOf d L c) (cpOf d L r) (rowOf (doneLB d L c r a0 b0 k) kk) (rowOf (doneUB d L c r a0 b0 k) kk) (idx 1))
        (doneUB d L c r a0 b0 k idx)) = doneUB d L c r a0 b0 (k + 1) := by
  funext idx
  rw [rowOf_doneLB d L c r a0 b0 k kk h, rowOf_doneUB d L c r a0 b0 k kk h]
  unfold doneUB
  exact sel_row_succ (idx 0) kk k h _ _ _ (fun e => by rw [e])
theorem doneAccB_succ (k : Nat) (kk : Fin 16) (h : kk.val = k) :
    ((fun lane => sel (lane 0 = kk) (KSpec.plb (cpOf d L c) (cpOf d L r) (rowOf (doneLB d L c r a0 b0 k) kk) (rowOf (doneUB d L c r a0 b0 k) kk)) ((doneAccB d L c r a0 b0 z k).1 lane),
      fun lane => sel (lane 0 = kk) (KSpec.pub (cpOf d L c) (cpOf d L r) (rowOf (doneLB d L c r a0 b0 k) kk) (rowOf (doneUB d L c r a0 b0 k) kk)) ((doneAccB d L c r a0 b0 z k).2 lane))
      : FVec Ideal S16 .f32 × FVec Ideal S16 .f32) = doneAccB d L c r a0 b0 z (k + 1) := by
  rw [rowOf_doneLB d L c r a0 b0 k kk h, rowOf_doneUB d L c r a0 b0 k kk h]
  unfold doneAccB
  refine Prod.ext (funext fun lane => ?_) (funext fun lane => ?_) <;> dsimp only
  all_goals exact sel_row_succ (lane 0) kk k h _ _ _ (fun e => by rw [e])

/-- Before trip `k` of the row loop: the first `k` rows done, the carried pair accordingly. -/
def rowInvBV (k : Nat) (acc : FVec Ideal S16 .f32 × FVec Ideal S16 .f32) : sProp 𝕄 :=
  iprop((cpV.view.loc (thr d L) ↦{fullShare} c) ∗ (rpV.view.loc (thr d L) ↦{fullShare} r)
    ∗ (lbV.view.loc (thr d L) ↦{fullShare} doneLB d L c r a0 b0 k) ∗ (ubV.view.loc (thr d L) ↦{fullShare} doneUB d L c r a0 b0 k)
    ∗ (∃ e, redV.view.loc (thr d L) ↦{fullShare} e) ∗ ⌜acc = doneAccB d L c r a0 b0 z k⌝)

theorem rowB_regionV (hL : RowLB d L) (hU : RowUB d L) (hA : RowAccB d L)
    (v29 : BitVec 32)  (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (hC : ConstsOK z v31 v33 v35 v37 v39 v41 v43 v45 v47 v49 v51 v53 v55 v57 v59 v61 v63)
    (k : Fin k0_t3_loop.trips) (acc : FVec Ideal S16 .f32 × FVec Ideal S16 .f32) :
    rowInvBV d L c r a0 b0 z k.val acc
      ⊢ (wp frame (wpE (defs₀ (F := Ideal)) 𝒱₀ (thr d L) none) Set.univ
          (k0_t3_body (F := Ideal) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 z v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc) (rowInvBV d L c r a0 b0 z (k.val + 1)) : sProp 𝕄) := by
  unfold rowInvBV
  iintro ⟨HC, HR, HA, HB, ⟨%e, HE⟩, %hacc⟩
  subst hacc
  iapply (wp_mono frame _ _ (fun acc' => ?_))
  rotate_left
  · iapply ((rowB_pack (F := Ideal) d L).2.2.2 v29 z v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k (doneAccB d L c r a0 b0 z k.val) c r (doneLB d L c r a0 b0 k.val) (doneUB d L c r a0 b0 k.val) e)
    isplitl [HC]; · iexact HC
    isplitl [HR]; · iexact HR
    isplitl [HA]; · iexact HA
    isplitl [HB]; · iexact HB
    iexact HE
  · rw [hL _ _ _ _ _ _ _ _ _ _ _ _ _ _ _ _ _ _ _ _ _ _ _ _ _ _ _ _ _ _ _ _ _ _ _ _ _ _ _ _ _ _ hC,
      hU _ _ _ _ _ _ _ _ _ _ _ _ _ _ _ _ _ _ _ _ _ _ _ _ _ _ _ _ _ _ _ _ _ _ _ _ _ _ _ _ _ _ hC,
      hA _ _ _ _ _ _ _ _ _ _ _ _ _ _ _ _ _ _ _ _ _ _ _ _ _ _ _ _ _ _ _ _ _ _ _ _ _ _ _ _ _ _ hC,
      doneLB_succ d L c r a0 b0 k.val (kIdx k0_t3_loop k) rfl, doneUB_succ d L c r a0 b0 k.val (kIdx k0_t3_loop k) rfl]
    iintro ⟨%hacc', HC, HR, HA, HB, HE⟩
    isplitl [HC]; · iexact HC
    isplitl [HR]; · iexact HR
    isplitl [HA]; · iexact HA
    isplitl [HB]; · iexact HB
    isplitl [HE]; · iexact HE
    ipureintro; exact hacc'.trans (doneAccB_succ d L c r a0 b0 z k.val (kIdx k0_t3_loop k) rfl)

end LoopB

end Cert.Proof.KI

end
-- ==== Proof.KIVGeo.lean ====
/-
  The tile's rows of the arrays, named. Tile number w works on batch w / 4, rows 512·(w mod 4) onwards; its chunk ch
  (0 … 31) is the sixteen rows from 16·ch of those. The results as whole-array functions of the launch contents: every
  row of an output coefficient array is the row's rescaled form, every entry of a bound vector the row's concretized bound.
-/
import proofs.«214425_g62758062129325_cont_9to1_m_981_19_alg».proof.Proof.KIVLoop
import proofs.«214425_g62758062129325_cont_9to1_m_981_19_alg».proof.Proof.KIMain

noncomputable section

namespace Cert.Proof.KI

open Cert.KernelIdeal Cert.KernelIdeal.Gen
open Idealize.ShloMosaic Idealize.ShloMosaic.ValueIdx
open Cert.Proof.RefSpec (sel sel_pos sel_neg)

/-- The offsets of the copies in, in closed form: the two the kernel starts with, and the two a trip issues for the trip
    after it. -/
theorem off1_0 : ∀ i : grid0.Coords, k0_off1 i 0#32 = ![(2 * (i 1).val + (i 0).val) / 4, ((2 * (i 1).val + (i 0).val) % 4) * 512, 0] := by decide +kernel
theorem off1_16 : ∀ i : grid0.Coords, k0_off1 i 16#32 = ![(2 * (i 1).val + (i 0).val) / 4, ((2 * (i 1).val + (i 0).val) % 4) * 512 + 16, 0] := by decide +kernel
theorem off158_2 : ∀ (i : grid0.Coords) (k : Fin k0_t1_loop.trips), k0_cond1 k = 1#1 →
    k0_off158 i k 2#32 = ![(2 * (i 1).val + (i 0).val) / 4, ((2 * (i 1).val + (i 0).val) % 4) * 512 + 32 * (k.val + 1), 0] := by decide +kernel
theorem off159_eq : ∀ (i : grid0.Coords) (k : Fin k0_t1_loop.trips), k0_cond1 k = 1#1 →
    k0_off159 i k = ![(2 * (i 1).val + (i 0).val) / 4, ((2 * (i 1).val + (i 0).val) % 4) * 512 + 32 * (k.val + 1) + 16, 0] := by decide +kernel

variable (L : grid0.Coords)

/-- The tile's batch and its first row in the batch. -/
def bT : Fin 8 := ⟨wid L / 4 % 8, Nat.mod_lt _ (by decide)⟩
def nT : Nat := (wid L % 4) * 512

/-- Row `x1` of batch `x0` of a coefficient array, as a form. -/
abbrev rowAt (f : (⟨3, ![8, 2048, 785]⟩ : Shape).Idx → EReal) (x0 : Fin 8) (x1 : Fin 2048) : KSpec.Form := fun j => f (ix3 x0 x1 j)

/-- Chunk `ch` of the tile's rows of an array, as a 16-row buffer. -/
def chunkOf (f : (⟨3, ![8, 2048, 785]⟩ : Shape).Idx → EReal) (ch : Nat) : (⟨2, ![16, 785]⟩ : Shape).Idx → EReal :=
  fun idx => f (ix3 (bT L) ⟨(nT L + 16 * ch + (idx 0).val) % 2048, Nat.mod_lt _ (by decide)⟩ (idx 1))

variable (cp rp : KSpec.Coord) (f0 f1 : (⟨3, ![8, 2048, 785]⟩ : Shape).Idx → EReal)

/-- The two output coefficient arrays and the two bound vectors, as functions of the inputs. -/
def Glo : (⟨3, ![8, 2048, 785]⟩ : Shape).Idx → EReal := fun x => KSpec.newL cp rp (rowAt f0 (x 0) (x 1)) (rowAt f1 (x 0) (x 1)) (x 2)
def Guo : (⟨3, ![8, 2048, 785]⟩ : Shape).Idx → EReal := fun x => KSpec.newU cp rp (rowAt f0 (x 0) (x 1)) (rowAt f1 (x 0) (x 1)) (x 2)
def Gplb : (⟨1, ![16384]⟩ : Shape).Idx → EReal := fun i =>
  KSpec.plb cp rp (rowAt f0 ⟨(i 0).val / 2048 % 8, Nat.mod_lt _ (by decide)⟩ ⟨(i 0).val % 2048, Nat.mod_lt _ (by decide)⟩)
    (rowAt f1 ⟨(i 0).val / 2048 % 8, Nat.mod_lt _ (by decide)⟩ ⟨(i 0).val % 2048, Nat.mod_lt _ (by decide)⟩)
def Gpub : (⟨1, ![16384]⟩ : Shape).Idx → EReal := fun i =>
  KSpec.pub cp rp (rowAt f0 ⟨(i 0).val / 2048 % 8, Nat.mod_lt _ (by decide)⟩ ⟨(i 0).val % 2048, Nat.mod_lt _ (by decide)⟩)
    (rowAt f1 ⟨(i 0).val / 2048 % 8, Nat.mod_lt _ (by decide)⟩ ⟨(i 0).val % 2048, Nat.mod_lt _ (by decide)⟩)

/-- Every element of a coefficient array lies in some tile's slice: the slices cover the array. -/
theorem slSet_cover : (Finset.univ : Finset T4).biUnion slSet = Finset.univ := by
  refine Finset.eq_univ_iff_forall.mpr fun x => Finset.mem_biUnion.mpr ?_
  have h0 : (x 0).val < 8 := (x 0).isLt
  have h1 : (x 1).val < 2048 := (x 1).isLt
  have h2 : (x 2).val < 785 := (x 2).isLt
  -- the chunk number of x, split into tile number, trip and position
  let g := chunkId x
  have hg : g < 1024 := by show ((x 0).val * 2048 + (x 1).val) / 16 < 1024; omega
  have hgd : g = ((x 0).val * 2048 + (x 1).val) / 16 := rfl
  by_cases hb : g % 2 = 0
  · refine ⟨(⟨g / 32 % 2, show _ < 2 by omega⟩, ⟨g / 32 / 2, show _ < 16 by omega⟩,
      ⟨g % 32 / 2, Nat.lt_of_lt_of_le (show g % 32 / 2 < 16 by omega) (by decide)⟩, 0), Finset.mem_univ _, ?_⟩
    rw [slSet_zero, Rect.mem_set_unit]
    intro a
    rw [off104_eq]
    have hc0 : (coordsV (⟨g / 32 % 2, show _ < 2 by omega⟩ : Fin (grid0.bound 0)) (⟨g / 32 / 2, show _ < 16 by omega⟩ : Fin (grid0.bound 1)) 0).val = g / 32 % 2 := rfl
    have hc1 : (coordsV (⟨g / 32 % 2, show _ < 2 by omega⟩ : Fin (grid0.bound 0)) (⟨g / 32 / 2, show _ < 16 by omega⟩ : Fin (grid0.bound 1)) 1).val = g / 32 / 2 := rfl
    rw [hc0, hc1]
    have h0' : (x 0).val < 8 := h0
    fin_cases a <;> simp [S1x16x785] <;> omega
  · refine ⟨(⟨g / 32 % 2, show _ < 2 by omega⟩, ⟨g / 32 / 2, show _ < 16 by omega⟩,
      ⟨g % 32 / 2, Nat.lt_of_lt_of_le (show g % 32 / 2 < 16 by omega) (by decide)⟩, 1), Finset.mem_univ _, ?_⟩
    rw [slSet_one, Rect.mem_set_unit]
    intro a
    rw [off105_eq]
    have hc0 : (coordsV (⟨g / 32 % 2, show _ < 2 by omega⟩ : Fin (grid0.bound 0)) (⟨g / 32 / 2, show _ < 16 by omega⟩ : Fin (grid0.bound 1)) 0).val = g / 32 % 2 := rfl
    have hc1 : (coordsV (⟨g / 32 % 2, show _ < 2 by omega⟩ : Fin (grid0.bound 0)) (⟨g / 32 / 2, show _ < 16 by omega⟩ : Fin (grid0.bound 1)) 1).val = g / 32 / 2 := rfl
    rw [hc0, hc1]
    have h0' : (x 0).val < 8 := h0
    fin_cases a <;> simp [S1x16x785] <;> omega

end Cert.Proof.KI

end
-- ==== Proof.KIVCopy.lean ====
/-
  Copying a block of sixteen whole rows between a three-axis array and a two-axis buffer. The block is the unit-stride
  rectangle of sizes 1 × 16 × 785 at offsets (b, n, 0) of an 8 × 2048 × 785 array, seen with its leading axis of size one
  dropped; dropping that axis matches row i, column j of the 16 × 785 shape with batch b, row n + i, column j of the array.
  Reading the block off the array gives the array's element at that place; writing a 16 × 785 payload onto the block puts
  the payload's element (r - n, c) at batch b, row r, column c for the rows of the block and leaves every other element.
  The statements are read through the views of the memrefs involved, so they hold of any memref; through a whole buffer
  the read is the contents themselves.
-/
import proofs.«214425_g62758062129325_cont_9to1_m_981_19_alg».proof.Proof.KIBase
import Idealize.ShloMosaic.Lib.ValueIdx
import Idealize.ShloMosaic.Lib.Writes
import Idealize.ShloMosaic.Lib.WritesUnit

noncomputable section

namespace Cert.Proof.KI

open Cert.KernelIdeal Cert.KernelIdeal.Gen
open Idealize.ShloMosaic Idealize.ShloMosaic.ValueIdx

/-! ## A rectangle of a view, re-indexed by another shape -/

section General

variable {sg : RefSig} {κ : Kind} {sp : Space} {s s' : Shape} {e : EltTy} {Val : EltTy → Type}

/-- Reading through a rectangle of a view re-indexed by a shape with as many indices reads the view at the rectangle's
    placement of the matched index. -/
theorem read_reshape_slice (v : View sg κ sp s e) (r : Rect s) (h : s'.numel = r.shape.numel) (f : v.ty.Contents Val)
    (x : s'.Idx) : ((v.slice r).reshape s' h).read Val f x = v.read Val f (r.emb (Shape.reshapeEquiv h x)) := rfl

/-- After an unmasked write of a whole payload through the re-indexed rectangle, the view reads the payload at every
    element of the rectangle, -/
theorem read_writes_reshape_slice_emb (v : View sg κ sp s e) (r : Rect s) (h : s'.numel = r.shape.numel)
    (g : v.ty.Contents Val) (w : s'.Idx → Val e) (x : s'.Idx) :
    v.read Val (((v.slice r).reshape s' h).writes Val g [⟨Rect.whole s', w⟩]) (r.emb (Shape.reshapeEquiv h x)) = w x := by
  have he : (((v.slice r).reshape s' h).slice (Rect.whole s')).emb x = v.emb (r.emb (Shape.reshapeEquiv h x)) := by
    show v.emb (r.emb (Shape.reshapeEquiv h ((Rect.whole s').emb x))) = _
    rw [Rect.emb_whole_apply]
  rw [View.read_apply, ← he, View.writes_singleton, View.write_emb_of_mem _ _ (Finset.mem_univ _), cast_cast, cast_eq]

/-- and the old contents at every other index. -/
theorem read_writes_reshape_slice_of_not_mem (v : View sg κ sp s e) (r : Rect s) (h : s'.numel = r.shape.numel)
    (g : v.ty.Contents Val) (w : s'.Idx → Val e) {y : s.Idx} (hy : y ∉ r.set) :
    v.read Val (((v.slice r).reshape s' h).writes Val g [⟨Rect.whole s', w⟩]) y = v.read Val g y := by
  rw [View.read_apply, View.read_apply, View.writes_singleton, View.write_of_not_mem]
  intro hm
  apply hy
  rw [View.setOn_univ, View.set_slice, Rect.set_whole] at hm
  change v.emb y ∈ ((v.slice r).reshape s' h).set at hm
  rw [View.set_reshape, View.set_slice] at hm
  exact (Finset.mem_map' v.emb).mp hm

end General

/-! ## Sixteen whole rows of the array, as a 16 × 785 block -/

section Block

/-- The block's batch is a batch of the array, -/
theorem blk_lt0 (off : Fin 3 → Nat) (inb : ∀ a, off a + S1x16x785.size a ≤ S8x2048x785.size a) : off 0 < 8 := by have := inb 0; change off 0 + 1 ≤ 8 at this; omega
/-- a row of the block is a row of the array, -/
theorem blk_lt1 (off : Fin 3 → Nat) (inb : ∀ a, off a + S1x16x785.size a ≤ S8x2048x785.size a) (i : Fin 16) :
    off 1 + i.val < 2048 := by
  have := inb 1; change off 1 + 16 ≤ 2048 at this; have := i.isLt; omega

/-- The block's rectangle places the index matched with row i, column j of the 16 × 785 shape at batch off 0,
    row off 1 + i, column j (the block's columns starting at column 0). -/
theorem blk_emb (off : Fin 3 → Nat) (inb : ∀ a, off a + S1x16x785.size a ≤ S8x2048x785.size a) (h2 : off 2 = 0)
    (h : S16x785.numel = (Rect.unit (s := S8x2048x785) off S1x16x785.size inb).shape.numel)
    (idx : S16x785.Idx) :
    (Rect.unit (s := S8x2048x785) off S1x16x785.size inb).emb (Shape.reshapeEquiv h idx)
      = ix3 ⟨off 0, blk_lt0 off inb⟩ ⟨off 1 + (idx 0).val, blk_lt1 off inb (idx 0)⟩ (idx 1) := by
  have hc : Shape.reshapeEquiv h idx = Fin.cons ⟨0, Nat.one_pos⟩ idx :=
    Shape.reshapeEquiv_cons_one (n := 2) (d := ![16, 785]) h idx
  funext a
  apply Fin.ext
  rw [Rect.emb_apply, hc]
  match a with
  | ⟨0, _⟩ => show off 0 + 1 * 0 = off 0; omega
  | ⟨1, _⟩ => show off 1 + 1 * (idx 0).val = off 1 + (idx 0).val; omega
  | ⟨2, _⟩ => show off 2 + 1 * (idx 1).val = (idx 1).val; omega

/-- A row of the array inside the block is, counted from the block's first row, a row of the 16 × 785 shape. -/
theorem blk_row_lt (off : Fin 3 → Nat) (inb : ∀ a, off a + S1x16x785.size a ≤ S8x2048x785.size a) (x : S8x2048x785.Idx)
    (hx : x ∈ (Rect.unit (s := S8x2048x785) off S1x16x785.size inb).set) : (x 1).val - off 1 < 16 := by
  have := Rect.mem_set_unit.mp hx 1; change off 1 ≤ (x 1).val ∧ (x 1).val < off 1 + 16 at this; omega
/-- A column of the array is a column of the 16 × 785 shape. -/
theorem blk_col_lt (x : S8x2048x785.Idx) : (x 2).val < 785 := (x 2).isLt

/-- An index of the array inside the block is where the block's rectangle places the index matched with its row counted
    from the block's first row and its column. -/
theorem blk_emb_of_mem (off : Fin 3 → Nat) (inb : ∀ a, off a + S1x16x785.size a ≤ S8x2048x785.size a) (h2 : off 2 = 0)
    (h : S16x785.numel = (Rect.unit (s := S8x2048x785) off S1x16x785.size inb).shape.numel) (x : S8x2048x785.Idx)
    (hx : x ∈ (Rect.unit (s := S8x2048x785) off S1x16x785.size inb).set) :
    (Rect.unit (s := S8x2048x785) off S1x16x785.size inb).emb
        (Shape.reshapeEquiv h (ix2 ⟨(x 1).val - off 1, blk_row_lt off inb x hx⟩ ⟨(x 2).val, blk_col_lt x⟩)) = x := by
  rw [blk_emb off inb h2 h]
  have hm := Rect.mem_set_unit.mp hx
  funext a
  apply Fin.ext
  match a with
  | ⟨0, _⟩ =>
    have := hm 0; change off 0 ≤ (x 0).val ∧ (x 0).val < off 0 + 1 at this
    show off 0 = (x 0).val; omega
  | ⟨1, _⟩ =>
    have := hm 1; change off 1 ≤ (x 1).val ∧ (x 1).val < off 1 + 16 at this
    show off 1 + ((x 1).val - off 1) = (x 1).val; omega
  | ⟨2, _⟩ => rfl

end Block

/-! ## The two copies -/

section Copy

variable {F : FTy → Type}

/-- COPY IN. The buffer after the block at offsets off of an array with contents f0 is copied onto it reads, at row i,
    column j, the array's element at batch off 0, row off 1 + i, column j. -/
theorem copy_in (src : Memref sig .scVector .hbm S8x2048x785 .f32) (dst : Memref sig .scVector .vmem S16x785 .f32)
    (off : Fin 3 → Nat) (inb : ∀ a, off a + S1x16x785.size a ≤ S8x2048x785.size a) (h2 : off 2 = 0)
    (a' : dst.view.ty.Contents (Elt F)) (f0 : src.view.ty.Contents (Elt F)) :
    dst.view.read (Elt F) (View.write (Elt F) dst.view a' (ReadAs.same.apply (View.read (Elt F)
        ((src.slice (Rect.unit (s := S8x2048x785) off S1x16x785.size inb) (fun _ => rfl)).squeeze S16x785
          squeezes_S1x16x785_S16x785).view f0)) Finset.univ)
      = fun idx => src.view.read (Elt F) f0
          (ix3 ⟨off 0, blk_lt0 off inb⟩ ⟨off 1 + (idx 0).val, blk_lt1 off inb (idx 0)⟩ (idx 1)) := by
  rw [View.read_write_univ]
  funext idx
  exact (read_reshape_slice src.view _ _ f0 idx).trans (congrArg _ (blk_emb off inb h2 _ idx))

/-- COPY OUT, inside the block. The array after a buffer with contents a' is copied onto its block at offsets off reads,
    at an index x of the block, the buffer's element at row x 1 - off 1, column x 2, -/
theorem copy_out_mem (dst : Memref sig .scVector .hbm S8x2048x785 .f32) (src : Memref sig .scVector .vmem S16x785 .f32)
    (off : Fin 3 → Nat) (inb : ∀ a, off a + S1x16x785.size a ≤ S8x2048x785.size a) (h2 : off 2 = 0)
    (g : dst.view.ty.Contents (Elt F)) (a' : src.view.ty.Contents (Elt F)) (x : S8x2048x785.Idx)
    (hx : x ∈ (Rect.unit (s := S8x2048x785) off S1x16x785.size inb).set) :
    dst.view.read (Elt F) (((dst.slice (Rect.unit (s := S8x2048x785) off S1x16x785.size inb) (fun _ => rfl)).squeeze S16x785
        squeezes_S1x16x785_S16x785).view.writes (Elt F) g
          [⟨Rect.whole S16x785, ReadAs.same.apply (View.read (Elt F) src.view a')⟩]) x
      = src.view.read (Elt F) a' (ix2 ⟨(x 1).val - off 1, blk_row_lt off inb x hx⟩ ⟨(x 2).val, blk_col_lt x⟩) := by
  have key := read_writes_reshape_slice_emb dst.view (Rect.unit (s := S8x2048x785) off S1x16x785.size inb)
    squeezes_S1x16x785_S16x785.numel_eq g (ReadAs.same.apply (View.read (Elt F) src.view a'))
    (ix2 ⟨(x 1).val - off 1, blk_row_lt off inb x hx⟩ ⟨(x 2).val, blk_col_lt x⟩)
  rw [blk_emb_of_mem off inb h2 _ x hx] at key
  exact key

/-- and, outside the block, what it read before. -/
theorem copy_out_not_mem (dst : Memref sig .scVector .hbm S8x2048x785 .f32) (src : Memref sig .scVector .vmem S16x785 .f32)
    (off : Fin 3 → Nat) (inb : ∀ a, off a + S1x16x785.size a ≤ S8x2048x785.size a)
    (g : dst.view.ty.Contents (Elt F)) (a' : src.view.ty.Contents (Elt F)) (x : S8x2048x785.Idx)
    (hx : x ∉ (Rect.unit (s := S8x2048x785) off S1x16x785.size inb).set) :
    dst.view.read (Elt F) (((dst.slice (Rect.unit (s := S8x2048x785) off S1x16x785.size inb) (fun _ => rfl)).squeeze S16x785
        squeezes_S1x16x785_S16x785).view.writes (Elt F) g
          [⟨Rect.whole S16x785, ReadAs.same.apply (View.read (Elt F) src.view a')⟩]) x
      = dst.view.read (Elt F) g x :=
  read_writes_reshape_slice_of_not_mem dst.view (Rect.unit (s := S8x2048x785) off S1x16x785.size inb)
    squeezes_S1x16x785_S16x785.numel_eq g (ReadAs.same.apply (View.read (Elt F) src.view a')) hx

end Copy

/-! ## A run of a vector: the rectangle alone, no axis dropped -/

section General1

variable {sg : RefSig} {κ : Kind} {sp : Space} {s : Shape} {e : EltTy} {Val : EltTy → Type}

/-- After an unmasked write of a whole payload through a rectangle of a view, the view reads the payload at every element
    of the rectangle, -/
theorem read_writes_slice_emb (v : View sg κ sp s e) (r : Rect s) (g : v.ty.Contents Val) (w : r.shape.Idx → Val e)
    (x : r.shape.Idx) : v.read Val ((v.slice r).writes Val g [⟨Rect.whole r.shape, w⟩]) (r.emb x) = w x := by
  have he : ((v.slice r).slice (Rect.whole r.shape)).emb x = v.emb (r.emb x) := by
    show v.emb (r.emb ((Rect.whole r.shape).emb x)) = _
    rw [Rect.emb_whole_apply]
  rw [View.read_apply, ← he, View.writes_singleton, View.write_emb_of_mem _ _ (Finset.mem_univ _), cast_cast, cast_eq]

/-- and the old contents at every other index. -/
theorem read_writes_slice_of_not_mem (v : View sg κ sp s e) (r : Rect s) (g : v.ty.Contents Val) (w : r.shape.Idx → Val e)
    {y : s.Idx} (hy : y ∉ r.set) : v.read Val ((v.slice r).writes Val g [⟨Rect.whole r.shape, w⟩]) y = v.read Val g y := by
  rw [View.read_apply, View.read_apply, View.writes_singleton, View.write_of_not_mem]
  intro hm
  apply hy
  rw [View.setOn_univ, View.set_slice, Rect.set_whole] at hm
  change v.emb y ∈ (v.slice r).set at hm
  rw [View.set_slice] at hm
  exact (Finset.mem_map' v.emb).mp hm

end General1

section Run

/-- An index of the vector inside the run is, counted from the run's first, an index of the run. -/
theorem run_lt (off : Fin 1 → Nat) (inb : ∀ a, off a + S512.size a ≤ S16384.size a) (x : S16384.Idx)
    (hx : x ∈ (Rect.unit (s := S16384) off S512.size inb).set) : (x 0).val - off 0 < 512 := by
  have := Rect.mem_set_unit.mp hx 0; change off 0 ≤ (x 0).val ∧ (x 0).val < off 0 + 512 at this; omega

/-- It is where the run's rectangle places that index. -/
theorem run_emb_of_mem (off : Fin 1 → Nat) (inb : ∀ a, off a + S512.size a ≤ S16384.size a) (x : S16384.Idx)
    (hx : x ∈ (Rect.unit (s := S16384) off S512.size inb).set) :
    (Rect.unit (s := S16384) off S512.size inb).emb (ix1 ⟨(x 0).val - off 0, run_lt off inb x hx⟩) = x := by
  have hm := Rect.mem_set_unit.mp hx
  funext a
  apply Fin.ext
  obtain rfl : a = 0 := Subsingleton.elim (α := Fin 1) _ _
  have := hm 0; change off 0 ≤ (x 0).val ∧ (x 0).val < off 0 + 512 at this
  show off 0 + 1 * ((x 0).val - off 0) = (x 0).val; omega

variable {F : FTy → Type}

/-- COPY OUT of a run, inside it. The vector after a 512-element buffer with contents p is copied onto its run at offset
    off reads, at an index x of the run, the buffer's element x 0 - off 0, -/
theorem copy_out1_mem (dst : Memref sig .scVector .hbm S16384 .f32) (src : Memref sig .scVector .vmem S512 .f32)
    (off : Fin 1 → Nat) (inb : ∀ a, off a + S512.size a ≤ S16384.size a)
    (g : dst.view.ty.Contents (Elt F)) (p : src.view.ty.Contents (Elt F)) (x : S16384.Idx)
    (hx : x ∈ (Rect.unit (s := S16384) off S512.size inb).set) :
    dst.view.read (Elt F) ((dst.slice (Rect.unit (s := S16384) off S512.size inb) (fun _ => rfl)).view.writes (Elt F) g
          [⟨Rect.whole S512, ReadAs.same.apply (View.read (Elt F) src.view p)⟩]) x
      = src.view.read (Elt F) p (ix1 ⟨(x 0).val - off 0, run_lt off inb x hx⟩) := by
  have key := read_writes_slice_emb dst.view (Rect.unit (s := S16384) off S512.size inb) g
    (ReadAs.same.apply (View.read (Elt F) src.view p)) (ix1 ⟨(x 0).val - off 0, run_lt off inb x hx⟩)
  rw [run_emb_of_mem off inb x hx] at key
  exact key

/-- and, outside the run, what it read before. -/
theorem copy_out1_not_mem (dst : Memref sig .scVector .hbm S16384 .f32) (src : Memref sig .scVector .vmem S512 .f32)
    (off : Fin 1 → Nat) (inb : ∀ a, off a + S512.size a ≤ S16384.size a)
    (g : dst.view.ty.Contents (Elt F)) (p : src.view.ty.Contents (Elt F)) (x : S16384.Idx)
    (hx : x ∉ (Rect.unit (s := S16384) off S512.size inb).set) :
    dst.view.read (Elt F) ((dst.slice (Rect.unit (s := S16384) off S512.size inb) (fun _ => rfl)).view.writes (Elt F) g
          [⟨Rect.whole S512, ReadAs.same.apply (View.read (Elt F) src.view p)⟩]) x
      = dst.view.read (Elt F) g x :=
  read_writes_slice_of_not_mem dst.view (Rect.unit (s := S16384) off S512.size inb) g
    (ReadAs.same.apply (View.read (Elt F) src.view p)) hx

/-- COPY IN of a whole table. The buffer after a table of its own shape with contents fc is copied onto it reads what
    the table reads. -/
theorem copy_in1 (src : Memref sig .scVector .hbm S784 .f32) (dst : Memref sig .scVector .vmem S784 .f32)
    (t : dst.view.ty.Contents (Elt F)) (fc : src.view.ty.Contents (Elt F)) :
    dst.view.read (Elt F) (View.write (Elt F) dst.view t (ReadAs.same.apply (View.read (Elt F) src.view fc)) Finset.univ)
      = src.view.read (Elt F) fc :=
  View.read_write_univ _ _

end Run

/-! ## The same between the whole buffers of the call: the read through a whole buffer is its contents

Each statement below is the one above at two of the call's buffers, the reads through them dropped (a whole buffer reads
as its contents, by computation). The pairs are the ones the body copies between: lower and upper input arrays into the
first and second pair of row buffers, those buffers out onto the lower and upper result arrays, the two bound buffers onto
runs of the two bound vectors, and the two tables into their buffers. -/

section Whole

variable {F : FTy → Type}

/-- COPY IN of a block of `lH` into `laV`. -/
theorem copy_in_lH_laV (off : Fin 3 → Nat) (inb : ∀ a, off a + S1x16x785.size a ≤ S8x2048x785.size a) (h2 : off 2 = 0)
    (a' : laV.view.ty.Contents (Elt F)) (f0 : lH.view.ty.Contents (Elt F)) :
    View.write (Elt F) laV.view a' (ReadAs.same.apply (View.read (Elt F)
        ((lH.slice (Rect.unit (s := S8x2048x785) off S1x16x785.size inb) (fun _ => rfl)).squeeze S16x785
          squeezes_S1x16x785_S16x785).view f0)) Finset.univ
      = fun idx => f0 (ix3 ⟨off 0, blk_lt0 off inb⟩ ⟨off 1 + (idx 0).val, blk_lt1 off inb (idx 0)⟩ (idx 1)) :=
  copy_in lH laV off inb h2 a' f0

/-- COPY IN of a block of `uH` into `uaV`. -/
theorem copy_in_uH_uaV (off : Fin 3 → Nat) (inb : ∀ a, off a + S1x16x785.size a ≤ S8x2048x785.size a) (h2 : off 2 = 0)
    (a' : uaV.view.ty.Contents (Elt F)) (f0 : uH.view.ty.Contents (Elt F)) :
    View.write (Elt F) uaV.view a' (ReadAs.same.apply (View.read (Elt F)
        ((uH.slice (Rect.unit (s := S8x2048x785) off S1x16x785.size inb) (fun _ => rfl)).squeeze S16x785
          squeezes_S1x16x785_S16x785).view f0)) Finset.univ
      = fun idx => f0 (ix3 ⟨off 0, blk_lt0 off inb⟩ ⟨off 1 + (idx 0).val, blk_lt1 off inb (idx 0)⟩ (idx 1)) :=
  copy_in uH uaV off inb h2 a' f0

/-- COPY IN of a block of `lH` into `lbV`. -/
theorem copy_in_lH_lbV (off : Fin 3 → Nat) (inb : ∀ a, off a + S1x16x785.size a ≤ S8x2048x785.size a) (h2 : off 2 = 0)
    (a' : lbV.view.ty.Contents (Elt F)) (f0 : lH.view.ty.Contents (Elt F)) :
    View.write (Elt F) lbV.view a' (ReadAs.same.apply (View.read (Elt F)
        ((lH.slice (Rect.unit (s := S8x2048x785) off S1x16x785.size inb) (fun _ => rfl)).squeeze S16x785
          squeezes_S1x16x785_S16x785).view f0)) Finset.univ
      = fun idx => f0 (ix3 ⟨off 0, blk_lt0 off inb⟩ ⟨off 1 + (idx 0).val, blk_lt1 off inb (idx 0)⟩ (idx 1)) :=
  copy_in lH lbV off inb h2 a' f0

/-- COPY IN of a block of `uH` into `ubV`. -/
theorem copy_in_uH_ubV (off : Fin 3 → Nat) (inb : ∀ a, off a + S1x16x785.size a ≤ S8x2048x785.size a) (h2 : off 2 = 0)
    (a' : ubV.view.ty.Contents (Elt F)) (f0 : uH.view.ty.Contents (Elt F)) :
    View.write (Elt F) ubV.view a' (ReadAs.same.apply (View.read (Elt F)
        ((uH.slice (Rect.unit (s := S8x2048x785) off S1x16x785.size inb) (fun _ => rfl)).squeeze S16x785
          squeezes_S1x16x785_S16x785).view f0)) Finset.univ
      = fun idx => f0 (ix3 ⟨off 0, blk_lt0 off inb⟩ ⟨off 1 + (idx 0).val, blk_lt1 off inb (idx 0)⟩ (idx 1)) :=
  copy_in uH ubV off inb h2 a' f0

/-- COPY OUT of `plbV` onto a run of `plbH`, inside the run, -/
theorem copy_out1_plbH_plbV_mem (off : Fin 1 → Nat) (inb : ∀ a, off a + S512.size a ≤ S16384.size a)
    (g : plbH.view.ty.Contents (Elt F)) (p : plbV.view.ty.Contents (Elt F)) (x : S16384.Idx)
    (hx : x ∈ (Rect.unit (s := S16384) off S512.size inb).set) :
    ((plbH.slice (Rect.unit (s := S16384) off S512.size inb) (fun _ => rfl)).view.writes (Elt F) g
          [⟨Rect.whole S512, ReadAs.same.apply (View.read (Elt F) plbV.view p)⟩]) x
      = p (ix1 ⟨(x 0).val - off 0, run_lt off inb x hx⟩) :=
  copy_out1_mem plbH plbV off inb g p x hx

/-- and outside it. -/
theorem copy_out1_plbH_plbV_not_mem (off : Fin 1 → Nat) (inb : ∀ a, off a + S512.size a ≤ S16384.size a)
    (g : plbH.view.ty.Contents (Elt F)) (p : plbV.view.ty.Contents (Elt F)) (x : S16384.Idx)
    (hx : x ∉ (Rect.unit (s := S16384) off S512.size inb).set) :
    ((plbH.slice (Rect.unit (s := S16384) off S512.size inb) (fun _ => rfl)).view.writes (Elt F) g
          [⟨Rect.whole S512, ReadAs.same.apply (View.read (Elt F) plbV.view p)⟩]) x = g x :=
  copy_out1_not_mem plbH plbV off inb g p x hx

/-- COPY OUT of `pubV` onto a run of `pubH`, inside the run, -/
theorem copy_out1_pubH_pubV_mem (off : Fin 1 → Nat) (inb : ∀ a, off a + S512.size a ≤ S16384.size a)
    (g : pubH.view.ty.Contents (Elt F)) (p : pubV.view.ty.Contents (Elt F)) (x : S16384.Idx)
    (hx : x ∈ (Rect.unit (s := S16384) off S512.size inb).set) :
    ((pubH.slice (Rect.unit (s := S16384) off S512.size inb) (fun _ => rfl)).view.writes (Elt F) g
          [⟨Rect.whole S512, ReadAs.same.apply (View.read (Elt F) pubV.view p)⟩]) x
      = p (ix1 ⟨(x 0).val - off 0, run_lt off inb x hx⟩) :=
  copy_out1_mem pubH pubV off inb g p x hx

/-- and outside it. -/
theorem copy_out1_pubH_pubV_not_mem (off : Fin 1 → Nat) (inb : ∀ a, off a + S512.size a ≤ S16384.size a)
    (g : pubH.view.ty.Contents (Elt F)) (p : pubV.view.ty.Contents (Elt F)) (x : S16384.Idx)
    (hx : x ∉ (Rect.unit (s := S16384) off S512.size inb).set) :
    ((pubH.slice (Rect.unit (s := S16384) off S512.size inb) (fun _ => rfl)).view.writes (Elt F) g
          [⟨Rect.whole S512, ReadAs.same.apply (View.read (Elt F) pubV.view p)⟩]) x = g x :=
  copy_out1_not_mem pubH pubV off inb g p x hx

/-- COPY IN of the whole table `cpH` into `cpV`: the buffer holds the table. -/
theorem copy_in1_cpH_cpV (t : cpV.view.ty.Contents (Elt F)) (fc : cpH.view.ty.Contents (Elt F)) :
    View.write (Elt F) cpV.view t (ReadAs.same.apply (View.read (Elt F) cpH.view fc)) Finset.univ = fc :=
  copy_in1 cpH cpV t fc

/-- COPY IN of the whole table `rpH` into `rpV`: the buffer holds the table. -/
theorem copy_in1_rpH_rpV (t : rpV.view.ty.Contents (Elt F)) (fc : rpH.view.ty.Contents (Elt F)) :
    View.write (Elt F) rpV.view t (ReadAs.same.apply (View.read (Elt F) rpH.view fc)) Finset.univ = fc :=
  copy_in1 rpH rpV t fc

end Whole

end Cert.Proof.KI

end
-- ==== Proof.KIVInv.lean ====
/-
  The main loop with what it computes: what the tile holds before trip `k`. The first 2k chunks of its rows are done:
  their slices of the two output arrays hold the rows' rescaled forms, and the first 32k entries of the two bound scratches
  hold the rows' concretized bounds; the copies of chunks 2k and 2k + 1 of the input arrays are on their way in. After the
  last trip the copies of the last two chunks' results are on their way out.
-/
import proofs.«214425_g62758062129325_cont_9to1_m_981_19_alg».proof.Proof.KIVGeo
import proofs.«214425_g62758062129325_cont_9to1_m_981_19_alg».proof.Proof.KIVCopy

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.RefSpec (sel sel_pos sel_neg)

local notation "𝕄" => MT nD τ sig (HIx 1) (Elt Ideal) ℕ UU ℕ

variable (d : Dev nD) (L : grid0.Coords)
  (O : CellTallies nD τ sig (HIx 1)) (W : Waits sig (HIx 1)) (q9 q10 q11 q12 : PosShare TreeShare)
  (f0 : Buf (Elt Ideal) (lH.view.loc (thr d L))) (f1 : Buf (Elt Ideal) (uH.view.loc (thr d L)))
  (c : Buf (Elt Ideal) (cpV.view.loc (thr d L))) (r : Buf (Elt Ideal) (rpV.view.loc (thr d L)))

/-- The two output coefficient arrays and the two bound vectors as the tile's tables and the launch contents give them. -/
abbrev gLo : Buf (Elt Ideal) (loH.view.loc (thr d L)) := Glo (cpOf d L c) (cpOf d L r) f0 f1
abbrev gUo : Buf (Elt Ideal) (uoH.view.loc (thr d L)) := Guo (cpOf d L c) (cpOf d L r) f0 f1
abbrev gPb : Buf (Elt Ideal) (plbH.view.loc (thr d L)) := Gplb (cpOf d L c) (cpOf d L r) f0 f1
abbrev gQb : Buf (Elt Ideal) (pubH.view.loc (thr d L)) := Gpub (cpOf d L c) (cpOf d L r) f0 f1

/-- A chunk on its way in, with what it will be: the copy is outstanding; once waited for, the buffer holds `dv`. -/
def inFlV (sm : DmaSems sig S_) (dst : Memref sig .scVector .vmem S16x785 .f32) (src : Memref sig .scVector .hbm S8x2048x785 .f32)
    (q : PosShare TreeShare) (f : Buf (Elt Ideal) (src.view.loc (thr d L))) (dv : Buf (Elt Ideal) (dst.view.loc (thr d L))) : sProp 𝕄 :=
  iprop(∃ (S : Finset (Idx (src.view.loc (thr d L)))),
    Transfers.Flight (countersEmb (U := UU)) (thr d L) (SemLoc.dma sm.sem) (default : HIx 1) 401920
        iprop((dst.view.loc (thr d L) ↦{fullShare} dv) ∗ (src.view.loc (thr d L) ↦[S]{q} f))
      ∗ (src.view.loc (thr d L) ↦[Finset.univ \ S]{q} f))

/-- The four slices of a finished trip: they hold the result arrays' values. -/
def doneOuts (k : Fin k0_t1_loop.trips) : sProp 𝕄 :=
  iprop(((outA L k).view.loc (thr d L) ↦[(outA L k).view.set]{fullShare} gLo d L f0 f1 c r)
    ∗ ((outA' L k).view.loc (thr d L) ↦[(outA' L k).view.set]{fullShare} gUo d L f0 f1 c r)
    ∗ ((outB L k).view.loc (thr d L) ↦[(outB L k).view.set]{fullShare} gLo d L f0 f1 c r)
    ∗ ((outB' L k).view.loc (thr d L) ↦[(outB' L k).view.set]{fullShare} gUo d L f0 f1 c r))

/-- Trip `j`'s four slices before trip `k`: finished if `j < k`, else at some contents. -/
def outsAtV (k : Nat) (j : Fin k0_t1_loop.trips) : sProp 𝕄 :=
  if j.val < k then doneOuts d L f0 f1 c r j else outsAt (F := Ideal) d L j

/-- A chunk's results on their way out: the slice will hold the result array's values. -/
def outFlV (sm : DmaSems sig S_) (src : Memref sig .scVector .vmem S16x785 .f32) (dst : Memref sig .scVector .hbm S16x785 .f32)
    (G : Buf (Elt Ideal) (dst.view.loc (thr d L))) : sProp 𝕄 :=
  iprop(∃ (g : Buf (Elt Ideal) (dst.view.loc (thr d L))) (sv : Buf (Elt Ideal) (src.view.loc (thr d L))),
    ⌜∀ x ∈ dst.view.set, g x = G x⌝
      ∗ Transfers.Flight (countersEmb (U := UU)) (thr d L) (SemLoc.dma sm.sem) (default : HIx 1) 401920
        iprop((dst.view.loc (thr d L) ↦[dst.view.set]{fullShare} g) ∗ (src.view.loc (thr d L) ↦[src.view.set]{fullShare} sv))
      ∗ (src.view.loc (thr d L) ↦[Finset.univ \ src.view.set]{fullShare} sv))

/-- The bound scratch when the first `k` trips are done: entry `t` (the tile's row `t`) holds row `512·w + t`'s bound. -/
def doneP (G : (⟨1, ![16384]⟩ : Shape).Idx → EReal) (p0 : (⟨1, ![512]⟩ : Shape).Idx → EReal) (k : Nat) : (⟨1, ![512]⟩ : Shape).Idx → EReal :=
  fun i => sel ((i 0).val < 32 * k) (G (ix1 ⟨(512 * wid L + (i 0).val) % 16384, Nat.mod_lt _ (by decide)⟩)) (p0 i)

/-- What every trip finds and leaves apart from the copies. -/
def commonV (k : Nat) : sProp 𝕄 :=
  iprop(Transfers.MayWaits (thr d L) (none : HIx 1) O
    ∗ (∃ W', ⌜∀ p ∈ W', p ∈ W ∨ p.2 = none⌝ ∗ owes (thr d L) O W')
    ∗ (cpV.view.loc (thr d L) ↦{fullShare} c) ∗ (rpV.view.loc (thr d L) ↦{fullShare} r)
    ∗ (∃ p0, plbV.view.loc (thr d L) ↦{fullShare} doneP L (gPb d L f0 f1 c r) p0 k)
    ∗ (∃ p0, pubV.view.loc (thr d L) ↦{fullShare} doneP L (gQb d L f0 f1 c r) p0 k)
    ∗ (∃ e, redV.view.loc (thr d L) ↦{fullShare} e))

def invInV (k : Nat) : sProp 𝕄 :=
  iprop(inFlV d L cc0_scratch9 laV lH q9 f0 (chunkOf L f0 (2 * k)) ∗ inFlV d L cc0_scratch10 uaV uH q10 f1 (chunkOf L f1 (2 * k))
    ∗ inFlV d L cc0_scratch11 lbV lH q11 f0 (chunkOf L f0 (2 * k + 1)) ∗ inFlV d L cc0_scratch12 ubV uH q12 f1 (chunkOf L f1 (2 * k + 1))
    ∗ semVal (thr d L, SemLoc.dma cc0_scratch13.sem) 0 ∗ semVal (thr d L, SemLoc.dma cc0_scratch14.sem) 0
    ∗ semVal (thr d L, SemLoc.dma cc0_scratch15.sem) 0 ∗ semVal (thr d L, SemLoc.dma cc0_scratch16.sem) 0
    ∗ bigSep Finset.univ (outsAtV d L f0 f1 c r k))

def invOutV : sProp 𝕄 :=
  iprop(∃ kl : Fin k0_t1_loop.trips, ⌜kl.val + 1 = k0_t1_loop.trips⌝ ∗
    (lH.view.loc (thr d L) ↦{q9} f0) ∗ (uH.view.loc (thr d L) ↦{q10} f1)
    ∗ (lH.view.loc (thr d L) ↦{q11} f0) ∗ (uH.view.loc (thr d L) ↦{q12} f1)
    ∗ semVal (thr d L, SemLoc.dma cc0_scratch9.sem) 0 ∗ semVal (thr d L, SemLoc.dma cc0_scratch10.sem) 0
    ∗ semVal (thr d L, SemLoc.dma cc0_scratch11.sem) 0 ∗ semVal (thr d L, SemLoc.dma cc0_scratch12.sem) 0
    ∗ outFlV d L cc0_scratch13 laV (outA L kl) (gLo d L f0 f1 c r) ∗ outFlV d L cc0_scratch14 uaV (outA' L kl) (gUo d L f0 f1 c r)
    ∗ outFlV d L cc0_scratch15 lbV (outB L kl) (gLo d L f0 f1 c r) ∗ outFlV d L cc0_scratch16 ubV (outB' L kl) (gUo d L f0 f1 c r)
    ∗ bigSep (Finset.univ.erase kl) (outsAtV d L f0 f1 c r k0_t1_loop.trips))

/-- The main loop's invariant, with values. -/
def loopInvV (k : Nat) (_ : BitVec 32) : sProp 𝕄 :=
  iprop(commonV d L O W f0 f1 c r k ∗ if k < k0_t1_loop.trips then invInV d L q9 q10 q11 q12 f0 f1 c r k else invOutV d L q9 q10 q11 q12 f0 f1 c r)

end Cert.Proof.KI

end
-- ==== Proof.KIVTile.lean ====
/-
  The tile's task with what it computes: handed its read shares of the two tables (the centres and radii @main computed)
  and of the two input arrays, and its slices of the four results, the tile hands back the shares and the slices, every
  slice now holding the result arrays' values.
-/
import proofs.«214425_g62758062129325_cont_9to1_m_981_19_alg».proof.Proof.KIVInv

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ

variable (d : Dev nD) (L : grid0.Coords) (qc qr q9 q10 q11 q12 : PosShare TreeShare)
  (fc : Buf (Elt Ideal) (cpH.view.loc (thr d L))) (fr : Buf (Elt Ideal) (rpH.view.loc (thr d L)))
  (f0 : Buf (Elt Ideal) (lH.view.loc (thr d L))) (f1 : Buf (Elt Ideal) (uH.view.loc (thr d L)))

/-- What the tile hands back: the read shares as it got them, and its slices of the four results holding the result
    arrays' values (as functions of the tables' and the input arrays' contents). -/
def tdResV : sProp 𝕄 :=
  iprop((cpH.view.loc (thr d L) ↦{qc} fc) ∗ (rpH.view.loc (thr d L) ↦{qr} fr)
    ∗ (lH.view.loc (thr d L) ↦{q9} f0) ∗ (uH.view.loc (thr d L) ↦{q10} f1)
    ∗ (lH.view.loc (thr d L) ↦{q11} f0) ∗ (uH.view.loc (thr d L) ↦{q12} f1)
    ∗ bigSep Finset.univ (doneOuts d L f0 f1 fc fr)
    ∗ ((plbSl L).view.loc (thr d L) ↦[(plbSl L).view.set]{fullShare} gPb d L f0 f1 fc fr)
    ∗ ((pubSl L).view.loc (thr d L) ↦[(pubSl L).view.set]{fullShare} gQb d L f0 f1 fc fr))

/-- The tile's task, with values: from `goRes` (KIBody.lean) to `tdResV`. -/
def TileTaskV : Prop :=
  ∀ (O : CellTallies nD τ sig (HIx 1)) (W : Waits sig (HIx 1)), (∀ g, O g none = 0) →
    iprop(levAts (K (F := Ideal)).L (K (F := Ideal)).lev ∗ emp ∗ goRes (F := Ideal) d L qc qr q9 q10 q11 q12 fc fr f0 f1
        ∗ scopedBufs (thr d L) ∗ scopedSems0 (thr d L) ∗ owes (thr d L) O W)
      ⊢ (wp Idealize.ShloMosaic.frame (wpE (defs₀ (F := Ideal)) 𝒱₀ (thr d L) none) Set.univ (bodyAt (F := Ideal) L)
          fun _ => iprop(tdResV d L qc qr q9 q10 q11 q12 fc fr f0 f1 ∗ scopedBufs (thr d L) ∗ scopedSems0 (thr d L)
            ∗ ∃ W', ⌜∀ p ∈ W', p ∈ W ∨ p.2 = none⌝ ∗ owes (thr d L) O W') : sProp 𝕄)

end Cert.Proof.KI

end
-- ==== Proof.LibConcretize.lean ====
/-
  Interval bounds of an affine form over a box, two ways.

  For a coefficient row `c`, a bias `b` and a box `lo ≤ x ≤ hi`, interval arithmetic bounds
  `c · x + b` below by `∑ max(c,0)·lo + ∑ min(c,0)·hi + b` and above by
  `∑ max(c,0)·hi + ∑ min(c,0)·lo + b`. The same two numbers are `S - T` and `S + T` for the
  centre value `S = ∑ c·mid + b` and the radius value `T = ∑ |c|·rad`, where
  `mid = (lo + hi)/2` and `rad = (hi - lo)/2`. Both bounds are positively homogeneous in the
  pair `(c, b)`. The statements are given over the reals and then over the extended reals for
  finite data (every input the coercion of a real).
-/
import Idealize.ShloMosaic.PureOps.Ideal

namespace Cert.Lib.Concretize

open Finset

variable {ι : Type*} [Fintype ι]

/-! ## Over the reals: centre and radius -/

/-- One coordinate of the lower bound: `max(c,0)·lo + min(c,0)·hi = c·mid - |c|·rad`.
For `c ≥ 0` both sides are `c·lo`, for `c ≤ 0` both are `c·hi`. -/
theorem lower_term (c lo hi : ℝ) :
    max c 0 * lo + min c 0 * hi
      = c * ((lo + hi) * (1 / 2)) - |c| * ((hi - lo) * (1 / 2)) := by
  rcases le_total 0 c with h | h
  · rw [max_eq_left h, min_eq_right h, abs_of_nonneg h]; ring
  · rw [max_eq_right h, min_eq_left h, abs_of_nonpos h]; ring

/-- One coordinate of the upper bound: `max(c,0)·hi + min(c,0)·lo = c·mid + |c|·rad`. -/
theorem upper_term (c lo hi : ℝ) :
    max c 0 * hi + min c 0 * lo
      = c * ((lo + hi) * (1 / 2)) + |c| * ((hi - lo) * (1 / 2)) := by
  rcases le_total 0 c with h | h
  · rw [max_eq_left h, min_eq_right h, abs_of_nonneg h]; ring
  · rw [max_eq_right h, min_eq_left h, abs_of_nonpos h]; ring

/-- The interval lower bound of `c · x + b` over the box is centre value minus radius value.
No ordering of `lo` and `hi` is needed. -/
theorem lower_eq_mid_rad (c lo hi : ι → ℝ) (b : ℝ) :
    (∑ k, max (c k) 0 * lo k) + (∑ k, min (c k) 0 * hi k) + b
      = ((∑ k, c k * ((lo k + hi k) * (1 / 2))) + b)
          - ∑ k, |c k| * ((hi k - lo k) * (1 / 2)) := by
  rw [← Finset.sum_add_distrib, Finset.sum_congr rfl (fun k _ => lower_term (c k) (lo k) (hi k)),
    Finset.sum_sub_distrib]
  ring

/-- The interval upper bound of `c · x + b` over the box is centre value plus radius value. -/
theorem upper_eq_mid_rad (c lo hi : ι → ℝ) (b : ℝ) :
    (∑ k, max (c k) 0 * hi k) + (∑ k, min (c k) 0 * lo k) + b
      = ((∑ k, c k * ((lo k + hi k) * (1 / 2))) + b)
          + ∑ k, |c k| * ((hi k - lo k) * (1 / 2)) := by
  rw [← Finset.sum_add_distrib, Finset.sum_congr rfl (fun k _ => upper_term (c k) (lo k) (hi k)),
    Finset.sum_add_distrib]
  ring

/-! ## Over the reals: positive homogeneity -/

/-- The positive part commutes with a nonnegative factor on the left. -/
theorem max_mul_left_zero {s : ℝ} (hs : 0 ≤ s) (c : ℝ) : max (s * c) 0 = s * max c 0 := by
  rw [mul_max_of_nonneg _ _ hs, mul_zero]

/-- The negative part commutes with a nonnegative factor on the left. -/
theorem min_mul_left_zero {s : ℝ} (hs : 0 ≤ s) (c : ℝ) : min (s * c) 0 = s * min c 0 := by
  rw [mul_min_of_nonneg _ _ hs, mul_zero]

/-- The positive part commutes with a nonnegative factor on the right. -/
theorem max_mul_right_zero {s : ℝ} (hs : 0 ≤ s) (c : ℝ) : max (c * s) 0 = max c 0 * s := by
  rw [max_mul_of_nonneg _ _ hs, zero_mul]

/-- The negative part commutes with a nonnegative factor on the right. -/
theorem min_mul_right_zero {s : ℝ} (hs : 0 ≤ s) (c : ℝ) : min (c * s) 0 = min c 0 * s := by
  rw [min_mul_of_nonneg _ _ hs, zero_mul]

/-- A bound of the shape `∑ max(c,0)·p + ∑ min(c,0)·q + b` is positively homogeneous in `(c, b)`
(factor on the left). With `p = lo, q = hi` it is the lower bound, with `p = hi, q = lo` the
upper bound. -/
theorem bound_scale {s : ℝ} (hs : 0 ≤ s) (c p q : ι → ℝ) (b : ℝ) :
    (∑ k, max (s * c k) 0 * p k) + (∑ k, min (s * c k) 0 * q k) + s * b
      = s * ((∑ k, max (c k) 0 * p k) + (∑ k, min (c k) 0 * q k) + b) := by
  simp only [max_mul_left_zero hs, min_mul_left_zero hs, mul_assoc]
  rw [← Finset.mul_sum, ← Finset.mul_sum]
  ring

/-- The same with the factor written on the right of each coefficient. -/
theorem bound_scale' {s : ℝ} (hs : 0 ≤ s) (c p q : ι → ℝ) (b : ℝ) :
    (∑ k, max (c k * s) 0 * p k) + (∑ k, min (c k * s) 0 * q k) + b * s
      = ((∑ k, max (c k) 0 * p k) + (∑ k, min (c k) 0 * q k) + b) * s := by
  have h := bound_scale hs c p q b
  simp only [mul_comm s] at h
  exact h

/-- Lower bound of the rescaled row `(s·c, s·b)`, `s ≥ 0`: `s` times the lower bound. -/
theorem lower_scale {s : ℝ} (hs : 0 ≤ s) (c lo hi : ι → ℝ) (b : ℝ) :
    (∑ k, max (s * c k) 0 * lo k) + (∑ k, min (s * c k) 0 * hi k) + s * b
      = s * ((∑ k, max (c k) 0 * lo k) + (∑ k, min (c k) 0 * hi k) + b) :=
  bound_scale hs c lo hi b

/-- Upper bound of the rescaled row `(s·c, s·b)`, `s ≥ 0`: `s` times the upper bound. -/
theorem upper_scale {s : ℝ} (hs : 0 ≤ s) (c lo hi : ι → ℝ) (b : ℝ) :
    (∑ k, max (s * c k) 0 * hi k) + (∑ k, min (s * c k) 0 * lo k) + s * b
      = s * ((∑ k, max (c k) 0 * hi k) + (∑ k, min (c k) 0 * lo k) + b) :=
  bound_scale hs c hi lo b

/-- Lower bound of the rescaled row, factor written on the right. -/
theorem lower_scale' {s : ℝ} (hs : 0 ≤ s) (c lo hi : ι → ℝ) (b : ℝ) :
    (∑ k, max (c k * s) 0 * lo k) + (∑ k, min (c k * s) 0 * hi k) + b * s
      = ((∑ k, max (c k) 0 * lo k) + (∑ k, min (c k) 0 * hi k) + b) * s :=
  bound_scale' hs c lo hi b

/-- Upper bound of the rescaled row, factor written on the right. -/
theorem upper_scale' {s : ℝ} (hs : 0 ≤ s) (c lo hi : ι → ℝ) (b : ℝ) :
    (∑ k, max (c k * s) 0 * hi k) + (∑ k, min (c k * s) 0 * lo k) + b * s
      = ((∑ k, max (c k) 0 * hi k) + (∑ k, min (c k) 0 * lo k) + b) * s :=
  bound_scale' hs c hi lo b

/-- Upper bound of the rescaled and shifted row `(s·c, s·b - t)`, `s ≥ 0`. -/
theorem upper_scale_sub {s : ℝ} (hs : 0 ≤ s) (c lo hi : ι → ℝ) (b t : ℝ) :
    (∑ k, max (s * c k) 0 * hi k) + (∑ k, min (s * c k) 0 * lo k) + (s * b - t)
      = s * ((∑ k, max (c k) 0 * hi k) + (∑ k, min (c k) 0 * lo k) + b) - t := by
  rw [← upper_scale hs c lo hi b]; ring

/-- Lower bound of the rescaled and shifted row `(s·c, s·b - t)`, `s ≥ 0`. -/
theorem lower_scale_sub {s : ℝ} (hs : 0 ≤ s) (c lo hi : ι → ℝ) (b t : ℝ) :
    (∑ k, max (s * c k) 0 * lo k) + (∑ k, min (s * c k) 0 * hi k) + (s * b - t)
      = s * ((∑ k, max (c k) 0 * lo k) + (∑ k, min (c k) 0 * hi k) + b) - t := by
  rw [← lower_scale hs c lo hi b]; ring

/-! ## Finite extended reals

An extended real is *finite* when it is the coercion of a real. Finite data stay finite under the
field operations, the lattice operations and finite sums, and the coercion commutes with all of
them, so an identity between finite extended reals is the coercion of the identity over the
reals. -/

/-- The coercion of the reals commutes with finite sums. -/
@[simp, norm_cast]
theorem coe_sum {α : Type*} (s : Finset α) (f : α → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion of the reals is monotone, so it commutes with `max`. -/
@[simp, norm_cast]
theorem coe_max (a b : ℝ) : ((max a b : ℝ) : EReal) = max (a : EReal) (b : EReal) :=
  EReal.coe_strictMono.monotone.map_max

/-- The coercion of the reals is monotone, so it commutes with `min`. -/
@[simp, norm_cast]
theorem coe_min (a b : ℝ) : ((min a b : ℝ) : EReal) = min (a : EReal) (b : EReal) :=
  EReal.coe_strictMono.monotone.map_min

/-- The absolute value of a real, coerced, is `max x (-x)` on the extended reals. -/
theorem coe_abs_eq_max_neg (a : ℝ) : ((|a| : ℝ) : EReal) = max (a : EReal) (-(a : EReal)) := by
  rw [abs_eq_max_neg, coe_max, EReal.coe_neg]

/-- `max x (-x)` of a coerced real is the coerced absolute value. -/
theorem max_neg_coe (a : ℝ) : max (a : EReal) (-(a : EReal)) = ((|a| : ℝ) : EReal) :=
  (coe_abs_eq_max_neg a).symm

/-- An extended real is finite when it is the coercion of a real. -/
def IsReal (x : EReal) : Prop := ∃ r : ℝ, x = (r : EReal)

/-- A coerced real is finite. -/
theorem isReal_coe (r : ℝ) : IsReal (r : EReal) := ⟨r, rfl⟩

/-- Zero is finite. -/
theorem isReal_zero : IsReal (0 : EReal) := ⟨0, rfl⟩

/-- One is finite. -/
theorem isReal_one : IsReal (1 : EReal) := ⟨1, rfl⟩

/-- Finite means neither infinity. -/
theorem isReal_iff_ne {x : EReal} : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

/-- Finite means `|x| < ⊤`, the absolute value written `max x (-x)`. -/
theorem isReal_iff_abs_lt_top {x : EReal} : IsReal x ↔ max x (-x) < ⊤ := by
  constructor
  · rintro ⟨r, rfl⟩; rw [max_neg_coe]; exact EReal.coe_lt_top _
  · intro h
    refine isReal_iff_ne.2 ⟨?_, ?_⟩
    · rintro rfl; simp at h
    · rintro rfl; simp at h

/-- A finite extended real is the coercion of its real part. -/
theorem IsReal.eq_coe_toReal {x : EReal} (h : IsReal x) : x = ((x.toReal : ℝ) : EReal) := by
  obtain ⟨r, rfl⟩ := h; rfl

/-- A sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- A difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two finite extended reals is finite. -/
theorem IsReal.max {x y : EReal} (hx : IsReal x) (hy : IsReal y) : IsReal (max x y) := by
  obtain ⟨a, rfl⟩ := hx; obtain ⟨b, rfl⟩ := hy; exact ⟨Max.max a b, (coe_max a b).symm⟩

/-- The lesser of two finite extended reals is finite. -/
theorem IsReal.min {x y : EReal} (hx : IsReal x) (hy : IsReal y) : IsReal (min x y) := by
  obtain ⟨a, rfl⟩ := hx; obtain ⟨b, rfl⟩ := hy; exact ⟨Min.min a b, (coe_min a b).symm⟩

/-- A choice between two finite extended reals is finite. -/
theorem IsReal.ite {P : Prop} [Decidable P] {x y : EReal} (hx : IsReal x) (hy : IsReal y) :
    IsReal (if P then x else y) := by
  split_ifs <;> assumption

/-- A finite sum of finite extended reals is finite. -/
theorem IsReal.sum {α : Type*} (s : Finset α) {f : α → EReal} (hf : ∀ k ∈ s, IsReal (f k)) :
    IsReal (∑ k ∈ s, f k) := by
  classical
  induction s using Finset.induction_on with
  | empty => simpa using isReal_zero
  | insert a s ha ih =>
    rw [Finset.sum_insert ha]
    exact (hf a (Finset.mem_insert_self a s)).add
      (ih fun k hk => hf k (Finset.mem_insert_of_mem hk))

/-- A family of finite extended reals is the coercion of a family of reals. -/
theorem exists_coe_fun {α : Type*} {C : α → EReal} (h : ∀ k, IsReal (C k)) :
    ∃ c : α → ℝ, C = fun k => (c k : EReal) := by
  choose c hc using h
  exact ⟨c, funext hc⟩

/-! ## Over the extended reals, finite data: centre and radius

`H` stands for one half. The absolute value is written `max x (-x)`. -/

/-- Lower bound as centre value minus radius value, for coerced real data. -/
theorem lower_eq_mid_rad_coe (c lo hi : ι → ℝ) (b : ℝ) {H : EReal}
    (hH : H = ((1 / 2 : ℝ) : EReal)) :
    (∑ k, max (c k : EReal) 0 * (lo k : EReal)) + (∑ k, min (c k : EReal) 0 * (hi k : EReal))
        + (b : EReal)
      = ((∑ k, (c k : EReal) * (((lo k : EReal) + (hi k : EReal)) * H)) + (b : EReal))
          - ∑ k, max (c k : EReal) (-(c k : EReal)) * (((hi k : EReal) - (lo k : EReal)) * H) := by
  subst hH
  have h := congrArg (fun x : ℝ => (x : EReal)) (lower_eq_mid_rad c lo hi b)
  simp only [EReal.coe_add, EReal.coe_sub, coe_sum, EReal.coe_mul, coe_max, coe_min,
    coe_abs_eq_max_neg, EReal.coe_zero] at h
  exact h

/-- Upper bound as centre value plus radius value, for coerced real data. -/
theorem upper_eq_mid_rad_coe (c lo hi : ι → ℝ) (b : ℝ) {H : EReal}
    (hH : H = ((1 / 2 : ℝ) : EReal)) :
    (∑ k, max (c k : EReal) 0 * (hi k : EReal)) + (∑ k, min (c k : EReal) 0 * (lo k : EReal))
        + (b : EReal)
      = ((∑ k, (c k : EReal) * (((lo k : EReal) + (hi k : EReal)) * H)) + (b : EReal))
          + ∑ k, max (c k : EReal) (-(c k : EReal)) * (((hi k : EReal) - (lo k : EReal)) * H) := by
  subst hH
  have h := congrArg (fun x : ℝ => (x : EReal)) (upper_eq_mid_rad c lo hi b)
  simp only [EReal.coe_add, EReal.coe_sub, coe_sum, EReal.coe_mul, coe_max, coe_min,
    coe_abs_eq_max_neg, EReal.coe_zero] at h
  exact h

/-- Lower bound as centre value minus radius value, for finite extended-real data. -/
theorem lower_eq_mid_rad_ereal {C LO HI : ι → EReal} {B H : EReal}
    (hC : ∀ k, IsReal (C k)) (hLO : ∀ k, IsReal (LO k)) (hHI : ∀ k, IsReal (HI k))
    (hB : IsReal B) (hH : H = ((1 / 2 : ℝ) : EReal)) :
    (∑ k, max (C k) 0 * LO k) + (∑ k, min (C k) 0 * HI k) + B
      = ((∑ k, C k * ((LO k + HI k) * H)) + B)
          - ∑ k, max (C k) (-(C k)) * ((HI k - LO k) * H) := by
  obtain ⟨c, rfl⟩ := exists_coe_fun hC
  obtain ⟨lo, rfl⟩ := exists_coe_fun hLO
  obtain ⟨hi, rfl⟩ := exists_coe_fun hHI
  obtain ⟨b, rfl⟩ := hB
  exact lower_eq_mid_rad_coe c lo hi b hH

/-- Upper bound as centre value plus radius value, for finite extended-real data. -/
theorem upper_eq_mid_rad_ereal {C LO HI : ι → EReal} {B H : EReal}
    (hC : ∀ k, IsReal (C k)) (hLO : ∀ k, IsReal (LO k)) (hHI : ∀ k, IsReal (HI k))
    (hB : IsReal B) (hH : H = ((1 / 2 : ℝ) : EReal)) :
    (∑ k, max (C k) 0 * HI k) + (∑ k, min (C k) 0 * LO k) + B
      = ((∑ k, C k * ((LO k + HI k) * H)) + B)
          + ∑ k, max (C k) (-(C k)) * ((HI k - LO k) * H) := by
  obtain ⟨c, rfl⟩ := exists_coe_fun hC
  obtain ⟨lo, rfl⟩ := exists_coe_fun hLO
  obtain ⟨hi, rfl⟩ := exists_coe_fun hHI
  obtain ⟨b, rfl⟩ := hB
  exact upper_eq_mid_rad_coe c lo hi b hH

/-- The same lower bound with the positive and negative parts written `max 0 c`, `min 0 c`. -/
theorem lower_eq_mid_rad_ereal' {C LO HI : ι → EReal} {B H : EReal}
    (hC : ∀ k, IsReal (C k)) (hLO : ∀ k, IsReal (LO k)) (hHI : ∀ k, IsReal (HI k))
    (hB : IsReal B) (hH : H = ((1 / 2 : ℝ) : EReal)) :
    (∑ k, max 0 (C k) * LO k) + (∑ k, min 0 (C k) * HI k) + B
      = ((∑ k, C k * ((LO k + HI k) * H)) + B)
          - ∑ k, max (C k) (-(C k)) * ((HI k - LO k) * H) := by
  simp only [max_comm (0 : EReal), min_comm (0 : EReal)]
  exact lower_eq_mid_rad_ereal hC hLO hHI hB hH

/-- The same upper bound with the positive and negative parts written `max 0 c`, `min 0 c`. -/
theorem upper_eq_mid_rad_ereal' {C LO HI : ι → EReal} {B H : EReal}
    (hC : ∀ k, IsReal (C k)) (hLO : ∀ k, IsReal (LO k)) (hHI : ∀ k, IsReal (HI k))
    (hB : IsReal B) (hH : H = ((1 / 2 : ℝ) : EReal)) :
    (∑ k, max 0 (C k) * HI k) + (∑ k, min 0 (C k) * LO k) + B
      = ((∑ k, C k * ((LO k + HI k) * H)) + B)
          + ∑ k, max (C k) (-(C k)) * ((HI k - LO k) * H) := by
  simp only [max_comm (0 : EReal), min_comm (0 : EReal)]
  exact upper_eq_mid_rad_ereal hC hLO hHI hB hH

/-! ## Over the extended reals, finite data: positive homogeneity -/

/-- A bound `∑ max(c,0)·p + ∑ min(c,0)·q + b` of the rescaled row `(s·c, s·b)`, `s ≥ 0`, is `s` times
the bound, for coerced real data. `p = lo, q = hi` is the lower bound, `p = hi, q = lo` the upper. -/
theorem bound_scale_coe {s : ℝ} (hs : 0 ≤ s) (c p q : ι → ℝ) (b : ℝ) :
    (∑ k, max ((s : EReal) * (c k : EReal)) 0 * (p k : EReal))
        + (∑ k, min ((s : EReal) * (c k : EReal)) 0 * (q k : EReal)) + (s : EReal) * (b : EReal)
      = (s : EReal) * ((∑ k, max (c k : EReal) 0 * (p k : EReal))
          + (∑ k, min (c k : EReal) 0 * (q k : EReal)) + (b : EReal)) := by
  have h := congrArg (fun x : ℝ => (x : EReal)) (bound_scale hs c p q b)
  simp only [EReal.coe_add, coe_sum, EReal.coe_mul, coe_max, coe_min, EReal.coe_zero] at h
  exact h

/-- Positive homogeneity of a bound, finite extended-real data, factor on the left. -/
theorem bound_scale_ereal {S : EReal} {C P Q : ι → EReal} {B : EReal}
    (hS : IsReal S) (hS0 : 0 ≤ S) (hC : ∀ k, IsReal (C k)) (hP : ∀ k, IsReal (P k))
    (hQ : ∀ k, IsReal (Q k)) (hB : IsReal B) :
    (∑ k, max (S * C k) 0 * P k) + (∑ k, min (S * C k) 0 * Q k) + S * B
      = S * ((∑ k, max (C k) 0 * P k) + (∑ k, min (C k) 0 * Q k) + B) := by
  obtain ⟨s, rfl⟩ := hS
  obtain ⟨c, rfl⟩ := exists_coe_fun hC
  obtain ⟨p, rfl⟩ := exists_coe_fun hP
  obtain ⟨q, rfl⟩ := exists_coe_fun hQ
  obtain ⟨b, rfl⟩ := hB
  exact bound_scale_coe (EReal.coe_nonneg.1 hS0) c p q b

/-- Positive homogeneity of a bound, parts written `max 0 c`, `min 0 c`, factor on the left. -/
theorem bound_scale_ereal' {S : EReal} {C P Q : ι → EReal} {B : EReal}
    (hS : IsReal S) (hS0 : 0 ≤ S) (hC : ∀ k, IsReal (C k)) (hP : ∀ k, IsReal (P k))
    (hQ : ∀ k, IsReal (Q k)) (hB : IsReal B) :
    (∑ k, max 0 (S * C k) * P k) + (∑ k, min 0 (S * C k) * Q k) + S * B
      = S * ((∑ k, max 0 (C k) * P k) + (∑ k, min 0 (C k) * Q k) + B) := by
  simp only [max_comm (0 : EReal), min_comm (0 : EReal)]
  exact bound_scale_ereal hS hS0 hC hP hQ hB

/-- Positive homogeneity of a bound whose bias is also shifted: row `(s·c, s·b - t)`. -/
theorem bound_scale_sub_ereal {S T : EReal} {C P Q : ι → EReal} {B : EReal}
    (hS : IsReal S) (hS0 : 0 ≤ S) (hT : IsReal T) (hC : ∀ k, IsReal (C k))
    (hP : ∀ k, IsReal (P k)) (hQ : ∀ k, IsReal (Q k)) (hB : IsReal B) :
    (∑ k, max (S * C k) 0 * P k) + (∑ k, min (S * C k) 0 * Q k) + (S * B - T)
      = S * ((∑ k, max (C k) 0 * P k) + (∑ k, min (C k) 0 * Q k) + B) - T := by
  rw [← bound_scale_ereal hS hS0 hC hP hQ hB]
  obtain ⟨t, rfl⟩ := hT
  obtain ⟨x, hx⟩ := IsReal.sum Finset.univ (f := fun k => max (S * C k) 0 * P k)
    (fun k _ => ((hS.mul (hC k)).max isReal_zero).mul (hP k))
  obtain ⟨y, hy⟩ := IsReal.sum Finset.univ (f := fun k => min (S * C k) 0 * Q k)
    (fun k _ => ((hS.mul (hC k)).min isReal_zero).mul (hQ k))
  obtain ⟨z, hz⟩ := hS.mul hB
  rw [hx, hy, hz]
  norm_cast
  ring

/-- The same with the parts written `max 0 c`, `min 0 c`. -/
theorem bound_scale_sub_ereal' {S T : EReal} {C P Q : ι → EReal} {B : EReal}
    (hS : IsReal S) (hS0 : 0 ≤ S) (hT : IsReal T) (hC : ∀ k, IsReal (C k))
    (hP : ∀ k, IsReal (P k)) (hQ : ∀ k, IsReal (Q k)) (hB : IsReal B) :
    (∑ k, max 0 (S * C k) * P k) + (∑ k, min 0 (S * C k) * Q k) + (S * B - T)
      = S * ((∑ k, max 0 (C k) * P k) + (∑ k, min 0 (C k) * Q k) + B) - T := by
  simp only [max_comm (0 : EReal), min_comm (0 : EReal)]
  exact bound_scale_sub_ereal hS hS0 hT hC hP hQ hB

/-- The same with the shift written as the addition of a negative. -/
theorem bound_scale_add_neg_ereal' {S T : EReal} {C P Q : ι → EReal} {B : EReal}
    (hS : IsReal S) (hS0 : 0 ≤ S) (hT : IsReal T) (hC : ∀ k, IsReal (C k))
    (hP : ∀ k, IsReal (P k)) (hQ : ∀ k, IsReal (Q k)) (hB : IsReal B) :
    (∑ k, max 0 (S * C k) * P k) + (∑ k, min 0 (S * C k) * Q k) + (S * B + -T)
      = S * ((∑ k, max 0 (C k) * P k) + (∑ k, min 0 (C k) * Q k) + B) - T := by
  rw [← sub_eq_add_neg]
  exact bound_scale_sub_ereal' hS hS0 hT hC hP hQ hB

/-! ## The float operations read at the extended reals

At the extended reals a float addition, subtraction, product, maximum, minimum and negation are
the operations `+`, `-`, `*`, `max`, `min`, `-` themselves, the absolute value is `max x (-x)`,
and the quotient is `Ideal.div`. The statements above therefore apply to a program's value as
soon as its operations are rewritten to these. What follows is what is special to the quotient,
to the float words of a few constants, and to the finiteness test `|x| < +∞`. -/

open Idealize.ShloMosaic

/-- The float absolute value at the extended reals is `max x (-x)`. -/
theorem absf_eq {φ : FTy} (x : Ideal φ) : (FloatOps.absf x : Ideal φ) = max x (-x) := rfl

/-- The host's float absolute value at the extended reals is `max x (-x)`. -/
theorem hostAbsf_eq {φ : FTy} (x : Ideal φ) : (FloatOps.hostAbsf x : Ideal φ) = max x (-x) := rfl

/-- The f32 word of `+0.0` denotes zero. -/
theorem ofBits_f32_zero : Ideal.ofBits .f32 0x00000000#32 = 0 := by
  simp [Ideal.ofBits, Ideal.ieee]

/-- The f32 word `0x3F800000` denotes one. -/
theorem ofBits_f32_one : Ideal.ofBits .f32 0x3F800000#32 = 1 := by
  rw [show (1 : EReal) = ((1 : ℝ) : EReal) by norm_cast]
  simp [Ideal.ofBits, Ideal.ieee, -EReal.coe_mul]; norm_num

/-- The f32 word `0x3F000000` denotes one half. -/
theorem ofBits_f32_half : Ideal.ofBits .f32 0x3F000000#32 = ((1 / 2 : ℝ) : EReal) := by
  simp [Ideal.ofBits, Ideal.ieee, -EReal.coe_mul]; norm_num

/-- The f32 word `0x7F800000` denotes `+∞`. -/
theorem ofBits_f32_inf : Ideal.ofBits .f32 0x7F800000#32 = ⊤ := by
  simp [Ideal.ofBits, Ideal.ieee]

/-- The bit of the comparison `|x| < +∞` says that `x` is finite. -/
theorem isReal_of_cmp_abs_lt_inf {x : EReal}
    (h : Ideal.cmp .olt (max x (-x)) (Ideal.ofBits .f32 0x7F800000#32) = 1#1) : IsReal x := by
  rw [ofBits_f32_inf] at h
  refine isReal_iff_abs_lt_top.2 ?_
  by_contra hn
  simp [Ideal.cmp, hn] at h

/-- The quotient of two reals, the divisor not zero, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- A quotient of finite extended reals, the divisor not zero, is finite. -/
theorem IsReal.div {x y : EReal} (hx : IsReal x) (hy : IsReal y) (hy0 : y ≠ 0) :
    IsReal (Ideal.div x y) := by
  obtain ⟨a, rfl⟩ := hx
  obtain ⟨b, rfl⟩ := hy
  have hb : b ≠ 0 := fun e => hy0 (by rw [e]; rfl)
  exact ⟨a / b, div_coe_coe a hb⟩

/-- Division by one changes nothing. -/
theorem div_one (x : EReal) : Ideal.div x 1 = x := by
  have h := Ideal.div_coe (y := 1) one_ne_zero x
  rw [EReal.coe_one] at h
  rw [h, _root_.div_one, EReal.coe_one, mul_one]

/-- A quotient of a finite nonnegative by a finite positive extended real is nonnegative. -/
theorem div_nonneg {x y : EReal} (hx : IsReal x) (hy : IsReal y) (hx0 : 0 ≤ x) (hy0 : 0 < y) :
    0 ≤ Ideal.div x y := by
  obtain ⟨a, rfl⟩ := hx
  obtain ⟨b, rfl⟩ := hy
  have ha : 0 ≤ a := EReal.coe_nonneg.1 hx0
  have hb : 0 < b := EReal.coe_pos.1 hy0
  rw [div_coe_coe a hb.ne']
  exact EReal.coe_nonneg.2 (_root_.div_nonneg ha hb.le)

/-- A quotient of two finite positive extended reals is positive. -/
theorem div_pos {x y : EReal} (hx : IsReal x) (hy : IsReal y) (hx0 : 0 < x) (hy0 : 0 < y) :
    0 < Ideal.div x y := by
  obtain ⟨a, rfl⟩ := hx
  obtain ⟨b, rfl⟩ := hy
  have ha : 0 < a := EReal.coe_pos.1 hx0
  have hb : 0 < b := EReal.coe_pos.1 hy0
  rw [div_coe_coe a hb.ne']
  exact EReal.coe_pos.2 (_root_.div_pos ha hb)

/-- The bound of the zero row with zero bias is zero, whatever the box. -/
theorem bound_zero (P Q : ι → EReal) :
    (∑ k, max (0 : EReal) 0 * P k) + (∑ k, min (0 : EReal) 0 * Q k) + 0 = 0 := by
  simp

/-- Rescaling by zero gives the zero row: its bound is zero. -/
theorem bound_scale_zero (C P Q : ι → EReal) (B : EReal) :
    (∑ k, max 0 ((0 : EReal) * C k) * P k) + (∑ k, min 0 ((0 : EReal) * C k) * Q k) + 0 * B
      = 0 := by
  simp

end Cert.Lib.Concretize
-- ==== Proof.Bridge.lean ====
/-
  Two arrangements of one computation agree on finite data.

  The reference bounds an affine form over the box termwise from the box's two corners: positive parts of the
  coefficients at one corner, negative parts at the other. The kernel bounds it from the box's centre
  `cp = (inl + inu)/2` and radius `rp = (inu - inl)/2`: centre value `S` minus or plus the radius value `T`. For real
  coefficients and corners these are the same two numbers, so the four bounds of a row agree, hence the row's
  flags, the two slopes and the bias adjustment. The reference rescales a row inside its selects, the kernel
  multiplies the row by one factor (`0·x = 0`, `1·x = x`). Last, a bound is positively homogeneous in the form: the
  bound of the rescaled form is the rescaled bound, the factor being `0`, `1` or a slope that is nonnegative where it
  is used (on an unstable row the lower form's least value is negative and the upper form's greatest value
  positive, so both slopes are quotients of a nonnegative by a positive number).
-/
import proofs.«214425_g62758062129325_cont_9to1_m_981_19_alg».proof.Proof.KSpec
import proofs.«214425_g62758062129325_cont_9to1_m_981_19_alg».proof.Proof.RefSpec
import proofs.«214425_g62758062129325_cont_9to1_m_981_19_alg».proof.Proof.LibConcretize

noncomputable section

open scoped BigOperators
open Idealize.ShloMosaic Idealize.ShloMosaic.ValueIdx Cert.Proof.RefSpec Cert.Lib.Concretize

namespace Cert.Proof.Bridge

/-- Row `(b, r)` of an array of forms. -/
abbrev row (f : Forms) (b : Fin 8) (r : Fin 2048) : KSpec.Form := fun j => f (ix3 b r j)

/-- The float word of one half. -/
abbrev halfW : EReal := Ideal.ofBits .f32 0x3F000000#32

theorem zeroW_eq : zeroW = 0 := ofBits_f32_zero
theorem oneW_eq : oneW = 1 := ofBits_f32_one
theorem isReal_zeroW : IsReal zeroW := zeroW_eq ▸ isReal_zero
theorem isReal_oneW : IsReal oneW := oneW_eq ▸ isReal_one

/-- A coefficient's column is not the bias's. -/
theorem coef_ne_bias (k : Fin 784) : coef k ≠ bias :=
  fun h => absurd (congrArg Fin.val h) (Nat.ne_of_lt k.isLt)

/-- Rescaling by a chosen factor `a`, `0` or `1` is choosing among `a·x`, `0` and `x`. -/
theorem sel_scale (P Q : Prop) (a x : EReal) :
    sel P a (sel Q zeroW oneW) * x = sel P (a * x) (sel Q zeroW x) := by
  by_cases hP : P
  · rw [sel_pos hP, sel_pos hP]
  · rw [sel_neg hP, sel_neg hP]
    by_cases hQ : Q
    · rw [sel_pos hQ, sel_pos hQ, zeroW_eq, zero_mul]
    · rw [sel_neg hQ, sel_neg hQ, oneW_eq, one_mul]

/-! ## A bound from the corners is the bound from centre and radius -/

section Bounds
variable {inl inu : Corner} {cp rp : KSpec.Coord}

theorem lo_eq (hinl : ∀ i, IsReal (inl i)) (hinu : ∀ i, IsReal (inu i))
    (hcp : ∀ k, cp k = (inl (ix1 k) + inu (ix1 k)) * halfW) (hrp : ∀ k, rp k = (inu (ix1 k) - inl (ix1 k)) * halfW)
    (e : Forms) (he : ∀ i, IsReal (e i)) (b : Fin 8) (r : Fin 2048) :
    lo e inl inu b r = KSpec.S cp (row e b r) - KSpec.T rp (row e b r) := by
  unfold lo KSpec.S KSpec.T absE
  rw [zeroW_eq]
  simp only [hcp, hrp]
  exact lower_eq_mid_rad_ereal' (C := fun k => e (ix3 b r (coef k))) (LO := fun k => inl (ix1 k))
    (HI := fun k => inu (ix1 k)) (B := e (ix3 b r bias)) (H := halfW)
    (fun k => he _) (fun k => hinl _) (fun k => hinu _) (he _) ofBits_f32_half

theorem hi_eq (hinl : ∀ i, IsReal (inl i)) (hinu : ∀ i, IsReal (inu i))
    (hcp : ∀ k, cp k = (inl (ix1 k) + inu (ix1 k)) * halfW) (hrp : ∀ k, rp k = (inu (ix1 k) - inl (ix1 k)) * halfW)
    (e : Forms) (he : ∀ i, IsReal (e i)) (b : Fin 8) (r : Fin 2048) :
    hi e inl inu b r = KSpec.S cp (row e b r) + KSpec.T rp (row e b r) := by
  unfold hi KSpec.S KSpec.T absE
  rw [zeroW_eq]
  simp only [hcp, hrp]
  exact upper_eq_mid_rad_ereal' (C := fun k => e (ix3 b r (coef k))) (LO := fun k => inl (ix1 k))
    (HI := fun k => inu (ix1 k)) (B := e (ix3 b r bias)) (H := halfW)
    (fun k => he _) (fun k => hinl _) (fun k => hinu _) (he _) ofBits_f32_half

theorem isReal_lo (hinl : ∀ i, IsReal (inl i)) (hinu : ∀ i, IsReal (inu i))
    (e : Forms) (he : ∀ i, IsReal (e i)) (b : Fin 8) (r : Fin 2048) : IsReal (lo e inl inu b r) := by
  unfold lo
  exact ((IsReal.sum _ (fun k _ => (isReal_zeroW.max (he _)).mul (hinl _))).add
    (IsReal.sum _ (fun k _ => (isReal_zeroW.min (he _)).mul (hinu _)))).add (he _)

theorem isReal_hi (hinl : ∀ i, IsReal (inl i)) (hinu : ∀ i, IsReal (inu i))
    (e : Forms) (he : ∀ i, IsReal (e i)) (b : Fin 8) (r : Fin 2048) : IsReal (hi e inl inu b r) := by
  unfold hi
  exact ((IsReal.sum _ (fun k _ => (isReal_zeroW.max (he _)).mul (hinu _))).add
    (IsReal.sum _ (fun k _ => (isReal_zeroW.min (he _)).mul (hinl _)))).add (he _)

end Bounds

/-! ## One row: the bounds, the flags, the slopes -/

section Row
variable {l u : Forms} {inl inu : Corner} {cp rp : KSpec.Coord}
variable (hl : ∀ i, IsReal (l i)) (hu : ∀ i, IsReal (u i)) (hinl : ∀ i, IsReal (inl i)) (hinu : ∀ i, IsReal (inu i))
variable (hcp : ∀ k, cp k = (inl (ix1 k) + inu (ix1 k)) * halfW) (hrp : ∀ k, rp k = (inu (ix1 k) - inl (ix1 k)) * halfW)
variable (b : Fin 8) (r : Fin 2048)
include hl hu hinl hinu hcp hrp

theorem concLb_eq : RefSpec.concLb l u inl inu b r = KSpec.concLb cp rp (row l b r) := by
  unfold RefSpec.concLb KSpec.concLb; exact lo_eq hinl hinu hcp hrp l hl b r
theorem maxLb_eq : RefSpec.maxLb l u inl inu b r = KSpec.maxLb cp rp (row l b r) := by
  unfold RefSpec.maxLb KSpec.maxLb; exact hi_eq hinl hinu hcp hrp l hl b r
theorem concUb_eq : RefSpec.concUb l u inl inu b r = KSpec.concUb cp rp (row u b r) := by
  unfold RefSpec.concUb KSpec.concUb; exact hi_eq hinl hinu hcp hrp u hu b r
theorem minUb_eq : RefSpec.minUb l u inl inu b r = KSpec.minUb cp rp (row u b r) := by
  unfold RefSpec.minUb KSpec.minUb; exact lo_eq hinl hinu hcp hrp u hu b r

theorem isReal_concLb : IsReal (KSpec.concLb cp rp (row l b r)) := by
  rw [← concLb_eq hl hu hinl hinu hcp hrp b r]; exact isReal_lo hinl hinu l hl b r
theorem isReal_maxLb : IsReal (KSpec.maxLb cp rp (row l b r)) := by
  rw [← maxLb_eq hl hu hinl hinu hcp hrp b r]; exact isReal_hi hinl hinu l hl b r
theorem isReal_concUb : IsReal (KSpec.concUb cp rp (row u b r)) := by
  rw [← concUb_eq hl hu hinl hinu hcp hrp b r]; exact isReal_hi hinl hinu u hu b r
theorem isReal_minUb : IsReal (KSpec.minUb cp rp (row u b r)) := by
  rw [← minUb_eq hl hu hinl hinu hcp hrp b r]; exact isReal_lo hinl hinu u hu b r

theorem inactive_eq : RefSpec.inactive l u inl inu b r = KSpec.inactive cp rp (row u b r) := by
  unfold RefSpec.inactive KSpec.inactive; rw [concUb_eq hl hu hinl hinu hcp hrp b r]
theorem unstable_eq : RefSpec.unstable l u inl inu b r = KSpec.unstable cp rp (row l b r) (row u b r) := by
  unfold RefSpec.unstable KSpec.unstable; rw [concLb_eq hl hu hinl hinu hcp hrp b r, concUb_eq hl hu hinl hinu hcp hrp b r]
theorem mostlyInactive_eq :
    RefSpec.mostlyInactive l u inl inu b r = KSpec.mostlyInactive cp rp (row l b r) (row u b r) := by
  unfold RefSpec.mostlyInactive KSpec.mostlyInactive
  rw [unstable_eq hl hu hinl hinu hcp hrp b r, concLb_eq hl hu hinl hinu hcp hrp b r, concUb_eq hl hu hinl hinu hcp hrp b r, maxLb_eq hl hu hinl hinu hcp hrp b r]
theorem mostlyActive_eq :
    RefSpec.mostlyActive l u inl inu b r = KSpec.mostlyActive cp rp (row l b r) (row u b r) := by
  unfold RefSpec.mostlyActive KSpec.mostlyActive
  rw [unstable_eq hl hu hinl hinu hcp hrp b r, concLb_eq hl hu hinl hinu hcp hrp b r, concUb_eq hl hu hinl hinu hcp hrp b r]
theorem zeroCrossing_eq :
    RefSpec.zeroCrossing l u inl inu b r = KSpec.zeroCrossing cp rp (row l b r) (row u b r) := by
  unfold RefSpec.zeroCrossing KSpec.zeroCrossing
  rw [unstable_eq hl hu hinl hinu hcp hrp b r, minUb_eq hl hu hinl hinu hcp hrp b r]

theorem aL_eq : RefSpec.aL l u inl inu b r = KSpec.aL cp rp (row l b r) (row u b r) := by
  unfold RefSpec.aL KSpec.aL
  rw [unstable_eq hl hu hinl hinu hcp hrp b r, concLb_eq hl hu hinl hinu hcp hrp b r, maxLb_eq hl hu hinl hinu hcp hrp b r]
theorem aU_eq : RefSpec.aU l u inl inu b r = KSpec.aU cp rp (row l b r) (row u b r) := by
  unfold RefSpec.aU KSpec.aU
  rw [zeroCrossing_eq hl hu hinl hinu hcp hrp b r, concUb_eq hl hu hinl hinu hcp hrp b r, minUb_eq hl hu hinl hinu hcp hrp b r]
theorem biasAdj_eq : RefSpec.biasAdj l u inl inu b r = KSpec.biasAdj cp rp (row l b r) (row u b r) := by
  unfold RefSpec.biasAdj KSpec.biasAdj
  rw [zeroCrossing_eq hl hu hinl hinu hcp hrp b r, aU_eq hl hu hinl hinu hcp hrp b r, minUb_eq hl hu hinl hinu hcp hrp b r]

/-! ## The rescaled forms, entry by entry -/

/-- The kernel's rescaled lower form is the reference's new lower form. -/
theorem newL_eq (c : Fin 785) :
    KSpec.newL cp rp (row l b r) (row u b r) c = RefSpec.lNew l u inl inu b r c := by
  unfold KSpec.newL KSpec.sL RefSpec.lNew
  rw [mostlyActive_eq hl hu hinl hinu hcp hrp b r, inactive_eq hl hu hinl hinu hcp hrp b r, mostlyInactive_eq hl hu hinl hinu hcp hrp b r, aL_eq hl hu hinl hinu hcp hrp b r]
  exact sel_scale _ _ _ _

/-- The kernel's rescaled and shifted upper form is the reference's new upper form. -/
theorem newU_eq (c : Fin 785) :
    KSpec.newU cp rp (row l b r) (row u b r) c = RefSpec.uNew l u inl inu b r c := by
  unfold KSpec.newU KSpec.sU RefSpec.uNew RefSpec.uScaled
  rw [zeroCrossing_eq hl hu hinl hinu hcp hrp b r, inactive_eq hl hu hinl hinu hcp hrp b r, aU_eq hl hu hinl hinu hcp hrp b r, biasAdj_eq hl hu hinl hinu hcp hrp b r]
  rw [sel_scale, sub_eq_add_neg]

end Row

/-! ## The factors are real and nonnegative -/

/-- A real number minus a smaller real number is positive. -/
theorem sub_pos_of_isReal {x y : EReal} (hx : IsReal x) (hy : IsReal y) (h : y < x) : 0 < x - y := by
  obtain ⟨a, rfl⟩ := hx
  obtain ⟨c, rfl⟩ := hy
  rw [← EReal.coe_sub]
  exact EReal.coe_pos.2 (sub_pos.2 (EReal.coe_lt_coe_iff.1 h))

section Factors
variable {l u : Forms} {inl inu : Corner} {cp rp : KSpec.Coord}
variable (hl : ∀ i, IsReal (l i)) (hu : ∀ i, IsReal (u i)) (hinl : ∀ i, IsReal (inl i)) (hinu : ∀ i, IsReal (inu i))
variable (hcp : ∀ k, cp k = (inl (ix1 k) + inu (ix1 k)) * halfW) (hrp : ∀ k, rp k = (inu (ix1 k) - inl (ix1 k)) * halfW)
variable (b : Fin 8) (r : Fin 2048)
include hl hu hinl hinu hcp hrp

/-- On an unstable row the lower slope is a real number, zero or the quotient of the nonnegative greatest value of the
    lower form by its positive spread. -/
theorem aL_facts (hun : KSpec.unstable cp rp (row l b r) (row u b r)) : IsReal (KSpec.aL cp rp (row l b r) (row u b r)) ∧ 0 ≤ KSpec.aL cp rp (row l b r) (row u b r) := by
  have hcL := isReal_concLb hl hu hinl hinu hcp hrp b r
  have hmL := isReal_maxLb hl hu hinl hinu hcp hrp b r
  unfold KSpec.aL
  by_cases hm : KSpec.maxLb cp rp (row l b r) < zeroW
  · rw [sel_pos hm]
    exact ⟨isReal_zeroW, by rw [zeroW_eq]⟩
  · rw [sel_neg hm, sel_pos hun]
    have h0 : 0 ≤ KSpec.maxLb cp rp (row l b r) := by rw [← zeroW_eq]; exact not_lt.1 hm
    have hneg : KSpec.concLb cp rp (row l b r) < 0 := by rw [← zeroW_eq]; exact hun.1
    have hd : 0 < KSpec.maxLb cp rp (row l b r) - KSpec.concLb cp rp (row l b r) :=
      sub_pos_of_isReal hmL hcL (lt_of_lt_of_le hneg h0)
    exact ⟨hmL.div (hmL.sub hcL) (ne_of_gt hd), div_nonneg hmL (hmL.sub hcL) h0 hd⟩

/-- The factor of the lower form is a nonnegative real number. -/
theorem sL_facts : IsReal (KSpec.sL cp rp (row l b r) (row u b r)) ∧ 0 ≤ KSpec.sL cp rp (row l b r) (row u b r) := by
  unfold KSpec.sL
  by_cases hma : KSpec.mostlyActive cp rp (row l b r) (row u b r)
  · rw [sel_pos hma]
    exact aL_facts hl hu hinl hinu hcp hrp b r hma.1
  · rw [sel_neg hma]
    by_cases hq : KSpec.inactive cp rp (row u b r) ∨ KSpec.mostlyInactive cp rp (row l b r) (row u b r)
    · rw [sel_pos hq]
      exact ⟨isReal_zeroW, by rw [zeroW_eq]⟩
    · rw [sel_neg hq]
      exact ⟨isReal_oneW, by rw [oneW_eq]; exact zero_le_one⟩

/-- On a zero-crossing row the upper slope is a positive real number: the positive greatest value of the upper form
    over its positive spread. -/
theorem aU_facts (hzc : KSpec.zeroCrossing cp rp (row l b r) (row u b r)) : IsReal (KSpec.aU cp rp (row l b r) (row u b r)) ∧ 0 ≤ KSpec.aU cp rp (row l b r) (row u b r) := by
  have hcU := isReal_concUb hl hu hinl hinu hcp hrp b r
  have hmU := isReal_minUb hl hu hinl hinu hcp hrp b r
  unfold KSpec.aU
  rw [sel_pos hzc]
  have hpos : 0 < KSpec.concUb cp rp (row u b r) := by rw [← zeroW_eq]; exact hzc.1.2
  have hle : KSpec.minUb cp rp (row u b r) ≤ 0 := by rw [← zeroW_eq]; exact hzc.2
  have hd : 0 < KSpec.concUb cp rp (row u b r) - KSpec.minUb cp rp (row u b r) :=
    sub_pos_of_isReal hcU hmU (lt_of_le_of_lt hle hpos)
  exact ⟨hcU.div (hcU.sub hmU) (ne_of_gt hd), le_of_lt (div_pos hcU (hcU.sub hmU) hpos hd)⟩

/-- The factor of the upper form is a nonnegative real number. -/
theorem sU_facts : IsReal (KSpec.sU cp rp (row l b r) (row u b r)) ∧ 0 ≤ KSpec.sU cp rp (row l b r) (row u b r) := by
  unfold KSpec.sU
  by_cases hzc : KSpec.zeroCrossing cp rp (row l b r) (row u b r)
  · rw [sel_pos hzc]
    exact aU_facts hl hu hinl hinu hcp hrp b r hzc
  · rw [sel_neg hzc]
    by_cases hq : KSpec.inactive cp rp (row u b r)
    · rw [sel_pos hq]
      exact ⟨isReal_zeroW, by rw [zeroW_eq]⟩
    · rw [sel_neg hq]
      exact ⟨isReal_oneW, by rw [oneW_eq]; exact zero_le_one⟩

/-- The bias adjustment is a real number. -/
theorem isReal_biasAdj : IsReal (KSpec.biasAdj cp rp (row l b r) (row u b r)) := by
  unfold KSpec.biasAdj
  by_cases hzc : KSpec.zeroCrossing cp rp (row l b r) (row u b r)
  · rw [sel_pos hzc]
    exact (aU_facts hl hu hinl hinu hcp hrp b r hzc).1.mul (isReal_minUb hl hu hinl hinu hcp hrp b r)
  · rw [sel_neg hzc]
    exact isReal_zeroW

/-! ## The bounds of the rescaled forms -/

/-- The kernel's rescaled least value is the least value of the reference's new lower form over the box. -/
theorem plb_eq : KSpec.plb cp rp (row l b r) (row u b r) = RefSpec.postLb l u inl inu b r := by
  obtain ⟨hS, hS0⟩ := sL_facts hl hu hinl hinu hcp hrp b r
  have hN : ∀ c, lNewArr l u inl inu (ix3 b r c) = KSpec.sL cp rp (row l b r) (row u b r) * l (ix3 b r c) :=
    fun c => (newL_eq hl hu hinl hinu hcp hrp b r c).symm
  unfold KSpec.plb RefSpec.postLb lo
  simp only [hN]
  rw [zeroW_eq, ← concLb_eq hl hu hinl hinu hcp hrp b r]
  unfold RefSpec.concLb lo
  rw [zeroW_eq]
  exact (bound_scale_ereal' hS hS0 (C := fun k => l (ix3 b r (coef k))) (P := fun k => inl (ix1 k))
    (Q := fun k => inu (ix1 k)) (B := l (ix3 b r bias))
    (fun k => hl _) (fun k => hinl _) (fun k => hinu _) (hl _)).symm

/-- The kernel's rescaled and shifted greatest value is the greatest value of the reference's new upper form over
    the box. -/
theorem pub_eq : KSpec.pub cp rp (row l b r) (row u b r) = RefSpec.postUb l u inl inu b r := by
  obtain ⟨hS, hS0⟩ := sU_facts hl hu hinl hinu hcp hrp b r
  have hT := isReal_biasAdj hl hu hinl hinu hcp hrp b r
  have hk : ∀ k : Fin 784, uNewArr l u inl inu (ix3 b r (coef k)) = KSpec.sU cp rp (row l b r) (row u b r) * u (ix3 b r (coef k)) := fun k => by
    have h := (newU_eq hl hu hinl hinu hcp hrp b r (coef k)).symm
    unfold KSpec.newU at h
    rw [sel_neg (coef_ne_bias k)] at h
    exact h
  have hb : uNewArr l u inl inu (ix3 b r bias) = KSpec.sU cp rp (row l b r) (row u b r) * u (ix3 b r bias) + -(KSpec.biasAdj cp rp (row l b r) (row u b r)) := by
    have h := (newU_eq hl hu hinl hinu hcp hrp b r bias).symm
    unfold KSpec.newU at h
    rw [sel_pos rfl, sub_eq_add_neg] at h
    exact h
  unfold KSpec.pub RefSpec.postUb hi
  simp only [hk]
  rw [hb, zeroW_eq, ← concUb_eq hl hu hinl hinu hcp hrp b r]
  unfold RefSpec.concUb hi
  rw [zeroW_eq]
  exact (bound_scale_add_neg_ereal' hS hS0 hT (C := fun k => u (ix3 b r (coef k))) (P := fun k => inu (ix1 k))
    (Q := fun k => inl (ix1 k)) (B := u (ix3 b r bias))
    (fun k => hu _) (fun k => hinu _) (fun k => hinl _) (hu _)).symm

end Factors

end Cert.Proof.Bridge

end
-- ==== Proof.KIVPay.lean ====
/-
  The call with values, as the launch sees it. The two tables the tiles read are what @main's eight host operations
  leave: the centre `(inl + inu) · ½` and the radius `(inu - inl) · ½` of the input box. A tile is handed its read
  shares of these two tables and of the two input arrays and its slices of the four results; it hands back the shares
  and the slices, every slice holding the values of the whole-array functions of the tables and the inputs.
-/
import proofs.«214425_g62758062129325_cont_9to1_m_981_19_alg».proof.Proof.KIVTile
import proofs.«214425_g62758062129325_cont_9to1_m_981_19_alg».proof.Proof.Bridge

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

/-- The valuation after @main's eight host operations before the call. -/
abbrev V8 (d : Dev nD) : Valuation τ sig (Elt Ideal) :=
  (op8 (F := Ideal)).result ((op7 (F := Ideal)).result ((op6 (F := Ideal)).result ((op5 (F := Ideal)).result ((op4 (F := Ideal)).result ((op3 (F := Ideal)).result ((op2 (F := Ideal)).result ((op1 (F := Ideal)).result (V0 m d))))))))

/-- The two corners of the input box, as the launch memory holds them. -/
abbrev inlM (d : Dev nD) : S784.Idx → EReal := m (tloc d main_arg2)
abbrev inuM (d : Dev nD) : S784.Idx → EReal := m (tloc d main_arg3)

/-- The table of centres and the table of radii: half the sum and half the difference of the two corners. -/
def fcM (d : Dev nD) : Buf (Elt Ideal) (tloc d main_v2) :=
  (fun i => (inlM m d i + inuM m d i) * Bridge.halfW : S784.Idx → EReal)
def frM (d : Dev nD) : Buf (Elt Ideal) (tloc d main_v5) :=
  (fun i => (inuM m d i - inlM m d i) * Bridge.halfW : S784.Idx → EReal)

theorem fcM_eq (d : Dev nD) (i : S784.Idx) :
    (fcM m d : S784.Idx → EReal) i = (inlM m d i + inuM m d i) * Bridge.halfW := rfl
theorem frM_eq (d : Dev nD) (i : S784.Idx) :
    (frM m d : S784.Idx → EReal) i = (inuM m d i - inlM m d i) * Bridge.halfW := rfl

/-- They are what @main's eight host operations leave in the two table buffers. -/
theorem fcM_val (d : Dev nD) : V8 m d (rf main_v2) = fcM m d := by
  funext i; rfl
theorem frM_val (d : Dev nD) : V8 m d (rf main_v5) = frM m d := by
  funext i; rfl

/-- What the tile `(c, i)` is handed: its read shares of the two tables as @main left them and of the two input arrays
    at the launch memory's contents, its slices of the four results at some contents. -/
def tileGo (d : Dev nD) (c : Fin (grid0.bound 0)) (i : Fin (grid0.bound 1)) : sProp 𝕄 :=
  goRes (F := Ideal) d (coordsV c i) (shareA c i) (shareA c i) (shareA c i) (shareA c i) (shareB c i) (shareB c i) (fcM m d) (frM m d) (m (lH.view.loc (thr d (coordsV c i)))) (m (uH.view.loc (thr d (coordsV c i))))

/-- What it hands back: the shares, and the slices holding the results' values. -/
def tileTd (d : Dev nD) (c : Fin (grid0.bound 0)) (i : Fin (grid0.bound 1)) : sProp 𝕄 :=
  tdResV d (coordsV c i) (shareA c i) (shareA c i) (shareA c i) (shareA c i) (shareB c i) (shareB c i) (fcM m d) (frM m d) (m (lH.view.loc (thr d (coordsV c i)))) (m (uH.view.loc (thr d (coordsV c i))))

set_option synthInstance.maxHeartbeats 1000000 in
instance tileGo_storable (d : Dev nD) (c : Fin (grid0.bound 0)) (i : Fin (grid0.bound 1)) : BI.Storable (upEmb : UEmb _ 𝕄) (tileGo m d c i) := by
  unfold tileGo; infer_instance

set_option synthInstance.maxHeartbeats 1000000 in
instance doneOuts_storable (d : Dev nD) (L : grid0.Coords) (f0 : Buf (Elt Ideal) (lH.view.loc (thr d L))) (f1 : Buf (Elt Ideal) (uH.view.loc (thr d L)))
    (cc : Buf (Elt Ideal) (cpV.view.loc (thr d L))) (rr : Buf (Elt Ideal) (rpV.view.loc (thr d L))) (k : Fin k0_t1_loop.trips) :
    BI.Storable (upEmb : UEmb _ 𝕄) (doneOuts d L f0 f1 cc rr k) := by
  unfold doneOuts; infer_instance

set_option synthInstance.maxHeartbeats 1000000 in
instance tdResV_storable (d : Dev nD) (L : grid0.Coords) (qc qr q9 q10 q11 q12 : PosShare TreeShare)
    (fc : Buf (Elt Ideal) (cpH.view.loc (thr d L))) (fr : Buf (Elt Ideal) (rpH.view.loc (thr d L)))
    (f0 : Buf (Elt Ideal) (lH.view.loc (thr d L))) (f1 : Buf (Elt Ideal) (uH.view.loc (thr d L))) :
    BI.Storable (upEmb : UEmb _ 𝕄) (tdResV d L qc qr q9 q10 q11 q12 fc fr f0 f1) := by
  unfold tdResV; infer_instance

instance tileTd_storable (d : Dev nD) (c : Fin (grid0.bound 0)) (i : Fin (grid0.bound 1)) : BI.Storable (upEmb : UEmb _ 𝕄) (tileTd m d c i) := by
  unfold tileTd; infer_instance

/-- The one call: every tile's share goes out with the call, and comes back with the results' values in its slices. -/
def PV : (K (F := Ideal)).Pay (nD := nD) (Val := Elt Ideal) (Name := ℕ) (U := UU) where
  st := fun q d c => match q with | 0 => bigSep Finset.univ fun i : Fin (grid0.bound 1) => tileGo m d (Fin.cast nCore_zero c) i
  dn := fun q d c => match q with | 0 => bigSep Finset.univ fun i : Fin (grid0.bound 1) => tileTd m d (Fin.cast nCore_zero c) i
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance PV_storable : (PV m).IsStorable where
  st q d c := match q with | 0 => BI.Storable.bigSep (upEmb : UEmb _ 𝕄) Finset.univ (fun i : Fin (grid0.bound 1) => tileGo m d (Fin.cast nCore_zero c) i)
  dn q d c := match q with | 0 => BI.Storable.bigSep (upEmb : UEmb _ 𝕄) Finset.univ (fun i : Fin (grid0.bound 1) => tileTd m d (Fin.cast nCore_zero c) i)
  go q d c i := match q with | 0 => tileGo_storable m d (Fin.cast nCore_zero c) (Fin.cast nSub_zero i)
  td q d c i := match q with | 0 => tileTd_storable m d (Fin.cast nCore_zero c) (Fin.cast nSub_zero i)

/-- Every tile's task with values, at the shares and contents the launch hands out. -/
def TileTasksV : Prop :=
  ∀ (d : Dev nD) (c : Fin (grid0.bound 0)) (i : Fin (grid0.bound 1)),
    TileTaskV d (coordsV c i) (shareA c i) (shareA c i) (shareA c i) (shareA c i) (shareB c i) (shareB c i) (fcM m d) (frM m d) (m (lH.view.loc (thr d (coordsV c i)))) (m (uH.view.loc (thr d (coordsV c i))))

theorem tile_taskPV (hT : TileTasksV m) (d : Dev nD) (c : Fin (grid0.bound 0)) (i : Fin (grid0.bound 1))
    (O : CellTallies nD τ sig (HIx 1)) (W : Waits sig (HIx 1)) (hO : ∀ g, O g none = 0) :
    iprop(levAts (K (F := Ideal)).L (K (F := Ideal)).lev ∗ emp ∗ tileGo m d c i
        ∗ scopedBufs (thr d (coordsV c i)) ∗ scopedSems0 (thr d (coordsV c i)) ∗ owes (thr d (coordsV c i)) O W)
      ⊢ (wp Idealize.ShloMosaic.frame (wpE (defs₀ (F := Ideal)) 𝒱₀ (thr d (coordsV c i)) none) Set.univ (bodyAt (F := Ideal) (coordsV c i))
          fun _ => iprop(tileTd m d c i ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') : sProp 𝕄) :=
  (hT d c i O W hO).trans (wp_mono Idealize.ShloMosaic.frame _ _ fun _ => obl_post (q := (0 : Fin 1)))

end Cert.Proof.KI

end
-- ==== Proof.KIVSplit.lean ====
/-
  The arrays of the call, out to the tiles and back. Before the call the two tables, the two input arrays and the four
  results, held whole, are dealt out: every tile gets its read shares and its slices. After the call every tile's slices
  of a result hold the values of ONE whole-array function of the tables and the inputs; the slices are pairwise
  disjoint and cover the array, so together they are the array holding that function.
-/
import proofs.«214425_g62758062129325_cont_9to1_m_981_19_alg».proof.Proof.KIVPay

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

/-- The centres and radii as one number per input coordinate. -/
abbrev cpM (d : Dev nD) : KSpec.Coord := fun j => (fcM m d : S784.Idx → EReal) (ix1 j)
abbrev rpM (d : Dev nD) : KSpec.Coord := fun j => (frM m d : S784.Idx → EReal) (ix1 j)

/-- The four results as functions of the launch memory. -/
abbrev GLO (d : Dev nD) : Buf (Elt Ideal) (tloc d main_v6_0) := Glo (cpM m d) (rpM m d) (m (tloc d main_arg0)) (m (tloc d main_arg1))
abbrev GUO (d : Dev nD) : Buf (Elt Ideal) (tloc d main_v6_1) := Guo (cpM m d) (rpM m d) (m (tloc d main_arg0)) (m (tloc d main_arg1))
abbrev GPB (d : Dev nD) : Buf (Elt Ideal) (tloc d main_v6_2) := Gplb (cpM m d) (rpM m d) (m (tloc d main_arg0)) (m (tloc d main_arg1))
abbrev GQB (d : Dev nD) : Buf (Elt Ideal) (tloc d main_v6_3) := Gpub (cpM m d) (rpM m d) (m (tloc d main_arg0)) (m (tloc d main_arg1))

/-! ## Out to the tiles -/

theorem tile_introV (d : Dev nD) (g0 g1 g2 g3) (c : Fin (grid0.bound 0)) (i : Fin (grid0.bound 1)) :
    tileParts m d (fcM m d) (frM m d) g0 g1 g2 g3 c i ⊢ tileGo m d c i := by
  have houts : (iprop((bigSep Finset.univ fun k : Fin k0_t1_loop.trips =>
        iprop((tloc d main_v6_0 ↦[slSet (c, i, k, 0)]{fullShare} g0) ∗ (tloc d main_v6_0 ↦[slSet (c, i, k, 1)]{fullShare} g0)))
      ∗ (bigSep Finset.univ fun k : Fin k0_t1_loop.trips =>
        iprop((tloc d main_v6_1 ↦[slSet (c, i, k, 0)]{fullShare} g1) ∗ (tloc d main_v6_1 ↦[slSet (c, i, k, 1)]{fullShare} g1)))) : sProp 𝕄)
      ⊢ bigSep Finset.univ (outsAt (F := Ideal) d (coordsV c i)) := by
    rw [← bigSep_sep']
    have hk : ∀ k : Fin k0_t1_loop.trips,
        (iprop(((tloc d main_v6_0 ↦[slSet (c, i, k, 0)]{fullShare} g0) ∗ (tloc d main_v6_0 ↦[slSet (c, i, k, 1)]{fullShare} g0))
          ∗ ((tloc d main_v6_1 ↦[slSet (c, i, k, 0)]{fullShare} g1) ∗ (tloc d main_v6_1 ↦[slSet (c, i, k, 1)]{fullShare} g1))) : sProp 𝕄)
          ⊢ outsAt (F := Ideal) d (coordsV c i) k := by
      intro k
      unfold outsAt
      rw [outA_set, outA'_set, outB_set, outB'_set, slSet_zero, slSet_one]
      iintro ⟨⟨HA, HB⟩, ⟨HA', HB'⟩⟩
      isplitl [HA]; · iexists _; iexact HA
      isplitl [HA']; · iexists _; iexact HA'
      isplitl [HB]; · iexists _; iexact HB
      iexists _; iexact HB'
    exact bigSep_mono fun k _ => hk k
  unfold tileParts tileGo goRes
  iintro ⟨⟨C1, -⟩, ⟨R1, -⟩, ⟨LA, LB⟩, ⟨UA, UB⟩, Houts0, Houts1, G2, G3⟩
  isplitl [C1]; · iexact C1
  isplitl [R1]; · iexact R1
  isplitl [LA]; · iexact LA
  isplitl [UA]; · iexact UA
  isplitl [LB]; · iexact LB
  isplitl [UB]; · iexact UB
  isplitl [Houts0 Houts1]
  · iapply houts
    isplitl [Houts0]; · iexact Houts0
    iexact Houts1
  isplitl [G2]
  · rw [plbSl_set]; iexists _; iexact G2
  rw [pubSl_set]; iexists _; iexact G3

/-- The arrays of the call, held whole, are every tile's share of them, and the remainders of the two input arrays. -/
theorem st_introV (d : Dev nD) (g0 g1 g2 g3) :
    iprop((tloc d main_v2 ↦{fullShare} fcM m d) ∗ (tloc d main_v5 ↦{fullShare} frM m d)
        ∗ (tloc d main_arg0 ↦{fullShare} m (tloc d main_arg0)) ∗ (tloc d main_arg1 ↦{fullShare} m (tloc d main_arg1))
        ∗ (tloc d main_v6_0 ↦{fullShare} g0) ∗ (tloc d main_v6_1 ↦{fullShare} g1)
        ∗ (tloc d main_v6_2 ↦{fullShare} g2) ∗ (tloc d main_v6_3 ↦{fullShare} g3))
      ⊢ (iprop((tloc d main_arg0 ↦{Transfers.shareDrop fullShare (grid0.bound 0)} m (tloc d main_arg0))
          ∗ (tloc d main_arg1 ↦{Transfers.shareDrop fullShare (grid0.bound 0)} m (tloc d main_arg1))
          ∗ bigSep Finset.univ fun c => bigSep Finset.univ fun i => tileGo m d c i) : sProp 𝕄) := by
  iintro ⟨C, R, L, U0, G0, G1, G2, G3⟩
  ihave C' := (read_split (F := Ideal) (tloc d main_v2) (fcM m d)) $$ C
  ihave R' := (read_split (F := Ideal) (tloc d main_v5) (frM m d)) $$ R
  ihave L' := (read_split (F := Ideal) (tloc d main_arg0) _) $$ L
  ihave U' := (read_split (F := Ideal) (tloc d main_arg1) _) $$ U0
  ihave G0' := (coef_split (F := Ideal) (tloc d main_v6_0) rfl g0 slSet slSet_disjoint) $$ G0
  ihave G1' := (coef_split (F := Ideal) (tloc d main_v6_1) rfl g1 slSet slSet_disjoint) $$ G1
  ihave G2' := (Entails.of_eq (vec_split (F := Ideal) (tloc d main_v6_2) g2 vSet vSet_disjoint vSet_cover)) $$ G2
  ihave G3' := (Entails.of_eq (vec_split (F := Ideal) (tloc d main_v6_3) g3 vSet vSet_disjoint vSet_cover)) $$ G3
  icases C' with ⟨-, C'⟩
  icases R' with ⟨-, R'⟩
  icases L' with ⟨Ld, L'⟩
  icases U' with ⟨Ud, U'⟩
  isplitl [Ld]; · iexact Ld
  isplitl [Ud]; · iexact Ud
  ihave H78 := (Entails.of_eq (nest2 (F := Ideal) _ _)) $$ [G2' G3']
  · isplitl [G2']; · iexact G2'
    iexact G3'
  ihave H68 := (Entails.of_eq (nest2 (F := Ideal) _ _)) $$ [G1' H78]
  · isplitl [G1']; · iexact G1'
    iexact H78
  ihave H58 := (Entails.of_eq (nest2 (F := Ideal) _ _)) $$ [G0' H68]
  · isplitl [G0']; · iexact G0'
    iexact H68
  ihave H48 := (Entails.of_eq (nest2 (F := Ideal) _ _)) $$ [U' H58]
  · isplitl [U']; · iexact U'
    iexact H58
  ihave H38 := (Entails.of_eq (nest2 (F := Ideal) _ _)) $$ [L' H48]
  · isplitl [L']; · iexact L'
    iexact H48
  ihave H28 := (Entails.of_eq (nest2 (F := Ideal) _ _)) $$ [R' H38]
  · isplitl [R']; · iexact R'
    iexact H38
  ihave H18 := (Entails.of_eq (nest2 (F := Ideal) _ _)) $$ [C' H28]
  · isplitl [C']; · iexact C'
    iexact H28
  have hm : (bigSep Finset.univ fun c => bigSep Finset.univ fun i => tileParts m d (fcM m d) (frM m d) g0 g1 g2 g3 c i : sProp 𝕄)
      ⊢ bigSep Finset.univ fun c => bigSep Finset.univ fun i => tileGo m d c i :=
    bigSep_mono (fun c _ => bigSep_mono (fun i _ => tile_introV m d g0 g1 g2 g3 c i))
  iapply hm
  iexact H18

/-! ## Back from the tiles -/

/-- What a tile hands back contains its slices of the four results, each holding the result's values. -/
theorem tile_vals (d : Dev nD) (c : Fin (grid0.bound 0)) (i : Fin (grid0.bound 1)) :
    tileTd m d c i ⊢ (iprop(
      (bigSep Finset.univ fun k : Fin k0_t1_loop.trips =>
        iprop((tloc d main_v6_0 ↦[slSet (c, i, k, 0)]{fullShare} GLO m d) ∗ (tloc d main_v6_0 ↦[slSet (c, i, k, 1)]{fullShare} GLO m d)))
      ∗ (bigSep Finset.univ fun k : Fin k0_t1_loop.trips =>
        iprop((tloc d main_v6_1 ↦[slSet (c, i, k, 0)]{fullShare} GUO m d) ∗ (tloc d main_v6_1 ↦[slSet (c, i, k, 1)]{fullShare} GUO m d)))
      ∗ (tloc d main_v6_2 ↦[vSet (c, i)]{fullShare} GPB m d)
      ∗ (tloc d main_v6_3 ↦[vSet (c, i)]{fullShare} GQB m d)) : sProp 𝕄) := by
  have houts : (bigSep Finset.univ (doneOuts d (coordsV c i) (m (lH.view.loc (thr d (coordsV c i)))) (m (uH.view.loc (thr d (coordsV c i)))) (fcM m d) (frM m d)) : sProp 𝕄)
      ⊢ iprop((bigSep Finset.univ fun k : Fin k0_t1_loop.trips =>
          iprop((tloc d main_v6_0 ↦[slSet (c, i, k, 0)]{fullShare} GLO m d) ∗ (tloc d main_v6_0 ↦[slSet (c, i, k, 1)]{fullShare} GLO m d)))
        ∗ (bigSep Finset.univ fun k : Fin k0_t1_loop.trips =>
          iprop((tloc d main_v6_1 ↦[slSet (c, i, k, 0)]{fullShare} GUO m d) ∗ (tloc d main_v6_1 ↦[slSet (c, i, k, 1)]{fullShare} GUO m d)))) := by
    rw [← bigSep_sep']
    have hk : ∀ k : Fin k0_t1_loop.trips,
        (doneOuts d (coordsV c i) (m (lH.view.loc (thr d (coordsV c i)))) (m (uH.view.loc (thr d (coordsV c i)))) (fcM m d) (frM m d) k : sProp 𝕄)
          ⊢ iprop(((tloc d main_v6_0 ↦[slSet (c, i, k, 0)]{fullShare} GLO m d) ∗ (tloc d main_v6_0 ↦[slSet (c, i, k, 1)]{fullShare} GLO m d))
              ∗ ((tloc d main_v6_1 ↦[slSet (c, i, k, 0)]{fullShare} GUO m d) ∗ (tloc d main_v6_1 ↦[slSet (c, i, k, 1)]{fullShare} GUO m d))) := by
      intro k
      unfold doneOuts
      rw [outA_set, outA'_set, outB_set, outB'_set, slSet_zero, slSet_one]
      iintro ⟨HA, HA', HB, HB'⟩
      isplitl [HA HB]
      · isplitl [HA]; · iexact HA
        iexact HB
      isplitl [HA']; · iexact HA'
      iexact HB'
    exact bigSep_mono fun k _ => hk k
  unfold tileTd tdResV vSet
  rw [plbSl_set, pubSl_set]
  iintro ⟨-, -, -, -, -, -, Houts, G2, G3⟩
  ihave H := houts $$ Houts
  icases H with ⟨H0, H1⟩
  isplitl [H0]; · iexact H0
  isplitl [H1]; · iexact H1
  isplitl [G2]; · iexact G2
  iexact G3

/-- Every tile's slices of a coefficient array, all holding one function, are the array holding it. -/
theorem coef_join (ℓ : Loc nD τ sig) (f : Buf (Elt Ideal) ℓ) (K' : T4 → Finset (Idx ℓ))
    (hK : ∀ t ∈ (Finset.univ : Finset T4), ∀ t' ∈ (Finset.univ : Finset T4), t ≠ t' → Disjoint (K' t) (K' t'))
    (hc : (Finset.univ : Finset T4).biUnion K' = Finset.univ) :
    (bigSep Finset.univ fun c => bigSep Finset.univ fun i => bigSep Finset.univ fun k =>
          iprop((ℓ ↦[K' (c, i, k, 0)]{fullShare} f) ∗ (ℓ ↦[K' (c, i, k, 1)]{fullShare} f)) : sProp 𝕄)
      = (ℓ ↦{fullShare} f) := by
  symm
  have h : (ℓ ↦{fullShare} f : sProp 𝕄) = (ℓ ↦[(Finset.univ : Finset T4).biUnion K']{fullShare} f) := by rw [hc]
  rw [h, pointsTo_biUnion Finset.univ K' hK]
  simp only [bigSep_univ_prod, bigSep_univ_two]

/-- What comes back from the call is the four results whole, each holding its function of the launch memory. -/
theorem dn_vals (d : Dev nD) :
    (bigSep Finset.univ fun c => bigSep Finset.univ fun i => tileTd m d c i : sProp 𝕄)
      ⊢ iprop((tloc d main_v6_0 ↦{fullShare} GLO m d) ∗ (tloc d main_v6_1 ↦{fullShare} GUO m d)
          ∗ (tloc d main_v6_2 ↦{fullShare} GPB m d) ∗ (tloc d main_v6_3 ↦{fullShare} GQB m d)) := by
  refine (bigSep_mono fun c _ => bigSep_mono fun i _ => tile_vals m d c i).trans ?_
  rw [← nest2, ← nest2, ← nest2]
  rw [coef_join (tloc d main_v6_0) (GLO m d) slSet slSet_disjoint slSet_cover,
    coef_join (tloc d main_v6_1) (GUO m d) slSet slSet_disjoint slSet_cover,
    ← vec_split (F := Ideal) (tloc d main_v6_2) (GPB m d) vSet vSet_disjoint vSet_cover,
    ← vec_split (F := Ideal) (tloc d main_v6_3) (GQB m d) vSet vSet_disjoint vSet_cover]
  exact BI.Entails.refl _

end Cert.Proof.KI

end
-- ==== Proof.KIVObl.lean ====
/-
  The launch's two obligations about the call with values: a tile's task, from what it is handed to what it hands back,
  and the split of a SparseCore's share of the call among its tiles.
-/
import proofs.«214425_g62758062129325_cont_9to1_m_981_19_alg».proof.Proof.KIVPay

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

set_option maxHeartbeats 2000000 in
theorem tileOblV (hT : TileTasksV m) : (K (F := Ideal)).TileObl (D (F := Ideal)) 𝒱 (PV m) v₀ 0 := by
  intro d c i O W hO _ _
  simp only [show (PV m).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector]; simp only [SparseCore.onTile, hc, and_self, ↓reduceDIte]
  exact tile_taskPV m hT d ⟨_, hc.1⟩ ⟨_, hc.2⟩ O W hO

attribute [local irreducible] tileGo tileTd in
theorem vecSplitV : (K (F := Ideal)).VecSplit' (PV m) 0 := by
  intro d c
  show (bigSep Finset.univ fun i : Fin (grid0.bound 1) => tileGo m d (Fin.cast nCore_zero c) i : sProp 𝕄) ⊢ |={Set.univ}=> iprop(
      (bigSep Finset.univ fun i : Fin ((K (F := Ideal)).nSub 0) => tileGo m d (Fin.cast nCore_zero c) (Fin.cast nSub_zero i))
      ∗ ((bigSep Finset.univ fun i : Fin ((K (F := Ideal)).nSub 0) => tileTd m d (Fin.cast nCore_zero c) (Fin.cast nSub_zero i))
          -∗ (bigSep Finset.univ fun i : Fin (grid0.bound 1) => tileTd m d (Fin.cast nCore_zero c) i)))
  iintro H; imodintro
  isplitl [H]; · iexact H
  iintro H; iexact H

end Cert.Proof.KI

end
-- ==== Proof.KIVHost.lean ====
/-
  The last two host operations only regroup the two bound vectors: the flat vector of 16384 bounds read as 8 rows of
  2048 holds at (b, r) the bound of row r of batch b.
-/
import proofs.«214425_g62758062129325_cont_9to1_m_981_19_alg».proof.Proof.KIVGeo
import Idealize.ShloMosaic.Lib.Pipeline.Value

noncomputable section

namespace Cert.Proof.KI

open Cert.KernelIdeal Cert.KernelIdeal.Gen
open Idealize.ShloMosaic Idealize.ShloMosaic.ValueIdx

/-- Position `2048·b + r` of the flat vector, for `b < 8` and `r < 2048`, is batch `b`, row `r`. -/
theorem flat_split (b : Fin 8) (r : Fin 2048) :
    (⟨(b.val * 2048 + r.val) / 2048 % 8, Nat.mod_lt _ (by decide)⟩ : Fin 8) = b
      ∧ (⟨(b.val * 2048 + r.val) % 2048, Nat.mod_lt _ (by decide)⟩ : Fin 2048) = r := by
  have hb := b.isLt
  have hr := r.isLt
  exact ⟨Fin.ext (by show (b.val * 2048 + r.val) / 2048 % 8 = b.val; omega),
    Fin.ext (by show (b.val * 2048 + r.val) % 2048 = r.val; omega)⟩

/-- The flat vector of lower bounds, regrouped as 8 rows of 2048, holds at `(b, r)` the bound of row `r` of batch `b`. -/
theorem reshape_plb (cp rp : KSpec.Coord) (f0 f1 : S8x2048x785.Idx → EReal) (h : S16384.ShapeCasts S8x2048) :
    shapeCast S8x2048 (Gplb cp rp f0 f1) h
      = fun i => KSpec.plb cp rp (rowAt f0 (i 0) (i 1)) (rowAt f1 (i 0) (i 1)) := by
  funext i
  have hlt : (i 0 : Fin 8).val * 2048 + (i 1 : Fin 2048).val < 16384 := by
    have h0 : (i 0 : Fin 8).val < 8 := (i 0).isLt
    have h1 : (i 1 : Fin 2048).val < 2048 := (i 1).isLt
    omega
  rw [shapeCast_apply (Gplb cp rp f0 f1) h i (ix1 ⟨(i 0 : Fin 8).val * 2048 + (i 1 : Fin 2048).val, hlt⟩)
    (by rw [Shape.rowMajor_val_one, Shape.rowMajor_val_two]; rfl)]
  obtain ⟨e0, e1⟩ := flat_split (i 0) (i 1)
  show KSpec.plb cp rp (rowAt f0 ⟨((i 0 : Fin 8).val * 2048 + (i 1 : Fin 2048).val) / 2048 % 8, _⟩ ⟨((i 0 : Fin 8).val * 2048 + (i 1 : Fin 2048).val) % 2048, _⟩)
      (rowAt f1 ⟨((i 0 : Fin 8).val * 2048 + (i 1 : Fin 2048).val) / 2048 % 8, _⟩ ⟨((i 0 : Fin 8).val * 2048 + (i 1 : Fin 2048).val) % 2048, _⟩) = _
  rw [e0, e1]

/-- The flat vector of upper bounds, regrouped likewise. -/
theorem reshape_pub (cp rp : KSpec.Coord) (f0 f1 : S8x2048x785.Idx → EReal) (h : S16384.ShapeCasts S8x2048) :
    shapeCast S8x2048 (Gpub cp rp f0 f1) h
      = fun i => KSpec.pub cp rp (rowAt f0 (i 0) (i 1)) (rowAt f1 (i 0) (i 1)) := by
  funext i
  have hlt : (i 0 : Fin 8).val * 2048 + (i 1 : Fin 2048).val < 16384 := by
    have h0 : (i 0 : Fin 8).val < 8 := (i 0).isLt
    have h1 : (i 1 : Fin 2048).val < 2048 := (i 1).isLt
    omega
  rw [shapeCast_apply (Gpub cp rp f0 f1) h i (ix1 ⟨(i 0 : Fin 8).val * 2048 + (i 1 : Fin 2048).val, hlt⟩)
    (by rw [Shape.rowMajor_val_one, Shape.rowMajor_val_two]; rfl)]
  obtain ⟨e0, e1⟩ := flat_split (i 0) (i 1)
  show KSpec.pub cp rp (rowAt f0 ⟨((i 0 : Fin 8).val * 2048 + (i 1 : Fin 2048).val) / 2048 % 8, _⟩ ⟨((i 0 : Fin 8).val * 2048 + (i 1 : Fin 2048).val) % 2048, _⟩)
      (rowAt f1 ⟨((i 0 : Fin 8).val * 2048 + (i 1 : Fin 2048).val) / 2048 % 8, _⟩ ⟨((i 0 : Fin 8).val * 2048 + (i 1 : Fin 2048).val) % 2048, _⟩) = _
  rw [e0, e1]

/-- After the two regroupings the first regrouped vector is the flat lower-bound vector read as 8 rows of 2048. -/
theorem v7_after (W : Valuation τ sig (Elt Ideal)) :
    ((op10 (F := Ideal)).result ((op9 (F := Ideal)).result W)) (rf main_v7)
      = shapeCast S8x2048 (W (rf main_v6_2)) shapeCasts_S16384_S8x2048 := by
  rw [(op10 (F := Ideal)).result_of_not_mem _ (b := rf main_v7) (show rf main_v7 ∉ ({rf main_v8} : Finset (DevRef τ sig)) by decide)]
  exact StableHlo.reshape_result main_v6_2 main_v7 rfl shapeCasts_S16384_S8x2048 ⟨by decide, rfl⟩ ⟨by decide, rfl⟩ W

/-- After the two regroupings the second regrouped vector is the flat upper-bound vector read as 8 rows of 2048. -/
theorem v8_after (W : Valuation τ sig (Elt Ideal)) :
    ((op10 (F := Ideal)).result ((op9 (F := Ideal)).result W)) (rf main_v8)
      = shapeCast S8x2048 (W (rf main_v6_3)) shapeCasts_S16384_S8x2048 := by
  have h := StableHlo.reshape_result main_v6_3 main_v8 rfl shapeCasts_S16384_S8x2048 ⟨by decide, rfl⟩ ⟨by decide, rfl⟩ ((op9 (F := Ideal)).result W)
  refine h.trans ?_
  rw [(op9 (F := Ideal)).result_of_not_mem _ (b := rf main_v6_3) (show rf main_v6_3 ∉ ({rf main_v7} : Finset (DevRef τ sig)) by decide)]
  rfl

/-- The regroupings leave the flat lower-bound vector as it was. -/
theorem v62_after (W : Valuation τ sig (Elt Ideal)) :
    ((op10 (F := Ideal)).result ((op9 (F := Ideal)).result W)) (rf main_v6_2) = W (rf main_v6_2) := by
  rw [(op10 (F := Ideal)).result_of_not_mem _ (b := rf main_v6_2) (show rf main_v6_2 ∉ ({rf main_v8} : Finset (DevRef τ sig)) by decide),
    (op9 (F := Ideal)).result_of_not_mem _ (b := rf main_v6_2) (show rf main_v6_2 ∉ ({rf main_v7} : Finset (DevRef τ sig)) by decide)]

/-- The regroupings leave the flat upper-bound vector as it was. -/
theorem v63_after (W : Valuation τ sig (Elt Ideal)) :
    ((op10 (F := Ideal)).result ((op9 (F := Ideal)).result W)) (rf main_v6_3) = W (rf main_v6_3) := by
  rw [(op10 (F := Ideal)).result_of_not_mem _ (b := rf main_v6_3) (show rf main_v6_3 ∉ ({rf main_v8} : Finset (DevRef τ sig)) by decide),
    (op9 (F := Ideal)).result_of_not_mem _ (b := rf main_v6_3) (show rf main_v6_3 ∉ ({rf main_v7} : Finset (DevRef τ sig)) by decide)]

end Cert.Proof.KI

end
-- ==== Proof.KIVFacts.lean ====
/-
  Index facts of the main loop: what the bound scratch holds after a trip's two stores, what a copy out leaves in a slice of
  a result array, and what a copy in brings into a buffer, each read against the whole-array functions.
-/
import proofs.«214425_g62758062129325_cont_9to1_m_981_19_alg».proof.Proof.KIVInv

noncomputable section

namespace Cert.Proof.KI

open Cert.KernelIdeal Cert.KernelIdeal.Gen
open Idealize.ShloMosaic Idealize.ShloMosaic.ValueIdx
open Cert.Proof.RefSpec (sel sel_pos sel_neg)

variable (d : Dev nD) (L : grid0.Coords)
  (f0 : Buf (Elt Ideal) (lH.view.loc (thr d L))) (f1 : Buf (Elt Ideal) (uH.view.loc (thr d L)))
  (c : Buf (Elt Ideal) (cpV.view.loc (thr d L))) (r : Buf (Elt Ideal) (rpV.view.loc (thr d L)))
  (z : FVec Ideal S16 .f32)

/-! ## Small facts about the tile's numbering -/

/-- There are 32 tiles. -/
theorem wid_lt : wid L < 32 := by
  have h0 : (L 0).val < 2 := (L 0).isLt
  have h1 : (L 1).val < 16 := (L 1).isLt
  unfold wid; omega

theorem trips1 : k0_t1_loop.trips = 16 := by decide
theorem trips2 : k0_t2_loop.trips = 16 := by decide
theorem trips3 : k0_t3_loop.trips = 16 := by decide

/-- A whole buffer reads as its contents. -/
theorem read_laV (F : laV.view.ty.Contents (Elt Ideal)) (i : S16x785.Idx) : laV.view.read (Elt Ideal) F i = F i := rfl
theorem read_uaV (F : uaV.view.ty.Contents (Elt Ideal)) (i : S16x785.Idx) : uaV.view.read (Elt Ideal) F i = F i := rfl
theorem read_lbV (F : lbV.view.ty.Contents (Elt Ideal)) (i : S16x785.Idx) : lbV.view.read (Elt Ideal) F i = F i := rfl
theorem read_ubV (F : ubV.view.ty.Contents (Elt Ideal)) (i : S16x785.Idx) : ubV.view.read (Elt Ideal) F i = F i := rfl
theorem read_loH (F : loH.view.ty.Contents (Elt Ideal)) (i : S8x2048x785.Idx) : loH.view.read (Elt Ideal) F i = F i := rfl
theorem read_uoH (F : uoH.view.ty.Contents (Elt Ideal)) (i : S8x2048x785.Idx) : uoH.view.read (Elt Ideal) F i = F i := rfl
theorem read_plbV (F : plbV.view.ty.Contents (Elt Ideal)) (i : S512.Idx) : plbV.view.read (Elt Ideal) F i = F i := rfl
theorem read_pubV (F : pubV.view.ty.Contents (Elt Ideal)) (i : S512.Idx) : pubV.view.read (Elt Ideal) F i = F i := rfl

/-- Sixteen whole rows of the array starting at the tile's chunk `ch` are that chunk. -/
theorem chunk_of_block (f : (⟨3, ![8, 2048, 785]⟩ : Shape).Idx → EReal) (off : Fin 3 → Nat)
    (inb : ∀ a, off a + S1x16x785.size a ≤ S8x2048x785.size a) (ch : Nat)
    (h0 : off 0 = wid L / 4) (h1 : off 1 = (wid L % 4) * 512 + 16 * ch) :
    (fun idx : S16x785.Idx => f (ix3 ⟨off 0, blk_lt0 off inb⟩ ⟨off 1 + (idx 0).val, blk_lt1 off inb (idx 0)⟩ (idx 1)))
      = chunkOf L f ch := by
  funext idx
  have hw := wid_lt L
  have hb := blk_lt1 off inb (idx 0)
  have e0 : (⟨off 0, blk_lt0 off inb⟩ : Fin 8) = bT L := Fin.ext (by show off 0 = wid L / 4 % 8; omega)
  have e1 : (⟨off 1 + (idx 0).val, blk_lt1 off inb (idx 0)⟩ : Fin 2048)
      = ⟨(nT L + 16 * ch + (idx 0).val) % 2048, Nat.mod_lt _ (by decide)⟩ :=
    Fin.ext (by show off 1 + (idx 0).val = (nT L + 16 * ch + (idx 0).val) % 2048; unfold nT; omega)
  show f (ix3 _ _ _) = f (ix3 (bT L) ⟨(nT L + 16 * ch + (idx 0).val) % 2048, Nat.mod_lt _ (by decide)⟩ (idx 1))
  rw [e0, e1]

/-- Row `lane` of the tile's chunk `ch` is the array's row at the batch and row it came from. -/
theorem rowOf_chunkOf_eq (f : (⟨3, ![8, 2048, 785]⟩ : Shape).Idx → EReal) (ch : Nat) (lane : Fin 16) (x0 : Fin 8) (x1 : Fin 2048)
    (h0 : x0.val = wid L / 4 % 8) (h1 : x1.val = (nT L + 16 * ch + lane.val) % 2048) :
    rowOf (chunkOf L f ch) lane = rowAt f x0 x1 := by
  funext j
  have e0 : bT L = x0 := Fin.ext h0.symm
  have e1 : (⟨(nT L + 16 * ch + lane.val) % 2048, Nat.mod_lt _ (by decide)⟩ : Fin 2048) = x1 := Fin.ext h1.symm
  show f (ix3 (bT L) ⟨(nT L + 16 * ch + lane.val) % 2048, Nat.mod_lt _ (by decide)⟩ j) = f (ix3 x0 x1 j)
  rw [e0, e1]

/-- A finished buffer at an entry. -/
theorem doneLA_full (a0 : Buf (Elt Ideal) (laV.view.loc (thr d L))) (b0 : Buf (Elt Ideal) (uaV.view.loc (thr d L))) (A : Fin 16) (B : Fin 785) :
    doneLA d L c r a0 b0 k0_t2_loop.trips (ix2 A B) = KSpec.newL (cpOf d L c) (cpOf d L r) (rowOf a0 A) (rowOf b0 A) B := by
  unfold doneLA
  exact sel_pos (show A.val < k0_t2_loop.trips from lt_of_lt_of_eq A.isLt trips2.symm) _ _
theorem doneUA_full (a0 : Buf (Elt Ideal) (laV.view.loc (thr d L))) (b0 : Buf (Elt Ideal) (uaV.view.loc (thr d L))) (A : Fin 16) (B : Fin 785) :
    doneUA d L c r a0 b0 k0_t2_loop.trips (ix2 A B) = KSpec.newU (cpOf d L c) (cpOf d L r) (rowOf a0 A) (rowOf b0 A) B := by
  unfold doneUA
  exact sel_pos (show A.val < k0_t2_loop.trips from lt_of_lt_of_eq A.isLt trips2.symm) _ _
theorem doneLB_full (a0 : Buf (Elt Ideal) (lbV.view.loc (thr d L))) (b0 : Buf (Elt Ideal) (ubV.view.loc (thr d L))) (A : Fin 16) (B : Fin 785) :
    doneLB d L c r a0 b0 k0_t3_loop.trips (ix2 A B) = KSpec.newL (cpOf d L c) (cpOf d L r) (rowOf a0 A) (rowOf b0 A) B := by
  unfold doneLB
  exact sel_pos (show A.val < k0_t3_loop.trips from lt_of_lt_of_eq A.isLt trips3.symm) _ _
theorem doneUB_full (a0 : Buf (Elt Ideal) (lbV.view.loc (thr d L))) (b0 : Buf (Elt Ideal) (ubV.view.loc (thr d L))) (A : Fin 16) (B : Fin 785) :
    doneUB d L c r a0 b0 k0_t3_loop.trips (ix2 A B) = KSpec.newU (cpOf d L c) (cpOf d L r) (rowOf a0 A) (rowOf b0 A) B := by
  unfold doneUB
  exact sel_pos (show A.val < k0_t3_loop.trips from lt_of_lt_of_eq A.isLt trips3.symm) _ _

/-- The bound of row `lane` of chunk `ch` is the bound vector's entry `512·w + 16·ch + lane`. -/
theorem plb_entry (ch : Nat) (lane : Fin 16) (e : Nat) (he : e = 16 * ch + lane.val) (hch : ch < 32) :
    KSpec.plb (cpOf d L c) (cpOf d L r) (rowOf (chunkOf L f0 ch) lane) (rowOf (chunkOf L f1 ch) lane)
      = gPb d L f0 f1 c r (ix1 ⟨(512 * wid L + e) % 16384, Nat.mod_lt _ (by decide)⟩) := by
  have hw := wid_lt L
  have hl := lane.isLt
  have h0 : (⟨(512 * wid L + e) % 16384 / 2048 % 8, Nat.mod_lt _ (by decide)⟩ : Fin 8).val = wid L / 4 % 8 := by
    show (512 * wid L + e) % 16384 / 2048 % 8 = wid L / 4 % 8; omega
  have h1 : (⟨(512 * wid L + e) % 16384 % 2048, Nat.mod_lt _ (by decide)⟩ : Fin 2048).val = (nT L + 16 * ch + lane.val) % 2048 := by
    show (512 * wid L + e) % 16384 % 2048 = (nT L + 16 * ch + lane.val) % 2048; unfold nT; omega
  rw [rowOf_chunkOf_eq L f0 ch lane _ _ h0 h1, rowOf_chunkOf_eq L f1 ch lane _ _ h0 h1]
  rfl
theorem pub_entry (ch : Nat) (lane : Fin 16) (e : Nat) (he : e = 16 * ch + lane.val) (hch : ch < 32) :
    KSpec.pub (cpOf d L c) (cpOf d L r) (rowOf (chunkOf L f0 ch) lane) (rowOf (chunkOf L f1 ch) lane)
      = gQb d L f0 f1 c r (ix1 ⟨(512 * wid L + e) % 16384, Nat.mod_lt _ (by decide)⟩) := by
  have hw := wid_lt L
  have hl := lane.isLt
  have h0 : (⟨(512 * wid L + e) % 16384 / 2048 % 8, Nat.mod_lt _ (by decide)⟩ : Fin 8).val = wid L / 4 % 8 := by
    show (512 * wid L + e) % 16384 / 2048 % 8 = wid L / 4 % 8; omega
  have h1 : (⟨(512 * wid L + e) % 16384 % 2048, Nat.mod_lt _ (by decide)⟩ : Fin 2048).val = (nT L + 16 * ch + lane.val) % 2048 := by
    show (512 * wid L + e) % 16384 % 2048 = (nT L + 16 * ch + lane.val) % 2048; unfold nT; omega
  rw [rowOf_chunkOf_eq L f0 ch lane _ _ h0 h1, rowOf_chunkOf_eq L f1 ch lane _ _ h0 h1]
  rfl

/-- Nothing done yet. -/
theorem doneLA_zero (a0 : Buf (Elt Ideal) (laV.view.loc (thr d L))) (b0 : Buf (Elt Ideal) (uaV.view.loc (thr d L))) :
    doneLA d L c r a0 b0 0 = a0 := by
  funext idx; unfold doneLA; exact sel_neg (Nat.not_lt_zero _) _ _
theorem doneUA_zero (a0 : Buf (Elt Ideal) (laV.view.loc (thr d L))) (b0 : Buf (Elt Ideal) (uaV.view.loc (thr d L))) :
    doneUA d L c r a0 b0 0 = b0 := by
  funext idx; unfold doneUA; exact sel_neg (Nat.not_lt_zero _) _ _
theorem doneAccA_zero (a0 : Buf (Elt Ideal) (laV.view.loc (thr d L))) (b0 : Buf (Elt Ideal) (uaV.view.loc (thr d L))) :
    doneAccA d L c r a0 b0 z 0 = (z, z) := by
  unfold doneAccA
  exact Prod.ext (funext fun lane => sel_neg (Nat.not_lt_zero _) _ _) (funext fun lane => sel_neg (Nat.not_lt_zero _) _ _)
theorem doneLB_zero (a0 : Buf (Elt Ideal) (lbV.view.loc (thr d L))) (b0 : Buf (Elt Ideal) (ubV.view.loc (thr d L))) :
    doneLB d L c r a0 b0 0 = a0 := by
  funext idx; unfold doneLB; exact sel_neg (Nat.not_lt_zero _) _ _
theorem doneUB_zero (a0 : Buf (Elt Ideal) (lbV.view.loc (thr d L))) (b0 : Buf (Elt Ideal) (ubV.view.loc (thr d L))) :
    doneUB d L c r a0 b0 0 = b0 := by
  funext idx; unfold doneUB; exact sel_neg (Nat.not_lt_zero _) _ _
theorem doneAccB_zero (a0 : Buf (Elt Ideal) (lbV.view.loc (thr d L))) (b0 : Buf (Elt Ideal) (ubV.view.loc (thr d L))) :
    doneAccB d L c r a0 b0 z 0 = (z, z) := by
  unfold doneAccB
  exact Prod.ext (funext fun lane => sel_neg (Nat.not_lt_zero _) _ _) (funext fun lane => sel_neg (Nat.not_lt_zero _) _ _)

/-- The bound scratch after a trip's two stores: 32 more entries done. (And the same for the upper bounds.) -/
theorem doneP_step_lb (p0 : Buf (Elt Ideal) (plbV.view.loc (thr d L))) (k : Fin k0_t1_loop.trips)
    (h103 : ∀ a, (k0_off103 k) a + S16.size a ≤ S512.size a) (h156 : ∀ a, (k0_off156 k) a + S16.size a ≤ S512.size a) :
    plbV.view.writes (Elt Ideal) (doneP L (gPb d L f0 f1 c r) p0 k.val)
      [⟨Rect.unit (s := S512) (k0_off156 k) S16.size h156,
          (doneAccB d L c r (chunkOf L f0 (2 * k.val + 1)) (chunkOf L f1 (2 * k.val + 1)) z k0_t3_loop.trips).1⟩,
        ⟨Rect.unit (s := S512) (k0_off103 k) S16.size h103,
          (doneAccA d L c r (chunkOf L f0 (2 * k.val)) (chunkOf L f1 (2 * k.val)) z k0_t2_loop.trips).1⟩]
      = doneP L (gPb d L f0 f1 c r) p0 (k.val + 1) := by
  have hw := wid_lt L
  have hk : k.val < 16 := lt_of_lt_of_eq k.isLt trips1
  have v103 : (k0_off103 k) 0 = 32 * k.val := by rw [Gen.k0_off103_eq]; rfl
  have v156 : (k0_off156 k) 0 = 32 * k.val + 16 := by rw [Gen.k0_off156_eq]; rfl
  have hpieces : ∀ p ∈ ([⟨Rect.unit (s := S512) (k0_off156 k) S16.size h156,
          (doneAccB d L c r (chunkOf L f0 (2 * k.val + 1)) (chunkOf L f1 (2 * k.val + 1)) z k0_t3_loop.trips).1⟩,
        ⟨Rect.unit (s := S512) (k0_off103 k) S16.size h103,
          (doneAccA d L c r (chunkOf L f0 (2 * k.val)) (chunkOf L f1 (2 * k.val)) z k0_t2_loop.trips).1⟩] : List (View.Piece (Elt Ideal) S512 .f32)),
      ∀ x : p.1.shape.Idx, p.2 x = doneP L (gPb d L f0 f1 c r) p0 (k.val + 1) (p.1.emb x) := by
    intro p hp
    rcases List.mem_cons.1 hp with rfl | hp
    · intro x
      have hl : (x 0).val < 16 := (x 0).isLt
      have he : ((Rect.unit (s := S512) (k0_off156 k) S16.size h156).emb x 0).val = 16 * (2 * k.val + 1) + (x 0).val := by
        rw [Rect.emb_apply]; show (k0_off156 k) 0 + 1 * (x 0).val = _; omega
      unfold doneP
      rw [sel_pos (by rw [he]; omega)]
      unfold doneAccB
      refine (sel_pos (show (x 0).val < k0_t3_loop.trips from lt_of_lt_of_eq hl trips3.symm) _ _).trans ?_
      exact plb_entry d L f0 f1 c r (2 * k.val + 1) (x 0) _ he (by omega)
    · rcases List.mem_cons.1 hp with rfl | hp
      · intro x
        have hl : (x 0).val < 16 := (x 0).isLt
        have he : ((Rect.unit (s := S512) (k0_off103 k) S16.size h103).emb x 0).val = 16 * (2 * k.val) + (x 0).val := by
          rw [Rect.emb_apply]; show (k0_off103 k) 0 + 1 * (x 0).val = _; omega
        unfold doneP
        rw [sel_pos (by rw [he]; omega)]
        unfold doneAccA
        refine (sel_pos (show (x 0).val < k0_t2_loop.trips from lt_of_lt_of_eq hl trips2.symm) _ _).trans ?_
        exact plb_entry d L f0 f1 c r (2 * k.val) (x 0) _ he (by omega)
      · exact absurd hp List.not_mem_nil
  funext y
  have hy0 : (y 0).val < 512 := (y 0).isLt
  by_cases hB : 32 * k.val + 16 ≤ (y 0).val ∧ (y 0).val < 32 * k.val + 32
  · have hy : y ∈ (Rect.unit (s := S512) (k0_off156 k) S16.size h156).set :=
      Rect.mem_set_unit.mpr (fun a => match a with
        | ⟨0, _⟩ => by show (k0_off156 k) 0 ≤ (y 0).val ∧ (y 0).val < (k0_off156 k) 0 + 16; omega)
    exact View.read_writes_apply_of_pieces plbV.view _ _ _ hpieces y ⟨_, List.mem_cons.2 (Or.inl rfl), hy⟩
  · by_cases hA : 32 * k.val ≤ (y 0).val ∧ (y 0).val < 32 * k.val + 16
    · have hy : y ∈ (Rect.unit (s := S512) (k0_off103 k) S16.size h103).set :=
        Rect.mem_set_unit.mpr (fun a => match a with
          | ⟨0, _⟩ => by show (k0_off103 k) 0 ≤ (y 0).val ∧ (y 0).val < (k0_off103 k) 0 + 16; omega)
      exact View.read_writes_apply_of_pieces plbV.view _ _ _ hpieces y
        ⟨_, List.mem_cons.2 (Or.inr (List.mem_cons.2 (Or.inl rfl))), hy⟩
    · refine Eq.trans (b := doneP L (gPb d L f0 f1 c r) p0 k.val y) ?_ ?_
      · refine (read_plbV _ y).symm.trans ((View.read_writes_apply_of_forall_not_mem (Val := Elt Ideal) plbV.view _ y _ (fun p hp hyp => ?_)).trans (read_plbV _ y))
        rcases List.mem_cons.1 hp with rfl | hp
        · have hyp' : y ∈ (Rect.unit (s := S512) (k0_off156 k) S16.size h156).set := hyp
          have m := Rect.mem_set_unit.mp hyp' 0
          change (k0_off156 k) 0 ≤ (y 0).val ∧ (y 0).val < (k0_off156 k) 0 + 16 at m
          omega
        · rcases List.mem_cons.1 hp with rfl | hp
          · have hyp' : y ∈ (Rect.unit (s := S512) (k0_off103 k) S16.size h103).set := hyp
            have m := Rect.mem_set_unit.mp hyp' 0
            change (k0_off103 k) 0 ≤ (y 0).val ∧ (y 0).val < (k0_off103 k) 0 + 16 at m
            omega
          · exact absurd hp List.not_mem_nil
      · show doneP L (gPb d L f0 f1 c r) p0 k.val y = doneP L (gPb d L f0 f1 c r) p0 (k.val + 1) y
        unfold doneP
        by_cases hlt : (y 0).val < 32 * k.val
        · rw [sel_pos hlt, sel_pos (by omega)]
        · rw [sel_neg hlt, sel_neg (by omega)]
theorem doneP_step_ub (p0 : Buf (Elt Ideal) (pubV.view.loc (thr d L))) (k : Fin k0_t1_loop.trips)
    (h103 : ∀ a, (k0_off103 k) a + S16.size a ≤ S512.size a) (h156 : ∀ a, (k0_off156 k) a + S16.size a ≤ S512.size a) :
    pubV.view.writes (Elt Ideal) (doneP L (gQb d L f0 f1 c r) p0 k.val)
      [⟨Rect.unit (s := S512) (k0_off156 k) S16.size h156,
          (doneAccB d L c r (chunkOf L f0 (2 * k.val + 1)) (chunkOf L f1 (2 * k.val + 1)) z k0_t3_loop.trips).2⟩,
        ⟨Rect.unit (s := S512) (k0_off103 k) S16.size h103,
          (doneAccA d L c r (chunkOf L f0 (2 * k.val)) (chunkOf L f1 (2 * k.val)) z k0_t2_loop.trips).2⟩]
      = doneP L (gQb d L f0 f1 c r) p0 (k.val + 1) := by
  have hw := wid_lt L
  have hk : k.val < 16 := lt_of_lt_of_eq k.isLt trips1
  have v103 : (k0_off103 k) 0 = 32 * k.val := by rw [Gen.k0_off103_eq]; rfl
  have v156 : (k0_off156 k) 0 = 32 * k.val + 16 := by rw [Gen.k0_off156_eq]; rfl
  have hpieces : ∀ p ∈ ([⟨Rect.unit (s := S512) (k0_off156 k) S16.size h156,
          (doneAccB d L c r (chunkOf L f0 (2 * k.val + 1)) (chunkOf L f1 (2 * k.val + 1)) z k0_t3_loop.trips).2⟩,
        ⟨Rect.unit (s := S512) (k0_off103 k) S16.size h103,
          (doneAccA d L c r (chunkOf L f0 (2 * k.val)) (chunkOf L f1 (2 * k.val)) z k0_t2_loop.trips).2⟩] : List (View.Piece (Elt Ideal) S512 .f32)),
      ∀ x : p.1.shape.Idx, p.2 x = doneP L (gQb d L f0 f1 c r) p0 (k.val + 1) (p.1.emb x) := by
    intro p hp
    rcases List.mem_cons.1 hp with rfl | hp
    · intro x
      have hl : (x 0).val < 16 := (x 0).isLt
      have he : ((Rect.unit (s := S512) (k0_off156 k) S16.size h156).emb x 0).val = 16 * (2 * k.val + 1) + (x 0).val := by
        rw [Rect.emb_apply]; show (k0_off156 k) 0 + 1 * (x 0).val = _; omega
      unfold doneP
      rw [sel_pos (by rw [he]; omega)]
      unfold doneAccB
      refine (sel_pos (show (x 0).val < k0_t3_loop.trips from lt_of_lt_of_eq hl trips3.symm) _ _).trans ?_
      exact pub_entry d L f0 f1 c r (2 * k.val + 1) (x 0) _ he (by omega)
    · rcases List.mem_cons.1 hp with rfl | hp
      · intro x
        have hl : (x 0).val < 16 := (x 0).isLt
        have he : ((Rect.unit (s := S512) (k0_off103 k) S16.size h103).emb x 0).val = 16 * (2 * k.val) + (x 0).val := by
          rw [Rect.emb_apply]; show (k0_off103 k) 0 + 1 * (x 0).val = _; omega
        unfold doneP
        rw [sel_pos (by rw [he]; omega)]
        unfold doneAccA
        refine (sel_pos (show (x 0).val < k0_t2_loop.trips from lt_of_lt_of_eq hl trips2.symm) _ _).trans ?_
        exact pub_entry d L f0 f1 c r (2 * k.val) (x 0) _ he (by omega)
      · exact absurd hp List.not_mem_nil
  funext y
  have hy0 : (y 0).val < 512 := (y 0).isLt
  by_cases hB : 32 * k.val + 16 ≤ (y 0).val ∧ (y 0).val < 32 * k.val + 32
  · have hy : y ∈ (Rect.unit (s := S512) (k0_off156 k) S16.size h156).set :=
      Rect.mem_set_unit.mpr (fun a => match a with
        | ⟨0, _⟩ => by show (k0_off156 k) 0 ≤ (y 0).val ∧ (y 0).val < (k0_off156 k) 0 + 16; omega)
    exact View.read_writes_apply_of_pieces pubV.view _ _ _ hpieces y ⟨_, List.mem_cons.2 (Or.inl rfl), hy⟩
  · by_cases hA : 32 * k.val ≤ (y 0).val ∧ (y 0).val < 32 * k.val + 16
    · have hy : y ∈ (Rect.unit (s := S512) (k0_off103 k) S16.size h103).set :=
        Rect.mem_set_unit.mpr (fun a => match a with
          | ⟨0, _⟩ => by show (k0_off103 k) 0 ≤ (y 0).val ∧ (y 0).val < (k0_off103 k) 0 + 16; omega)
      exact View.read_writes_apply_of_pieces pubV.view _ _ _ hpieces y
        ⟨_, List.mem_cons.2 (Or.inr (List.mem_cons.2 (Or.inl rfl))), hy⟩
    · refine Eq.trans (b := doneP L (gQb d L f0 f1 c r) p0 k.val y) ?_ ?_
      · refine (read_pubV _ y).symm.trans ((View.read_writes_apply_of_forall_not_mem (Val := Elt Ideal) pubV.view _ y _ (fun p hp hyp => ?_)).trans (read_pubV _ y))
        rcases List.mem_cons.1 hp with rfl | hp
        · have hyp' : y ∈ (Rect.unit (s := S512) (k0_off156 k) S16.size h156).set := hyp
          have m := Rect.mem_set_unit.mp hyp' 0
          change (k0_off156 k) 0 ≤ (y 0).val ∧ (y 0).val < (k0_off156 k) 0 + 16 at m
          omega
        · rcases List.mem_cons.1 hp with rfl | hp
          · have hyp' : y ∈ (Rect.unit (s := S512) (k0_off103 k) S16.size h103).set := hyp
            have m := Rect.mem_set_unit.mp hyp' 0
            change (k0_off103 k) 0 ≤ (y 0).val ∧ (y 0).val < (k0_off103 k) 0 + 16 at m
            omega
          · exact absurd hp List.not_mem_nil
      · show doneP L (gQb d L f0 f1 c r) p0 k.val y = doneP L (gQb d L f0 f1 c r) p0 (k.val + 1) y
        unfold doneP
        by_cases hlt : (y 0).val < 32 * k.val
        · rw [sel_pos hlt, sel_pos (by omega)]
        · rw [sel_neg hlt, sel_neg (by omega)]

/-- A copy out of a finished chunk leaves the result array's values in the slice. -/
theorem outA_val (k : Fin k0_t1_loop.trips) (g : Buf (Elt Ideal) ((outA L k).view.loc (thr d L))) :
    ∀ x ∈ (outA L k).view.set,
      ((outA L k).view.writes (Elt Ideal) g [⟨Rect.whole S16x785, ReadAs.same.apply (View.read (Elt Ideal) laV.view
        (doneLA d L c r (chunkOf L f0 (2 * k.val)) (chunkOf L f1 (2 * k.val)) k0_t2_loop.trips))⟩]) x = gLo d L f0 f1 c r x := by
  intro x hx
  rw [outA_set] at hx
  have m0 := Rect.mem_set_unit.mp hx 0
  have m1 := Rect.mem_set_unit.mp hx 1
  change (k0_off104 L k) 0 ≤ (x 0).val ∧ (x 0).val < (k0_off104 L k) 0 + 1 at m0
  change (k0_off104 L k) 1 ≤ (x 1).val ∧ (x 1).val < (k0_off104 L k) 1 + 16 at m1
  have v0 : (k0_off104 L k) 0 = wid L / 4 := by rw [off104_eq]; rfl
  have v1 : (k0_off104 L k) 1 = (wid L % 4) * 512 + 32 * k.val := by rw [off104_eq]; rfl
  have h2 : (k0_off104 L k) 2 = 0 := by rw [off104_eq]; rfl
  have hw := wid_lt L
  have hx1 : (x 1).val < 2048 := (x 1).isLt
  have h0 : (x 0).val = wid L / 4 % 8 := by omega
  have h1 : (x 1).val = (nT L + 16 * (2 * k.val) + ((x 1).val - (k0_off104 L k) 1)) % 2048 := by unfold nT; omega
  have key := copy_out_mem (F := Ideal) loH laV (k0_off104 L k) (k0_off104_inb L k) h2 g
    (doneLA d L c r (chunkOf L f0 (2 * k.val)) (chunkOf L f1 (2 * k.val)) k0_t2_loop.trips) x hx
  rw [read_loH, read_laV] at key
  refine key.trans ?_
  rw [doneLA_full, rowOf_chunkOf_eq L f0 (2 * k.val) ⟨(x 1).val - (k0_off104 L k) 1, blk_row_lt _ (k0_off104_inb L k) x hx⟩ (x 0) (x 1) h0 h1,
    rowOf_chunkOf_eq L f1 (2 * k.val) ⟨(x 1).val - (k0_off104 L k) 1, blk_row_lt _ (k0_off104_inb L k) x hx⟩ (x 0) (x 1) h0 h1]
  rfl
theorem outA'_val (k : Fin k0_t1_loop.trips) (g : Buf (Elt Ideal) ((outA' L k).view.loc (thr d L))) :
    ∀ x ∈ (outA' L k).view.set,
      ((outA' L k).view.writes (Elt Ideal) g [⟨Rect.whole S16x785, ReadAs.same.apply (View.read (Elt Ideal) uaV.view
        (doneUA d L c r (chunkOf L f0 (2 * k.val)) (chunkOf L f1 (2 * k.val)) k0_t2_loop.trips))⟩]) x = gUo d L f0 f1 c r x := by
  intro x hx
  rw [outA'_set] at hx
  have m0 := Rect.mem_set_unit.mp hx 0
  have m1 := Rect.mem_set_unit.mp hx 1
  change (k0_off104 L k) 0 ≤ (x 0).val ∧ (x 0).val < (k0_off104 L k) 0 + 1 at m0
  change (k0_off104 L k) 1 ≤ (x 1).val ∧ (x 1).val < (k0_off104 L k) 1 + 16 at m1
  have v0 : (k0_off104 L k) 0 = wid L / 4 := by rw [off104_eq]; rfl
  have v1 : (k0_off104 L k) 1 = (wid L % 4) * 512 + 32 * k.val := by rw [off104_eq]; rfl
  have h2 : (k0_off104 L k) 2 = 0 := by rw [off104_eq]; rfl
  have hw := wid_lt L
  have hx1 : (x 1).val < 2048 := (x 1).isLt
  have h0 : (x 0).val = wid L / 4 % 8 := by omega
  have h1 : (x 1).val = (nT L + 16 * (2 * k.val) + ((x 1).val - (k0_off104 L k) 1)) % 2048 := by unfold nT; omega
  have key := copy_out_mem (F := Ideal) uoH uaV (k0_off104 L k) (k0_off104_inb L k) h2 g
    (doneUA d L c r (chunkOf L f0 (2 * k.val)) (chunkOf L f1 (2 * k.val)) k0_t2_loop.trips) x hx
  rw [read_uoH, read_uaV] at key
  refine key.trans ?_
  rw [doneUA_full, rowOf_chunkOf_eq L f0 (2 * k.val) ⟨(x 1).val - (k0_off104 L k) 1, blk_row_lt _ (k0_off104_inb L k) x hx⟩ (x 0) (x 1) h0 h1,
    rowOf_chunkOf_eq L f1 (2 * k.val) ⟨(x 1).val - (k0_off104 L k) 1, blk_row_lt _ (k0_off104_inb L k) x hx⟩ (x 0) (x 1) h0 h1]
  rfl
theorem outB_val (k : Fin k0_t1_loop.trips) (g : Buf (Elt Ideal) ((outB L k).view.loc (thr d L))) :
    ∀ x ∈ (outB L k).view.set,
      ((outB L k).view.writes (Elt Ideal) g [⟨Rect.whole S16x785, ReadAs.same.apply (View.read (Elt Ideal) lbV.view
        (doneLB d L c r (chunkOf L f0 (2 * k.val + 1)) (chunkOf L f1 (2 * k.val + 1)) k0_t3_loop.trips))⟩]) x = gLo d L f0 f1 c r x := by
  intro x hx
  rw [outB_set] at hx
  have m0 := Rect.mem_set_unit.mp hx 0
  have m1 := Rect.mem_set_unit.mp hx 1
  change (k0_off105 L k) 0 ≤ (x 0).val ∧ (x 0).val < (k0_off105 L k) 0 + 1 at m0
  change (k0_off105 L k) 1 ≤ (x 1).val ∧ (x 1).val < (k0_off105 L k) 1 + 16 at m1
  have v0 : (k0_off105 L k) 0 = wid L / 4 := by rw [off105_eq]; rfl
  have v1 : (k0_off105 L k) 1 = (wid L % 4) * 512 + 32 * k.val + 16 := by rw [off105_eq]; rfl
  have h2 : (k0_off105 L k) 2 = 0 := by rw [off105_eq]; rfl
  have hw := wid_lt L
  have hx1 : (x 1).val < 2048 := (x 1).isLt
  have h0 : (x 0).val = wid L / 4 % 8 := by omega
  have h1 : (x 1).val = (nT L + 16 * (2 * k.val + 1) + ((x 1).val - (k0_off105 L k) 1)) % 2048 := by unfold nT; omega
  have key := copy_out_mem (F := Ideal) loH lbV (k0_off105 L k) (k0_off105_inb L k) h2 g
    (doneLB d L c r (chunkOf L f0 (2 * k.val + 1)) (chunkOf L f1 (2 * k.val + 1)) k0_t3_loop.trips) x hx
  rw [read_loH, read_lbV] at key
  refine key.trans ?_
  rw [doneLB_full, rowOf_chunkOf_eq L f0 (2 * k.val + 1) ⟨(x 1).val - (k0_off105 L k) 1, blk_row_lt _ (k0_off105_inb L k) x hx⟩ (x 0) (x 1) h0 h1,
    rowOf_chunkOf_eq L f1 (2 * k.val + 1) ⟨(x 1).val - (k0_off105 L k) 1, blk_row_lt _ (k0_off105_inb L k) x hx⟩ (x 0) (x 1) h0 h1]
  rfl
theorem outB'_val (k : Fin k0_t1_loop.trips) (g : Buf (Elt Ideal) ((outB' L k).view.loc (thr d L))) :
    ∀ x ∈ (outB' L k).view.set,
      ((outB' L k).view.writes (Elt Ideal) g [⟨Rect.whole S16x785, ReadAs.same.apply (View.read (Elt Ideal) ubV.view
        (doneUB d L c r (chunkOf L f0 (2 * k.val + 1)) (chunkOf L f1 (2 * k.val + 1)) k0_t3_loop.trips))⟩]) x = gUo d L f0 f1 c r x := by
  intro x hx
  rw [outB'_set] at hx
  have m0 := Rect.mem_set_unit.mp hx 0
  have m1 := Rect.mem_set_unit.mp hx 1
  change (k0_off105 L k) 0 ≤ (x 0).val ∧ (x 0).val < (k0_off105 L k) 0 + 1 at m0
  change (k0_off105 L k) 1 ≤ (x 1).val ∧ (x 1).val < (k0_off105 L k) 1 + 16 at m1
  have v0 : (k0_off105 L k) 0 = wid L / 4 := by rw [off105_eq]; rfl
  have v1 : (k0_off105 L k) 1 = (wid L % 4) * 512 + 32 * k.val + 16 := by rw [off105_eq]; rfl
  have h2 : (k0_off105 L k) 2 = 0 := by rw [off105_eq]; rfl
  have hw := wid_lt L
  have hx1 : (x 1).val < 2048 := (x 1).isLt
  have h0 : (x 0).val = wid L / 4 % 8 := by omega
  have h1 : (x 1).val = (nT L + 16 * (2 * k.val + 1) + ((x 1).val - (k0_off105 L k) 1)) % 2048 := by unfold nT; omega
  have key := copy_out_mem (F := Ideal) uoH ubV (k0_off105 L k) (k0_off105_inb L k) h2 g
    (doneUB d L c r (chunkOf L f0 (2 * k.val + 1)) (chunkOf L f1 (2 * k.val + 1)) k0_t3_loop.trips) x hx
  rw [read_uoH, read_ubV] at key
  refine key.trans ?_
  rw [doneUB_full, rowOf_chunkOf_eq L f0 (2 * k.val + 1) ⟨(x 1).val - (k0_off105 L k) 1, blk_row_lt _ (k0_off105_inb L k) x hx⟩ (x 0) (x 1) h0 h1,
    rowOf_chunkOf_eq L f1 (2 * k.val + 1) ⟨(x 1).val - (k0_off105 L k) 1, blk_row_lt _ (k0_off105_inb L k) x hx⟩ (x 0) (x 1) h0 h1]
  rfl

/-- A copy in brings a chunk of the tile's rows into the buffer: the two the kernel starts with, and the two a trip issues
    for the trip after it. -/
theorem chunk_first_la (a' : Buf (Elt Ideal) (laV.view.loc (thr d L))) (inb : ∀ a, (k0_off1 L 0#32) a + S1x16x785.size a ≤ S8x2048x785.size a) :
    View.write (Elt Ideal) laV.view a' (ReadAs.same.apply (View.read (Elt Ideal)
      ((lH.slice (Rect.unit (s := S8x2048x785) (k0_off1 L 0#32) S1x16x785.size inb) (fun _ => rfl)).squeeze S16x785 squeezes_S1x16x785_S16x785).view f0)) Finset.univ
      = chunkOf L f0 0 := by
  have h0 : (k0_off1 L 0#32) 0 = wid L / 4 := by rw [off1_0]; rfl
  have h1 : (k0_off1 L 0#32) 1 = (wid L % 4) * 512 + 16 * (0) := by
    rw [off1_0]; show (2 * (L 1).val + (L 0).val) % 4 * 512 = wid L % 4 * 512 + 16 * (0); unfold wid; omega
  have h2 : (k0_off1 L 0#32) 2 = 0 := by rw [off1_0]; rfl
  exact (copy_in_lH_laV (k0_off1 L 0#32) inb h2 a' f0).trans (chunk_of_block L f0 _ inb (0) h0 h1)
theorem chunk_first_ua (a' : Buf (Elt Ideal) (uaV.view.loc (thr d L))) (inb : ∀ a, (k0_off1 L 0#32) a + S1x16x785.size a ≤ S8x2048x785.size a) :
    View.write (Elt Ideal) uaV.view a' (ReadAs.same.apply (View.read (Elt Ideal)
      ((uH.slice (Rect.unit (s := S8x2048x785) (k0_off1 L 0#32) S1x16x785.size inb) (fun _ => rfl)).squeeze S16x785 squeezes_S1x16x785_S16x785).view f1)) Finset.univ
      = chunkOf L f1 0 := by
  have h0 : (k0_off1 L 0#32) 0 = wid L / 4 := by rw [off1_0]; rfl
  have h1 : (k0_off1 L 0#32) 1 = (wid L % 4) * 512 + 16 * (0) := by
    rw [off1_0]; show (2 * (L 1).val + (L 0).val) % 4 * 512 = wid L % 4 * 512 + 16 * (0); unfold wid; omega
  have h2 : (k0_off1 L 0#32) 2 = 0 := by rw [off1_0]; rfl
  exact (copy_in_uH_uaV (k0_off1 L 0#32) inb h2 a' f1).trans (chunk_of_block L f1 _ inb (0) h0 h1)
theorem chunk_first_lb (a' : Buf (Elt Ideal) (lbV.view.loc (thr d L))) (inb : ∀ a, (k0_off1 L 16#32) a + S1x16x785.size a ≤ S8x2048x785.size a) :
    View.write (Elt Ideal) lbV.view a' (ReadAs.same.apply (View.read (Elt Ideal)
      ((lH.slice (Rect.unit (s := S8x2048x785) (k0_off1 L 16#32) S1x16x785.size inb) (fun _ => rfl)).squeeze S16x785 squeezes_S1x16x785_S16x785).view f0)) Finset.univ
      = chunkOf L f0 1 := by
  have h0 : (k0_off1 L 16#32) 0 = wid L / 4 := by rw [off1_16]; rfl
  have h1 : (k0_off1 L 16#32) 1 = (wid L % 4) * 512 + 16 * (1) := by
    rw [off1_16]; show (2 * (L 1).val + (L 0).val) % 4 * 512 + 16 = wid L % 4 * 512 + 16 * (1); unfold wid; omega
  have h2 : (k0_off1 L 16#32) 2 = 0 := by rw [off1_16]; rfl
  exact (copy_in_lH_lbV (k0_off1 L 16#32) inb h2 a' f0).trans (chunk_of_block L f0 _ inb (1) h0 h1)
theorem chunk_first_ub (a' : Buf (Elt Ideal) (ubV.view.loc (thr d L))) (inb : ∀ a, (k0_off1 L 16#32) a + S1x16x785.size a ≤ S8x2048x785.size a) :
    View.write (Elt Ideal) ubV.view a' (ReadAs.same.apply (View.read (Elt Ideal)
      ((uH.slice (Rect.unit (s := S8x2048x785) (k0_off1 L 16#32) S1x16x785.size inb) (fun _ => rfl)).squeeze S16x785 squeezes_S1x16x785_S16x785).view f1)) Finset.univ
      = chunkOf L f1 1 := by
  have h0 : (k0_off1 L 16#32) 0 = wid L / 4 := by rw [off1_16]; rfl
  have h1 : (k0_off1 L 16#32) 1 = (wid L % 4) * 512 + 16 * (1) := by
    rw [off1_16]; show (2 * (L 1).val + (L 0).val) % 4 * 512 + 16 = wid L % 4 * 512 + 16 * (1); unfold wid; omega
  have h2 : (k0_off1 L 16#32) 2 = 0 := by rw [off1_16]; rfl
  exact (copy_in_uH_ubV (k0_off1 L 16#32) inb h2 a' f1).trans (chunk_of_block L f1 _ inb (1) h0 h1)
theorem chunk_next_la (k : Fin k0_t1_loop.trips) (hk : k0_cond1 k = 1#1) (a' : Buf (Elt Ideal) (laV.view.loc (thr d L)))
    (inb : ∀ a, (k0_off158 L k 2#32) a + S1x16x785.size a ≤ S8x2048x785.size a) :
    View.write (Elt Ideal) laV.view a' (ReadAs.same.apply (View.read (Elt Ideal)
      ((lH.slice (Rect.unit (s := S8x2048x785) (k0_off158 L k 2#32) S1x16x785.size inb) (fun _ => rfl)).squeeze S16x785 squeezes_S1x16x785_S16x785).view f0)) Finset.univ
      = chunkOf L f0 (2 * (k.val + 1)) := by
  have h0 : (k0_off158 L k 2#32) 0 = wid L / 4 := by rw [off158_2 L k hk]; rfl
  have h1 : (k0_off158 L k 2#32) 1 = (wid L % 4) * 512 + 16 * (2 * (k.val + 1)) := by
    rw [off158_2 L k hk]; show (2 * (L 1).val + (L 0).val) % 4 * 512 + 32 * (k.val + 1) = wid L % 4 * 512 + 16 * (2 * (k.val + 1)); unfold wid; omega
  have h2 : (k0_off158 L k 2#32) 2 = 0 := by rw [off158_2 L k hk]; rfl
  exact (copy_in_lH_laV (k0_off158 L k 2#32) inb h2 a' f0).trans (chunk_of_block L f0 _ inb (2 * (k.val + 1)) h0 h1)
theorem chunk_next_ua (k : Fin k0_t1_loop.trips) (hk : k0_cond1 k = 1#1) (a' : Buf (Elt Ideal) (uaV.view.loc (thr d L)))
    (inb : ∀ a, (k0_off158 L k 2#32) a + S1x16x785.size a ≤ S8x2048x785.size a) :
    View.write (Elt Ideal) uaV.view a' (ReadAs.same.apply (View.read (Elt Ideal)
      ((uH.slice (Rect.unit (s := S8x2048x785) (k0_off158 L k 2#32) S1x16x785.size inb) (fun _ => rfl)).squeeze S16x785 squeezes_S1x16x785_S16x785).view f1)) Finset.univ
      = chunkOf L f1 (2 * (k.val + 1)) := by
  have h0 : (k0_off158 L k 2#32) 0 = wid L / 4 := by rw [off158_2 L k hk]; rfl
  have h1 : (k0_off158 L k 2#32) 1 = (wid L % 4) * 512 + 16 * (2 * (k.val + 1)) := by
    rw [off158_2 L k hk]; show (2 * (L 1).val + (L 0).val) % 4 * 512 + 32 * (k.val + 1) = wid L % 4 * 512 + 16 * (2 * (k.val + 1)); unfold wid; omega
  have h2 : (k0_off158 L k 2#32) 2 = 0 := by rw [off158_2 L k hk]; rfl
  exact (copy_in_uH_uaV (k0_off158 L k 2#32) inb h2 a' f1).trans (chunk_of_block L f1 _ inb (2 * (k.val + 1)) h0 h1)
theorem chunk_next_lb (k : Fin k0_t1_loop.trips) (hk : k0_cond1 k = 1#1) (a' : Buf (Elt Ideal) (lbV.view.loc (thr d L)))
    (inb : ∀ a, (k0_off159 L k) a + S1x16x785.size a ≤ S8x2048x785.size a) :
    View.write (Elt Ideal) lbV.view a' (ReadAs.same.apply (View.read (Elt Ideal)
      ((lH.slice (Rect.unit (s := S8x2048x785) (k0_off159 L k) S1x16x785.size inb) (fun _ => rfl)).squeeze S16x785 squeezes_S1x16x785_S16x785).view f0)) Finset.univ
      = chunkOf L f0 (2 * (k.val + 1) + 1) := by
  have h0 : (k0_off159 L k) 0 = wid L / 4 := by rw [off159_eq L k hk]; rfl
  have h1 : (k0_off159 L k) 1 = (wid L % 4) * 512 + 16 * (2 * (k.val + 1) + 1) := by
    rw [off159_eq L k hk]; show (2 * (L 1).val + (L 0).val) % 4 * 512 + 32 * (k.val + 1) + 16 = wid L % 4 * 512 + 16 * (2 * (k.val + 1) + 1); unfold wid; omega
  have h2 : (k0_off159 L k) 2 = 0 := by rw [off159_eq L k hk]; rfl
  exact (copy_in_lH_lbV (k0_off159 L k) inb h2 a' f0).trans (chunk_of_block L f0 _ inb (2 * (k.val + 1) + 1) h0 h1)
theorem chunk_next_ub (k : Fin k0_t1_loop.trips) (hk : k0_cond1 k = 1#1) (a' : Buf (Elt Ideal) (ubV.view.loc (thr d L)))
    (inb : ∀ a, (k0_off159 L k) a + S1x16x785.size a ≤ S8x2048x785.size a) :
    View.write (Elt Ideal) ubV.view a' (ReadAs.same.apply (View.read (Elt Ideal)
      ((uH.slice (Rect.unit (s := S8x2048x785) (k0_off159 L k) S1x16x785.size inb) (fun _ => rfl)).squeeze S16x785 squeezes_S1x16x785_S16x785).view f1)) Finset.univ
      = chunkOf L f1 (2 * (k.val + 1) + 1) := by
  have h0 : (k0_off159 L k) 0 = wid L / 4 := by rw [off159_eq L k hk]; rfl
  have h1 : (k0_off159 L k) 1 = (wid L % 4) * 512 + 16 * (2 * (k.val + 1) + 1) := by
    rw [off159_eq L k hk]; show (2 * (L 1).val + (L 0).val) % 4 * 512 + 32 * (k.val + 1) + 16 = wid L % 4 * 512 + 16 * (2 * (k.val + 1) + 1); unfold wid; omega
  have h2 : (k0_off159 L k) 2 = 0 := by rw [off159_eq L k hk]; rfl
  exact (copy_in_uH_ubV (k0_off159 L k) inb h2 a' f1).trans (chunk_of_block L f1 _ inb (2 * (k.val + 1) + 1) h0 h1)

/-- The tables as the tile copies them into its scratch. -/
theorem table_cp (s : Buf (Elt Ideal) (cpV.view.loc (thr d L))) (fc : Buf (Elt Ideal) (cpH.view.loc (thr d L))) :
    View.write (Elt Ideal) cpV.view s (ReadAs.same.apply (View.read (Elt Ideal) cpH.view fc)) Finset.univ = fc := by
  exact copy_in1_cpH_cpV s fc
theorem table_rp (s : Buf (Elt Ideal) (rpV.view.loc (thr d L))) (fr : Buf (Elt Ideal) (rpH.view.loc (thr d L))) :
    View.write (Elt Ideal) rpV.view s (ReadAs.same.apply (View.read (Elt Ideal) rpH.view fr)) Finset.univ = fr := by
  exact copy_in1_rpH_rpV s fr

/-- The bound scratches, all 512 entries done, copied out: the tile's part of the bound vector holds its values. -/
theorem plb_val (g : Buf (Elt Ideal) ((plbSl L).view.loc (thr d L))) (p0 : Buf (Elt Ideal) (plbV.view.loc (thr d L))) :
    ∀ x ∈ (plbSl L).view.set,
      ((plbSl L).view.writes (Elt Ideal) g [⟨Rect.whole S512, ReadAs.same.apply (View.read (Elt Ideal) plbV.view
        (doneP L (gPb d L f0 f1 c r) p0 k0_t1_loop.trips))⟩]) x = gPb d L f0 f1 c r x := by
  intro x hx
  rw [plbSl_set] at hx
  have m0 := Rect.mem_set_unit.mp hx 0
  change (k0_off161 L) 0 ≤ (x 0).val ∧ (x 0).val < (k0_off161 L) 0 + 512 at m0
  have v0 : (k0_off161 L) 0 = 512 * wid L := by
    rw [Gen.k0_off161_eq]; show 1024 * (L 1).val + 512 * (L 0).val = 512 * wid L; unfold wid; omega
  have hw := wid_lt L
  refine (copy_out1_plbH_plbV_mem (F := Ideal) (k0_off161 L) (k0_off161_inb L) g _ x hx).trans ?_
  unfold doneP
  rw [sel_pos (show (x 0).val - (k0_off161 L) 0 < 32 * k0_t1_loop.trips from lt_of_lt_of_eq (show (x 0).val - (k0_off161 L) 0 < 512 by omega) (by rw [trips1]))]
  have e : (ix1 ⟨(512 * wid L + ((x 0).val - (k0_off161 L) 0)) % 16384, Nat.mod_lt _ (by decide)⟩ : (⟨1, ![16384]⟩ : Shape).Idx) = x := by
    funext a
    match a with
    | ⟨0, _⟩ => exact Fin.ext (by show (512 * wid L + ((x 0).val - (k0_off161 L) 0)) % 16384 = (x 0).val; omega)
  exact congrArg _ e
theorem pub_val (g : Buf (Elt Ideal) ((pubSl L).view.loc (thr d L))) (p0 : Buf (Elt Ideal) (pubV.view.loc (thr d L))) :
    ∀ x ∈ (pubSl L).view.set,
      ((pubSl L).view.writes (Elt Ideal) g [⟨Rect.whole S512, ReadAs.same.apply (View.read (Elt Ideal) pubV.view
        (doneP L (gQb d L f0 f1 c r) p0 k0_t1_loop.trips))⟩]) x = gQb d L f0 f1 c r x := by
  intro x hx
  rw [pubSl_set] at hx
  have m0 := Rect.mem_set_unit.mp hx 0
  change (k0_off161 L) 0 ≤ (x 0).val ∧ (x 0).val < (k0_off161 L) 0 + 512 at m0
  have v0 : (k0_off161 L) 0 = 512 * wid L := by
    rw [Gen.k0_off161_eq]; show 1024 * (L 1).val + 512 * (L 0).val = 512 * wid L; unfold wid; omega
  have hw := wid_lt L
  refine (copy_out1_pubH_pubV_mem (F := Ideal) (k0_off161 L) (k0_off161_inb L) g _ x hx).trans ?_
  unfold doneP
  rw [sel_pos (show (x 0).val - (k0_off161 L) 0 < 32 * k0_t1_loop.trips from lt_of_lt_of_eq (show (x 0).val - (k0_off161 L) 0 < 512 by omega) (by rw [trips1]))]
  have e : (ix1 ⟨(512 * wid L + ((x 0).val - (k0_off161 L) 0)) % 16384, Nat.mod_lt _ (by decide)⟩ : (⟨1, ![16384]⟩ : Shape).Idx) = x := by
    funext a
    match a with
    | ⟨0, _⟩ => exact Fin.ext (by show (512 * wid L + ((x 0).val - (k0_off161 L) 0)) % 16384 = (x 0).val; omega)
  exact congrArg _ e

end Cert.Proof.KI

end
-- ==== Proof.KIVTrip.lean ====
/-
  One trip of the main loop, with what it computes: the two chunks the trip works on are chunks 2k and 2k + 1 of the tile's
  rows; their rows are rescaled in the buffers, their concretized bounds go into entries 32k … 32k + 31 of the bound
  scratches, the copies out put the rescaled rows into the trip's slices of the output arrays (which then hold the result
  arrays' values there), and the copies in that the trip starts bring chunks 2k + 2 and 2k + 3.
-/
import proofs.«214425_g62758062129325_cont_9to1_m_981_19_alg».proof.Proof.KIVFacts

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.RefSpec (sel sel_pos sel_neg)

local notation "𝕄" => MT nD τ sig (HIx 1) (Elt Ideal) ℕ UU ℕ

variable (d : Dev nD) (L : grid0.Coords)
  (O : CellTallies nD τ sig (HIx 1)) (W : Waits sig (HIx 1)) (q9 q10 q11 q12 : PosShare TreeShare)
  (f0 : Buf (Elt Ideal) (lH.view.loc (thr d L))) (f1 : Buf (Elt Ideal) (uH.view.loc (thr d L)))
  (c : Buf (Elt Ideal) (cpV.view.loc (thr d L))) (r : Buf (Elt Ideal) (rpV.view.loc (thr d L)))

/-- The slices of the other trips are as before: for `j ≠ k`, `j < k` and `j < k + 1` say the same. -/
theorem outs_rest (k : Fin k0_t1_loop.trips) :
    (bigSep (Finset.univ.erase k) (outsAtV d L f0 f1 c r k.val) : sProp 𝕄) = bigSep (Finset.univ.erase k) (outsAtV d L f0 f1 c r (k.val + 1)) := by
  refine bigSep_congr fun j hj => ?_
  have hne : j.val ≠ k.val := fun e => (Finset.mem_erase.mp hj).1 (Fin.ext e)
  unfold outsAtV
  by_cases h : j.val < k.val
  · rw [if_pos h, if_pos (show j.val < k.val + 1 by omega)]
  · rw [if_neg h, if_neg (show ¬ j.val < k.val + 1 by omega)]

theorem outs_last (k : Fin k0_t1_loop.trips) (h : k.val + 1 = k0_t1_loop.trips) :
    (bigSep (Finset.univ.erase k) (outsAtV d L f0 f1 c r k.val) : sProp 𝕄) = bigSep (Finset.univ.erase k) (outsAtV d L f0 f1 c r k0_t1_loop.trips) :=
  (outs_rest d L f0 f1 c r k).trans (congrArg (fun n => (bigSep (Finset.univ.erase k) (outsAtV d L f0 f1 c r n) : sProp 𝕄)) h)

theorem trips2_16 : Scf.trips k0_t2_loop.lb k0_t2_loop.ub k0_t2_loop.st = 16 := by decide

theorem doneP_step_lb16 (z : FVec Ideal S16 .f32) (p0 : Buf (Elt Ideal) (plbV.view.loc (thr d L))) (k : Fin k0_t1_loop.trips)
    (h103 : ∀ a, (k0_off103 k) a + S16.size a ≤ S512.size a) (h156 : ∀ a, (k0_off156 k) a + S16.size a ≤ S512.size a) :
    plbV.view.writes (Elt Ideal) (doneP L (gPb d L f0 f1 c r) p0 k.val)
      [⟨Rect.unit (s := S512) (k0_off156 k) S16.size h156,
          (doneAccB d L c r (chunkOf L f0 (2 * k.val + 1)) (chunkOf L f1 (2 * k.val + 1)) z 16).1⟩,
        ⟨Rect.unit (s := S512) (k0_off103 k) S16.size h103,
          (doneAccA d L c r (chunkOf L f0 (2 * k.val)) (chunkOf L f1 (2 * k.val)) z 16).1⟩]
      = doneP L (gPb d L f0 f1 c r) p0 (k.val + 1) := doneP_step_lb d L f0 f1 c r z p0 k h103 h156
theorem doneP_step_ub16 (z : FVec Ideal S16 .f32) (p0 : Buf (Elt Ideal) (pubV.view.loc (thr d L))) (k : Fin k0_t1_loop.trips)
    (h103 : ∀ a, (k0_off103 k) a + S16.size a ≤ S512.size a) (h156 : ∀ a, (k0_off156 k) a + S16.size a ≤ S512.size a) :
    pubV.view.writes (Elt Ideal) (doneP L (gQb d L f0 f1 c r) p0 k.val)
      [⟨Rect.unit (s := S512) (k0_off156 k) S16.size h156,
          (doneAccB d L c r (chunkOf L f0 (2 * k.val + 1)) (chunkOf L f1 (2 * k.val + 1)) z 16).2⟩,
        ⟨Rect.unit (s := S512) (k0_off103 k) S16.size h103,
          (doneAccA d L c r (chunkOf L f0 (2 * k.val)) (chunkOf L f1 (2 * k.val)) z 16).2⟩]
      = doneP L (gQb d L f0 f1 c r) p0 (k.val + 1) := doneP_step_ub d L f0 f1 c r z p0 k h103 h156
theorem outA_val16 (k : Fin k0_t1_loop.trips) (g : Buf (Elt Ideal) ((outA L k).view.loc (thr d L))) :
    ∀ x ∈ (outA L k).view.set,
      ((outA L k).view.writes (Elt Ideal) g [⟨Rect.whole S16x785, ReadAs.same.apply (View.read (Elt Ideal) laV.view
        (doneLA d L c r (chunkOf L f0 (2 * k.val)) (chunkOf L f1 (2 * k.val)) 16))⟩]) x = gLo d L f0 f1 c r x := outA_val d L f0 f1 c r k g
theorem outA'_val16 (k : Fin k0_t1_loop.trips) (g : Buf (Elt Ideal) ((outA' L k).view.loc (thr d L))) :
    ∀ x ∈ (outA' L k).view.set,
      ((outA' L k).view.writes (Elt Ideal) g [⟨Rect.whole S16x785, ReadAs.same.apply (View.read (Elt Ideal) uaV.view
        (doneUA d L c r (chunkOf L f0 (2 * k.val)) (chunkOf L f1 (2 * k.val)) 16))⟩]) x = gUo d L f0 f1 c r x := outA'_val d L f0 f1 c r k g
theorem outB_val16 (k : Fin k0_t1_loop.trips) (g : Buf (Elt Ideal) ((outB L k).view.loc (thr d L))) :
    ∀ x ∈ (outB L k).view.set,
      ((outB L k).view.writes (Elt Ideal) g [⟨Rect.whole S16x785, ReadAs.same.apply (View.read (Elt Ideal) lbV.view
        (doneLB d L c r (chunkOf L f0 (2 * k.val + 1)) (chunkOf L f1 (2 * k.val + 1)) 16))⟩]) x = gLo d L f0 f1 c r x := outB_val d L f0 f1 c r k g
theorem outB'_val16 (k : Fin k0_t1_loop.trips) (g : Buf (Elt Ideal) ((outB' L k).view.loc (thr d L))) :
    ∀ x ∈ (outB' L k).view.set,
      ((outB' L k).view.writes (Elt Ideal) g [⟨Rect.whole S16x785, ReadAs.same.apply (View.read (Elt Ideal) ubV.view
        (doneUB d L c r (chunkOf L f0 (2 * k.val + 1)) (chunkOf L f1 (2 * k.val + 1)) 16))⟩]) x = gUo d L f0 f1 c r x := outB'_val d L f0 f1 c r k g

/-- A copy in flight whose payload is respelt. -/
theorem flight_congr (sm : DmaSems sig S_) (dst : Memref sig .scVector .vmem S16x785 .f32) (src : Memref sig .scVector .hbm S8x2048x785 .f32)
    (q : PosShare TreeShare) (f : Buf (Elt Ideal) (src.view.loc (thr d L))) (S : Finset (Idx (src.view.loc (thr d L))))
    {dv dv' : Buf (Elt Ideal) (dst.view.loc (thr d L))} (h : dv = dv') :
    (Transfers.Flight (countersEmb (U := UU)) (thr d L) (SemLoc.dma sm.sem) (default : HIx 1) 401920
        iprop((dst.view.loc (thr d L) ↦{fullShare} dv) ∗ (src.view.loc (thr d L) ↦[S]{q} f)) : sProp 𝕄)
      ⊢ Transfers.Flight (countersEmb (U := UU)) (thr d L) (SemLoc.dma sm.sem) (default : HIx 1) 401920
        iprop((dst.view.loc (thr d L) ↦{fullShare} dv') ∗ (src.view.loc (thr d L) ↦[S]{q} f)) := by
  subst h; exact .rfl
/-- A buffer's contents respelt. -/
theorem pts_congr {ℓ : Loc nD τ sig} {I : Finset (Idx ℓ)} {q : PosShare TreeShare} {f g : Buf (Elt Ideal) ℓ} (h : f = g) :
    (ℓ ↦[I]{q} f : sProp 𝕄) ⊢ ℓ ↦[I]{q} g := by subst h; exact .rfl
/-- A slice's contents replaced by what they agree with on the slice. -/
theorem pts_on {ℓ : Loc nD τ sig} {I : Finset (Idx ℓ)} {q : PosShare TreeShare} {f g : Buf (Elt Ideal) ℓ} (h : ∀ i ∈ I, f i = g i) :
    (ℓ ↦[I]{q} f : sProp 𝕄) ⊢ ℓ ↦[I]{q} g := Entails.of_eq (pointsTo_congr h)

set_option maxHeartbeats 4000000 in
theorem tripV (hLA : RowLA d L) (hUA : RowUA d L) (hAA : RowAccA d L) (hLB : RowLB d L) (hUB : RowUB d L) (hAB : RowAccB d L) (v29 : BitVec 32) (z : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (hC : ConstsOK z v31 v33 v35 v37 v39 v41 v43 v45 v47 v49 v51 v53 v55 v57 v59 v61 v63) (k : Fin k0_t1_loop.trips) (acc : BitVec 32) :
    loopInvV d L O W q9 q10 q11 q12 f0 f1 c r k.val acc
      ⊢ (wp Idealize.ShloMosaic.frame (wpE (defs₀ (F := Ideal)) 𝒱₀ (thr d L) none) Set.univ
          (k0_t1_body (F := Ideal) L cpH (Memref.isWhole_whole _) rpH (Memref.isWhole_whole _) lH (Memref.isWhole_whole _) uH (Memref.isWhole_whole _) loH (Memref.isWhole_whole _) uoH (Memref.isWhole_whole _) plbH (Memref.isWhole_whole _) pubH (Memref.isWhole_whole _) cpV (Memref.isWhole_whole _) rpV (Memref.isWhole_whole _) laV (Memref.isWhole_whole _) uaV (Memref.isWhole_whole _) lbV (Memref.isWhole_whole _) ubV (Memref.isWhole_whole _) plbV (Memref.isWhole_whole _) pubV (Memref.isWhole_whole _) redV (Memref.isWhole_whole _) cc0_scratch9 cc0_scratch10 cc0_scratch11 cc0_scratch12 cc0_scratch13 cc0_scratch14 cc0_scratch15 cc0_scratch16 cc0_scoped0 cc0_scoped1 cc0_scoped2 cc0_scoped3 v29 z v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc) (loopInvV d L O W q9 q10 q11 q12 f0 f1 c r (k.val + 1)) : sProp 𝕄) := by
  unfold loopInvV
  rw [if_pos k.isLt]
  by_cases hk : k0_cond1 k = 1#1
  · rw [if_pos (cond_lt k hk)]
    unfold commonV invInV inFlV
    rw [SparseCore.bigSep_erase' (Finset.mem_univ k), SparseCore.bigSep_erase' (Finset.mem_univ k), ← outs_rest d L f0 f1 c r k,
      show outsAtV d L f0 f1 c r (k.val + 1) k = doneOuts d L f0 f1 c r k from if_pos (Nat.lt_succ_self _)]
    unfold doneOuts
    unfold k0_t1_body
    iintro ⟨⟨Hmw, ⟨%W', %hW', HO⟩, HC, HR, ⟨%p0, HP⟩, ⟨%q0, HQ⟩, ⟨%e, HE⟩⟩,
      ⟨%SA, F9, L9⟩, ⟨%SA', F10, U10⟩, ⟨%SB, F11, L11⟩, ⟨%SB', F12, U12⟩, M13, M14, M15, M16, Hk, Houts⟩
    ihave Hk' := (Entails.of_eq (show outsAtV d L f0 f1 c r k.val k = outsAt (F := Ideal) d L k from if_neg (lt_irrefl _))) $$ Hk
    unfold outsAt
    icases Hk' with ⟨⟨%gA, GA⟩, ⟨%gA', GA'⟩, ⟨%gB, GB⟩, ⟨%gB', GB'⟩⟩
    set_option sl_exec.parts true in
    sl_exec
    sl_for (rowInvAV d L c r (chunkOf L f0 (2 * k.val)) (chunkOf L f1 (2 * k.val)) z) $$ [HC HR F9_dst F10_dst HE]
    case region => intro k' acc'; exact rowA_regionV d L c r _ _ z hLA hUA hAA _ _ _ _ _ _ _ _ _ _ _ _ _ _ _ _ _ _ _ _ _ _ _ _ _ _ _ _ _ _ _ _ _ _ _ _ _ hC k' acc'
    · unfold rowInvAV
      rw [doneLA_zero, doneUA_zero]
      isplitl [HC]; · iexact HC
      isplitl [HR]; · iexact HR
      isplitl [F9_dst]; · iexact F9_dst
      isplitl [F10_dst]; · iexact F10_dst
      isplitl [HE]; · iexists _; iexact HE
      ipureintro; exact (doneAccA_zero d L c r z _ _).symm
    iintro %accA HI
    unfold rowInvAV
    icases HI with ⟨HC, HR, HA, HB, ⟨%e', HE⟩, %haccA⟩
    subst haccA
    set_option sl_exec.parts true in
    sl_exec
    sl_for (rowInvBV d L c r (chunkOf L f0 (2 * k.val + 1)) (chunkOf L f1 (2 * k.val + 1)) z) $$ [HC HR F11_dst F12_dst HE]
    case region => intro k' acc'; exact rowB_regionV d L c r _ _ z hLB hUB hAB _ _ _ _ _ _ _ _ _ _ _ _ _ _ _ _ _ _ _ _ _ _ _ _ _ _ _ _ _ _ _ _ _ _ hC k' acc'
    · unfold rowInvBV
      rw [doneLB_zero, doneUB_zero]
      isplitl [HC]; · iexact HC
      isplitl [HR]; · iexact HR
      isplitl [F11_dst]; · iexact F11_dst
      isplitl [F12_dst]; · iexact F12_dst
      isplitl [HE]; · iexists _; iexact HE
      ipureintro; exact (doneAccB_zero d L c r z _ _).symm
    iintro %accB HI
    unfold rowInvBV
    icases HI with ⟨HC, HR, HA2, HB2, ⟨%e'', HE⟩, %haccB⟩
    subst haccB
    set_option sl_exec.parts true in
    sl_exec
    sl_step
    isplitl [Hmw HO HC HR HP HQ HE]
    · isplitl [Hmw]; · iexact Hmw
      isplitl [HO]
      · iexists _
        isplitr
        swap
        · iexact HO
        · ipureintro
          repeat (apply waits_insert)
          exact hW'
      isplitl [HC]; · iexact HC
      isplitl [HR]; · iexact HR
      isplitl [HP]
      · iexists p0
        iapply (pts_congr (doneP_step_lb16 d L f0 f1 c r z p0 k _ _))
        iexact HP
      isplitl [HQ]
      · iexists q0
        iapply (pts_congr (doneP_step_ub16 d L f0 f1 c r z q0 k _ _))
        iexact HQ
      iexists _; iexact HE
    isplitl [F9 L9]
    · iexists _; isplitl [F9]
      · iapply (flight_congr d L cc0_scratch9 laV lH q9 f0 _ (chunk_next_la d L f0 k hk _ _))
        iexact F9
      iexact L9
    isplitl [F10 U10]
    · iexists _; isplitl [F10]
      · iapply (flight_congr d L cc0_scratch10 uaV uH q10 f1 _ (chunk_next_ua d L f1 k hk _ _))
        iexact F10
      iexact U10
    isplitl [F11 L11]
    · iexists _; isplitl [F11]
      · iapply (flight_congr d L cc0_scratch11 lbV lH q11 f0 _ (chunk_next_lb d L f0 k hk _ _))
        iexact F11
      iexact L11
    isplitl [F12 U12]
    · iexists _; isplitl [F12]
      · iapply (flight_congr d L cc0_scratch12 ubV uH q12 f1 _ (chunk_next_ub d L f1 k hk _ _))
        iexact F12
      iexact U12
    isplitl [M13]; · iexact M13
    isplitl [M14]; · iexact M14
    isplitl [M15]; · iexact M15
    isplitl [M16]; · iexact M16
    isplitl [GA GA' GB GB']
    · isplitl [GA]; · iapply (pts_on (outA_val16 d L f0 f1 c r k gA)); iexact GA
      isplitl [GA']; · iapply (pts_on (outA'_val16 d L f0 f1 c r k gA')); iexact GA'
      isplitl [GB]; · iapply (pts_on (outB_val16 d L f0 f1 c r k gB)); iexact GB
      iapply (pts_on (outB'_val16 d L f0 f1 c r k gB')); iexact GB'
    iexact Houts
  · rw [if_neg (by have := cond_last k hk; omega)]
    unfold commonV invInV inFlV
    rw [SparseCore.bigSep_erase' (Finset.mem_univ k)]
    unfold k0_t1_body
    iintro ⟨⟨Hmw, ⟨%W', %hW', HO⟩, HC, HR, ⟨%p0, HP⟩, ⟨%q0, HQ⟩, ⟨%e, HE⟩⟩,
      ⟨%SA, F9, L9⟩, ⟨%SA', F10, U10⟩, ⟨%SB, F11, L11⟩, ⟨%SB', F12, U12⟩, M13, M14, M15, M16, Hk, Houts⟩
    ihave Hk' := (Entails.of_eq (show outsAtV d L f0 f1 c r k.val k = outsAt (F := Ideal) d L k from if_neg (lt_irrefl _))) $$ Hk
    unfold outsAt
    icases Hk' with ⟨⟨%gA, GA⟩, ⟨%gA', GA'⟩, ⟨%gB, GB⟩, ⟨%gB', GB'⟩⟩
    set_option sl_exec.parts true in
    sl_exec
    sl_for (rowInvAV d L c r (chunkOf L f0 (2 * k.val)) (chunkOf L f1 (2 * k.val)) z) $$ [HC HR F9_dst F10_dst HE]
    case region => intro k' acc'; exact rowA_regionV d L c r _ _ z hLA hUA hAA _ _ _ _ _ _ _ _ _ _ _ _ _ _ _ _ _ _ _ _ _ _ _ _ _ _ _ _ _ _ _ _ _ _ _ _ _ hC k' acc'
    · unfold rowInvAV
      rw [doneLA_zero, doneUA_zero]
      isplitl [HC]; · iexact HC
      isplitl [HR]; · iexact HR
      isplitl [F9_dst]; · iexact F9_dst
      isplitl [F10_dst]; · iexact F10_dst
      isplitl [HE]; · iexists _; iexact HE
      ipureintro; exact (doneAccA_zero d L c r z _ _).symm
    iintro %accA HI
    unfold rowInvAV
    icases HI with ⟨HC, HR, HA, HB, ⟨%e', HE⟩, %haccA⟩
    subst haccA
    set_option sl_exec.parts true in
    sl_exec
    sl_for (rowInvBV d L c r (chunkOf L f0 (2 * k.val + 1)) (chunkOf L f1 (2 * k.val + 1)) z) $$ [HC HR F11_dst F12_dst HE]
    case region => intro k' acc'; exact rowB_regionV d L c r _ _ z hLB hUB hAB _ _ _ _ _ _ _ _ _ _ _ _ _ _ _ _ _ _ _ _ _ _ _ _ _ _ _ _ _ _ _ _ _ _ hC k' acc'
    · unfold rowInvBV
      rw [doneLB_zero, doneUB_zero]
      isplitl [HC]; · iexact HC
      isplitl [HR]; · iexact HR
      isplitl [F11_dst]; · iexact F11_dst
      isplitl [F12_dst]; · iexact F12_dst
      isplitl [HE]; · iexists _; iexact HE
      ipureintro; exact (doneAccB_zero d L c r z _ _).symm
    iintro %accB HI
    unfold rowInvBV
    icases HI with ⟨HC, HR, HA2, HB2, ⟨%e'', HE⟩, %haccB⟩
    subst haccB
    set_option sl_exec.parts true in
    sl_exec
    sl_step
    isplitl [Hmw HO HC HR HP HQ HE]
    · isplitl [Hmw]; · iexact Hmw
      isplitl [HO]
      · iexists _
        isplitr
        swap
        · iexact HO
        · ipureintro
          repeat (apply waits_insert)
          exact hW'
      isplitl [HC]; · iexact HC
      isplitl [HR]; · iexact HR
      isplitl [HP]
      · iexists p0
        iapply (pts_congr (doneP_step_lb16 d L f0 f1 c r z p0 k _ _))
        iexact HP
      isplitl [HQ]
      · iexists q0
        iapply (pts_congr (doneP_step_ub16 d L f0 f1 c r z q0 k _ _))
        iexact HQ
      iexists _; iexact HE
    unfold invOutV outFlV
    iexists k
    isplitr; · ipureintro; exact cond_last k hk
    isplitl [L9]; · iexact L9
    isplitl [U10]; · iexact U10
    isplitl [L11]; · iexact L11
    isplitl [U12]; · iexact U12
    isplitl [F9]; · iexact F9
    isplitl [F10]; · iexact F10
    isplitl [F11]; · iexact F11
    isplitl [F12]; · iexact F12
    isplitl [M13 HA]
    · iexists _; iexists _
      isplitr; · ipureintro; exact outA_val16 d L f0 f1 c r k gA
      isplitl [M13]; · iexact M13
      iexact HA
    isplitl [M14 HB]
    · iexists _; iexists _
      isplitr; · ipureintro; exact outA'_val16 d L f0 f1 c r k gA'
      isplitl [M14]; · iexact M14
      iexact HB
    isplitl [M15 HA2]
    · iexists _; iexists _
      isplitr; · ipureintro; exact outB_val16 d L f0 f1 c r k gB
      isplitl [M15]; · iexact M15
      iexact HA2
    isplitl [M16 HB2]
    · iexists _; iexists _
      isplitr; · ipureintro; exact outB'_val16 d L f0 f1 c r k gB'
      isplitl [M16]; · iexact M16
      iexact HB2
    iapply (Entails.of_eq (outs_last d L f0 f1 c r k (cond_last k hk)))
    iexact Houts

end Cert.Proof.KI

end
-- ==== Proof.KIVBody.lean ====
/-
  The kernel on one tile, with what it computes: the tables are copied in as they are; the first two chunks are chunks 0 and
  1 of the tile's rows; sixteen trips finish all thirty-two chunks; the last two copies out and the two copies of the bound
  scratches leave every one of the tile's slices of the four results at the result arrays' values.
-/
import proofs.«214425_g62758062129325_cont_9to1_m_981_19_alg».proof.Proof.KIVTrip
import proofs.«214425_g62758062129325_cont_9to1_m_981_19_alg».proof.Proof.KIVTile

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.RefSpec (sel sel_pos sel_neg)

local notation "𝕄" => MT nD τ sig (HIx 1) (Elt Ideal) ℕ UU ℕ

variable (d : Dev nD) (L : grid0.Coords)
  (O : CellTallies nD τ sig (HIx 1)) (W : Waits sig (HIx 1)) (qc qr q9 q10 q11 q12 : PosShare TreeShare)
  (fc : Buf (Elt Ideal) (cpH.view.loc (thr d L))) (fr : Buf (Elt Ideal) (rpH.view.loc (thr d L)))
  (f0 : Buf (Elt Ideal) (lH.view.loc (thr d L))) (f1 : Buf (Elt Ideal) (uH.view.loc (thr d L)))

theorem doneP_zero (G : (⟨1, ![16384]⟩ : Shape).Idx → EReal) (p0 : (⟨1, ![512]⟩ : Shape).Idx → EReal) : doneP L G p0 0 = p0 := by
  funext i; unfold doneP; exact sel_neg (by omega) _ _

theorem outs_zero : (bigSep Finset.univ (outsAtV d L f0 f1 fc fr 0) : sProp 𝕄) = bigSep Finset.univ (outsAt (F := Ideal) d L) :=
  bigSep_congr fun j _ => if_neg (Nat.not_lt_zero _)
theorem outs_all (s : Finset (Fin k0_t1_loop.trips)) :
    (bigSep s (outsAtV d L f0 f1 fc fr k0_t1_loop.trips) : sProp 𝕄) = bigSep s (doneOuts d L f0 f1 fc fr) :=
  bigSep_congr fun j _ => if_pos j.isLt

/-- The constant vectors the kernel builds are what the row statements ask. -/
def ConstsFact : Prop := ConstsOK (broadcast S16 (FloatOps.ofBits (F := Ideal) FTy.f32 0#32)) (iota Kind.scVector S16 32 [0] iota_S16_d0_w32_scVector) (xori (iota Kind.scVector S16 32 [0] iota_S16_d0_w32_scVector) (broadcast S16 8#32)) (xori (iota Kind.scVector S16 32 [0] iota_S16_d0_w32_scVector) (broadcast S16 24#32)) (xori (iota Kind.scVector S16 32 [0] iota_S16_d0_w32_scVector) (broadcast S16 40#32)) (xori (iota Kind.scVector S16 32 [0] iota_S16_d0_w32_scVector) (broadcast S16 56#32)) (xori (iota Kind.scVector S16 32 [0] iota_S16_d0_w32_scVector) (broadcast S16 4#32)) (xori (iota Kind.scVector S16 32 [0] iota_S16_d0_w32_scVector) (broadcast S16 20#32)) (xori (iota Kind.scVector S16 32 [0] iota_S16_d0_w32_scVector) (broadcast S16 36#32)) (xori (iota Kind.scVector S16 32 [0] iota_S16_d0_w32_scVector) (broadcast S16 52#32)) (xori (iota Kind.scVector S16 32 [0] iota_S16_d0_w32_scVector) (broadcast S16 2#32)) (xori (iota Kind.scVector S16 32 [0] iota_S16_d0_w32_scVector) (broadcast S16 18#32)) (xori (iota Kind.scVector S16 32 [0] iota_S16_d0_w32_scVector) (broadcast S16 34#32)) (xori (iota Kind.scVector S16 32 [0] iota_S16_d0_w32_scVector) (broadcast S16 50#32)) (xori (iota Kind.scVector S16 32 [0] iota_S16_d0_w32_scVector) (broadcast S16 1#32)) (xori (iota Kind.scVector S16 32 [0] iota_S16_d0_w32_scVector) (broadcast S16 17#32)) (xori (iota Kind.scVector S16 32 [0] iota_S16_d0_w32_scVector) (broadcast S16 33#32)) (xori (iota Kind.scVector S16 32 [0] iota_S16_d0_w32_scVector) (broadcast S16 49#32))

theorem trips1_16 : Scf.trips k0_t1_loop.lb k0_t1_loop.ub k0_t1_loop.st = k0_t1_loop.trips := rfl

theorem plb_val16 (g : Buf (Elt Ideal) ((plbSl L).view.loc (thr d L))) (p0 : Buf (Elt Ideal) (plbV.view.loc (thr d L))) :
    ∀ x ∈ (plbSl L).view.set,
      ((plbSl L).view.writes (Elt Ideal) g [⟨Rect.whole S512, ReadAs.same.apply (View.read (Elt Ideal) plbV.view
        (doneP L (gPb d L f0 f1 fc fr) p0 (Scf.trips k0_t1_loop.lb k0_t1_loop.ub k0_t1_loop.st)))⟩]) x = gPb d L f0 f1 fc fr x :=
  plb_val d L f0 f1 fc fr g p0
theorem pub_val16 (g : Buf (Elt Ideal) ((pubSl L).view.loc (thr d L))) (p0 : Buf (Elt Ideal) (pubV.view.loc (thr d L))) :
    ∀ x ∈ (pubSl L).view.set,
      ((pubSl L).view.writes (Elt Ideal) g [⟨Rect.whole S512, ReadAs.same.apply (View.read (Elt Ideal) pubV.view
        (doneP L (gQb d L f0 f1 fc fr) p0 (Scf.trips k0_t1_loop.lb k0_t1_loop.ub k0_t1_loop.st)))⟩]) x = gQb d L f0 f1 fc fr x :=
  pub_val d L f0 f1 fc fr g p0

set_option maxHeartbeats 4000000 in
theorem body_coreV (hLA : RowLA d L) (hUA : RowUA d L) (hAA : RowAccA d L) (hLB : RowLB d L) (hUB : RowUB d L) (hAB : RowAccB d L) (hCF : ConstsFact) (X : sProp 𝕄) :
    iprop(Transfers.MayWaits (thr d L) (none : HIx 1) O ∗ owes (thr d L) O W ∗ goRes (F := Ideal) d L qc qr q9 q10 q11 q12 fc fr f0 f1
        ∗ scratchRes (F := Ideal) d L ∗ semsRes (F := Ideal) d L ∗ X)
      ⊢ (wp Idealize.ShloMosaic.frame (wpE (defs₀ (F := Ideal)) 𝒱₀ (thr d L) none) Set.univ (bodyAt (F := Ideal) L) fun _ =>
          iprop(tdResV d L qc qr q9 q10 q11 q12 fc fr f0 f1 ∗ scratchRes (F := Ideal) d L ∗ semsRes (F := Ideal) d L ∗ X
            ∗ ∃ W', ⌜∀ p ∈ W', p ∈ W ∨ p.2 = none⌝ ∗ owes (thr d L) O W') : sProp 𝕄) := by
  unfold bodyAt goRes tdResV scratchRes semsRes
  rw [cc0__sc_body_eq_skeleton]; unfold cc0__sc_body_skel
  iintro ⟨Hmw, HO, ⟨H2, H5, L9, U10, L11, U12, Houts, ⟨%g2, G2⟩, ⟨%g3, G3⟩⟩,
    ⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩,
    ⟨M9, M10, M11, M12, M13, M14, M15, M16, R0, R1, R2, R3⟩, HX⟩
  set_option sl_exec.parts true in
  sl_exec
  sl_for (loopInvV d L O W q9 q10 q11 q12 f0 f1 fc fr) $$ [Hmw HO S0 S1 S6 S7 S8 M9 L9 M10 U10 M11 L11 M12 U12 M13 M14 M15 M16 Houts]
  case region =>
    intro k acc
    unfold_sl
    exact tripV d L O W q9 q10 q11 q12 f0 f1 fc fr hLA hUA hAA hLB hUB hAB _ _ _ _ _ _ _ _ _ _ _ _ _ _ _ _ _ _ _ _ _ _ _ _ _ _ _ _ _ _ _ _ _ _ _ hCF k acc
  · unfold loopInvV
    rw [if_pos (by decide)]
    unfold commonV invInV inFlV
    rw [outs_zero]
    isplitl [Hmw HO S0 S1 S6 S7 S8]
    · isplitl [Hmw]; · iexact Hmw
      isplitl [HO]
      · iexists _
        isplitr
        swap
        · iexact HO
        · ipureintro
          repeat (apply waits_insert)
          exact fun p hp => .inl hp
      isplitl [S0]; · iapply (pts_congr (table_cp d L s0 fc)); iexact S0
      isplitl [S1]; · iapply (pts_congr (table_rp d L s1 fr)); iexact S1
      isplitl [S6]; · iexists s6; iapply (pts_congr (doneP_zero L _ s6).symm); iexact S6
      isplitl [S7]; · iexists s7; iapply (pts_congr (doneP_zero L _ s7).symm); iexact S7
      iexists _; iexact S8
    isplitl [M9 L9]
    · iexists _; isplitl [M9]
      · iapply (flight_congr d L cc0_scratch9 laV lH q9 f0 _ (chunk_first_la d L f0 _ _)); iexact M9
      iexact L9
    isplitl [M10 U10]
    · iexists _; isplitl [M10]
      · iapply (flight_congr d L cc0_scratch10 uaV uH q10 f1 _ (chunk_first_ua d L f1 _ _)); iexact M10
      iexact U10
    isplitl [M11 L11]
    · iexists _; isplitl [M11]
      · iapply (flight_congr d L cc0_scratch11 lbV lH q11 f0 _ (chunk_first_lb d L f0 _ _)); iexact M11
      iexact L11
    isplitl [M12 U12]
    · iexists _; isplitl [M12]
      · iapply (flight_congr d L cc0_scratch12 ubV uH q12 f1 _ (chunk_first_ub d L f1 _ _)); iexact M12
      iexact U12
    isplitl [M13]; · iexact M13
    isplitl [M14]; · iexact M14
    isplitl [M15]; · iexact M15
    isplitl [M16]; · iexact M16
    iexact Houts
  iintro %accE HI
  unfold loopInvV
  rw [if_neg (lt_irrefl _)]
  unfold commonV invOutV outFlV
  icases HI with ⟨⟨Hmw, ⟨%W', %hW', HO⟩, HC, HR, ⟨%p6, HP⟩, ⟨%p7, HQ⟩, ⟨%e, HE⟩⟩, %kl, %hkl, L9, U10, L11, U12, M9, M10, M11, M12,
    ⟨%gA, %sa, %hgA, F13, RA⟩, ⟨%gA', %sa', %hgA', F14, RA'⟩, ⟨%gB, %sb, %hgB, F15, RB⟩, ⟨%gB', %sb', %hgB', F16, RB'⟩, Houts⟩
  set_option sl_exec.parts true in
  sl_exec
  sl_step
  isplitl [H2 H5 L9 U10 L11 U12 F13_dst F14_dst F15_dst F16_dst Houts G2 G3]
  · isplitl [H2]; · iexact H2
    isplitl [H5]; · iexact H5
    isplitl [L9]; · iexact L9
    isplitl [U10]; · iexact U10
    isplitl [L11]; · iexact L11
    isplitl [U12]; · iexact U12
    isplitl [F13_dst F14_dst F15_dst F16_dst Houts]
    · rw [SparseCore.bigSep_erase' (Finset.mem_univ kl)]
      isplitl [F13_dst F14_dst F15_dst F16_dst]
      · unfold doneOuts
        isplitl [F13_dst]; · iapply (pts_on hgA); iexact F13_dst
        isplitl [F14_dst]; · iapply (pts_on hgA'); iexact F14_dst
        isplitl [F15_dst]; · iapply (pts_on hgB); iexact F15_dst
        iapply (pts_on hgB'); iexact F16_dst
      iapply (Entails.of_eq (outs_all d L fc fr f0 f1 _)); iexact Houts
    isplitl [G2]; · iapply (pts_on (plb_val16 d L fc fr f0 f1 g2 p6)); iexact G2
    iapply (pts_on (pub_val16 d L fc fr f0 f1 g3 p7)); iexact G3
  isplitl [HC HR RA RA' RB RB' HP HQ HE]
  · isplitl [HC]; · iexists _; iexact HC
    isplitl [HR]; · iexists _; iexact HR
    isplitl [RA]; · iexists _; iexact RA
    isplitl [RA']; · iexists _; iexact RA'
    isplitl [RB]; · iexists _; iexact RB
    isplitl [RB']; · iexists _; iexact RB'
    isplitl [HP]; · iexists _; iexact HP
    isplitl [HQ]; · iexists _; iexact HQ
    iexists _; iexact HE
  isplitl [M9 M10 M11 M12 F13 F14 F15 F16 R0 R1 R2 R3]
  · isplitl [M9]; · iexact M9
    isplitl [M10]; · iexact M10
    isplitl [M11]; · iexact M11
    isplitl [M12]; · iexact M12
    isplitl [F13]; · iexact F13
    isplitl [F14]; · iexact F14
    isplitl [F15]; · iexact F15
    isplitl [F16]; · iexact F16
    isplitl [R0]; · iexact R0
    isplitl [R1]; · iexact R1
    isplitl [R2]; · iexact R2
    iexact R3
  isplitl [HX]; · iexact HX
  iexists _
  isplitr
  swap
  · iexact HO
  · ipureintro
    repeat (apply waits_insert)
    exact hW'

/-- The tile's task with values. -/
theorem tile_taskV (hLA : RowLA d L) (hUA : RowUA d L) (hAA : RowAccA d L) (hLB : RowLB d L) (hUB : RowUB d L) (hAB : RowAccB d L) (hCF : ConstsFact) : TileTaskV d L qc qr q9 q10 q11 q12 fc fr f0 f1 := by
  intro O W hO
  rw [(K (F := Ideal)).scopedBufs_V facts d (cV L) (jV L), SparseCore.Cfg.scopedSems0_V (Val := Elt Ideal) d (cV L) (jV L), ownSems0_V, ownBufs_V]
  refine BIBase.Entails.trans ?pre ((body_coreV d L O W qc qr q9 q10 q11 q12 fc fr f0 f1 hLA hUA hAA hLB hUB hAB hCF (restOwn (F := Ideal) d L)).trans
    (wp_mono Idealize.ShloMosaic.frame _ _ fun _ => ?post))
  case pre =>
    unfold scratchRes semsRes restOwn
    iintro ⟨#Hlv, -, Hgo, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, Hbufs⟩, ⟨C0, C1, C2, C3, C4, C5, C6, C7, C8, C9, C10, C11, Hsems⟩, HO⟩
    ihave Hmw := ((K (F := Ideal)).mayWaits_none (thr := thr d L) hO) $$ Hlv
    isplitl [Hmw]; · iexact Hmw
    isplitl [HO]; · iexact HO
    isplitl [Hgo]; · iexact Hgo
    isplitl [B0 B1 B2 B3 B4 B5 B6 B7 B8]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      iexists _; iexact B8
    isplitl [C0 C1 C2 C3 C4 C5 C6 C7 C8 C9 C10 C11]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      iexact C11
    isplitl [Hbufs]; · iexact Hbufs
    iexact Hsems
  case post =>
    unfold scratchRes semsRes restOwn
    iintro ⟨Hgo, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩⟩, ⟨C0, C1, C2, C3, C4, C5, C6, C7, C8, C9, C10, C11⟩, ⟨Hbufs, Hsems⟩, HO⟩
    isplitl [Hgo]; · iexact Hgo
    isplitl [B0 B1 B2 B3 B4 B5 B6 B7 B8 Hbufs]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      iexact Hbufs
    isplitl [C0 C1 C2 C3 C4 C5 C6 C7 C8 C9 C10 C11 Hsems]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      iexact Hsems
    iexact HO

end Cert.Proof.KI

end
-- ==== Proof.KIVRowBuf.lean ====
/-
  What one trip of a row loop leaves in a coefficient buffer. The trip rewrites row k in fifty strips of sixteen columns:
  forty-nine side by side from column 0, each the strip it finds scaled by one factor, and a last strip over columns 769
  to 784 that keeps its first fifteen elements as just written and rescales (and, for the upper buffer, shifts) the
  element in column 784 alone. A list of strips on one row that covers the columns below n and agrees with one function
  G of the index reads G on that part of the row and the old contents off it; both buffers are instances.
-/
import proofs.«214425_g62758062129325_cont_9to1_m_981_19_alg».proof.Proof.KIVSpec
import Idealize.ShloMosaic.Lib.Writes
import Idealize.ShloMosaic.Lib.WritesUnit
import Idealize.ShloMosaic.Lib.Pipeline.Value

noncomputable section

namespace Cert.Proof.KI

open Cert.KernelIdeal Cert.KernelIdeal.Gen
open Idealize.ShloMosaic Idealize.ShloMosaic.ValueIdx
open Cert.Proof.RefSpec (sel sel_pos sel_neg)

/-! ## Strips of one row -/

section Strips

variable {sg : RefSig} {κ : Kind} {sp : Space}

/-- The strips of the list lie on row k in columns below n, cover that part of the row, and each holds G at the indices
    it covers. -/
structure StripInv (G : S16x785.Idx → Elt Ideal .f32) (k : Nat) (L : List (View.Piece (Elt Ideal) S16x785 .f32)) (n : Nat) :
    Prop where
  agree : ∀ p ∈ L, ∀ x, p.2 x = G (p.1.emb x)
  row : ∀ p ∈ L, ∀ y ∈ p.1.set, (y 0).val = k
  col : ∀ p ∈ L, ∀ y ∈ p.1.set, (y 1).val < n
  cover : ∀ y : S16x785.Idx, (y 0).val = k → (y 1).val < n → ∃ p ∈ L, y ∈ p.1.set

theorem StripInv.nil (G : S16x785.Idx → Elt Ideal .f32) (k : Nat) : StripInv G k [] 0 :=
  ⟨fun _ h => absurd h List.not_mem_nil, fun _ h => absurd h List.not_mem_nil, fun _ h => absurd h List.not_mem_nil,
    fun _ _ h => absurd h (Nat.not_lt_zero _)⟩

/-- An index lies in the strip of sixteen columns from column m of row k exactly when its row is k and its column is one
    of the sixteen. -/
theorem mem_strip {off : Fin 2 → Nat} (inb : ∀ a, off a + S1x16.size a ≤ S16x785.size a) (k m : Nat) (hoff : off = ![k, m])
    (y : S16x785.Idx) :
    y ∈ (Rect.unit (s := S16x785) off S1x16.size inb).set ↔ (y 0).val = k ∧ m ≤ (y 1).val ∧ (y 1).val < m + 16 := by
  subst hoff
  rw [Rect.mem_set_unit]
  constructor
  · intro h
    have h0 := h 0; have h1 := h 1
    change k ≤ (y 0).val ∧ (y 0).val < k + 1 at h0
    change m ≤ (y 1).val ∧ (y 1).val < m + 16 at h1
    omega
  · rintro ⟨h0, h1, h2⟩ a
    match a with
    | ⟨0, _⟩ => show k ≤ (y 0).val ∧ (y 0).val < k + 1; omega
    | ⟨1, _⟩ => show m ≤ (y 1).val ∧ (y 1).val < m + 16; omega

/-- One more strip, from column m, on top of strips that reach column n, with m ≤ n ≤ m + 16. -/
theorem StripInv.cons {G : S16x785.Idx → Elt Ideal .f32} {k : Nat} {L : List (View.Piece (Elt Ideal) S16x785 .f32)} {n : Nat}
    (h : StripInv G k L n) {off : Fin 2 → Nat} (inb : ∀ a, off a + S1x16.size a ≤ S16x785.size a)
    (w : (Rect.unit (s := S16x785) off S1x16.size inb).shape.Idx → Elt Ideal .f32) (m : Nat) (hoff : off = ![k, m])
    (hmn : m ≤ n) (hnm : n ≤ m + 16)
    (hw : ∀ x, w x = G ((Rect.unit (s := S16x785) off S1x16.size inb).emb x)) :
    StripInv G k (⟨Rect.unit (s := S16x785) off S1x16.size inb, w⟩ :: L) (m + 16) := by
  have hm := mem_strip inb k m hoff
  refine ⟨?_, ?_, ?_, ?_⟩
  · intro p hp
    rcases List.mem_cons.mp hp with rfl | hp
    · exact hw
    · exact h.agree p hp
  · intro p hp y hy
    rcases List.mem_cons.mp hp with rfl | hp
    · exact ((hm y).mp hy).1
    · exact h.row p hp y hy
  · intro p hp y hy
    rcases List.mem_cons.mp hp with rfl | hp
    · exact ((hm y).mp hy).2.2
    · have := h.col p hp y hy; omega
  · intro y hy0 hy1
    by_cases hlt : (y 1).val < n
    · obtain ⟨p, hp, hy⟩ := h.cover y hy0 hlt
      exact ⟨p, List.mem_cons_of_mem _ hp, hy⟩
    · exact ⟨_, List.mem_cons_self, (hm y).mpr ⟨hy0, by omega, hy1⟩⟩

/-- One more strip, where the strip's payload agrees with a function G' that G agrees with in the columns below 784. -/
theorem StripInv.cons_of_lt {G G' : S16x785.Idx → Elt Ideal .f32} (hGG : ∀ y : S16x785.Idx, (y 1).val < 784 → G y = G' y)
    {k : Nat} {L : List (View.Piece (Elt Ideal) S16x785 .f32)} {n : Nat}
    (h : StripInv G k L n) {off : Fin 2 → Nat} (inb : ∀ a, off a + S1x16.size a ≤ S16x785.size a)
    (w : (Rect.unit (s := S16x785) off S1x16.size inb).shape.Idx → Elt Ideal .f32) (m : Nat) (hoff : off = ![k, m])
    (hmn : m ≤ n) (hnm : n ≤ m + 16) (hm : m + 16 ≤ 784)
    (hw : ∀ x, w x = G' ((Rect.unit (s := S16x785) off S1x16.size inb).emb x)) :
    StripInv G k (⟨Rect.unit (s := S16x785) off S1x16.size inb, w⟩ :: L) (m + 16) :=
  h.cons inb w m hoff hmn hnm fun x => (hw x).trans (hGG _ (by
    have e1 : off 1 = m := by rw [hoff]; rfl
    have hx : (x 1).val < 16 := (x 1).isLt
    show off 1 + 1 * (x 1).val < 784
    omega)).symm

variable (v : View sg κ sp S16x785 .f32) (f : v.ty.Contents (Elt Ideal))

/-- Under the strips the view reads G, -/
theorem StripInv.read_row {G : S16x785.Idx → Elt Ideal .f32} {k : Nat} {L : List (View.Piece (Elt Ideal) S16x785 .f32)}
    {n : Nat} (h : StripInv G k L n) (y : S16x785.Idx) (hy0 : (y 0).val = k) (hy1 : (y 1).val < n) :
    v.read (Elt Ideal) (v.writes (Elt Ideal) f L) y = G y :=
  View.read_writes_apply_of_pieces v f G L h.agree y (h.cover y hy0 hy1)

/-- on another row what it read before, -/
theorem StripInv.read_off_row {G : S16x785.Idx → Elt Ideal .f32} {k : Nat} {L : List (View.Piece (Elt Ideal) S16x785 .f32)}
    {n : Nat} (h : StripInv G k L n) (y : S16x785.Idx) (hy0 : (y 0).val ≠ k) :
    v.read (Elt Ideal) (v.writes (Elt Ideal) f L) y = v.read (Elt Ideal) f y :=
  View.read_writes_apply_of_forall_not_mem v f y L fun p hp hy => hy0 (h.row p hp y hy)

/-- and in a column the strips do not reach, too. -/
theorem StripInv.read_col_ge {G : S16x785.Idx → Elt Ideal .f32} {k : Nat} {L : List (View.Piece (Elt Ideal) S16x785 .f32)}
    {n : Nat} (h : StripInv G k L n) (y : S16x785.Idx) (hy1 : n ≤ (y 1).val) :
    v.read (Elt Ideal) (v.writes (Elt Ideal) f L) y = v.read (Elt Ideal) f y :=
  View.read_writes_apply_of_forall_not_mem v f y L fun p hp hy => absurd (h.col p hp y hy) (by omega)

end Strips

/-! ## The payload of a strip, lane by lane -/

section Payload

/-- A 1 × 16 index is its lane behind the coordinate 0. -/
theorem unit_cons (x : S1x16.Idx) : (Fin.cons ⟨0, Nat.one_pos⟩ (fun a : Fin 1 => x a.succ) : S1x16.Idx) = x := by
  funext a
  match a with
  | ⟨0, _⟩ => exact Fin.ext (by have := (x 0).isLt; change (x 0).val < 1 at this; show 0 = (x 0).val; omega)
  | ⟨1, _⟩ => rfl

/-- Its lane, as an index of the sixteen-lane shape. -/
theorem unit_lane (x : S1x16.Idx) : (fun a : Fin 1 => x a.succ) = (ix1 (x 1) : S16.Idx) := by
  funext a; match a with | ⟨0, _⟩ => rfl

/-- A vector seen as a 1 × 16 block reads its lane. -/
theorem addUnit_apply {α : Type} (A : S16.Idx → α) (h2 : S16.ShapeCasts S1x16) (x : S1x16.Idx) :
    shapeCast S1x16 A h2 x = A (ix1 (x 1)) :=
  (shapeCast_addUnit_apply (n := 1) ![16] A h2 x).trans (congrArg A (unit_lane x))

/-- A 1 × 16 block seen as a vector reads the block at the lane. -/
theorem dropUnit_apply {α : Type} (ld : S1x16.Idx → α) (h1 : S1x16.ShapeCasts S16) (x : S1x16.Idx) :
    shapeCast S16 ld h1 (ix1 (x 1)) = ld x := by
  rw [← unit_lane x]
  exact (shapeCast_dropUnit_apply (n := 1) ![16] ld h1 _).trans (congrArg ld (unit_cons x))

/-- A strip scaled by a vector with the one value s in every lane is s times the strip. -/
theorem strip_mul (scale : FVec Ideal S16 .f32) (s : EReal) (hs : ∀ j : Fin 16, scale (ix1 j) = s)
    (ld : Vec Ideal S1x16 .f32) (h1 : S1x16.ShapeCasts S16) (h2 : S16.ShapeCasts S1x16) (x : S1x16.Idx) :
    shapeCast S1x16 (mulf scale (shapeCast S16 ld h1)) h2 x = s * ld x := by
  have e1 : scale (ix1 (x 1)) = s := hs (x 1)
  rw [addUnit_apply, mulf_apply, dropUnit_apply, e1]

/-- The last strip of the lower buffer: lane 15 scaled, the other lanes as found. -/
theorem strip_lastL (mask : IVec S16 1) (hm15 : mask (ix1 15) = 1#1) (hmlt : ∀ j : Fin 16, j.val < 15 → mask (ix1 j) = 0#1)
    (scale : FVec Ideal S16 .f32) (s : EReal) (hs : ∀ j : Fin 16, scale (ix1 j) = s)
    (ld : Vec Ideal S1x16 .f32) (h1 : S1x16.ShapeCasts S16) (h2 : S16.ShapeCasts S1x16) (x : S1x16.Idx) :
    shapeCast S1x16 (select mask (mulf scale (shapeCast S16 ld h1)) (shapeCast S16 ld h1)) h2 x
      = if (x 1).val = 15 then s * ld x else ld x := by
  have e1 : scale (ix1 (x 1)) = s := hs (x 1)
  rw [addUnit_apply, select_apply, mulf_apply, dropUnit_apply, e1]
  by_cases h : (x 1).val = 15
  · have e : (x 1 : Fin 16) = (15 : Fin 16) := Fin.ext h
    have e3 : mask (ix1 (x 1)) = 1#1 := (congrArg (fun j : Fin 16 => mask (ix1 j)) e).trans hm15
    rw [if_pos h, e3, select_one]
  · have e3 : mask (ix1 (x 1)) = 0#1 := hmlt (x 1) (by have := (x 1).isLt; change (x 1).val < 16 at this; omega)
    rw [if_neg h, e3, select_zero]

/-- The last strip of the upper buffer: lane 15 scaled and lowered, the other lanes as found. -/
theorem strip_lastU (mask : IVec S16 1) (hm15 : mask (ix1 15) = 1#1) (hmlt : ∀ j : Fin 16, j.val < 15 → mask (ix1 j) = 0#1)
    (scale : FVec Ideal S16 .f32) (s : EReal) (hs : ∀ j : Fin 16, scale (ix1 j) = s)
    (adj : FVec Ideal S16 .f32) (t : EReal) (ht : ∀ j : Fin 16, adj (ix1 j) = t)
    (ld : Vec Ideal S1x16 .f32) (h1 : S1x16.ShapeCasts S16) (h2 : S16.ShapeCasts S1x16) (x : S1x16.Idx) :
    shapeCast S1x16 (select mask (subf (mulf scale (shapeCast S16 ld h1)) adj) (shapeCast S16 ld h1)) h2 x
      = if (x 1).val = 15 then s * ld x - t else ld x := by
  have e1 : scale (ix1 (x 1)) = s := hs (x 1)
  have e2 : adj (ix1 (x 1)) = t := ht (x 1)
  rw [addUnit_apply, select_apply, subf_apply, mulf_apply, dropUnit_apply, e1, e2]
  by_cases h : (x 1).val = 15
  · have e : (x 1 : Fin 16) = (15 : Fin 16) := Fin.ext h
    have e3 : mask (ix1 (x 1)) = 1#1 := (congrArg (fun j : Fin 16 => mask (ix1 j)) e).trans hm15
    rw [if_pos h, e3, select_one]
  · have e3 : mask (ix1 (x 1)) = 0#1 := hmlt (x 1) (by have := (x 1).isLt; change (x 1).val < 16 at this; omega)
    rw [if_neg h, e3, select_zero]

/-- The mask "lane 15" of the lane numbers. -/
theorem mask15 (v31 : IVec S16 32) (h31 : ∀ j : Fin 16, v31 (ix1 j) = BitVec.ofNat 32 j.val) :
    rowA_pack.sl.r_112 v31 (ix1 15) = 1#1 ∧ ∀ j : Fin 16, j.val < 15 → rowA_pack.sl.r_112 v31 (ix1 j) = 0#1 := by
  have key : ∀ j : Fin 16, rowA_pack.sl.r_112 v31 (ix1 j) = IntOp.cmpi .eq (BitVec.ofNat 32 j.val) 15#32 := by
    intro j
    show IntOp.cmpi .eq (v31 (ix1 j)) 15#32 = _
    rw [h31]
  refine ⟨(key 15).trans (by decide), fun j hj => (key j).trans ?_⟩
  revert j; decide

variable {sg : RefSig} {κ : Kind} {sp : Space}

/-- A strip loaded through a view and scaled by s in every lane is s times what the view reads at the strip's indices. -/
theorem strip_hw (v : View sg κ sp S16x785 .f32) (a : v.ty.Contents (Elt Ideal)) {off : Fin 2 → Nat}
    (inb : ∀ a, off a + S1x16.size a ≤ S16x785.size a) (scale : FVec Ideal S16 .f32) (s : EReal)
    (hs : ∀ j : Fin 16, scale (ix1 j) = s) (h1 : S1x16.ShapeCasts S16) (h2 : S16.ShapeCasts S1x16) (x : S1x16.Idx) :
    shapeCast S1x16 (mulf scale (shapeCast S16
        (View.readAt (Elt Ideal) v (Rect.unit (s := S16x785) off S1x16.size inb).toLoadRect a) h1)) h2 x
      = s * v.read (Elt Ideal) a ((Rect.unit (s := S16x785) off S1x16.size inb).emb x) :=
  strip_mul scale s hs _ h1 h2 x

end Payload

/-! ## The lower buffer after a trip -/

set_option maxHeartbeats 1600000 in
/-- The lower buffer after a trip of the first row loop, given that every lane of the trip's lower scale vector is the row's
    lower factor: row k scaled by it, the other rows as they were. -/
theorem rowLA_of (d : Dev nD) (L : grid0.Coords) (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L)))
    (hC : ConstsOK v30 v31 v33 v35 v37 v39 v41 v43 v45 v47 v49 v51 v53 v55 v57 v59 v61 v63)
    (hsL : ∀ j : Fin 16, rowA_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sL (cpOf d L c) (cpOf d L r) (rowOf a (kIdx k0_t2_loop k)) (rowOf b (kIdx k0_t2_loop k))) :
    (rowA_pack (F := Ideal) d L).1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e
      = fun idx => sel (idx 0 = (kIdx k0_t2_loop k)) (KSpec.newL (cpOf d L c) (cpOf d L r) (rowOf a (kIdx k0_t2_loop k)) (rowOf b (kIdx k0_t2_loop k)) (idx 1)) (a idx) := by
  obtain ⟨s, hs⟩ : ∃ s, s = KSpec.sL (cpOf d L c) (cpOf d L r) (rowOf a (kIdx k0_t2_loop k)) (rowOf b (kIdx k0_t2_loop k)) := ⟨_, rfl⟩
  rw [← hs] at hsL
  obtain ⟨G, hG⟩ : ∃ G : S16x785.Idx → Elt Ideal .f32, G = fun y => s * a y := ⟨_, rfl⟩
  have hm := mask15 v31 hC.v31_eq
  have i0 := StripInv.nil G k.val
  have i2 : StripInv G k.val (rowA_pack.sl.HA_2 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 32 := by
    unfold rowA_pack.sl.HA_2
    refine (i0.cons _ _ 0 (k0_off53_eq k) (Nat.le_refl _) (by omega) ?_).cons _ _ 16 (k0_off54_eq k) (Nat.le_refl _) (by omega) ?_
    all_goals exact fun x => (strip_hw laV.view a _ _ s hsL _ _ x).trans (by rw [hG]; rfl)
  have i5 : StripInv G k.val (rowA_pack.sl.HA_5 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 80 := by
    unfold rowA_pack.sl.HA_5
    refine ((i2.cons _ _ 32 (k0_off55_eq k) (Nat.le_refl _) (by omega) ?_).cons _ _ 48 (k0_off56_eq k) (Nat.le_refl _) (by omega) ?_).cons _ _ 64 (k0_off57_eq k) (Nat.le_refl _) (by omega) ?_
    all_goals exact fun x => (strip_hw laV.view a _ _ s hsL _ _ x).trans (by rw [hG]; rfl)
  have i8 : StripInv G k.val (rowA_pack.sl.HA_8 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 128 := by
    unfold rowA_pack.sl.HA_8
    refine ((i5.cons _ _ 80 (k0_off58_eq k) (Nat.le_refl _) (by omega) ?_).cons _ _ 96 (k0_off59_eq k) (Nat.le_refl _) (by omega) ?_).cons _ _ 112 (k0_off60_eq k) (Nat.le_refl _) (by omega) ?_
    all_goals exact fun x => (strip_hw laV.view a _ _ s hsL _ _ x).trans (by rw [hG]; rfl)
  have i11 : StripInv G k.val (rowA_pack.sl.HA_11 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 176 := by
    unfold rowA_pack.sl.HA_11
    refine ((i8.cons _ _ 128 (k0_off61_eq k) (Nat.le_refl _) (by omega) ?_).cons _ _ 144 (k0_off62_eq k) (Nat.le_refl _) (by omega) ?_).cons _ _ 160 (k0_off63_eq k) (Nat.le_refl _) (by omega) ?_
    all_goals exact fun x => (strip_hw laV.view a _ _ s hsL _ _ x).trans (by rw [hG]; rfl)
  have i14 : StripInv G k.val (rowA_pack.sl.HA_14 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 224 := by
    unfold rowA_pack.sl.HA_14
    refine ((i11.cons _ _ 176 (k0_off64_eq k) (Nat.le_refl _) (by omega) ?_).cons _ _ 192 (k0_off65_eq k) (Nat.le_refl _) (by omega) ?_).cons _ _ 208 (k0_off66_eq k) (Nat.le_refl _) (by omega) ?_
    all_goals exact fun x => (strip_hw laV.view a _ _ s hsL _ _ x).trans (by rw [hG]; rfl)
  have i17 : StripInv G k.val (rowA_pack.sl.HA_17 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 272 := by
    unfold rowA_pack.sl.HA_17
    refine ((i14.cons _ _ 224 (k0_off67_eq k) (Nat.le_refl _) (by omega) ?_).cons _ _ 240 (k0_off68_eq k) (Nat.le_refl _) (by omega) ?_).cons _ _ 256 (k0_off69_eq k) (Nat.le_refl _) (by omega) ?_
    all_goals exact fun x => (strip_hw laV.view a _ _ s hsL _ _ x).trans (by rw [hG]; rfl)
  have i20 : StripInv G k.val (rowA_pack.sl.HA_20 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 320 := by
    unfold rowA_pack.sl.HA_20
    refine ((i17.cons _ _ 272 (k0_off70_eq k) (Nat.le_refl _) (by omega) ?_).cons _ _ 288 (k0_off71_eq k) (Nat.le_refl _) (by omega) ?_).cons _ _ 304 (k0_off72_eq k) (Nat.le_refl _) (by omega) ?_
    all_goals exact fun x => (strip_hw laV.view a _ _ s hsL _ _ x).trans (by rw [hG]; rfl)
  have i23 : StripInv G k.val (rowA_pack.sl.HA_23 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 368 := by
    unfold rowA_pack.sl.HA_23
    refine ((i20.cons _ _ 320 (k0_off73_eq k) (Nat.le_refl _) (by omega) ?_).cons _ _ 336 (k0_off74_eq k) (Nat.le_refl _) (by omega) ?_).cons _ _ 352 (k0_off75_eq k) (Nat.le_refl _) (by omega) ?_
    all_goals exact fun x => (strip_hw laV.view a _ _ s hsL _ _ x).trans (by rw [hG]; rfl)
  have i26 : StripInv G k.val (rowA_pack.sl.HA_26 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 416 := by
    unfold rowA_pack.sl.HA_26
    refine ((i23.cons _ _ 368 (k0_off76_eq k) (Nat.le_refl _) (by omega) ?_).cons _ _ 384 (k0_off77_eq k) (Nat.le_refl _) (by omega) ?_).cons _ _ 400 (k0_off78_eq k) (Nat.le_refl _) (by omega) ?_
    all_goals exact fun x => (strip_hw laV.view a _ _ s hsL _ _ x).trans (by rw [hG]; rfl)
  have i29 : StripInv G k.val (rowA_pack.sl.HA_29 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 464 := by
    unfold rowA_pack.sl.HA_29
    refine ((i26.cons _ _ 416 (k0_off79_eq k) (Nat.le_refl _) (by omega) ?_).cons _ _ 432 (k0_off80_eq k) (Nat.le_refl _) (by omega) ?_).cons _ _ 448 (k0_off81_eq k) (Nat.le_refl _) (by omega) ?_
    all_goals exact fun x => (strip_hw laV.view a _ _ s hsL _ _ x).trans (by rw [hG]; rfl)
  have i32 : StripInv G k.val (rowA_pack.sl.HA_32 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 512 := by
    unfold rowA_pack.sl.HA_32
    refine ((i29.cons _ _ 464 (k0_off82_eq k) (Nat.le_refl _) (by omega) ?_).cons _ _ 480 (k0_off83_eq k) (Nat.le_refl _) (by omega) ?_).cons _ _ 496 (k0_off84_eq k) (Nat.le_refl _) (by omega) ?_
    all_goals exact fun x => (strip_hw laV.view a _ _ s hsL _ _ x).trans (by rw [hG]; rfl)
  have i35 : StripInv G k.val (rowA_pack.sl.HA_35 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 560 := by
    unfold rowA_pack.sl.HA_35
    refine ((i32.cons _ _ 512 (k0_off85_eq k) (Nat.le_refl _) (by omega) ?_).cons _ _ 528 (k0_off86_eq k) (Nat.le_refl _) (by omega) ?_).cons _ _ 544 (k0_off87_eq k) (Nat.le_refl _) (by omega) ?_
    all_goals exact fun x => (strip_hw laV.view a _ _ s hsL _ _ x).trans (by rw [hG]; rfl)
  have i38 : StripInv G k.val (rowA_pack.sl.HA_38 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 608 := by
    unfold rowA_pack.sl.HA_38
    refine ((i35.cons _ _ 560 (k0_off88_eq k) (Nat.le_refl _) (by omega) ?_).cons _ _ 576 (k0_off89_eq k) (Nat.le_refl _) (by omega) ?_).cons _ _ 592 (k0_off90_eq k) (Nat.le_refl _) (by omega) ?_
    all_goals exact fun x => (strip_hw laV.view a _ _ s hsL _ _ x).trans (by rw [hG]; rfl)
  have i41 : StripInv G k.val (rowA_pack.sl.HA_41 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 656 := by
    unfold rowA_pack.sl.HA_41
    refine ((i38.cons _ _ 608 (k0_off91_eq k) (Nat.le_refl _) (by omega) ?_).cons _ _ 624 (k0_off92_eq k) (Nat.le_refl _) (by omega) ?_).cons _ _ 640 (k0_off93_eq k) (Nat.le_refl _) (by omega) ?_
    all_goals exact fun x => (strip_hw laV.view a _ _ s hsL _ _ x).trans (by rw [hG]; rfl)
  have i44 : StripInv G k.val (rowA_pack.sl.HA_44 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 704 := by
    unfold rowA_pack.sl.HA_44
    refine ((i41.cons _ _ 656 (k0_off94_eq k) (Nat.le_refl _) (by omega) ?_).cons _ _ 672 (k0_off95_eq k) (Nat.le_refl _) (by omega) ?_).cons _ _ 688 (k0_off96_eq k) (Nat.le_refl _) (by omega) ?_
    all_goals exact fun x => (strip_hw laV.view a _ _ s hsL _ _ x).trans (by rw [hG]; rfl)
  have i47 : StripInv G k.val (rowA_pack.sl.HA_47 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 752 := by
    unfold rowA_pack.sl.HA_47
    refine ((i44.cons _ _ 704 (k0_off97_eq k) (Nat.le_refl _) (by omega) ?_).cons _ _ 720 (k0_off98_eq k) (Nat.le_refl _) (by omega) ?_).cons _ _ 736 (k0_off99_eq k) (Nat.le_refl _) (by omega) ?_
    all_goals exact fun x => (strip_hw laV.view a _ _ s hsL _ _ x).trans (by rw [hG]; rfl)
  have i49 : StripInv G k.val (rowA_pack.sl.HA_49 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 784 := by
    unfold rowA_pack.sl.HA_49
    refine (i47.cons _ _ 752 (k0_off100_eq k) (Nat.le_refl _) (by omega) ?_).cons _ _ 768 (k0_off101_eq k) (Nat.le_refl _) (by omega) ?_
    all_goals exact fun x => (strip_hw laV.view a _ _ s hsL _ _ x).trans (by rw [hG]; rfl)
  have i50 : ∃ L50, (rowA_pack (F := Ideal) d L).1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e = laV.view.writes (Elt Ideal) a L50 ∧ StripInv G k.val L50 785 := by
    refine ⟨_, rfl, i49.cons _ _ 769 (k0_off102_eq k) (by omega) (by omega) ?_⟩
    intro x
    refine (strip_lastL _ hm.1 hm.2 _ s hsL _ _ _ x).trans ?_
    have hr0 : (((Rect.unit (s := S16x785) (k0_off102 k) S1x16.size (k0_off102_inb k)).emb x) 0).val = k.val := by
      have e0 : k0_off102 k 0 = k.val := congrFun (k0_off102_eq k) 0
      have := (x 0).isLt; change (x 0).val < 1 at this
      show k0_off102 k 0 + 1 * (x 0).val = k.val; omega
    have hr1 : (((Rect.unit (s := S16x785) (k0_off102 k) S1x16.size (k0_off102_inb k)).emb x) 1).val = 769 + (x 1).val := by
      have e1 : k0_off102 k 1 = 769 := congrFun (k0_off102_eq k) 1
      show k0_off102 k 1 + 1 * (x 1).val = 769 + (x 1).val; omega
    have hx1 : (x 1).val < 16 := (x 1).isLt
    by_cases h15 : (x 1).val = 15
    · rw [if_pos h15, hG]
      exact congrArg (s * ·) (i49.read_col_ge laV.view a _ ((by omega : 784 ≤ 769 + (x 1).val).trans_eq hr1.symm))
    · rw [if_neg h15]
      exact i49.read_row laV.view a _ hr0 (hr1.trans_lt (by omega : 769 + (x 1).val < 784))
  obtain ⟨L50, hL, inv⟩ := i50
  rw [hL]
  funext idx
  by_cases hrow : idx 0 = kIdx k0_t2_loop k
  · refine Eq.trans ?_ (sel_pos hrow _ _).symm
    refine (inv.read_row laV.view a idx (congrArg Fin.val hrow) (idx 1).isLt).trans ?_
    have hi : idx = ix2 (kIdx k0_t2_loop k) (idx 1) := by rw [← hrow]; exact eq_ix2 idx
    rw [hG, hs]
    show _ * a idx = _ * a (ix2 (kIdx k0_t2_loop k) (idx 1))
    exact congrArg (fun z => _ * z) (congrArg a hi)
  · refine Eq.trans ?_ (sel_neg hrow _ _).symm
    exact inv.read_off_row laV.view a idx (fun h => hrow (Fin.ext h))

/-! ## The upper buffer after a trip -/

set_option maxHeartbeats 1600000 in
/-- The upper buffer after a trip of the first row loop, given that every lane of the trip's upper scale vector is the row's
    upper factor and every lane of its shift vector the row's shift: row k scaled, its last column also lowered by the
    shift, the other rows as they were. -/
theorem rowUA_of (d : Dev nD) (L : grid0.Coords) (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L)))
    (hC : ConstsOK v30 v31 v33 v35 v37 v39 v41 v43 v45 v47 v49 v51 v53 v55 v57 v59 v61 v63)
    (hsU : ∀ j : Fin 16, rowA_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sU (cpOf d L c) (cpOf d L r) (rowOf a (kIdx k0_t2_loop k)) (rowOf b (kIdx k0_t2_loop k)))
    (hadj : ∀ j : Fin 16, rowA_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.biasAdj (cpOf d L c) (cpOf d L r) (rowOf a (kIdx k0_t2_loop k)) (rowOf b (kIdx k0_t2_loop k))) :
    (rowA_pack (F := Ideal) d L).2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e
      = fun idx => sel (idx 0 = (kIdx k0_t2_loop k)) (KSpec.newU (cpOf d L c) (cpOf d L r) (rowOf a (kIdx k0_t2_loop k)) (rowOf b (kIdx k0_t2_loop k)) (idx 1)) (b idx) := by
  obtain ⟨s, hs⟩ : ∃ s, s = KSpec.sU (cpOf d L c) (cpOf d L r) (rowOf a (kIdx k0_t2_loop k)) (rowOf b (kIdx k0_t2_loop k)) := ⟨_, rfl⟩
  obtain ⟨t, ht⟩ : ∃ t, t = KSpec.biasAdj (cpOf d L c) (cpOf d L r) (rowOf a (kIdx k0_t2_loop k)) (rowOf b (kIdx k0_t2_loop k)) := ⟨_, rfl⟩
  rw [← hs] at hsU
  rw [← ht] at hadj
  obtain ⟨G, hG⟩ : ∃ G : S16x785.Idx → Elt Ideal .f32,
      G = fun y => if (y 1).val = 784 then s * b y - t else s * b y := ⟨_, rfl⟩
  obtain ⟨G', hG'⟩ : ∃ G' : S16x785.Idx → Elt Ideal .f32, G' = fun y => s * b y := ⟨_, rfl⟩
  have hGG : ∀ y : S16x785.Idx, (y 1).val < 784 → G y = G' y := by
    intro y hy
    rw [hG, hG']
    exact if_neg (by omega)
  have hm := mask15 v31 hC.v31_eq
  have i0 := StripInv.nil G k.val
  have i2 : StripInv G k.val (rowA_pack.sl.HB_2 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 32 := by
    unfold rowA_pack.sl.HB_2
    refine (i0.cons_of_lt hGG _ _ 0 (k0_off53_eq k) (Nat.le_refl _) (by omega) (by omega) ?_).cons_of_lt hGG _ _ 16 (k0_off54_eq k) (Nat.le_refl _) (by omega) (by omega) ?_
    all_goals exact fun x => (strip_hw uaV.view b _ _ s hsU _ _ x).trans (by rw [hG']; rfl)
  have i5 : StripInv G k.val (rowA_pack.sl.HB_5 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 80 := by
    unfold rowA_pack.sl.HB_5
    refine ((i2.cons_of_lt hGG _ _ 32 (k0_off55_eq k) (Nat.le_refl _) (by omega) (by omega) ?_).cons_of_lt hGG _ _ 48 (k0_off56_eq k) (Nat.le_refl _) (by omega) (by omega) ?_).cons_of_lt hGG _ _ 64 (k0_off57_eq k) (Nat.le_refl _) (by omega) (by omega) ?_
    all_goals exact fun x => (strip_hw uaV.view b _ _ s hsU _ _ x).trans (by rw [hG']; rfl)
  have i8 : StripInv G k.val (rowA_pack.sl.HB_8 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 128 := by
    unfold rowA_pack.sl.HB_8
    refine ((i5.cons_of_lt hGG _ _ 80 (k0_off58_eq k) (Nat.le_refl _) (by omega) (by omega) ?_).cons_of_lt hGG _ _ 96 (k0_off59_eq k) (Nat.le_refl _) (by omega) (by omega) ?_).cons_of_lt hGG _ _ 112 (k0_off60_eq k) (Nat.le_refl _) (by omega) (by omega) ?_
    all_goals exact fun x => (strip_hw uaV.view b _ _ s hsU _ _ x).trans (by rw [hG']; rfl)
  have i11 : StripInv G k.val (rowA_pack.sl.HB_11 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 176 := by
    unfold rowA_pack.sl.HB_11
    refine ((i8.cons_of_lt hGG _ _ 128 (k0_off61_eq k) (Nat.le_refl _) (by omega) (by omega) ?_).cons_of_lt hGG _ _ 144 (k0_off62_eq k) (Nat.le_refl _) (by omega) (by omega) ?_).cons_of_lt hGG _ _ 160 (k0_off63_eq k) (Nat.le_refl _) (by omega) (by omega) ?_
    all_goals exact fun x => (strip_hw uaV.view b _ _ s hsU _ _ x).trans (by rw [hG']; rfl)
  have i14 : StripInv G k.val (rowA_pack.sl.HB_14 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 224 := by
    unfold rowA_pack.sl.HB_14
    refine ((i11.cons_of_lt hGG _ _ 176 (k0_off64_eq k) (Nat.le_refl _) (by omega) (by omega) ?_).cons_of_lt hGG _ _ 192 (k0_off65_eq k) (Nat.le_refl _) (by omega) (by omega) ?_).cons_of_lt hGG _ _ 208 (k0_off66_eq k) (Nat.le_refl _) (by omega) (by omega) ?_
    all_goals exact fun x => (strip_hw uaV.view b _ _ s hsU _ _ x).trans (by rw [hG']; rfl)
  have i17 : StripInv G k.val (rowA_pack.sl.HB_17 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 272 := by
    unfold rowA_pack.sl.HB_17
    refine ((i14.cons_of_lt hGG _ _ 224 (k0_off67_eq k) (Nat.le_refl _) (by omega) (by omega) ?_).cons_of_lt hGG _ _ 240 (k0_off68_eq k) (Nat.le_refl _) (by omega) (by omega) ?_).cons_of_lt hGG _ _ 256 (k0_off69_eq k) (Nat.le_refl _) (by omega) (by omega) ?_
    all_goals exact fun x => (strip_hw uaV.view b _ _ s hsU _ _ x).trans (by rw [hG']; rfl)
  have i20 : StripInv G k.val (rowA_pack.sl.HB_20 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 320 := by
    unfold rowA_pack.sl.HB_20
    refine ((i17.cons_of_lt hGG _ _ 272 (k0_off70_eq k) (Nat.le_refl _) (by omega) (by omega) ?_).cons_of_lt hGG _ _ 288 (k0_off71_eq k) (Nat.le_refl _) (by omega) (by omega) ?_).cons_of_lt hGG _ _ 304 (k0_off72_eq k) (Nat.le_refl _) (by omega) (by omega) ?_
    all_goals exact fun x => (strip_hw uaV.view b _ _ s hsU _ _ x).trans (by rw [hG']; rfl)
  have i23 : StripInv G k.val (rowA_pack.sl.HB_23 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 368 := by
    unfold rowA_pack.sl.HB_23
    refine ((i20.cons_of_lt hGG _ _ 320 (k0_off73_eq k) (Nat.le_refl _) (by omega) (by omega) ?_).cons_of_lt hGG _ _ 336 (k0_off74_eq k) (Nat.le_refl _) (by omega) (by omega) ?_).cons_of_lt hGG _ _ 352 (k0_off75_eq k) (Nat.le_refl _) (by omega) (by omega) ?_
    all_goals exact fun x => (strip_hw uaV.view b _ _ s hsU _ _ x).trans (by rw [hG']; rfl)
  have i26 : StripInv G k.val (rowA_pack.sl.HB_26 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 416 := by
    unfold rowA_pack.sl.HB_26
    refine ((i23.cons_of_lt hGG _ _ 368 (k0_off76_eq k) (Nat.le_refl _) (by omega) (by omega) ?_).cons_of_lt hGG _ _ 384 (k0_off77_eq k) (Nat.le_refl _) (by omega) (by omega) ?_).cons_of_lt hGG _ _ 400 (k0_off78_eq k) (Nat.le_refl _) (by omega) (by omega) ?_
    all_goals exact fun x => (strip_hw uaV.view b _ _ s hsU _ _ x).trans (by rw [hG']; rfl)
  have i29 : StripInv G k.val (rowA_pack.sl.HB_29 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 464 := by
    unfold rowA_pack.sl.HB_29
    refine ((i26.cons_of_lt hGG _ _ 416 (k0_off79_eq k) (Nat.le_refl _) (by omega) (by omega) ?_).cons_of_lt hGG _ _ 432 (k0_off80_eq k) (Nat.le_refl _) (by omega) (by omega) ?_).cons_of_lt hGG _ _ 448 (k0_off81_eq k) (Nat.le_refl _) (by omega) (by omega) ?_
    all_goals exact fun x => (strip_hw uaV.view b _ _ s hsU _ _ x).trans (by rw [hG']; rfl)
  have i32 : StripInv G k.val (rowA_pack.sl.HB_32 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 512 := by
    unfold rowA_pack.sl.HB_32
    refine ((i29.cons_of_lt hGG _ _ 464 (k0_off82_eq k) (Nat.le_refl _) (by omega) (by omega) ?_).cons_of_lt hGG _ _ 480 (k0_off83_eq k) (Nat.le_refl _) (by omega) (by omega) ?_).cons_of_lt hGG _ _ 496 (k0_off84_eq k) (Nat.le_refl _) (by omega) (by omega) ?_
    all_goals exact fun x => (strip_hw uaV.view b _ _ s hsU _ _ x).trans (by rw [hG']; rfl)
  have i35 : StripInv G k.val (rowA_pack.sl.HB_35 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 560 := by
    unfold rowA_pack.sl.HB_35
    refine ((i32.cons_of_lt hGG _ _ 512 (k0_off85_eq k) (Nat.le_refl _) (by omega) (by omega) ?_).cons_of_lt hGG _ _ 528 (k0_off86_eq k) (Nat.le_refl _) (by omega) (by omega) ?_).cons_of_lt hGG _ _ 544 (k0_off87_eq k) (Nat.le_refl _) (by omega) (by omega) ?_
    all_goals exact fun x => (strip_hw uaV.view b _ _ s hsU _ _ x).trans (by rw [hG']; rfl)
  have i38 : StripInv G k.val (rowA_pack.sl.HB_38 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 608 := by
    unfold rowA_pack.sl.HB_38
    refine ((i35.cons_of_lt hGG _ _ 560 (k0_off88_eq k) (Nat.le_refl _) (by omega) (by omega) ?_).cons_of_lt hGG _ _ 576 (k0_off89_eq k) (Nat.le_refl _) (by omega) (by omega) ?_).cons_of_lt hGG _ _ 592 (k0_off90_eq k) (Nat.le_refl _) (by omega) (by omega) ?_
    all_goals exact fun x => (strip_hw uaV.view b _ _ s hsU _ _ x).trans (by rw [hG']; rfl)
  have i41 : StripInv G k.val (rowA_pack.sl.HB_41 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 656 := by
    unfold rowA_pack.sl.HB_41
    refine ((i38.cons_of_lt hGG _ _ 608 (k0_off91_eq k) (Nat.le_refl _) (by omega) (by omega) ?_).cons_of_lt hGG _ _ 624 (k0_off92_eq k) (Nat.le_refl _) (by omega) (by omega) ?_).cons_of_lt hGG _ _ 640 (k0_off93_eq k) (Nat.le_refl _) (by omega) (by omega) ?_
    all_goals exact fun x => (strip_hw uaV.view b _ _ s hsU _ _ x).trans (by rw [hG']; rfl)
  have i44 : StripInv G k.val (rowA_pack.sl.HB_44 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 704 := by
    unfold rowA_pack.sl.HB_44
    refine ((i41.cons_of_lt hGG _ _ 656 (k0_off94_eq k) (Nat.le_refl _) (by omega) (by omega) ?_).cons_of_lt hGG _ _ 672 (k0_off95_eq k) (Nat.le_refl _) (by omega) (by omega) ?_).cons_of_lt hGG _ _ 688 (k0_off96_eq k) (Nat.le_refl _) (by omega) (by omega) ?_
    all_goals exact fun x => (strip_hw uaV.view b _ _ s hsU _ _ x).trans (by rw [hG']; rfl)
  have i47 : StripInv G k.val (rowA_pack.sl.HB_47 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 752 := by
    unfold rowA_pack.sl.HB_47
    refine ((i44.cons_of_lt hGG _ _ 704 (k0_off97_eq k) (Nat.le_refl _) (by omega) (by omega) ?_).cons_of_lt hGG _ _ 720 (k0_off98_eq k) (Nat.le_refl _) (by omega) (by omega) ?_).cons_of_lt hGG _ _ 736 (k0_off99_eq k) (Nat.le_refl _) (by omega) (by omega) ?_
    all_goals exact fun x => (strip_hw uaV.view b _ _ s hsU _ _ x).trans (by rw [hG']; rfl)
  have i49 : StripInv G k.val (rowA_pack.sl.HB_49 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 784 := by
    unfold rowA_pack.sl.HB_49
    refine (i47.cons_of_lt hGG _ _ 752 (k0_off100_eq k) (Nat.le_refl _) (by omega) (by omega) ?_).cons_of_lt hGG _ _ 768 (k0_off101_eq k) (Nat.le_refl _) (by omega) (by omega) ?_
    all_goals exact fun x => (strip_hw uaV.view b _ _ s hsU _ _ x).trans (by rw [hG']; rfl)
  have i50 : ∃ L50, (rowA_pack (F := Ideal) d L).2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e = uaV.view.writes (Elt Ideal) b L50 ∧ StripInv G k.val L50 785 := by
    refine ⟨_, rfl, i49.cons _ _ 769 (k0_off102_eq k) (by omega) (by omega) ?_⟩
    intro x
    refine (strip_lastU _ hm.1 hm.2 _ s hsU _ t hadj _ _ _ x).trans ?_
    have hr0 : (((Rect.unit (s := S16x785) (k0_off102 k) S1x16.size (k0_off102_inb k)).emb x) 0).val = k.val := by
      have e0 : k0_off102 k 0 = k.val := congrFun (k0_off102_eq k) 0
      have := (x 0).isLt; change (x 0).val < 1 at this
      show k0_off102 k 0 + 1 * (x 0).val = k.val; omega
    have hr1 : (((Rect.unit (s := S16x785) (k0_off102 k) S1x16.size (k0_off102_inb k)).emb x) 1).val = 769 + (x 1).val := by
      have e1 : k0_off102 k 1 = 769 := congrFun (k0_off102_eq k) 1
      show k0_off102 k 1 + 1 * (x 1).val = 769 + (x 1).val; omega
    have hx1 : (x 1).val < 16 := (x 1).isLt
    by_cases h15 : (x 1).val = 15
    · rw [if_pos h15, hG]
      refine Eq.trans ?_ (if_pos (hr1.trans (by omega))).symm
      exact congrArg (fun z => s * z - t) (i49.read_col_ge uaV.view b _ ((by omega : 784 ≤ 769 + (x 1).val).trans_eq hr1.symm))
    · rw [if_neg h15]
      exact i49.read_row uaV.view b _ hr0 (hr1.trans_lt (by omega : 769 + (x 1).val < 784))
  obtain ⟨L50, hL, inv⟩ := i50
  rw [hL]
  funext idx
  by_cases hrow : idx 0 = kIdx k0_t2_loop k
  · refine Eq.trans ?_ (sel_pos hrow _ _).symm
    refine (inv.read_row uaV.view b idx (congrArg Fin.val hrow) (idx 1).isLt).trans ?_
    have hi : idx = ix2 (kIdx k0_t2_loop k) (idx 1) := by rw [← hrow]; exact eq_ix2 idx
    have hb : b idx = rowOf b (kIdx k0_t2_loop k) (idx 1) := congrArg b hi
    rw [hG, hs, ht]
    unfold KSpec.newU
    by_cases hc : (idx 1).val = 784
    · refine (if_pos hc).trans (Eq.trans ?_ (sel_pos (Fin.ext hc) _ _).symm)
      rw [hb]
    · refine (if_neg hc).trans (Eq.trans ?_ (sel_neg (fun h => hc (congrArg Fin.val h)) _ _).symm)
      rw [hb]
  · refine Eq.trans ?_ (sel_neg hrow _ _).symm
    exact inv.read_off_row uaV.view b idx (fun h => hrow (Fin.ext h))

/-! ## The same for the second pair of buffers -/

set_option maxHeartbeats 1600000 in
/-- The lower buffer after a trip of the second row loop, given that every lane of the trip's lower scale vector is the row's
    lower factor: row k scaled by it, the other rows as they were. -/
theorem rowLB_of (d : Dev nD) (L : grid0.Coords) (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L)))
    (hC : ConstsOK v30 v31 v33 v35 v37 v39 v41 v43 v45 v47 v49 v51 v53 v55 v57 v59 v61 v63)
    (hsL : ∀ j : Fin 16, rowB_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sL (cpOf d L c) (cpOf d L r) (rowOf a (kIdx k0_t3_loop k)) (rowOf b (kIdx k0_t3_loop k))) :
    (rowB_pack (F := Ideal) d L).1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e
      = fun idx => sel (idx 0 = (kIdx k0_t3_loop k)) (KSpec.newL (cpOf d L c) (cpOf d L r) (rowOf a (kIdx k0_t3_loop k)) (rowOf b (kIdx k0_t3_loop k)) (idx 1)) (a idx) := by
  obtain ⟨s, hs⟩ : ∃ s, s = KSpec.sL (cpOf d L c) (cpOf d L r) (rowOf a (kIdx k0_t3_loop k)) (rowOf b (kIdx k0_t3_loop k)) := ⟨_, rfl⟩
  rw [← hs] at hsL
  obtain ⟨G, hG⟩ : ∃ G : S16x785.Idx → Elt Ideal .f32, G = fun y => s * a y := ⟨_, rfl⟩
  have hm := mask15 v31 hC.v31_eq
  have i0 := StripInv.nil G k.val
  have i2 : StripInv G k.val (rowB_pack.sl.HA_2 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 32 := by
    unfold rowB_pack.sl.HA_2
    refine (i0.cons _ _ 0 (k0_off106_eq k) (Nat.le_refl _) (by omega) ?_).cons _ _ 16 (k0_off107_eq k) (Nat.le_refl _) (by omega) ?_
    all_goals exact fun x => (strip_hw lbV.view a _ _ s hsL _ _ x).trans (by rw [hG]; rfl)
  have i5 : StripInv G k.val (rowB_pack.sl.HA_5 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 80 := by
    unfold rowB_pack.sl.HA_5
    refine ((i2.cons _ _ 32 (k0_off108_eq k) (Nat.le_refl _) (by omega) ?_).cons _ _ 48 (k0_off109_eq k) (Nat.le_refl _) (by omega) ?_).cons _ _ 64 (k0_off110_eq k) (Nat.le_refl _) (by omega) ?_
    all_goals exact fun x => (strip_hw lbV.view a _ _ s hsL _ _ x).trans (by rw [hG]; rfl)
  have i8 : StripInv G k.val (rowB_pack.sl.HA_8 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 128 := by
    unfold rowB_pack.sl.HA_8
    refine ((i5.cons _ _ 80 (k0_off111_eq k) (Nat.le_refl _) (by omega) ?_).cons _ _ 96 (k0_off112_eq k) (Nat.le_refl _) (by omega) ?_).cons _ _ 112 (k0_off113_eq k) (Nat.le_refl _) (by omega) ?_
    all_goals exact fun x => (strip_hw lbV.view a _ _ s hsL _ _ x).trans (by rw [hG]; rfl)
  have i11 : StripInv G k.val (rowB_pack.sl.HA_11 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 176 := by
    unfold rowB_pack.sl.HA_11
    refine ((i8.cons _ _ 128 (k0_off114_eq k) (Nat.le_refl _) (by omega) ?_).cons _ _ 144 (k0_off115_eq k) (Nat.le_refl _) (by omega) ?_).cons _ _ 160 (k0_off116_eq k) (Nat.le_refl _) (by omega) ?_
    all_goals exact fun x => (strip_hw lbV.view a _ _ s hsL _ _ x).trans (by rw [hG]; rfl)
  have i14 : StripInv G k.val (rowB_pack.sl.HA_14 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 224 := by
    unfold rowB_pack.sl.HA_14
    refine ((i11.cons _ _ 176 (k0_off117_eq k) (Nat.le_refl _) (by omega) ?_).cons _ _ 192 (k0_off118_eq k) (Nat.le_refl _) (by omega) ?_).cons _ _ 208 (k0_off119_eq k) (Nat.le_refl _) (by omega) ?_
    all_goals exact fun x => (strip_hw lbV.view a _ _ s hsL _ _ x).trans (by rw [hG]; rfl)
  have i17 : StripInv G k.val (rowB_pack.sl.HA_17 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 272 := by
    unfold rowB_pack.sl.HA_17
    refine ((i14.cons _ _ 224 (k0_off120_eq k) (Nat.le_refl _) (by omega) ?_).cons _ _ 240 (k0_off121_eq k) (Nat.le_refl _) (by omega) ?_).cons _ _ 256 (k0_off122_eq k) (Nat.le_refl _) (by omega) ?_
    all_goals exact fun x => (strip_hw lbV.view a _ _ s hsL _ _ x).trans (by rw [hG]; rfl)
  have i20 : StripInv G k.val (rowB_pack.sl.HA_20 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 320 := by
    unfold rowB_pack.sl.HA_20
    refine ((i17.cons _ _ 272 (k0_off123_eq k) (Nat.le_refl _) (by omega) ?_).cons _ _ 288 (k0_off124_eq k) (Nat.le_refl _) (by omega) ?_).cons _ _ 304 (k0_off125_eq k) (Nat.le_refl _) (by omega) ?_
    all_goals exact fun x => (strip_hw lbV.view a _ _ s hsL _ _ x).trans (by rw [hG]; rfl)
  have i23 : StripInv G k.val (rowB_pack.sl.HA_23 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 368 := by
    unfold rowB_pack.sl.HA_23
    refine ((i20.cons _ _ 320 (k0_off126_eq k) (Nat.le_refl _) (by omega) ?_).cons _ _ 336 (k0_off127_eq k) (Nat.le_refl _) (by omega) ?_).cons _ _ 352 (k0_off128_eq k) (Nat.le_refl _) (by omega) ?_
    all_goals exact fun x => (strip_hw lbV.view a _ _ s hsL _ _ x).trans (by rw [hG]; rfl)
  have i26 : StripInv G k.val (rowB_pack.sl.HA_26 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 416 := by
    unfold rowB_pack.sl.HA_26
    refine ((i23.cons _ _ 368 (k0_off129_eq k) (Nat.le_refl _) (by omega) ?_).cons _ _ 384 (k0_off130_eq k) (Nat.le_refl _) (by omega) ?_).cons _ _ 400 (k0_off131_eq k) (Nat.le_refl _) (by omega) ?_
    all_goals exact fun x => (strip_hw lbV.view a _ _ s hsL _ _ x).trans (by rw [hG]; rfl)
  have i29 : StripInv G k.val (rowB_pack.sl.HA_29 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 464 := by
    unfold rowB_pack.sl.HA_29
    refine ((i26.cons _ _ 416 (k0_off132_eq k) (Nat.le_refl _) (by omega) ?_).cons _ _ 432 (k0_off133_eq k) (Nat.le_refl _) (by omega) ?_).cons _ _ 448 (k0_off134_eq k) (Nat.le_refl _) (by omega) ?_
    all_goals exact fun x => (strip_hw lbV.view a _ _ s hsL _ _ x).trans (by rw [hG]; rfl)
  have i32 : StripInv G k.val (rowB_pack.sl.HA_32 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 512 := by
    unfold rowB_pack.sl.HA_32
    refine ((i29.cons _ _ 464 (k0_off135_eq k) (Nat.le_refl _) (by omega) ?_).cons _ _ 480 (k0_off136_eq k) (Nat.le_refl _) (by omega) ?_).cons _ _ 496 (k0_off137_eq k) (Nat.le_refl _) (by omega) ?_
    all_goals exact fun x => (strip_hw lbV.view a _ _ s hsL _ _ x).trans (by rw [hG]; rfl)
  have i35 : StripInv G k.val (rowB_pack.sl.HA_35 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 560 := by
    unfold rowB_pack.sl.HA_35
    refine ((i32.cons _ _ 512 (k0_off138_eq k) (Nat.le_refl _) (by omega) ?_).cons _ _ 528 (k0_off139_eq k) (Nat.le_refl _) (by omega) ?_).cons _ _ 544 (k0_off140_eq k) (Nat.le_refl _) (by omega) ?_
    all_goals exact fun x => (strip_hw lbV.view a _ _ s hsL _ _ x).trans (by rw [hG]; rfl)
  have i38 : StripInv G k.val (rowB_pack.sl.HA_38 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 608 := by
    unfold rowB_pack.sl.HA_38
    refine ((i35.cons _ _ 560 (k0_off141_eq k) (Nat.le_refl _) (by omega) ?_).cons _ _ 576 (k0_off142_eq k) (Nat.le_refl _) (by omega) ?_).cons _ _ 592 (k0_off143_eq k) (Nat.le_refl _) (by omega) ?_
    all_goals exact fun x => (strip_hw lbV.view a _ _ s hsL _ _ x).trans (by rw [hG]; rfl)
  have i41 : StripInv G k.val (rowB_pack.sl.HA_41 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 656 := by
    unfold rowB_pack.sl.HA_41
    refine ((i38.cons _ _ 608 (k0_off144_eq k) (Nat.le_refl _) (by omega) ?_).cons _ _ 624 (k0_off145_eq k) (Nat.le_refl _) (by omega) ?_).cons _ _ 640 (k0_off146_eq k) (Nat.le_refl _) (by omega) ?_
    all_goals exact fun x => (strip_hw lbV.view a _ _ s hsL _ _ x).trans (by rw [hG]; rfl)
  have i44 : StripInv G k.val (rowB_pack.sl.HA_44 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 704 := by
    unfold rowB_pack.sl.HA_44
    refine ((i41.cons _ _ 656 (k0_off147_eq k) (Nat.le_refl _) (by omega) ?_).cons _ _ 672 (k0_off148_eq k) (Nat.le_refl _) (by omega) ?_).cons _ _ 688 (k0_off149_eq k) (Nat.le_refl _) (by omega) ?_
    all_goals exact fun x => (strip_hw lbV.view a _ _ s hsL _ _ x).trans (by rw [hG]; rfl)
  have i47 : StripInv G k.val (rowB_pack.sl.HA_47 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 752 := by
    unfold rowB_pack.sl.HA_47
    refine ((i44.cons _ _ 704 (k0_off150_eq k) (Nat.le_refl _) (by omega) ?_).cons _ _ 720 (k0_off151_eq k) (Nat.le_refl _) (by omega) ?_).cons _ _ 736 (k0_off152_eq k) (Nat.le_refl _) (by omega) ?_
    all_goals exact fun x => (strip_hw lbV.view a _ _ s hsL _ _ x).trans (by rw [hG]; rfl)
  have i49 : StripInv G k.val (rowB_pack.sl.HA_49 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 784 := by
    unfold rowB_pack.sl.HA_49
    refine (i47.cons _ _ 752 (k0_off153_eq k) (Nat.le_refl _) (by omega) ?_).cons _ _ 768 (k0_off154_eq k) (Nat.le_refl _) (by omega) ?_
    all_goals exact fun x => (strip_hw lbV.view a _ _ s hsL _ _ x).trans (by rw [hG]; rfl)
  have i50 : ∃ L50, (rowB_pack (F := Ideal) d L).1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e = lbV.view.writes (Elt Ideal) a L50 ∧ StripInv G k.val L50 785 := by
    refine ⟨_, rfl, i49.cons _ _ 769 (k0_off155_eq k) (by omega) (by omega) ?_⟩
    intro x
    refine (strip_lastL _ hm.1 hm.2 _ s hsL _ _ _ x).trans ?_
    have hr0 : (((Rect.unit (s := S16x785) (k0_off155 k) S1x16.size (k0_off155_inb k)).emb x) 0).val = k.val := by
      have e0 : k0_off155 k 0 = k.val := congrFun (k0_off155_eq k) 0
      have := (x 0).isLt; change (x 0).val < 1 at this
      show k0_off155 k 0 + 1 * (x 0).val = k.val; omega
    have hr1 : (((Rect.unit (s := S16x785) (k0_off155 k) S1x16.size (k0_off155_inb k)).emb x) 1).val = 769 + (x 1).val := by
      have e1 : k0_off155 k 1 = 769 := congrFun (k0_off155_eq k) 1
      show k0_off155 k 1 + 1 * (x 1).val = 769 + (x 1).val; omega
    have hx1 : (x 1).val < 16 := (x 1).isLt
    by_cases h15 : (x 1).val = 15
    · rw [if_pos h15, hG]
      exact congrArg (s * ·) (i49.read_col_ge lbV.view a _ ((by omega : 784 ≤ 769 + (x 1).val).trans_eq hr1.symm))
    · rw [if_neg h15]
      exact i49.read_row lbV.view a _ hr0 (hr1.trans_lt (by omega : 769 + (x 1).val < 784))
  obtain ⟨L50, hL, inv⟩ := i50
  rw [hL]
  funext idx
  by_cases hrow : idx 0 = kIdx k0_t3_loop k
  · refine Eq.trans ?_ (sel_pos hrow _ _).symm
    refine (inv.read_row lbV.view a idx (congrArg Fin.val hrow) (idx 1).isLt).trans ?_
    have hi : idx = ix2 (kIdx k0_t3_loop k) (idx 1) := by rw [← hrow]; exact eq_ix2 idx
    rw [hG, hs]
    show _ * a idx = _ * a (ix2 (kIdx k0_t3_loop k) (idx 1))
    exact congrArg (fun z => _ * z) (congrArg a hi)
  · refine Eq.trans ?_ (sel_neg hrow _ _).symm
    exact inv.read_off_row lbV.view a idx (fun h => hrow (Fin.ext h))

set_option maxHeartbeats 1600000 in
/-- The upper buffer after a trip of the second row loop, given that every lane of the trip's upper scale vector is the row's
    upper factor and every lane of its shift vector the row's shift: row k scaled, its last column also lowered by the
    shift, the other rows as they were. -/
theorem rowUB_of (d : Dev nD) (L : grid0.Coords) (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L)))
    (hC : ConstsOK v30 v31 v33 v35 v37 v39 v41 v43 v45 v47 v49 v51 v53 v55 v57 v59 v61 v63)
    (hsU : ∀ j : Fin 16, rowB_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sU (cpOf d L c) (cpOf d L r) (rowOf a (kIdx k0_t3_loop k)) (rowOf b (kIdx k0_t3_loop k)))
    (hadj : ∀ j : Fin 16, rowB_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.biasAdj (cpOf d L c) (cpOf d L r) (rowOf a (kIdx k0_t3_loop k)) (rowOf b (kIdx k0_t3_loop k))) :
    (rowB_pack (F := Ideal) d L).2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e
      = fun idx => sel (idx 0 = (kIdx k0_t3_loop k)) (KSpec.newU (cpOf d L c) (cpOf d L r) (rowOf a (kIdx k0_t3_loop k)) (rowOf b (kIdx k0_t3_loop k)) (idx 1)) (b idx) := by
  obtain ⟨s, hs⟩ : ∃ s, s = KSpec.sU (cpOf d L c) (cpOf d L r) (rowOf a (kIdx k0_t3_loop k)) (rowOf b (kIdx k0_t3_loop k)) := ⟨_, rfl⟩
  obtain ⟨t, ht⟩ : ∃ t, t = KSpec.biasAdj (cpOf d L c) (cpOf d L r) (rowOf a (kIdx k0_t3_loop k)) (rowOf b (kIdx k0_t3_loop k)) := ⟨_, rfl⟩
  rw [← hs] at hsU
  rw [← ht] at hadj
  obtain ⟨G, hG⟩ : ∃ G : S16x785.Idx → Elt Ideal .f32,
      G = fun y => if (y 1).val = 784 then s * b y - t else s * b y := ⟨_, rfl⟩
  obtain ⟨G', hG'⟩ : ∃ G' : S16x785.Idx → Elt Ideal .f32, G' = fun y => s * b y := ⟨_, rfl⟩
  have hGG : ∀ y : S16x785.Idx, (y 1).val < 784 → G y = G' y := by
    intro y hy
    rw [hG, hG']
    exact if_neg (by omega)
  have hm := mask15 v31 hC.v31_eq
  have i0 := StripInv.nil G k.val
  have i2 : StripInv G k.val (rowB_pack.sl.HB_2 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 32 := by
    unfold rowB_pack.sl.HB_2
    refine (i0.cons_of_lt hGG _ _ 0 (k0_off106_eq k) (Nat.le_refl _) (by omega) (by omega) ?_).cons_of_lt hGG _ _ 16 (k0_off107_eq k) (Nat.le_refl _) (by omega) (by omega) ?_
    all_goals exact fun x => (strip_hw ubV.view b _ _ s hsU _ _ x).trans (by rw [hG']; rfl)
  have i5 : StripInv G k.val (rowB_pack.sl.HB_5 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 80 := by
    unfold rowB_pack.sl.HB_5
    refine ((i2.cons_of_lt hGG _ _ 32 (k0_off108_eq k) (Nat.le_refl _) (by omega) (by omega) ?_).cons_of_lt hGG _ _ 48 (k0_off109_eq k) (Nat.le_refl _) (by omega) (by omega) ?_).cons_of_lt hGG _ _ 64 (k0_off110_eq k) (Nat.le_refl _) (by omega) (by omega) ?_
    all_goals exact fun x => (strip_hw ubV.view b _ _ s hsU _ _ x).trans (by rw [hG']; rfl)
  have i8 : StripInv G k.val (rowB_pack.sl.HB_8 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 128 := by
    unfold rowB_pack.sl.HB_8
    refine ((i5.cons_of_lt hGG _ _ 80 (k0_off111_eq k) (Nat.le_refl _) (by omega) (by omega) ?_).cons_of_lt hGG _ _ 96 (k0_off112_eq k) (Nat.le_refl _) (by omega) (by omega) ?_).cons_of_lt hGG _ _ 112 (k0_off113_eq k) (Nat.le_refl _) (by omega) (by omega) ?_
    all_goals exact fun x => (strip_hw ubV.view b _ _ s hsU _ _ x).trans (by rw [hG']; rfl)
  have i11 : StripInv G k.val (rowB_pack.sl.HB_11 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 176 := by
    unfold rowB_pack.sl.HB_11
    refine ((i8.cons_of_lt hGG _ _ 128 (k0_off114_eq k) (Nat.le_refl _) (by omega) (by omega) ?_).cons_of_lt hGG _ _ 144 (k0_off115_eq k) (Nat.le_refl _) (by omega) (by omega) ?_).cons_of_lt hGG _ _ 160 (k0_off116_eq k) (Nat.le_refl _) (by omega) (by omega) ?_
    all_goals exact fun x => (strip_hw ubV.view b _ _ s hsU _ _ x).trans (by rw [hG']; rfl)
  have i14 : StripInv G k.val (rowB_pack.sl.HB_14 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 224 := by
    unfold rowB_pack.sl.HB_14
    refine ((i11.cons_of_lt hGG _ _ 176 (k0_off117_eq k) (Nat.le_refl _) (by omega) (by omega) ?_).cons_of_lt hGG _ _ 192 (k0_off118_eq k) (Nat.le_refl _) (by omega) (by omega) ?_).cons_of_lt hGG _ _ 208 (k0_off119_eq k) (Nat.le_refl _) (by omega) (by omega) ?_
    all_goals exact fun x => (strip_hw ubV.view b _ _ s hsU _ _ x).trans (by rw [hG']; rfl)
  have i17 : StripInv G k.val (rowB_pack.sl.HB_17 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 272 := by
    unfold rowB_pack.sl.HB_17
    refine ((i14.cons_of_lt hGG _ _ 224 (k0_off120_eq k) (Nat.le_refl _) (by omega) (by omega) ?_).cons_of_lt hGG _ _ 240 (k0_off121_eq k) (Nat.le_refl _) (by omega) (by omega) ?_).cons_of_lt hGG _ _ 256 (k0_off122_eq k) (Nat.le_refl _) (by omega) (by omega) ?_
    all_goals exact fun x => (strip_hw ubV.view b _ _ s hsU _ _ x).trans (by rw [hG']; rfl)
  have i20 : StripInv G k.val (rowB_pack.sl.HB_20 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 320 := by
    unfold rowB_pack.sl.HB_20
    refine ((i17.cons_of_lt hGG _ _ 272 (k0_off123_eq k) (Nat.le_refl _) (by omega) (by omega) ?_).cons_of_lt hGG _ _ 288 (k0_off124_eq k) (Nat.le_refl _) (by omega) (by omega) ?_).cons_of_lt hGG _ _ 304 (k0_off125_eq k) (Nat.le_refl _) (by omega) (by omega) ?_
    all_goals exact fun x => (strip_hw ubV.view b _ _ s hsU _ _ x).trans (by rw [hG']; rfl)
  have i23 : StripInv G k.val (rowB_pack.sl.HB_23 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 368 := by
    unfold rowB_pack.sl.HB_23
    refine ((i20.cons_of_lt hGG _ _ 320 (k0_off126_eq k) (Nat.le_refl _) (by omega) (by omega) ?_).cons_of_lt hGG _ _ 336 (k0_off127_eq k) (Nat.le_refl _) (by omega) (by omega) ?_).cons_of_lt hGG _ _ 352 (k0_off128_eq k) (Nat.le_refl _) (by omega) (by omega) ?_
    all_goals exact fun x => (strip_hw ubV.view b _ _ s hsU _ _ x).trans (by rw [hG']; rfl)
  have i26 : StripInv G k.val (rowB_pack.sl.HB_26 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 416 := by
    unfold rowB_pack.sl.HB_26
    refine ((i23.cons_of_lt hGG _ _ 368 (k0_off129_eq k) (Nat.le_refl _) (by omega) (by omega) ?_).cons_of_lt hGG _ _ 384 (k0_off130_eq k) (Nat.le_refl _) (by omega) (by omega) ?_).cons_of_lt hGG _ _ 400 (k0_off131_eq k) (Nat.le_refl _) (by omega) (by omega) ?_
    all_goals exact fun x => (strip_hw ubV.view b _ _ s hsU _ _ x).trans (by rw [hG']; rfl)
  have i29 : StripInv G k.val (rowB_pack.sl.HB_29 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 464 := by
    unfold rowB_pack.sl.HB_29
    refine ((i26.cons_of_lt hGG _ _ 416 (k0_off132_eq k) (Nat.le_refl _) (by omega) (by omega) ?_).cons_of_lt hGG _ _ 432 (k0_off133_eq k) (Nat.le_refl _) (by omega) (by omega) ?_).cons_of_lt hGG _ _ 448 (k0_off134_eq k) (Nat.le_refl _) (by omega) (by omega) ?_
    all_goals exact fun x => (strip_hw ubV.view b _ _ s hsU _ _ x).trans (by rw [hG']; rfl)
  have i32 : StripInv G k.val (rowB_pack.sl.HB_32 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 512 := by
    unfold rowB_pack.sl.HB_32
    refine ((i29.cons_of_lt hGG _ _ 464 (k0_off135_eq k) (Nat.le_refl _) (by omega) (by omega) ?_).cons_of_lt hGG _ _ 480 (k0_off136_eq k) (Nat.le_refl _) (by omega) (by omega) ?_).cons_of_lt hGG _ _ 496 (k0_off137_eq k) (Nat.le_refl _) (by omega) (by omega) ?_
    all_goals exact fun x => (strip_hw ubV.view b _ _ s hsU _ _ x).trans (by rw [hG']; rfl)
  have i35 : StripInv G k.val (rowB_pack.sl.HB_35 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 560 := by
    unfold rowB_pack.sl.HB_35
    refine ((i32.cons_of_lt hGG _ _ 512 (k0_off138_eq k) (Nat.le_refl _) (by omega) (by omega) ?_).cons_of_lt hGG _ _ 528 (k0_off139_eq k) (Nat.le_refl _) (by omega) (by omega) ?_).cons_of_lt hGG _ _ 544 (k0_off140_eq k) (Nat.le_refl _) (by omega) (by omega) ?_
    all_goals exact fun x => (strip_hw ubV.view b _ _ s hsU _ _ x).trans (by rw [hG']; rfl)
  have i38 : StripInv G k.val (rowB_pack.sl.HB_38 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 608 := by
    unfold rowB_pack.sl.HB_38
    refine ((i35.cons_of_lt hGG _ _ 560 (k0_off141_eq k) (Nat.le_refl _) (by omega) (by omega) ?_).cons_of_lt hGG _ _ 576 (k0_off142_eq k) (Nat.le_refl _) (by omega) (by omega) ?_).cons_of_lt hGG _ _ 592 (k0_off143_eq k) (Nat.le_refl _) (by omega) (by omega) ?_
    all_goals exact fun x => (strip_hw ubV.view b _ _ s hsU _ _ x).trans (by rw [hG']; rfl)
  have i41 : StripInv G k.val (rowB_pack.sl.HB_41 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 656 := by
    unfold rowB_pack.sl.HB_41
    refine ((i38.cons_of_lt hGG _ _ 608 (k0_off144_eq k) (Nat.le_refl _) (by omega) (by omega) ?_).cons_of_lt hGG _ _ 624 (k0_off145_eq k) (Nat.le_refl _) (by omega) (by omega) ?_).cons_of_lt hGG _ _ 640 (k0_off146_eq k) (Nat.le_refl _) (by omega) (by omega) ?_
    all_goals exact fun x => (strip_hw ubV.view b _ _ s hsU _ _ x).trans (by rw [hG']; rfl)
  have i44 : StripInv G k.val (rowB_pack.sl.HB_44 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 704 := by
    unfold rowB_pack.sl.HB_44
    refine ((i41.cons_of_lt hGG _ _ 656 (k0_off147_eq k) (Nat.le_refl _) (by omega) (by omega) ?_).cons_of_lt hGG _ _ 672 (k0_off148_eq k) (Nat.le_refl _) (by omega) (by omega) ?_).cons_of_lt hGG _ _ 688 (k0_off149_eq k) (Nat.le_refl _) (by omega) (by omega) ?_
    all_goals exact fun x => (strip_hw ubV.view b _ _ s hsU _ _ x).trans (by rw [hG']; rfl)
  have i47 : StripInv G k.val (rowB_pack.sl.HB_47 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 752 := by
    unfold rowB_pack.sl.HB_47
    refine ((i44.cons_of_lt hGG _ _ 704 (k0_off150_eq k) (Nat.le_refl _) (by omega) (by omega) ?_).cons_of_lt hGG _ _ 720 (k0_off151_eq k) (Nat.le_refl _) (by omega) (by omega) ?_).cons_of_lt hGG _ _ 736 (k0_off152_eq k) (Nat.le_refl _) (by omega) (by omega) ?_
    all_goals exact fun x => (strip_hw ubV.view b _ _ s hsU _ _ x).trans (by rw [hG']; rfl)
  have i49 : StripInv G k.val (rowB_pack.sl.HB_49 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e) 784 := by
    unfold rowB_pack.sl.HB_49
    refine (i47.cons_of_lt hGG _ _ 752 (k0_off153_eq k) (Nat.le_refl _) (by omega) (by omega) ?_).cons_of_lt hGG _ _ 768 (k0_off154_eq k) (Nat.le_refl _) (by omega) (by omega) ?_
    all_goals exact fun x => (strip_hw ubV.view b _ _ s hsU _ _ x).trans (by rw [hG']; rfl)
  have i50 : ∃ L50, (rowB_pack (F := Ideal) d L).2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e = ubV.view.writes (Elt Ideal) b L50 ∧ StripInv G k.val L50 785 := by
    refine ⟨_, rfl, i49.cons _ _ 769 (k0_off155_eq k) (by omega) (by omega) ?_⟩
    intro x
    refine (strip_lastU _ hm.1 hm.2 _ s hsU _ t hadj _ _ _ x).trans ?_
    have hr0 : (((Rect.unit (s := S16x785) (k0_off155 k) S1x16.size (k0_off155_inb k)).emb x) 0).val = k.val := by
      have e0 : k0_off155 k 0 = k.val := congrFun (k0_off155_eq k) 0
      have := (x 0).isLt; change (x 0).val < 1 at this
      show k0_off155 k 0 + 1 * (x 0).val = k.val; omega
    have hr1 : (((Rect.unit (s := S16x785) (k0_off155 k) S1x16.size (k0_off155_inb k)).emb x) 1).val = 769 + (x 1).val := by
      have e1 : k0_off155 k 1 = 769 := congrFun (k0_off155_eq k) 1
      show k0_off155 k 1 + 1 * (x 1).val = 769 + (x 1).val; omega
    have hx1 : (x 1).val < 16 := (x 1).isLt
    by_cases h15 : (x 1).val = 15
    · rw [if_pos h15, hG]
      refine Eq.trans ?_ (if_pos (hr1.trans (by omega))).symm
      exact congrArg (fun z => s * z - t) (i49.read_col_ge ubV.view b _ ((by omega : 784 ≤ 769 + (x 1).val).trans_eq hr1.symm))
    · rw [if_neg h15]
      exact i49.read_row ubV.view b _ hr0 (hr1.trans_lt (by omega : 769 + (x 1).val < 784))
  obtain ⟨L50, hL, inv⟩ := i50
  rw [hL]
  funext idx
  by_cases hrow : idx 0 = kIdx k0_t3_loop k
  · refine Eq.trans ?_ (sel_pos hrow _ _).symm
    refine (inv.read_row ubV.view b idx (congrArg Fin.val hrow) (idx 1).isLt).trans ?_
    have hi : idx = ix2 (kIdx k0_t3_loop k) (idx 1) := by rw [← hrow]; exact eq_ix2 idx
    have hb : b idx = rowOf b (kIdx k0_t3_loop k) (idx 1) := congrArg b hi
    rw [hG, hs, ht]
    unfold KSpec.newU
    by_cases hc : (idx 1).val = 784
    · refine (if_pos hc).trans (Eq.trans ?_ (sel_pos (Fin.ext hc) _ _).symm)
      rw [hb]
    · refine (if_neg hc).trans (Eq.trans ?_ (sel_neg (fun h => hc (congrArg Fin.val h)) _ _).symm)
      rw [hb]
  · refine Eq.trans ?_ (sel_neg hrow _ _).symm
    exact inv.read_off_row ubV.view b idx (fun h => hrow (Fin.ext h))

/-! ## The four buffer statements, from the lane facts -/

/-- The lower buffer's statement for the first row loop, from the lane facts of the trip's lower scale vector. -/
theorem rowLA_of_lanes (d : Dev nD) (L : grid0.Coords)
    (hL : ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L))), ConstsOK v30 v31 v33 v35 v37 v39 v41 v43 v45 v47 v49 v51 v53 v55 v57 v59 v61 v63 →
      ∀ j : Fin 16, rowA_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sL (cpOf d L c) (cpOf d L r) (rowOf a (kIdx k0_t2_loop k)) (rowOf b (kIdx k0_t2_loop k))) :
    RowLA d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC => rowLA_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC (hL v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC)

/-- The upper buffer's statement for the first row loop, from the lane facts of the trip's upper scale and shift vectors. -/
theorem rowUA_of_lanes (d : Dev nD) (L : grid0.Coords)
    (hU : ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L))), ConstsOK v30 v31 v33 v35 v37 v39 v41 v43 v45 v47 v49 v51 v53 v55 v57 v59 v61 v63 →
      ∀ j : Fin 16, rowA_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sU (cpOf d L c) (cpOf d L r) (rowOf a (kIdx k0_t2_loop k)) (rowOf b (kIdx k0_t2_loop k)))
    (hA : ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L))), ConstsOK v30 v31 v33 v35 v37 v39 v41 v43 v45 v47 v49 v51 v53 v55 v57 v59 v61 v63 →
      ∀ j : Fin 16, rowA_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.biasAdj (cpOf d L c) (cpOf d L r) (rowOf a (kIdx k0_t2_loop k)) (rowOf b (kIdx k0_t2_loop k))) :
    RowUA d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC => rowUA_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC (hU v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC) (hA v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC)

/-- The lower buffer's statement for the second row loop, from the lane facts of the trip's lower scale vector. -/
theorem rowLB_of_lanes (d : Dev nD) (L : grid0.Coords)
    (hL : ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L))), ConstsOK v30 v31 v33 v35 v37 v39 v41 v43 v45 v47 v49 v51 v53 v55 v57 v59 v61 v63 →
      ∀ j : Fin 16, rowB_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sL (cpOf d L c) (cpOf d L r) (rowOf a (kIdx k0_t3_loop k)) (rowOf b (kIdx k0_t3_loop k))) :
    RowLB d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC => rowLB_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC (hL v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC)

/-- The upper buffer's statement for the second row loop, from the lane facts of the trip's upper scale and shift vectors. -/
theorem rowUB_of_lanes (d : Dev nD) (L : grid0.Coords)
    (hU : ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L))), ConstsOK v30 v31 v33 v35 v37 v39 v41 v43 v45 v47 v49 v51 v53 v55 v57 v59 v61 v63 →
      ∀ j : Fin 16, rowB_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sU (cpOf d L c) (cpOf d L r) (rowOf a (kIdx k0_t3_loop k)) (rowOf b (kIdx k0_t3_loop k)))
    (hA : ∀ (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L))), ConstsOK v30 v31 v33 v35 v37 v39 v41 v43 v45 v47 v49 v51 v53 v55 v57 v59 v61 v63 →
      ∀ j : Fin 16, rowB_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.biasAdj (cpOf d L c) (cpOf d L r) (rowOf a (kIdx k0_t3_loop k)) (rowOf b (kIdx k0_t3_loop k))) :
    RowUB d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC => rowUB_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC (hU v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC) (hA v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC)

end Cert.Proof.KI

end
-- ==== Proof.KIVRowAcc.lean ====
/-
  What one trip of a row loop leaves in the carried pair of bound vectors: the lane whose number is the trip's receives
  the row's lower bound times the lower factor, and the upper bound times the upper factor less the shift; every other
  lane keeps what it held. The lane is picked by comparing the lane numbers with the trip counter.
-/
import proofs.«214425_g62758062129325_cont_9to1_m_981_19_alg».proof.Proof.KIVSpec
import Idealize.ShloMosaic.Lib.ValueIdx

noncomputable section

namespace Cert.Proof.KI

open Cert.KernelIdeal Cert.KernelIdeal.Gen
open Idealize.ShloMosaic Idealize.ShloMosaic.ValueIdx
open Cert.Proof.RefSpec (sel sel_pos sel_neg)

/-- Comparing lane number j with the counter of trip k, both below sixteen, says whether j is k. -/
theorem lane_is_trip (j k : Fin 16) :
    IntOp.cmpi .eq (BitVec.ofNat 32 j.val) (Scf.iv 0#32 1#32 k.val) = if j = k then 1#1 else 0#1 := by
  revert j k; decide

set_option maxHeartbeats 800000 in
/-- The carried pair after a trip of the first row loop, given the lane facts of the trip's two bounds, two scale
    vectors and shift vector: lane k of each receives the row's rescaled bound, the other lanes stay. -/
theorem rowAccA_of (d : Dev nD) (L : grid0.Coords) (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (c0_i32_23 : BitVec 32) (c1_i32_25 : BitVec 32) (k0_t1 : Fin k0_t1_loop.trips) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L)))
    (hC : ConstsOK v30 v31 v33 v35 v37 v39 v41 v43 v45 v47 v49 v51 v53 v55 v57 v59 v61 v63)
    (hcl : ∀ j : Fin 16, rowA_pack.sl.r_117 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j) = KSpec.concLb (cpOf d L c) (cpOf d L r) (rowOf a (kIdx k0_t2_loop k)))
    (hcu : ∀ j : Fin 16, rowA_pack.sl.r_118 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j) = KSpec.concUb (cpOf d L c) (cpOf d L r) (rowOf b (kIdx k0_t2_loop k)))
    (hsL : ∀ j : Fin 16, rowA_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sL (cpOf d L c) (cpOf d L r) (rowOf a (kIdx k0_t2_loop k)) (rowOf b (kIdx k0_t2_loop k)))
    (hsU : ∀ j : Fin 16, rowA_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sU (cpOf d L c) (cpOf d L r) (rowOf a (kIdx k0_t2_loop k)) (rowOf b (kIdx k0_t2_loop k)))
    (hadj : ∀ j : Fin 16, rowA_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.biasAdj (cpOf d L c) (cpOf d L r) (rowOf a (kIdx k0_t2_loop k)) (rowOf b (kIdx k0_t2_loop k))) :
    (rowA_pack (F := Ideal) d L).2.2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e
      = (fun lane => sel (lane 0 = (kIdx k0_t2_loop k)) (KSpec.plb (cpOf d L c) (cpOf d L r) (rowOf a (kIdx k0_t2_loop k)) (rowOf b (kIdx k0_t2_loop k))) (acc.1 lane),
         fun lane => sel (lane 0 = (kIdx k0_t2_loop k)) (KSpec.pub (cpOf d L c) (cpOf d L r) (rowOf a (kIdx k0_t2_loop k)) (rowOf b (kIdx k0_t2_loop k))) (acc.2 lane)) := by
  have hmask : ∀ j : Fin 16, rowA_pack.sl.r_145 v31 k (ix1 j) = if j = (kIdx k0_t2_loop k) then 1#1 else 0#1 := by
    intro j
    show IntOp.cmpi .eq (v31 (ix1 j)) (Scf.iv 0#32 1#32 k.val) = _
    rw [hC.v31_eq]
    exact lane_is_trip j (kIdx k0_t2_loop k)
  refine Prod.ext ?_ ?_
  · funext lane
    obtain ⟨j, rfl⟩ : ∃ j : Fin 16, lane = ix1 j := ⟨lane 0, eq_ix1 lane⟩
    show Scalar.select (rowA_pack.sl.r_145 v31 k (ix1 j))
        (rowA_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) * rowA_pack.sl.r_117 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j)) (acc.1 (ix1 j)) = _
    rw [hmask, hsL, hcl]
    by_cases h : j = (kIdx k0_t2_loop k)
    · rw [if_pos h, select_one]; exact (sel_pos h _ _).symm
    · rw [if_neg h, select_zero]; exact (sel_neg h _ _).symm
  · funext lane
    obtain ⟨j, rfl⟩ : ∃ j : Fin 16, lane = ix1 j := ⟨lane 0, eq_ix1 lane⟩
    show Scalar.select (rowA_pack.sl.r_145 v31 k (ix1 j))
        (rowA_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) * rowA_pack.sl.r_118 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j) - rowA_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)) (acc.2 (ix1 j)) = _
    rw [hmask, hsU, hcu, hadj]
    by_cases h : j = (kIdx k0_t2_loop k)
    · rw [if_pos h, select_one]; exact (sel_pos h _ _).symm
    · rw [if_neg h, select_zero]; exact (sel_neg h _ _).symm

set_option maxHeartbeats 800000 in
/-- The carried pair after a trip of the second row loop, given the lane facts of the trip's two bounds, two scale
    vectors and shift vector: lane k of each receives the row's rescaled bound, the other lanes stay. -/
theorem rowAccB_of (d : Dev nD) (L : grid0.Coords) (v29 : BitVec 32) (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L)))
    (hC : ConstsOK v30 v31 v33 v35 v37 v39 v41 v43 v45 v47 v49 v51 v53 v55 v57 v59 v61 v63)
    (hcl : ∀ j : Fin 16, rowB_pack.sl.r_117 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j) = KSpec.concLb (cpOf d L c) (cpOf d L r) (rowOf a (kIdx k0_t3_loop k)))
    (hcu : ∀ j : Fin 16, rowB_pack.sl.r_118 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j) = KSpec.concUb (cpOf d L c) (cpOf d L r) (rowOf b (kIdx k0_t3_loop k)))
    (hsL : ∀ j : Fin 16, rowB_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sL (cpOf d L c) (cpOf d L r) (rowOf a (kIdx k0_t3_loop k)) (rowOf b (kIdx k0_t3_loop k)))
    (hsU : ∀ j : Fin 16, rowB_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.sU (cpOf d L c) (cpOf d L r) (rowOf a (kIdx k0_t3_loop k)) (rowOf b (kIdx k0_t3_loop k)))
    (hadj : ∀ j : Fin 16, rowB_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = KSpec.biasAdj (cpOf d L c) (cpOf d L r) (rowOf a (kIdx k0_t3_loop k)) (rowOf b (kIdx k0_t3_loop k))) :
    (rowB_pack (F := Ideal) d L).2.2.1 v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e
      = (fun lane => sel (lane 0 = (kIdx k0_t3_loop k)) (KSpec.plb (cpOf d L c) (cpOf d L r) (rowOf a (kIdx k0_t3_loop k)) (rowOf b (kIdx k0_t3_loop k))) (acc.1 lane),
         fun lane => sel (lane 0 = (kIdx k0_t3_loop k)) (KSpec.pub (cpOf d L c) (cpOf d L r) (rowOf a (kIdx k0_t3_loop k)) (rowOf b (kIdx k0_t3_loop k))) (acc.2 lane)) := by
  have hmask : ∀ j : Fin 16, rowB_pack.sl.r_145 v31 k (ix1 j) = if j = (kIdx k0_t3_loop k) then 1#1 else 0#1 := by
    intro j
    show IntOp.cmpi .eq (v31 (ix1 j)) (Scf.iv 0#32 1#32 k.val) = _
    rw [hC.v31_eq]
    exact lane_is_trip j (kIdx k0_t3_loop k)
  refine Prod.ext ?_ ?_
  · funext lane
    obtain ⟨j, rfl⟩ : ∃ j : Fin 16, lane = ix1 j := ⟨lane 0, eq_ix1 lane⟩
    show Scalar.select (rowB_pack.sl.r_145 v31 k (ix1 j))
        (rowB_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) * rowB_pack.sl.r_117 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j)) (acc.1 (ix1 j)) = _
    rw [hmask, hsL, hcl]
    by_cases h : j = (kIdx k0_t3_loop k)
    · rw [if_pos h, select_one]; exact (sel_pos h _ _).symm
    · rw [if_neg h, select_zero]; exact (sel_neg h _ _).symm
  · funext lane
    obtain ⟨j, rfl⟩ : ∃ j : Fin 16, lane = ix1 j := ⟨lane 0, eq_ix1 lane⟩
    show Scalar.select (rowB_pack.sl.r_145 v31 k (ix1 j))
        (rowB_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) * rowB_pack.sl.r_118 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j) - rowB_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)) (acc.2 (ix1 j)) = _
    rw [hmask, hsU, hcu, hadj]
    by_cases h : j = (kIdx k0_t3_loop k)
    · rw [if_pos h, select_one]; exact (sel_pos h _ _).symm
    · rw [if_neg h, select_zero]; exact (sel_neg h _ _).symm

end Cert.Proof.KI

end
-- ==== Proof.KIVRowVal.lean ====
/-
  What one trip of a row loop computes, lane by lane. The four lane accumulators of a row are sums over the forty-nine
  slices; the bias enters lane 15; four butterfly rounds through the scratch (whose old contents never matter, every
  round's four stores covering it) leave in every lane the total over the sixteen lanes, which is the form's value at
  the centre of the box or its largest deviation; from the four range ends the case flags, the two scale factors and
  the bias shift are the specification's, in every lane.
-/
import proofs.«214425_g62758062129325_cont_9to1_m_981_19_alg».proof.Proof.KIVRow
import proofs.«214425_g62758062129325_cont_9to1_m_981_19_alg».proof.Proof.KIVSpec
import Idealize.ShloMosaic.Lib.Pipeline.Value
import Idealize.ShloMosaic.Lib.Writes
import Idealize.ShloMosaic.Lib.ValueIdx

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Cert.Proof.RefSpec
open Idealize.ShloMosaic.ValueIdx

variable (d : Dev nD) (L : grid0.Coords)

set_option maxHeartbeats 8000000

/-- A coefficient buffer read at row `r`, column `n`; zero outside the buffer. -/
def rdN (v : View sig .scVector .vmem S16x785 .f32) (a : v.ty.Contents (Elt Ideal)) (r n : Nat) : EReal :=
  if h : r < 16 ∧ n < 785 then v.read (Elt Ideal) a (ix2 ⟨r, h.1⟩ ⟨n, h.2⟩) else 0

/-- A table buffer read at coordinate `n`; zero outside the buffer. -/
def rdC (v : View sig .scVector .vmem S784 .f32) (c : v.ty.Contents (Elt Ideal)) (n : Nat) : EReal :=
  if h : n < 784 then v.read (Elt Ideal) c (ix1 ⟨n, h⟩) else 0

/-- A sixteen-wide load from a row of a coefficient buffer, lane `j`: the element `j` places after the offset. -/
theorem load2 (v : View sig .scVector .vmem S16x785 .f32) (a : v.ty.Contents (Elt Ideal)) (off : Fin 2 → Nat)
    (h : ∀ ax, off ax + S1x16.size ax ≤ S16x785.size ax) (hsc : S1x16.ShapeCasts S16) (j : Fin 16) :
    shapeCast (s := S1x16) S16 (View.readAt (Elt Ideal) v (Rect.unit (s := S16x785) off S1x16.size h).toLoadRect a) hsc (ix1 j)
      = rdN v a (off 0) (off 1 + j.val) := by
  have h0 : off 0 < 16 := by have := h 0; simp [S1x16, S16x785] at this; omega
  have h1 : off 1 + j.val < 785 := by have := h 1; simp [S1x16, S16x785] at this; omega
  rw [rdN, dif_pos ⟨h0, h1⟩, shapeCast_dropUnit_apply, View.readAt_apply]
  congr 1
  funext ax
  apply Fin.ext
  fin_cases ax
  · simp [LoadRect.idx, Fin.cons]; rfl
  · simp [LoadRect.idx, Fin.cons]; rfl

/-- A sixteen-wide load from a table buffer, lane `j`. -/
theorem load1 (v : View sig .scVector .vmem S784 .f32) (c : v.ty.Contents (Elt Ideal)) (off : Fin 1 → Nat)
    (h : ∀ ax, off ax + S16.size ax ≤ S784.size ax) (j : Fin 16) :
    View.readAt (Elt Ideal) v (Rect.unit (s := S784) off S16.size h).toLoadRect c (ix1 j)
      = rdC v c (off 0 + j.val) := by
  have h0 : off 0 + j.val < 784 := by have := h 0; simp [S16, S784] at this; omega
  rw [rdC, dif_pos h0, View.readAt_apply]
  congr 1
  funext ax
  apply Fin.ext
  fin_cases ax
  simp [LoadRect.idx]

theorem load2_la (a : Buf (Elt Ideal) (laV.view.loc (thr d L))) (off : Fin 2 → Nat)
    (h : ∀ ax, off ax + S1x16.size ax ≤ S16x785.size ax) (hsc : S1x16.ShapeCasts S16) (j : Fin 16) :
    shapeCast (s := S1x16) S16 (View.readAt (Elt Ideal) (View.whole cc0_scratch2 : View sig .scVector .vmem S16x785 .f32) (Rect.unit (s := S16x785) off ![1, 16] h).toLoadRect a) hsc (ix1 j)
      = rdN laV.view a (off 0) (off 1 + j.val) := load2 laV.view a off h hsc j
theorem load2_ua (a : Buf (Elt Ideal) (uaV.view.loc (thr d L))) (off : Fin 2 → Nat)
    (h : ∀ ax, off ax + S1x16.size ax ≤ S16x785.size ax) (hsc : S1x16.ShapeCasts S16) (j : Fin 16) :
    shapeCast (s := S1x16) S16 (View.readAt (Elt Ideal) (View.whole cc0_scratch3 : View sig .scVector .vmem S16x785 .f32) (Rect.unit (s := S16x785) off ![1, 16] h).toLoadRect a) hsc (ix1 j)
      = rdN uaV.view a (off 0) (off 1 + j.val) := load2 uaV.view a off h hsc j
theorem load2_lb (a : Buf (Elt Ideal) (lbV.view.loc (thr d L))) (off : Fin 2 → Nat)
    (h : ∀ ax, off ax + S1x16.size ax ≤ S16x785.size ax) (hsc : S1x16.ShapeCasts S16) (j : Fin 16) :
    shapeCast (s := S1x16) S16 (View.readAt (Elt Ideal) (View.whole cc0_scratch4 : View sig .scVector .vmem S16x785 .f32) (Rect.unit (s := S16x785) off ![1, 16] h).toLoadRect a) hsc (ix1 j)
      = rdN lbV.view a (off 0) (off 1 + j.val) := load2 lbV.view a off h hsc j
theorem load2_ub (a : Buf (Elt Ideal) (ubV.view.loc (thr d L))) (off : Fin 2 → Nat)
    (h : ∀ ax, off ax + S1x16.size ax ≤ S16x785.size ax) (hsc : S1x16.ShapeCasts S16) (j : Fin 16) :
    shapeCast (s := S1x16) S16 (View.readAt (Elt Ideal) (View.whole cc0_scratch5 : View sig .scVector .vmem S16x785 .f32) (Rect.unit (s := S16x785) off ![1, 16] h).toLoadRect a) hsc (ix1 j)
      = rdN ubV.view a (off 0) (off 1 + j.val) := load2 ubV.view a off h hsc j
theorem load1_cp (c : Buf (Elt Ideal) (cpV.view.loc (thr d L))) (off : Fin 1 → Nat)
    (h : ∀ ax, off ax + S16.size ax ≤ S784.size ax) (j : Fin 16) :
    View.readAt (Elt Ideal) (View.whole cc0_scratch0 : View sig .scVector .vmem S784 .f32) (Rect.unit (s := S784) off ![16] h).toLoadRect c (ix1 j)
      = rdC cpV.view c (off 0 + j.val) := load1 cpV.view c off h j
theorem load1_rp (c : Buf (Elt Ideal) (rpV.view.loc (thr d L))) (off : Fin 1 → Nat)
    (h : ∀ ax, off ax + S16.size ax ≤ S784.size ax) (j : Fin 16) :
    View.readAt (Elt Ideal) (View.whole cc0_scratch1 : View sig .scVector .vmem S784 .f32) (Rect.unit (s := S784) off ![16] h).toLoadRect c (ix1 j)
      = rdC rpV.view c (off 0 + j.val) := load1 rpV.view c off h j

/-- The float absolute value at the extended reals is `absE`. -/
theorem absf_absE {φ : FTy} (x : Ideal φ) : (FloatOps.absf x : Ideal φ) = absE x := rfl

/-- Lane `l` with the bits of `sh` flipped. -/
def flipL (sh : Nat) (hsh : sh < 16) (l : Fin 16) : Fin 16 :=
  ⟨l.val ^^^ sh, Nat.xor_lt_two_pow (n := 4) l.isLt hsh⟩

/-- Word `n` of four sixteen-lane vectors laid end to end. -/
def fourG (P0 P1 P2 P3 : FVec Ideal S16 .f32) (n : Nat) : EReal :=
  if n / 16 = 0 then P0 (ix1 ⟨n % 16, Nat.mod_lt _ (by decide)⟩)
  else if n / 16 = 1 then P1 (ix1 ⟨n % 16, Nat.mod_lt _ (by decide)⟩)
  else if n / 16 = 2 then P2 (ix1 ⟨n % 16, Nat.mod_lt _ (by decide)⟩)
  else P3 (ix1 ⟨n % 16, Nat.mod_lt _ (by decide)⟩)

/-- An index of a sixteen-lane vector is its one coordinate. -/
theorem idx16_eq (x : S16.Idx) (n : Nat) (hn : n < 16) (h : (x 0).val = n) : x = ix1 ⟨n, hn⟩ := by
  funext ax
  obtain rfl : ax = 0 := Subsingleton.elim _ _
  exact Fin.ext h

/-- The sixty-four word scratch after four sixteen-lane stores at words 0, 16, 32, 48 holds the four vectors end to
    end, whatever it held before. -/
theorem scratch_read (e : Buf (Elt Ideal) (redV.view.loc (thr d L))) (P0 P1 P2 P3 : FVec Ideal S16 .f32) (w : S64.Idx) :
    View.read (Elt Ideal) redV.view (redV.view.writes (Elt Ideal) e [⟨Rect.unit ![48] S16.size inb_S64_S16_48, P3⟩, ⟨Rect.unit ![32] S16.size inb_S64_S16_32, P2⟩,
        ⟨Rect.unit ![16] S16.size inb_S64_S16_16, P1⟩, ⟨Rect.unit ![0] S16.size inb_S64_S16_0, P0⟩]) w
      = fourG P0 P1 P2 P3 (w 0).val := by
  have hw : (w 0).val < 64 := (w 0).isLt
  refine View.read_writes_apply_of_pieces redV.view e (fun y => fourG P0 P1 P2 P3 (y 0).val) _ ?_ w ?_
  · intro p hp x
    simp only [List.mem_cons, List.mem_nil_iff, or_false] at hp
    rcases hp with rfl | rfl | rfl | rfl
    all_goals
      have hx : (x 0).val < 16 := (x 0).isLt
      simp only [fourG, Rect.emb_apply, Rect.off_unit, Rect.stride_unit, Matrix.cons_val_zero, Nat.one_mul]
      split_ifs with h1 h2 h3
      all_goals first
        | (exfalso; omega)
        | (congr 1; exact idx16_eq x _ _ (by omega))
  · have hc : (w 0).val < 16 ∨ (16 ≤ (w 0).val ∧ (w 0).val < 32) ∨ (32 ≤ (w 0).val ∧ (w 0).val < 48) ∨ 48 ≤ (w 0).val := by omega
    rcases hc with h | h | h | h
    · refine ⟨⟨Rect.unit ![0] S16.size inb_S64_S16_0, P0⟩, by simp, ?_⟩
      rw [Rect.mem_set_unit]; intro ax; obtain rfl : ax = 0 := Subsingleton.elim _ _
      simp only [Matrix.cons_val_zero, S16]; constructor <;> (try simp) <;> omega
    · refine ⟨⟨Rect.unit ![16] S16.size inb_S64_S16_16, P1⟩, by simp, ?_⟩
      rw [Rect.mem_set_unit]; intro ax; obtain rfl : ax = 0 := Subsingleton.elim _ _
      simp only [Matrix.cons_val_zero, S16]; constructor <;> (try simp) <;> omega
    · refine ⟨⟨Rect.unit ![32] S16.size inb_S64_S16_32, P2⟩, by simp, ?_⟩
      rw [Rect.mem_set_unit]; intro ax; obtain rfl : ax = 0 := Subsingleton.elim _ _
      simp only [Matrix.cons_val_zero, S16]; constructor <;> (try simp) <;> omega
    · refine ⟨⟨Rect.unit ![48] S16.size inb_S64_S16_48, P3⟩, by simp, ?_⟩
      rw [Rect.mem_set_unit]; intro ax; obtain rfl : ax = 0 := Subsingleton.elim _ _
      simp only [Matrix.cons_val_zero, S16]; constructor <;> (try simp) <;> omega

/-- Reading the whole scratch through its full rectangle reads its contents. -/
theorem read_red_whole (W : redV.view.ty.Contents (Elt Ideal)) :
    View.read (Elt Ideal) (redV.access (Rect.whole S64)) W = W :=
  Memref.read_access_whole (Elt Ideal) cc0_scratch8 W

/-- A gather from the scratch after the four stores, by an index vector that sends lane `j` to word
    `(j xor sh) + 16 q`: lane `j` receives lane `j xor sh` of the `q`-th stored vector. -/
theorem gather_eq (e : Buf (Elt Ideal) (redV.view.loc (thr d L))) (P0 P1 P2 P3 : FVec Ideal S16 .f32)
    (vI : IVec S16 32) (h : ∀ a x, ((![vI] : Fin 1 → IVec S16 32) a x).toNat < S64.size a) (sh : Nat) (hsh : sh < 16) (q : Nat)
    (hv : ∀ j : Fin 16, (vI (ix1 j)).toNat = (j.val ^^^ sh) + 16 * q) (j : Fin 16) :
    loadIdx (View.read (Elt Ideal) (redV.access (Rect.whole S64)) (redV.view.writes (Elt Ideal) e
        [⟨Rect.unit ![48] S16.size inb_S64_S16_48, P3⟩, ⟨Rect.unit ![32] S16.size inb_S64_S16_32, P2⟩,
         ⟨Rect.unit ![16] S16.size inb_S64_S16_16, P1⟩, ⟨Rect.unit ![0] S16.size inb_S64_S16_0, P0⟩])) ![vI] h (ix1 j)
      = fourG P0 P1 P2 P3 ((j.val ^^^ sh) + 16 * q) := by
  unfold loadIdx
  rw [read_red_whole]
  refine (scratch_read d L e P0 P1 P2 P3 (idxAt ![vI] h (ix1 j))).trans ?_
  congr 1
  show (vI (ix1 j)).toNat = _
  exact hv j

/-- The gather at word `(j xor sh) + 0`: lane `j xor sh` of the first stored vector. -/
theorem gather0 (e : Buf (Elt Ideal) (redV.view.loc (thr d L))) (P0 P1 P2 P3 : FVec Ideal S16 .f32)
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 0) (j : Fin 16) :
    loadIdx (View.read (Elt Ideal) (redV.access (Rect.whole S64)) (redV.view.writes (Elt Ideal) e
        [⟨Rect.unit ![48] S16.size inb_S64_S16_48, P3⟩, ⟨Rect.unit ![32] S16.size inb_S64_S16_32, P2⟩,
         ⟨Rect.unit ![16] S16.size inb_S64_S16_16, P1⟩, ⟨Rect.unit ![0] S16.size inb_S64_S16_0, P0⟩])) ![vI] h (ix1 j)
      = P0 (ix1 (flipL sh hsh j)) := by
  rw [gather_eq d L e P0 P1 P2 P3 vI h sh hsh 0 (fun j => by rw [hv j]) j]
  have hn : j.val ^^^ sh < 16 := Nat.xor_lt_two_pow (n := 4) j.isLt hsh
  unfold fourG
  rw [if_pos (by omega)]
  exact congrArg (fun t => P0 (ix1 t)) (Fin.ext (by show (_ : ℕ) % 16 = j.val ^^^ sh; omega))

/-- The gather at word `(j xor sh) + 16`: lane `j xor sh` of the second stored vector. -/
theorem gather1 (e : Buf (Elt Ideal) (redV.view.loc (thr d L))) (P0 P1 P2 P3 : FVec Ideal S16 .f32)
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 16) (j : Fin 16) :
    loadIdx (View.read (Elt Ideal) (redV.access (Rect.whole S64)) (redV.view.writes (Elt Ideal) e
        [⟨Rect.unit ![48] S16.size inb_S64_S16_48, P3⟩, ⟨Rect.unit ![32] S16.size inb_S64_S16_32, P2⟩,
         ⟨Rect.unit ![16] S16.size inb_S64_S16_16, P1⟩, ⟨Rect.unit ![0] S16.size inb_S64_S16_0, P0⟩])) ![vI] h (ix1 j)
      = P1 (ix1 (flipL sh hsh j)) := by
  rw [gather_eq d L e P0 P1 P2 P3 vI h sh hsh 1 (fun j => by rw [hv j]) j]
  have hn : j.val ^^^ sh < 16 := Nat.xor_lt_two_pow (n := 4) j.isLt hsh
  unfold fourG
  rw [if_neg (by omega), if_pos (by omega)]
  exact congrArg (fun t => P1 (ix1 t)) (Fin.ext (by show (_ : ℕ) % 16 = j.val ^^^ sh; omega))

/-- The gather at word `(j xor sh) + 32`: lane `j xor sh` of the third stored vector. -/
theorem gather2 (e : Buf (Elt Ideal) (redV.view.loc (thr d L))) (P0 P1 P2 P3 : FVec Ideal S16 .f32)
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 32) (j : Fin 16) :
    loadIdx (View.read (Elt Ideal) (redV.access (Rect.whole S64)) (redV.view.writes (Elt Ideal) e
        [⟨Rect.unit ![48] S16.size inb_S64_S16_48, P3⟩, ⟨Rect.unit ![32] S16.size inb_S64_S16_32, P2⟩,
         ⟨Rect.unit ![16] S16.size inb_S64_S16_16, P1⟩, ⟨Rect.unit ![0] S16.size inb_S64_S16_0, P0⟩])) ![vI] h (ix1 j)
      = P2 (ix1 (flipL sh hsh j)) := by
  rw [gather_eq d L e P0 P1 P2 P3 vI h sh hsh 2 (fun j => by rw [hv j]) j]
  have hn : j.val ^^^ sh < 16 := Nat.xor_lt_two_pow (n := 4) j.isLt hsh
  unfold fourG
  rw [if_neg (by omega), if_neg (by omega), if_pos (by omega)]
  exact congrArg (fun t => P2 (ix1 t)) (Fin.ext (by show (_ : ℕ) % 16 = j.val ^^^ sh; omega))

/-- The gather at word `(j xor sh) + 48`: lane `j xor sh` of the fourth stored vector. -/
theorem gather3 (e : Buf (Elt Ideal) (redV.view.loc (thr d L))) (P0 P1 P2 P3 : FVec Ideal S16 .f32)
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 48) (j : Fin 16) :
    loadIdx (View.read (Elt Ideal) (redV.access (Rect.whole S64)) (redV.view.writes (Elt Ideal) e
        [⟨Rect.unit ![48] S16.size inb_S64_S16_48, P3⟩, ⟨Rect.unit ![32] S16.size inb_S64_S16_32, P2⟩,
         ⟨Rect.unit ![16] S16.size inb_S64_S16_16, P1⟩, ⟨Rect.unit ![0] S16.size inb_S64_S16_0, P0⟩])) ![vI] h (ix1 j)
      = P3 (ix1 (flipL sh hsh j)) := by
  rw [gather_eq d L e P0 P1 P2 P3 vI h sh hsh 3 (fun j => by rw [hv j]) j]
  have hn : j.val ^^^ sh < 16 := Nat.xor_lt_two_pow (n := 4) j.isLt hsh
  unfold fourG
  rw [if_neg (by omega), if_neg (by omega), if_neg (by omega)]
  exact congrArg (fun t => P3 (ix1 t)) (Fin.ext (by show (_ : ℕ) % 16 = j.val ^^^ sh; omega))

/-- The gather at word `(j xor sh) + 0` after the four stores (whatever was stored before them): lane `j xor sh` of
    the first stored vector. -/
theorem gatherT0 (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 0) (j : Fin 16) :
    loadIdx (View.read (Elt Ideal) (redV.access (Rect.whole S64)) (redV.view.writes (Elt Ideal) e
        (⟨Rect.unit ![48] S16.size inb_S64_S16_48, P3⟩ :: ⟨Rect.unit ![32] S16.size inb_S64_S16_32, P2⟩ ::
         ⟨Rect.unit ![16] S16.size inb_S64_S16_16, P1⟩ :: ⟨Rect.unit ![0] S16.size inb_S64_S16_0, P0⟩ :: T))) ![vI] h (ix1 j)
      = P0 (ix1 (flipL sh hsh j)) :=
  gather0 d L (redV.view.writes (Elt Ideal) e T) P0 P1 P2 P3 vI h sh hsh hv j

/-- The same, the scratch and the piece sizes spelt out. -/
theorem gatherT0' (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 0) (j : Fin 16) :
    loadIdx (View.read (Elt Ideal) (redV.access (Rect.whole S64)) ((View.whole cc0_scratch8 : View sig .scVector .vmem S64 .f32).writes (Elt Ideal) e
        (⟨Rect.unit ![48] ![16] inb_S64_S16_48, P3⟩ :: ⟨Rect.unit ![32] ![16] inb_S64_S16_32, P2⟩ ::
         ⟨Rect.unit ![16] ![16] inb_S64_S16_16, P1⟩ :: ⟨Rect.unit ![0] ![16] inb_S64_S16_0, P0⟩ :: T))) ![vI] h (ix1 j)
      = P0 (ix1 (flipL sh hsh j)) :=
  gather0 d L (redV.view.writes (Elt Ideal) e T) P0 P1 P2 P3 vI h sh hsh hv j

/-- The gather at word `(j xor sh) + 16` after the four stores (whatever was stored before them): lane `j xor sh` of
    the second stored vector. -/
theorem gatherT1 (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 16) (j : Fin 16) :
    loadIdx (View.read (Elt Ideal) (redV.access (Rect.whole S64)) (redV.view.writes (Elt Ideal) e
        (⟨Rect.unit ![48] S16.size inb_S64_S16_48, P3⟩ :: ⟨Rect.unit ![32] S16.size inb_S64_S16_32, P2⟩ ::
         ⟨Rect.unit ![16] S16.size inb_S64_S16_16, P1⟩ :: ⟨Rect.unit ![0] S16.size inb_S64_S16_0, P0⟩ :: T))) ![vI] h (ix1 j)
      = P1 (ix1 (flipL sh hsh j)) :=
  gather1 d L (redV.view.writes (Elt Ideal) e T) P0 P1 P2 P3 vI h sh hsh hv j

/-- The same, the scratch and the piece sizes spelt out. -/
theorem gatherT1' (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 16) (j : Fin 16) :
    loadIdx (View.read (Elt Ideal) (redV.access (Rect.whole S64)) ((View.whole cc0_scratch8 : View sig .scVector .vmem S64 .f32).writes (Elt Ideal) e
        (⟨Rect.unit ![48] ![16] inb_S64_S16_48, P3⟩ :: ⟨Rect.unit ![32] ![16] inb_S64_S16_32, P2⟩ ::
         ⟨Rect.unit ![16] ![16] inb_S64_S16_16, P1⟩ :: ⟨Rect.unit ![0] ![16] inb_S64_S16_0, P0⟩ :: T))) ![vI] h (ix1 j)
      = P1 (ix1 (flipL sh hsh j)) :=
  gather1 d L (redV.view.writes (Elt Ideal) e T) P0 P1 P2 P3 vI h sh hsh hv j

/-- The gather at word `(j xor sh) + 32` after the four stores (whatever was stored before them): lane `j xor sh` of
    the third stored vector. -/
theorem gatherT2 (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 32) (j : Fin 16) :
    loadIdx (View.read (Elt Ideal) (redV.access (Rect.whole S64)) (redV.view.writes (Elt Ideal) e
        (⟨Rect.unit ![48] S16.size inb_S64_S16_48, P3⟩ :: ⟨Rect.unit ![32] S16.size inb_S64_S16_32, P2⟩ ::
         ⟨Rect.unit ![16] S16.size inb_S64_S16_16, P1⟩ :: ⟨Rect.unit ![0] S16.size inb_S64_S16_0, P0⟩ :: T))) ![vI] h (ix1 j)
      = P2 (ix1 (flipL sh hsh j)) :=
  gather2 d L (redV.view.writes (Elt Ideal) e T) P0 P1 P2 P3 vI h sh hsh hv j

/-- The same, the scratch and the piece sizes spelt out. -/
theorem gatherT2' (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 32) (j : Fin 16) :
    loadIdx (View.read (Elt Ideal) (redV.access (Rect.whole S64)) ((View.whole cc0_scratch8 : View sig .scVector .vmem S64 .f32).writes (Elt Ideal) e
        (⟨Rect.unit ![48] ![16] inb_S64_S16_48, P3⟩ :: ⟨Rect.unit ![32] ![16] inb_S64_S16_32, P2⟩ ::
         ⟨Rect.unit ![16] ![16] inb_S64_S16_16, P1⟩ :: ⟨Rect.unit ![0] ![16] inb_S64_S16_0, P0⟩ :: T))) ![vI] h (ix1 j)
      = P2 (ix1 (flipL sh hsh j)) :=
  gather2 d L (redV.view.writes (Elt Ideal) e T) P0 P1 P2 P3 vI h sh hsh hv j

/-- The gather at word `(j xor sh) + 48` after the four stores (whatever was stored before them): lane `j xor sh` of
    the fourth stored vector. -/
theorem gatherT3 (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 48) (j : Fin 16) :
    loadIdx (View.read (Elt Ideal) (redV.access (Rect.whole S64)) (redV.view.writes (Elt Ideal) e
        (⟨Rect.unit ![48] S16.size inb_S64_S16_48, P3⟩ :: ⟨Rect.unit ![32] S16.size inb_S64_S16_32, P2⟩ ::
         ⟨Rect.unit ![16] S16.size inb_S64_S16_16, P1⟩ :: ⟨Rect.unit ![0] S16.size inb_S64_S16_0, P0⟩ :: T))) ![vI] h (ix1 j)
      = P3 (ix1 (flipL sh hsh j)) :=
  gather3 d L (redV.view.writes (Elt Ideal) e T) P0 P1 P2 P3 vI h sh hsh hv j

/-- The same, the scratch and the piece sizes spelt out. -/
theorem gatherT3' (e : Buf (Elt Ideal) (redV.view.loc (thr d L))) (P0 P1 P2 P3 : FVec Ideal S16 .f32) (T : List (View.Piece (Elt Ideal) S64 .f32))
    (vI : IVec S16 32) (h : ∀ a x, ((![vI] : Fin 1 → IVec S16 32) a x).toNat < S64.size a) (sh : Nat) (hsh : sh < 16)
    (hv : ∀ j : Fin 16, (vI (ix1 j)).toNat = (j.val ^^^ sh) + 48) (j : Fin 16) :
    loadIdx (View.read (Elt Ideal) (redV.access (Rect.whole S64)) ((View.whole cc0_scratch8 : View sig .scVector .vmem S64 .f32).writes (Elt Ideal) e
        (⟨Rect.unit ![48] ![16] inb_S64_S16_48, P3⟩ :: ⟨Rect.unit ![32] ![16] inb_S64_S16_32, P2⟩ ::
         ⟨Rect.unit ![16] ![16] inb_S64_S16_16, P1⟩ :: ⟨Rect.unit ![0] ![16] inb_S64_S16_0, P0⟩ :: T))) ![vI] h (ix1 j)
      = P3 (ix1 (flipL sh hsh j)) :=
  gather3 d L (redV.view.writes (Elt Ideal) e T) P0 P1 P2 P3 vI h sh hsh hv j

/-- One butterfly round: every lane adds the lane at distance `sh`. -/
def bf {M : Type*} [Add M] (sh : Nat) (hsh : sh < 16) (v : Fin 16 → M) : Fin 16 → M :=
  fun l => v l + v (flipL sh hsh l)

/-- Four butterfly rounds at distances 8, 4, 2, 1 leave the sum over all sixteen lanes in every lane. -/
theorem bf_all {M : Type*} [AddCommMonoid M] (v : Fin 16 → M) (l : Fin 16) :
    bf 1 (by decide) (bf 2 (by decide) (bf 4 (by decide) (bf 8 (by decide) v))) l = ∑ j, v j := by
  fin_cases l <;> simp only [bf, flipL, Fin.sum_univ_succ, Fin.sum_univ_zero] <;> simp <;> abel

/-- A sum over 784 coordinates, by lane and slice: coordinate `16·p + lane`. -/
theorem sum_784 {M : Type*} [AddCommMonoid M] (f : Fin 784 → M) :
    ∑ n, f n = ∑ lane : Fin 16, ∑ p : Fin 49, f ⟨lane.val + 16 * p.val, by omega⟩ := by
  rw [Finset.sum_comm]
  have h := (Equiv.sum_comp (finProdFinEquiv (m := 49) (n := 16)) f).symm
  rw [h, Fintype.sum_prod_type]
  rfl

/-- The same for a function of the natural number `16·p + lane`, the slices as a range. -/
theorem sum_784' {M : Type*} [AddCommMonoid M] (F : ℕ → M) :
    ∑ n : Fin 784, F n.val = ∑ lane : Fin 16, ∑ p ∈ Finset.range 49, F (16 * p + lane.val) := by
  rw [sum_784 (fun n => F n.val)]
  refine Finset.sum_congr rfl fun lane _ => ?_
  rw [← Fin.sum_univ_eq_sum_range (fun p => F (16 * p + lane.val)) 49]
  refine Finset.sum_congr rfl fun p _ => ?_
  show F (lane.val + 16 * p.val) = F (16 * p.val + lane.val)
  rw [Nat.add_comm]

/-- The lane-number test: the comparison bit of lane `i`'s number with `n < 16` is set exactly at lane `n`. -/
theorem lane_mask (i : Fin 16) (n : Nat) (hn : n < 16) :
    IntOp.cmpi .eq (BitVec.ofNat 32 i.val) (BitVec.ofNat 32 n) = 1#1 ↔ i.val = n := by
  have hi := i.isLt
  unfold IntOp.cmpi
  simp only [RefSpec.ofBool_one, beq_iff_eq]
  constructor
  · intro h
    have := congrArg BitVec.toNat h
    simp only [BitVec.toNat_ofNat] at this
    omega
  · intro h; rw [h]

/-- The value four butterfly rounds leave in lane `j`, written out, is the sum over the sixteen lanes. -/
theorem nest_sum (v : Fin 16 → EReal) (j : Fin 16) :
    ((((v j + v (flipL 8 (by decide) j)) + (v (flipL 4 (by decide) j) + v (flipL 8 (by decide) (flipL 4 (by decide) j))))
      + ((v (flipL 2 (by decide) j) + v (flipL 8 (by decide) (flipL 2 (by decide) j)))
        + (v (flipL 4 (by decide) (flipL 2 (by decide) j)) + v (flipL 8 (by decide) (flipL 4 (by decide) (flipL 2 (by decide) j))))))
    + (((v (flipL 1 (by decide) j) + v (flipL 8 (by decide) (flipL 1 (by decide) j)))
        + (v (flipL 4 (by decide) (flipL 1 (by decide) j)) + v (flipL 8 (by decide) (flipL 4 (by decide) (flipL 1 (by decide) j)))))
      + ((v (flipL 2 (by decide) (flipL 1 (by decide) j)) + v (flipL 8 (by decide) (flipL 2 (by decide) (flipL 1 (by decide) j))))
        + (v (flipL 4 (by decide) (flipL 2 (by decide) (flipL 1 (by decide) j)))
          + v (flipL 8 (by decide) (flipL 4 (by decide) (flipL 2 (by decide) (flipL 1 (by decide) j))))))))
      = ∑ i, v i :=
  bf_all v j

/-- A select on the lane-number test is the choice on the lane number. -/
theorem sel_lane (i : Fin 16) (n : Nat) (hn : n < 16) (x y : EReal) :
    Scalar.select (IntOp.cmpi .eq (BitVec.ofNat 32 i.val) (BitVec.ofNat 32 n)) x y = if i.val = n then x else y := by
  unfold Scalar.select
  show (if IntOp.cmpi .eq (BitVec.ofNat 32 i.val) (BitVec.ofNat 32 n) = 1#1 then x else y) = _
  by_cases h : i.val = n
  · rw [if_pos ((lane_mask i n hn).2 h), if_pos h]
  · rw [if_neg (fun hc => h ((lane_mask i n hn).1 hc)), if_neg h]

/-- Only lane 15 contributes the element at column 784. -/
theorem bias_sum (F : ℕ → EReal) : ∑ i : Fin 16, (if i.val = 15 then F (769 + i.val) else 0) = F 784 := by
  rw [Finset.sum_eq_single (15 : Fin 16)]
  · show (if (15 : ℕ) = 15 then F (769 + 15) else 0) = F 784
    simp
  · intro b _ hb
    rw [if_neg]
    intro h; exact hb (Fin.ext h)
  · intro h; exact absurd (Finset.mem_univ _) h

/-- The centre table read through the total accessor. -/
theorem rdC_cp (c : Buf (Elt Ideal) (cpV.view.loc (thr d L))) (n : Nat) (hn : n < 784) :
    rdC cpV.view c n = cpOf d L c ⟨n, hn⟩ := by
  rw [rdC, dif_pos hn]; rfl

/-- The radius table read through the total accessor. -/
theorem rdC_rp (r : Buf (Elt Ideal) (rpV.view.loc (thr d L))) (n : Nat) (hn : n < 784) :
    rdC rpV.view r n = cpOf d L r ⟨n, hn⟩ := by
  rw [rdC, dif_pos hn]; rfl

/-! ## The first row loop -/
namespace A

/-- The first accumulator of the lower form at lane `j` after the forty-nine slices: the sum over the slices of
    coefficient times centre. -/
theorem accSl_eval (v30 : FVec Ideal S16 .f32) (hv30 : ∀ i, v30 i = 0) (k : Fin k0_t2_loop.trips)
    (c : Buf (Elt Ideal) (cpV.view.loc (thr d L))) (a : Buf (Elt Ideal) (laV.view.loc (thr d L))) (j : Fin 16) :
    rowA_pack.sl.r_108 (F := Ideal) d L v30 k c a (ix1 j)
      = ∑ p ∈ Finset.range 49, rdN laV.view a k.val (16 * p + j.val) * rdC cpV.view c (16 * p + j.val) := by
  unfold_sl
  simp only [addf, mulf, absf, load2_la d L, load1_cp d L, hv30, zero_add, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, Matrix.cons_val_zero, Matrix.cons_val_one, Matrix.head_cons, Ideal.addf_def, Ideal.mulf_def, Finset.sum_range_succ, Finset.sum_range_zero, Nat.reduceMul, Nat.mul_zero, absf_absE]

/-- The second accumulator of the lower form: the sum over the slices of |coefficient| times radius. -/
theorem accTl_eval (v30 : FVec Ideal S16 .f32) (hv30 : ∀ i, v30 i = 0) (k : Fin k0_t2_loop.trips)
    (r : Buf (Elt Ideal) (rpV.view.loc (thr d L))) (a : Buf (Elt Ideal) (laV.view.loc (thr d L))) (j : Fin 16) :
    rowA_pack.sl.r_109 (F := Ideal) d L v30 k r a (ix1 j)
      = ∑ p ∈ Finset.range 49, absE (rdN laV.view a k.val (16 * p + j.val)) * rdC rpV.view r (16 * p + j.val) := by
  unfold_sl
  simp only [addf, mulf, absf, load2_la d L, load1_rp d L, hv30, zero_add, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, Matrix.cons_val_zero, Matrix.cons_val_one, Matrix.head_cons, Ideal.addf_def, Ideal.mulf_def, Finset.sum_range_succ, Finset.sum_range_zero, Nat.reduceMul, Nat.mul_zero, absf_absE]

/-- The first accumulator of the upper form. -/
theorem accSu_eval (v30 : FVec Ideal S16 .f32) (hv30 : ∀ i, v30 i = 0) (k : Fin k0_t2_loop.trips)
    (c : Buf (Elt Ideal) (cpV.view.loc (thr d L))) (b : Buf (Elt Ideal) (uaV.view.loc (thr d L))) (j : Fin 16) :
    rowA_pack.sl.r_110 (F := Ideal) d L v30 k c b (ix1 j)
      = ∑ p ∈ Finset.range 49, rdN uaV.view b k.val (16 * p + j.val) * rdC cpV.view c (16 * p + j.val) := by
  unfold_sl
  simp only [addf, mulf, absf, load2_ua d L, load1_cp d L, hv30, zero_add, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, Matrix.cons_val_zero, Matrix.cons_val_one, Matrix.head_cons, Ideal.addf_def, Ideal.mulf_def, Finset.sum_range_succ, Finset.sum_range_zero, Nat.reduceMul, Nat.mul_zero, absf_absE]

/-- The second accumulator of the upper form. -/
theorem accTu_eval (v30 : FVec Ideal S16 .f32) (hv30 : ∀ i, v30 i = 0) (k : Fin k0_t2_loop.trips)
    (r : Buf (Elt Ideal) (rpV.view.loc (thr d L))) (b : Buf (Elt Ideal) (uaV.view.loc (thr d L))) (j : Fin 16) :
    rowA_pack.sl.r_111 (F := Ideal) d L v30 k r b (ix1 j)
      = ∑ p ∈ Finset.range 49, absE (rdN uaV.view b k.val (16 * p + j.val)) * rdC rpV.view r (16 * p + j.val) := by
  unfold_sl
  simp only [addf, mulf, absf, load2_ua d L, load1_rp d L, hv30, zero_add, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, Matrix.cons_val_zero, Matrix.cons_val_one, Matrix.head_cons, Ideal.addf_def, Ideal.mulf_def, Finset.sum_range_succ, Finset.sum_range_zero, Nat.reduceMul, Nat.mul_zero, absf_absE]

/-- The lower buffer's row `k` read through the total accessor. -/
theorem rdN_la (k : Fin k0_t2_loop.trips) (a : Buf (Elt Ideal) (laV.view.loc (thr d L))) (n : Nat) (hn : n < 785) :
    rdN laV.view a k.val n = rowOf a (kIdx k0_t2_loop k) ⟨n, hn⟩ := by
  rw [rdN, dif_pos ⟨(kIdx k0_t2_loop k).isLt, hn⟩]; rfl

/-- The upper buffer's row `k` read through the total accessor. -/
theorem rdN_ua (k : Fin k0_t2_loop.trips) (b : Buf (Elt Ideal) (uaV.view.loc (thr d L))) (n : Nat) (hn : n < 785) :
    rdN uaV.view b k.val n = rowOf b (kIdx k0_t2_loop k) ⟨n, hn⟩ := by
  rw [rdN, dif_pos ⟨(kIdx k0_t2_loop k).isLt, hn⟩]; rfl

section Lanes

variable (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t2_loop.trips) (acc : FVec Ideal S16 .f32 × FVec Ideal S16 .f32) (c : Buf (Elt Ideal) (cpV.view.loc (thr d L))) (r : Buf (Elt Ideal) (rpV.view.loc (thr d L))) (a : Buf (Elt Ideal) (laV.view.loc (thr d L))) (b : Buf (Elt Ideal) (uaV.view.loc (thr d L))) (e : Buf (Elt Ideal) (redV.view.loc (thr d L))) (hC : ConstsOK v30 v31 v33 v35 v37 v39 v41 v43 v45 v47 v49 v51 v53 v55 v57 v59 v61 v63)
include k0_hw1 k0_hw2 k0_hw3 k0_hw4 k0_hw5 k0_hw6 k0_hw7 k0_hw8 k0_hw9 k0_hw10 k0_hw11 k0_hw12 k0_hw13 k0_hw14 k0_hw15 k0_hw16 c r a b e hC

/-- The first starting vector of the lower form at lane `i`: its accumulator, and in lane 15 the bias. -/
theorem A0_eval (i : Fin 16) : k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 i)
    = (∑ p ∈ Finset.range 49, rdN laV.view a k.val (16 * p + i.val) * rdC cpV.view c (16 * p + i.val))
      + (if i.val = 15 then rdN laV.view a k.val (769 + i.val) else 0) := by
  simp only [k0_pay177, k0_pay176, addf, select, cmpi, broadcast, load2_la d L, accSl_eval d L v30 hC.v30_eq, hC.v31_eq,
    hC.v30_eq, k0_off52_eq, Matrix.cons_val_zero, Matrix.cons_val_one, Matrix.head_cons, Ideal.addf_def,
    sel_lane _ 15 (by decide)]

/-- The first starting vector of the upper form at lane `i`. -/
theorem C0_eval (i : Fin 16) : k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 i)
    = (∑ p ∈ Finset.range 49, rdN uaV.view b k.val (16 * p + i.val) * rdC cpV.view c (16 * p + i.val))
      + (if i.val = 15 then rdN uaV.view b k.val (769 + i.val) else 0) := by
  simp only [k0_pay178, k0_pay176, addf, select, cmpi, broadcast, load2_ua d L, accSu_eval d L v30 hC.v30_eq, hC.v31_eq,
    hC.v30_eq, k0_off52_eq, Matrix.cons_val_zero, Matrix.cons_val_one, Matrix.head_cons, Ideal.addf_def,
    sel_lane _ 15 (by decide)]

/-- The total of the lower form's first accumulator over the lanes is the form's value at the centre. -/
theorem S_total_l : (∑ i : Fin 16, k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 i)) = KSpec.S (cpOf d L c) (rowOf a (kIdx k0_t2_loop k)) := by
  simp only [A0_eval d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rw [Finset.sum_add_distrib, ← sum_784' (fun n => rdN laV.view a k.val n * rdC cpV.view c n),
    bias_sum (fun n => rdN laV.view a k.val n)]
  unfold KSpec.S
  congr 1
  · refine Finset.sum_congr rfl fun n _ => ?_
    rw [rdN_la d L k a n.val (by omega), rdC_cp d L c n.val n.isLt]
  · exact rdN_la d L k a 784 (by decide)

/-- The total of the upper form's first accumulator over the lanes is the form's value at the centre. -/
theorem S_total_u : (∑ i : Fin 16, k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 i)) = KSpec.S (cpOf d L c) (rowOf b (kIdx k0_t2_loop k)) := by
  simp only [C0_eval d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rw [Finset.sum_add_distrib, ← sum_784' (fun n => rdN uaV.view b k.val n * rdC cpV.view c n),
    bias_sum (fun n => rdN uaV.view b k.val n)]
  unfold KSpec.S
  congr 1
  · refine Finset.sum_congr rfl fun n _ => ?_
    rw [rdN_ua d L k b n.val (by omega), rdC_cp d L c n.val n.isLt]
  · exact rdN_ua d L k b 784 (by decide)

/-- The total of the lower form's second accumulator is the form's largest deviation. -/
theorem T_total_l : (∑ i : Fin 16, rowA_pack.sl.r_109 (F := Ideal) d L v30 k r a (ix1 i)) = KSpec.T (cpOf d L r) (rowOf a (kIdx k0_t2_loop k)) := by
  simp only [accTl_eval d L v30 hC.v30_eq]
  rw [← sum_784' (fun n => absE (rdN laV.view a k.val n) * rdC rpV.view r n)]
  unfold KSpec.T
  refine Finset.sum_congr rfl fun n _ => ?_
  rw [rdN_la d L k a n.val (by omega), rdC_rp d L r n.val n.isLt]

/-- The total of the upper form's second accumulator is the form's largest deviation. -/
theorem T_total_u : (∑ i : Fin 16, rowA_pack.sl.r_111 (F := Ideal) d L v30 k r b (ix1 i)) = KSpec.T (cpOf d L r) (rowOf b (kIdx k0_t2_loop k)) := by
  simp only [accTu_eval d L v30 hC.v30_eq]
  rw [← sum_784' (fun n => absE (rdN uaV.view b k.val n) * rdC rpV.view r n)]
  unfold KSpec.T
  refine Finset.sum_congr rfl fun n _ => ?_
  rw [rdN_ua d L k b n.val (by omega), rdC_rp d L r n.val n.isLt]

/-- Every lane of the lower form's least value. -/
theorem concLb_lane (j : Fin 16) : rowA_pack.sl.r_117 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j)
    = KSpec.concLb (cpOf d L c) (cpOf d L r) (rowOf a (kIdx k0_t2_loop k)) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq)]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rfl

/-- Every lane of the upper form's greatest value. -/
theorem concUb_lane (j : Fin 16) : rowA_pack.sl.r_118 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j)
    = KSpec.concUb (cpOf d L c) (cpOf d L r) (rowOf b (kIdx k0_t2_loop k)) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq)]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rfl

/-- Every lane of the upper form's least value. -/
theorem minUb_lane (j : Fin 16) : rowA_pack.sl.r_119 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j)
    = KSpec.minUb (cpOf d L c) (cpOf d L r) (rowOf b (kIdx k0_t2_loop k)) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq)]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rfl

/-- The bit of "the upper form is nowhere positive". -/
theorem inactive_lane (j : Fin 16) : rowA_pack.sl.r_120 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j) = 1#1
    ↔ KSpec.inactive (cpOf d L c) (cpOf d L r) (rowOf b (kIdx k0_t2_loop k)) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay199, k0_pay200]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  exact RefSpec.cmpf_ole _ _

/-- The bit of "unstable". -/
theorem unstable_lane (j : Fin 16) : rowA_pack.sl.r_121 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = 1#1
    ↔ KSpec.unstable (cpOf d L c) (cpOf d L r) (rowOf a (kIdx k0_t2_loop k)) (rowOf b (kIdx k0_t2_loop k)) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay199, k0_pay200]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  simp only [RefSpec.andi_one, RefSpec.ori_one, RefSpec.cmpf_olt, RefSpec.cmpf_ogt, RefSpec.cmpf_ole]
  exact Iff.rfl

/-- The bit of "mostly inactive". -/
theorem mostlyInactive_lane (j : Fin 16) : rowA_pack.sl.r_122 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = 1#1
    ↔ KSpec.mostlyInactive (cpOf d L c) (cpOf d L r) (rowOf a (kIdx k0_t2_loop k)) (rowOf b (kIdx k0_t2_loop k)) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay199, k0_pay200]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  simp only [RefSpec.andi_one, RefSpec.ori_one, RefSpec.cmpf_olt, RefSpec.cmpf_ogt, RefSpec.cmpf_ole]
  exact Iff.rfl

/-- The bit of "mostly active". -/
theorem mostlyActive_lane (j : Fin 16) : rowA_pack.sl.r_123 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = 1#1
    ↔ KSpec.mostlyActive (cpOf d L c) (cpOf d L r) (rowOf a (kIdx k0_t2_loop k)) (rowOf b (kIdx k0_t2_loop k)) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay199, k0_pay200]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  simp only [RefSpec.andi_one, RefSpec.ori_one, RefSpec.cmpf_olt, RefSpec.cmpf_ogt, RefSpec.cmpf_ole]
  exact Iff.rfl

/-- The bit of "the lower form's greatest value is negative". -/
theorem maxLbNeg_lane (j : Fin 16) : rowA_pack.sl.r_124 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j) = 1#1
    ↔ KSpec.maxLb (cpOf d L c) (cpOf d L r) (rowOf a (kIdx k0_t2_loop k)) < RefSpec.zeroW := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay199, k0_pay200]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  exact RefSpec.cmpf_olt _ _

/-- Every lane of the lower form's slope before the sign test. -/
theorem slope_lane (j : Fin 16) : rowA_pack.sl.r_125 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = Ideal.div (KSpec.maxLb (cpOf d L c) (cpOf d L r) (rowOf a (kIdx k0_t2_loop k)))
        (sel (KSpec.unstable (cpOf d L c) (cpOf d L r) (rowOf a (kIdx k0_t2_loop k)) (rowOf b (kIdx k0_t2_loop k))) (KSpec.maxLb (cpOf d L c) (cpOf d L r) (rowOf a (kIdx k0_t2_loop k)) - KSpec.concLb (cpOf d L c) (cpOf d L r) (rowOf a (kIdx k0_t2_loop k))) RefSpec.oneW) := by
  have hA := nest_sum (fun t => k0_pay177 (F := Ideal) v30 v31 (rowA_pack.sl.r_108 d L v30 k c a) 15#32 (View.readAt (Elt Ideal) (View.whole cc0_scratch2 : View sig .scVector .vmem S16x785 .f32) (Rect.unit (s := S16x785) (k0_off52 k) ![1, 16] (k0_off52_inb k)).toLoadRect a) (ix1 t)) j
  have hB := nest_sum (fun t => rowA_pack.sl.r_109 (F := Ideal) d L v30 k r a (ix1 t)) j
  have hC' := nest_sum (fun t => k0_pay178 (F := Ideal) v30 v31 (rowA_pack.sl.r_110 d L v30 k c b) 15#32 (View.readAt (Elt Ideal) (View.whole cc0_scratch3 : View sig .scVector .vmem S16x785 .f32) (Rect.unit (s := S16x785) (k0_off52 k) ![1, 16] (k0_off52_inb k)).toLoadRect b) (ix1 t)) j
  have hD := nest_sum (fun t => rowA_pack.sl.r_111 (F := Ideal) d L v30 k r b (ix1 t)) j
  beta_reduce at hA hB hC' hD
  simp only [rowA_pack.sl.r_113, rowA_pack.sl.r_114, rowA_pack.sl.r_115, rowA_pack.sl.r_116, rowA_pack.sl.r_117, rowA_pack.sl.r_118, rowA_pack.sl.r_119, rowA_pack.sl.r_120, rowA_pack.sl.r_121, rowA_pack.sl.r_122, rowA_pack.sl.r_123, rowA_pack.sl.r_124, rowA_pack.sl.r_125, rowA_pack.sl.HE_10, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay199, k0_pay200]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rw [RefSpec.select_sel (P := KSpec.unstable (cpOf d L c) (cpOf d L r) (rowOf a (kIdx k0_t2_loop k)) (rowOf b (kIdx k0_t2_loop k))) (by simp only [RefSpec.andi_one, RefSpec.ori_one, RefSpec.cmpf_olt, RefSpec.cmpf_ogt, RefSpec.cmpf_ole]; exact Iff.rfl)]
  rfl

/-- Every lane of the factor the lower form is rescaled by. -/
theorem sL_lane (j : Fin 16) : rowA_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = KSpec.sL (cpOf d L c) (cpOf d L r) (rowOf a (kIdx k0_t2_loop k)) (rowOf b (kIdx k0_t2_loop k)) := by
  simp only [rowA_pack.sl.r_126, k0_pay207, k0_pay199, k0_pay200, select, ori, broadcast]
  rw [RefSpec.select_sel (mostlyActive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j), RefSpec.select_sel (maxLbNeg_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j),
    RefSpec.select_sel ((RefSpec.ori_one _ _).trans (or_congr (inactive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (mostlyInactive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j))),
    slope_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j]
  rfl

/-- The bit of "zero crossing", as the kernel forms it from the unstable bit and the upper form's least value. -/
theorem zeroCrossing_bit (j : Fin 16) :
    IntOp.andi (rowA_pack.sl.r_121 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j))
        (FloatOps.cmpf .ole (KSpec.minUb (cpOf d L c) (cpOf d L r) (rowOf b (kIdx k0_t2_loop k))) (FloatOps.ofBits (F := Ideal) .f32 0#32)) = 1#1
      ↔ KSpec.zeroCrossing (cpOf d L c) (cpOf d L r) (rowOf a (kIdx k0_t2_loop k)) (rowOf b (kIdx k0_t2_loop k)) := by
  rw [RefSpec.andi_one, RefSpec.cmpf_ole]
  exact and_congr (unstable_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) Iff.rfl

/-- Every lane of the factor the upper form is rescaled by. -/
theorem sU_lane (j : Fin 16) : rowA_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = KSpec.sU (cpOf d L c) (cpOf d L r) (rowOf a (kIdx k0_t2_loop k)) (rowOf b (kIdx k0_t2_loop k)) := by
  simp only [rowA_pack.sl.r_127, k0_pay210, k0_pay208, k0_pay209, k0_pay199, k0_pay200, select, andi, cmpf, divf, subf, broadcast,
    concUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j, minUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j]
  simp only [RefSpec.select_sel (zeroCrossing_bit d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j), RefSpec.select_sel (inactive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)]
  rfl

/-- Every lane of what the upper form's bias is lowered by. -/
theorem biasAdj_lane (j : Fin 16) : rowA_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = KSpec.biasAdj (cpOf d L c) (cpOf d L r) (rowOf a (kIdx k0_t2_loop k)) (rowOf b (kIdx k0_t2_loop k)) := by
  simp only [rowA_pack.sl.r_128, k0_pay211, k0_pay208, k0_pay209, k0_pay199, k0_pay200, select, andi, cmpf, divf, subf, mulf, broadcast,
    concUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j, minUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j]
  simp only [RefSpec.select_sel (zeroCrossing_bit d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)]
  rfl

end Lanes

end A

/-! ## The second row loop -/
namespace B

/-- The first accumulator of the lower form at lane `j` after the forty-nine slices: the sum over the slices of
    coefficient times centre. -/
theorem accSl_eval (v30 : FVec Ideal S16 .f32) (hv30 : ∀ i, v30 i = 0) (k : Fin k0_t3_loop.trips)
    (c : Buf (Elt Ideal) (cpV.view.loc (thr d L))) (a : Buf (Elt Ideal) (lbV.view.loc (thr d L))) (j : Fin 16) :
    rowB_pack.sl.r_108 (F := Ideal) d L v30 k c a (ix1 j)
      = ∑ p ∈ Finset.range 49, rdN lbV.view a k.val (16 * p + j.val) * rdC cpV.view c (16 * p + j.val) := by
  unfold_sl
  simp only [addf, mulf, absf, load2_lb d L, load1_cp d L, hv30, zero_add, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, Matrix.cons_val_zero, Matrix.cons_val_one, Matrix.head_cons, Ideal.addf_def, Ideal.mulf_def, Finset.sum_range_succ, Finset.sum_range_zero, Nat.reduceMul, Nat.mul_zero, absf_absE]

/-- The second accumulator of the lower form: the sum over the slices of |coefficient| times radius. -/
theorem accTl_eval (v30 : FVec Ideal S16 .f32) (hv30 : ∀ i, v30 i = 0) (k : Fin k0_t3_loop.trips)
    (r : Buf (Elt Ideal) (rpV.view.loc (thr d L))) (a : Buf (Elt Ideal) (lbV.view.loc (thr d L))) (j : Fin 16) :
    rowB_pack.sl.r_109 (F := Ideal) d L v30 k r a (ix1 j)
      = ∑ p ∈ Finset.range 49, absE (rdN lbV.view a k.val (16 * p + j.val)) * rdC rpV.view r (16 * p + j.val) := by
  unfold_sl
  simp only [addf, mulf, absf, load2_lb d L, load1_rp d L, hv30, zero_add, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, Matrix.cons_val_zero, Matrix.cons_val_one, Matrix.head_cons, Ideal.addf_def, Ideal.mulf_def, Finset.sum_range_succ, Finset.sum_range_zero, Nat.reduceMul, Nat.mul_zero, absf_absE]

/-- The first accumulator of the upper form. -/
theorem accSu_eval (v30 : FVec Ideal S16 .f32) (hv30 : ∀ i, v30 i = 0) (k : Fin k0_t3_loop.trips)
    (c : Buf (Elt Ideal) (cpV.view.loc (thr d L))) (b : Buf (Elt Ideal) (ubV.view.loc (thr d L))) (j : Fin 16) :
    rowB_pack.sl.r_110 (F := Ideal) d L v30 k c b (ix1 j)
      = ∑ p ∈ Finset.range 49, rdN ubV.view b k.val (16 * p + j.val) * rdC cpV.view c (16 * p + j.val) := by
  unfold_sl
  simp only [addf, mulf, absf, load2_ub d L, load1_cp d L, hv30, zero_add, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, Matrix.cons_val_zero, Matrix.cons_val_one, Matrix.head_cons, Ideal.addf_def, Ideal.mulf_def, Finset.sum_range_succ, Finset.sum_range_zero, Nat.reduceMul, Nat.mul_zero, absf_absE]

/-- The second accumulator of the upper form. -/
theorem accTu_eval (v30 : FVec Ideal S16 .f32) (hv30 : ∀ i, v30 i = 0) (k : Fin k0_t3_loop.trips)
    (r : Buf (Elt Ideal) (rpV.view.loc (thr d L))) (b : Buf (Elt Ideal) (ubV.view.loc (thr d L))) (j : Fin 16) :
    rowB_pack.sl.r_111 (F := Ideal) d L v30 k r b (ix1 j)
      = ∑ p ∈ Finset.range 49, absE (rdN ubV.view b k.val (16 * p + j.val)) * rdC rpV.view r (16 * p + j.val) := by
  unfold_sl
  simp only [addf, mulf, absf, load2_ub d L, load1_rp d L, hv30, zero_add, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, Matrix.cons_val_zero, Matrix.cons_val_one, Matrix.head_cons, Ideal.addf_def, Ideal.mulf_def, Finset.sum_range_succ, Finset.sum_range_zero, Nat.reduceMul, Nat.mul_zero, absf_absE]

/-- The lower buffer's row `k` read through the total accessor. -/
theorem rdN_la (k : Fin k0_t3_loop.trips) (a : Buf (Elt Ideal) (lbV.view.loc (thr d L))) (n : Nat) (hn : n < 785) :
    rdN lbV.view a k.val n = rowOf a (kIdx k0_t3_loop k) ⟨n, hn⟩ := by
  rw [rdN, dif_pos ⟨(kIdx k0_t3_loop k).isLt, hn⟩]; rfl

/-- The upper buffer's row `k` read through the total accessor. -/
theorem rdN_ua (k : Fin k0_t3_loop.trips) (b : Buf (Elt Ideal) (ubV.view.loc (thr d L))) (n : Nat) (hn : n < 785) :
    rdN ubV.view b k.val n = rowOf b (kIdx k0_t3_loop k) ⟨n, hn⟩ := by
  rw [rdN, dif_pos ⟨(kIdx k0_t3_loop k).isLt, hn⟩]; rfl

section Lanes

variable (v30 : FVec Ideal S16 .f32) (v31 : IVec S16 32) (v33 : IVec S16 32) (k0_hw1 : k0_chk1 v33) (v35 : IVec S16 32) (k0_hw2 : k0_chk2 v35) (v37 : IVec S16 32) (k0_hw3 : k0_chk3 v37) (v39 : IVec S16 32) (k0_hw4 : k0_chk4 v39) (v41 : IVec S16 32) (k0_hw5 : k0_chk5 v41) (v43 : IVec S16 32) (k0_hw6 : k0_chk6 v43) (v45 : IVec S16 32) (k0_hw7 : k0_chk7 v45) (v47 : IVec S16 32) (k0_hw8 : k0_chk8 v47) (v49 : IVec S16 32) (k0_hw9 : k0_chk9 v49) (v51 : IVec S16 32) (k0_hw10 : k0_chk10 v51) (v53 : IVec S16 32) (k0_hw11 : k0_chk11 v53) (v55 : IVec S16 32) (k0_hw12 : k0_chk12 v55) (v57 : IVec S16 32) (k0_hw13 : k0_chk13 v57) (v59 : IVec S16 32) (k0_hw14 : k0_chk14 v59) (v61 : IVec S16 32) (k0_hw15 : k0_chk15 v61) (v63 : IVec S16 32) (k0_hw16 : k0_chk16 v63) (k : Fin k0_t3_loop.trips) (acc : FVec Ideal S16 .f32 × FVec Ideal S16 .f32) (c : Buf (Elt Ideal) (cpV.view.loc (thr d L))) (r : Buf (Elt Ideal) (rpV.view.loc (thr d L))) (a : Buf (Elt Ideal) (lbV.view.loc (thr d L))) (b : Buf (Elt Ideal) (ubV.view.loc (thr d L))) (e : Buf (Elt Ideal) (redV.view.loc (thr d L))) (hC : ConstsOK v30 v31 v33 v35 v37 v39 v41 v43 v45 v47 v49 v51 v53 v55 v57 v59 v61 v63)
include k0_hw1 k0_hw2 k0_hw3 k0_hw4 k0_hw5 k0_hw6 k0_hw7 k0_hw8 k0_hw9 k0_hw10 k0_hw11 k0_hw12 k0_hw13 k0_hw14 k0_hw15 k0_hw16 c r a b e hC

/-- The first starting vector of the lower form at lane `i`: its accumulator, and in lane 15 the bias. -/
theorem A0_eval (i : Fin 16) : k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 i)
    = (∑ p ∈ Finset.range 49, rdN lbV.view a k.val (16 * p + i.val) * rdC cpV.view c (16 * p + i.val))
      + (if i.val = 15 then rdN lbV.view a k.val (769 + i.val) else 0) := by
  simp only [k0_pay506, k0_pay505, addf, select, cmpi, broadcast, load2_lb d L, accSl_eval d L v30 hC.v30_eq, hC.v31_eq,
    hC.v30_eq, k0_off155_eq, Matrix.cons_val_zero, Matrix.cons_val_one, Matrix.head_cons, Ideal.addf_def,
    sel_lane _ 15 (by decide)]

/-- The first starting vector of the upper form at lane `i`. -/
theorem C0_eval (i : Fin 16) : k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 i)
    = (∑ p ∈ Finset.range 49, rdN ubV.view b k.val (16 * p + i.val) * rdC cpV.view c (16 * p + i.val))
      + (if i.val = 15 then rdN ubV.view b k.val (769 + i.val) else 0) := by
  simp only [k0_pay507, k0_pay505, addf, select, cmpi, broadcast, load2_ub d L, accSu_eval d L v30 hC.v30_eq, hC.v31_eq,
    hC.v30_eq, k0_off155_eq, Matrix.cons_val_zero, Matrix.cons_val_one, Matrix.head_cons, Ideal.addf_def,
    sel_lane _ 15 (by decide)]

/-- The total of the lower form's first accumulator over the lanes is the form's value at the centre. -/
theorem S_total_l : (∑ i : Fin 16, k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 i)) = KSpec.S (cpOf d L c) (rowOf a (kIdx k0_t3_loop k)) := by
  simp only [A0_eval d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rw [Finset.sum_add_distrib, ← sum_784' (fun n => rdN lbV.view a k.val n * rdC cpV.view c n),
    bias_sum (fun n => rdN lbV.view a k.val n)]
  unfold KSpec.S
  congr 1
  · refine Finset.sum_congr rfl fun n _ => ?_
    rw [rdN_la d L k a n.val (by omega), rdC_cp d L c n.val n.isLt]
  · exact rdN_la d L k a 784 (by decide)

/-- The total of the upper form's first accumulator over the lanes is the form's value at the centre. -/
theorem S_total_u : (∑ i : Fin 16, k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 i)) = KSpec.S (cpOf d L c) (rowOf b (kIdx k0_t3_loop k)) := by
  simp only [C0_eval d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rw [Finset.sum_add_distrib, ← sum_784' (fun n => rdN ubV.view b k.val n * rdC cpV.view c n),
    bias_sum (fun n => rdN ubV.view b k.val n)]
  unfold KSpec.S
  congr 1
  · refine Finset.sum_congr rfl fun n _ => ?_
    rw [rdN_ua d L k b n.val (by omega), rdC_cp d L c n.val n.isLt]
  · exact rdN_ua d L k b 784 (by decide)

/-- The total of the lower form's second accumulator is the form's largest deviation. -/
theorem T_total_l : (∑ i : Fin 16, rowB_pack.sl.r_109 (F := Ideal) d L v30 k r a (ix1 i)) = KSpec.T (cpOf d L r) (rowOf a (kIdx k0_t3_loop k)) := by
  simp only [accTl_eval d L v30 hC.v30_eq]
  rw [← sum_784' (fun n => absE (rdN lbV.view a k.val n) * rdC rpV.view r n)]
  unfold KSpec.T
  refine Finset.sum_congr rfl fun n _ => ?_
  rw [rdN_la d L k a n.val (by omega), rdC_rp d L r n.val n.isLt]

/-- The total of the upper form's second accumulator is the form's largest deviation. -/
theorem T_total_u : (∑ i : Fin 16, rowB_pack.sl.r_111 (F := Ideal) d L v30 k r b (ix1 i)) = KSpec.T (cpOf d L r) (rowOf b (kIdx k0_t3_loop k)) := by
  simp only [accTu_eval d L v30 hC.v30_eq]
  rw [← sum_784' (fun n => absE (rdN ubV.view b k.val n) * rdC rpV.view r n)]
  unfold KSpec.T
  refine Finset.sum_congr rfl fun n _ => ?_
  rw [rdN_ua d L k b n.val (by omega), rdC_rp d L r n.val n.isLt]

/-- Every lane of the lower form's least value. -/
theorem concLb_lane (j : Fin 16) : rowB_pack.sl.r_117 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j)
    = KSpec.concLb (cpOf d L c) (cpOf d L r) (rowOf a (kIdx k0_t3_loop k)) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq)]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rfl

/-- Every lane of the upper form's greatest value. -/
theorem concUb_lane (j : Fin 16) : rowB_pack.sl.r_118 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j)
    = KSpec.concUb (cpOf d L c) (cpOf d L r) (rowOf b (kIdx k0_t3_loop k)) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq)]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rfl

/-- Every lane of the upper form's least value. -/
theorem minUb_lane (j : Fin 16) : rowB_pack.sl.r_119 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j)
    = KSpec.minUb (cpOf d L c) (cpOf d L r) (rowOf b (kIdx k0_t3_loop k)) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq)]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rfl

/-- The bit of "the upper form is nowhere positive". -/
theorem inactive_lane (j : Fin 16) : rowB_pack.sl.r_120 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v61 k0_hw15 v63 k0_hw16 k c r a b e (ix1 j) = 1#1
    ↔ KSpec.inactive (cpOf d L c) (cpOf d L r) (rowOf b (kIdx k0_t3_loop k)) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay528, k0_pay529]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  exact RefSpec.cmpf_ole _ _

/-- The bit of "unstable". -/
theorem unstable_lane (j : Fin 16) : rowB_pack.sl.r_121 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = 1#1
    ↔ KSpec.unstable (cpOf d L c) (cpOf d L r) (rowOf a (kIdx k0_t3_loop k)) (rowOf b (kIdx k0_t3_loop k)) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay528, k0_pay529]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  simp only [RefSpec.andi_one, RefSpec.ori_one, RefSpec.cmpf_olt, RefSpec.cmpf_ogt, RefSpec.cmpf_ole]
  exact Iff.rfl

/-- The bit of "mostly inactive". -/
theorem mostlyInactive_lane (j : Fin 16) : rowB_pack.sl.r_122 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = 1#1
    ↔ KSpec.mostlyInactive (cpOf d L c) (cpOf d L r) (rowOf a (kIdx k0_t3_loop k)) (rowOf b (kIdx k0_t3_loop k)) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay528, k0_pay529]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  simp only [RefSpec.andi_one, RefSpec.ori_one, RefSpec.cmpf_olt, RefSpec.cmpf_ogt, RefSpec.cmpf_ole]
  exact Iff.rfl

/-- The bit of "mostly active". -/
theorem mostlyActive_lane (j : Fin 16) : rowB_pack.sl.r_123 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j) = 1#1
    ↔ KSpec.mostlyActive (cpOf d L c) (cpOf d L r) (rowOf a (kIdx k0_t3_loop k)) (rowOf b (kIdx k0_t3_loop k)) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay528, k0_pay529]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  simp only [RefSpec.andi_one, RefSpec.ori_one, RefSpec.cmpf_olt, RefSpec.cmpf_ogt, RefSpec.cmpf_ole]
  exact Iff.rfl

/-- The bit of "the lower form's greatest value is negative". -/
theorem maxLbNeg_lane (j : Fin 16) : rowB_pack.sl.r_124 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 k c r a b e (ix1 j) = 1#1
    ↔ KSpec.maxLb (cpOf d L c) (cpOf d L r) (rowOf a (kIdx k0_t3_loop k)) < RefSpec.zeroW := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay528, k0_pay529]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  exact RefSpec.cmpf_olt _ _

/-- Every lane of the lower form's slope before the sign test. -/
theorem slope_lane (j : Fin 16) : rowB_pack.sl.r_125 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = Ideal.div (KSpec.maxLb (cpOf d L c) (cpOf d L r) (rowOf a (kIdx k0_t3_loop k)))
        (sel (KSpec.unstable (cpOf d L c) (cpOf d L r) (rowOf a (kIdx k0_t3_loop k)) (rowOf b (kIdx k0_t3_loop k))) (KSpec.maxLb (cpOf d L c) (cpOf d L r) (rowOf a (kIdx k0_t3_loop k)) - KSpec.concLb (cpOf d L c) (cpOf d L r) (rowOf a (kIdx k0_t3_loop k))) RefSpec.oneW) := by
  have hA := nest_sum (fun t => k0_pay506 (F := Ideal) v30 v31 (rowB_pack.sl.r_108 d L v30 k c a) 15#32 (View.readAt (Elt Ideal) (View.whole cc0_scratch4 : View sig .scVector .vmem S16x785 .f32) (Rect.unit (s := S16x785) (k0_off155 k) ![1, 16] (k0_off155_inb k)).toLoadRect a) (ix1 t)) j
  have hB := nest_sum (fun t => rowB_pack.sl.r_109 (F := Ideal) d L v30 k r a (ix1 t)) j
  have hC' := nest_sum (fun t => k0_pay507 (F := Ideal) v30 v31 (rowB_pack.sl.r_110 d L v30 k c b) 15#32 (View.readAt (Elt Ideal) (View.whole cc0_scratch5 : View sig .scVector .vmem S16x785 .f32) (Rect.unit (s := S16x785) (k0_off155 k) ![1, 16] (k0_off155_inb k)).toLoadRect b) (ix1 t)) j
  have hD := nest_sum (fun t => rowB_pack.sl.r_111 (F := Ideal) d L v30 k r b (ix1 t)) j
  beta_reduce at hA hB hC' hD
  simp only [rowB_pack.sl.r_113, rowB_pack.sl.r_114, rowB_pack.sl.r_115, rowB_pack.sl.r_116, rowB_pack.sl.r_117, rowB_pack.sl.r_118, rowB_pack.sl.r_119, rowB_pack.sl.r_120, rowB_pack.sl.r_121, rowB_pack.sl.r_122, rowB_pack.sl.r_123, rowB_pack.sl.r_124, rowB_pack.sl.r_125, rowB_pack.sl.HE_10, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, addf, subf, gatherT0 d L (vI := v33) (sh := 8) (hsh := by decide) (hv := hC.v33_eq), gatherT0' d L (vI := v33) (sh := 8) (hsh := by decide) (hv := hC.v33_eq), gatherT1 d L (vI := v35) (sh := 8) (hsh := by decide) (hv := hC.v35_eq), gatherT1' d L (vI := v35) (sh := 8) (hsh := by decide) (hv := hC.v35_eq), gatherT2 d L (vI := v37) (sh := 8) (hsh := by decide) (hv := hC.v37_eq), gatherT2' d L (vI := v37) (sh := 8) (hsh := by decide) (hv := hC.v37_eq), gatherT3 d L (vI := v39) (sh := 8) (hsh := by decide) (hv := hC.v39_eq), gatherT3' d L (vI := v39) (sh := 8) (hsh := by decide) (hv := hC.v39_eq), gatherT0 d L (vI := v41) (sh := 4) (hsh := by decide) (hv := hC.v41_eq), gatherT0' d L (vI := v41) (sh := 4) (hsh := by decide) (hv := hC.v41_eq), gatherT1 d L (vI := v43) (sh := 4) (hsh := by decide) (hv := hC.v43_eq), gatherT1' d L (vI := v43) (sh := 4) (hsh := by decide) (hv := hC.v43_eq), gatherT2 d L (vI := v45) (sh := 4) (hsh := by decide) (hv := hC.v45_eq), gatherT2' d L (vI := v45) (sh := 4) (hsh := by decide) (hv := hC.v45_eq), gatherT3 d L (vI := v47) (sh := 4) (hsh := by decide) (hv := hC.v47_eq), gatherT3' d L (vI := v47) (sh := 4) (hsh := by decide) (hv := hC.v47_eq), gatherT0 d L (vI := v49) (sh := 2) (hsh := by decide) (hv := hC.v49_eq), gatherT0' d L (vI := v49) (sh := 2) (hsh := by decide) (hv := hC.v49_eq), gatherT1 d L (vI := v51) (sh := 2) (hsh := by decide) (hv := hC.v51_eq), gatherT1' d L (vI := v51) (sh := 2) (hsh := by decide) (hv := hC.v51_eq), gatherT2 d L (vI := v53) (sh := 2) (hsh := by decide) (hv := hC.v53_eq), gatherT2' d L (vI := v53) (sh := 2) (hsh := by decide) (hv := hC.v53_eq), gatherT3 d L (vI := v55) (sh := 2) (hsh := by decide) (hv := hC.v55_eq), gatherT3' d L (vI := v55) (sh := 2) (hsh := by decide) (hv := hC.v55_eq), gatherT0 d L (vI := v57) (sh := 1) (hsh := by decide) (hv := hC.v57_eq), gatherT0' d L (vI := v57) (sh := 1) (hsh := by decide) (hv := hC.v57_eq), gatherT1 d L (vI := v59) (sh := 1) (hsh := by decide) (hv := hC.v59_eq), gatherT1' d L (vI := v59) (sh := 1) (hsh := by decide) (hv := hC.v59_eq), gatherT2 d L (vI := v61) (sh := 1) (hsh := by decide) (hv := hC.v61_eq), gatherT2' d L (vI := v61) (sh := 1) (hsh := by decide) (hv := hC.v61_eq), gatherT3 d L (vI := v63) (sh := 1) (hsh := by decide) (hv := hC.v63_eq), gatherT3' d L (vI := v63) (sh := 1) (hsh := by decide) (hv := hC.v63_eq), cmpf, select, andi, ori, absf, divf, broadcast, k0_pay528, k0_pay529]
  simp only [Ideal.addf_def, Ideal.subf_def, hA, hB, hC', hD,
    S_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_l d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, S_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC, T_total_u d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC]
  rw [RefSpec.select_sel (P := KSpec.unstable (cpOf d L c) (cpOf d L r) (rowOf a (kIdx k0_t3_loop k)) (rowOf b (kIdx k0_t3_loop k))) (by simp only [RefSpec.andi_one, RefSpec.ori_one, RefSpec.cmpf_olt, RefSpec.cmpf_ogt, RefSpec.cmpf_ole]; exact Iff.rfl)]
  rfl

/-- Every lane of the factor the lower form is rescaled by. -/
theorem sL_lane (j : Fin 16) : rowB_pack.sl.r_126 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = KSpec.sL (cpOf d L c) (cpOf d L r) (rowOf a (kIdx k0_t3_loop k)) (rowOf b (kIdx k0_t3_loop k)) := by
  simp only [rowB_pack.sl.r_126, k0_pay536, k0_pay528, k0_pay529, select, ori, broadcast]
  rw [RefSpec.select_sel (mostlyActive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j), RefSpec.select_sel (maxLbNeg_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j),
    RefSpec.select_sel ((RefSpec.ori_one _ _).trans (or_congr (inactive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (mostlyInactive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j))),
    slope_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j]
  rfl

/-- The bit of "zero crossing", as the kernel forms it from the unstable bit and the upper form's least value. -/
theorem zeroCrossing_bit (j : Fin 16) :
    IntOp.andi (rowB_pack.sl.r_121 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j))
        (FloatOps.cmpf .ole (KSpec.minUb (cpOf d L c) (cpOf d L r) (rowOf b (kIdx k0_t3_loop k))) (FloatOps.ofBits (F := Ideal) .f32 0#32)) = 1#1
      ↔ KSpec.zeroCrossing (cpOf d L c) (cpOf d L r) (rowOf a (kIdx k0_t3_loop k)) (rowOf b (kIdx k0_t3_loop k)) := by
  rw [RefSpec.andi_one, RefSpec.cmpf_ole]
  exact and_congr (unstable_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) Iff.rfl

/-- Every lane of the factor the upper form is rescaled by. -/
theorem sU_lane (j : Fin 16) : rowB_pack.sl.r_127 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = KSpec.sU (cpOf d L c) (cpOf d L r) (rowOf a (kIdx k0_t3_loop k)) (rowOf b (kIdx k0_t3_loop k)) := by
  simp only [rowB_pack.sl.r_127, k0_pay539, k0_pay537, k0_pay538, k0_pay528, k0_pay529, select, andi, cmpf, divf, subf, broadcast,
    concUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j, minUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j]
  simp only [RefSpec.select_sel (zeroCrossing_bit d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j), RefSpec.select_sel (inactive_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)]
  rfl

/-- Every lane of what the upper form's bias is lowered by. -/
theorem biasAdj_lane (j : Fin 16) : rowB_pack.sl.r_128 (F := Ideal) d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e (ix1 j)
    = KSpec.biasAdj (cpOf d L c) (cpOf d L r) (rowOf a (kIdx k0_t3_loop k)) (rowOf b (kIdx k0_t3_loop k)) := by
  simp only [rowB_pack.sl.r_128, k0_pay540, k0_pay537, k0_pay538, k0_pay528, k0_pay529, select, andi, cmpf, divf, subf, mulf, broadcast,
    concUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j, minUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j]
  simp only [RefSpec.select_sel (zeroCrossing_bit d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)]
  rfl

end Lanes

end B

end Cert.Proof.KI
end
-- ==== Proof.KIVRowFinal.lean ====
/-
  The six statements about one trip of a row loop, assembled: the two buffers' from the strips each trip writes, the
  carried pair's from the lane the trip's counter picks, each applied to the lane facts of the trip's bounds, scale
  vectors and shift vector.
-/
import proofs.«214425_g62758062129325_cont_9to1_m_981_19_alg».proof.Proof.KIVRowBuf
import proofs.«214425_g62758062129325_cont_9to1_m_981_19_alg».proof.Proof.KIVRowAcc
import proofs.«214425_g62758062129325_cont_9to1_m_981_19_alg».proof.Proof.KIVRowVal

noncomputable section

namespace Cert.Proof.KI

open Cert.KernelIdeal Cert.KernelIdeal.Gen
open Idealize.ShloMosaic Idealize.ShloMosaic.ValueIdx

variable (d : Dev nD) (L : grid0.Coords)

/-- The lower buffer after a trip of the first row loop. -/
theorem rowLA : RowLA d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC => rowLA_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC (fun j => A.sL_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)

/-- The upper buffer after a trip of the first row loop. -/
theorem rowUA : RowUA d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC => rowUA_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC (fun j => A.sU_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => A.biasAdj_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)

/-- The carried pair after a trip of the first row loop. -/
theorem rowAccA : RowAccA d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC => rowAccA_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 c0_i32_23 c1_i32_25 k0_t1 k acc c r a b e hC (fun j => A.concLb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => A.concUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => A.sL_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => A.sU_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => A.biasAdj_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)

/-- The lower buffer after a trip of the second row loop. -/
theorem rowLB : RowLB d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC => rowLB_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC (fun j => B.sL_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)

/-- The upper buffer after a trip of the second row loop. -/
theorem rowUB : RowUB d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC => rowUB_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC (fun j => B.sU_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => B.biasAdj_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)

/-- The carried pair after a trip of the second row loop. -/
theorem rowAccB : RowAccB d L :=
  fun v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC => rowAccB_of d L v29 v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k acc c r a b e hC (fun j => B.concLb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => B.concUb_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => B.sL_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => B.sU_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j) (fun j => B.biasAdj_lane d L v30 v31 v33 k0_hw1 v35 k0_hw2 v37 k0_hw3 v39 k0_hw4 v41 k0_hw5 v43 k0_hw6 v45 k0_hw7 v47 k0_hw8 v49 k0_hw9 v51 k0_hw10 v53 k0_hw11 v55 k0_hw12 v57 k0_hw13 v59 k0_hw14 v61 k0_hw15 v63 k0_hw16 k c r a b e hC j)

end Cert.Proof.KI

end
-- ==== Proof.KIVConsts.lean ====
/-
  The constant vectors the kernel builds are the ones the row statements are about: the zero vector, the lane numbers
  0 to 15, and for each lane distance 8, 4, 2, 1 and each quarter 0, 16, 32, 48 of the 64-word scratch the lane numbers
  with the distance's bit flipped, moved into the quarter (flipping the bits of distance + quarter at once, the lane
  numbers being below sixteen).
-/
import proofs.«214425_g62758062129325_cont_9to1_m_981_19_alg».proof.Proof.KIVSpec
import Idealize.ShloMosaic.Lib.ValueIdx

noncomputable section

namespace Cert.Proof.KI

open Cert.KernelIdeal Cert.KernelIdeal.Gen
open Idealize.ShloMosaic Idealize.ShloMosaic.ValueIdx

/-- The word of all zero bits denotes zero. -/
theorem ofBits_zero : FloatOps.ofBits (F := Ideal) FTy.f32 0#32 = 0 := by
  show Ideal.ofBits .f32 0#32 = 0
  simp [Ideal.ofBits, Ideal.ieee]

/-- A lane's number, as the lane-numbering vector has it. -/
theorem iota_lane (j : Fin 16) : (iota Kind.scVector S16 32 [0] iota_S16_d0_w32_scVector) (ix1 j) = BitVec.ofNat 32 j.val := by
  show BitVec.ofNat 32 (0 * 16 + j.val) = BitVec.ofNat 32 j.val
  rw [Nat.zero_mul, Nat.zero_add]

/-- Flipping the bits of d + q in a lane number, d a lane distance and q a quarter, flips d's bit and adds q. -/
theorem xor_lane (j : Fin 16) (dq : Nat) (d q : Nat) (h : ∀ j : Fin 16, (BitVec.ofNat 32 j.val ^^^ BitVec.ofNat 32 dq).toNat = (j.val ^^^ d) + q) :
    (xori (iota Kind.scVector S16 32 [0] iota_S16_d0_w32_scVector) (broadcast S16 (BitVec.ofNat 32 dq)) (ix1 j)).toNat = (j.val ^^^ d) + q := by
  show (IntOp.xori ((iota Kind.scVector S16 32 [0] iota_S16_d0_w32_scVector) (ix1 j)) (BitVec.ofNat 32 dq)).toNat = _
  rw [iota_lane]
  exact h j

/-- The kernel's constant vectors. -/
theorem consts_ok : ConstsOK (broadcast S16 (FloatOps.ofBits (F := Ideal) FTy.f32 0#32)) (iota Kind.scVector S16 32 [0] iota_S16_d0_w32_scVector) (xori (iota Kind.scVector S16 32 [0] iota_S16_d0_w32_scVector) (broadcast S16 8#32)) (xori (iota Kind.scVector S16 32 [0] iota_S16_d0_w32_scVector) (broadcast S16 24#32)) (xori (iota Kind.scVector S16 32 [0] iota_S16_d0_w32_scVector) (broadcast S16 40#32)) (xori (iota Kind.scVector S16 32 [0] iota_S16_d0_w32_scVector) (broadcast S16 56#32)) (xori (iota Kind.scVector S16 32 [0] iota_S16_d0_w32_scVector) (broadcast S16 4#32)) (xori (iota Kind.scVector S16 32 [0] iota_S16_d0_w32_scVector) (broadcast S16 20#32)) (xori (iota Kind.scVector S16 32 [0] iota_S16_d0_w32_scVector) (broadcast S16 36#32)) (xori (iota Kind.scVector S16 32 [0] iota_S16_d0_w32_scVector) (broadcast S16 52#32)) (xori (iota Kind.scVector S16 32 [0] iota_S16_d0_w32_scVector) (broadcast S16 2#32)) (xori (iota Kind.scVector S16 32 [0] iota_S16_d0_w32_scVector) (broadcast S16 18#32)) (xori (iota Kind.scVector S16 32 [0] iota_S16_d0_w32_scVector) (broadcast S16 34#32)) (xori (iota Kind.scVector S16 32 [0] iota_S16_d0_w32_scVector) (broadcast S16 50#32)) (xori (iota Kind.scVector S16 32 [0] iota_S16_d0_w32_scVector) (broadcast S16 1#32)) (xori (iota Kind.scVector S16 32 [0] iota_S16_d0_w32_scVector) (broadcast S16 17#32)) (xori (iota Kind.scVector S16 32 [0] iota_S16_d0_w32_scVector) (broadcast S16 33#32)) (xori (iota Kind.scVector S16 32 [0] iota_S16_d0_w32_scVector) (broadcast S16 49#32)) where
  v30_eq := fun _ => ofBits_zero
  v31_eq := iota_lane
  v33_eq := fun j => xor_lane j 8 8 0 (by decide)
  v35_eq := fun j => xor_lane j 24 8 16 (by decide)
  v37_eq := fun j => xor_lane j 40 8 32 (by decide)
  v39_eq := fun j => xor_lane j 56 8 48 (by decide)
  v41_eq := fun j => xor_lane j 4 4 0 (by decide)
  v43_eq := fun j => xor_lane j 20 4 16 (by decide)
  v45_eq := fun j => xor_lane j 36 4 32 (by decide)
  v47_eq := fun j => xor_lane j 52 4 48 (by decide)
  v49_eq := fun j => xor_lane j 2 2 0 (by decide)
  v51_eq := fun j => xor_lane j 18 2 16 (by decide)
  v53_eq := fun j => xor_lane j 34 2 32 (by decide)
  v55_eq := fun j => xor_lane j 50 2 48 (by decide)
  v57_eq := fun j => xor_lane j 1 1 0 (by decide)
  v59_eq := fun j => xor_lane j 17 1 16 (by decide)
  v61_eq := fun j => xor_lane j 33 1 32 (by decide)
  v63_eq := fun j => xor_lane j 49 1 48 (by decide)

end Cert.Proof.KI

end
-- ==== Proof.KIVTask.lean ====
/-
  Every tile's task with values, from the row statements and the kernel's constants.
-/
import proofs.«214425_g62758062129325_cont_9to1_m_981_19_alg».proof.Proof.KIVBody
import proofs.«214425_g62758062129325_cont_9to1_m_981_19_alg».proof.Proof.KIVRowFinal
import proofs.«214425_g62758062129325_cont_9to1_m_981_19_alg».proof.Proof.KIVConsts

noncomputable section

namespace Cert.Proof.KI

open Cert.KernelIdeal Cert.KernelIdeal.Gen
open Idealize.ShloMosaic
open Idealize.SL Idealize.SL.RA Idealize.SL.BI

theorem tile_task_all (d : Dev nD) (L : grid0.Coords) (qc qr q9 q10 q11 q12 : PosShare TreeShare)
    (fc : Buf (Elt Ideal) (cpH.view.loc (thr d L))) (fr : Buf (Elt Ideal) (rpH.view.loc (thr d L)))
    (f0 : Buf (Elt Ideal) (lH.view.loc (thr d L))) (f1 : Buf (Elt Ideal) (uH.view.loc (thr d L))) :
    TileTaskV d L qc qr q9 q10 q11 q12 fc fr f0 f1 :=
  tile_taskV d L qc qr q9 q10 q11 q12 fc fr f0 f1 (rowLA d L) (rowUA d L) (rowAccA d L) (rowLB d L) (rowUB d L) (rowAccB d L) consts_ok

end Cert.Proof.KI

end
-- ==== Proof.RefRun.lean ====
/-
  The reference's run: every weakly fair execution of its host program terminates with each of the four results
  at its composed term of the arguments, and with the arguments unchanged.

  The program is a straight line of 158 array operations; the operations of the functions it calls (the two
  clips, the selects) stand at their call sites. Each is listed here at the buffers it reads and writes, with its
  function stated at those buffers' own array types, so that what a buffer holds after the line is the plain
  composition of the operations' functions: no transport along a buffer's type stands between an operation and its
  operand. The line is the program (`main_eqV`, by unfolding), every buffer it names is a device buffer
  (`ops_subV`), and reading a result buffer after the line gives the composed term (`run`).
-/
import proofs.«214425_g62758062129325_cont_9to1_m_981_19_alg».proof.Proof.RefRunP

noncomputable section

namespace Cert.Proof.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- @main's 158 operations, in order, each at its own buffers. -/
abbrev opsV : List (HloOp τ sig (Elt F)) :=
  [ unary main_arg0 main_v0 ((extractStridedSlice S8x2048x784 ![0, 0, 0] · slices_S8x2048x785_S8x2048x784_0_0_0) : (⟨S8x2048x785, .f32⟩ : BufTy).Contents (Elt F) → (⟨S8x2048x784, .f32⟩ : BufTy).Contents (Elt F)),
    unary main_arg0 main_v1 ((extractStridedSlice S8x2048x1 ![0, 0, 784] · slices_S8x2048x785_S8x2048x1_0_0_784) : (⟨S8x2048x785, .f32⟩ : BufTy).Contents (Elt F) → (⟨S8x2048x1, .f32⟩ : BufTy).Contents (Elt F)),
    reshape main_v1 main_v2 rfl shapeCasts_S8x2048x1_S8x2048,
    unary main_arg1 main_v3 ((extractStridedSlice S8x2048x784 ![0, 0, 0] · slices_S8x2048x785_S8x2048x784_0_0_0) : (⟨S8x2048x785, .f32⟩ : BufTy).Contents (Elt F) → (⟨S8x2048x784, .f32⟩ : BufTy).Contents (Elt F)),
    unary main_arg1 main_v4 ((extractStridedSlice S8x2048x1 ![0, 0, 784] · slices_S8x2048x785_S8x2048x1_0_0_784) : (⟨S8x2048x785, .f32⟩ : BufTy).Contents (Elt F) → (⟨S8x2048x1, .f32⟩ : BufTy).Contents (Elt F)),
    reshape main_v4 main_v5 rfl shapeCasts_S8x2048x1_S8x2048,
    nullary main_cst (constant S_ .f32 0x00000000#32),
    unary main_cst main_call0_v0 (id : (⟨S_, .f32⟩ : BufTy).Contents (Elt F) → (⟨S_, .f32⟩ : BufTy).Contents (Elt F)),
    unary main_call0_v0 main_call0_v1 ((broadcastInDim S8x2048x784 ![] bcast_S_S8x2048x784) : (⟨S_, .f32⟩ : BufTy).Contents (Elt F) → (⟨S8x2048x784, .f32⟩ : BufTy).Contents (Elt F)),
    binary main_call0_v1 main_v0 main_v6 (maximumf : (⟨S8x2048x784, .f32⟩ : BufTy).Contents (Elt F) → (⟨S8x2048x784, .f32⟩ : BufTy).Contents (Elt F) → (⟨S8x2048x784, .f32⟩ : BufTy).Contents (Elt F)),
    nullary main_cst_0 (constant S_ .f32 0x00000000#32),
    unary main_cst_0 main_call1_v0 (id : (⟨S_, .f32⟩ : BufTy).Contents (Elt F) → (⟨S_, .f32⟩ : BufTy).Contents (Elt F)),
    unary main_call1_v0 main_call1_v1 ((broadcastInDim S8x2048x784 ![] bcast_S_S8x2048x784) : (⟨S_, .f32⟩ : BufTy).Contents (Elt F) → (⟨S8x2048x784, .f32⟩ : BufTy).Contents (Elt F)),
    binary main_call1_v1 main_v0 main_v7 (minimumf : (⟨S8x2048x784, .f32⟩ : BufTy).Contents (Elt F) → (⟨S8x2048x784, .f32⟩ : BufTy).Contents (Elt F) → (⟨S8x2048x784, .f32⟩ : BufTy).Contents (Elt F)),
    nullary main_cst_1 (constant S_ .f32 0x00000000#32),
    unary main_cst_1 main_call2_v0 (id : (⟨S_, .f32⟩ : BufTy).Contents (Elt F) → (⟨S_, .f32⟩ : BufTy).Contents (Elt F)),
    unary main_call2_v0 main_call2_v1 ((broadcastInDim S8x2048x784 ![] bcast_S_S8x2048x784) : (⟨S_, .f32⟩ : BufTy).Contents (Elt F) → (⟨S8x2048x784, .f32⟩ : BufTy).Contents (Elt F)),
    binary main_call2_v1 main_v3 main_v8 (maximumf : (⟨S8x2048x784, .f32⟩ : BufTy).Contents (Elt F) → (⟨S8x2048x784, .f32⟩ : BufTy).Contents (Elt F) → (⟨S8x2048x784, .f32⟩ : BufTy).Contents (Elt F)),
    nullary main_cst_2 (constant S_ .f32 0x00000000#32),
    unary main_cst_2 main_call3_v0 (id : (⟨S_, .f32⟩ : BufTy).Contents (Elt F) → (⟨S_, .f32⟩ : BufTy).Contents (Elt F)),
    unary main_call3_v0 main_call3_v1 ((broadcastInDim S8x2048x784 ![] bcast_S_S8x2048x784) : (⟨S_, .f32⟩ : BufTy).Contents (Elt F) → (⟨S8x2048x784, .f32⟩ : BufTy).Contents (Elt F)),
    binary main_call3_v1 main_v3 main_v9 (minimumf : (⟨S8x2048x784, .f32⟩ : BufTy).Contents (Elt F) → (⟨S8x2048x784, .f32⟩ : BufTy).Contents (Elt F) → (⟨S8x2048x784, .f32⟩ : BufTy).Contents (Elt F)),
    binary main_v6 main_arg2 main_v10 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v7 main_arg3 main_v11 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v10 main_v11 main_v12 (addf : (⟨S8x2048, .f32⟩ : BufTy).Contents (Elt F) → (⟨S8x2048, .f32⟩ : BufTy).Contents (Elt F) → (⟨S8x2048, .f32⟩ : BufTy).Contents (Elt F)),
    binary main_v12 main_v2 main_v13 (addf : (⟨S8x2048, .f32⟩ : BufTy).Contents (Elt F) → (⟨S8x2048, .f32⟩ : BufTy).Contents (Elt F) → (⟨S8x2048, .f32⟩ : BufTy).Contents (Elt F)),
    binary main_v6 main_arg3 main_v14 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v7 main_arg2 main_v15 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v14 main_v15 main_v16 (addf : (⟨S8x2048, .f32⟩ : BufTy).Contents (Elt F) → (⟨S8x2048, .f32⟩ : BufTy).Contents (Elt F) → (⟨S8x2048, .f32⟩ : BufTy).Contents (Elt F)),
    binary main_v16 main_v2 main_v17 (addf : (⟨S8x2048, .f32⟩ : BufTy).Contents (Elt F) → (⟨S8x2048, .f32⟩ : BufTy).Contents (Elt F) → (⟨S8x2048, .f32⟩ : BufTy).Contents (Elt F)),
    binary main_v8 main_arg3 main_v18 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v9 main_arg2 main_v19 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v18 main_v19 main_v20 (addf : (⟨S8x2048, .f32⟩ : BufTy).Contents (Elt F) → (⟨S8x2048, .f32⟩ : BufTy).Contents (Elt F) → (⟨S8x2048, .f32⟩ : BufTy).Contents (Elt F)),
    binary main_v20 main_v5 main_v21 (addf : (⟨S8x2048, .f32⟩ : BufTy).Contents (Elt F) → (⟨S8x2048, .f32⟩ : BufTy).Contents (Elt F) → (⟨S8x2048, .f32⟩ : BufTy).Contents (Elt F)),
    binary main_v8 main_arg2 main_v22 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v9 main_arg3 main_v23 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v22 main_v23 main_v24 (addf : (⟨S8x2048, .f32⟩ : BufTy).Contents (Elt F) → (⟨S8x2048, .f32⟩ : BufTy).Contents (Elt F) → (⟨S8x2048, .f32⟩ : BufTy).Contents (Elt F)),
    binary main_v24 main_v5 main_v25 (addf : (⟨S8x2048, .f32⟩ : BufTy).Contents (Elt F) → (⟨S8x2048, .f32⟩ : BufTy).Contents (Elt F) → (⟨S8x2048, .f32⟩ : BufTy).Contents (Elt F)),
    nullary main_cst_3 (constant S_ .f32 0x00000000#32),
    unary main_cst_3 main_v26 (broadcastInDim S8x2048 ![] bcast_S_S8x2048 : (⟨S_, .f32⟩ : BufTy).Contents (Elt F) → (⟨S8x2048, .f32⟩ : BufTy).Contents (Elt F)),
    binary main_v21 main_v26 main_v27 (cmpf .ole : (⟨S8x2048, .f32⟩ : BufTy).Contents (Elt F) → (⟨S8x2048, .f32⟩ : BufTy).Contents (Elt F) → (⟨S8x2048, .i1⟩ : BufTy).Contents (Elt F)),
    nullary main_cst_4 (constant S_ .f32 0x00000000#32),
    unary main_cst_4 main_v28 (broadcastInDim S8x2048 ![] bcast_S_S8x2048 : (⟨S_, .f32⟩ : BufTy).Contents (Elt F) → (⟨S8x2048, .f32⟩ : BufTy).Contents (Elt F)),
    binary main_v13 main_v28 main_v29 (cmpf .ogt : (⟨S8x2048, .f32⟩ : BufTy).Contents (Elt F) → (⟨S8x2048, .f32⟩ : BufTy).Contents (Elt F) → (⟨S8x2048, .i1⟩ : BufTy).Contents (Elt F)),
    nullary main_cst_5 (constant S_ .f32 0x00000000#32),
    unary main_cst_5 main_v30 (broadcastInDim S8x2048 ![] bcast_S_S8x2048 : (⟨S_, .f32⟩ : BufTy).Contents (Elt F) → (⟨S8x2048, .f32⟩ : BufTy).Contents (Elt F)),
    binary main_v13 main_v30 main_v31 (cmpf .olt : (⟨S8x2048, .f32⟩ : BufTy).Contents (Elt F) → (⟨S8x2048, .f32⟩ : BufTy).Contents (Elt F) → (⟨S8x2048, .i1⟩ : BufTy).Contents (Elt F)),
    nullary main_cst_6 (constant S_ .f32 0x00000000#32),
    unary main_cst_6 main_v32 (broadcastInDim S8x2048 ![] bcast_S_S8x2048 : (⟨S_, .f32⟩ : BufTy).Contents (Elt F) → (⟨S8x2048, .f32⟩ : BufTy).Contents (Elt F)),
    binary main_v21 main_v32 main_v33 (cmpf .ogt : (⟨S8x2048, .f32⟩ : BufTy).Contents (Elt F) → (⟨S8x2048, .f32⟩ : BufTy).Contents (Elt F) → (⟨S8x2048, .i1⟩ : BufTy).Contents (Elt F)),
    binary main_v31 main_v33 main_v34 (andi : (⟨S8x2048, .i1⟩ : BufTy).Contents (Elt F) → (⟨S8x2048, .i1⟩ : BufTy).Contents (Elt F) → (⟨S8x2048, .i1⟩ : BufTy).Contents (Elt F)),
    unary main_v13 main_v35 (Host.absf : (⟨S8x2048, .f32⟩ : BufTy).Contents (Elt F) → (⟨S8x2048, .f32⟩ : BufTy).Contents (Elt F)),
    unary main_v21 main_v36 (Host.absf : (⟨S8x2048, .f32⟩ : BufTy).Contents (Elt F) → (⟨S8x2048, .f32⟩ : BufTy).Contents (Elt F)),
    binary main_v35 main_v36 main_v37 (cmpf .ogt : (⟨S8x2048, .f32⟩ : BufTy).Contents (Elt F) → (⟨S8x2048, .f32⟩ : BufTy).Contents (Elt F) → (⟨S8x2048, .i1⟩ : BufTy).Contents (Elt F)),
    nullary main_cst_7 (constant S_ .f32 0x00000000#32),
    unary main_cst_7 main_v38 (broadcastInDim S8x2048 ![] bcast_S_S8x2048 : (⟨S_, .f32⟩ : BufTy).Contents (Elt F) → (⟨S8x2048, .f32⟩ : BufTy).Contents (Elt F)),
    binary main_v17 main_v38 main_v39 (cmpf .ole : (⟨S8x2048, .f32⟩ : BufTy).Contents (Elt F) → (⟨S8x2048, .f32⟩ : BufTy).Contents (Elt F) → (⟨S8x2048, .i1⟩ : BufTy).Contents (Elt F)),
    binary main_v37 main_v39 main_v40 (ori : (⟨S8x2048, .i1⟩ : BufTy).Contents (Elt F) → (⟨S8x2048, .i1⟩ : BufTy).Contents (Elt F) → (⟨S8x2048, .i1⟩ : BufTy).Contents (Elt F)),
    binary main_v34 main_v40 main_v41 (andi : (⟨S8x2048, .i1⟩ : BufTy).Contents (Elt F) → (⟨S8x2048, .i1⟩ : BufTy).Contents (Elt F) → (⟨S8x2048, .i1⟩ : BufTy).Contents (Elt F)),
    unary main_v13 main_v42 (Host.absf : (⟨S8x2048, .f32⟩ : BufTy).Contents (Elt F) → (⟨S8x2048, .f32⟩ : BufTy).Contents (Elt F)),
    unary main_v21 main_v43 (Host.absf : (⟨S8x2048, .f32⟩ : BufTy).Contents (Elt F) → (⟨S8x2048, .f32⟩ : BufTy).Contents (Elt F)),
    binary main_v42 main_v43 main_v44 (cmpf .ole : (⟨S8x2048, .f32⟩ : BufTy).Contents (Elt F) → (⟨S8x2048, .f32⟩ : BufTy).Contents (Elt F) → (⟨S8x2048, .i1⟩ : BufTy).Contents (Elt F)),
    binary main_v34 main_v44 main_v45 (andi : (⟨S8x2048, .i1⟩ : BufTy).Contents (Elt F) → (⟨S8x2048, .i1⟩ : BufTy).Contents (Elt F) → (⟨S8x2048, .i1⟩ : BufTy).Contents (Elt F)),
    binary main_v17 main_v13 main_v46 (subf : (⟨S8x2048, .f32⟩ : BufTy).Contents (Elt F) → (⟨S8x2048, .f32⟩ : BufTy).Contents (Elt F) → (⟨S8x2048, .f32⟩ : BufTy).Contents (Elt F)),
    nullary main_cst_8 (constant S_ .f32 0x3F800000#32),
    unary main_cst_8 main_call4_v0 (id : (⟨S_, .f32⟩ : BufTy).Contents (Elt F) → (⟨S_, .f32⟩ : BufTy).Contents (Elt F)),
    unary main_call4_v0 main_call4_v1 ((broadcastInDim S8x2048 ![] bcast_S_S8x2048) : (⟨S_, .f32⟩ : BufTy).Contents (Elt F) → (⟨S8x2048, .f32⟩ : BufTy).Contents (Elt F)),
    ternary main_v34 main_v46 main_call4_v1 main_v47 (select : (⟨S8x2048, .i1⟩ : BufTy).Contents (Elt F) → (⟨S8x2048, .f32⟩ : BufTy).Contents (Elt F) → (⟨S8x2048, .f32⟩ : BufTy).Contents (Elt F) → (⟨S8x2048, .f32⟩ : BufTy).Contents (Elt F)),
    binary main_v17 main_v47 main_v48 (Host.divf : (⟨S8x2048, .f32⟩ : BufTy).Contents (Elt F) → (⟨S8x2048, .f32⟩ : BufTy).Contents (Elt F) → (⟨S8x2048, .f32⟩ : BufTy).Contents (Elt F)),
    nullary main_cst_9 (constant S_ .f32 0x00000000#32),
    unary main_cst_9 main_v49 (broadcastInDim S8x2048 ![] bcast_S_S8x2048 : (⟨S_, .f32⟩ : BufTy).Contents (Elt F) → (⟨S8x2048, .f32⟩ : BufTy).Contents (Elt F)),
    binary main_v17 main_v49 main_v50 (cmpf .olt : (⟨S8x2048, .f32⟩ : BufTy).Contents (Elt F) → (⟨S8x2048, .f32⟩ : BufTy).Contents (Elt F) → (⟨S8x2048, .i1⟩ : BufTy).Contents (Elt F)),
    nullary main_cst_10 (constant S_ .f32 0x00000000#32),
    unary main_cst_10 main_call5_v0 (id : (⟨S_, .f32⟩ : BufTy).Contents (Elt F) → (⟨S_, .f32⟩ : BufTy).Contents (Elt F)),
    unary main_call5_v0 main_call5_v1 ((broadcastInDim S8x2048 ![] bcast_S_S8x2048) : (⟨S_, .f32⟩ : BufTy).Contents (Elt F) → (⟨S8x2048, .f32⟩ : BufTy).Contents (Elt F)),
    ternary main_v50 main_call5_v1 main_v48 main_v51 (select : (⟨S8x2048, .i1⟩ : BufTy).Contents (Elt F) → (⟨S8x2048, .f32⟩ : BufTy).Contents (Elt F) → (⟨S8x2048, .f32⟩ : BufTy).Contents (Elt F) → (⟨S8x2048, .f32⟩ : BufTy).Contents (Elt F)),
    binary main_v27 main_v41 main_v52 (ori : (⟨S8x2048, .i1⟩ : BufTy).Contents (Elt F) → (⟨S8x2048, .i1⟩ : BufTy).Contents (Elt F) → (⟨S8x2048, .i1⟩ : BufTy).Contents (Elt F)),
    unary main_v52 main_v53 (broadcastInDim S8x2048x1 ![0, 1] bcast_S8x2048_S8x2048x1_0_1 : (⟨S8x2048, .i1⟩ : BufTy).Contents (Elt F) → (⟨S8x2048x1, .i1⟩ : BufTy).Contents (Elt F)),
    nullary main_cst_11 (constant S_ .f32 0x00000000#32),
    unary main_cst_11 main_call6_v0 (id : (⟨S_, .f32⟩ : BufTy).Contents (Elt F) → (⟨S_, .f32⟩ : BufTy).Contents (Elt F)),
    unary main_v53 main_call6_v1 ((broadcastInDim S8x2048x785 ![0, 1, 2] bcast_S8x2048x1_S8x2048x785_0_1_2) : (⟨S8x2048x1, .i1⟩ : BufTy).Contents (Elt F) → (⟨S8x2048x785, .i1⟩ : BufTy).Contents (Elt F)),
    unary main_call6_v0 main_call6_v2 ((broadcastInDim S8x2048x785 ![] bcast_S_S8x2048x785) : (⟨S_, .f32⟩ : BufTy).Contents (Elt F) → (⟨S8x2048x785, .f32⟩ : BufTy).Contents (Elt F)),
    ternary main_call6_v1 main_call6_v2 main_arg0 main_v54 (select : (⟨S8x2048x785, .i1⟩ : BufTy).Contents (Elt F) → (⟨S8x2048x785, .f32⟩ : BufTy).Contents (Elt F) → (⟨S8x2048x785, .f32⟩ : BufTy).Contents (Elt F) → (⟨S8x2048x785, .f32⟩ : BufTy).Contents (Elt F)),
    unary main_v45 main_v55 (broadcastInDim S8x2048x1 ![0, 1] bcast_S8x2048_S8x2048x1_0_1 : (⟨S8x2048, .i1⟩ : BufTy).Contents (Elt F) → (⟨S8x2048x1, .i1⟩ : BufTy).Contents (Elt F)),
    unary main_v51 main_v56 (broadcastInDim S8x2048x1 ![0, 1] bcast_S8x2048_S8x2048x1_0_1 : (⟨S8x2048, .f32⟩ : BufTy).Contents (Elt F) → (⟨S8x2048x1, .f32⟩ : BufTy).Contents (Elt F)),
    unary main_v56 main_v57 (broadcastInDim S8x2048x785 ![0, 1, 2] bcast_S8x2048x1_S8x2048x785_0_1_2 : (⟨S8x2048x1, .f32⟩ : BufTy).Contents (Elt F) → (⟨S8x2048x785, .f32⟩ : BufTy).Contents (Elt F)),
    binary main_v57 main_arg0 main_v58 (mulf : (⟨S8x2048x785, .f32⟩ : BufTy).Contents (Elt F) → (⟨S8x2048x785, .f32⟩ : BufTy).Contents (Elt F) → (⟨S8x2048x785, .f32⟩ : BufTy).Contents (Elt F)),
    unary main_v55 main_call7_v0 ((broadcastInDim S8x2048x785 ![0, 1, 2] bcast_S8x2048x1_S8x2048x785_0_1_2) : (⟨S8x2048x1, .i1⟩ : BufTy).Contents (Elt F) → (⟨S8x2048x785, .i1⟩ : BufTy).Contents (Elt F)),
    ternary main_call7_v0 main_v58 main_v54 main_v59 (select : (⟨S8x2048x785, .i1⟩ : BufTy).Contents (Elt F) → (⟨S8x2048x785, .f32⟩ : BufTy).Contents (Elt F) → (⟨S8x2048x785, .f32⟩ : BufTy).Contents (Elt F) → (⟨S8x2048x785, .f32⟩ : BufTy).Contents (Elt F)),
    nullary main_cst_12 (constant S_ .f32 0x00000000#32),
    unary main_cst_12 main_v60 (broadcastInDim S8x2048 ![] bcast_S_S8x2048 : (⟨S_, .f32⟩ : BufTy).Contents (Elt F) → (⟨S8x2048, .f32⟩ : BufTy).Contents (Elt F)),
    binary main_v25 main_v60 main_v61 (cmpf .ole : (⟨S8x2048, .f32⟩ : BufTy).Contents (Elt F) → (⟨S8x2048, .f32⟩ : BufTy).Contents (Elt F) → (⟨S8x2048, .i1⟩ : BufTy).Contents (Elt F)),
    binary main_v34 main_v61 main_v62 (andi : (⟨S8x2048, .i1⟩ : BufTy).Contents (Elt F) → (⟨S8x2048, .i1⟩ : BufTy).Contents (Elt F) → (⟨S8x2048, .i1⟩ : BufTy).Contents (Elt F)),
    binary main_v21 main_v25 main_v63 (subf : (⟨S8x2048, .f32⟩ : BufTy).Contents (Elt F) → (⟨S8x2048, .f32⟩ : BufTy).Contents (Elt F) → (⟨S8x2048, .f32⟩ : BufTy).Contents (Elt F)),
    nullary main_cst_13 (constant S_ .f32 0x3F800000#32),
    unary main_cst_13 main_call8_v0 (id : (⟨S_, .f32⟩ : BufTy).Contents (Elt F) → (⟨S_, .f32⟩ : BufTy).Contents (Elt F)),
    unary main_call8_v0 main_call8_v1 ((broadcastInDim S8x2048 ![] bcast_S_S8x2048) : (⟨S_, .f32⟩ : BufTy).Contents (Elt F) → (⟨S8x2048, .f32⟩ : BufTy).Contents (Elt F)),
    ternary main_v62 main_v63 main_call8_v1 main_v64 (select : (⟨S8x2048, .i1⟩ : BufTy).Contents (Elt F) → (⟨S8x2048, .f32⟩ : BufTy).Contents (Elt F) → (⟨S8x2048, .f32⟩ : BufTy).Contents (Elt F) → (⟨S8x2048, .f32⟩ : BufTy).Contents (Elt F)),
    binary main_v21 main_v64 main_v65 (Host.divf : (⟨S8x2048, .f32⟩ : BufTy).Contents (Elt F) → (⟨S8x2048, .f32⟩ : BufTy).Contents (Elt F) → (⟨S8x2048, .f32⟩ : BufTy).Contents (Elt F)),
    unary main_v27 main_v66 (broadcastInDim S8x2048x1 ![0, 1] bcast_S8x2048_S8x2048x1_0_1 : (⟨S8x2048, .i1⟩ : BufTy).Contents (Elt F) → (⟨S8x2048x1, .i1⟩ : BufTy).Contents (Elt F)),
    nullary main_cst_14 (constant S_ .f32 0x00000000#32),
    unary main_cst_14 main_call9_v0 (id : (⟨S_, .f32⟩ : BufTy).Contents (Elt F) → (⟨S_, .f32⟩ : BufTy).Contents (Elt F)),
    unary main_v66 main_call9_v1 ((broadcastInDim S8x2048x785 ![0, 1, 2] bcast_S8x2048x1_S8x2048x785_0_1_2) : (⟨S8x2048x1, .i1⟩ : BufTy).Contents (Elt F) → (⟨S8x2048x785, .i1⟩ : BufTy).Contents (Elt F)),
    unary main_call9_v0 main_call9_v2 ((broadcastInDim S8x2048x785 ![] bcast_S_S8x2048x785) : (⟨S_, .f32⟩ : BufTy).Contents (Elt F) → (⟨S8x2048x785, .f32⟩ : BufTy).Contents (Elt F)),
    ternary main_call9_v1 main_call9_v2 main_arg1 main_v67 (select : (⟨S8x2048x785, .i1⟩ : BufTy).Contents (Elt F) → (⟨S8x2048x785, .f32⟩ : BufTy).Contents (Elt F) → (⟨S8x2048x785, .f32⟩ : BufTy).Contents (Elt F) → (⟨S8x2048x785, .f32⟩ : BufTy).Contents (Elt F)),
    unary main_v62 main_v68 (broadcastInDim S8x2048x1 ![0, 1] bcast_S8x2048_S8x2048x1_0_1 : (⟨S8x2048, .i1⟩ : BufTy).Contents (Elt F) → (⟨S8x2048x1, .i1⟩ : BufTy).Contents (Elt F)),
    unary main_v65 main_v69 (broadcastInDim S8x2048x1 ![0, 1] bcast_S8x2048_S8x2048x1_0_1 : (⟨S8x2048, .f32⟩ : BufTy).Contents (Elt F) → (⟨S8x2048x1, .f32⟩ : BufTy).Contents (Elt F)),
    unary main_v69 main_v70 (broadcastInDim S8x2048x785 ![0, 1, 2] bcast_S8x2048x1_S8x2048x785_0_1_2 : (⟨S8x2048x1, .f32⟩ : BufTy).Contents (Elt F) → (⟨S8x2048x785, .f32⟩ : BufTy).Contents (Elt F)),
    binary main_v70 main_arg1 main_v71 (mulf : (⟨S8x2048x785, .f32⟩ : BufTy).Contents (Elt F) → (⟨S8x2048x785, .f32⟩ : BufTy).Contents (Elt F) → (⟨S8x2048x785, .f32⟩ : BufTy).Contents (Elt F)),
    unary main_v68 main_call10_v0 ((broadcastInDim S8x2048x785 ![0, 1, 2] bcast_S8x2048x1_S8x2048x785_0_1_2) : (⟨S8x2048x1, .i1⟩ : BufTy).Contents (Elt F) → (⟨S8x2048x785, .i1⟩ : BufTy).Contents (Elt F)),
    ternary main_call10_v0 main_v71 main_v67 main_v72 (select : (⟨S8x2048x785, .i1⟩ : BufTy).Contents (Elt F) → (⟨S8x2048x785, .f32⟩ : BufTy).Contents (Elt F) → (⟨S8x2048x785, .f32⟩ : BufTy).Contents (Elt F) → (⟨S8x2048x785, .f32⟩ : BufTy).Contents (Elt F)),
    binary main_v65 main_v25 main_v73 (mulf : (⟨S8x2048, .f32⟩ : BufTy).Contents (Elt F) → (⟨S8x2048, .f32⟩ : BufTy).Contents (Elt F) → (⟨S8x2048, .f32⟩ : BufTy).Contents (Elt F)),
    nullary main_cst_15 (constant S_ .f32 0x00000000#32),
    unary main_cst_15 main_call11_v0 (id : (⟨S_, .f32⟩ : BufTy).Contents (Elt F) → (⟨S_, .f32⟩ : BufTy).Contents (Elt F)),
    unary main_call11_v0 main_call11_v1 ((broadcastInDim S8x2048 ![] bcast_S_S8x2048) : (⟨S_, .f32⟩ : BufTy).Contents (Elt F) → (⟨S8x2048, .f32⟩ : BufTy).Contents (Elt F)),
    ternary main_v62 main_v73 main_call11_v1 main_v74 (select : (⟨S8x2048, .i1⟩ : BufTy).Contents (Elt F) → (⟨S8x2048, .f32⟩ : BufTy).Contents (Elt F) → (⟨S8x2048, .f32⟩ : BufTy).Contents (Elt F) → (⟨S8x2048, .f32⟩ : BufTy).Contents (Elt F)),
    unary main_v74 main_v75 (Host.negf : (⟨S8x2048, .f32⟩ : BufTy).Contents (Elt F) → (⟨S8x2048, .f32⟩ : BufTy).Contents (Elt F)),
    nullary main_c (constantI S_ 32 784#32),
    unary main_c main_v76 (broadcastInDim S1 ![] bcast_S_S1 : (⟨S_, .i32⟩ : BufTy).Contents (Elt F) → (⟨S1, .i32⟩ : BufTy).Contents (Elt F)),
    ternary main_v72 main_v76 main_v75 main_v77 ((fun x i u => Host.scatter scatter_S8x2048x785_S1_S8x2048_01_2_2_0 FloatOps.addf x i u) : (⟨S8x2048x785, .f32⟩ : BufTy).Contents (Elt F) → (⟨S1, .i32⟩ : BufTy).Contents (Elt F) → (⟨S8x2048, .f32⟩ : BufTy).Contents (Elt F) → (⟨S8x2048x785, .f32⟩ : BufTy).Contents (Elt F)),
    unary main_v59 main_v78 ((extractStridedSlice S8x2048x784 ![0, 0, 0] · slices_S8x2048x785_S8x2048x784_0_0_0) : (⟨S8x2048x785, .f32⟩ : BufTy).Contents (Elt F) → (⟨S8x2048x784, .f32⟩ : BufTy).Contents (Elt F)),
    unary main_v59 main_v79 ((extractStridedSlice S8x2048x1 ![0, 0, 784] · slices_S8x2048x785_S8x2048x1_0_0_784) : (⟨S8x2048x785, .f32⟩ : BufTy).Contents (Elt F) → (⟨S8x2048x1, .f32⟩ : BufTy).Contents (Elt F)),
    reshape main_v79 main_v80 rfl shapeCasts_S8x2048x1_S8x2048,
    unary main_v77 main_v81 ((extractStridedSlice S8x2048x784 ![0, 0, 0] · slices_S8x2048x785_S8x2048x784_0_0_0) : (⟨S8x2048x785, .f32⟩ : BufTy).Contents (Elt F) → (⟨S8x2048x784, .f32⟩ : BufTy).Contents (Elt F)),
    unary main_v77 main_v82 ((extractStridedSlice S8x2048x1 ![0, 0, 784] · slices_S8x2048x785_S8x2048x1_0_0_784) : (⟨S8x2048x785, .f32⟩ : BufTy).Contents (Elt F) → (⟨S8x2048x1, .f32⟩ : BufTy).Contents (Elt F)),
    reshape main_v82 main_v83 rfl shapeCasts_S8x2048x1_S8x2048,
    nullary main_cst_16 (constant S_ .f32 0x00000000#32),
    unary main_cst_16 main_call12_v0 (id : (⟨S_, .f32⟩ : BufTy).Contents (Elt F) → (⟨S_, .f32⟩ : BufTy).Contents (Elt F)),
    unary main_call12_v0 main_call12_v1 ((broadcastInDim S8x2048x784 ![] bcast_S_S8x2048x784) : (⟨S_, .f32⟩ : BufTy).Contents (Elt F) → (⟨S8x2048x784, .f32⟩ : BufTy).Contents (Elt F)),
    binary main_call12_v1 main_v78 main_v84 (maximumf : (⟨S8x2048x784, .f32⟩ : BufTy).Contents (Elt F) → (⟨S8x2048x784, .f32⟩ : BufTy).Contents (Elt F) → (⟨S8x2048x784, .f32⟩ : BufTy).Contents (Elt F)),
    nullary main_cst_17 (constant S_ .f32 0x00000000#32),
    unary main_cst_17 main_call13_v0 (id : (⟨S_, .f32⟩ : BufTy).Contents (Elt F) → (⟨S_, .f32⟩ : BufTy).Contents (Elt F)),
    unary main_call13_v0 main_call13_v1 ((broadcastInDim S8x2048x784 ![] bcast_S_S8x2048x784) : (⟨S_, .f32⟩ : BufTy).Contents (Elt F) → (⟨S8x2048x784, .f32⟩ : BufTy).Contents (Elt F)),
    binary main_call13_v1 main_v78 main_v85 (minimumf : (⟨S8x2048x784, .f32⟩ : BufTy).Contents (Elt F) → (⟨S8x2048x784, .f32⟩ : BufTy).Contents (Elt F) → (⟨S8x2048x784, .f32⟩ : BufTy).Contents (Elt F)),
    nullary main_cst_18 (constant S_ .f32 0x00000000#32),
    unary main_cst_18 main_call14_v0 (id : (⟨S_, .f32⟩ : BufTy).Contents (Elt F) → (⟨S_, .f32⟩ : BufTy).Contents (Elt F)),
    unary main_call14_v0 main_call14_v1 ((broadcastInDim S8x2048x784 ![] bcast_S_S8x2048x784) : (⟨S_, .f32⟩ : BufTy).Contents (Elt F) → (⟨S8x2048x784, .f32⟩ : BufTy).Contents (Elt F)),
    binary main_call14_v1 main_v81 main_v86 (maximumf : (⟨S8x2048x784, .f32⟩ : BufTy).Contents (Elt F) → (⟨S8x2048x784, .f32⟩ : BufTy).Contents (Elt F) → (⟨S8x2048x784, .f32⟩ : BufTy).Contents (Elt F)),
    nullary main_cst_19 (constant S_ .f32 0x00000000#32),
    unary main_cst_19 main_call15_v0 (id : (⟨S_, .f32⟩ : BufTy).Contents (Elt F) → (⟨S_, .f32⟩ : BufTy).Contents (Elt F)),
    unary main_call15_v0 main_call15_v1 ((broadcastInDim S8x2048x784 ![] bcast_S_S8x2048x784) : (⟨S_, .f32⟩ : BufTy).Contents (Elt F) → (⟨S8x2048x784, .f32⟩ : BufTy).Contents (Elt F)),
    binary main_call15_v1 main_v81 main_v87 (minimumf : (⟨S8x2048x784, .f32⟩ : BufTy).Contents (Elt F) → (⟨S8x2048x784, .f32⟩ : BufTy).Contents (Elt F) → (⟨S8x2048x784, .f32⟩ : BufTy).Contents (Elt F)),
    binary main_v84 main_arg2 main_v88 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v85 main_arg3 main_v89 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v88 main_v89 main_v90 (addf : (⟨S8x2048, .f32⟩ : BufTy).Contents (Elt F) → (⟨S8x2048, .f32⟩ : BufTy).Contents (Elt F) → (⟨S8x2048, .f32⟩ : BufTy).Contents (Elt F)),
    binary main_v90 main_v80 main_v91 (addf : (⟨S8x2048, .f32⟩ : BufTy).Contents (Elt F) → (⟨S8x2048, .f32⟩ : BufTy).Contents (Elt F) → (⟨S8x2048, .f32⟩ : BufTy).Contents (Elt F)),
    binary main_v84 main_arg3 main_v92 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v85 main_arg2 main_v93 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v92 main_v93 main_v94 (addf : (⟨S8x2048, .f32⟩ : BufTy).Contents (Elt F) → (⟨S8x2048, .f32⟩ : BufTy).Contents (Elt F) → (⟨S8x2048, .f32⟩ : BufTy).Contents (Elt F)),
    binary main_v94 main_v80 main_v95 (addf : (⟨S8x2048, .f32⟩ : BufTy).Contents (Elt F) → (⟨S8x2048, .f32⟩ : BufTy).Contents (Elt F) → (⟨S8x2048, .f32⟩ : BufTy).Contents (Elt F)),
    binary main_v86 main_arg3 main_v96 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v87 main_arg2 main_v97 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v96 main_v97 main_v98 (addf : (⟨S8x2048, .f32⟩ : BufTy).Contents (Elt F) → (⟨S8x2048, .f32⟩ : BufTy).Contents (Elt F) → (⟨S8x2048, .f32⟩ : BufTy).Contents (Elt F)),
    binary main_v98 main_v83 main_v99 (addf : (⟨S8x2048, .f32⟩ : BufTy).Contents (Elt F) → (⟨S8x2048, .f32⟩ : BufTy).Contents (Elt F) → (⟨S8x2048, .f32⟩ : BufTy).Contents (Elt F)),
    binary main_v86 main_arg2 main_v100 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v87 main_arg3 main_v101 ((fun l r => Host.dotGeneral dot_S8x2048x784_S784_S8x2048_2_0_01_n_n_n none l r) : (⟨S8x2048x784, .f32⟩ : BufTy).Contents (Elt F) → (⟨S784, .f32⟩ : BufTy).Contents (Elt F) → (⟨S8x2048, .f32⟩ : BufTy).Contents (Elt F)),
    binary main_v100 main_v101 main_v102 (addf : (⟨S8x2048, .f32⟩ : BufTy).Contents (Elt F) → (⟨S8x2048, .f32⟩ : BufTy).Contents (Elt F) → (⟨S8x2048, .f32⟩ : BufTy).Contents (Elt F)),
    binary main_v102 main_v83 main_v103 (addf : (⟨S8x2048, .f32⟩ : BufTy).Contents (Elt F) → (⟨S8x2048, .f32⟩ : BufTy).Contents (Elt F) → (⟨S8x2048, .f32⟩ : BufTy).Contents (Elt F)) ]

set_option maxRecDepth 8192 in
set_option maxHeartbeats 4000000 in
/-- The program is that line of operations. -/
theorem main_eqV (c : Dev nD) : main (F := F) c = seq opsV := rfl

set_option maxRecDepth 8192 in
/-- Every buffer the line names is a buffer of the device. -/
theorem ops_subV : (opsV : List (HloOp τ sig (Elt F))).Forall fun op => op.bufs ⊆ tcRefs τ sig :=
  ⟨unary_bufs_sub .., unary_bufs_sub .., reshape_bufs_sub .., unary_bufs_sub .., unary_bufs_sub .., reshape_bufs_sub .., nullary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., unary_bufs_sub .., ternary_bufs_sub .., binary_bufs_sub .., unary_bufs_sub .., nullary_bufs_sub .., unary_bufs_sub .., unary_bufs_sub .., unary_bufs_sub .., ternary_bufs_sub .., unary_bufs_sub .., unary_bufs_sub .., unary_bufs_sub .., binary_bufs_sub .., unary_bufs_sub .., ternary_bufs_sub .., nullary_bufs_sub .., unary_bufs_sub .., binary_bufs_sub .., binary_bufs_sub .., binary_bufs_sub .., nullary_bufs_sub .., unary_bufs_sub .., unary_bufs_sub .., ternary_bufs_sub .., binary_bufs_sub .., unary_bufs_sub .., nullary_bufs_sub .., unary_bufs_sub .., unary_bufs_sub .., unary_bufs_sub .., ternary_bufs_sub .., unary_bufs_sub .., unary_bufs_sub .., unary_bufs_sub .., binary_bufs_sub .., unary_bufs_sub .., ternary_bufs_sub .., binary_bufs_sub .., nullary_bufs_sub .., unary_bufs_sub .., unary_bufs_sub .., ternary_bufs_sub .., unary_bufs_sub .., nullary_bufs_sub .., unary_bufs_sub .., ternary_bufs_sub .., unary_bufs_sub .., unary_bufs_sub .., reshape_bufs_sub .., unary_bufs_sub .., unary_bufs_sub .., reshape_bufs_sub .., nullary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., nullary_bufs_sub .., unary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub ..⟩

set_option maxRecDepth 8192 in
set_option maxHeartbeats 63200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = res_main_v59 m c
      ∧ r.2.mem ((c.tc : Thread nD τ).loc main_v77) = res_main_v77 m c
      ∧ r.2.mem ((c.tc : Thread nD τ).loc main_v91) = res_main_v91 m c
      ∧ r.2.mem ((c.tc : Thread nD τ).loc main_v99) = res_main_v99 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v59).trans (by after_results_simp <;> rfl <;> (unfold res_main_v59; rfl)),
      (h c main_v77).trans (by after_results_simp <;> rfl <;> (unfold res_main_v77; rfl)),
      (h c main_v91).trans (by after_results_simp <;> rfl <;> (unfold res_main_v91; rfl)),
      (h c main_v99).trans (by after_results_simp <;> rfl <;> (unfold res_main_v99; rfl)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => opsV) main_eqV (fun _ => ops_subV) m ρ)

end Cert.Proof.RefRun

end
-- ==== Proof.RefScatter.lean ====
/-
  A scatter that adds one number per row into one fixed column, read at an entry.

  The host's scatter is a left fold over the update entries in row-major order: each update entry is sent to a
  result entry (or dropped) and the body combines what is there with the update. When no update entry is sent to
  `i` the fold leaves entry `i` as it was; when exactly one is, the fold leaves the body applied to the old entry
  and that update — whatever the order of the fold. Here the operand is an array of 8 × 2048 rows of 785 columns,
  the updates are one number per row, and the one scatter index says "column 784": update `(a, b)` is sent to
  entry `(a, b, 784)`, so column 784 of every row receives its row's update and every other column is untouched.
-/
import Idealize.ShloMosaic.PureOps.Ideal
import Idealize.ShloMosaic.Lib.ValueIdx

noncomputable section

open Idealize.ShloMosaic Idealize.ShloMosaic.ValueIdx

namespace Cert.Proof.RefScatter

/-! ## The fold, one entry at a time -/

section Fold
variable {ι β α : Type}

/-- Entry `i` is untouched by a fold none of whose steps touches it: `st` is the step, `g n` the entry update `n`
    is sent to. -/
theorem foldl_miss (st : (ι → α) → β → (ι → α)) (g : β → Option ι) (i : ι)
    (hmiss : ∀ r n, g n ≠ some i → st r n i = r i)
    (l : List β) (x : ι → α) (h : ∀ n ∈ l, g n ≠ some i) : (l.foldl st x) i = x i := by
  induction l generalizing x with
  | nil => rfl
  | cons n t ih =>
    rw [List.foldl_cons, ih _ (fun m hm => h m (List.mem_cons.2 (Or.inr hm)))]
    exact hmiss x n (h n (List.mem_cons.2 (Or.inl rfl)))

/-- Entry `i` after a fold exactly one of whose updates, `n0`, is sent to it: the body of the old entry and
    that update. -/
theorem foldl_hit (st : (ι → α) → β → (ι → α)) (g : β → Option ι) (f : α → α → α) (upd : β → α) (i : ι)
    (hmiss : ∀ r n, g n ≠ some i → st r n i = r i)
    (hhit : ∀ r n, g n = some i → st r n i = f (r i) (upd n))
    (l : List β) (hl : l.Nodup) (x : ι → α) (n0 : β) (hn0 : n0 ∈ l) (hg0 : g n0 = some i)
    (huniq : ∀ n ∈ l, g n = some i → n = n0) :
    (l.foldl st x) i = f (x i) (upd n0) := by
  induction l generalizing x with
  | nil => exact absurd hn0 (List.not_mem_nil)
  | cons n t ih =>
    rw [List.foldl_cons]
    have hnd := List.nodup_cons.1 hl
    by_cases hn : n = n0
    · subst hn
      rw [foldl_miss st g i hmiss t _ (fun m hm hgm =>
        hnd.1 ((huniq m (List.mem_cons.2 (Or.inr hm)) hgm) ▸ hm))]
      exact hhit x n hg0
    · have hmem : n0 ∈ t := (List.mem_cons.1 hn0).resolve_left (fun e => hn e.symm)
      rw [ih hnd.2 _ hmem (fun m hm => huniq m (List.mem_cons.2 (Or.inr hm)))]
      rw [hmiss x n (fun hgn => hn (huniq n (List.mem_cons.2 (Or.inl rfl)) hgn))]

end Fold

/-! ## The host's scatter at an entry -/

section Generic
variable {s si u : Shape} {α : Type} {w : Nat}

/-- An entry no update is sent to is the operand's. -/
theorem scatter_apply_miss (d : ScatterDims s si u) (f : α → α → α) (x : s.Idx → α) (idx : IVec si w) (upd : u.Idx → α)
    (i : s.Idx) (hno : ∀ j, d.resultIdx? j idx ≠ some i) : Host.scatter d f x idx upd i = x i := by
  unfold Host.scatter
  refine foldl_miss _ (fun n => d.resultIdx? (u.rowMajor.symm n) idx) i ?_ _ x (fun n _ => hno _)
  intro r n hn
  have hn' : d.resultIdx? (u.rowMajor.symm n) idx ≠ some i := hn
  clear hn
  revert hn'
  generalize d.resultIdx? (u.rowMajor.symm n) idx = o
  intro hn'
  cases o with
  | none => rfl
  | some i0 => exact if_neg (fun e => hn' (congrArg some e.symm))

/-- An entry exactly one update, `j0`, is sent to is the body of the operand's entry and that update. -/
theorem scatter_apply_hit (d : ScatterDims s si u) (f : α → α → α) (x : s.Idx → α) (idx : IVec si w) (upd : u.Idx → α)
    (i : s.Idx) (j0 : u.Idx) (h0 : d.resultIdx? j0 idx = some i) (huniq : ∀ j, d.resultIdx? j idx = some i → j = j0) :
    Host.scatter d f x idx upd i = f (x i) (upd j0) := by
  unfold Host.scatter
  refine (foldl_hit _ (fun n => d.resultIdx? (u.rowMajor.symm n) idx) f (fun n => upd (u.rowMajor.symm n)) i ?_ ?_ _
    (List.nodup_finRange _) x (u.rowMajor j0) (List.mem_finRange _) ?_ ?_).trans ?_
  · intro r n hn
    have hn' : d.resultIdx? (u.rowMajor.symm n) idx ≠ some i := hn
    clear hn
    revert hn'
    generalize d.resultIdx? (u.rowMajor.symm n) idx = o
    intro hn'
    cases o with
    | none => rfl
    | some i0 => exact if_neg (fun e => hn' (congrArg some e.symm))
  · intro r n hn
    have hn' : d.resultIdx? (u.rowMajor.symm n) idx = some i := hn
    clear hn
    revert hn'
    generalize d.resultIdx? (u.rowMajor.symm n) idx = o
    intro hn'
    subst hn'
    exact if_pos rfl
  · show d.resultIdx? (u.rowMajor.symm (u.rowMajor j0)) idx = some i
    rw [Equiv.symm_apply_apply]; exact h0
  · intro n _ hn
    have hn' : d.resultIdx? (u.rowMajor.symm n) idx = some i := hn
    exact (Equiv.symm_apply_eq _).1 (huniq _ hn')
  · show f (x i) (upd (u.rowMajor.symm (u.rowMajor j0))) = _
    rw [Equiv.symm_apply_apply]

end Generic

/-! ## One update per row into column 784 -/

/-- 8 × 2048 rows of 785 columns. -/
abbrev S3 : Shape := ⟨3, ![8, 2048, 785]⟩
/-- The one scatter index. -/
abbrev SI : Shape := ⟨1, ![1]⟩
/-- One entry per row. -/
abbrev S2 : Shape := ⟨2, ![8, 2048]⟩

/-- The last of the 785 columns. -/
abbrev lastCol : Fin 785 := ⟨784, by decide⟩

/-- The dimension numbers: the updates' two axes are the operand's first two, the operand's third axis is the
    scattered one, its coordinate read off the one index. -/
abbrev colDims (h : ScatterDims.WF S3 SI S2 [0, 1] [2] [2] 0) : ScatterDims S3 SI S2 where
  updateWindowDims := [0, 1]
  insertedWindowDims := [2]
  scatterDimsToOperandDims := [2]
  indexVectorDim := 0
  wf := h

variable (h : ScatterDims.WF S3 SI S2 [0, 1] [2] [2] 0)

/-- The scattered axis is the third one only. -/
theorem not_mem0 : ¬ (0 : Fin S3.rank) ∈ (colDims h).scatterDimsToOperandDims := by
  show ¬ (0 : Fin S3.rank) ∈ ([2] : List (Fin S3.rank)); decide
theorem not_mem1 : ¬ (1 : Fin S3.rank) ∈ (colDims h).scatterDimsToOperandDims := by
  show ¬ (1 : Fin S3.rank) ∈ ([2] : List (Fin S3.rank)); decide
theorem mem2 : (2 : Fin S3.rank) ∈ (colDims h).scatterDimsToOperandDims := by
  show (2 : Fin S3.rank) ∈ ([2] : List (Fin S3.rank)); decide
/-- The window axes are the first two. -/
theorem kept0 : (0 : Fin S3.rank) ∈ (colDims h).sKept := by
  show (0 : Fin S3.rank) ∈ S3.kept ([2] : List (Fin S3.rank)); decide
theorem kept1 : (1 : Fin S3.rank) ∈ (colDims h).sKept := by
  show (1 : Fin S3.rank) ∈ S3.kept ([2] : List (Fin S3.rank)); decide
theorem not_kept2 : ¬ (2 : Fin S3.rank) ∈ (colDims h).sKept := by
  show ¬ (2 : Fin S3.rank) ∈ S3.kept ([2] : List (Fin S3.rank)); decide

theorem start0 (j : S2.Idx) (idx : IVec SI 32) : (colDims h).start j idx 0 = 0 := by
  unfold ScatterDims.start; rw [dif_neg (not_mem0 h)]
theorem start1 (j : S2.Idx) (idx : IVec SI 32) : (colDims h).start j idx 1 = 0 := by
  unfold ScatterDims.start; rw [dif_neg (not_mem1 h)]
theorem start2 (j : S2.Idx) (idx : IVec SI 32) (hidx : ∀ q, idx q = 784#32) : (colDims h).start j idx 2 = 784 := by
  unfold ScatterDims.start; rw [dif_pos (mem2 h), hidx]; rfl
theorem window0 (j : S2.Idx) : (colDims h).window j 0 = (j 0).val := by
  unfold ScatterDims.window; rw [dif_pos (kept0 h)]; rfl
theorem window1 (j : S2.Idx) : (colDims h).window j 1 = (j 1).val := by
  unfold ScatterDims.window; rw [dif_pos (kept1 h)]; rfl
theorem window2 (j : S2.Idx) : (colDims h).window j 2 = 0 := by
  unfold ScatterDims.window; rw [dif_neg (not_kept2 h)]

/-- Update `j` is sent to column 784 of row `j`. -/
theorem resultIdx_col (idx : IVec SI 32) (hidx : ∀ q, idx q = 784#32) (j : S2.Idx) :
    (colDims h).resultIdx? j idx = some (ix3 (j 0) (j 1) lastCol) := by
  have h0 := idx2_lt0 j
  have h1 := idx2_lt1 j
  have hin : ∀ a, 0 ≤ (colDims h).start j idx a + (colDims h).window j a
      ∧ (colDims h).start j idx a + (colDims h).window j a < S3.size a := fun a =>
    match a with
    | ⟨0, _⟩ => by
      show 0 ≤ (colDims h).start j idx 0 + ((colDims h).window j 0 : Int) ∧ (colDims h).start j idx 0 + ((colDims h).window j 0 : Int) < (8 : Int)
      rw [start0, window0]; omega
    | ⟨1, _⟩ => by
      show 0 ≤ (colDims h).start j idx 1 + ((colDims h).window j 1 : Int) ∧ (colDims h).start j idx 1 + ((colDims h).window j 1 : Int) < (2048 : Int)
      rw [start1, window1]; omega
    | ⟨2, _⟩ => by
      show 0 ≤ (colDims h).start j idx 2 + ((colDims h).window j 2 : Int) ∧ (colDims h).start j idx 2 + ((colDims h).window j 2 : Int) < (785 : Int)
      rw [start2 h j idx hidx, window2]; omega
  unfold ScatterDims.resultIdx?
  rw [dif_pos hin]
  congr 1
  funext a
  match a with
  | ⟨0, _⟩ => exact Fin.ext (by show ((colDims h).start j idx 0 + ((colDims h).window j 0 : Int)).toNat = (j 0).val; rw [start0, window0]; omega)
  | ⟨1, _⟩ => exact Fin.ext (by show ((colDims h).start j idx 1 + ((colDims h).window j 1 : Int)).toNat = (j 1).val; rw [start1, window1]; omega)
  | ⟨2, _⟩ => exact Fin.ext (by show ((colDims h).start j idx 2 + ((colDims h).window j 2 : Int)).toNat = 784; rw [start2 h j idx hidx, window2]; omega)

/-- The scatter at an entry: column 784 of row `(a, b)` is the body of the old entry and the row's update; every
    other entry is the old one. -/
theorem scatter_col_apply {α : Type} (f : α → α → α) (x : S3.Idx → α) (idx : IVec SI 32) (hidx : ∀ q, idx q = 784#32)
    (upd : S2.Idx → α) (a : Fin 8) (b : Fin 2048) (c : Fin 785) :
    Host.scatter (colDims h) f x idx upd (ix3 a b c)
      = if c = lastCol then f (x (ix3 a b c)) (upd (ix2 a b)) else x (ix3 a b c) := by
  by_cases hc : c = lastCol
  · subst hc
    rw [if_pos rfl]
    refine scatter_apply_hit (colDims h) f x idx upd (ix3 a b lastCol) (ix2 a b) ?_ ?_
    · rw [resultIdx_col h idx hidx]; rfl
    · intro j hj
      rw [resultIdx_col h idx hidx] at hj
      have e := Option.some.inj hj
      have e0 : j 0 = a := congrFun e 0
      have e1 : j 1 = b := congrFun e 1
      subst e0
      subst e1
      exact eq_ix2 j
  · rw [if_neg hc]
    refine scatter_apply_miss (colDims h) f x idx upd (ix3 a b c) (fun j hj => ?_)
    rw [resultIdx_col h idx hidx] at hj
    have e2 : lastCol = c := congrFun (Option.some.inj hj) 2
    exact hc e2.symm

end Cert.Proof.RefScatter

end
-- ==== Proof.RefValue.lean ====
/-
  The reference's four results are the functions of Proof/RefSpec.lean, entry by entry.

  The reference is a straight line of array operations; each stage is read at an entry from the stages before it.
  A slice of the first 784 columns reads column `k` of the row, the slice of column 784 (reshaped to one number per
  row) reads the bias; a contraction of a row's clipped coefficients with a corner of the box is the sum over the
  784 coefficients; the four bounds are two such sums and the bias. The comparisons' bits are the order relations
  between those bounds, so each row's flags are the propositions of the specification and each select is the choice
  on its flag. The new lower forms are the rows rescaled by `aL`, set to zero, or kept; the new upper forms
  likewise with `aU`, and the scatter adds `-biasAdj` to column 784 of every row and to nothing else. The last two
  results bound the new forms over the box in the same way.
-/
import proofs.«214425_g62758062129325_cont_9to1_m_981_19_alg».proof.Proof.RefReadP
import proofs.«214425_g62758062129325_cont_9to1_m_981_19_alg».proof.Proof.RefSpec
import proofs.«214425_g62758062129325_cont_9to1_m_981_19_alg».proof.Proof.RefScatter

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.ReadP Cert.Proof.RefSpec

namespace Cert.Proof.RefValue

/-- Two rank-3 indices with the same three coordinates are one index. -/
local macro "idx3" : tactic =>
  `(tactic| (funext d; match d with | ⟨0, _⟩ => rfl | ⟨1, _⟩ => rfl | ⟨2, _⟩ => rfl))
/-- The same at rank 2. -/
local macro "idx2" : tactic =>
  `(tactic| (funext d; match d with | ⟨0, _⟩ => rfl | ⟨1, _⟩ => rfl))
/-- The same at rank 1. -/
local macro "idx1" : tactic =>
  `(tactic| (funext d; match d with | ⟨0, _⟩ => rfl))

variable (l u : (⟨S8x2048x785, .f32⟩ : BufTy).Contents (Elt Ideal)) (inl inu : (⟨S784, .f32⟩ : BufTy).Contents (Elt Ideal))
variable (a : Fin 8) (b : Fin 2048)

/-! ## Constants broadcast to every entry -/

theorem v26_at (i : S8x2048.Idx) : val_main_v26 (F := Ideal) i = zeroW := by
  rw [val_main_v26_apply, val_main_cst_3_apply] <;> rfl
theorem v28_at (i : S8x2048.Idx) : val_main_v28 (F := Ideal) i = zeroW := by
  rw [val_main_v28_apply, val_main_cst_4_apply] <;> rfl
theorem v30_at (i : S8x2048.Idx) : val_main_v30 (F := Ideal) i = zeroW := by
  rw [val_main_v30_apply, val_main_cst_5_apply] <;> rfl
theorem v32_at (i : S8x2048.Idx) : val_main_v32 (F := Ideal) i = zeroW := by
  rw [val_main_v32_apply, val_main_cst_6_apply] <;> rfl
theorem v38_at (i : S8x2048.Idx) : val_main_v38 (F := Ideal) i = zeroW := by
  rw [val_main_v38_apply, val_main_cst_7_apply] <;> rfl
theorem v49_at (i : S8x2048.Idx) : val_main_v49 (F := Ideal) i = zeroW := by
  rw [val_main_v49_apply, val_main_cst_9_apply] <;> rfl
theorem v60_at (i : S8x2048.Idx) : val_main_v60 (F := Ideal) i = zeroW := by
  rw [val_main_v60_apply, val_main_cst_12_apply] <;> rfl
theorem call4_v1_at (i : S8x2048.Idx) : val_main_call4_v1 (F := Ideal) i = oneW := by
  rw [val_main_call4_v1_apply, val_main_call4_v0_apply, val_main_cst_8_apply] <;> rfl
theorem call5_v1_at (i : S8x2048.Idx) : val_main_call5_v1 (F := Ideal) i = zeroW := by
  rw [val_main_call5_v1_apply, val_main_call5_v0_apply, val_main_cst_10_apply] <;> rfl
theorem call8_v1_at (i : S8x2048.Idx) : val_main_call8_v1 (F := Ideal) i = oneW := by
  rw [val_main_call8_v1_apply, val_main_call8_v0_apply, val_main_cst_13_apply] <;> rfl
theorem call11_v1_at (i : S8x2048.Idx) : val_main_call11_v1 (F := Ideal) i = zeroW := by
  rw [val_main_call11_v1_apply, val_main_call11_v0_apply, val_main_cst_15_apply] <;> rfl
theorem call6_v2_at (i : S8x2048x785.Idx) : val_main_call6_v2 (F := Ideal) i = zeroW := by
  rw [val_main_call6_v2_apply, val_main_call6_v0_apply, val_main_cst_11_apply] <;> rfl
theorem call9_v2_at (i : S8x2048x785.Idx) : val_main_call9_v2 (F := Ideal) i = zeroW := by
  rw [val_main_call9_v2_apply, val_main_call9_v0_apply, val_main_cst_14_apply] <;> rfl

/-! ## The clipped coefficients and the bias of a row -/

theorem v6_at (k : Fin 784) : val_main_v6 (F := Ideal) l (ix3 a b k) = max zeroW (l (ix3 a b (coef k))) := by
  have e : idx_main_v0 (ix3 a b k) = ix3 a b (coef k) := by idx3
  rw [val_main_v6_apply, val_main_call0_v1_apply, val_main_call0_v0_apply, val_main_cst_apply, val_main_v0_apply, e] <;> rfl
theorem v7_at (k : Fin 784) : val_main_v7 (F := Ideal) l (ix3 a b k) = min zeroW (l (ix3 a b (coef k))) := by
  have e : idx_main_v0 (ix3 a b k) = ix3 a b (coef k) := by idx3
  rw [val_main_v7_apply, val_main_call1_v1_apply, val_main_call1_v0_apply, val_main_cst_0_apply, val_main_v0_apply, e] <;> rfl
theorem v8_at (k : Fin 784) : val_main_v8 (F := Ideal) u (ix3 a b k) = max zeroW (u (ix3 a b (coef k))) := by
  have e : idx_main_v3 (ix3 a b k) = ix3 a b (coef k) := by idx3
  rw [val_main_v8_apply, val_main_call2_v1_apply, val_main_call2_v0_apply, val_main_cst_1_apply, val_main_v3_apply, e] <;> rfl
theorem v9_at (k : Fin 784) : val_main_v9 (F := Ideal) u (ix3 a b k) = min zeroW (u (ix3 a b (coef k))) := by
  have e : idx_main_v3 (ix3 a b k) = ix3 a b (coef k) := by idx3
  rw [val_main_v9_apply, val_main_call3_v1_apply, val_main_call3_v0_apply, val_main_cst_2_apply, val_main_v3_apply, e] <;> rfl
theorem v2_at : val_main_v2 (F := Ideal) l (ix2 a b) = l (ix3 a b bias) := by
  have ha := a.isLt
  have hb := b.isLt
  have e : idx_main_v1 (idx_main_v2 (ix2 a b)) = ix3 a b bias := by
    funext d
    match d with
    | ⟨0, _⟩ => exact Fin.ext (by show (a.val * 2048 + b.val) / 2048 = a.val; omega)
    | ⟨1, _⟩ => exact Fin.ext (by show (a.val * 2048 + b.val) / 1 % 2048 = b.val; omega)
    | ⟨2, _⟩ => rfl
  rw [val_main_v2_apply, val_main_v1_apply, e]
theorem v5_at : val_main_v5 (F := Ideal) u (ix2 a b) = u (ix3 a b bias) := by
  have ha := a.isLt
  have hb := b.isLt
  have e : idx_main_v4 (idx_main_v5 (ix2 a b)) = ix3 a b bias := by
    funext d
    match d with
    | ⟨0, _⟩ => exact Fin.ext (by show (a.val * 2048 + b.val) / 2048 = a.val; omega)
    | ⟨1, _⟩ => exact Fin.ext (by show (a.val * 2048 + b.val) / 1 % 2048 = b.val; omega)
    | ⟨2, _⟩ => rfl
  rw [val_main_v5_apply, val_main_v4_apply, e]

/-! ## The eight contractions and the four bounds -/

theorem v10_at : val_main_v10 (F := Ideal) l inl (ix2 a b)
    = ∑ k : Fin 784, max zeroW (l (ix3 a b (coef k))) * inl (ix1 k) := by
  rw [val_main_v10_apply]
  refine Finset.sum_congr rfl (fun k _ => ?_)
  have e1 : lidx_main_v10 (ix2 a b) k = ix3 a b k := by idx3
  have e2 : ridx_main_v10 (ix2 a b) k = ix1 k := by idx1
  rw [e1, e2, v6_at]
theorem v11_at : val_main_v11 (F := Ideal) l inu (ix2 a b)
    = ∑ k : Fin 784, min zeroW (l (ix3 a b (coef k))) * inu (ix1 k) := by
  rw [val_main_v11_apply]
  refine Finset.sum_congr rfl (fun k _ => ?_)
  have e1 : lidx_main_v11 (ix2 a b) k = ix3 a b k := by idx3
  have e2 : ridx_main_v11 (ix2 a b) k = ix1 k := by idx1
  rw [e1, e2, v7_at]
theorem v14_at : val_main_v14 (F := Ideal) l inu (ix2 a b)
    = ∑ k : Fin 784, max zeroW (l (ix3 a b (coef k))) * inu (ix1 k) := by
  rw [val_main_v14_apply]
  refine Finset.sum_congr rfl (fun k _ => ?_)
  have e1 : lidx_main_v14 (ix2 a b) k = ix3 a b k := by idx3
  have e2 : ridx_main_v14 (ix2 a b) k = ix1 k := by idx1
  rw [e1, e2, v6_at]
theorem v15_at : val_main_v15 (F := Ideal) l inl (ix2 a b)
    = ∑ k : Fin 784, min zeroW (l (ix3 a b (coef k))) * inl (ix1 k) := by
  rw [val_main_v15_apply]
  refine Finset.sum_congr rfl (fun k _ => ?_)
  have e1 : lidx_main_v15 (ix2 a b) k = ix3 a b k := by idx3
  have e2 : ridx_main_v15 (ix2 a b) k = ix1 k := by idx1
  rw [e1, e2, v7_at]
theorem v18_at : val_main_v18 (F := Ideal) u inu (ix2 a b)
    = ∑ k : Fin 784, max zeroW (u (ix3 a b (coef k))) * inu (ix1 k) := by
  rw [val_main_v18_apply]
  refine Finset.sum_congr rfl (fun k _ => ?_)
  have e1 : lidx_main_v18 (ix2 a b) k = ix3 a b k := by idx3
  have e2 : ridx_main_v18 (ix2 a b) k = ix1 k := by idx1
  rw [e1, e2, v8_at]
theorem v19_at : val_main_v19 (F := Ideal) u inl (ix2 a b)
    = ∑ k : Fin 784, min zeroW (u (ix3 a b (coef k))) * inl (ix1 k) := by
  rw [val_main_v19_apply]
  refine Finset.sum_congr rfl (fun k _ => ?_)
  have e1 : lidx_main_v19 (ix2 a b) k = ix3 a b k := by idx3
  have e2 : ridx_main_v19 (ix2 a b) k = ix1 k := by idx1
  rw [e1, e2, v9_at]
theorem v22_at : val_main_v22 (F := Ideal) u inl (ix2 a b)
    = ∑ k : Fin 784, max zeroW (u (ix3 a b (coef k))) * inl (ix1 k) := by
  rw [val_main_v22_apply]
  refine Finset.sum_congr rfl (fun k _ => ?_)
  have e1 : lidx_main_v22 (ix2 a b) k = ix3 a b k := by idx3
  have e2 : ridx_main_v22 (ix2 a b) k = ix1 k := by idx1
  rw [e1, e2, v8_at]
theorem v23_at : val_main_v23 (F := Ideal) u inu (ix2 a b)
    = ∑ k : Fin 784, min zeroW (u (ix3 a b (coef k))) * inu (ix1 k) := by
  rw [val_main_v23_apply]
  refine Finset.sum_congr rfl (fun k _ => ?_)
  have e1 : lidx_main_v23 (ix2 a b) k = ix3 a b k := by idx3
  have e2 : ridx_main_v23 (ix2 a b) k = ix1 k := by idx1
  rw [e1, e2, v9_at]
theorem v13_at : val_main_v13 (F := Ideal) l inl inu (ix2 a b) = concLb l u inl inu a b := by
  rw [val_main_v13_apply, val_main_v12_apply, v10_at, v11_at, v2_at] <;> rfl
theorem v17_at : val_main_v17 (F := Ideal) l inl inu (ix2 a b) = maxLb l u inl inu a b := by
  rw [val_main_v17_apply, val_main_v16_apply, v14_at, v15_at, v2_at] <;> rfl
theorem v21_at : val_main_v21 (F := Ideal) u inl inu (ix2 a b) = concUb l u inl inu a b := by
  rw [val_main_v21_apply, val_main_v20_apply, v18_at, v19_at, v5_at] <;> rfl
theorem v25_at : val_main_v25 (F := Ideal) u inl inu (ix2 a b) = minUb l u inl inu a b := by
  rw [val_main_v25_apply, val_main_v24_apply, v22_at, v23_at, v5_at] <;> rfl

/-! ## The flags of a row -/

theorem v27_iff : val_main_v27 (F := Ideal) u inl inu (ix2 a b) = 1#1 ↔ inactive l u inl inu a b := by
  rw [val_main_v27_apply, v26_at, v21_at l u inl inu a b]
  exact cmpf_ole _ _
theorem v34_iff : val_main_v34 (F := Ideal) l u inl inu (ix2 a b) = 1#1 ↔ unstable l u inl inu a b := by
  rw [val_main_v34_apply, andi_one, val_main_v31_apply, val_main_v33_apply, v30_at, v32_at,
    v13_at l u inl inu a b, v21_at l u inl inu a b]
  exact and_congr (cmpf_olt _ _) (cmpf_ogt _ _)
theorem v41_iff : val_main_v41 (F := Ideal) l u inl inu (ix2 a b) = 1#1 ↔ mostlyInactive l u inl inu a b := by
  rw [val_main_v41_apply, andi_one, v34_iff, val_main_v40_apply, ori_one, val_main_v37_apply, val_main_v35_apply,
    val_main_v36_apply, val_main_v39_apply, v38_at, v13_at l u inl inu a b, v21_at l u inl inu a b, v17_at l u inl inu a b]
  exact and_congr Iff.rfl (or_congr (cmpf_ogt _ _) (cmpf_ole _ _))
theorem v45_iff : val_main_v45 (F := Ideal) l u inl inu (ix2 a b) = 1#1 ↔ mostlyActive l u inl inu a b := by
  rw [val_main_v45_apply, andi_one, v34_iff, val_main_v44_apply, val_main_v42_apply, val_main_v43_apply,
    v13_at l u inl inu a b, v21_at l u inl inu a b]
  exact and_congr Iff.rfl (cmpf_ole _ _)
theorem v52_iff : val_main_v52 (F := Ideal) l u inl inu (ix2 a b) = 1#1
    ↔ (inactive l u inl inu a b ∨ mostlyInactive l u inl inu a b) := by
  rw [val_main_v52_apply, ori_one, v27_iff l, v41_iff]
theorem v62_iff : val_main_v62 (F := Ideal) l u inl inu (ix2 a b) = 1#1 ↔ zeroCrossing l u inl inu a b := by
  rw [val_main_v62_apply, andi_one, v34_iff, val_main_v61_apply, v60_at, v25_at l u inl inu a b]
  exact and_congr Iff.rfl (cmpf_ole _ _)

/-! ## The slopes and the bias adjustment of a row -/

theorem v51_at : val_main_v51 (F := Ideal) l u inl inu (ix2 a b) = aL l u inl inu a b := by
  rw [val_main_v51_apply, val_main_v50_apply, v49_at, call5_v1_at, val_main_v48_apply, val_main_v47_apply,
    val_main_v46_apply, call4_v1_at, v17_at l u inl inu a b, v13_at l u inl inu a b,
    select_sel (cmpf_olt _ _), select_sel (v34_iff l u inl inu a b)] <;> rfl
theorem v65_at : val_main_v65 (F := Ideal) l u inl inu (ix2 a b) = aU l u inl inu a b := by
  rw [val_main_v65_apply, val_main_v64_apply, val_main_v63_apply, call8_v1_at, v21_at l u inl inu a b,
    v25_at l u inl inu a b, select_sel (v62_iff l u inl inu a b)] <;> rfl
theorem v74_at : val_main_v74 (F := Ideal) l u inl inu (ix2 a b) = biasAdj l u inl inu a b := by
  rw [val_main_v74_apply, val_main_v73_apply, call11_v1_at, v65_at, v25_at l u inl inu a b,
    select_sel (v62_iff l u inl inu a b)] <;> rfl
theorem v75_at : val_main_v75 (F := Ideal) l u inl inu (ix2 a b) = -(biasAdj l u inl inu a b) := by
  rw [val_main_v75_apply, v74_at] <;> rfl

/-! ## The new forms, entry by entry -/

theorem v59_at (c : Fin 785) : val_main_v59 (F := Ideal) l u inl inu (ix3 a b c) = lNew l u inl inu a b c := by
  have e55 : idx_main_v55 (idx_main_call7_v0 (ix3 a b c)) = ix2 a b := by idx2
  have e56 : idx_main_v56 (idx_main_v57 (ix3 a b c)) = ix2 a b := by idx2
  have e53 : idx_main_v53 (idx_main_call6_v1 (ix3 a b c)) = ix2 a b := by idx2
  rw [val_main_v59_apply, val_main_call7_v0_apply, val_main_v55_apply, e55,
    val_main_v58_apply, val_main_v57_apply, val_main_v56_apply, e56, v51_at,
    val_main_v54_apply, val_main_call6_v1_apply, val_main_v53_apply, e53, call6_v2_at,
    select_sel (v45_iff l u inl inu a b), select_sel (v52_iff l u inl inu a b)] <;> rfl
theorem v72_at (c : Fin 785) : val_main_v72 (F := Ideal) l u inl inu (ix3 a b c) = uScaled l u inl inu a b c := by
  have e68 : idx_main_v68 (idx_main_call10_v0 (ix3 a b c)) = ix2 a b := by idx2
  have e69 : idx_main_v69 (idx_main_v70 (ix3 a b c)) = ix2 a b := by idx2
  have e66 : idx_main_v66 (idx_main_call9_v1 (ix3 a b c)) = ix2 a b := by idx2
  rw [val_main_v72_apply, val_main_call10_v0_apply, val_main_v68_apply, e68,
    val_main_v71_apply, val_main_v70_apply, val_main_v69_apply, e69, v65_at,
    val_main_v67_apply, val_main_call9_v1_apply, val_main_v66_apply, e66, call9_v2_at,
    select_sel (v62_iff l u inl inu a b), select_sel (v27_iff l u inl inu a b)] <;> rfl
theorem v77_at (c : Fin 785) : val_main_v77 (F := Ideal) l u inl inu (ix3 a b c) = uNew l u inl inu a b c := by
  have hidx : ∀ q, val_main_v76 (F := Ideal) q = 784#32 := fun q => by rw [val_main_v76_apply, val_main_c_apply]
  unfold val_main_v77
  refine (Cert.Proof.RefScatter.scatter_col_apply _ FloatOps.addf _ _ hidx _ a b c).trans ?_
  rw [v72_at, v75_at, ← sel_eq_ite] <;> rfl

/-! ## The bounds of the new forms -/

theorem v84_at (k : Fin 784) : val_main_v84 (F := Ideal) l u inl inu (ix3 a b k)
    = max zeroW (lNewArr l u inl inu (ix3 a b (coef k))) := by
  have e : idx_main_v78 (ix3 a b k) = ix3 a b (coef k) := by idx3
  rw [val_main_v84_apply, val_main_call12_v1_apply, val_main_call12_v0_apply, val_main_cst_16_apply, val_main_v78_apply, e, v59_at] <;> rfl
theorem v85_at (k : Fin 784) : val_main_v85 (F := Ideal) l u inl inu (ix3 a b k)
    = min zeroW (lNewArr l u inl inu (ix3 a b (coef k))) := by
  have e : idx_main_v78 (ix3 a b k) = ix3 a b (coef k) := by idx3
  rw [val_main_v85_apply, val_main_call13_v1_apply, val_main_call13_v0_apply, val_main_cst_17_apply, val_main_v78_apply, e, v59_at] <;> rfl
theorem v86_at (k : Fin 784) : val_main_v86 (F := Ideal) l u inl inu (ix3 a b k)
    = max zeroW (uNewArr l u inl inu (ix3 a b (coef k))) := by
  have e : idx_main_v81 (ix3 a b k) = ix3 a b (coef k) := by idx3
  rw [val_main_v86_apply, val_main_call14_v1_apply, val_main_call14_v0_apply, val_main_cst_18_apply, val_main_v81_apply, e, v77_at] <;> rfl
theorem v87_at (k : Fin 784) : val_main_v87 (F := Ideal) l u inl inu (ix3 a b k)
    = min zeroW (uNewArr l u inl inu (ix3 a b (coef k))) := by
  have e : idx_main_v81 (ix3 a b k) = ix3 a b (coef k) := by idx3
  rw [val_main_v87_apply, val_main_call15_v1_apply, val_main_call15_v0_apply, val_main_cst_19_apply, val_main_v81_apply, e, v77_at] <;> rfl
theorem v80_at : val_main_v80 (F := Ideal) l u inl inu (ix2 a b) = lNewArr l u inl inu (ix3 a b bias) := by
  have ha := a.isLt
  have hb := b.isLt
  have e : idx_main_v79 (idx_main_v80 (ix2 a b)) = ix3 a b bias := by
    funext d
    match d with
    | ⟨0, _⟩ => exact Fin.ext (by show (a.val * 2048 + b.val) / 2048 = a.val; omega)
    | ⟨1, _⟩ => exact Fin.ext (by show (a.val * 2048 + b.val) / 1 % 2048 = b.val; omega)
    | ⟨2, _⟩ => rfl
  rw [val_main_v80_apply, val_main_v79_apply, e, v59_at] <;> rfl
theorem v83_at : val_main_v83 (F := Ideal) l u inl inu (ix2 a b) = uNewArr l u inl inu (ix3 a b bias) := by
  have ha := a.isLt
  have hb := b.isLt
  have e : idx_main_v82 (idx_main_v83 (ix2 a b)) = ix3 a b bias := by
    funext d
    match d with
    | ⟨0, _⟩ => exact Fin.ext (by show (a.val * 2048 + b.val) / 2048 = a.val; omega)
    | ⟨1, _⟩ => exact Fin.ext (by show (a.val * 2048 + b.val) / 1 % 2048 = b.val; omega)
    | ⟨2, _⟩ => rfl
  rw [val_main_v83_apply, val_main_v82_apply, e, v77_at] <;> rfl
theorem v88_at : val_main_v88 (F := Ideal) l u inl inu (ix2 a b)
    = ∑ k : Fin 784, max zeroW (lNewArr l u inl inu (ix3 a b (coef k))) * inl (ix1 k) := by
  rw [val_main_v88_apply]
  refine Finset.sum_congr rfl (fun k _ => ?_)
  have e1 : lidx_main_v88 (ix2 a b) k = ix3 a b k := by idx3
  have e2 : ridx_main_v88 (ix2 a b) k = ix1 k := by idx1
  rw [e1, e2, v84_at]
theorem v89_at : val_main_v89 (F := Ideal) l u inl inu (ix2 a b)
    = ∑ k : Fin 784, min zeroW (lNewArr l u inl inu (ix3 a b (coef k))) * inu (ix1 k) := by
  rw [val_main_v89_apply]
  refine Finset.sum_congr rfl (fun k _ => ?_)
  have e1 : lidx_main_v89 (ix2 a b) k = ix3 a b k := by idx3
  have e2 : ridx_main_v89 (ix2 a b) k = ix1 k := by idx1
  rw [e1, e2, v85_at]
theorem v96_at : val_main_v96 (F := Ideal) l u inl inu (ix2 a b)
    = ∑ k : Fin 784, max zeroW (uNewArr l u inl inu (ix3 a b (coef k))) * inu (ix1 k) := by
  rw [val_main_v96_apply]
  refine Finset.sum_congr rfl (fun k _ => ?_)
  have e1 : lidx_main_v96 (ix2 a b) k = ix3 a b k := by idx3
  have e2 : ridx_main_v96 (ix2 a b) k = ix1 k := by idx1
  rw [e1, e2, v86_at]
theorem v97_at : val_main_v97 (F := Ideal) l u inl inu (ix2 a b)
    = ∑ k : Fin 784, min zeroW (uNewArr l u inl inu (ix3 a b (coef k))) * inl (ix1 k) := by
  rw [val_main_v97_apply]
  refine Finset.sum_congr rfl (fun k _ => ?_)
  have e1 : lidx_main_v97 (ix2 a b) k = ix3 a b k := by idx3
  have e2 : ridx_main_v97 (ix2 a b) k = ix1 k := by idx1
  rw [e1, e2, v87_at]
theorem v91_at : val_main_v91 (F := Ideal) l u inl inu (ix2 a b) = postLb l u inl inu a b := by
  rw [val_main_v91_apply, val_main_v90_apply, v88_at, v89_at, v80_at] <;> rfl
theorem v99_at : val_main_v99 (F := Ideal) l u inl inu (ix2 a b) = postUb l u inl inu a b := by
  rw [val_main_v99_apply, val_main_v98_apply, v96_at, v97_at, v83_at] <;> rfl

/-! ## The four results -/

section Results
variable (m : (ℓ : Loc nD τ sig) → Buf (Elt Ideal) ℓ) (c : Dev nD)

/-- The first result is the array of the new lower forms. -/
theorem res_v59 : Cert.ReferenceIdeal.ValueP.res_main_v59 m c
    = lNewArr (m ((c.tc : Thread nD τ).loc main_arg0)) (m ((c.tc : Thread nD τ).loc main_arg1))
        (m ((c.tc : Thread nD τ).loc main_arg2)) (m ((c.tc : Thread nD τ).loc main_arg3)) :=
  (val_main_v59_eq m c).trans (funext fun i => by
    obtain ⟨a, b, k, rfl⟩ : ∃ (a : Fin 8) (b : Fin 2048) (k : Fin 785), i = ix3 a b k := ⟨i 0, i 1, i 2, eq_ix3 i⟩
    exact v59_at _ _ _ _ a b k)

/-- The second result is the array of the new upper forms. -/
theorem res_v77 : Cert.ReferenceIdeal.ValueP.res_main_v77 m c
    = uNewArr (m ((c.tc : Thread nD τ).loc main_arg0)) (m ((c.tc : Thread nD τ).loc main_arg1))
        (m ((c.tc : Thread nD τ).loc main_arg2)) (m ((c.tc : Thread nD τ).loc main_arg3)) :=
  (val_main_v77_eq m c).trans (funext fun i => by
    obtain ⟨a, b, k, rfl⟩ : ∃ (a : Fin 8) (b : Fin 2048) (k : Fin 785), i = ix3 a b k := ⟨i 0, i 1, i 2, eq_ix3 i⟩
    exact v77_at _ _ _ _ a b k)

/-- The third result is the least value of each new lower form over the box. -/
theorem res_v91 : Cert.ReferenceIdeal.ValueP.res_main_v91 m c
    = postLbArr (m ((c.tc : Thread nD τ).loc main_arg0)) (m ((c.tc : Thread nD τ).loc main_arg1))
        (m ((c.tc : Thread nD τ).loc main_arg2)) (m ((c.tc : Thread nD τ).loc main_arg3)) :=
  (val_main_v91_eq m c).trans (funext fun i => by
    obtain ⟨a, b, rfl⟩ : ∃ (a : Fin 8) (b : Fin 2048), i = ix2 a b := ⟨i 0, i 1, eq_ix2 i⟩
    exact v91_at _ _ _ _ a b)

/-- The fourth result is the greatest value of each new upper form over the box. -/
theorem res_v99 : Cert.ReferenceIdeal.ValueP.res_main_v99 m c
    = postUbArr (m ((c.tc : Thread nD τ).loc main_arg0)) (m ((c.tc : Thread nD τ).loc main_arg1))
        (m ((c.tc : Thread nD τ).loc main_arg2)) (m ((c.tc : Thread nD τ).loc main_arg3)) :=
  (val_main_v99_eq m c).trans (funext fun i => by
    obtain ⟨a, b, rfl⟩ : ∃ (a : Fin 8) (b : Fin 2048), i = ix2 a b := ⟨i 0, i 1, eq_ix2 i⟩
    exact v99_at _ _ _ _ a b)

end Results

end Cert.Proof.RefValue

end
-- ==== Proof.RefResult.lean ====
/-
  The reference's run with its four results named by what they are: the new lower forms, the new upper forms, and
  the bounds of the two over the box, each as a function of the four argument arrays; the arguments are unchanged.
  The run's composed terms (Proof/RefRun.lean) are those functions entry by entry (Proof/RefValue.lean).
-/
import proofs.«214425_g62758062129325_cont_9to1_m_981_19_alg».proof.Proof.RefRun
import proofs.«214425_g62758062129325_cont_9to1_m_981_19_alg».proof.Proof.RefValue

noncomputable section

open Idealize.ShloMosaic Idealize.ShloMosaic.TcCoe Idealize.SL.Sem
open Cert.ReferenceIdeal Cert.Proof.RefSpec

namespace Cert.Proof.RefResult

/-- Every weakly fair execution of the reference's host program, at the extended reals, from any memory with zero
    counters, terminates with the four results at the specification's four functions of the arguments, and the
    arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = lNewArr (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v77) = uNewArr (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v91) = postLbArr (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v99) = postUbArr (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (Cert.Proof.RefValue.res_v59 m c),
       (h c).2.1.trans (Cert.Proof.RefValue.res_v77 m c),
       (h c).2.2.1.trans (Cert.Proof.RefValue.res_v91 m c),
       (h c).2.2.2.1.trans (Cert.Proof.RefValue.res_v99 m c),
       (h c).2.2.2.2⟩)
    (Cert.Proof.RefRun.run (F := Ideal) m ρ)

end Cert.Proof.RefResult

end
-- ==== Proof.PreFinite.lean ====
/-
  The precondition says the data are real numbers.

  The precondition is the conjunction, over the four argument arrays, of "every entry `x` has `|x| < +∞`", each
  conjunct an `and`-reduction of the comparison's bits over the whole array. If the conjunction's bit is one, every
  comparison's bit is one, and an extended real whose absolute value is below `+∞` is the coercion of a real.
-/
import proofs.«214425_g62758062129325_cont_9to1_m_981_19_alg».proof.Pre_finite_inputs
import proofs.«214425_g62758062129325_cont_9to1_m_981_19_alg».proof.Proof.LibConcretize
import Idealize.ShloMosaic.Lib.ReduceAll
import Idealize.ShloMosaic.Lib.ValueIdx

noncomputable section

open Idealize.ShloMosaic Idealize.ShloMosaic.ValueIdx Cert.Lib.Concretize

namespace Cert.Proof.PreFinite

open Cert.Pre_finite_inputs

variable [Cert.Pre_finite_inputs.Facts]

/-- The scalar shape has one index. -/
instance : Subsingleton S_.Idx := ⟨fun a b => funext fun d => d.elim0⟩

/-- If the finiteness predicate of the four argument arrays is all ones, every entry of each is a real number. -/
theorem finite_of_pre (x0 x1 : FVec Ideal S8x2048x785 .f32) (x2 x3 : FVec Ideal S784 .f32)
    (h : Cert.Pre_finite_inputs.fn (F := Ideal) x0 x1 x2 x3 = fun _ => 1#1) :
    (∀ i, IsReal (x0 i)) ∧ (∀ i, IsReal (x1 i)) ∧ (∀ i, IsReal (x2 i)) ∧ (∀ i, IsReal (x3 i)) := by
  have h0 := congrFun h ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun i => isReal_of_cmp_abs_lt_inf (Host.reduce_andi_all _ _ _ _ ix0 h3 i),
    fun i => isReal_of_cmp_abs_lt_inf (Host.reduce_andi_all _ _ _ _ ix0 h7 i),
    fun i => isReal_of_cmp_abs_lt_inf (Host.reduce_andi_all _ _ _ _ ix0 h12 i),
    fun i => isReal_of_cmp_abs_lt_inf (Host.reduce_andi_all _ _ _ _ ix0 h17 i)⟩

end Cert.Proof.PreFinite

end
-- ==== Proof.KIVMain.lean ====
/-
  The program's run, with what it computes. As in the run that only keeps the arguments: @main computes the two tables,
  deals the arrays of the call out to the tiles, gets them back, and reshapes the two bound vectors. Now every tile
  hands its slices back holding the results' values, so after the call the two coefficient arrays hold the rescaled
  forms of every row and the two bound vectors the rows' concretized bounds; the reshapes lay the bound vectors out by
  batch and row. On finite data these are the reference's four results.
-/
import proofs.«214425_g62758062129325_cont_9to1_m_981_19_alg».proof.Proof.KIVSplit
import proofs.«214425_g62758062129325_cont_9to1_m_981_19_alg».proof.Proof.KIVObl
import proofs.«214425_g62758062129325_cont_9to1_m_981_19_alg».proof.Proof.KIVHost
import proofs.«214425_g62758062129325_cont_9to1_m_981_19_alg».proof.Proof.KIVTask
import proofs.«214425_g62758062129325_cont_9to1_m_981_19_alg».proof.Proof.RefResult
import proofs.«214425_g62758062129325_cont_9to1_m_981_19_alg».proof.Proof.PreFinite

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

attribute [local irreducible] tileGo tileTd in
theorem st0V_eq (d : Dev nD) :
    (bigSep Finset.univ fun c : Fin ((K (F := Ideal)).nCore 0) => (PV m).st 0 d c) = bigSep Finset.univ fun c => bigSep Finset.univ fun i => tileGo m d c i := rfl
attribute [local irreducible] tileGo tileTd in
theorem dn0V_eq (d : Dev nD) :
    (bigSep Finset.univ fun c : Fin ((K (F := Ideal)).nCore 0) => (PV m).dn 0 d c) = bigSep Finset.univ fun c => bigSep Finset.univ fun i => tileTd m d c i := rfl

/-- The two bound vectors laid out by batch and row. -/
abbrev R7 (d : Dev nD) : Buf (Elt Ideal) (tloc d main_v7) := shapeCast S8x2048 (GPB m d) shapeCasts_S16384_S8x2048
abbrev R8 (d : Dev nD) : Buf (Elt Ideal) (tloc d main_v8) := shapeCast S8x2048 (GQB m d) shapeCasts_S16384_S8x2048

theorem R7_eq (d : Dev nD) :
    ((op10 (F := Ideal)).result ((op9 (F := Ideal)).result (Vp m d (GPB m d) (GQB m d)))) (rf main_v7) = R7 m d :=
  (v7_after _).trans (congrArg (fun g => shapeCast S8x2048 g shapeCasts_S16384_S8x2048) (Vp_2 m d _ _))
theorem R8_eq (d : Dev nD) :
    ((op10 (F := Ideal)).result ((op9 (F := Ideal)).result (Vp m d (GPB m d) (GQB m d)))) (rf main_v8) = R8 m d :=
  (v8_after _).trans (congrArg (fun g => shapeCast S8x2048 g shapeCasts_S16384_S8x2048) (Vp_3 m d _ _))

/-- What @main leaves the claim: the four arguments at their launch contents and the four results at their values. -/
abbrev FINV (d : Dev nD) : sProp 𝕄 :=
  iprop((tloc d main_arg0 ↦{Transfers.shareDrop fullShare (grid0.bound 0)} m (tloc d main_arg0))
    ∗ (tloc d main_arg1 ↦{Transfers.shareDrop fullShare (grid0.bound 0)} m (tloc d main_arg1))
    ∗ (tloc d main_arg2 ↦{fullShare} m (tloc d main_arg2)) ∗ (tloc d main_arg3 ↦{fullShare} m (tloc d main_arg3))
    ∗ (tloc d main_v6_0 ↦{fullShare} GLO m d) ∗ (tloc d main_v6_1 ↦{fullShare} GUO m d)
    ∗ (tloc d main_v7 ↦{fullShare} R7 m d) ∗ (tloc d main_v8 ↦{fullShare} R8 m d))

set_option maxHeartbeats 4000000 in
theorem hmainV (κ : GSem nD τ sig → ℕ) (d : Dev nD) :
    iprop((K (F := Ideal)).ctx EH (PV m) κ ∗ (K (F := Ideal)).tcSt EH d 0 ∗ (K (F := Ideal)).tcRes m ρ d ∗ emp)
      ⊢ (wp Idealize.ShloMosaic.frame (wpE ((K (F := Ideal)).defs (D (F := Ideal))) 𝒱 (SparseCore.T d) none) Set.univ (main d)
          fun _ => iprop((K (F := Ideal)).tcSt EH d 1 ∗ FINV m d) : sProp 𝕄) := by
  unfold SparseCore.Cfg.tcRes
  rw [unscopedBufs_eq]
  simp only [main, wp_bind, wp_pure]
  iintro ⟨#Hctx, Hst, ⟨Hb, ⟨H_arg0, H_arg1, H_arg2, H_arg3, H_v0, H_cst, H_v1, H_v2, H_v3, H_cst_0, H_v4, H_v5, H_v6_0, H_v6_1, H_v6_2, H_v6_3, H_v7, H_v8⟩, -, -⟩, -⟩
  ihave Hpre := (Entails.of_eq (held_Spre (F := Ideal) d (V0 m d)).symm) $$ [H_arg2 H_arg3 H_v0 H_cst H_v1 H_v2 H_v3 H_cst_0 H_v4 H_v5]
  · isplitl [H_arg2]; · iexact H_arg2
    isplitl [H_arg3]; · iexact H_arg3
    isplitl [H_v0]; · iexact H_v0
    isplitl [H_cst]; · iexact H_cst
    isplitl [H_v1]; · iexact H_v1
    isplitl [H_v2]; · iexact H_v2
    isplitl [H_v3]; · iexact H_v3
    isplitl [H_cst_0]; · iexact H_cst_0
    isplitl [H_v4]; · iexact H_v4
    iexact H_v5
  iapply (wp_hlo_within 𝒱 (SparseCore.T d) none Set.univ (op := op1) (S := Spre) (hsub1 (F := Ideal)) (V := (V0 m d))) $$ [Hb Hpre]
  · isplitl [Hb]; · iexact Hb
    iexact Hpre
  iintro ⟨Hb, Hpre⟩
  rw [wp_ret]; imodintro
  iapply (wp_hlo_within 𝒱 (SparseCore.T d) none Set.univ (op := op2) (S := Spre) (hsub2 (F := Ideal)) (V := ((op1 (F := Ideal)).result (V0 m d)))) $$ [Hb Hpre]
  · isplitl [Hb]; · iexact Hb
    iexact Hpre
  iintro ⟨Hb, Hpre⟩
  rw [wp_ret]; imodintro
  iapply (wp_hlo_within 𝒱 (SparseCore.T d) none Set.univ (op := op3) (S := Spre) (hsub3 (F := Ideal)) (V := ((op2 (F := Ideal)).result ((op1 (F := Ideal)).result (V0 m d))))) $$ [Hb Hpre]
  · isplitl [Hb]; · iexact Hb
    iexact Hpre
  iintro ⟨Hb, Hpre⟩
  rw [wp_ret]; imodintro
  iapply (wp_hlo_within 𝒱 (SparseCore.T d) none Set.univ (op := op4) (S := Spre) (hsub4 (F := Ideal)) (V := ((op3 (F := Ideal)).result ((op2 (F := Ideal)).result ((op1 (F := Ideal)).result (V0 m d)))))) $$ [Hb Hpre]
  · isplitl [Hb]; · iexact Hb
    iexact Hpre
  iintro ⟨Hb, Hpre⟩
  rw [wp_ret]; imodintro
  iapply (wp_hlo_within 𝒱 (SparseCore.T d) none Set.univ (op := op5) (S := Spre) (hsub5 (F := Ideal)) (V := ((op4 (F := Ideal)).result ((op3 (F := Ideal)).result ((op2 (F := Ideal)).result ((op1 (F := Ideal)).result (V0 m d))))))) $$ [Hb Hpre]
  · isplitl [Hb]; · iexact Hb
    iexact Hpre
  iintro ⟨Hb, Hpre⟩
  rw [wp_ret]; imodintro
  iapply (wp_hlo_within 𝒱 (SparseCore.T d) none Set.univ (op := op6) (S := Spre) (hsub6 (F := Ideal)) (V := ((op5 (F := Ideal)).result ((op4 (F := Ideal)).result ((op3 (F := Ideal)).result ((op2 (F := Ideal)).result ((op1 (F := Ideal)).result (V0 m d)))))))) $$ [Hb Hpre]
  · isplitl [Hb]; · iexact Hb
    iexact Hpre
  iintro ⟨Hb, Hpre⟩
  rw [wp_ret]; imodintro
  iapply (wp_hlo_within 𝒱 (SparseCore.T d) none Set.univ (op := op7) (S := Spre) (hsub7 (F := Ideal)) (V := ((op6 (F := Ideal)).result ((op5 (F := Ideal)).result ((op4 (F := Ideal)).result ((op3 (F := Ideal)).result ((op2 (F := Ideal)).result ((op1 (F := Ideal)).result (V0 m d))))))))) $$ [Hb Hpre]
  · isplitl [Hb]; · iexact Hb
    iexact Hpre
  iintro ⟨Hb, Hpre⟩
  rw [wp_ret]; imodintro
  iapply (wp_hlo_within 𝒱 (SparseCore.T d) none Set.univ (op := op8) (S := Spre) (hsub8 (F := Ideal)) (V := ((op7 (F := Ideal)).result ((op6 (F := Ideal)).result ((op5 (F := Ideal)).result ((op4 (F := Ideal)).result ((op3 (F := Ideal)).result ((op2 (F := Ideal)).result ((op1 (F := Ideal)).result (V0 m d)))))))))) $$ [Hb Hpre]
  · isplitl [Hb]; · iexact Hb
    iexact Hpre
  iintro ⟨Hb, Hpre⟩
  rw [wp_ret]; imodintro
  ihave Hp := (Entails.of_eq (held_Spre (F := Ideal) d _)) $$ Hpre
  icases Hp with ⟨A2, A3, X0, XC, X1, X2, X3, XC0, X4, X5⟩
  ihave A2 := (Entails.of_eq (congrArg (fun f => (tloc d main_arg2 ↦{fullShare} f : sProp 𝕄)) (keeps_arg2 m d))) $$ A2
  ihave A3 := (Entails.of_eq (congrArg (fun f => (tloc d main_arg3 ↦{fullShare} f : sProp 𝕄)) (keeps_arg3 m d))) $$ A3
  ihave X2 := (Entails.of_eq (congrArg (fun f => (tloc d main_v2 ↦{fullShare} f : sProp 𝕄)) (fcM_val m d))) $$ X2
  ihave X5 := (Entails.of_eq (congrArg (fun f => (tloc d main_v5 ↦{fullShare} f : sProp 𝕄)) (frM_val m d))) $$ X5
  ihave Hsh := (st_introV m d _ _ _ _) $$ [X2 X5 H_arg0 H_arg1 H_v6_0 H_v6_1 H_v6_2 H_v6_3]
  · isplitl [X2]; · iexact X2
    isplitl [X5]; · iexact X5
    isplitl [H_arg0]; · iexact H_arg0
    isplitl [H_arg1]; · iexact H_arg1
    isplitl [H_v6_0]; · iexact H_v6_0
    isplitl [H_v6_1]; · iexact H_v6_1
    isplitl [H_v6_2]; · iexact H_v6_2
    iexact H_v6_3
  icases Hsh with ⟨L0, U0, Htiles⟩
  iapply ((K (F := Ideal)).wp_run (D (F := Ideal)) 𝒱 (EH := EH) (P := PV m) κ d 0) $$ [Hst Htiles Hb H_v7 H_v8 L0 U0 A2 A3]
  isplitr; · iexact Hctx
  isplitl [Hst]; · iexact Hst
  isplitl [Htiles]
  · rw [st0V_eq]; iexact Htiles
  iintro ⟨Hst, Hdn⟩
  ihave Hdn' := (Entails.of_eq (dn0V_eq m d)) $$ Hdn
  ihave Hv := (dn_vals m d) $$ Hdn'
  icases Hv with ⟨G0, G1, G2, G3⟩
  ihave Hpost := (Entails.of_eq (held_Spost (F := Ideal) d (Vp m d (GPB m d) (GQB m d))).symm) $$ [G2 G3 H_v7 H_v8]
  · rw [Vp_2, Vp_3, Vp_7, Vp_8]
    isplitl [G2]; · iexact G2
    isplitl [G3]; · iexact G3
    isplitl [H_v7]; · iexact H_v7
    iexact H_v8
  iapply (wp_hlo_within 𝒱 (SparseCore.T d) none Set.univ (op := op9) (S := Spost) (hsub9 (F := Ideal)) (V := Vp m d (GPB m d) (GQB m d))) $$ [Hb Hpost]
  · isplitl [Hb]; · iexact Hb
    iexact Hpost
  iintro ⟨Hb, Hpost⟩
  rw [wp_ret]; imodintro
  iapply (wp_hlo_within 𝒱 (SparseCore.T d) none Set.univ (op := op10) (S := Spost) (hsub10 (F := Ideal)) (V := (op9 (F := Ideal)).result (Vp m d (GPB m d) (GQB m d)))) $$ [Hb Hpost]
  · isplitl [Hb]; · iexact Hb
    iexact Hpost
  iintro ⟨Hb, Hpost⟩
  rw [wp_ret]; imodintro; imodintro
  ihave Hp2 := (Entails.of_eq (held_Spost (F := Ideal) d _)) $$ Hpost
  icases Hp2 with ⟨-, -, Y7, Y8⟩
  ihave Y7 := (Entails.of_eq (congrArg (fun f => (tloc d main_v7 ↦{fullShare} f : sProp 𝕄)) (R7_eq m d))) $$ Y7
  ihave Y8 := (Entails.of_eq (congrArg (fun f => (tloc d main_v8 ↦{fullShare} f : sProp 𝕄)) (R8_eq m d))) $$ Y8
  isplitl [Hst]; · iexact Hst
  isplitl [L0]; · iexact L0
  isplitl [U0]; · iexact U0
  isplitl [A2]; · iexact A2
  isplitl [A3]; · iexact A3
  isplitl [G0]; · iexact G0
  isplitl [G1]; · iexact G1
  isplitl [Y7]; · iexact Y7
  iexact Y8

/-! ## The launch element: the handshakes' rounds; nothing of the kernel's own -/

theorem hu₀V : (ownU (u₀ (F := Ideal)) : sProp 𝕄)
    ⊢ |={Set.univ}=> iprop(BI.own (EH (initOf (K (F := Ideal)).hsCells (K (F := Ideal)).hsToks)) ∗ (bigSep Finset.univ fun _ : Dev nD => iprop(emp))
        ∗ bigSep Finset.univ fun thr : Thread nD τ => bigSep Finset.univ fun q : Fin 1 => (PV m).x q thr) := by
  unfold u₀
  iintro Hu
  ihave H := (ownU_pair _ _) $$ Hu
  icases H with ⟨HH, -⟩
  imodintro
  isplitl [HH]; · iexact HH
  isplitr; · rw [bigSep_emp']; iempintro
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The claim read off the final memory -/

def fqV (d : Dev nD) (s' : Phys nD τ sig (Elt Ideal)) : Prop :=
  s'.mem.mem (tloc d main_v6_0) = GLO m d ∧ s'.mem.mem (tloc d main_v6_1) = GUO m d
    ∧ s'.mem.mem (tloc d main_v7) = R7 m d ∧ s'.mem.mem (tloc d main_v8) = R8 m d
    ∧ s'.mem.mem (tloc d main_arg0) = m (tloc d main_arg0) ∧ s'.mem.mem (tloc d main_arg1) = m (tloc d main_arg1)
    ∧ s'.mem.mem (tloc d main_arg2) = m (tloc d main_arg2) ∧ s'.mem.mem (tloc d main_arg3) = m (tloc d main_arg3)

theorem hfinV (d : Dev nD) (s' : Phys nD τ sig (Elt Ideal)) : iprop(FINV m d ∗ SI s') ⊢ (⌜fqV m d s'⌝ : sProp 𝕄) := by
  iintro ⟨⟨H0, H1, H2, H3, H4, H5, H6, H7⟩, HSI⟩
  ihave H := (persistent_entails_right (SI_pointsTo_agree (st := s') (ℓ := tloc d main_arg0) (I := Finset.univ) (f := m (tloc d main_arg0)))) $$ [HSI H0]
  · isplitl [HSI] <;> iassumption
  icases H with ⟨%h0, HSI, -⟩
  ihave H := (persistent_entails_right (SI_pointsTo_agree (st := s') (ℓ := tloc d main_arg1) (I := Finset.univ) (f := m (tloc d main_arg1)))) $$ [HSI H1]
  · isplitl [HSI] <;> iassumption
  icases H with ⟨%h1, HSI, -⟩
  ihave H := (persistent_entails_right (SI_pointsTo_agree (st := s') (ℓ := tloc d main_arg2) (I := Finset.univ) (f := m (tloc d main_arg2)))) $$ [HSI H2]
  · isplitl [HSI] <;> iassumption
  icases H with ⟨%h2, HSI, -⟩
  ihave H := (persistent_entails_right (SI_pointsTo_agree (st := s') (ℓ := tloc d main_arg3) (I := Finset.univ) (f := m (tloc d main_arg3)))) $$ [HSI H3]
  · isplitl [HSI] <;> iassumption
  icases H with ⟨%h3, HSI, -⟩
  ihave H := (persistent_entails_right (SI_pointsTo_agree (st := s') (ℓ := tloc d main_v6_0) (I := Finset.univ) (f := GLO m d))) $$ [HSI H4]
  · isplitl [HSI] <;> iassumption
  icases H with ⟨%h4, HSI, -⟩
  ihave H := (persistent_entails_right (SI_pointsTo_agree (st := s') (ℓ := tloc d main_v6_1) (I := Finset.univ) (f := GUO m d))) $$ [HSI H5]
  · isplitl [HSI] <;> iassumption
  icases H with ⟨%h5, HSI, -⟩
  ihave H := (persistent_entails_right (SI_pointsTo_agree (st := s') (ℓ := tloc d main_v7) (I := Finset.univ) (f := R7 m d))) $$ [HSI H6]
  · isplitl [HSI] <;> iassumption
  icases H with ⟨%h6, HSI, -⟩
  ihave H := (SI_pointsTo_agree (st := s') (ℓ := tloc d main_v8) (I := Finset.univ) (f := R8 m d)) $$ [HSI H7]
  · isplitl [HSI] <;> iassumption
  icases H with %h7
  ipureintro
  exact ⟨funext fun i => h4 i (Finset.mem_univ i), funext fun i => h5 i (Finset.mem_univ i),
    funext fun i => h6 i (Finset.mem_univ i), funext fun i => h7 i (Finset.mem_univ i),
    funext fun i => h0 i (Finset.mem_univ i), funext fun i => h1 i (Finset.mem_univ i),
    funext fun i => h2 i (Finset.mem_univ i), funext fun i => h3 i (Finset.mem_univ i)⟩

/-! ## The program's run -/

def QCV : PUnit × MemSt nD τ sig (Elt Ideal) → Prop := fun r => ∀ c : Dev nD,
  r.2.mem (tloc c main_v6_0) = GLO m c ∧ r.2.mem (tloc c main_v6_1) = GUO m c
    ∧ r.2.mem (tloc c main_v7) = R7 m c ∧ r.2.mem (tloc c main_v8) = R8 m c
    ∧ r.2.mem (tloc c main_arg0) = m (tloc c main_arg0) ∧ r.2.mem (tloc c main_arg1) = m (tloc c main_arg1)
    ∧ r.2.mem (tloc c main_arg2) = m (tloc c main_arg2) ∧ r.2.mem (tloc c main_arg3) = m (tloc c main_arg3)

theorem tasksV : TileTasksV m := fun d c i => tile_task_all d (coordsV c i) _ _ _ _ _ _ _ _ _ _

/-- Every weakly fair execution of the device's threads terminates without a fault; the four results end at their
    functions of the launch memory and the four arguments as they began. -/
theorem run_mainV :
    θ_run (defs (F := Ideal)) (threads (F := Ideal)) ⟨m, fun _ => 0, ρ⟩ (QCV m) :=
  SparseCore.Cfg.θ_run_sc (K := K (F := Ideal)) (D := D (F := Ideal)) (𝒱 := 𝒱) (EH := EH) (P := PV m) facts v₀
    (fun q hq => match q with | 0 => nomatch hq)
    (fun q _ => match q with | 0 => tileOblV m (tasksV m))
    (fun q _ => match q with | 0 => SparseCore.Cfg.VecSplit.of_plain (vecSplitV m))
    m ρ main (fun _ => iprop(emp)) (FINV m) (u₀ (F := Ideal)) (sep_elim_left.trans (hu₀V m)) (hmainV m ρ) (fqV m) (hfinV m) (QCV m) (fun _ h => h)

end Cert.Proof.KI

end
-- ==== Proof.KIVAlg.lean ====
/-
  The kernel and the reference compute the same four arrays of finite data.

  The kernel's run leaves, as functions of the launch memory, the rescaled forms of every row (from the centre and
  radius tables @main computed) and the rows' rescaled bounds, the bounds laid out by batch and row. The reference's
  run leaves its own four functions of the same memory. The precondition makes every datum a real number; on real
  data the two arrangements agree entry by entry, so the two runs end with equal results.
-/
import proofs.«214425_g62758062129325_cont_9to1_m_981_19_alg».proof.Proof.KIVMain

noncomputable section

namespace Cert.Proof.KI

open Cert.KernelIdeal Cert.KernelIdeal.Gen
open Idealize.ShloMosaic Idealize.ShloMosaic.ValueIdx Idealize.SL.Sem
open Idealize.ShloMosaic.SparseCore (S V T)

variable (m : (ℓ : Loc nD τ sig) → Buf (Elt Ideal) ℓ)

/-- The precondition at one device. -/
abbrev PreAt (c : Dev nD) : Prop :=
  Cert.Pre_finite_inputs.fn (F := Ideal) (m (tloc c main_arg0)) (m (tloc c main_arg1)) (m (tloc c main_arg2)) (m (tloc c main_arg3)) = fun _ => 1#1

theorem glo_eq (c : Dev nD) (hpre : PreAt m c) :
    GLO m c = RefSpec.lNewArr (m (tloc c main_arg0)) (m (tloc c main_arg1)) (m (tloc c main_arg2)) (m (tloc c main_arg3)) := by
  obtain ⟨hl, hu, hinl, hinu⟩ := Cert.Proof.PreFinite.finite_of_pre _ _ _ _ hpre
  funext x
  exact Bridge.newL_eq hl hu hinl hinu (fun k => fcM_eq m c (ix1 k)) (fun k => frM_eq m c (ix1 k)) (x 0) (x 1) (x 2)

theorem guo_eq (c : Dev nD) (hpre : PreAt m c) :
    GUO m c = RefSpec.uNewArr (m (tloc c main_arg0)) (m (tloc c main_arg1)) (m (tloc c main_arg2)) (m (tloc c main_arg3)) := by
  obtain ⟨hl, hu, hinl, hinu⟩ := Cert.Proof.PreFinite.finite_of_pre _ _ _ _ hpre
  funext x
  exact Bridge.newU_eq hl hu hinl hinu (fun k => fcM_eq m c (ix1 k)) (fun k => frM_eq m c (ix1 k)) (x 0) (x 1) (x 2)

theorem r7_eq (c : Dev nD) (hpre : PreAt m c) :
    R7 m c = RefSpec.postLbArr (m (tloc c main_arg0)) (m (tloc c main_arg1)) (m (tloc c main_arg2)) (m (tloc c main_arg3)) := by
  obtain ⟨hl, hu, hinl, hinu⟩ := Cert.Proof.PreFinite.finite_of_pre _ _ _ _ hpre
  show shapeCast S8x2048 (Gplb (cpM m c) (rpM m c) _ _) shapeCasts_S16384_S8x2048 = _
  rw [reshape_plb]
  funext i
  exact Bridge.plb_eq hl hu hinl hinu (fun k => fcM_eq m c (ix1 k)) (fun k => frM_eq m c (ix1 k)) (i 0) (i 1)

theorem r8_eq (c : Dev nD) (hpre : PreAt m c) :
    R8 m c = RefSpec.postUbArr (m (tloc c main_arg0)) (m (tloc c main_arg1)) (m (tloc c main_arg2)) (m (tloc c main_arg3)) := by
  obtain ⟨hl, hu, hinl, hinu⟩ := Cert.Proof.PreFinite.finite_of_pre _ _ _ _ hpre
  show shapeCast S8x2048 (Gpub (cpM m c) (rpM m c) _ _) shapeCasts_S16384_S8x2048 = _
  rw [reshape_pub]
  funext i
  exact Bridge.pub_eq hl hu hinl hinu (fun k => fcM_eq m c (ix1 k)) (fun k => frM_eq m c (ix1 k)) (i 0) (i 1)

/-- `Cert.algebraic_KernelIdeal_ReferenceIdeal` (Defs.lean). -/
theorem algebraic : Cert.algebraic_KernelIdeal_ReferenceIdeal := by
  intro m ρ m' ρ' hpre hagree
  refine ⟨fun c => GLO m c, fun c => GUO m c, fun c => R7 m c, fun c => R8 m c, ?_, ?_⟩
  · exact (θ_run Cert.KernelIdeal.defs _ _).mono (fun _ h c => h c) (run_mainV m ρ)
  · refine (θ_run Cert.ReferenceIdeal.defs _ _).mono (fun _ h c => ?_) (Cert.Proof.RefResult.run_spec m' ρ')
    obtain ⟨h0, h1, h2, h3, hargs⟩ := h c
    obtain ⟨a0, a1, a2, a3⟩ := hagree c
    refine ⟨?_, ?_, ?_, ?_, hargs⟩
    · rw [h0, a0, a1, a2, a3]; exact (glo_eq m c (hpre c)).symm
    · rw [h1, a0, a1, a2, a3]; exact (guo_eq m c (hpre c)).symm
    · rw [h2, a0, a1, a2, a3]; exact (r7_eq m c (hpre c)).symm
    · rw [h3, a0, a1, a2, a3]; exact (r8_eq m c (hpre c)).symm

end Cert.Proof.KI

end
-- ==== Proof.lean ====
/-
  The five claims of this certificate: the three frames, the idealization's ledger (empty) and the equality of results at
  the ideal instance. The kernel is a SparseCore kernel over 2 × 16 tiles: each tile concretizes 512 rows of two arrays of
  affine forms over an input box (lower and upper bound of each form through the box's centre and radius), decides each
  row's relaxation case, rescales the row and records the concretized bounds of the rescaled forms; the reference does the
  same row by row with interval arithmetic. The frames of the two kernel programs: Proof/KMain.lean and Proof/KIMain.lean
  (the tile's task: Proof/K*Rows, K*Trip, K*Body; the division of the arrays among the tiles: K*Geom). The reference's
  frame: Proof/RefFrame.lean. The equality of results: Proof/KIVAlg.lean — the kernel's run with its results as functions
  of the arguments (what a row trip computes: Proof/KIVRowVal, KIVRowBuf, KIVRowAcc, KIVRowFinal; carried through the loops
  and the launch: Proof/KIVLoop, KIVTrip, KIVBody, KIVMain), the reference's run with its results (Proof/RefRun, RefValue,
  RefResult), and the algebra between the two arrangements over finite inputs (Proof/LibConcretize, Bridge).
-/
import proofs.«214425_g62758062129325_cont_9to1_m_981_19_alg».proof.Defs
import proofs.«214425_g62758062129325_cont_9to1_m_981_19_alg».proof.Proof.Gen.Kernel
import proofs.«214425_g62758062129325_cont_9to1_m_981_19_alg».proof.Proof.Gen.Kernel.Skeleton
import proofs.«214425_g62758062129325_cont_9to1_m_981_19_alg».proof.Proof.Gen.KernelIdeal
import proofs.«214425_g62758062129325_cont_9to1_m_981_19_alg».proof.Proof.Gen.KernelIdeal.Skeleton
import proofs.«214425_g62758062129325_cont_9to1_m_981_19_alg».proof.Proof.Gen.ReferenceIdeal
import proofs.«214425_g62758062129325_cont_9to1_m_981_19_alg».proof.Proof.Gen.Pre_finite_inputs
import proofs.«214425_g62758062129325_cont_9to1_m_981_19_alg».proof.Proof.KMain
import proofs.«214425_g62758062129325_cont_9to1_m_981_19_alg».proof.Proof.KIMain
import proofs.«214425_g62758062129325_cont_9to1_m_981_19_alg».proof.Proof.RefFrame
import proofs.«214425_g62758062129325_cont_9to1_m_981_19_alg».proof.Proof.KIVAlg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.K.frame, Cert.Proof.KI.frame, Cert.Proof.RefFrame.frame_ri, trivial, Cert.Proof.KI.algebraic⟩

end Cert.Proof

end
